-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v668)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v668) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v670) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000 : Shape := ⟨1, ![10000]⟩
abbrev S2x160000 : Shape := ⟨2, ![2, 160000]⟩
abbrev S160000 : Shape := ⟨1, ![160000]⟩
abbrev S2000 : Shape := ⟨1, ![2000]⟩
abbrev S100x300 : Shape := ⟨2, ![100, 300]⟩
abbrev S7x5x300 : Shape := ⟨3, ![7, 5, 300]⟩
abbrev S7x300x600 : Shape := ⟨3, ![7, 300, 600]⟩
abbrev S7x600 : Shape := ⟨2, ![7, 600]⟩
abbrev S7x600x300 : Shape := ⟨3, ![7, 600, 300]⟩
abbrev S7x300 : Shape := ⟨2, ![7, 300]⟩
abbrev S7 : Shape := ⟨1, ![7]⟩
abbrev S300x10 : Shape := ⟨2, ![300, 10]⟩
abbrev S10 : Shape := ⟨1, ![10]⟩
abbrev S_ : Shape := ⟨0, ![]⟩

class Facts : Prop where
  bcast_S_S100x300 : S_.BroadcastsInDim S100x300 (![] : Fin 0 → Fin S100x300.rank)
  reducesTo_S100x300_S_d0_1 : S100x300.ReducesTo [0, 1] S_
  h_S_ : 0 < S_.numel
  bcast_S_S7x5x300 : S_.BroadcastsInDim S7x5x300 (![] : Fin 0 → Fin S7x5x300.rank)
  reducesTo_S7x5x300_S_d0_1_2 : S7x5x300.ReducesTo [0, 1, 2] S_
  bcast_S_S7x300x600 : S_.BroadcastsInDim S7x300x600 (![] : Fin 0 → Fin S7x300x600.rank)
  reducesTo_S7x300x600_S_d0_1_2 : S7x300x600.ReducesTo [0, 1, 2] S_
  bcast_S_S7x600 : S_.BroadcastsInDim S7x600 (![] : Fin 0 → Fin S7x600.rank)
  reducesTo_S7x600_S_d0_1 : S7x600.ReducesTo [0, 1] S_
  bcast_S_S7x600x300 : S_.BroadcastsInDim S7x600x300 (![] : Fin 0 → Fin S7x600x300.rank)
  reducesTo_S7x600x300_S_d0_1_2 : S7x600x300.ReducesTo [0, 1, 2] S_
  bcast_S_S7x300 : S_.BroadcastsInDim S7x300 (![] : Fin 0 → Fin S7x300.rank)
  reducesTo_S7x300_S_d0_1 : S7x300.ReducesTo [0, 1] S_
  bcast_S_S7 : S_.BroadcastsInDim S7 (![] : Fin 0 → Fin S7.rank)
  reducesTo_S7_S_d0 : S7.ReducesTo [0] S_
  bcast_S_S300x10 : S_.BroadcastsInDim S300x10 (![] : Fin 0 → Fin S300x10.rank)
  reducesTo_S300x10_S_d0_1 : S300x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg16 : FVec F S300x10 .f32) (main_arg17 : FVec F S10 .f32) (main_v48 : IVec S_ 1) (main_v49 : FVec F S7x300 .f32) (main_v50 : FVec F S7x300 .f32) : IVec S_ 1 :=
  let main_v51 : IVec S7x300 1 := cmpf .olt main_v49 main_v50
  let main_c_19 : IVec S_ 1 := constantI S_ 1 1#1
  let main_v52 : IVec S_ 1 := (fun x v => Host.reduce IntOp.andi x v reducesTo_S7x300_S_d0_1 h_S_) main_v51 main_c_19
  let main_v53 : IVec S_ 1 := andi main_v48 main_v52
  let main_v54 : FVec F S300x10 .f32 := Host.absf main_arg16
  let main_cst_20 : FVec F S_ .f32 := constant S_ .f32 0x7F800000#32
  let main_v55 : FVec F S300x10 .f32 := broadcastInDim S300x10 ![] bcast_S_S300x10 main_cst_20
  let main_v56 : IVec S300x10 1 := cmpf .olt main_v54 main_v55
  let main_c_21 : IVec S_ 1 := constantI S_ 1 1#1
  let main_v57 : IVec S_ 1 := (fun x v => Host.reduce IntOp.andi x v reducesTo_S300x10_S_d0_1 h_S_) main_v56 main_c_21
  let main_v58 : IVec S_ 1 := andi main_v53 main_v57
  let main_v59 : FVec F S10 .f32 := Host.absf main_arg17
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg12 : FVec F S7x300 .f32) (main_arg13 : FVec F S7 .f32) (main_arg14 : FVec F S7x300 .f32) (main_arg15 : FVec F S7x300 .f32) (main_arg16 : FVec F S300x10 .f32) (main_arg17 : FVec F S10 .f32) (main_v33 : IVec S_ 1) : IVec S_ 1 :=
  let main_v34 : FVec F S7x300 .f32 := Host.absf main_arg12
  let main_cst_12 : FVec F S_ .f32 := constant S_ .f32 0x7F800000#32
  let main_v35 : FVec F S7x300 .f32 := broadcastInDim S7x300 ![] bcast_S_S7x300 main_cst_12
  let main_v36 : IVec S7x300 1 := cmpf .olt main_v34 main_v35
  let main_c_13 : IVec S_ 1 := constantI S_ 1 1#1
  let main_v37 : IVec S_ 1 := (fun x v => Host.reduce IntOp.andi x v reducesTo_S7x300_S_d0_1 h_S_) main_v36 main_c_13
  let main_v38 : IVec S_ 1 := andi main_v33 main_v37
  let main_v39 : FVec F S7 .f32 := Host.absf main_arg13
  let main_cst_14 : FVec F S_ .f32 := constant S_ .f32 0x7F800000#32
  let main_v40 : FVec F S7 .f32 := broadcastInDim S7 ![] bcast_S_S7 main_cst_14
  let main_v41 : IVec S7 1 := cmpf .olt main_v39 main_v40
  let main_c_15 : IVec S_ 1 := constantI S_ 1 1#1
  let main_v42 : IVec S_ 1 := (fun x v => Host.reduce IntOp.andi x v reducesTo_S7_S_d0 h_S_) main_v41 main_c_15
  let main_v43 : IVec S_ 1 := andi main_v38 main_v42
  let main_v44 : FVec F S7x300 .f32 := Host.absf main_arg14
  let main_cst_16 : FVec F S_ .f32 := constant S_ .f32 0x7F800000#32
  let main_v45 : FVec F S7x300 .f32 := broadcastInDim S7x300 ![] bcast_S_S7x300 main_cst_16
  let main_v46 : IVec S7x300 1 := cmpf .olt main_v44 main_v45
  let main_c_17 : IVec S_ 1 := constantI S_ 1 1#1
  let main_v47 : IVec S_ 1 := (fun x v => Host.reduce IntOp.andi x v reducesTo_S7x300_S_d0_1 h_S_) main_v46 main_c_17
  let main_v48 : IVec S_ 1 := andi main_v43 main_v47
  let main_v49 : FVec F S7x300 .f32 := Host.absf main_arg15
  let main_cst_18 : FVec F S_ .f32 := constant S_ .f32 0x7F800000#32
  let main_v50 : FVec F S7x300 .f32 := broadcastInDim S7x300 ![] bcast_S_S7x300 main_cst_18
  fn_part3 (F := F) main_arg16 main_arg17 main_v48 main_v49 main_v50

def fn_part1 {F : FTy → Type} [FloatOps F] (main_arg9 : FVec F S7x600 .f32) (main_arg10 : FVec F S7x600 .f32) (main_arg11 : FVec F S7x600x300 .f32) (main_arg12 : FVec F S7x300 .f32) (main_arg13 : FVec F S7 .f32) (main_arg14 : FVec F S7x300 .f32) (main_arg15 : FVec F S7x300 .f32) (main_arg16 : FVec F S300x10 .f32) (main_arg17 : FVec F S10 .f32) (main_v13 : IVec S_ 1) (main_v16 : IVec S7x600 1) : IVec S_ 1 :=
  let main_c_5 : IVec S_ 1 := constantI S_ 1 1#1
  let main_v17 : IVec S_ 1 := (fun x v => Host.reduce IntOp.andi x v reducesTo_S7x600_S_d0_1 h_S_) main_v16 main_c_5
  let main_v18 : IVec S_ 1 := andi main_v13 main_v17
  let main_v19 : FVec F S7x600 .f32 := Host.absf main_arg9
  let main_cst_6 : FVec F S_ .f32 := constant S_ .f32 0x7F800000#32
  let main_v20 : FVec F S7x600 .f32 := broadcastInDim S7x600 ![] bcast_S_S7x600 main_cst_6
  let main_v21 : IVec S7x600 1 := cmpf .olt main_v19 main_v20
  let main_c_7 : IVec S_ 1 := constantI S_ 1 1#1
  let main_v22 : IVec S_ 1 := (fun x v => Host.reduce IntOp.andi x v reducesTo_S7x600_S_d0_1 h_S_) main_v21 main_c_7
  let main_v23 : IVec S_ 1 := andi main_v18 main_v22
  let main_v24 : FVec F S7x600 .f32 := Host.absf main_arg10
  let main_cst_8 : FVec F S_ .f32 := constant S_ .f32 0x7F800000#32
  let main_v25 : FVec F S7x600 .f32 := broadcastInDim S7x600 ![] bcast_S_S7x600 main_cst_8
  let main_v26 : IVec S7x600 1 := cmpf .olt main_v24 main_v25
  let main_c_9 : IVec S_ 1 := constantI S_ 1 1#1
  let main_v27 : IVec S_ 1 := (fun x v => Host.reduce IntOp.andi x v reducesTo_S7x600_S_d0_1 h_S_) main_v26 main_c_9
  let main_v28 : IVec S_ 1 := andi main_v23 main_v27
  let main_v29 : FVec F S7x600x300 .f32 := Host.absf main_arg11
  let main_cst_10 : FVec F S_ .f32 := constant S_ .f32 0x7F800000#32
  let main_v30 : FVec F S7x600x300 .f32 := broadcastInDim S7x600x300 ![] bcast_S_S7x600x300 main_cst_10
  let main_v31 : IVec S7x600x300 1 := cmpf .olt main_v29 main_v30
  let main_c_11 : IVec S_ 1 := constantI S_ 1 1#1
  let main_v32 : IVec S_ 1 := (fun x v => Host.reduce IntOp.andi x v reducesTo_S7x600x300_S_d0_1_2 h_S_) main_v31 main_c_11
  let main_v33 : IVec S_ 1 := andi main_v28 main_v32
  fn_part2 (F := F) main_arg12 main_arg13 main_arg14 main_arg15 main_arg16 main_arg17 main_v33

def fn {F : FTy → Type} [FloatOps F] (main_arg0 : IVec S10000 32) (main_arg1 : IVec S2x160000 32) (main_arg2 : IVec S160000 32) (main_arg3 : IVec S10000 32) (main_arg4 : IVec S2000 32) (main_arg5 : FVec F S100x300 .f32) (main_arg6 : FVec F S7x5x300 .f32) (main_arg7 : FVec F S7x300x600 .f32) (main_arg8 : FVec F S7x600 .f32) (main_arg9 : FVec F S7x600 .f32) (main_arg10 : FVec F S7x600 .f32) (main_arg11 : FVec F S7x600x300 .f32) (main_arg12 : FVec F S7x300 .f32) (main_arg13 : FVec F S7 .f32) (main_arg14 : FVec F S7x300 .f32) (main_arg15 : FVec F S7x300 .f32) (main_arg16 : FVec F S300x10 .f32) (main_arg17 : FVec F S10 .f32) : IVec S_ 1 :=
  let main_v0 : FVec F S100x300 .f32 := Host.absf main_arg5
  let main_cst : FVec F S_ .f32 := constant S_ .f32 0x7F800000#32
  let main_v1 : FVec F S100x300 .f32 := broadcastInDim S100x300 ![] bcast_S_S100x300 main_cst
  let main_v2 : IVec S100x300 1 := cmpf .olt main_v0 main_v1
  let main_c : IVec S_ 1 := constantI S_ 1 1#1
  let main_v3 : IVec S_ 1 := (fun x v => Host.reduce IntOp.andi x v reducesTo_S100x300_S_d0_1 h_S_) main_v2 main_c
  let main_v4 : FVec F S7x5x300 .f32 := Host.absf main_arg6
  let main_cst_0 : FVec F S_ .f32 := constant S_ .f32 0x7F800000#32
  let main_v5 : FVec F S7x5x300 .f32 := broadcastInDim S7x5x300 ![] bcast_S_S7x5x300 main_cst_0
  let main_v6 : IVec S7x5x300 1 := cmpf .olt main_v4 main_v5
  let main_c_1 : IVec S_ 1 := constantI S_ 1 1#1
  let main_v7 : IVec S_ 1 := (fun x v => Host.reduce IntOp.andi x v reducesTo_S7x5x300_S_d0_1_2 h_S_) main_v6 main_c_1
  let main_v8 : IVec S_ 1 := andi main_v3 main_v7
  let main_v9 : FVec F S7x300x600 .f32 := Host.absf main_arg7
  let main_cst_2 : FVec F S_ .f32 := constant S_ .f32 0x7F800000#32
  let main_v10 : FVec F S7x300x600 .f32 := broadcastInDim S7x300x600 ![] bcast_S_S7x300x600 main_cst_2
  let main_v11 : IVec S7x300x600 1 := cmpf .olt main_v9 main_v10
  let main_c_3 : IVec S_ 1 := constantI S_ 1 1#1
  let main_v12 : IVec S_ 1 := (fun x v => Host.reduce IntOp.andi x v reducesTo_S7x300x600_S_d0_1_2 h_S_) main_v11 main_c_3
  let main_v13 : IVec S_ 1 := andi main_v8 main_v12
  let main_v14 : FVec F S7x600 .f32 := Host.absf main_arg8
  let main_cst_4 : FVec F S_ .f32 := constant S_ .f32 0x7F800000#32
  let main_v15 : FVec F S7x600 .f32 := broadcastInDim S7x600 ![] bcast_S_S7x600 main_cst_4
  let main_v16 : IVec S7x600 1 := cmpf .olt main_v14 main_v15
  fn_part1 (F := F) main_arg9 main_arg10 main_arg11 main_arg12 main_arg13 main_arg14 main_arg15 main_arg16 main_arg17 main_v13 main_v16
-- ==== Kernel.lean ====
abbrev S10000 : Shape := ⟨1, ![10000]⟩
abbrev S2x160000 : Shape := ⟨2, ![2, 160000]⟩
abbrev S160000 : Shape := ⟨1, ![160000]⟩
abbrev S2000 : Shape := ⟨1, ![2000]⟩
abbrev S100x300 : Shape := ⟨2, ![100, 300]⟩
abbrev S7x5x300 : Shape := ⟨3, ![7, 5, 300]⟩
abbrev S7x300x600 : Shape := ⟨3, ![7, 300, 600]⟩
abbrev S7x600 : Shape := ⟨2, ![7, 600]⟩
abbrev S7x600x300 : Shape := ⟨3, ![7, 600, 300]⟩
abbrev S7x300 : Shape := ⟨2, ![7, 300]⟩
abbrev S7 : Shape := ⟨1, ![7]⟩
abbrev S300x10 : Shape := ⟨2, ![300, 10]⟩
abbrev S10 : Shape := ⟨1, ![10]⟩
abbrev S1x160000 : Shape := ⟨2, ![1, 160000]⟩
abbrev S_ : Shape := ⟨0, ![]⟩
abbrev S10000x1 : Shape := ⟨2, ![10000, 1]⟩
abbrev S10000x300 : Shape := ⟨2, ![10000, 300]⟩
abbrev S160000x1 : Shape := ⟨2, ![160000, 1]⟩
abbrev S160000x300 : Shape := ⟨2, ![160000, 300]⟩
abbrev S1x5x300 : Shape := ⟨3, ![1, 5, 300]⟩
abbrev S5x300 : Shape := ⟨2, ![5, 300]⟩
abbrev S1 : Shape := ⟨1, ![1]⟩
abbrev S1x300x600 : Shape := ⟨3, ![1, 300, 600]⟩
abbrev S300x600 : Shape := ⟨2, ![300, 600]⟩
abbrev S10000x600 : Shape := ⟨2, ![10000, 600]⟩
abbrev S1x600 : Shape := ⟨2, ![1, 600]⟩
abbrev S600 : Shape := ⟨1, ![600]⟩
abbrev S1x600x300 : Shape := ⟨3, ![1, 600, 300]⟩
abbrev S600x300 : Shape := ⟨2, ![600, 300]⟩
abbrev S1x300 : Shape := ⟨2, ![1, 300]⟩
abbrev S300 : Shape := ⟨1, ![300]⟩
abbrev S2000x300 : Shape := ⟨2, ![2000, 300]⟩
abbrev S2000x1 : Shape := ⟨2, ![2000, 1]⟩
abbrev S64x300 : Shape := ⟨2, ![64, 300]⟩
abbrev S64x1 : Shape := ⟨2, ![64, 1]⟩
abbrev S1x10 : Shape := ⟨2, ![1, 10]⟩
abbrev S64x10 : Shape := ⟨2, ![64, 10]⟩

abbrev nBuf : Space → Nat
  | .hbm => 1133
  | .vmem => 4
  | .smem => 0
  | _ => 0

abbrev hbmTy0_0 (i : Nat) : BufTy := match i % 128 with
  | 0 => ⟨S10000, .i32⟩
  | 1 => ⟨S2x160000, .i32⟩
  | 2 => ⟨S160000, .i32⟩
  | 3 => ⟨S10000, .i32⟩
  | 4 => ⟨S2000, .i32⟩
  | 5 => ⟨S100x300, .f32⟩
  | 6 => ⟨S7x5x300, .f32⟩
  | 7 => ⟨S7x300x600, .f32⟩
  | 8 => ⟨S7x600, .f32⟩
  | 9 => ⟨S7x600, .f32⟩
  | 10 => ⟨S7x600, .f32⟩
  | 11 => ⟨S7x600x300, .f32⟩
  | 12 => ⟨S7x300, .f32⟩
  | 13 => ⟨S7, .f32⟩
  | 14 => ⟨S7x300, .f32⟩
  | 15 => ⟨S7x300, .f32⟩
  | 16 => ⟨S300x10, .f32⟩
  | 17 => ⟨S10, .f32⟩
  | 18 => ⟨S1x160000, .i32⟩
  | 19 => ⟨S160000, .i32⟩
  | 20 => ⟨S1x160000, .i32⟩
  | 21 => ⟨S160000, .i32⟩
  | 22 => ⟨S_, .i32⟩
  | 23 => ⟨S10000, .i32⟩
  | 24 => ⟨S10000, .i1⟩
  | 25 => ⟨S_, .i32⟩
  | 26 => ⟨S10000, .i32⟩
  | 27 => ⟨S10000, .i32⟩
  | 28 => ⟨S10000, .i32⟩
  | 29 => ⟨S10000x1, .i32⟩
  | 30 => ⟨S10000x300, .f32⟩
  | 31 => ⟨S_, .i32⟩
  | 32 => ⟨S160000, .i32⟩
  | 33 => ⟨S160000, .i1⟩
  | 34 => ⟨S_, .i32⟩
  | 35 => ⟨S160000, .i32⟩
  | 36 => ⟨S160000, .i32⟩
  | 37 => ⟨S160000, .i32⟩
  | 38 => ⟨S160000x1, .i32⟩
  | 39 => ⟨S160000x300, .f32⟩
  | 40 => ⟨S1x5x300, .f32⟩
  | 41 => ⟨S5x300, .f32⟩
  | 42 => ⟨S_, .i32⟩
  | 43 => ⟨S160000, .i32⟩
  | 44 => ⟨S160000, .i1⟩
  | 45 => ⟨S_, .i32⟩
  | 46 => ⟨S160000, .i32⟩
  | 47 => ⟨S160000, .i32⟩
  | 48 => ⟨S160000, .i32⟩
  | 49 => ⟨S160000x1, .i32⟩
  | 50 => ⟨S160000x300, .f32⟩
  | 51 => ⟨S160000x300, .f32⟩
  | 52 => ⟨S_, .f32⟩
  | 53 => ⟨S160000x300, .f32⟩
  | 54 => ⟨S160000x300, .f32⟩
  | 55 => ⟨S_, .f32⟩
  | 56 => ⟨S10000x300, .f32⟩
  | 57 => ⟨S160000x1, .i32⟩
  | 58 => ⟨S10000x300, .f32⟩
  | 59 => ⟨S1, .f32⟩
  | 60 => ⟨S_, .f32⟩
  | 61 => ⟨S_, .f32⟩
  | 62 => ⟨S_, .f32⟩
  | 63 => ⟨S10000x300, .f32⟩
  | 64 => ⟨S10000x300, .f32⟩
  | 65 => ⟨S10000x300, .f32⟩
  | 66 => ⟨S1x300x600, .f32⟩
  | 67 => ⟨S300x600, .f32⟩
  | 68 => ⟨S10000x600, .f32⟩
  | 69 => ⟨S1x600, .f32⟩
  | 70 => ⟨S600, .f32⟩
  | 71 => ⟨S1x600, .f32⟩
  | 72 => ⟨S10000x600, .f32⟩
  | 73 => ⟨S10000x600, .f32⟩
  | 74 => ⟨S1x600, .f32⟩
  | 75 => ⟨S600, .f32⟩
  | 76 => ⟨S1x600, .f32⟩
  | 77 => ⟨S600, .f32⟩
  | 78 => ⟨S_, .f32⟩
  | 79 => ⟨S600, .f32⟩
  | 80 => ⟨S_, .f32⟩
  | 81 => ⟨S600, .f32⟩
  | 82 => ⟨S600, .f32⟩
  | 83 => ⟨S_, .i32⟩
  | 84 => ⟨S_, .f32⟩
  | 85 => ⟨S600, .f32⟩
  | 86 => ⟨S1x600, .f32⟩
  | 87 => ⟨S_, .f32⟩
  | 88 => ⟨S1x600, .f32⟩
  | 89 => ⟨S1x600, .f32⟩
  | 90 => ⟨S10000x600, .f32⟩
  | 91 => ⟨S10000x600, .f32⟩
  | 92 => ⟨S10000x600, .f32⟩
  | 93 => ⟨S_, .f32⟩
  | 94 => ⟨S_, .f32⟩
  | 95 => ⟨S_, .f32⟩
  | 96 => ⟨S_, .f32⟩
  | 97 => ⟨S600, .f32⟩
  | 98 => ⟨S600, .f32⟩
  | 99 => ⟨S600, .f32⟩
  | 100 => ⟨S_, .f32⟩
  | 101 => ⟨S_, .i1⟩
  | 102 => ⟨S_, .f32⟩
  | 103 => ⟨S_, .f32⟩
  | 104 => ⟨S600, .f32⟩
  | 105 => ⟨S600, .f32⟩
  | 106 => ⟨S1x600, .f32⟩
  | 107 => ⟨S10000x600, .f32⟩
  | 108 => ⟨S10000x600, .f32⟩
  | 109 => ⟨S_, .f32⟩
  | 110 => ⟨S600, .f32⟩
  | 111 => ⟨S600, .f32⟩
  | 112 => ⟨S600, .f32⟩
  | 113 => ⟨S1x600, .f32⟩
  | 114 => ⟨S10000x600, .f32⟩
  | 115 => ⟨S10000x600, .f32⟩
  | 116 => ⟨S1x600, .f32⟩
  | 117 => ⟨S10000x600, .f32⟩
  | 118 => ⟨S10000x600, .f32⟩
  | 119 => ⟨S1x600, .f32⟩
  | 120 => ⟨S10000x600, .f32⟩
  | 121 => ⟨S10000x600, .f32⟩
  | 122 => ⟨S_, .f32⟩
  | 123 => ⟨S10000x600, .f32⟩
  | 124 => ⟨S10000x600, .f32⟩
  | 125 => ⟨S1x600x300, .f32⟩
  | 126 => ⟨S600x300, .f32⟩
  | 127 => ⟨S10000x300, .f32⟩
  | _ => ⟨S10000, .i32⟩

abbrev hbmTy0_1 (i : Nat) : BufTy := match i % 128 with
  | 0 => ⟨S1x300, .f32⟩
  | 1 => ⟨S300, .f32⟩
  | 2 => ⟨S1x300, .f32⟩
  | 3 => ⟨S10000x300, .f32⟩
  | 4 => ⟨S10000x300, .f32⟩
  | 5 => ⟨S1x300, .f32⟩
  | 6 => ⟨S300, .f32⟩
  | 7 => ⟨S1x300, .f32⟩
  | 8 => ⟨S300, .f32⟩
  | 9 => ⟨S_, .f32⟩
  | 10 => ⟨S300, .f32⟩
  | 11 => ⟨S_, .f32⟩
  | 12 => ⟨S300, .f32⟩
  | 13 => ⟨S300, .f32⟩
  | 14 => ⟨S_, .i32⟩
  | 15 => ⟨S_, .f32⟩
  | 16 => ⟨S300, .f32⟩
  | 17 => ⟨S1x300, .f32⟩
  | 18 => ⟨S_, .f32⟩
  | 19 => ⟨S1x300, .f32⟩
  | 20 => ⟨S1x300, .f32⟩
  | 21 => ⟨S10000x300, .f32⟩
  | 22 => ⟨S10000x300, .f32⟩
  | 23 => ⟨S10000x300, .f32⟩
  | 24 => ⟨S_, .f32⟩
  | 25 => ⟨S_, .f32⟩
  | 26 => ⟨S_, .f32⟩
  | 27 => ⟨S_, .f32⟩
  | 28 => ⟨S300, .f32⟩
  | 29 => ⟨S300, .f32⟩
  | 30 => ⟨S300, .f32⟩
  | 31 => ⟨S_, .f32⟩
  | 32 => ⟨S_, .i1⟩
  | 33 => ⟨S_, .f32⟩
  | 34 => ⟨S_, .f32⟩
  | 35 => ⟨S300, .f32⟩
  | 36 => ⟨S300, .f32⟩
  | 37 => ⟨S1x300, .f32⟩
  | 38 => ⟨S10000x300, .f32⟩
  | 39 => ⟨S10000x300, .f32⟩
  | 40 => ⟨S_, .f32⟩
  | 41 => ⟨S300, .f32⟩
  | 42 => ⟨S300, .f32⟩
  | 43 => ⟨S300, .f32⟩
  | 44 => ⟨S1x300, .f32⟩
  | 45 => ⟨S10000x300, .f32⟩
  | 46 => ⟨S10000x300, .f32⟩
  | 47 => ⟨S1x300, .f32⟩
  | 48 => ⟨S10000x300, .f32⟩
  | 49 => ⟨S10000x300, .f32⟩
  | 50 => ⟨S1x300, .f32⟩
  | 51 => ⟨S10000x300, .f32⟩
  | 52 => ⟨S10000x300, .f32⟩
  | 53 => ⟨S_, .f32⟩
  | 54 => ⟨S10000x300, .f32⟩
  | 55 => ⟨S10000x300, .f32⟩
  | 56 => ⟨S_, .i32⟩
  | 57 => ⟨S160000, .i32⟩
  | 58 => ⟨S160000, .i1⟩
  | 59 => ⟨S_, .i32⟩
  | 60 => ⟨S160000, .i32⟩
  | 61 => ⟨S160000, .i32⟩
  | 62 => ⟨S160000, .i32⟩
  | 63 => ⟨S160000x1, .i32⟩
  | 64 => ⟨S160000x300, .f32⟩
  | 65 => ⟨S1x5x300, .f32⟩
  | 66 => ⟨S5x300, .f32⟩
  | 67 => ⟨S_, .i32⟩
  | 68 => ⟨S160000, .i32⟩
  | 69 => ⟨S160000, .i1⟩
  | 70 => ⟨S_, .i32⟩
  | 71 => ⟨S160000, .i32⟩
  | 72 => ⟨S160000, .i32⟩
  | 73 => ⟨S160000, .i32⟩
  | 74 => ⟨S160000x1, .i32⟩
  | 75 => ⟨S160000x300, .f32⟩
  | 76 => ⟨S160000x300, .f32⟩
  | 77 => ⟨S_, .f32⟩
  | 78 => ⟨S160000x300, .f32⟩
  | 79 => ⟨S160000x300, .f32⟩
  | 80 => ⟨S_, .f32⟩
  | 81 => ⟨S10000x300, .f32⟩
  | 82 => ⟨S160000x1, .i32⟩
  | 83 => ⟨S10000x300, .f32⟩
  | 84 => ⟨S1, .f32⟩
  | 85 => ⟨S_, .f32⟩
  | 86 => ⟨S_, .f32⟩
  | 87 => ⟨S_, .f32⟩
  | 88 => ⟨S10000x300, .f32⟩
  | 89 => ⟨S10000x300, .f32⟩
  | 90 => ⟨S10000x300, .f32⟩
  | 91 => ⟨S1x300x600, .f32⟩
  | 92 => ⟨S300x600, .f32⟩
  | 93 => ⟨S10000x600, .f32⟩
  | 94 => ⟨S1x600, .f32⟩
  | 95 => ⟨S600, .f32⟩
  | 96 => ⟨S1x600, .f32⟩
  | 97 => ⟨S10000x600, .f32⟩
  | 98 => ⟨S10000x600, .f32⟩
  | 99 => ⟨S1x600, .f32⟩
  | 100 => ⟨S600, .f32⟩
  | 101 => ⟨S1x600, .f32⟩
  | 102 => ⟨S600, .f32⟩
  | 103 => ⟨S_, .f32⟩
  | 104 => ⟨S600, .f32⟩
  | 105 => ⟨S_, .f32⟩
  | 106 => ⟨S600, .f32⟩
  | 107 => ⟨S600, .f32⟩
  | 108 => ⟨S_, .i32⟩
  | 109 => ⟨S_, .f32⟩
  | 110 => ⟨S600, .f32⟩
  | 111 => ⟨S1x600, .f32⟩
  | 112 => ⟨S_, .f32⟩
  | 113 => ⟨S1x600, .f32⟩
  | 114 => ⟨S1x600, .f32⟩
  | 115 => ⟨S10000x600, .f32⟩
  | 116 => ⟨S10000x600, .f32⟩
  | 117 => ⟨S10000x600, .f32⟩
  | 118 => ⟨S_, .f32⟩
  | 119 => ⟨S_, .f32⟩
  | 120 => ⟨S_, .f32⟩
  | 121 => ⟨S_, .f32⟩
  | 122 => ⟨S600, .f32⟩
  | 123 => ⟨S600, .f32⟩
  | 124 => ⟨S600, .f32⟩
  | 125 => ⟨S_, .f32⟩
  | 126 => ⟨S_, .i1⟩
  | 127 => ⟨S_, .f32⟩
  | _ => ⟨S10000, .i32⟩

abbrev hbmTy0_2 (i : Nat) : BufTy := match i % 128 with
  | 0 => ⟨S_, .f32⟩
  | 1 => ⟨S600, .f32⟩
  | 2 => ⟨S600, .f32⟩
  | 3 => ⟨S1x600, .f32⟩
  | 4 => ⟨S10000x600, .f32⟩
  | 5 => ⟨S10000x600, .f32⟩
  | 6 => ⟨S_, .f32⟩
  | 7 => ⟨S600, .f32⟩
  | 8 => ⟨S600, .f32⟩
  | 9 => ⟨S600, .f32⟩
  | 10 => ⟨S1x600, .f32⟩
  | 11 => ⟨S10000x600, .f32⟩
  | 12 => ⟨S10000x600, .f32⟩
  | 13 => ⟨S1x600, .f32⟩
  | 14 => ⟨S10000x600, .f32⟩
  | 15 => ⟨S10000x600, .f32⟩
  | 16 => ⟨S1x600, .f32⟩
  | 17 => ⟨S10000x600, .f32⟩
  | 18 => ⟨S10000x600, .f32⟩
  | 19 => ⟨S_, .f32⟩
  | 20 => ⟨S10000x600, .f32⟩
  | 21 => ⟨S10000x600, .f32⟩
  | 22 => ⟨S1x600x300, .f32⟩
  | 23 => ⟨S600x300, .f32⟩
  | 24 => ⟨S10000x300, .f32⟩
  | 25 => ⟨S1x300, .f32⟩
  | 26 => ⟨S300, .f32⟩
  | 27 => ⟨S1x300, .f32⟩
  | 28 => ⟨S10000x300, .f32⟩
  | 29 => ⟨S10000x300, .f32⟩
  | 30 => ⟨S1x300, .f32⟩
  | 31 => ⟨S300, .f32⟩
  | 32 => ⟨S1x300, .f32⟩
  | 33 => ⟨S300, .f32⟩
  | 34 => ⟨S_, .f32⟩
  | 35 => ⟨S300, .f32⟩
  | 36 => ⟨S_, .f32⟩
  | 37 => ⟨S300, .f32⟩
  | 38 => ⟨S300, .f32⟩
  | 39 => ⟨S_, .i32⟩
  | 40 => ⟨S_, .f32⟩
  | 41 => ⟨S300, .f32⟩
  | 42 => ⟨S1x300, .f32⟩
  | 43 => ⟨S_, .f32⟩
  | 44 => ⟨S1x300, .f32⟩
  | 45 => ⟨S1x300, .f32⟩
  | 46 => ⟨S10000x300, .f32⟩
  | 47 => ⟨S10000x300, .f32⟩
  | 48 => ⟨S10000x300, .f32⟩
  | 49 => ⟨S_, .f32⟩
  | 50 => ⟨S_, .f32⟩
  | 51 => ⟨S_, .f32⟩
  | 52 => ⟨S_, .f32⟩
  | 53 => ⟨S300, .f32⟩
  | 54 => ⟨S300, .f32⟩
  | 55 => ⟨S300, .f32⟩
  | 56 => ⟨S_, .f32⟩
  | 57 => ⟨S_, .i1⟩
  | 58 => ⟨S_, .f32⟩
  | 59 => ⟨S_, .f32⟩
  | 60 => ⟨S300, .f32⟩
  | 61 => ⟨S300, .f32⟩
  | 62 => ⟨S1x300, .f32⟩
  | 63 => ⟨S10000x300, .f32⟩
  | 64 => ⟨S10000x300, .f32⟩
  | 65 => ⟨S_, .f32⟩
  | 66 => ⟨S300, .f32⟩
  | 67 => ⟨S300, .f32⟩
  | 68 => ⟨S300, .f32⟩
  | 69 => ⟨S1x300, .f32⟩
  | 70 => ⟨S10000x300, .f32⟩
  | 71 => ⟨S10000x300, .f32⟩
  | 72 => ⟨S1x300, .f32⟩
  | 73 => ⟨S10000x300, .f32⟩
  | 74 => ⟨S10000x300, .f32⟩
  | 75 => ⟨S1x300, .f32⟩
  | 76 => ⟨S10000x300, .f32⟩
  | 77 => ⟨S10000x300, .f32⟩
  | 78 => ⟨S_, .f32⟩
  | 79 => ⟨S10000x300, .f32⟩
  | 80 => ⟨S10000x300, .f32⟩
  | 81 => ⟨S_, .i32⟩
  | 82 => ⟨S160000, .i32⟩
  | 83 => ⟨S160000, .i1⟩
  | 84 => ⟨S_, .i32⟩
  | 85 => ⟨S160000, .i32⟩
  | 86 => ⟨S160000, .i32⟩
  | 87 => ⟨S160000, .i32⟩
  | 88 => ⟨S160000x1, .i32⟩
  | 89 => ⟨S160000x300, .f32⟩
  | 90 => ⟨S1x5x300, .f32⟩
  | 91 => ⟨S5x300, .f32⟩
  | 92 => ⟨S_, .i32⟩
  | 93 => ⟨S160000, .i32⟩
  | 94 => ⟨S160000, .i1⟩
  | 95 => ⟨S_, .i32⟩
  | 96 => ⟨S160000, .i32⟩
  | 97 => ⟨S160000, .i32⟩
  | 98 => ⟨S160000, .i32⟩
  | 99 => ⟨S160000x1, .i32⟩
  | 100 => ⟨S160000x300, .f32⟩
  | 101 => ⟨S160000x300, .f32⟩
  | 102 => ⟨S_, .f32⟩
  | 103 => ⟨S160000x300, .f32⟩
  | 104 => ⟨S160000x300, .f32⟩
  | 105 => ⟨S_, .f32⟩
  | 106 => ⟨S10000x300, .f32⟩
  | 107 => ⟨S160000x1, .i32⟩
  | 108 => ⟨S10000x300, .f32⟩
  | 109 => ⟨S1, .f32⟩
  | 110 => ⟨S_, .f32⟩
  | 111 => ⟨S_, .f32⟩
  | 112 => ⟨S_, .f32⟩
  | 113 => ⟨S10000x300, .f32⟩
  | 114 => ⟨S10000x300, .f32⟩
  | 115 => ⟨S10000x300, .f32⟩
  | 116 => ⟨S1x300x600, .f32⟩
  | 117 => ⟨S300x600, .f32⟩
  | 118 => ⟨S10000x600, .f32⟩
  | 119 => ⟨S1x600, .f32⟩
  | 120 => ⟨S600, .f32⟩
  | 121 => ⟨S1x600, .f32⟩
  | 122 => ⟨S10000x600, .f32⟩
  | 123 => ⟨S10000x600, .f32⟩
  | 124 => ⟨S1x600, .f32⟩
  | 125 => ⟨S600, .f32⟩
  | 126 => ⟨S1x600, .f32⟩
  | 127 => ⟨S600, .f32⟩
  | _ => ⟨S10000, .i32⟩

abbrev hbmTy0_3 (i : Nat) : BufTy := match i % 128 with
  | 0 => ⟨S_, .f32⟩
  | 1 => ⟨S600, .f32⟩
  | 2 => ⟨S_, .f32⟩
  | 3 => ⟨S600, .f32⟩
  | 4 => ⟨S600, .f32⟩
  | 5 => ⟨S_, .i32⟩
  | 6 => ⟨S_, .f32⟩
  | 7 => ⟨S600, .f32⟩
  | 8 => ⟨S1x600, .f32⟩
  | 9 => ⟨S_, .f32⟩
  | 10 => ⟨S1x600, .f32⟩
  | 11 => ⟨S1x600, .f32⟩
  | 12 => ⟨S10000x600, .f32⟩
  | 13 => ⟨S10000x600, .f32⟩
  | 14 => ⟨S10000x600, .f32⟩
  | 15 => ⟨S_, .f32⟩
  | 16 => ⟨S_, .f32⟩
  | 17 => ⟨S_, .f32⟩
  | 18 => ⟨S_, .f32⟩
  | 19 => ⟨S600, .f32⟩
  | 20 => ⟨S600, .f32⟩
  | 21 => ⟨S600, .f32⟩
  | 22 => ⟨S_, .f32⟩
  | 23 => ⟨S_, .i1⟩
  | 24 => ⟨S_, .f32⟩
  | 25 => ⟨S_, .f32⟩
  | 26 => ⟨S600, .f32⟩
  | 27 => ⟨S600, .f32⟩
  | 28 => ⟨S1x600, .f32⟩
  | 29 => ⟨S10000x600, .f32⟩
  | 30 => ⟨S10000x600, .f32⟩
  | 31 => ⟨S_, .f32⟩
  | 32 => ⟨S600, .f32⟩
  | 33 => ⟨S600, .f32⟩
  | 34 => ⟨S600, .f32⟩
  | 35 => ⟨S1x600, .f32⟩
  | 36 => ⟨S10000x600, .f32⟩
  | 37 => ⟨S10000x600, .f32⟩
  | 38 => ⟨S1x600, .f32⟩
  | 39 => ⟨S10000x600, .f32⟩
  | 40 => ⟨S10000x600, .f32⟩
  | 41 => ⟨S1x600, .f32⟩
  | 42 => ⟨S10000x600, .f32⟩
  | 43 => ⟨S10000x600, .f32⟩
  | 44 => ⟨S_, .f32⟩
  | 45 => ⟨S10000x600, .f32⟩
  | 46 => ⟨S10000x600, .f32⟩
  | 47 => ⟨S1x600x300, .f32⟩
  | 48 => ⟨S600x300, .f32⟩
  | 49 => ⟨S10000x300, .f32⟩
  | 50 => ⟨S1x300, .f32⟩
  | 51 => ⟨S300, .f32⟩
  | 52 => ⟨S1x300, .f32⟩
  | 53 => ⟨S10000x300, .f32⟩
  | 54 => ⟨S10000x300, .f32⟩
  | 55 => ⟨S1x300, .f32⟩
  | 56 => ⟨S300, .f32⟩
  | 57 => ⟨S1x300, .f32⟩
  | 58 => ⟨S300, .f32⟩
  | 59 => ⟨S_, .f32⟩
  | 60 => ⟨S300, .f32⟩
  | 61 => ⟨S_, .f32⟩
  | 62 => ⟨S300, .f32⟩
  | 63 => ⟨S300, .f32⟩
  | 64 => ⟨S_, .i32⟩
  | 65 => ⟨S_, .f32⟩
  | 66 => ⟨S300, .f32⟩
  | 67 => ⟨S1x300, .f32⟩
  | 68 => ⟨S_, .f32⟩
  | 69 => ⟨S1x300, .f32⟩
  | 70 => ⟨S1x300, .f32⟩
  | 71 => ⟨S10000x300, .f32⟩
  | 72 => ⟨S10000x300, .f32⟩
  | 73 => ⟨S10000x300, .f32⟩
  | 74 => ⟨S_, .f32⟩
  | 75 => ⟨S_, .f32⟩
  | 76 => ⟨S_, .f32⟩
  | 77 => ⟨S_, .f32⟩
  | 78 => ⟨S300, .f32⟩
  | 79 => ⟨S300, .f32⟩
  | 80 => ⟨S300, .f32⟩
  | 81 => ⟨S_, .f32⟩
  | 82 => ⟨S_, .i1⟩
  | 83 => ⟨S_, .f32⟩
  | 84 => ⟨S_, .f32⟩
  | 85 => ⟨S300, .f32⟩
  | 86 => ⟨S300, .f32⟩
  | 87 => ⟨S1x300, .f32⟩
  | 88 => ⟨S10000x300, .f32⟩
  | 89 => ⟨S10000x300, .f32⟩
  | 90 => ⟨S_, .f32⟩
  | 91 => ⟨S300, .f32⟩
  | 92 => ⟨S300, .f32⟩
  | 93 => ⟨S300, .f32⟩
  | 94 => ⟨S1x300, .f32⟩
  | 95 => ⟨S10000x300, .f32⟩
  | 96 => ⟨S10000x300, .f32⟩
  | 97 => ⟨S1x300, .f32⟩
  | 98 => ⟨S10000x300, .f32⟩
  | 99 => ⟨S10000x300, .f32⟩
  | 100 => ⟨S1x300, .f32⟩
  | 101 => ⟨S10000x300, .f32⟩
  | 102 => ⟨S10000x300, .f32⟩
  | 103 => ⟨S_, .f32⟩
  | 104 => ⟨S10000x300, .f32⟩
  | 105 => ⟨S10000x300, .f32⟩
  | 106 => ⟨S_, .i32⟩
  | 107 => ⟨S160000, .i32⟩
  | 108 => ⟨S160000, .i1⟩
  | 109 => ⟨S_, .i32⟩
  | 110 => ⟨S160000, .i32⟩
  | 111 => ⟨S160000, .i32⟩
  | 112 => ⟨S160000, .i32⟩
  | 113 => ⟨S160000x1, .i32⟩
  | 114 => ⟨S160000x300, .f32⟩
  | 115 => ⟨S1x5x300, .f32⟩
  | 116 => ⟨S5x300, .f32⟩
  | 117 => ⟨S_, .i32⟩
  | 118 => ⟨S160000, .i32⟩
  | 119 => ⟨S160000, .i1⟩
  | 120 => ⟨S_, .i32⟩
  | 121 => ⟨S160000, .i32⟩
  | 122 => ⟨S160000, .i32⟩
  | 123 => ⟨S160000, .i32⟩
  | 124 => ⟨S160000x1, .i32⟩
  | 125 => ⟨S160000x300, .f32⟩
  | 126 => ⟨S160000x300, .f32⟩
  | 127 => ⟨S_, .f32⟩
  | _ => ⟨S10000, .i32⟩

abbrev hbmTy0_4 (i : Nat) : BufTy := match i % 128 with
  | 0 => ⟨S160000x300, .f32⟩
  | 1 => ⟨S160000x300, .f32⟩
  | 2 => ⟨S_, .f32⟩
  | 3 => ⟨S10000x300, .f32⟩
  | 4 => ⟨S160000x1, .i32⟩
  | 5 => ⟨S10000x300, .f32⟩
  | 6 => ⟨S1, .f32⟩
  | 7 => ⟨S_, .f32⟩
  | 8 => ⟨S_, .f32⟩
  | 9 => ⟨S_, .f32⟩
  | 10 => ⟨S10000x300, .f32⟩
  | 11 => ⟨S10000x300, .f32⟩
  | 12 => ⟨S10000x300, .f32⟩
  | 13 => ⟨S1x300x600, .f32⟩
  | 14 => ⟨S300x600, .f32⟩
  | 15 => ⟨S10000x600, .f32⟩
  | 16 => ⟨S1x600, .f32⟩
  | 17 => ⟨S600, .f32⟩
  | 18 => ⟨S1x600, .f32⟩
  | 19 => ⟨S10000x600, .f32⟩
  | 20 => ⟨S10000x600, .f32⟩
  | 21 => ⟨S1x600, .f32⟩
  | 22 => ⟨S600, .f32⟩
  | 23 => ⟨S1x600, .f32⟩
  | 24 => ⟨S600, .f32⟩
  | 25 => ⟨S_, .f32⟩
  | 26 => ⟨S600, .f32⟩
  | 27 => ⟨S_, .f32⟩
  | 28 => ⟨S600, .f32⟩
  | 29 => ⟨S600, .f32⟩
  | 30 => ⟨S_, .i32⟩
  | 31 => ⟨S_, .f32⟩
  | 32 => ⟨S600, .f32⟩
  | 33 => ⟨S1x600, .f32⟩
  | 34 => ⟨S_, .f32⟩
  | 35 => ⟨S1x600, .f32⟩
  | 36 => ⟨S1x600, .f32⟩
  | 37 => ⟨S10000x600, .f32⟩
  | 38 => ⟨S10000x600, .f32⟩
  | 39 => ⟨S10000x600, .f32⟩
  | 40 => ⟨S_, .f32⟩
  | 41 => ⟨S_, .f32⟩
  | 42 => ⟨S_, .f32⟩
  | 43 => ⟨S_, .f32⟩
  | 44 => ⟨S600, .f32⟩
  | 45 => ⟨S600, .f32⟩
  | 46 => ⟨S600, .f32⟩
  | 47 => ⟨S_, .f32⟩
  | 48 => ⟨S_, .i1⟩
  | 49 => ⟨S_, .f32⟩
  | 50 => ⟨S_, .f32⟩
  | 51 => ⟨S600, .f32⟩
  | 52 => ⟨S600, .f32⟩
  | 53 => ⟨S1x600, .f32⟩
  | 54 => ⟨S10000x600, .f32⟩
  | 55 => ⟨S10000x600, .f32⟩
  | 56 => ⟨S_, .f32⟩
  | 57 => ⟨S600, .f32⟩
  | 58 => ⟨S600, .f32⟩
  | 59 => ⟨S600, .f32⟩
  | 60 => ⟨S1x600, .f32⟩
  | 61 => ⟨S10000x600, .f32⟩
  | 62 => ⟨S10000x600, .f32⟩
  | 63 => ⟨S1x600, .f32⟩
  | 64 => ⟨S10000x600, .f32⟩
  | 65 => ⟨S10000x600, .f32⟩
  | 66 => ⟨S1x600, .f32⟩
  | 67 => ⟨S10000x600, .f32⟩
  | 68 => ⟨S10000x600, .f32⟩
  | 69 => ⟨S_, .f32⟩
  | 70 => ⟨S10000x600, .f32⟩
  | 71 => ⟨S10000x600, .f32⟩
  | 72 => ⟨S1x600x300, .f32⟩
  | 73 => ⟨S600x300, .f32⟩
  | 74 => ⟨S10000x300, .f32⟩
  | 75 => ⟨S1x300, .f32⟩
  | 76 => ⟨S300, .f32⟩
  | 77 => ⟨S1x300, .f32⟩
  | 78 => ⟨S10000x300, .f32⟩
  | 79 => ⟨S10000x300, .f32⟩
  | 80 => ⟨S1x300, .f32⟩
  | 81 => ⟨S300, .f32⟩
  | 82 => ⟨S1x300, .f32⟩
  | 83 => ⟨S300, .f32⟩
  | 84 => ⟨S_, .f32⟩
  | 85 => ⟨S300, .f32⟩
  | 86 => ⟨S_, .f32⟩
  | 87 => ⟨S300, .f32⟩
  | 88 => ⟨S300, .f32⟩
  | 89 => ⟨S_, .i32⟩
  | 90 => ⟨S_, .f32⟩
  | 91 => ⟨S300, .f32⟩
  | 92 => ⟨S1x300, .f32⟩
  | 93 => ⟨S_, .f32⟩
  | 94 => ⟨S1x300, .f32⟩
  | 95 => ⟨S1x300, .f32⟩
  | 96 => ⟨S10000x300, .f32⟩
  | 97 => ⟨S10000x300, .f32⟩
  | 98 => ⟨S10000x300, .f32⟩
  | 99 => ⟨S_, .f32⟩
  | 100 => ⟨S_, .f32⟩
  | 101 => ⟨S_, .f32⟩
  | 102 => ⟨S_, .f32⟩
  | 103 => ⟨S300, .f32⟩
  | 104 => ⟨S300, .f32⟩
  | 105 => ⟨S300, .f32⟩
  | 106 => ⟨S_, .f32⟩
  | 107 => ⟨S_, .i1⟩
  | 108 => ⟨S_, .f32⟩
  | 109 => ⟨S_, .f32⟩
  | 110 => ⟨S300, .f32⟩
  | 111 => ⟨S300, .f32⟩
  | 112 => ⟨S1x300, .f32⟩
  | 113 => ⟨S10000x300, .f32⟩
  | 114 => ⟨S10000x300, .f32⟩
  | 115 => ⟨S_, .f32⟩
  | 116 => ⟨S300, .f32⟩
  | 117 => ⟨S300, .f32⟩
  | 118 => ⟨S300, .f32⟩
  | 119 => ⟨S1x300, .f32⟩
  | 120 => ⟨S10000x300, .f32⟩
  | 121 => ⟨S10000x300, .f32⟩
  | 122 => ⟨S1x300, .f32⟩
  | 123 => ⟨S10000x300, .f32⟩
  | 124 => ⟨S10000x300, .f32⟩
  | 125 => ⟨S1x300, .f32⟩
  | 126 => ⟨S10000x300, .f32⟩
  | 127 => ⟨S10000x300, .f32⟩
  | _ => ⟨S10000, .i32⟩

abbrev hbmTy0_5 (i : Nat) : BufTy := match i % 128 with
  | 0 => ⟨S_, .f32⟩
  | 1 => ⟨S10000x300, .f32⟩
  | 2 => ⟨S10000x300, .f32⟩
  | 3 => ⟨S_, .i32⟩
  | 4 => ⟨S160000, .i32⟩
  | 5 => ⟨S160000, .i1⟩
  | 6 => ⟨S_, .i32⟩
  | 7 => ⟨S160000, .i32⟩
  | 8 => ⟨S160000, .i32⟩
  | 9 => ⟨S160000, .i32⟩
  | 10 => ⟨S160000x1, .i32⟩
  | 11 => ⟨S160000x300, .f32⟩
  | 12 => ⟨S1x5x300, .f32⟩
  | 13 => ⟨S5x300, .f32⟩
  | 14 => ⟨S_, .i32⟩
  | 15 => ⟨S160000, .i32⟩
  | 16 => ⟨S160000, .i1⟩
  | 17 => ⟨S_, .i32⟩
  | 18 => ⟨S160000, .i32⟩
  | 19 => ⟨S160000, .i32⟩
  | 20 => ⟨S160000, .i32⟩
  | 21 => ⟨S160000x1, .i32⟩
  | 22 => ⟨S160000x300, .f32⟩
  | 23 => ⟨S160000x300, .f32⟩
  | 24 => ⟨S_, .f32⟩
  | 25 => ⟨S160000x300, .f32⟩
  | 26 => ⟨S160000x300, .f32⟩
  | 27 => ⟨S_, .f32⟩
  | 28 => ⟨S10000x300, .f32⟩
  | 29 => ⟨S160000x1, .i32⟩
  | 30 => ⟨S10000x300, .f32⟩
  | 31 => ⟨S1, .f32⟩
  | 32 => ⟨S_, .f32⟩
  | 33 => ⟨S_, .f32⟩
  | 34 => ⟨S_, .f32⟩
  | 35 => ⟨S10000x300, .f32⟩
  | 36 => ⟨S10000x300, .f32⟩
  | 37 => ⟨S10000x300, .f32⟩
  | 38 => ⟨S1x300x600, .f32⟩
  | 39 => ⟨S300x600, .f32⟩
  | 40 => ⟨S10000x600, .f32⟩
  | 41 => ⟨S1x600, .f32⟩
  | 42 => ⟨S600, .f32⟩
  | 43 => ⟨S1x600, .f32⟩
  | 44 => ⟨S10000x600, .f32⟩
  | 45 => ⟨S10000x600, .f32⟩
  | 46 => ⟨S1x600, .f32⟩
  | 47 => ⟨S600, .f32⟩
  | 48 => ⟨S1x600, .f32⟩
  | 49 => ⟨S600, .f32⟩
  | 50 => ⟨S_, .f32⟩
  | 51 => ⟨S600, .f32⟩
  | 52 => ⟨S_, .f32⟩
  | 53 => ⟨S600, .f32⟩
  | 54 => ⟨S600, .f32⟩
  | 55 => ⟨S_, .i32⟩
  | 56 => ⟨S_, .f32⟩
  | 57 => ⟨S600, .f32⟩
  | 58 => ⟨S1x600, .f32⟩
  | 59 => ⟨S_, .f32⟩
  | 60 => ⟨S1x600, .f32⟩
  | 61 => ⟨S1x600, .f32⟩
  | 62 => ⟨S10000x600, .f32⟩
  | 63 => ⟨S10000x600, .f32⟩
  | 64 => ⟨S10000x600, .f32⟩
  | 65 => ⟨S_, .f32⟩
  | 66 => ⟨S_, .f32⟩
  | 67 => ⟨S_, .f32⟩
  | 68 => ⟨S_, .f32⟩
  | 69 => ⟨S600, .f32⟩
  | 70 => ⟨S600, .f32⟩
  | 71 => ⟨S600, .f32⟩
  | 72 => ⟨S_, .f32⟩
  | 73 => ⟨S_, .i1⟩
  | 74 => ⟨S_, .f32⟩
  | 75 => ⟨S_, .f32⟩
  | 76 => ⟨S600, .f32⟩
  | 77 => ⟨S600, .f32⟩
  | 78 => ⟨S1x600, .f32⟩
  | 79 => ⟨S10000x600, .f32⟩
  | 80 => ⟨S10000x600, .f32⟩
  | 81 => ⟨S_, .f32⟩
  | 82 => ⟨S600, .f32⟩
  | 83 => ⟨S600, .f32⟩
  | 84 => ⟨S600, .f32⟩
  | 85 => ⟨S1x600, .f32⟩
  | 86 => ⟨S10000x600, .f32⟩
  | 87 => ⟨S10000x600, .f32⟩
  | 88 => ⟨S1x600, .f32⟩
  | 89 => ⟨S10000x600, .f32⟩
  | 90 => ⟨S10000x600, .f32⟩
  | 91 => ⟨S1x600, .f32⟩
  | 92 => ⟨S10000x600, .f32⟩
  | 93 => ⟨S10000x600, .f32⟩
  | 94 => ⟨S_, .f32⟩
  | 95 => ⟨S10000x600, .f32⟩
  | 96 => ⟨S10000x600, .f32⟩
  | 97 => ⟨S1x600x300, .f32⟩
  | 98 => ⟨S600x300, .f32⟩
  | 99 => ⟨S10000x300, .f32⟩
  | 100 => ⟨S1x300, .f32⟩
  | 101 => ⟨S300, .f32⟩
  | 102 => ⟨S1x300, .f32⟩
  | 103 => ⟨S10000x300, .f32⟩
  | 104 => ⟨S10000x300, .f32⟩
  | 105 => ⟨S1x300, .f32⟩
  | 106 => ⟨S300, .f32⟩
  | 107 => ⟨S1x300, .f32⟩
  | 108 => ⟨S300, .f32⟩
  | 109 => ⟨S_, .f32⟩
  | 110 => ⟨S300, .f32⟩
  | 111 => ⟨S_, .f32⟩
  | 112 => ⟨S300, .f32⟩
  | 113 => ⟨S300, .f32⟩
  | 114 => ⟨S_, .i32⟩
  | 115 => ⟨S_, .f32⟩
  | 116 => ⟨S300, .f32⟩
  | 117 => ⟨S1x300, .f32⟩
  | 118 => ⟨S_, .f32⟩
  | 119 => ⟨S1x300, .f32⟩
  | 120 => ⟨S1x300, .f32⟩
  | 121 => ⟨S10000x300, .f32⟩
  | 122 => ⟨S10000x300, .f32⟩
  | 123 => ⟨S10000x300, .f32⟩
  | 124 => ⟨S_, .f32⟩
  | 125 => ⟨S_, .f32⟩
  | 126 => ⟨S_, .f32⟩
  | 127 => ⟨S_, .f32⟩
  | _ => ⟨S10000, .i32⟩

abbrev hbmTy0_6 (i : Nat) : BufTy := match i % 128 with
  | 0 => ⟨S300, .f32⟩
  | 1 => ⟨S300, .f32⟩
  | 2 => ⟨S300, .f32⟩
  | 3 => ⟨S_, .f32⟩
  | 4 => ⟨S_, .i1⟩
  | 5 => ⟨S_, .f32⟩
  | 6 => ⟨S_, .f32⟩
  | 7 => ⟨S300, .f32⟩
  | 8 => ⟨S300, .f32⟩
  | 9 => ⟨S1x300, .f32⟩
  | 10 => ⟨S10000x300, .f32⟩
  | 11 => ⟨S10000x300, .f32⟩
  | 12 => ⟨S_, .f32⟩
  | 13 => ⟨S300, .f32⟩
  | 14 => ⟨S300, .f32⟩
  | 15 => ⟨S300, .f32⟩
  | 16 => ⟨S1x300, .f32⟩
  | 17 => ⟨S10000x300, .f32⟩
  | 18 => ⟨S10000x300, .f32⟩
  | 19 => ⟨S1x300, .f32⟩
  | 20 => ⟨S10000x300, .f32⟩
  | 21 => ⟨S10000x300, .f32⟩
  | 22 => ⟨S1x300, .f32⟩
  | 23 => ⟨S10000x300, .f32⟩
  | 24 => ⟨S10000x300, .f32⟩
  | 25 => ⟨S_, .f32⟩
  | 26 => ⟨S10000x300, .f32⟩
  | 27 => ⟨S10000x300, .f32⟩
  | 28 => ⟨S_, .i32⟩
  | 29 => ⟨S160000, .i32⟩
  | 30 => ⟨S160000, .i1⟩
  | 31 => ⟨S_, .i32⟩
  | 32 => ⟨S160000, .i32⟩
  | 33 => ⟨S160000, .i32⟩
  | 34 => ⟨S160000, .i32⟩
  | 35 => ⟨S160000x1, .i32⟩
  | 36 => ⟨S160000x300, .f32⟩
  | 37 => ⟨S1x5x300, .f32⟩
  | 38 => ⟨S5x300, .f32⟩
  | 39 => ⟨S_, .i32⟩
  | 40 => ⟨S160000, .i32⟩
  | 41 => ⟨S160000, .i1⟩
  | 42 => ⟨S_, .i32⟩
  | 43 => ⟨S160000, .i32⟩
  | 44 => ⟨S160000, .i32⟩
  | 45 => ⟨S160000, .i32⟩
  | 46 => ⟨S160000x1, .i32⟩
  | 47 => ⟨S160000x300, .f32⟩
  | 48 => ⟨S160000x300, .f32⟩
  | 49 => ⟨S_, .f32⟩
  | 50 => ⟨S160000x300, .f32⟩
  | 51 => ⟨S160000x300, .f32⟩
  | 52 => ⟨S_, .f32⟩
  | 53 => ⟨S10000x300, .f32⟩
  | 54 => ⟨S160000x1, .i32⟩
  | 55 => ⟨S10000x300, .f32⟩
  | 56 => ⟨S1, .f32⟩
  | 57 => ⟨S_, .f32⟩
  | 58 => ⟨S_, .f32⟩
  | 59 => ⟨S_, .f32⟩
  | 60 => ⟨S10000x300, .f32⟩
  | 61 => ⟨S10000x300, .f32⟩
  | 62 => ⟨S10000x300, .f32⟩
  | 63 => ⟨S1x300x600, .f32⟩
  | 64 => ⟨S300x600, .f32⟩
  | 65 => ⟨S10000x600, .f32⟩
  | 66 => ⟨S1x600, .f32⟩
  | 67 => ⟨S600, .f32⟩
  | 68 => ⟨S1x600, .f32⟩
  | 69 => ⟨S10000x600, .f32⟩
  | 70 => ⟨S10000x600, .f32⟩
  | 71 => ⟨S1x600, .f32⟩
  | 72 => ⟨S600, .f32⟩
  | 73 => ⟨S1x600, .f32⟩
  | 74 => ⟨S600, .f32⟩
  | 75 => ⟨S_, .f32⟩
  | 76 => ⟨S600, .f32⟩
  | 77 => ⟨S_, .f32⟩
  | 78 => ⟨S600, .f32⟩
  | 79 => ⟨S600, .f32⟩
  | 80 => ⟨S_, .i32⟩
  | 81 => ⟨S_, .f32⟩
  | 82 => ⟨S600, .f32⟩
  | 83 => ⟨S1x600, .f32⟩
  | 84 => ⟨S_, .f32⟩
  | 85 => ⟨S1x600, .f32⟩
  | 86 => ⟨S1x600, .f32⟩
  | 87 => ⟨S10000x600, .f32⟩
  | 88 => ⟨S10000x600, .f32⟩
  | 89 => ⟨S10000x600, .f32⟩
  | 90 => ⟨S_, .f32⟩
  | 91 => ⟨S_, .f32⟩
  | 92 => ⟨S_, .f32⟩
  | 93 => ⟨S_, .f32⟩
  | 94 => ⟨S600, .f32⟩
  | 95 => ⟨S600, .f32⟩
  | 96 => ⟨S600, .f32⟩
  | 97 => ⟨S_, .f32⟩
  | 98 => ⟨S_, .i1⟩
  | 99 => ⟨S_, .f32⟩
  | 100 => ⟨S_, .f32⟩
  | 101 => ⟨S600, .f32⟩
  | 102 => ⟨S600, .f32⟩
  | 103 => ⟨S1x600, .f32⟩
  | 104 => ⟨S10000x600, .f32⟩
  | 105 => ⟨S10000x600, .f32⟩
  | 106 => ⟨S_, .f32⟩
  | 107 => ⟨S600, .f32⟩
  | 108 => ⟨S600, .f32⟩
  | 109 => ⟨S600, .f32⟩
  | 110 => ⟨S1x600, .f32⟩
  | 111 => ⟨S10000x600, .f32⟩
  | 112 => ⟨S10000x600, .f32⟩
  | 113 => ⟨S1x600, .f32⟩
  | 114 => ⟨S10000x600, .f32⟩
  | 115 => ⟨S10000x600, .f32⟩
  | 116 => ⟨S1x600, .f32⟩
  | 117 => ⟨S10000x600, .f32⟩
  | 118 => ⟨S10000x600, .f32⟩
  | 119 => ⟨S_, .f32⟩
  | 120 => ⟨S10000x600, .f32⟩
  | 121 => ⟨S10000x600, .f32⟩
  | 122 => ⟨S1x600x300, .f32⟩
  | 123 => ⟨S600x300, .f32⟩
  | 124 => ⟨S10000x300, .f32⟩
  | 125 => ⟨S1x300, .f32⟩
  | 126 => ⟨S300, .f32⟩
  | 127 => ⟨S1x300, .f32⟩
  | _ => ⟨S10000, .i32⟩

abbrev hbmTy0_7 (i : Nat) : BufTy := match i % 128 with
  | 0 => ⟨S10000x300, .f32⟩
  | 1 => ⟨S10000x300, .f32⟩
  | 2 => ⟨S1x300, .f32⟩
  | 3 => ⟨S300, .f32⟩
  | 4 => ⟨S1x300, .f32⟩
  | 5 => ⟨S300, .f32⟩
  | 6 => ⟨S_, .f32⟩
  | 7 => ⟨S300, .f32⟩
  | 8 => ⟨S_, .f32⟩
  | 9 => ⟨S300, .f32⟩
  | 10 => ⟨S300, .f32⟩
  | 11 => ⟨S_, .i32⟩
  | 12 => ⟨S_, .f32⟩
  | 13 => ⟨S300, .f32⟩
  | 14 => ⟨S1x300, .f32⟩
  | 15 => ⟨S_, .f32⟩
  | 16 => ⟨S1x300, .f32⟩
  | 17 => ⟨S1x300, .f32⟩
  | 18 => ⟨S10000x300, .f32⟩
  | 19 => ⟨S10000x300, .f32⟩
  | 20 => ⟨S10000x300, .f32⟩
  | 21 => ⟨S_, .f32⟩
  | 22 => ⟨S_, .f32⟩
  | 23 => ⟨S_, .f32⟩
  | 24 => ⟨S_, .f32⟩
  | 25 => ⟨S300, .f32⟩
  | 26 => ⟨S300, .f32⟩
  | 27 => ⟨S300, .f32⟩
  | 28 => ⟨S_, .f32⟩
  | 29 => ⟨S_, .i1⟩
  | 30 => ⟨S_, .f32⟩
  | 31 => ⟨S_, .f32⟩
  | 32 => ⟨S300, .f32⟩
  | 33 => ⟨S300, .f32⟩
  | 34 => ⟨S1x300, .f32⟩
  | 35 => ⟨S10000x300, .f32⟩
  | 36 => ⟨S10000x300, .f32⟩
  | 37 => ⟨S_, .f32⟩
  | 38 => ⟨S300, .f32⟩
  | 39 => ⟨S300, .f32⟩
  | 40 => ⟨S300, .f32⟩
  | 41 => ⟨S1x300, .f32⟩
  | 42 => ⟨S10000x300, .f32⟩
  | 43 => ⟨S10000x300, .f32⟩
  | 44 => ⟨S1x300, .f32⟩
  | 45 => ⟨S10000x300, .f32⟩
  | 46 => ⟨S10000x300, .f32⟩
  | 47 => ⟨S1x300, .f32⟩
  | 48 => ⟨S10000x300, .f32⟩
  | 49 => ⟨S10000x300, .f32⟩
  | 50 => ⟨S_, .f32⟩
  | 51 => ⟨S10000x300, .f32⟩
  | 52 => ⟨S10000x300, .f32⟩
  | 53 => ⟨S_, .i32⟩
  | 54 => ⟨S160000, .i32⟩
  | 55 => ⟨S160000, .i1⟩
  | 56 => ⟨S_, .i32⟩
  | 57 => ⟨S160000, .i32⟩
  | 58 => ⟨S160000, .i32⟩
  | 59 => ⟨S160000, .i32⟩
  | 60 => ⟨S160000x1, .i32⟩
  | 61 => ⟨S160000x300, .f32⟩
  | 62 => ⟨S1x5x300, .f32⟩
  | 63 => ⟨S5x300, .f32⟩
  | 64 => ⟨S_, .i32⟩
  | 65 => ⟨S160000, .i32⟩
  | 66 => ⟨S160000, .i1⟩
  | 67 => ⟨S_, .i32⟩
  | 68 => ⟨S160000, .i32⟩
  | 69 => ⟨S160000, .i32⟩
  | 70 => ⟨S160000, .i32⟩
  | 71 => ⟨S160000x1, .i32⟩
  | 72 => ⟨S160000x300, .f32⟩
  | 73 => ⟨S160000x300, .f32⟩
  | 74 => ⟨S_, .f32⟩
  | 75 => ⟨S160000x300, .f32⟩
  | 76 => ⟨S160000x300, .f32⟩
  | 77 => ⟨S_, .f32⟩
  | 78 => ⟨S10000x300, .f32⟩
  | 79 => ⟨S160000x1, .i32⟩
  | 80 => ⟨S10000x300, .f32⟩
  | 81 => ⟨S1, .f32⟩
  | 82 => ⟨S_, .f32⟩
  | 83 => ⟨S_, .f32⟩
  | 84 => ⟨S_, .f32⟩
  | 85 => ⟨S10000x300, .f32⟩
  | 86 => ⟨S10000x300, .f32⟩
  | 87 => ⟨S10000x300, .f32⟩
  | 88 => ⟨S1x300x600, .f32⟩
  | 89 => ⟨S300x600, .f32⟩
  | 90 => ⟨S10000x600, .f32⟩
  | 91 => ⟨S1x600, .f32⟩
  | 92 => ⟨S600, .f32⟩
  | 93 => ⟨S1x600, .f32⟩
  | 94 => ⟨S10000x600, .f32⟩
  | 95 => ⟨S10000x600, .f32⟩
  | 96 => ⟨S1x600, .f32⟩
  | 97 => ⟨S600, .f32⟩
  | 98 => ⟨S1x600, .f32⟩
  | 99 => ⟨S600, .f32⟩
  | 100 => ⟨S_, .f32⟩
  | 101 => ⟨S600, .f32⟩
  | 102 => ⟨S_, .f32⟩
  | 103 => ⟨S600, .f32⟩
  | 104 => ⟨S600, .f32⟩
  | 105 => ⟨S_, .i32⟩
  | 106 => ⟨S_, .f32⟩
  | 107 => ⟨S600, .f32⟩
  | 108 => ⟨S1x600, .f32⟩
  | 109 => ⟨S_, .f32⟩
  | 110 => ⟨S1x600, .f32⟩
  | 111 => ⟨S1x600, .f32⟩
  | 112 => ⟨S10000x600, .f32⟩
  | 113 => ⟨S10000x600, .f32⟩
  | 114 => ⟨S10000x600, .f32⟩
  | 115 => ⟨S_, .f32⟩
  | 116 => ⟨S_, .f32⟩
  | 117 => ⟨S_, .f32⟩
  | 118 => ⟨S_, .f32⟩
  | 119 => ⟨S600, .f32⟩
  | 120 => ⟨S600, .f32⟩
  | 121 => ⟨S600, .f32⟩
  | 122 => ⟨S_, .f32⟩
  | 123 => ⟨S_, .i1⟩
  | 124 => ⟨S_, .f32⟩
  | 125 => ⟨S_, .f32⟩
  | 126 => ⟨S600, .f32⟩
  | 127 => ⟨S600, .f32⟩
  | _ => ⟨S10000, .i32⟩

abbrev hbmTy0_8 (i : Nat) : BufTy := match i % 128 with
  | 0 => ⟨S1x600, .f32⟩
  | 1 => ⟨S10000x600, .f32⟩
  | 2 => ⟨S10000x600, .f32⟩
  | 3 => ⟨S_, .f32⟩
  | 4 => ⟨S600, .f32⟩
  | 5 => ⟨S600, .f32⟩
  | 6 => ⟨S600, .f32⟩
  | 7 => ⟨S1x600, .f32⟩
  | 8 => ⟨S10000x600, .f32⟩
  | 9 => ⟨S10000x600, .f32⟩
  | 10 => ⟨S1x600, .f32⟩
  | 11 => ⟨S10000x600, .f32⟩
  | 12 => ⟨S10000x600, .f32⟩
  | 13 => ⟨S1x600, .f32⟩
  | 14 => ⟨S10000x600, .f32⟩
  | 15 => ⟨S10000x600, .f32⟩
  | 16 => ⟨S_, .f32⟩
  | 17 => ⟨S10000x600, .f32⟩
  | 18 => ⟨S10000x600, .f32⟩
  | 19 => ⟨S1x600x300, .f32⟩
  | 20 => ⟨S600x300, .f32⟩
  | 21 => ⟨S10000x300, .f32⟩
  | 22 => ⟨S1x300, .f32⟩
  | 23 => ⟨S300, .f32⟩
  | 24 => ⟨S1x300, .f32⟩
  | 25 => ⟨S10000x300, .f32⟩
  | 26 => ⟨S10000x300, .f32⟩
  | 27 => ⟨S1x300, .f32⟩
  | 28 => ⟨S300, .f32⟩
  | 29 => ⟨S1x300, .f32⟩
  | 30 => ⟨S300, .f32⟩
  | 31 => ⟨S_, .f32⟩
  | 32 => ⟨S300, .f32⟩
  | 33 => ⟨S_, .f32⟩
  | 34 => ⟨S300, .f32⟩
  | 35 => ⟨S300, .f32⟩
  | 36 => ⟨S_, .i32⟩
  | 37 => ⟨S_, .f32⟩
  | 38 => ⟨S300, .f32⟩
  | 39 => ⟨S1x300, .f32⟩
  | 40 => ⟨S_, .f32⟩
  | 41 => ⟨S1x300, .f32⟩
  | 42 => ⟨S1x300, .f32⟩
  | 43 => ⟨S10000x300, .f32⟩
  | 44 => ⟨S10000x300, .f32⟩
  | 45 => ⟨S10000x300, .f32⟩
  | 46 => ⟨S_, .f32⟩
  | 47 => ⟨S_, .f32⟩
  | 48 => ⟨S_, .f32⟩
  | 49 => ⟨S_, .f32⟩
  | 50 => ⟨S300, .f32⟩
  | 51 => ⟨S300, .f32⟩
  | 52 => ⟨S300, .f32⟩
  | 53 => ⟨S_, .f32⟩
  | 54 => ⟨S_, .i1⟩
  | 55 => ⟨S_, .f32⟩
  | 56 => ⟨S_, .f32⟩
  | 57 => ⟨S300, .f32⟩
  | 58 => ⟨S300, .f32⟩
  | 59 => ⟨S1x300, .f32⟩
  | 60 => ⟨S10000x300, .f32⟩
  | 61 => ⟨S10000x300, .f32⟩
  | 62 => ⟨S_, .f32⟩
  | 63 => ⟨S300, .f32⟩
  | 64 => ⟨S300, .f32⟩
  | 65 => ⟨S300, .f32⟩
  | 66 => ⟨S1x300, .f32⟩
  | 67 => ⟨S10000x300, .f32⟩
  | 68 => ⟨S10000x300, .f32⟩
  | 69 => ⟨S1x300, .f32⟩
  | 70 => ⟨S10000x300, .f32⟩
  | 71 => ⟨S10000x300, .f32⟩
  | 72 => ⟨S1x300, .f32⟩
  | 73 => ⟨S10000x300, .f32⟩
  | 74 => ⟨S10000x300, .f32⟩
  | 75 => ⟨S_, .f32⟩
  | 76 => ⟨S2000x300, .f32⟩
  | 77 => ⟨S10000x1, .i32⟩
  | 78 => ⟨S2000x300, .f32⟩
  | 79 => ⟨S_, .f32⟩
  | 80 => ⟨S10000x1, .f32⟩
  | 81 => ⟨S_, .f32⟩
  | 82 => ⟨S2000x1, .f32⟩
  | 83 => ⟨S10000x1, .i32⟩
  | 84 => ⟨S2000x1, .f32⟩
  | 85 => ⟨S_, .f32⟩
  | 86 => ⟨S_, .f32⟩
  | 87 => ⟨S2000x1, .f32⟩
  | 88 => ⟨S2000x1, .f32⟩
  | 89 => ⟨S2000x300, .f32⟩
  | 90 => ⟨S2000x300, .f32⟩
  | 91 => ⟨S_, .f32⟩
  | 92 => ⟨S64x300, .f32⟩
  | 93 => ⟨S2000x1, .i32⟩
  | 94 => ⟨S64x300, .f32⟩
  | 95 => ⟨S_, .f32⟩
  | 96 => ⟨S2000x1, .f32⟩
  | 97 => ⟨S_, .f32⟩
  | 98 => ⟨S64x1, .f32⟩
  | 99 => ⟨S2000x1, .i32⟩
  | 100 => ⟨S64x1, .f32⟩
  | 101 => ⟨S_, .f32⟩
  | 102 => ⟨S_, .f32⟩
  | 103 => ⟨S64x1, .f32⟩
  | 104 => ⟨S64x1, .f32⟩
  | 105 => ⟨S64x300, .f32⟩
  | 106 => ⟨S64x300, .f32⟩
  | 107 => ⟨S1x10, .f32⟩
  | 108 => ⟨S64x10, .f32⟩
  | _ => ⟨S10000, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S10000, .i32⟩

abbrev bufTy : (tb : Table) → Fin (tcTables nBuf tb) → BufTy
  | .hbm, ⟨i, _⟩ => hbmTy i
  | .local _ .vmem, ⟨0, _⟩ => ⟨S64x300, .f32⟩
  | .local _ .vmem, ⟨1, _⟩ => ⟨S300x10, .f32⟩
  | .local _ .vmem, ⟨2, _⟩ => ⟨S1x10, .f32⟩
  | .local _ .vmem, ⟨3, _⟩ => ⟨S64x10, .f32⟩
  | _, _ => ⟨S10000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_3 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call0_cst : Ref sig .tc := ⟨.hbm, 52, rfl⟩
abbrev main_call0_v0 : Ref sig .tc := ⟨.hbm, 53, rfl⟩
abbrev main_v28 : Ref sig .tc := ⟨.hbm, 54, rfl⟩
abbrev main_cst : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_6 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_c_8 : Ref sig .tc := ⟨.hbm, 83, rfl⟩
abbrev main_call1_cst : Ref sig .tc := ⟨.hbm, 84, rfl⟩
abbrev main_call1_v0 : Ref sig .tc := ⟨.hbm, 85, rfl⟩
abbrev main_call1_v1 : Ref sig .tc := ⟨.hbm, 86, rfl⟩
abbrev main_call1_cst_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_v7 : Ref sig .tc := ⟨.hbm, 93, rfl⟩
abbrev main_call1_cst_1 : Ref sig .tc := ⟨.hbm, 94, rfl⟩
abbrev main_call1_v8 : Ref sig .tc := ⟨.hbm, 95, rfl⟩
abbrev main_call1_cst_2 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_cst_3 : Ref sig .tc := ⟨.hbm, 100, rfl⟩
abbrev main_call1_v12 : Ref sig .tc := ⟨.hbm, 101, rfl⟩
abbrev main_call1_cst_4 : Ref sig .tc := ⟨.hbm, 102, rfl⟩
abbrev main_call1_call0_v0 : Ref sig .tc := ⟨.hbm, 103, rfl⟩
abbrev main_call1_call0_v1 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_cst_9 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_call2_cst : Ref sig .tc := ⟨.hbm, 122, rfl⟩
abbrev main_call2_v0 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_cst_10 : Ref sig .tc := ⟨.hbm, 137, rfl⟩
abbrev main_v82 : Ref sig .tc := ⟨.hbm, 138, rfl⟩
abbrev main_cst_11 : Ref sig .tc := ⟨.hbm, 139, rfl⟩
abbrev main_v83 : Ref sig .tc := ⟨.hbm, 140, rfl⟩
abbrev main_v84 : Ref sig .tc := ⟨.hbm, 141, rfl⟩
abbrev main_c_12 : Ref sig .tc := ⟨.hbm, 142, rfl⟩
abbrev main_call3_cst : Ref sig .tc := ⟨.hbm, 143, rfl⟩
abbrev main_call3_v0 : Ref sig .tc := ⟨.hbm, 144, rfl⟩
abbrev main_call3_v1 : Ref sig .tc := ⟨.hbm, 145, rfl⟩
abbrev main_call3_cst_0 : Ref sig .tc := ⟨.hbm, 146, rfl⟩
abbrev main_call3_v2 : Ref sig .tc := ⟨.hbm, 147, rfl⟩
abbrev main_call3_v3 : Ref sig .tc := ⟨.hbm, 148, rfl⟩
abbrev main_call3_v4 : Ref sig .tc := ⟨.hbm, 149, rfl⟩
abbrev main_call3_v5 : Ref sig .tc := ⟨.hbm, 150, rfl⟩
abbrev main_call3_v6 : Ref sig .tc := ⟨.hbm, 151, rfl⟩
abbrev main_call3_v7 : Ref sig .tc := ⟨.hbm, 152, rfl⟩
abbrev main_call3_cst_1 : Ref sig .tc := ⟨.hbm, 153, rfl⟩
abbrev main_call3_v8 : Ref sig .tc := ⟨.hbm, 154, rfl⟩
abbrev main_call3_cst_2 : Ref sig .tc := ⟨.hbm, 155, rfl⟩
abbrev main_call3_v9 : Ref sig .tc := ⟨.hbm, 156, rfl⟩
abbrev main_call3_v10 : Ref sig .tc := ⟨.hbm, 157, rfl⟩
abbrev main_call3_v11 : Ref sig .tc := ⟨.hbm, 158, rfl⟩
abbrev main_call3_cst_3 : Ref sig .tc := ⟨.hbm, 159, rfl⟩
abbrev main_call3_v12 : Ref sig .tc := ⟨.hbm, 160, rfl⟩
abbrev main_call3_cst_4 : Ref sig .tc := ⟨.hbm, 161, rfl⟩
abbrev main_call3_call0_v0 : Ref sig .tc := ⟨.hbm, 162, rfl⟩
abbrev main_call3_call0_v1 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_cst_13 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_call4_cst : Ref sig .tc := ⟨.hbm, 181, rfl⟩
abbrev main_call4_v0 : Ref sig .tc := ⟨.hbm, 182, rfl⟩
abbrev main_v101 : Ref sig .tc := ⟨.hbm, 183, rfl⟩
abbrev main_c_14 : Ref sig .tc := ⟨.hbm, 184, rfl⟩
abbrev main_v102 : Ref sig .tc := ⟨.hbm, 185, rfl⟩
abbrev main_v103 : Ref sig .tc := ⟨.hbm, 186, rfl⟩
abbrev main_c_15 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_c_16 : Ref sig .tc := ⟨.hbm, 195, rfl⟩
abbrev main_v111 : Ref sig .tc := ⟨.hbm, 196, rfl⟩
abbrev main_v112 : Ref sig .tc := ⟨.hbm, 197, rfl⟩
abbrev main_c_17 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_call5_cst : Ref sig .tc := ⟨.hbm, 205, rfl⟩
abbrev main_call5_v0 : Ref sig .tc := ⟨.hbm, 206, rfl⟩
abbrev main_v119 : Ref sig .tc := ⟨.hbm, 207, rfl⟩
abbrev main_cst_18 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_cst_19 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_cst_20 : Ref sig .tc := ⟨.hbm, 231, rfl⟩
abbrev main_v141 : Ref sig .tc := ⟨.hbm, 232, rfl⟩
abbrev main_cst_21 : Ref sig .tc := ⟨.hbm, 233, rfl⟩
abbrev main_v142 : Ref sig .tc := ⟨.hbm, 234, rfl⟩
abbrev main_v143 : Ref sig .tc := ⟨.hbm, 235, rfl⟩
abbrev main_c_22 : Ref sig .tc := ⟨.hbm, 236, rfl⟩
abbrev main_call6_cst : Ref sig .tc := ⟨.hbm, 237, rfl⟩
abbrev main_call6_v0 : Ref sig .tc := ⟨.hbm, 238, rfl⟩
abbrev main_call6_v1 : Ref sig .tc := ⟨.hbm, 239, rfl⟩
abbrev main_call6_cst_0 : Ref sig .tc := ⟨.hbm, 240, rfl⟩
abbrev main_call6_v2 : Ref sig .tc := ⟨.hbm, 241, rfl⟩
abbrev main_call6_v3 : Ref sig .tc := ⟨.hbm, 242, rfl⟩
abbrev main_call6_v4 : Ref sig .tc := ⟨.hbm, 243, rfl⟩
abbrev main_call6_v5 : Ref sig .tc := ⟨.hbm, 244, rfl⟩
abbrev main_call6_v6 : Ref sig .tc := ⟨.hbm, 245, rfl⟩
abbrev main_call6_v7 : Ref sig .tc := ⟨.hbm, 246, rfl⟩
abbrev main_call6_cst_1 : Ref sig .tc := ⟨.hbm, 247, rfl⟩
abbrev main_call6_v8 : Ref sig .tc := ⟨.hbm, 248, rfl⟩
abbrev main_call6_cst_2 : Ref sig .tc := ⟨.hbm, 249, rfl⟩
abbrev main_call6_v9 : Ref sig .tc := ⟨.hbm, 250, rfl⟩
abbrev main_call6_v10 : Ref sig .tc := ⟨.hbm, 251, rfl⟩
abbrev main_call6_v11 : Ref sig .tc := ⟨.hbm, 252, rfl⟩
abbrev main_call6_cst_3 : Ref sig .tc := ⟨.hbm, 253, rfl⟩
abbrev main_call6_v12 : Ref sig .tc := ⟨.hbm, 254, rfl⟩
abbrev main_call6_cst_4 : Ref sig .tc := ⟨.hbm, 255, rfl⟩
abbrev main_call6_call0_v0 : Ref sig .tc := ⟨.hbm, 256, rfl⟩
abbrev main_call6_call0_v1 : Ref sig .tc := ⟨.hbm, 257, rfl⟩
abbrev main_v144 : Ref sig .tc := ⟨.hbm, 258, rfl⟩
abbrev main_v145 : Ref sig .tc := ⟨.hbm, 259, rfl⟩
abbrev main_v146 : Ref sig .tc := ⟨.hbm, 260, rfl⟩
abbrev main_v147 : Ref sig .tc := ⟨.hbm, 261, rfl⟩
abbrev main_cst_23 : Ref sig .tc := ⟨.hbm, 262, rfl⟩
abbrev main_v148 : Ref sig .tc := ⟨.hbm, 263, rfl⟩
abbrev main_v149 : Ref sig .tc := ⟨.hbm, 264, rfl⟩
abbrev main_v150 : Ref sig .tc := ⟨.hbm, 265, rfl⟩
abbrev main_v151 : Ref sig .tc := ⟨.hbm, 266, rfl⟩
abbrev main_v152 : Ref sig .tc := ⟨.hbm, 267, rfl⟩
abbrev main_v153 : Ref sig .tc := ⟨.hbm, 268, rfl⟩
abbrev main_v154 : Ref sig .tc := ⟨.hbm, 269, rfl⟩
abbrev main_v155 : Ref sig .tc := ⟨.hbm, 270, rfl⟩
abbrev main_v156 : Ref sig .tc := ⟨.hbm, 271, rfl⟩
abbrev main_v157 : Ref sig .tc := ⟨.hbm, 272, rfl⟩
abbrev main_v158 : Ref sig .tc := ⟨.hbm, 273, rfl⟩
abbrev main_v159 : Ref sig .tc := ⟨.hbm, 274, rfl⟩
abbrev main_call7_cst : Ref sig .tc := ⟨.hbm, 275, rfl⟩
abbrev main_call7_v0 : Ref sig .tc := ⟨.hbm, 276, rfl⟩
abbrev main_v160 : Ref sig .tc := ⟨.hbm, 277, rfl⟩
abbrev main_v161 : Ref sig .tc := ⟨.hbm, 278, rfl⟩
abbrev main_v162 : Ref sig .tc := ⟨.hbm, 279, rfl⟩
abbrev main_v163 : Ref sig .tc := ⟨.hbm, 280, rfl⟩
abbrev main_v164 : Ref sig .tc := ⟨.hbm, 281, rfl⟩
abbrev main_v165 : Ref sig .tc := ⟨.hbm, 282, rfl⟩
abbrev main_v166 : Ref sig .tc := ⟨.hbm, 283, rfl⟩
abbrev main_v167 : Ref sig .tc := ⟨.hbm, 284, rfl⟩
abbrev main_v168 : Ref sig .tc := ⟨.hbm, 285, rfl⟩
abbrev main_v169 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_cst_24 : Ref sig .tc := ⟨.hbm, 290, rfl⟩
abbrev main_v173 : Ref sig .tc := ⟨.hbm, 291, rfl⟩
abbrev main_cst_25 : Ref sig .tc := ⟨.hbm, 292, rfl⟩
abbrev main_v174 : Ref sig .tc := ⟨.hbm, 293, rfl⟩
abbrev main_v175 : Ref sig .tc := ⟨.hbm, 294, rfl⟩
abbrev main_c_26 : Ref sig .tc := ⟨.hbm, 295, rfl⟩
abbrev main_call8_cst : Ref sig .tc := ⟨.hbm, 296, rfl⟩
abbrev main_call8_v0 : Ref sig .tc := ⟨.hbm, 297, rfl⟩
abbrev main_call8_v1 : Ref sig .tc := ⟨.hbm, 298, rfl⟩
abbrev main_call8_cst_0 : Ref sig .tc := ⟨.hbm, 299, rfl⟩
abbrev main_call8_v2 : Ref sig .tc := ⟨.hbm, 300, rfl⟩
abbrev main_call8_v3 : Ref sig .tc := ⟨.hbm, 301, rfl⟩
abbrev main_call8_v4 : Ref sig .tc := ⟨.hbm, 302, rfl⟩
abbrev main_call8_v5 : Ref sig .tc := ⟨.hbm, 303, rfl⟩
abbrev main_call8_v6 : Ref sig .tc := ⟨.hbm, 304, rfl⟩
abbrev main_call8_v7 : Ref sig .tc := ⟨.hbm, 305, rfl⟩
abbrev main_call8_cst_1 : Ref sig .tc := ⟨.hbm, 306, rfl⟩
abbrev main_call8_v8 : Ref sig .tc := ⟨.hbm, 307, rfl⟩
abbrev main_call8_cst_2 : Ref sig .tc := ⟨.hbm, 308, rfl⟩
abbrev main_call8_v9 : Ref sig .tc := ⟨.hbm, 309, rfl⟩
abbrev main_call8_v10 : Ref sig .tc := ⟨.hbm, 310, rfl⟩
abbrev main_call8_v11 : Ref sig .tc := ⟨.hbm, 311, rfl⟩
abbrev main_call8_cst_3 : Ref sig .tc := ⟨.hbm, 312, rfl⟩
abbrev main_call8_v12 : Ref sig .tc := ⟨.hbm, 313, rfl⟩
abbrev main_call8_cst_4 : Ref sig .tc := ⟨.hbm, 314, rfl⟩
abbrev main_call8_call0_v0 : Ref sig .tc := ⟨.hbm, 315, rfl⟩
abbrev main_call8_call0_v1 : Ref sig .tc := ⟨.hbm, 316, rfl⟩
abbrev main_v176 : Ref sig .tc := ⟨.hbm, 317, rfl⟩
abbrev main_v177 : Ref sig .tc := ⟨.hbm, 318, rfl⟩
abbrev main_v178 : Ref sig .tc := ⟨.hbm, 319, rfl⟩
abbrev main_v179 : Ref sig .tc := ⟨.hbm, 320, rfl⟩
abbrev main_cst_27 : Ref sig .tc := ⟨.hbm, 321, rfl⟩
abbrev main_v180 : Ref sig .tc := ⟨.hbm, 322, rfl⟩
abbrev main_v181 : Ref sig .tc := ⟨.hbm, 323, rfl⟩
abbrev main_v182 : Ref sig .tc := ⟨.hbm, 324, rfl⟩
abbrev main_v183 : Ref sig .tc := ⟨.hbm, 325, rfl⟩
abbrev main_v184 : Ref sig .tc := ⟨.hbm, 326, rfl⟩
abbrev main_v185 : Ref sig .tc := ⟨.hbm, 327, rfl⟩
abbrev main_v186 : Ref sig .tc := ⟨.hbm, 328, rfl⟩
abbrev main_v187 : Ref sig .tc := ⟨.hbm, 329, rfl⟩
abbrev main_v188 : Ref sig .tc := ⟨.hbm, 330, rfl⟩
abbrev main_v189 : Ref sig .tc := ⟨.hbm, 331, rfl⟩
abbrev main_v190 : Ref sig .tc := ⟨.hbm, 332, rfl⟩
abbrev main_v191 : Ref sig .tc := ⟨.hbm, 333, rfl⟩
abbrev main_call9_cst : Ref sig .tc := ⟨.hbm, 334, rfl⟩
abbrev main_call9_v0 : Ref sig .tc := ⟨.hbm, 335, rfl⟩
abbrev main_v192 : Ref sig .tc := ⟨.hbm, 336, rfl⟩
abbrev main_c_28 : Ref sig .tc := ⟨.hbm, 337, rfl⟩
abbrev main_v193 : Ref sig .tc := ⟨.hbm, 338, rfl⟩
abbrev main_v194 : Ref sig .tc := ⟨.hbm, 339, rfl⟩
abbrev main_c_29 : Ref sig .tc := ⟨.hbm, 340, rfl⟩
abbrev main_v195 : Ref sig .tc := ⟨.hbm, 341, rfl⟩
abbrev main_v196 : Ref sig .tc := ⟨.hbm, 342, rfl⟩
abbrev main_v197 : Ref sig .tc := ⟨.hbm, 343, rfl⟩
abbrev main_v198 : Ref sig .tc := ⟨.hbm, 344, rfl⟩
abbrev main_v199 : Ref sig .tc := ⟨.hbm, 345, rfl⟩
abbrev main_v200 : Ref sig .tc := ⟨.hbm, 346, rfl⟩
abbrev main_v201 : Ref sig .tc := ⟨.hbm, 347, rfl⟩
abbrev main_c_30 : Ref sig .tc := ⟨.hbm, 348, rfl⟩
abbrev main_v202 : Ref sig .tc := ⟨.hbm, 349, rfl⟩
abbrev main_v203 : Ref sig .tc := ⟨.hbm, 350, rfl⟩
abbrev main_c_31 : Ref sig .tc := ⟨.hbm, 351, rfl⟩
abbrev main_v204 : Ref sig .tc := ⟨.hbm, 352, rfl⟩
abbrev main_v205 : Ref sig .tc := ⟨.hbm, 353, rfl⟩
abbrev main_v206 : Ref sig .tc := ⟨.hbm, 354, rfl⟩
abbrev main_v207 : Ref sig .tc := ⟨.hbm, 355, rfl⟩
abbrev main_v208 : Ref sig .tc := ⟨.hbm, 356, rfl⟩
abbrev main_v209 : Ref sig .tc := ⟨.hbm, 357, rfl⟩
abbrev main_call10_cst : Ref sig .tc := ⟨.hbm, 358, rfl⟩
abbrev main_call10_v0 : Ref sig .tc := ⟨.hbm, 359, rfl⟩
abbrev main_v210 : Ref sig .tc := ⟨.hbm, 360, rfl⟩
abbrev main_cst_32 : Ref sig .tc := ⟨.hbm, 361, rfl⟩
abbrev main_v211 : Ref sig .tc := ⟨.hbm, 362, rfl⟩
abbrev main_v212 : Ref sig .tc := ⟨.hbm, 363, rfl⟩
abbrev main_v213 : Ref sig .tc := ⟨.hbm, 364, rfl⟩
abbrev main_v214 : Ref sig .tc := ⟨.hbm, 365, rfl⟩
abbrev main_v215 : Ref sig .tc := ⟨.hbm, 366, rfl⟩
abbrev main_cst_33 : Ref sig .tc := ⟨.hbm, 367, rfl⟩
abbrev main_v216 : Ref sig .tc := ⟨.hbm, 368, rfl⟩
abbrev main_v217 : Ref sig .tc := ⟨.hbm, 369, rfl⟩
abbrev main_v218 : Ref sig .tc := ⟨.hbm, 370, rfl⟩
abbrev main_v219 : Ref sig .tc := ⟨.hbm, 371, rfl⟩
abbrev main_v220 : Ref sig .tc := ⟨.hbm, 372, rfl⟩
abbrev main_v221 : Ref sig .tc := ⟨.hbm, 373, rfl⟩
abbrev main_v222 : Ref sig .tc := ⟨.hbm, 374, rfl⟩
abbrev main_v223 : Ref sig .tc := ⟨.hbm, 375, rfl⟩
abbrev main_v224 : Ref sig .tc := ⟨.hbm, 376, rfl⟩
abbrev main_v225 : Ref sig .tc := ⟨.hbm, 377, rfl⟩
abbrev main_v226 : Ref sig .tc := ⟨.hbm, 378, rfl⟩
abbrev main_v227 : Ref sig .tc := ⟨.hbm, 379, rfl⟩
abbrev main_v228 : Ref sig .tc := ⟨.hbm, 380, rfl⟩
abbrev main_v229 : Ref sig .tc := ⟨.hbm, 381, rfl⟩
abbrev main_v230 : Ref sig .tc := ⟨.hbm, 382, rfl⟩
abbrev main_v231 : Ref sig .tc := ⟨.hbm, 383, rfl⟩
abbrev main_cst_34 : Ref sig .tc := ⟨.hbm, 384, rfl⟩
abbrev main_v232 : Ref sig .tc := ⟨.hbm, 385, rfl⟩
abbrev main_cst_35 : Ref sig .tc := ⟨.hbm, 386, rfl⟩
abbrev main_v233 : Ref sig .tc := ⟨.hbm, 387, rfl⟩
abbrev main_v234 : Ref sig .tc := ⟨.hbm, 388, rfl⟩
abbrev main_c_36 : Ref sig .tc := ⟨.hbm, 389, rfl⟩
abbrev main_call11_cst : Ref sig .tc := ⟨.hbm, 390, rfl⟩
abbrev main_call11_v0 : Ref sig .tc := ⟨.hbm, 391, rfl⟩
abbrev main_call11_v1 : Ref sig .tc := ⟨.hbm, 392, rfl⟩
abbrev main_call11_cst_0 : Ref sig .tc := ⟨.hbm, 393, rfl⟩
abbrev main_call11_v2 : Ref sig .tc := ⟨.hbm, 394, rfl⟩
abbrev main_call11_v3 : Ref sig .tc := ⟨.hbm, 395, rfl⟩
abbrev main_call11_v4 : Ref sig .tc := ⟨.hbm, 396, rfl⟩
abbrev main_call11_v5 : Ref sig .tc := ⟨.hbm, 397, rfl⟩
abbrev main_call11_v6 : Ref sig .tc := ⟨.hbm, 398, rfl⟩
abbrev main_call11_v7 : Ref sig .tc := ⟨.hbm, 399, rfl⟩
abbrev main_call11_cst_1 : Ref sig .tc := ⟨.hbm, 400, rfl⟩
abbrev main_call11_v8 : Ref sig .tc := ⟨.hbm, 401, rfl⟩
abbrev main_call11_cst_2 : Ref sig .tc := ⟨.hbm, 402, rfl⟩
abbrev main_call11_v9 : Ref sig .tc := ⟨.hbm, 403, rfl⟩
abbrev main_call11_v10 : Ref sig .tc := ⟨.hbm, 404, rfl⟩
abbrev main_call11_v11 : Ref sig .tc := ⟨.hbm, 405, rfl⟩
abbrev main_call11_cst_3 : Ref sig .tc := ⟨.hbm, 406, rfl⟩
abbrev main_call11_v12 : Ref sig .tc := ⟨.hbm, 407, rfl⟩
abbrev main_call11_cst_4 : Ref sig .tc := ⟨.hbm, 408, rfl⟩
abbrev main_call11_call0_v0 : Ref sig .tc := ⟨.hbm, 409, rfl⟩
abbrev main_call11_call0_v1 : Ref sig .tc := ⟨.hbm, 410, rfl⟩
abbrev main_v235 : Ref sig .tc := ⟨.hbm, 411, rfl⟩
abbrev main_v236 : Ref sig .tc := ⟨.hbm, 412, rfl⟩
abbrev main_v237 : Ref sig .tc := ⟨.hbm, 413, rfl⟩
abbrev main_v238 : Ref sig .tc := ⟨.hbm, 414, rfl⟩
abbrev main_cst_37 : Ref sig .tc := ⟨.hbm, 415, rfl⟩
abbrev main_v239 : Ref sig .tc := ⟨.hbm, 416, rfl⟩
abbrev main_v240 : Ref sig .tc := ⟨.hbm, 417, rfl⟩
abbrev main_v241 : Ref sig .tc := ⟨.hbm, 418, rfl⟩
abbrev main_v242 : Ref sig .tc := ⟨.hbm, 419, rfl⟩
abbrev main_v243 : Ref sig .tc := ⟨.hbm, 420, rfl⟩
abbrev main_v244 : Ref sig .tc := ⟨.hbm, 421, rfl⟩
abbrev main_v245 : Ref sig .tc := ⟨.hbm, 422, rfl⟩
abbrev main_v246 : Ref sig .tc := ⟨.hbm, 423, rfl⟩
abbrev main_v247 : Ref sig .tc := ⟨.hbm, 424, rfl⟩
abbrev main_v248 : Ref sig .tc := ⟨.hbm, 425, rfl⟩
abbrev main_v249 : Ref sig .tc := ⟨.hbm, 426, rfl⟩
abbrev main_v250 : Ref sig .tc := ⟨.hbm, 427, rfl⟩
abbrev main_call12_cst : Ref sig .tc := ⟨.hbm, 428, rfl⟩
abbrev main_call12_v0 : Ref sig .tc := ⟨.hbm, 429, rfl⟩
abbrev main_v251 : Ref sig .tc := ⟨.hbm, 430, rfl⟩
abbrev main_v252 : Ref sig .tc := ⟨.hbm, 431, rfl⟩
abbrev main_v253 : Ref sig .tc := ⟨.hbm, 432, rfl⟩
abbrev main_v254 : Ref sig .tc := ⟨.hbm, 433, rfl⟩
abbrev main_v255 : Ref sig .tc := ⟨.hbm, 434, rfl⟩
abbrev main_v256 : Ref sig .tc := ⟨.hbm, 435, rfl⟩
abbrev main_v257 : Ref sig .tc := ⟨.hbm, 436, rfl⟩
abbrev main_v258 : Ref sig .tc := ⟨.hbm, 437, rfl⟩
abbrev main_v259 : Ref sig .tc := ⟨.hbm, 438, rfl⟩
abbrev main_v260 : Ref sig .tc := ⟨.hbm, 439, rfl⟩
abbrev main_v261 : Ref sig .tc := ⟨.hbm, 440, rfl⟩
abbrev main_v262 : Ref sig .tc := ⟨.hbm, 441, rfl⟩
abbrev main_v263 : Ref sig .tc := ⟨.hbm, 442, rfl⟩
abbrev main_cst_38 : Ref sig .tc := ⟨.hbm, 443, rfl⟩
abbrev main_v264 : Ref sig .tc := ⟨.hbm, 444, rfl⟩
abbrev main_cst_39 : Ref sig .tc := ⟨.hbm, 445, rfl⟩
abbrev main_v265 : Ref sig .tc := ⟨.hbm, 446, rfl⟩
abbrev main_v266 : Ref sig .tc := ⟨.hbm, 447, rfl⟩
abbrev main_c_40 : Ref sig .tc := ⟨.hbm, 448, rfl⟩
abbrev main_call13_cst : Ref sig .tc := ⟨.hbm, 449, rfl⟩
abbrev main_call13_v0 : Ref sig .tc := ⟨.hbm, 450, rfl⟩
abbrev main_call13_v1 : Ref sig .tc := ⟨.hbm, 451, rfl⟩
abbrev main_call13_cst_0 : Ref sig .tc := ⟨.hbm, 452, rfl⟩
abbrev main_call13_v2 : Ref sig .tc := ⟨.hbm, 453, rfl⟩
abbrev main_call13_v3 : Ref sig .tc := ⟨.hbm, 454, rfl⟩
abbrev main_call13_v4 : Ref sig .tc := ⟨.hbm, 455, rfl⟩
abbrev main_call13_v5 : Ref sig .tc := ⟨.hbm, 456, rfl⟩
abbrev main_call13_v6 : Ref sig .tc := ⟨.hbm, 457, rfl⟩
abbrev main_call13_v7 : Ref sig .tc := ⟨.hbm, 458, rfl⟩
abbrev main_call13_cst_1 : Ref sig .tc := ⟨.hbm, 459, rfl⟩
abbrev main_call13_v8 : Ref sig .tc := ⟨.hbm, 460, rfl⟩
abbrev main_call13_cst_2 : Ref sig .tc := ⟨.hbm, 461, rfl⟩
abbrev main_call13_v9 : Ref sig .tc := ⟨.hbm, 462, rfl⟩
abbrev main_call13_v10 : Ref sig .tc := ⟨.hbm, 463, rfl⟩
abbrev main_call13_v11 : Ref sig .tc := ⟨.hbm, 464, rfl⟩
abbrev main_call13_cst_3 : Ref sig .tc := ⟨.hbm, 465, rfl⟩
abbrev main_call13_v12 : Ref sig .tc := ⟨.hbm, 466, rfl⟩
abbrev main_call13_cst_4 : Ref sig .tc := ⟨.hbm, 467, rfl⟩
abbrev main_call13_call0_v0 : Ref sig .tc := ⟨.hbm, 468, rfl⟩
abbrev main_call13_call0_v1 : Ref sig .tc := ⟨.hbm, 469, rfl⟩
abbrev main_v267 : Ref sig .tc := ⟨.hbm, 470, rfl⟩
abbrev main_v268 : Ref sig .tc := ⟨.hbm, 471, rfl⟩
abbrev main_v269 : Ref sig .tc := ⟨.hbm, 472, rfl⟩
abbrev main_v270 : Ref sig .tc := ⟨.hbm, 473, rfl⟩
abbrev main_cst_41 : Ref sig .tc := ⟨.hbm, 474, rfl⟩
abbrev main_v271 : Ref sig .tc := ⟨.hbm, 475, rfl⟩
abbrev main_v272 : Ref sig .tc := ⟨.hbm, 476, rfl⟩
abbrev main_v273 : Ref sig .tc := ⟨.hbm, 477, rfl⟩
abbrev main_v274 : Ref sig .tc := ⟨.hbm, 478, rfl⟩
abbrev main_v275 : Ref sig .tc := ⟨.hbm, 479, rfl⟩
abbrev main_v276 : Ref sig .tc := ⟨.hbm, 480, rfl⟩
abbrev main_v277 : Ref sig .tc := ⟨.hbm, 481, rfl⟩
abbrev main_v278 : Ref sig .tc := ⟨.hbm, 482, rfl⟩
abbrev main_v279 : Ref sig .tc := ⟨.hbm, 483, rfl⟩
abbrev main_v280 : Ref sig .tc := ⟨.hbm, 484, rfl⟩
abbrev main_v281 : Ref sig .tc := ⟨.hbm, 485, rfl⟩
abbrev main_v282 : Ref sig .tc := ⟨.hbm, 486, rfl⟩
abbrev main_call14_cst : Ref sig .tc := ⟨.hbm, 487, rfl⟩
abbrev main_call14_v0 : Ref sig .tc := ⟨.hbm, 488, rfl⟩
abbrev main_v283 : Ref sig .tc := ⟨.hbm, 489, rfl⟩
abbrev main_c_42 : Ref sig .tc := ⟨.hbm, 490, rfl⟩
abbrev main_v284 : Ref sig .tc := ⟨.hbm, 491, rfl⟩
abbrev main_v285 : Ref sig .tc := ⟨.hbm, 492, rfl⟩
abbrev main_c_43 : Ref sig .tc := ⟨.hbm, 493, rfl⟩
abbrev main_v286 : Ref sig .tc := ⟨.hbm, 494, rfl⟩
abbrev main_v287 : Ref sig .tc := ⟨.hbm, 495, rfl⟩
abbrev main_v288 : Ref sig .tc := ⟨.hbm, 496, rfl⟩
abbrev main_v289 : Ref sig .tc := ⟨.hbm, 497, rfl⟩
abbrev main_v290 : Ref sig .tc := ⟨.hbm, 498, rfl⟩
abbrev main_v291 : Ref sig .tc := ⟨.hbm, 499, rfl⟩
abbrev main_v292 : Ref sig .tc := ⟨.hbm, 500, rfl⟩
abbrev main_c_44 : Ref sig .tc := ⟨.hbm, 501, rfl⟩
abbrev main_v293 : Ref sig .tc := ⟨.hbm, 502, rfl⟩
abbrev main_v294 : Ref sig .tc := ⟨.hbm, 503, rfl⟩
abbrev main_c_45 : Ref sig .tc := ⟨.hbm, 504, rfl⟩
abbrev main_v295 : Ref sig .tc := ⟨.hbm, 505, rfl⟩
abbrev main_v296 : Ref sig .tc := ⟨.hbm, 506, rfl⟩
abbrev main_v297 : Ref sig .tc := ⟨.hbm, 507, rfl⟩
abbrev main_v298 : Ref sig .tc := ⟨.hbm, 508, rfl⟩
abbrev main_v299 : Ref sig .tc := ⟨.hbm, 509, rfl⟩
abbrev main_v300 : Ref sig .tc := ⟨.hbm, 510, rfl⟩
abbrev main_call15_cst : Ref sig .tc := ⟨.hbm, 511, rfl⟩
abbrev main_call15_v0 : Ref sig .tc := ⟨.hbm, 512, rfl⟩
abbrev main_v301 : Ref sig .tc := ⟨.hbm, 513, rfl⟩
abbrev main_cst_46 : Ref sig .tc := ⟨.hbm, 514, rfl⟩
abbrev main_v302 : Ref sig .tc := ⟨.hbm, 515, rfl⟩
abbrev main_v303 : Ref sig .tc := ⟨.hbm, 516, rfl⟩
abbrev main_v304 : Ref sig .tc := ⟨.hbm, 517, rfl⟩
abbrev main_v305 : Ref sig .tc := ⟨.hbm, 518, rfl⟩
abbrev main_v306 : Ref sig .tc := ⟨.hbm, 519, rfl⟩
abbrev main_cst_47 : Ref sig .tc := ⟨.hbm, 520, rfl⟩
abbrev main_v307 : Ref sig .tc := ⟨.hbm, 521, rfl⟩
abbrev main_v308 : Ref sig .tc := ⟨.hbm, 522, rfl⟩
abbrev main_v309 : Ref sig .tc := ⟨.hbm, 523, rfl⟩
abbrev main_v310 : Ref sig .tc := ⟨.hbm, 524, rfl⟩
abbrev main_v311 : Ref sig .tc := ⟨.hbm, 525, rfl⟩
abbrev main_v312 : Ref sig .tc := ⟨.hbm, 526, rfl⟩
abbrev main_v313 : Ref sig .tc := ⟨.hbm, 527, rfl⟩
abbrev main_v314 : Ref sig .tc := ⟨.hbm, 528, rfl⟩
abbrev main_v315 : Ref sig .tc := ⟨.hbm, 529, rfl⟩
abbrev main_v316 : Ref sig .tc := ⟨.hbm, 530, rfl⟩
abbrev main_v317 : Ref sig .tc := ⟨.hbm, 531, rfl⟩
abbrev main_v318 : Ref sig .tc := ⟨.hbm, 532, rfl⟩
abbrev main_v319 : Ref sig .tc := ⟨.hbm, 533, rfl⟩
abbrev main_v320 : Ref sig .tc := ⟨.hbm, 534, rfl⟩
abbrev main_v321 : Ref sig .tc := ⟨.hbm, 535, rfl⟩
abbrev main_v322 : Ref sig .tc := ⟨.hbm, 536, rfl⟩
abbrev main_cst_48 : Ref sig .tc := ⟨.hbm, 537, rfl⟩
abbrev main_v323 : Ref sig .tc := ⟨.hbm, 538, rfl⟩
abbrev main_cst_49 : Ref sig .tc := ⟨.hbm, 539, rfl⟩
abbrev main_v324 : Ref sig .tc := ⟨.hbm, 540, rfl⟩
abbrev main_v325 : Ref sig .tc := ⟨.hbm, 541, rfl⟩
abbrev main_c_50 : Ref sig .tc := ⟨.hbm, 542, rfl⟩
abbrev main_call16_cst : Ref sig .tc := ⟨.hbm, 543, rfl⟩
abbrev main_call16_v0 : Ref sig .tc := ⟨.hbm, 544, rfl⟩
abbrev main_call16_v1 : Ref sig .tc := ⟨.hbm, 545, rfl⟩
abbrev main_call16_cst_0 : Ref sig .tc := ⟨.hbm, 546, rfl⟩
abbrev main_call16_v2 : Ref sig .tc := ⟨.hbm, 547, rfl⟩
abbrev main_call16_v3 : Ref sig .tc := ⟨.hbm, 548, rfl⟩
abbrev main_call16_v4 : Ref sig .tc := ⟨.hbm, 549, rfl⟩
abbrev main_call16_v5 : Ref sig .tc := ⟨.hbm, 550, rfl⟩
abbrev main_call16_v6 : Ref sig .tc := ⟨.hbm, 551, rfl⟩
abbrev main_call16_v7 : Ref sig .tc := ⟨.hbm, 552, rfl⟩
abbrev main_call16_cst_1 : Ref sig .tc := ⟨.hbm, 553, rfl⟩
abbrev main_call16_v8 : Ref sig .tc := ⟨.hbm, 554, rfl⟩
abbrev main_call16_cst_2 : Ref sig .tc := ⟨.hbm, 555, rfl⟩
abbrev main_call16_v9 : Ref sig .tc := ⟨.hbm, 556, rfl⟩
abbrev main_call16_v10 : Ref sig .tc := ⟨.hbm, 557, rfl⟩
abbrev main_call16_v11 : Ref sig .tc := ⟨.hbm, 558, rfl⟩
abbrev main_call16_cst_3 : Ref sig .tc := ⟨.hbm, 559, rfl⟩
abbrev main_call16_v12 : Ref sig .tc := ⟨.hbm, 560, rfl⟩
abbrev main_call16_cst_4 : Ref sig .tc := ⟨.hbm, 561, rfl⟩
abbrev main_call16_call0_v0 : Ref sig .tc := ⟨.hbm, 562, rfl⟩
abbrev main_call16_call0_v1 : Ref sig .tc := ⟨.hbm, 563, rfl⟩
abbrev main_v326 : Ref sig .tc := ⟨.hbm, 564, rfl⟩
abbrev main_v327 : Ref sig .tc := ⟨.hbm, 565, rfl⟩
abbrev main_v328 : Ref sig .tc := ⟨.hbm, 566, rfl⟩
abbrev main_v329 : Ref sig .tc := ⟨.hbm, 567, rfl⟩
abbrev main_cst_51 : Ref sig .tc := ⟨.hbm, 568, rfl⟩
abbrev main_v330 : Ref sig .tc := ⟨.hbm, 569, rfl⟩
abbrev main_v331 : Ref sig .tc := ⟨.hbm, 570, rfl⟩
abbrev main_v332 : Ref sig .tc := ⟨.hbm, 571, rfl⟩
abbrev main_v333 : Ref sig .tc := ⟨.hbm, 572, rfl⟩
abbrev main_v334 : Ref sig .tc := ⟨.hbm, 573, rfl⟩
abbrev main_v335 : Ref sig .tc := ⟨.hbm, 574, rfl⟩
abbrev main_v336 : Ref sig .tc := ⟨.hbm, 575, rfl⟩
abbrev main_v337 : Ref sig .tc := ⟨.hbm, 576, rfl⟩
abbrev main_v338 : Ref sig .tc := ⟨.hbm, 577, rfl⟩
abbrev main_v339 : Ref sig .tc := ⟨.hbm, 578, rfl⟩
abbrev main_v340 : Ref sig .tc := ⟨.hbm, 579, rfl⟩
abbrev main_v341 : Ref sig .tc := ⟨.hbm, 580, rfl⟩
abbrev main_call17_cst : Ref sig .tc := ⟨.hbm, 581, rfl⟩
abbrev main_call17_v0 : Ref sig .tc := ⟨.hbm, 582, rfl⟩
abbrev main_v342 : Ref sig .tc := ⟨.hbm, 583, rfl⟩
abbrev main_v343 : Ref sig .tc := ⟨.hbm, 584, rfl⟩
abbrev main_v344 : Ref sig .tc := ⟨.hbm, 585, rfl⟩
abbrev main_v345 : Ref sig .tc := ⟨.hbm, 586, rfl⟩
abbrev main_v346 : Ref sig .tc := ⟨.hbm, 587, rfl⟩
abbrev main_v347 : Ref sig .tc := ⟨.hbm, 588, rfl⟩
abbrev main_v348 : Ref sig .tc := ⟨.hbm, 589, rfl⟩
abbrev main_v349 : Ref sig .tc := ⟨.hbm, 590, rfl⟩
abbrev main_v350 : Ref sig .tc := ⟨.hbm, 591, rfl⟩
abbrev main_v351 : Ref sig .tc := ⟨.hbm, 592, rfl⟩
abbrev main_v352 : Ref sig .tc := ⟨.hbm, 593, rfl⟩
abbrev main_v353 : Ref sig .tc := ⟨.hbm, 594, rfl⟩
abbrev main_v354 : Ref sig .tc := ⟨.hbm, 595, rfl⟩
abbrev main_cst_52 : Ref sig .tc := ⟨.hbm, 596, rfl⟩
abbrev main_v355 : Ref sig .tc := ⟨.hbm, 597, rfl⟩
abbrev main_cst_53 : Ref sig .tc := ⟨.hbm, 598, rfl⟩
abbrev main_v356 : Ref sig .tc := ⟨.hbm, 599, rfl⟩
abbrev main_v357 : Ref sig .tc := ⟨.hbm, 600, rfl⟩
abbrev main_c_54 : Ref sig .tc := ⟨.hbm, 601, rfl⟩
abbrev main_call18_cst : Ref sig .tc := ⟨.hbm, 602, rfl⟩
abbrev main_call18_v0 : Ref sig .tc := ⟨.hbm, 603, rfl⟩
abbrev main_call18_v1 : Ref sig .tc := ⟨.hbm, 604, rfl⟩
abbrev main_call18_cst_0 : Ref sig .tc := ⟨.hbm, 605, rfl⟩
abbrev main_call18_v2 : Ref sig .tc := ⟨.hbm, 606, rfl⟩
abbrev main_call18_v3 : Ref sig .tc := ⟨.hbm, 607, rfl⟩
abbrev main_call18_v4 : Ref sig .tc := ⟨.hbm, 608, rfl⟩
abbrev main_call18_v5 : Ref sig .tc := ⟨.hbm, 609, rfl⟩
abbrev main_call18_v6 : Ref sig .tc := ⟨.hbm, 610, rfl⟩
abbrev main_call18_v7 : Ref sig .tc := ⟨.hbm, 611, rfl⟩
abbrev main_call18_cst_1 : Ref sig .tc := ⟨.hbm, 612, rfl⟩
abbrev main_call18_v8 : Ref sig .tc := ⟨.hbm, 613, rfl⟩
abbrev main_call18_cst_2 : Ref sig .tc := ⟨.hbm, 614, rfl⟩
abbrev main_call18_v9 : Ref sig .tc := ⟨.hbm, 615, rfl⟩
abbrev main_call18_v10 : Ref sig .tc := ⟨.hbm, 616, rfl⟩
abbrev main_call18_v11 : Ref sig .tc := ⟨.hbm, 617, rfl⟩
abbrev main_call18_cst_3 : Ref sig .tc := ⟨.hbm, 618, rfl⟩
abbrev main_call18_v12 : Ref sig .tc := ⟨.hbm, 619, rfl⟩
abbrev main_call18_cst_4 : Ref sig .tc := ⟨.hbm, 620, rfl⟩
abbrev main_call18_call0_v0 : Ref sig .tc := ⟨.hbm, 621, rfl⟩
abbrev main_call18_call0_v1 : Ref sig .tc := ⟨.hbm, 622, rfl⟩
abbrev main_v358 : Ref sig .tc := ⟨.hbm, 623, rfl⟩
abbrev main_v359 : Ref sig .tc := ⟨.hbm, 624, rfl⟩
abbrev main_v360 : Ref sig .tc := ⟨.hbm, 625, rfl⟩
abbrev main_v361 : Ref sig .tc := ⟨.hbm, 626, rfl⟩
abbrev main_cst_55 : Ref sig .tc := ⟨.hbm, 627, rfl⟩
abbrev main_v362 : Ref sig .tc := ⟨.hbm, 628, rfl⟩
abbrev main_v363 : Ref sig .tc := ⟨.hbm, 629, rfl⟩
abbrev main_v364 : Ref sig .tc := ⟨.hbm, 630, rfl⟩
abbrev main_v365 : Ref sig .tc := ⟨.hbm, 631, rfl⟩
abbrev main_v366 : Ref sig .tc := ⟨.hbm, 632, rfl⟩
abbrev main_v367 : Ref sig .tc := ⟨.hbm, 633, rfl⟩
abbrev main_v368 : Ref sig .tc := ⟨.hbm, 634, rfl⟩
abbrev main_v369 : Ref sig .tc := ⟨.hbm, 635, rfl⟩
abbrev main_v370 : Ref sig .tc := ⟨.hbm, 636, rfl⟩
abbrev main_v371 : Ref sig .tc := ⟨.hbm, 637, rfl⟩
abbrev main_v372 : Ref sig .tc := ⟨.hbm, 638, rfl⟩
abbrev main_v373 : Ref sig .tc := ⟨.hbm, 639, rfl⟩
abbrev main_call19_cst : Ref sig .tc := ⟨.hbm, 640, rfl⟩
abbrev main_call19_v0 : Ref sig .tc := ⟨.hbm, 641, rfl⟩
abbrev main_v374 : Ref sig .tc := ⟨.hbm, 642, rfl⟩
abbrev main_c_56 : Ref sig .tc := ⟨.hbm, 643, rfl⟩
abbrev main_v375 : Ref sig .tc := ⟨.hbm, 644, rfl⟩
abbrev main_v376 : Ref sig .tc := ⟨.hbm, 645, rfl⟩
abbrev main_c_57 : Ref sig .tc := ⟨.hbm, 646, rfl⟩
abbrev main_v377 : Ref sig .tc := ⟨.hbm, 647, rfl⟩
abbrev main_v378 : Ref sig .tc := ⟨.hbm, 648, rfl⟩
abbrev main_v379 : Ref sig .tc := ⟨.hbm, 649, rfl⟩
abbrev main_v380 : Ref sig .tc := ⟨.hbm, 650, rfl⟩
abbrev main_v381 : Ref sig .tc := ⟨.hbm, 651, rfl⟩
abbrev main_v382 : Ref sig .tc := ⟨.hbm, 652, rfl⟩
abbrev main_v383 : Ref sig .tc := ⟨.hbm, 653, rfl⟩
abbrev main_c_58 : Ref sig .tc := ⟨.hbm, 654, rfl⟩
abbrev main_v384 : Ref sig .tc := ⟨.hbm, 655, rfl⟩
abbrev main_v385 : Ref sig .tc := ⟨.hbm, 656, rfl⟩
abbrev main_c_59 : Ref sig .tc := ⟨.hbm, 657, rfl⟩
abbrev main_v386 : Ref sig .tc := ⟨.hbm, 658, rfl⟩
abbrev main_v387 : Ref sig .tc := ⟨.hbm, 659, rfl⟩
abbrev main_v388 : Ref sig .tc := ⟨.hbm, 660, rfl⟩
abbrev main_v389 : Ref sig .tc := ⟨.hbm, 661, rfl⟩
abbrev main_v390 : Ref sig .tc := ⟨.hbm, 662, rfl⟩
abbrev main_v391 : Ref sig .tc := ⟨.hbm, 663, rfl⟩
abbrev main_call20_cst : Ref sig .tc := ⟨.hbm, 664, rfl⟩
abbrev main_call20_v0 : Ref sig .tc := ⟨.hbm, 665, rfl⟩
abbrev main_v392 : Ref sig .tc := ⟨.hbm, 666, rfl⟩
abbrev main_cst_60 : Ref sig .tc := ⟨.hbm, 667, rfl⟩
abbrev main_v393 : Ref sig .tc := ⟨.hbm, 668, rfl⟩
abbrev main_v394 : Ref sig .tc := ⟨.hbm, 669, rfl⟩
abbrev main_v395 : Ref sig .tc := ⟨.hbm, 670, rfl⟩
abbrev main_v396 : Ref sig .tc := ⟨.hbm, 671, rfl⟩
abbrev main_v397 : Ref sig .tc := ⟨.hbm, 672, rfl⟩
abbrev main_cst_61 : Ref sig .tc := ⟨.hbm, 673, rfl⟩
abbrev main_v398 : Ref sig .tc := ⟨.hbm, 674, rfl⟩
abbrev main_v399 : Ref sig .tc := ⟨.hbm, 675, rfl⟩
abbrev main_v400 : Ref sig .tc := ⟨.hbm, 676, rfl⟩
abbrev main_v401 : Ref sig .tc := ⟨.hbm, 677, rfl⟩
abbrev main_v402 : Ref sig .tc := ⟨.hbm, 678, rfl⟩
abbrev main_v403 : Ref sig .tc := ⟨.hbm, 679, rfl⟩
abbrev main_v404 : Ref sig .tc := ⟨.hbm, 680, rfl⟩
abbrev main_v405 : Ref sig .tc := ⟨.hbm, 681, rfl⟩
abbrev main_v406 : Ref sig .tc := ⟨.hbm, 682, rfl⟩
abbrev main_v407 : Ref sig .tc := ⟨.hbm, 683, rfl⟩
abbrev main_v408 : Ref sig .tc := ⟨.hbm, 684, rfl⟩
abbrev main_v409 : Ref sig .tc := ⟨.hbm, 685, rfl⟩
abbrev main_v410 : Ref sig .tc := ⟨.hbm, 686, rfl⟩
abbrev main_v411 : Ref sig .tc := ⟨.hbm, 687, rfl⟩
abbrev main_v412 : Ref sig .tc := ⟨.hbm, 688, rfl⟩
abbrev main_v413 : Ref sig .tc := ⟨.hbm, 689, rfl⟩
abbrev main_cst_62 : Ref sig .tc := ⟨.hbm, 690, rfl⟩
abbrev main_v414 : Ref sig .tc := ⟨.hbm, 691, rfl⟩
abbrev main_cst_63 : Ref sig .tc := ⟨.hbm, 692, rfl⟩
abbrev main_v415 : Ref sig .tc := ⟨.hbm, 693, rfl⟩
abbrev main_v416 : Ref sig .tc := ⟨.hbm, 694, rfl⟩
abbrev main_c_64 : Ref sig .tc := ⟨.hbm, 695, rfl⟩
abbrev main_call21_cst : Ref sig .tc := ⟨.hbm, 696, rfl⟩
abbrev main_call21_v0 : Ref sig .tc := ⟨.hbm, 697, rfl⟩
abbrev main_call21_v1 : Ref sig .tc := ⟨.hbm, 698, rfl⟩
abbrev main_call21_cst_0 : Ref sig .tc := ⟨.hbm, 699, rfl⟩
abbrev main_call21_v2 : Ref sig .tc := ⟨.hbm, 700, rfl⟩
abbrev main_call21_v3 : Ref sig .tc := ⟨.hbm, 701, rfl⟩
abbrev main_call21_v4 : Ref sig .tc := ⟨.hbm, 702, rfl⟩
abbrev main_call21_v5 : Ref sig .tc := ⟨.hbm, 703, rfl⟩
abbrev main_call21_v6 : Ref sig .tc := ⟨.hbm, 704, rfl⟩
abbrev main_call21_v7 : Ref sig .tc := ⟨.hbm, 705, rfl⟩
abbrev main_call21_cst_1 : Ref sig .tc := ⟨.hbm, 706, rfl⟩
abbrev main_call21_v8 : Ref sig .tc := ⟨.hbm, 707, rfl⟩
abbrev main_call21_cst_2 : Ref sig .tc := ⟨.hbm, 708, rfl⟩
abbrev main_call21_v9 : Ref sig .tc := ⟨.hbm, 709, rfl⟩
abbrev main_call21_v10 : Ref sig .tc := ⟨.hbm, 710, rfl⟩
abbrev main_call21_v11 : Ref sig .tc := ⟨.hbm, 711, rfl⟩
abbrev main_call21_cst_3 : Ref sig .tc := ⟨.hbm, 712, rfl⟩
abbrev main_call21_v12 : Ref sig .tc := ⟨.hbm, 713, rfl⟩
abbrev main_call21_cst_4 : Ref sig .tc := ⟨.hbm, 714, rfl⟩
abbrev main_call21_call0_v0 : Ref sig .tc := ⟨.hbm, 715, rfl⟩
abbrev main_call21_call0_v1 : Ref sig .tc := ⟨.hbm, 716, rfl⟩
abbrev main_v417 : Ref sig .tc := ⟨.hbm, 717, rfl⟩
abbrev main_v418 : Ref sig .tc := ⟨.hbm, 718, rfl⟩
abbrev main_v419 : Ref sig .tc := ⟨.hbm, 719, rfl⟩
abbrev main_v420 : Ref sig .tc := ⟨.hbm, 720, rfl⟩
abbrev main_cst_65 : Ref sig .tc := ⟨.hbm, 721, rfl⟩
abbrev main_v421 : Ref sig .tc := ⟨.hbm, 722, rfl⟩
abbrev main_v422 : Ref sig .tc := ⟨.hbm, 723, rfl⟩
abbrev main_v423 : Ref sig .tc := ⟨.hbm, 724, rfl⟩
abbrev main_v424 : Ref sig .tc := ⟨.hbm, 725, rfl⟩
abbrev main_v425 : Ref sig .tc := ⟨.hbm, 726, rfl⟩
abbrev main_v426 : Ref sig .tc := ⟨.hbm, 727, rfl⟩
abbrev main_v427 : Ref sig .tc := ⟨.hbm, 728, rfl⟩
abbrev main_v428 : Ref sig .tc := ⟨.hbm, 729, rfl⟩
abbrev main_v429 : Ref sig .tc := ⟨.hbm, 730, rfl⟩
abbrev main_v430 : Ref sig .tc := ⟨.hbm, 731, rfl⟩
abbrev main_v431 : Ref sig .tc := ⟨.hbm, 732, rfl⟩
abbrev main_v432 : Ref sig .tc := ⟨.hbm, 733, rfl⟩
abbrev main_call22_cst : Ref sig .tc := ⟨.hbm, 734, rfl⟩
abbrev main_call22_v0 : Ref sig .tc := ⟨.hbm, 735, rfl⟩
abbrev main_v433 : Ref sig .tc := ⟨.hbm, 736, rfl⟩
abbrev main_v434 : Ref sig .tc := ⟨.hbm, 737, rfl⟩
abbrev main_v435 : Ref sig .tc := ⟨.hbm, 738, rfl⟩
abbrev main_v436 : Ref sig .tc := ⟨.hbm, 739, rfl⟩
abbrev main_v437 : Ref sig .tc := ⟨.hbm, 740, rfl⟩
abbrev main_v438 : Ref sig .tc := ⟨.hbm, 741, rfl⟩
abbrev main_v439 : Ref sig .tc := ⟨.hbm, 742, rfl⟩
abbrev main_v440 : Ref sig .tc := ⟨.hbm, 743, rfl⟩
abbrev main_v441 : Ref sig .tc := ⟨.hbm, 744, rfl⟩
abbrev main_v442 : Ref sig .tc := ⟨.hbm, 745, rfl⟩
abbrev main_v443 : Ref sig .tc := ⟨.hbm, 746, rfl⟩
abbrev main_v444 : Ref sig .tc := ⟨.hbm, 747, rfl⟩
abbrev main_v445 : Ref sig .tc := ⟨.hbm, 748, rfl⟩
abbrev main_cst_66 : Ref sig .tc := ⟨.hbm, 749, rfl⟩
abbrev main_v446 : Ref sig .tc := ⟨.hbm, 750, rfl⟩
abbrev main_cst_67 : Ref sig .tc := ⟨.hbm, 751, rfl⟩
abbrev main_v447 : Ref sig .tc := ⟨.hbm, 752, rfl⟩
abbrev main_v448 : Ref sig .tc := ⟨.hbm, 753, rfl⟩
abbrev main_c_68 : Ref sig .tc := ⟨.hbm, 754, rfl⟩
abbrev main_call23_cst : Ref sig .tc := ⟨.hbm, 755, rfl⟩
abbrev main_call23_v0 : Ref sig .tc := ⟨.hbm, 756, rfl⟩
abbrev main_call23_v1 : Ref sig .tc := ⟨.hbm, 757, rfl⟩
abbrev main_call23_cst_0 : Ref sig .tc := ⟨.hbm, 758, rfl⟩
abbrev main_call23_v2 : Ref sig .tc := ⟨.hbm, 759, rfl⟩
abbrev main_call23_v3 : Ref sig .tc := ⟨.hbm, 760, rfl⟩
abbrev main_call23_v4 : Ref sig .tc := ⟨.hbm, 761, rfl⟩
abbrev main_call23_v5 : Ref sig .tc := ⟨.hbm, 762, rfl⟩
abbrev main_call23_v6 : Ref sig .tc := ⟨.hbm, 763, rfl⟩
abbrev main_call23_v7 : Ref sig .tc := ⟨.hbm, 764, rfl⟩
abbrev main_call23_cst_1 : Ref sig .tc := ⟨.hbm, 765, rfl⟩
abbrev main_call23_v8 : Ref sig .tc := ⟨.hbm, 766, rfl⟩
abbrev main_call23_cst_2 : Ref sig .tc := ⟨.hbm, 767, rfl⟩
abbrev main_call23_v9 : Ref sig .tc := ⟨.hbm, 768, rfl⟩
abbrev main_call23_v10 : Ref sig .tc := ⟨.hbm, 769, rfl⟩
abbrev main_call23_v11 : Ref sig .tc := ⟨.hbm, 770, rfl⟩
abbrev main_call23_cst_3 : Ref sig .tc := ⟨.hbm, 771, rfl⟩
abbrev main_call23_v12 : Ref sig .tc := ⟨.hbm, 772, rfl⟩
abbrev main_call23_cst_4 : Ref sig .tc := ⟨.hbm, 773, rfl⟩
abbrev main_call23_call0_v0 : Ref sig .tc := ⟨.hbm, 774, rfl⟩
abbrev main_call23_call0_v1 : Ref sig .tc := ⟨.hbm, 775, rfl⟩
abbrev main_v449 : Ref sig .tc := ⟨.hbm, 776, rfl⟩
abbrev main_v450 : Ref sig .tc := ⟨.hbm, 777, rfl⟩
abbrev main_v451 : Ref sig .tc := ⟨.hbm, 778, rfl⟩
abbrev main_v452 : Ref sig .tc := ⟨.hbm, 779, rfl⟩
abbrev main_cst_69 : Ref sig .tc := ⟨.hbm, 780, rfl⟩
abbrev main_v453 : Ref sig .tc := ⟨.hbm, 781, rfl⟩
abbrev main_v454 : Ref sig .tc := ⟨.hbm, 782, rfl⟩
abbrev main_v455 : Ref sig .tc := ⟨.hbm, 783, rfl⟩
abbrev main_v456 : Ref sig .tc := ⟨.hbm, 784, rfl⟩
abbrev main_v457 : Ref sig .tc := ⟨.hbm, 785, rfl⟩
abbrev main_v458 : Ref sig .tc := ⟨.hbm, 786, rfl⟩
abbrev main_v459 : Ref sig .tc := ⟨.hbm, 787, rfl⟩
abbrev main_v460 : Ref sig .tc := ⟨.hbm, 788, rfl⟩
abbrev main_v461 : Ref sig .tc := ⟨.hbm, 789, rfl⟩
abbrev main_v462 : Ref sig .tc := ⟨.hbm, 790, rfl⟩
abbrev main_v463 : Ref sig .tc := ⟨.hbm, 791, rfl⟩
abbrev main_v464 : Ref sig .tc := ⟨.hbm, 792, rfl⟩
abbrev main_call24_cst : Ref sig .tc := ⟨.hbm, 793, rfl⟩
abbrev main_call24_v0 : Ref sig .tc := ⟨.hbm, 794, rfl⟩
abbrev main_v465 : Ref sig .tc := ⟨.hbm, 795, rfl⟩
abbrev main_c_70 : Ref sig .tc := ⟨.hbm, 796, rfl⟩
abbrev main_v466 : Ref sig .tc := ⟨.hbm, 797, rfl⟩
abbrev main_v467 : Ref sig .tc := ⟨.hbm, 798, rfl⟩
abbrev main_c_71 : Ref sig .tc := ⟨.hbm, 799, rfl⟩
abbrev main_v468 : Ref sig .tc := ⟨.hbm, 800, rfl⟩
abbrev main_v469 : Ref sig .tc := ⟨.hbm, 801, rfl⟩
abbrev main_v470 : Ref sig .tc := ⟨.hbm, 802, rfl⟩
abbrev main_v471 : Ref sig .tc := ⟨.hbm, 803, rfl⟩
abbrev main_v472 : Ref sig .tc := ⟨.hbm, 804, rfl⟩
abbrev main_v473 : Ref sig .tc := ⟨.hbm, 805, rfl⟩
abbrev main_v474 : Ref sig .tc := ⟨.hbm, 806, rfl⟩
abbrev main_c_72 : Ref sig .tc := ⟨.hbm, 807, rfl⟩
abbrev main_v475 : Ref sig .tc := ⟨.hbm, 808, rfl⟩
abbrev main_v476 : Ref sig .tc := ⟨.hbm, 809, rfl⟩
abbrev main_c_73 : Ref sig .tc := ⟨.hbm, 810, rfl⟩
abbrev main_v477 : Ref sig .tc := ⟨.hbm, 811, rfl⟩
abbrev main_v478 : Ref sig .tc := ⟨.hbm, 812, rfl⟩
abbrev main_v479 : Ref sig .tc := ⟨.hbm, 813, rfl⟩
abbrev main_v480 : Ref sig .tc := ⟨.hbm, 814, rfl⟩
abbrev main_v481 : Ref sig .tc := ⟨.hbm, 815, rfl⟩
abbrev main_v482 : Ref sig .tc := ⟨.hbm, 816, rfl⟩
abbrev main_call25_cst : Ref sig .tc := ⟨.hbm, 817, rfl⟩
abbrev main_call25_v0 : Ref sig .tc := ⟨.hbm, 818, rfl⟩
abbrev main_v483 : Ref sig .tc := ⟨.hbm, 819, rfl⟩
abbrev main_cst_74 : Ref sig .tc := ⟨.hbm, 820, rfl⟩
abbrev main_v484 : Ref sig .tc := ⟨.hbm, 821, rfl⟩
abbrev main_v485 : Ref sig .tc := ⟨.hbm, 822, rfl⟩
abbrev main_v486 : Ref sig .tc := ⟨.hbm, 823, rfl⟩
abbrev main_v487 : Ref sig .tc := ⟨.hbm, 824, rfl⟩
abbrev main_v488 : Ref sig .tc := ⟨.hbm, 825, rfl⟩
abbrev main_cst_75 : Ref sig .tc := ⟨.hbm, 826, rfl⟩
abbrev main_v489 : Ref sig .tc := ⟨.hbm, 827, rfl⟩
abbrev main_v490 : Ref sig .tc := ⟨.hbm, 828, rfl⟩
abbrev main_v491 : Ref sig .tc := ⟨.hbm, 829, rfl⟩
abbrev main_v492 : Ref sig .tc := ⟨.hbm, 830, rfl⟩
abbrev main_v493 : Ref sig .tc := ⟨.hbm, 831, rfl⟩
abbrev main_v494 : Ref sig .tc := ⟨.hbm, 832, rfl⟩
abbrev main_v495 : Ref sig .tc := ⟨.hbm, 833, rfl⟩
abbrev main_v496 : Ref sig .tc := ⟨.hbm, 834, rfl⟩
abbrev main_v497 : Ref sig .tc := ⟨.hbm, 835, rfl⟩
abbrev main_v498 : Ref sig .tc := ⟨.hbm, 836, rfl⟩
abbrev main_v499 : Ref sig .tc := ⟨.hbm, 837, rfl⟩
abbrev main_v500 : Ref sig .tc := ⟨.hbm, 838, rfl⟩
abbrev main_v501 : Ref sig .tc := ⟨.hbm, 839, rfl⟩
abbrev main_v502 : Ref sig .tc := ⟨.hbm, 840, rfl⟩
abbrev main_v503 : Ref sig .tc := ⟨.hbm, 841, rfl⟩
abbrev main_v504 : Ref sig .tc := ⟨.hbm, 842, rfl⟩
abbrev main_cst_76 : Ref sig .tc := ⟨.hbm, 843, rfl⟩
abbrev main_v505 : Ref sig .tc := ⟨.hbm, 844, rfl⟩
abbrev main_cst_77 : Ref sig .tc := ⟨.hbm, 845, rfl⟩
abbrev main_v506 : Ref sig .tc := ⟨.hbm, 846, rfl⟩
abbrev main_v507 : Ref sig .tc := ⟨.hbm, 847, rfl⟩
abbrev main_c_78 : Ref sig .tc := ⟨.hbm, 848, rfl⟩
abbrev main_call26_cst : Ref sig .tc := ⟨.hbm, 849, rfl⟩
abbrev main_call26_v0 : Ref sig .tc := ⟨.hbm, 850, rfl⟩
abbrev main_call26_v1 : Ref sig .tc := ⟨.hbm, 851, rfl⟩
abbrev main_call26_cst_0 : Ref sig .tc := ⟨.hbm, 852, rfl⟩
abbrev main_call26_v2 : Ref sig .tc := ⟨.hbm, 853, rfl⟩
abbrev main_call26_v3 : Ref sig .tc := ⟨.hbm, 854, rfl⟩
abbrev main_call26_v4 : Ref sig .tc := ⟨.hbm, 855, rfl⟩
abbrev main_call26_v5 : Ref sig .tc := ⟨.hbm, 856, rfl⟩
abbrev main_call26_v6 : Ref sig .tc := ⟨.hbm, 857, rfl⟩
abbrev main_call26_v7 : Ref sig .tc := ⟨.hbm, 858, rfl⟩
abbrev main_call26_cst_1 : Ref sig .tc := ⟨.hbm, 859, rfl⟩
abbrev main_call26_v8 : Ref sig .tc := ⟨.hbm, 860, rfl⟩
abbrev main_call26_cst_2 : Ref sig .tc := ⟨.hbm, 861, rfl⟩
abbrev main_call26_v9 : Ref sig .tc := ⟨.hbm, 862, rfl⟩
abbrev main_call26_v10 : Ref sig .tc := ⟨.hbm, 863, rfl⟩
abbrev main_call26_v11 : Ref sig .tc := ⟨.hbm, 864, rfl⟩
abbrev main_call26_cst_3 : Ref sig .tc := ⟨.hbm, 865, rfl⟩
abbrev main_call26_v12 : Ref sig .tc := ⟨.hbm, 866, rfl⟩
abbrev main_call26_cst_4 : Ref sig .tc := ⟨.hbm, 867, rfl⟩
abbrev main_call26_call0_v0 : Ref sig .tc := ⟨.hbm, 868, rfl⟩
abbrev main_call26_call0_v1 : Ref sig .tc := ⟨.hbm, 869, rfl⟩
abbrev main_v508 : Ref sig .tc := ⟨.hbm, 870, rfl⟩
abbrev main_v509 : Ref sig .tc := ⟨.hbm, 871, rfl⟩
abbrev main_v510 : Ref sig .tc := ⟨.hbm, 872, rfl⟩
abbrev main_v511 : Ref sig .tc := ⟨.hbm, 873, rfl⟩
abbrev main_cst_79 : Ref sig .tc := ⟨.hbm, 874, rfl⟩
abbrev main_v512 : Ref sig .tc := ⟨.hbm, 875, rfl⟩
abbrev main_v513 : Ref sig .tc := ⟨.hbm, 876, rfl⟩
abbrev main_v514 : Ref sig .tc := ⟨.hbm, 877, rfl⟩
abbrev main_v515 : Ref sig .tc := ⟨.hbm, 878, rfl⟩
abbrev main_v516 : Ref sig .tc := ⟨.hbm, 879, rfl⟩
abbrev main_v517 : Ref sig .tc := ⟨.hbm, 880, rfl⟩
abbrev main_v518 : Ref sig .tc := ⟨.hbm, 881, rfl⟩
abbrev main_v519 : Ref sig .tc := ⟨.hbm, 882, rfl⟩
abbrev main_v520 : Ref sig .tc := ⟨.hbm, 883, rfl⟩
abbrev main_v521 : Ref sig .tc := ⟨.hbm, 884, rfl⟩
abbrev main_v522 : Ref sig .tc := ⟨.hbm, 885, rfl⟩
abbrev main_v523 : Ref sig .tc := ⟨.hbm, 886, rfl⟩
abbrev main_call27_cst : Ref sig .tc := ⟨.hbm, 887, rfl⟩
abbrev main_call27_v0 : Ref sig .tc := ⟨.hbm, 888, rfl⟩
abbrev main_v524 : Ref sig .tc := ⟨.hbm, 889, rfl⟩
abbrev main_v525 : Ref sig .tc := ⟨.hbm, 890, rfl⟩
abbrev main_v526 : Ref sig .tc := ⟨.hbm, 891, rfl⟩
abbrev main_v527 : Ref sig .tc := ⟨.hbm, 892, rfl⟩
abbrev main_v528 : Ref sig .tc := ⟨.hbm, 893, rfl⟩
abbrev main_v529 : Ref sig .tc := ⟨.hbm, 894, rfl⟩
abbrev main_v530 : Ref sig .tc := ⟨.hbm, 895, rfl⟩
abbrev main_v531 : Ref sig .tc := ⟨.hbm, 896, rfl⟩
abbrev main_v532 : Ref sig .tc := ⟨.hbm, 897, rfl⟩
abbrev main_v533 : Ref sig .tc := ⟨.hbm, 898, rfl⟩
abbrev main_v534 : Ref sig .tc := ⟨.hbm, 899, rfl⟩
abbrev main_v535 : Ref sig .tc := ⟨.hbm, 900, rfl⟩
abbrev main_v536 : Ref sig .tc := ⟨.hbm, 901, rfl⟩
abbrev main_cst_80 : Ref sig .tc := ⟨.hbm, 902, rfl⟩
abbrev main_v537 : Ref sig .tc := ⟨.hbm, 903, rfl⟩
abbrev main_cst_81 : Ref sig .tc := ⟨.hbm, 904, rfl⟩
abbrev main_v538 : Ref sig .tc := ⟨.hbm, 905, rfl⟩
abbrev main_v539 : Ref sig .tc := ⟨.hbm, 906, rfl⟩
abbrev main_c_82 : Ref sig .tc := ⟨.hbm, 907, rfl⟩
abbrev main_call28_cst : Ref sig .tc := ⟨.hbm, 908, rfl⟩
abbrev main_call28_v0 : Ref sig .tc := ⟨.hbm, 909, rfl⟩
abbrev main_call28_v1 : Ref sig .tc := ⟨.hbm, 910, rfl⟩
abbrev main_call28_cst_0 : Ref sig .tc := ⟨.hbm, 911, rfl⟩
abbrev main_call28_v2 : Ref sig .tc := ⟨.hbm, 912, rfl⟩
abbrev main_call28_v3 : Ref sig .tc := ⟨.hbm, 913, rfl⟩
abbrev main_call28_v4 : Ref sig .tc := ⟨.hbm, 914, rfl⟩
abbrev main_call28_v5 : Ref sig .tc := ⟨.hbm, 915, rfl⟩
abbrev main_call28_v6 : Ref sig .tc := ⟨.hbm, 916, rfl⟩
abbrev main_call28_v7 : Ref sig .tc := ⟨.hbm, 917, rfl⟩
abbrev main_call28_cst_1 : Ref sig .tc := ⟨.hbm, 918, rfl⟩
abbrev main_call28_v8 : Ref sig .tc := ⟨.hbm, 919, rfl⟩
abbrev main_call28_cst_2 : Ref sig .tc := ⟨.hbm, 920, rfl⟩
abbrev main_call28_v9 : Ref sig .tc := ⟨.hbm, 921, rfl⟩
abbrev main_call28_v10 : Ref sig .tc := ⟨.hbm, 922, rfl⟩
abbrev main_call28_v11 : Ref sig .tc := ⟨.hbm, 923, rfl⟩
abbrev main_call28_cst_3 : Ref sig .tc := ⟨.hbm, 924, rfl⟩
abbrev main_call28_v12 : Ref sig .tc := ⟨.hbm, 925, rfl⟩
abbrev main_call28_cst_4 : Ref sig .tc := ⟨.hbm, 926, rfl⟩
abbrev main_call28_call0_v0 : Ref sig .tc := ⟨.hbm, 927, rfl⟩
abbrev main_call28_call0_v1 : Ref sig .tc := ⟨.hbm, 928, rfl⟩
abbrev main_v540 : Ref sig .tc := ⟨.hbm, 929, rfl⟩
abbrev main_v541 : Ref sig .tc := ⟨.hbm, 930, rfl⟩
abbrev main_v542 : Ref sig .tc := ⟨.hbm, 931, rfl⟩
abbrev main_v543 : Ref sig .tc := ⟨.hbm, 932, rfl⟩
abbrev main_cst_83 : Ref sig .tc := ⟨.hbm, 933, rfl⟩
abbrev main_v544 : Ref sig .tc := ⟨.hbm, 934, rfl⟩
abbrev main_v545 : Ref sig .tc := ⟨.hbm, 935, rfl⟩
abbrev main_v546 : Ref sig .tc := ⟨.hbm, 936, rfl⟩
abbrev main_v547 : Ref sig .tc := ⟨.hbm, 937, rfl⟩
abbrev main_v548 : Ref sig .tc := ⟨.hbm, 938, rfl⟩
abbrev main_v549 : Ref sig .tc := ⟨.hbm, 939, rfl⟩
abbrev main_v550 : Ref sig .tc := ⟨.hbm, 940, rfl⟩
abbrev main_v551 : Ref sig .tc := ⟨.hbm, 941, rfl⟩
abbrev main_v552 : Ref sig .tc := ⟨.hbm, 942, rfl⟩
abbrev main_v553 : Ref sig .tc := ⟨.hbm, 943, rfl⟩
abbrev main_v554 : Ref sig .tc := ⟨.hbm, 944, rfl⟩
abbrev main_v555 : Ref sig .tc := ⟨.hbm, 945, rfl⟩
abbrev main_call29_cst : Ref sig .tc := ⟨.hbm, 946, rfl⟩
abbrev main_call29_v0 : Ref sig .tc := ⟨.hbm, 947, rfl⟩
abbrev main_v556 : Ref sig .tc := ⟨.hbm, 948, rfl⟩
abbrev main_c_84 : Ref sig .tc := ⟨.hbm, 949, rfl⟩
abbrev main_v557 : Ref sig .tc := ⟨.hbm, 950, rfl⟩
abbrev main_v558 : Ref sig .tc := ⟨.hbm, 951, rfl⟩
abbrev main_c_85 : Ref sig .tc := ⟨.hbm, 952, rfl⟩
abbrev main_v559 : Ref sig .tc := ⟨.hbm, 953, rfl⟩
abbrev main_v560 : Ref sig .tc := ⟨.hbm, 954, rfl⟩
abbrev main_v561 : Ref sig .tc := ⟨.hbm, 955, rfl⟩
abbrev main_v562 : Ref sig .tc := ⟨.hbm, 956, rfl⟩
abbrev main_v563 : Ref sig .tc := ⟨.hbm, 957, rfl⟩
abbrev main_v564 : Ref sig .tc := ⟨.hbm, 958, rfl⟩
abbrev main_v565 : Ref sig .tc := ⟨.hbm, 959, rfl⟩
abbrev main_c_86 : Ref sig .tc := ⟨.hbm, 960, rfl⟩
abbrev main_v566 : Ref sig .tc := ⟨.hbm, 961, rfl⟩
abbrev main_v567 : Ref sig .tc := ⟨.hbm, 962, rfl⟩
abbrev main_c_87 : Ref sig .tc := ⟨.hbm, 963, rfl⟩
abbrev main_v568 : Ref sig .tc := ⟨.hbm, 964, rfl⟩
abbrev main_v569 : Ref sig .tc := ⟨.hbm, 965, rfl⟩
abbrev main_v570 : Ref sig .tc := ⟨.hbm, 966, rfl⟩
abbrev main_v571 : Ref sig .tc := ⟨.hbm, 967, rfl⟩
abbrev main_v572 : Ref sig .tc := ⟨.hbm, 968, rfl⟩
abbrev main_v573 : Ref sig .tc := ⟨.hbm, 969, rfl⟩
abbrev main_call30_cst : Ref sig .tc := ⟨.hbm, 970, rfl⟩
abbrev main_call30_v0 : Ref sig .tc := ⟨.hbm, 971, rfl⟩
abbrev main_v574 : Ref sig .tc := ⟨.hbm, 972, rfl⟩
abbrev main_cst_88 : Ref sig .tc := ⟨.hbm, 973, rfl⟩
abbrev main_v575 : Ref sig .tc := ⟨.hbm, 974, rfl⟩
abbrev main_v576 : Ref sig .tc := ⟨.hbm, 975, rfl⟩
abbrev main_v577 : Ref sig .tc := ⟨.hbm, 976, rfl⟩
abbrev main_v578 : Ref sig .tc := ⟨.hbm, 977, rfl⟩
abbrev main_v579 : Ref sig .tc := ⟨.hbm, 978, rfl⟩
abbrev main_cst_89 : Ref sig .tc := ⟨.hbm, 979, rfl⟩
abbrev main_v580 : Ref sig .tc := ⟨.hbm, 980, rfl⟩
abbrev main_v581 : Ref sig .tc := ⟨.hbm, 981, rfl⟩
abbrev main_v582 : Ref sig .tc := ⟨.hbm, 982, rfl⟩
abbrev main_v583 : Ref sig .tc := ⟨.hbm, 983, rfl⟩
abbrev main_v584 : Ref sig .tc := ⟨.hbm, 984, rfl⟩
abbrev main_v585 : Ref sig .tc := ⟨.hbm, 985, rfl⟩
abbrev main_v586 : Ref sig .tc := ⟨.hbm, 986, rfl⟩
abbrev main_v587 : Ref sig .tc := ⟨.hbm, 987, rfl⟩
abbrev main_v588 : Ref sig .tc := ⟨.hbm, 988, rfl⟩
abbrev main_v589 : Ref sig .tc := ⟨.hbm, 989, rfl⟩
abbrev main_v590 : Ref sig .tc := ⟨.hbm, 990, rfl⟩
abbrev main_v591 : Ref sig .tc := ⟨.hbm, 991, rfl⟩
abbrev main_v592 : Ref sig .tc := ⟨.hbm, 992, rfl⟩
abbrev main_v593 : Ref sig .tc := ⟨.hbm, 993, rfl⟩
abbrev main_v594 : Ref sig .tc := ⟨.hbm, 994, rfl⟩
abbrev main_v595 : Ref sig .tc := ⟨.hbm, 995, rfl⟩
abbrev main_cst_90 : Ref sig .tc := ⟨.hbm, 996, rfl⟩
abbrev main_v596 : Ref sig .tc := ⟨.hbm, 997, rfl⟩
abbrev main_cst_91 : Ref sig .tc := ⟨.hbm, 998, rfl⟩
abbrev main_v597 : Ref sig .tc := ⟨.hbm, 999, rfl⟩
abbrev main_v598 : Ref sig .tc := ⟨.hbm, 1000, rfl⟩
abbrev main_c_92 : Ref sig .tc := ⟨.hbm, 1001, rfl⟩
abbrev main_call31_cst : Ref sig .tc := ⟨.hbm, 1002, rfl⟩
abbrev main_call31_v0 : Ref sig .tc := ⟨.hbm, 1003, rfl⟩
abbrev main_call31_v1 : Ref sig .tc := ⟨.hbm, 1004, rfl⟩
abbrev main_call31_cst_0 : Ref sig .tc := ⟨.hbm, 1005, rfl⟩
abbrev main_call31_v2 : Ref sig .tc := ⟨.hbm, 1006, rfl⟩
abbrev main_call31_v3 : Ref sig .tc := ⟨.hbm, 1007, rfl⟩
abbrev main_call31_v4 : Ref sig .tc := ⟨.hbm, 1008, rfl⟩
abbrev main_call31_v5 : Ref sig .tc := ⟨.hbm, 1009, rfl⟩
abbrev main_call31_v6 : Ref sig .tc := ⟨.hbm, 1010, rfl⟩
abbrev main_call31_v7 : Ref sig .tc := ⟨.hbm, 1011, rfl⟩
abbrev main_call31_cst_1 : Ref sig .tc := ⟨.hbm, 1012, rfl⟩
abbrev main_call31_v8 : Ref sig .tc := ⟨.hbm, 1013, rfl⟩
abbrev main_call31_cst_2 : Ref sig .tc := ⟨.hbm, 1014, rfl⟩
abbrev main_call31_v9 : Ref sig .tc := ⟨.hbm, 1015, rfl⟩
abbrev main_call31_v10 : Ref sig .tc := ⟨.hbm, 1016, rfl⟩
abbrev main_call31_v11 : Ref sig .tc := ⟨.hbm, 1017, rfl⟩
abbrev main_call31_cst_3 : Ref sig .tc := ⟨.hbm, 1018, rfl⟩
abbrev main_call31_v12 : Ref sig .tc := ⟨.hbm, 1019, rfl⟩
abbrev main_call31_cst_4 : Ref sig .tc := ⟨.hbm, 1020, rfl⟩
abbrev main_call31_call0_v0 : Ref sig .tc := ⟨.hbm, 1021, rfl⟩
abbrev main_call31_call0_v1 : Ref sig .tc := ⟨.hbm, 1022, rfl⟩
abbrev main_v599 : Ref sig .tc := ⟨.hbm, 1023, rfl⟩
abbrev main_v600 : Ref sig .tc := ⟨.hbm, 1024, rfl⟩
abbrev main_v601 : Ref sig .tc := ⟨.hbm, 1025, rfl⟩
abbrev main_v602 : Ref sig .tc := ⟨.hbm, 1026, rfl⟩
abbrev main_cst_93 : Ref sig .tc := ⟨.hbm, 1027, rfl⟩
abbrev main_v603 : Ref sig .tc := ⟨.hbm, 1028, rfl⟩
abbrev main_v604 : Ref sig .tc := ⟨.hbm, 1029, rfl⟩
abbrev main_v605 : Ref sig .tc := ⟨.hbm, 1030, rfl⟩
abbrev main_v606 : Ref sig .tc := ⟨.hbm, 1031, rfl⟩
abbrev main_v607 : Ref sig .tc := ⟨.hbm, 1032, rfl⟩
abbrev main_v608 : Ref sig .tc := ⟨.hbm, 1033, rfl⟩
abbrev main_v609 : Ref sig .tc := ⟨.hbm, 1034, rfl⟩
abbrev main_v610 : Ref sig .tc := ⟨.hbm, 1035, rfl⟩
abbrev main_v611 : Ref sig .tc := ⟨.hbm, 1036, rfl⟩
abbrev main_v612 : Ref sig .tc := ⟨.hbm, 1037, rfl⟩
abbrev main_v613 : Ref sig .tc := ⟨.hbm, 1038, rfl⟩
abbrev main_v614 : Ref sig .tc := ⟨.hbm, 1039, rfl⟩
abbrev main_call32_cst : Ref sig .tc := ⟨.hbm, 1040, rfl⟩
abbrev main_call32_v0 : Ref sig .tc := ⟨.hbm, 1041, rfl⟩
abbrev main_v615 : Ref sig .tc := ⟨.hbm, 1042, rfl⟩
abbrev main_v616 : Ref sig .tc := ⟨.hbm, 1043, rfl⟩
abbrev main_v617 : Ref sig .tc := ⟨.hbm, 1044, rfl⟩
abbrev main_v618 : Ref sig .tc := ⟨.hbm, 1045, rfl⟩
abbrev main_v619 : Ref sig .tc := ⟨.hbm, 1046, rfl⟩
abbrev main_v620 : Ref sig .tc := ⟨.hbm, 1047, rfl⟩
abbrev main_v621 : Ref sig .tc := ⟨.hbm, 1048, rfl⟩
abbrev main_v622 : Ref sig .tc := ⟨.hbm, 1049, rfl⟩
abbrev main_v623 : Ref sig .tc := ⟨.hbm, 1050, rfl⟩
abbrev main_v624 : Ref sig .tc := ⟨.hbm, 1051, rfl⟩
abbrev main_v625 : Ref sig .tc := ⟨.hbm, 1052, rfl⟩
abbrev main_v626 : Ref sig .tc := ⟨.hbm, 1053, rfl⟩
abbrev main_v627 : Ref sig .tc := ⟨.hbm, 1054, rfl⟩
abbrev main_cst_94 : Ref sig .tc := ⟨.hbm, 1055, rfl⟩
abbrev main_v628 : Ref sig .tc := ⟨.hbm, 1056, rfl⟩
abbrev main_cst_95 : Ref sig .tc := ⟨.hbm, 1057, rfl⟩
abbrev main_v629 : Ref sig .tc := ⟨.hbm, 1058, rfl⟩
abbrev main_v630 : Ref sig .tc := ⟨.hbm, 1059, rfl⟩
abbrev main_c_96 : Ref sig .tc := ⟨.hbm, 1060, rfl⟩
abbrev main_call33_cst : Ref sig .tc := ⟨.hbm, 1061, rfl⟩
abbrev main_call33_v0 : Ref sig .tc := ⟨.hbm, 1062, rfl⟩
abbrev main_call33_v1 : Ref sig .tc := ⟨.hbm, 1063, rfl⟩
abbrev main_call33_cst_0 : Ref sig .tc := ⟨.hbm, 1064, rfl⟩
abbrev main_call33_v2 : Ref sig .tc := ⟨.hbm, 1065, rfl⟩
abbrev main_call33_v3 : Ref sig .tc := ⟨.hbm, 1066, rfl⟩
abbrev main_call33_v4 : Ref sig .tc := ⟨.hbm, 1067, rfl⟩
abbrev main_call33_v5 : Ref sig .tc := ⟨.hbm, 1068, rfl⟩
abbrev main_call33_v6 : Ref sig .tc := ⟨.hbm, 1069, rfl⟩
abbrev main_call33_v7 : Ref sig .tc := ⟨.hbm, 1070, rfl⟩
abbrev main_call33_cst_1 : Ref sig .tc := ⟨.hbm, 1071, rfl⟩
abbrev main_call33_v8 : Ref sig .tc := ⟨.hbm, 1072, rfl⟩
abbrev main_call33_cst_2 : Ref sig .tc := ⟨.hbm, 1073, rfl⟩
abbrev main_call33_v9 : Ref sig .tc := ⟨.hbm, 1074, rfl⟩
abbrev main_call33_v10 : Ref sig .tc := ⟨.hbm, 1075, rfl⟩
abbrev main_call33_v11 : Ref sig .tc := ⟨.hbm, 1076, rfl⟩
abbrev main_call33_cst_3 : Ref sig .tc := ⟨.hbm, 1077, rfl⟩
abbrev main_call33_v12 : Ref sig .tc := ⟨.hbm, 1078, rfl⟩
abbrev main_call33_cst_4 : Ref sig .tc := ⟨.hbm, 1079, rfl⟩
abbrev main_call33_call0_v0 : Ref sig .tc := ⟨.hbm, 1080, rfl⟩
abbrev main_call33_call0_v1 : Ref sig .tc := ⟨.hbm, 1081, rfl⟩
abbrev main_v631 : Ref sig .tc := ⟨.hbm, 1082, rfl⟩
abbrev main_v632 : Ref sig .tc := ⟨.hbm, 1083, rfl⟩
abbrev main_v633 : Ref sig .tc := ⟨.hbm, 1084, rfl⟩
abbrev main_v634 : Ref sig .tc := ⟨.hbm, 1085, rfl⟩
abbrev main_cst_97 : Ref sig .tc := ⟨.hbm, 1086, rfl⟩
abbrev main_v635 : Ref sig .tc := ⟨.hbm, 1087, rfl⟩
abbrev main_v636 : Ref sig .tc := ⟨.hbm, 1088, rfl⟩
abbrev main_v637 : Ref sig .tc := ⟨.hbm, 1089, rfl⟩
abbrev main_v638 : Ref sig .tc := ⟨.hbm, 1090, rfl⟩
abbrev main_v639 : Ref sig .tc := ⟨.hbm, 1091, rfl⟩
abbrev main_v640 : Ref sig .tc := ⟨.hbm, 1092, rfl⟩
abbrev main_v641 : Ref sig .tc := ⟨.hbm, 1093, rfl⟩
abbrev main_v642 : Ref sig .tc := ⟨.hbm, 1094, rfl⟩
abbrev main_v643 : Ref sig .tc := ⟨.hbm, 1095, rfl⟩
abbrev main_v644 : Ref sig .tc := ⟨.hbm, 1096, rfl⟩
abbrev main_v645 : Ref sig .tc := ⟨.hbm, 1097, rfl⟩
abbrev main_v646 : Ref sig .tc := ⟨.hbm, 1098, rfl⟩
abbrev main_cst_98 : Ref sig .tc := ⟨.hbm, 1099, rfl⟩
abbrev main_v647 : Ref sig .tc := ⟨.hbm, 1100, rfl⟩
abbrev main_v648 : Ref sig .tc := ⟨.hbm, 1101, rfl⟩
abbrev main_v649 : Ref sig .tc := ⟨.hbm, 1102, rfl⟩
abbrev main_cst_99 : Ref sig .tc := ⟨.hbm, 1103, rfl⟩
abbrev main_v650 : Ref sig .tc := ⟨.hbm, 1104, rfl⟩
abbrev main_cst_100 : Ref sig .tc := ⟨.hbm, 1105, rfl⟩
abbrev main_v651 : Ref sig .tc := ⟨.hbm, 1106, rfl⟩
abbrev main_v652 : Ref sig .tc := ⟨.hbm, 1107, rfl⟩
abbrev main_v653 : Ref sig .tc := ⟨.hbm, 1108, rfl⟩
abbrev main_cst_101 : Ref sig .tc := ⟨.hbm, 1109, rfl⟩
abbrev main_call34_v0 : Ref sig .tc := ⟨.hbm, 1110, rfl⟩
abbrev main_call34_v1 : Ref sig .tc := ⟨.hbm, 1111, rfl⟩
abbrev main_v654 : Ref sig .tc := ⟨.hbm, 1112, rfl⟩
abbrev main_v655 : Ref sig .tc := ⟨.hbm, 1113, rfl⟩
abbrev main_v656 : Ref sig .tc := ⟨.hbm, 1114, rfl⟩
abbrev main_cst_102 : Ref sig .tc := ⟨.hbm, 1115, rfl⟩
abbrev main_v657 : Ref sig .tc := ⟨.hbm, 1116, rfl⟩
abbrev main_v658 : Ref sig .tc := ⟨.hbm, 1117, rfl⟩
abbrev main_v659 : Ref sig .tc := ⟨.hbm, 1118, rfl⟩
abbrev main_cst_103 : Ref sig .tc := ⟨.hbm, 1119, rfl⟩
abbrev main_v660 : Ref sig .tc := ⟨.hbm, 1120, rfl⟩
abbrev main_cst_104 : Ref sig .tc := ⟨.hbm, 1121, rfl⟩
abbrev main_v661 : Ref sig .tc := ⟨.hbm, 1122, rfl⟩
abbrev main_v662 : Ref sig .tc := ⟨.hbm, 1123, rfl⟩
abbrev main_v663 : Ref sig .tc := ⟨.hbm, 1124, rfl⟩
abbrev main_cst_105 : Ref sig .tc := ⟨.hbm, 1125, rfl⟩
abbrev main_call35_v0 : Ref sig .tc := ⟨.hbm, 1126, rfl⟩
abbrev main_call35_v1 : Ref sig .tc := ⟨.hbm, 1127, rfl⟩
abbrev main_v664 : Ref sig .tc := ⟨.hbm, 1128, rfl⟩
abbrev main_v665 : Ref sig .tc := ⟨.hbm, 1129, rfl⟩
abbrev main_v666 : Ref sig .tc := ⟨.hbm, 1130, rfl⟩
abbrev main_v667 : Ref sig .tc := ⟨.hbm, 1131, rfl⟩
abbrev main_v668 : Ref sig .tc := ⟨.hbm, 1132, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S64x300 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S300x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S10000 : S_.BroadcastsInDim S10000 (![] : Fin 0 → Fin S10000.rank)
  bcast_S10000_S10000x1_0 : S10000.BroadcastsInDim S10000x1 (![0] : Fin 1 → Fin S10000x1.rank)
  bcast_S_S160000 : S_.BroadcastsInDim S160000 (![] : Fin 0 → Fin S160000.rank)
  bcast_S160000_S160000x1_0 : S160000.BroadcastsInDim S160000x1 (![0] : Fin 1 → Fin S160000x1.rank)
  slices_S7x5x300_S1x5x300_0_0_0 : S7x5x300.Slices ![0, 0, 0] S1x5x300
  shapeCasts_S1x5x300_S5x300 : S1x5x300.ShapeCasts S5x300
  bcast_S_S160000x300 : S_.BroadcastsInDim S160000x300 (![] : Fin 0 → Fin S160000x300.rank)
  bcast_S_S10000x300 : S_.BroadcastsInDim S10000x300 (![] : Fin 0 → Fin S10000x300.rank)
  slices_S7_S1_0 : S7.Slices ![0] S1
  shapeCasts_S1_S_ : S1.ShapeCasts S_
  slices_S7x300x600_S1x300x600_0_0_0 : S7x300x600.Slices ![0, 0, 0] S1x300x600
  shapeCasts_S1x300x600_S300x600 : S1x300x600.ShapeCasts S300x600
  slices_S7x600_S1x600_0_0 : S7x600.Slices ![0, 0] S1x600
  shapeCasts_S1x600_S600 : S1x600.ShapeCasts S600
  bcast_S600_S1x600_1 : S600.BroadcastsInDim S1x600 (![1] : Fin 1 → Fin S1x600.rank)
  bcast_S1x600_S10000x600_0_1 : S1x600.BroadcastsInDim S10000x600 (![0, 1] : Fin 2 → Fin S10000x600.rank)
  reducesTo_S10000x600_S600_d0 : S10000x600.ReducesTo [0] S600
  h_S_ : 0 < S_.numel
  bcast_S_S600 : S_.BroadcastsInDim S600 (![] : Fin 0 → Fin S600.rank)
  bcast_S_S1x600 : S_.BroadcastsInDim S1x600 (![] : Fin 0 → Fin S1x600.rank)
  bcast_S_S10000x600 : S_.BroadcastsInDim S10000x600 (![] : Fin 0 → Fin S10000x600.rank)
  slices_S7x600x300_S1x600x300_0_0_0 : S7x600x300.Slices ![0, 0, 0] S1x600x300
  shapeCasts_S1x600x300_S600x300 : S1x600x300.ShapeCasts S600x300
  slices_S7x300_S1x300_0_0 : S7x300.Slices ![0, 0] S1x300
  shapeCasts_S1x300_S300 : S1x300.ShapeCasts S300
  bcast_S300_S1x300_1 : S300.BroadcastsInDim S1x300 (![1] : Fin 1 → Fin S1x300.rank)
  bcast_S1x300_S10000x300_0_1 : S1x300.BroadcastsInDim S10000x300 (![0, 1] : Fin 2 → Fin S10000x300.rank)
  reducesTo_S10000x300_S300_d0 : S10000x300.ReducesTo [0] S300
  bcast_S_S300 : S_.BroadcastsInDim S300 (![] : Fin 0 → Fin S300.rank)
  bcast_S_S1x300 : S_.BroadcastsInDim S1x300 (![] : Fin 0 → Fin S1x300.rank)
  slices_S7x5x300_S1x5x300_1_0_0 : S7x5x300.Slices ![1, 0, 0] S1x5x300
  slices_S7_S1_1 : S7.Slices ![1] S1
  slices_S7x300x600_S1x300x600_1_0_0 : S7x300x600.Slices ![1, 0, 0] S1x300x600
  slices_S7x600_S1x600_1_0 : S7x600.Slices ![1, 0] S1x600
  slices_S7x600x300_S1x600x300_1_0_0 : S7x600x300.Slices ![1, 0, 0] S1x600x300
  slices_S7x300_S1x300_1_0 : S7x300.Slices ![1, 0] S1x300
  slices_S7x5x300_S1x5x300_2_0_0 : S7x5x300.Slices ![2, 0, 0] S1x5x300
  slices_S7_S1_2 : S7.Slices ![2] S1
  slices_S7x300x600_S1x300x600_2_0_0 : S7x300x600.Slices ![2, 0, 0] S1x300x600
  slices_S7x600_S1x600_2_0 : S7x600.Slices ![2, 0] S1x600
  slices_S7x600x300_S1x600x300_2_0_0 : S7x600x300.Slices ![2, 0, 0] S1x600x300
  slices_S7x300_S1x300_2_0 : S7x300.Slices ![2, 0] S1x300
  slices_S7x5x300_S1x5x300_3_0_0 : S7x5x300.Slices ![3, 0, 0] S1x5x300
  slices_S7_S1_3 : S7.Slices ![3] S1
  slices_S7x300x600_S1x300x600_3_0_0 : S7x300x600.Slices ![3, 0, 0] S1x300x600
  slices_S7x600_S1x600_3_0 : S7x600.Slices ![3, 0] S1x600
  slices_S7x600x300_S1x600x300_3_0_0 : S7x600x300.Slices ![3, 0, 0] S1x600x300
  slices_S7x300_S1x300_3_0 : S7x300.Slices ![3, 0] S1x300
  slices_S7x5x300_S1x5x300_4_0_0 : S7x5x300.Slices ![4, 0, 0] S1x5x300
  slices_S7_S1_4 : S7.Slices ![4] S1
  slices_S7x300x600_S1x300x600_4_0_0 : S7x300x600.Slices ![4, 0, 0] S1x300x600
  slices_S7x600_S1x600_4_0 : S7x600.Slices ![4, 0] S1x600
  slices_S7x600x300_S1x600x300_4_0_0 : S7x600x300.Slices ![4, 0, 0] S1x600x300
  slices_S7x300_S1x300_4_0 : S7x300.Slices ![4, 0] S1x300
  slices_S7x5x300_S1x5x300_5_0_0 : S7x5x300.Slices ![5, 0, 0] S1x5x300
  slices_S7_S1_5 : S7.Slices ![5] S1
  slices_S7x300x600_S1x300x600_5_0_0 : S7x300x600.Slices ![5, 0, 0] S1x300x600
  slices_S7x600_S1x600_5_0 : S7x600.Slices ![5, 0] S1x600
  slices_S7x600x300_S1x600x300_5_0_0 : S7x600x300.Slices ![5, 0, 0] S1x600x300
  slices_S7x300_S1x300_5_0 : S7x300.Slices ![5, 0] S1x300
  slices_S7x5x300_S1x5x300_6_0_0 : S7x5x300.Slices ![6, 0, 0] S1x5x300
  slices_S7_S1_6 : S7.Slices ![6] S1
  slices_S7x300x600_S1x300x600_6_0_0 : S7x300x600.Slices ![6, 0, 0] S1x300x600
  slices_S7x600_S1x600_6_0 : S7x600.Slices ![6, 0] S1x600
  slices_S7x600x300_S1x600x300_6_0_0 : S7x600x300.Slices ![6, 0, 0] S1x600x300
  slices_S7x300_S1x300_6_0 : S7x300.Slices ![6, 0] S1x300
  bcast_S_S2000x300 : S_.BroadcastsInDim S2000x300 (![] : Fin 0 → Fin S2000x300.rank)
  bcast_S_S10000x1 : S_.BroadcastsInDim S10000x1 (![] : Fin 0 → Fin S10000x1.rank)
  bcast_S_S2000x1 : S_.BroadcastsInDim S2000x1 (![] : Fin 0 → Fin S2000x1.rank)
  bcast_S2000x1_S2000x300_0_1 : S2000x1.BroadcastsInDim S2000x300 (![0, 1] : Fin 2 → Fin S2000x300.rank)
  bcast_S_S64x300 : S_.BroadcastsInDim S64x300 (![] : Fin 0 → Fin S64x300.rank)
  bcast_S2000_S2000x1_0 : S2000.BroadcastsInDim S2000x1 (![0] : Fin 1 → Fin S2000x1.rank)
  bcast_S_S64x1 : S_.BroadcastsInDim S64x1 (![] : Fin 0 → Fin S64x1.rank)
  bcast_S64x1_S64x300_0_1 : S64x1.BroadcastsInDim S64x300 (![0, 1] : Fin 2 → Fin S64x300.rank)
  bcast_S10_S1x10_1 : S10.BroadcastsInDim S1x10 (![1] : Fin 1 → Fin S1x10.rank)
  inb_S64x300_S64x300_0_0 : ∀ a, (![0, 0] : Fin 2 → Nat) a + S64x300.size a ≤ S64x300.size a
  h_S64x300 : 0 < S64x300.numel
  shapeCasts_S64x300_S64x300 : S64x300.ShapeCasts S64x300
  inb_S300x10_S300x10_0_0 : ∀ a, (![0, 0] : Fin 2 → Nat) a + S300x10.size a ≤ S300x10.size a
  h_S300x10 : 0 < S300x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  gather_S100x300_S10000x1_S10000x300_1_0_n_n_0_1_1300_wf : GatherDims.WF S100x300 S10000x1 S10000x300 [1] [0] [] [0] [] 1 ![1, 300]
  gather_S10000x300_S160000x1_S160000x300_1_0_n_n_0_1_1300_wf : GatherDims.WF S10000x300 S160000x1 S160000x300 [1] [0] [] [0] [] 1 ![1, 300]
  gather_S5x300_S160000x1_S160000x300_1_0_n_n_0_1_1300_wf : GatherDims.WF S5x300 S160000x1 S160000x300 [1] [0] [] [0] [] 1 ![1, 300]
  scatter_S10000x300_S160000x1_S160000x300_1_0_0_1_wf : ScatterDims.WF S10000x300 S160000x1 S160000x300 [1] [0] [0] 1
  dot_S10000x300_S300x600_S10000x600_1_0_0_1_n_n_wf : DotDims.WF S10000x300 S300x600 S10000x600 [1] [0] [0] [1] [] []
  dot_S10000x600_S600x300_S10000x300_1_0_0_1_n_n_wf : DotDims.WF S10000x600 S600x300 S10000x300 [1] [0] [0] [1] [] []
  scatter_S2000x300_S10000x1_S10000x300_1_0_0_1_wf : ScatterDims.WF S2000x300 S10000x1 S10000x300 [1] [0] [0] 1
  scatter_S2000x1_S10000x1_S10000x1_1_0_0_1_wf : ScatterDims.WF S2000x1 S10000x1 S10000x1 [1] [0] [0] 1
  scatter_S64x300_S2000x1_S2000x300_1_0_0_1_wf : ScatterDims.WF S64x300 S2000x1 S2000x300 [1] [0] [0] 1
  scatter_S64x1_S2000x1_S2000x1_1_0_0_1_wf : ScatterDims.WF S64x1 S2000x1 S2000x1 [1] [0] [0] 1
  dot_S64x300_S300x10_S64x10_1_0_0_1_n_n_wf : DotDims.WF S64x300 S300x10 S64x10 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

def gather_S100x300_S10000x1_S10000x300_1_0_n_n_0_1_1300 : GatherDims S100x300 S10000x1 S10000x300 where
  offsetDims := [1]
  collapsedSliceDims := [0]
  operandBatchingDims := []
  startIndicesBatchingDims := []
  startIndexMap := [0]
  indexVectorDim := 1
  sliceSizes := ![1, 300]
  wf := gather_S100x300_S10000x1_S10000x300_1_0_n_n_0_1_1300_wf
def gather_S10000x300_S160000x1_S160000x300_1_0_n_n_0_1_1300 : GatherDims S10000x300 S160000x1 S160000x300 where
  offsetDims := [1]
  collapsedSliceDims := [0]
  operandBatchingDims := []
  startIndicesBatchingDims := []
  startIndexMap := [0]
  indexVectorDim := 1
  sliceSizes := ![1, 300]
  wf := gather_S10000x300_S160000x1_S160000x300_1_0_n_n_0_1_1300_wf
def gather_S5x300_S160000x1_S160000x300_1_0_n_n_0_1_1300 : GatherDims S5x300 S160000x1 S160000x300 where
  offsetDims := [1]
  collapsedSliceDims := [0]
  operandBatchingDims := []
  startIndicesBatchingDims := []
  startIndexMap := [0]
  indexVectorDim := 1
  sliceSizes := ![1, 300]
  wf := gather_S5x300_S160000x1_S160000x300_1_0_n_n_0_1_1300_wf
def scatter_S10000x300_S160000x1_S160000x300_1_0_0_1 : ScatterDims S10000x300 S160000x1 S160000x300 where
  updateWindowDims := [1]
  insertedWindowDims := [0]
  scatterDimsToOperandDims := [0]
  indexVectorDim := 1
  wf := scatter_S10000x300_S160000x1_S160000x300_1_0_0_1_wf
def dot_S10000x300_S300x600_S10000x600_1_0_0_1_n_n : DotDims S10000x300 S300x600 S10000x600 where
  lhsContracting := [1]
  rhsContracting := [0]
  lhsNonContracting := [0]
  rhsNonContracting := [1]
  lhsBatch := []
  rhsBatch := []
  wf := dot_S10000x300_S300x600_S10000x600_1_0_0_1_n_n_wf
def dot_S10000x600_S600x300_S10000x300_1_0_0_1_n_n : DotDims S10000x600 S600x300 S10000x300 where
  lhsContracting := [1]
  rhsContracting := [0]
  lhsNonContracting := [0]
  rhsNonContracting := [1]
  lhsBatch := []
  rhsBatch := []
  wf := dot_S10000x600_S600x300_S10000x300_1_0_0_1_n_n_wf
def scatter_S2000x300_S10000x1_S10000x300_1_0_0_1 : ScatterDims S2000x300 S10000x1 S10000x300 where
  updateWindowDims := [1]
  insertedWindowDims := [0]
  scatterDimsToOperandDims := [0]
  indexVectorDim := 1
  wf := scatter_S2000x300_S10000x1_S10000x300_1_0_0_1_wf
def scatter_S2000x1_S10000x1_S10000x1_1_0_0_1 : ScatterDims S2000x1 S10000x1 S10000x1 where
  updateWindowDims := [1]
  insertedWindowDims := [0]
  scatterDimsToOperandDims := [0]
  indexVectorDim := 1
  wf := scatter_S2000x1_S10000x1_S10000x1_1_0_0_1_wf
def scatter_S64x300_S2000x1_S2000x300_1_0_0_1 : ScatterDims S64x300 S2000x1 S2000x300 where
  updateWindowDims := [1]
  insertedWindowDims := [0]
  scatterDimsToOperandDims := [0]
  indexVectorDim := 1
  wf := scatter_S64x300_S2000x1_S2000x300_1_0_0_1_wf
def scatter_S64x1_S2000x1_S2000x1_1_0_0_1 : ScatterDims S64x1 S2000x1 S2000x1 where
  updateWindowDims := [1]
  insertedWindowDims := [0]
  scatterDimsToOperandDims := [0]
  indexVectorDim := 1
  wf := scatter_S64x1_S2000x1_S2000x1_1_0_0_1_wf
def dot_S64x300_S300x10_S64x10_1_0_0_1_n_n : DotDims S64x300 S300x10 S64x10 where
  lhsContracting := [1]
  rhsContracting := [0]
  lhsNonContracting := [0]
  rhsNonContracting := [1]
  lhsBatch := []
  rhsBatch := []
  wf := dot_S64x300_S300x10_S64x10_1_0_0_1_n_n_wf

abbrev win0_0 : Pipeline.Window sig grid0 :=
  Pipeline.Window.whole (Memref.whole main_v666) false false (stage0_0 0) (sem0_0 0) (Memref.isWhole_whole _) (hstage0_0 0)

abbrev win0_1 : Pipeline.Window sig grid0 :=
  Pipeline.Window.whole (Memref.whole main_arg16) false false (stage0_1 0) (sem0_1 0) (Memref.isWhole_whole _) (hstage0_1 0)

abbrev win0_2 : Pipeline.Window sig grid0 :=
  Pipeline.Window.whole (Memref.whole main_v667) false false (stage0_2 0) (sem0_2 0) (Memref.isWhole_whole _) (hstage0_2 0)

abbrev win0_3 : Pipeline.Window sig grid0 :=
  Pipeline.Window.whole (Memref.whole main_v668) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000 : Shape := ⟨1, ![10000]⟩
abbrev S2x160000 : Shape := ⟨2, ![2, 160000]⟩
abbrev S160000 : Shape := ⟨1, ![160000]⟩
abbrev S2000 : Shape := ⟨1, ![2000]⟩
abbrev S100x300 : Shape := ⟨2, ![100, 300]⟩
abbrev S7x5x300 : Shape := ⟨3, ![7, 5, 300]⟩
abbrev S7x300x600 : Shape := ⟨3, ![7, 300, 600]⟩
abbrev S7x600 : Shape := ⟨2, ![7, 600]⟩
abbrev S7x600x300 : Shape := ⟨3, ![7, 600, 300]⟩
abbrev S7x300 : Shape := ⟨2, ![7, 300]⟩
abbrev S7 : Shape := ⟨1, ![7]⟩
abbrev S300x10 : Shape := ⟨2, ![300, 10]⟩
abbrev S10 : Shape := ⟨1, ![10]⟩
abbrev S1x160000 : Shape := ⟨2, ![1, 160000]⟩
abbrev S_ : Shape := ⟨0, ![]⟩
abbrev S10000x1 : Shape := ⟨2, ![10000, 1]⟩
abbrev S10000x300 : Shape := ⟨2, ![10000, 300]⟩
abbrev S160000x1 : Shape := ⟨2, ![160000, 1]⟩
abbrev S160000x300 : Shape := ⟨2, ![160000, 300]⟩
abbrev S1x5x300 : Shape := ⟨3, ![1, 5, 300]⟩
abbrev S5x300 : Shape := ⟨2, ![5, 300]⟩
abbrev S1 : Shape := ⟨1, ![1]⟩
abbrev S1x300x600 : Shape := ⟨3, ![1, 300, 600]⟩
abbrev S300x600 : Shape := ⟨2, ![300, 600]⟩
abbrev S10000x600 : Shape := ⟨2, ![10000, 600]⟩
abbrev S1x600 : Shape := ⟨2, ![1, 600]⟩
abbrev S600 : Shape := ⟨1, ![600]⟩
abbrev S1x600x300 : Shape := ⟨3, ![1, 600, 300]⟩
abbrev S600x300 : Shape := ⟨2, ![600, 300]⟩
abbrev S1x300 : Shape := ⟨2, ![1, 300]⟩
abbrev S300 : Shape := ⟨1, ![300]⟩
abbrev S2000x300 : Shape := ⟨2, ![2000, 300]⟩
abbrev S2000x1 : Shape := ⟨2, ![2000, 1]⟩
abbrev S64x300 : Shape := ⟨2, ![64, 300]⟩
abbrev S64x1 : Shape := ⟨2, ![64, 1]⟩
abbrev S64x10 : Shape := ⟨2, ![64, 10]⟩
abbrev S1x10 : Shape := ⟨2, ![1, 10]⟩

abbrev nBuf : Space → Nat
  | .hbm => 1135
  | .vmem => 0
  | .smem => 0
  | _ => 0

abbrev hbmTy0_0 (i : Nat) : BufTy := match i % 128 with
  | 0 => ⟨S10000, .i32⟩
  | 1 => ⟨S2x160000, .i32⟩
  | 2 => ⟨S160000, .i32⟩
  | 3 => ⟨S10000, .i32⟩
  | 4 => ⟨S2000, .i32⟩
  | 5 => ⟨S100x300, .f32⟩
  | 6 => ⟨S7x5x300, .f32⟩
  | 7 => ⟨S7x300x600, .f32⟩
  | 8 => ⟨S7x600, .f32⟩
  | 9 => ⟨S7x600, .f32⟩
  | 10 => ⟨S7x600, .f32⟩
  | 11 => ⟨S7x600x300, .f32⟩
  | 12 => ⟨S7x300, .f32⟩
  | 13 => ⟨S7, .f32⟩
  | 14 => ⟨S7x300, .f32⟩
  | 15 => ⟨S7x300, .f32⟩
  | 16 => ⟨S300x10, .f32⟩
  | 17 => ⟨S10, .f32⟩
  | 18 => ⟨S1x160000, .i32⟩
  | 19 => ⟨S160000, .i32⟩
  | 20 => ⟨S1x160000, .i32⟩
  | 21 => ⟨S160000, .i32⟩
  | 22 => ⟨S_, .i32⟩
  | 23 => ⟨S10000, .i32⟩
  | 24 => ⟨S10000, .i1⟩
  | 25 => ⟨S_, .i32⟩
  | 26 => ⟨S10000, .i32⟩
  | 27 => ⟨S10000, .i32⟩
  | 28 => ⟨S10000, .i32⟩
  | 29 => ⟨S10000x1, .i32⟩
  | 30 => ⟨S10000x300, .f32⟩
  | 31 => ⟨S_, .i32⟩
  | 32 => ⟨S160000, .i32⟩
  | 33 => ⟨S160000, .i1⟩
  | 34 => ⟨S_, .i32⟩
  | 35 => ⟨S160000, .i32⟩
  | 36 => ⟨S160000, .i32⟩
  | 37 => ⟨S160000, .i32⟩
  | 38 => ⟨S160000x1, .i32⟩
  | 39 => ⟨S160000x300, .f32⟩
  | 40 => ⟨S1x5x300, .f32⟩
  | 41 => ⟨S5x300, .f32⟩
  | 42 => ⟨S_, .i32⟩
  | 43 => ⟨S160000, .i32⟩
  | 44 => ⟨S160000, .i1⟩
  | 45 => ⟨S_, .i32⟩
  | 46 => ⟨S160000, .i32⟩
  | 47 => ⟨S160000, .i32⟩
  | 48 => ⟨S160000, .i32⟩
  | 49 => ⟨S160000x1, .i32⟩
  | 50 => ⟨S160000x300, .f32⟩
  | 51 => ⟨S160000x300, .f32⟩
  | 52 => ⟨S_, .f32⟩
  | 53 => ⟨S160000x300, .f32⟩
  | 54 => ⟨S160000x300, .f32⟩
  | 55 => ⟨S_, .f32⟩
  | 56 => ⟨S10000x300, .f32⟩
  | 57 => ⟨S160000x1, .i32⟩
  | 58 => ⟨S10000x300, .f32⟩
  | 59 => ⟨S1, .f32⟩
  | 60 => ⟨S_, .f32⟩
  | 61 => ⟨S_, .f32⟩
  | 62 => ⟨S_, .f32⟩
  | 63 => ⟨S10000x300, .f32⟩
  | 64 => ⟨S10000x300, .f32⟩
  | 65 => ⟨S10000x300, .f32⟩
  | 66 => ⟨S1x300x600, .f32⟩
  | 67 => ⟨S300x600, .f32⟩
  | 68 => ⟨S10000x600, .f32⟩
  | 69 => ⟨S1x600, .f32⟩
  | 70 => ⟨S600, .f32⟩
  | 71 => ⟨S1x600, .f32⟩
  | 72 => ⟨S10000x600, .f32⟩
  | 73 => ⟨S10000x600, .f32⟩
  | 74 => ⟨S1x600, .f32⟩
  | 75 => ⟨S600, .f32⟩
  | 76 => ⟨S1x600, .f32⟩
  | 77 => ⟨S600, .f32⟩
  | 78 => ⟨S_, .f32⟩
  | 79 => ⟨S600, .f32⟩
  | 80 => ⟨S_, .f32⟩
  | 81 => ⟨S600, .f32⟩
  | 82 => ⟨S600, .f32⟩
  | 83 => ⟨S_, .i32⟩
  | 84 => ⟨S_, .f32⟩
  | 85 => ⟨S600, .f32⟩
  | 86 => ⟨S1x600, .f32⟩
  | 87 => ⟨S_, .f32⟩
  | 88 => ⟨S1x600, .f32⟩
  | 89 => ⟨S1x600, .f32⟩
  | 90 => ⟨S10000x600, .f32⟩
  | 91 => ⟨S10000x600, .f32⟩
  | 92 => ⟨S10000x600, .f32⟩
  | 93 => ⟨S_, .f32⟩
  | 94 => ⟨S_, .f32⟩
  | 95 => ⟨S_, .f32⟩
  | 96 => ⟨S_, .f32⟩
  | 97 => ⟨S600, .f32⟩
  | 98 => ⟨S600, .f32⟩
  | 99 => ⟨S600, .f32⟩
  | 100 => ⟨S_, .f32⟩
  | 101 => ⟨S_, .i1⟩
  | 102 => ⟨S_, .f32⟩
  | 103 => ⟨S_, .f32⟩
  | 104 => ⟨S600, .f32⟩
  | 105 => ⟨S600, .f32⟩
  | 106 => ⟨S1x600, .f32⟩
  | 107 => ⟨S10000x600, .f32⟩
  | 108 => ⟨S10000x600, .f32⟩
  | 109 => ⟨S_, .f32⟩
  | 110 => ⟨S600, .f32⟩
  | 111 => ⟨S600, .f32⟩
  | 112 => ⟨S600, .f32⟩
  | 113 => ⟨S1x600, .f32⟩
  | 114 => ⟨S10000x600, .f32⟩
  | 115 => ⟨S10000x600, .f32⟩
  | 116 => ⟨S1x600, .f32⟩
  | 117 => ⟨S10000x600, .f32⟩
  | 118 => ⟨S10000x600, .f32⟩
  | 119 => ⟨S1x600, .f32⟩
  | 120 => ⟨S10000x600, .f32⟩
  | 121 => ⟨S10000x600, .f32⟩
  | 122 => ⟨S_, .f32⟩
  | 123 => ⟨S10000x600, .f32⟩
  | 124 => ⟨S10000x600, .f32⟩
  | 125 => ⟨S1x600x300, .f32⟩
  | 126 => ⟨S600x300, .f32⟩
  | 127 => ⟨S10000x300, .f32⟩
  | _ => ⟨S10000, .i32⟩

abbrev hbmTy0_1 (i : Nat) : BufTy := match i % 128 with
  | 0 => ⟨S1x300, .f32⟩
  | 1 => ⟨S300, .f32⟩
  | 2 => ⟨S1x300, .f32⟩
  | 3 => ⟨S10000x300, .f32⟩
  | 4 => ⟨S10000x300, .f32⟩
  | 5 => ⟨S1x300, .f32⟩
  | 6 => ⟨S300, .f32⟩
  | 7 => ⟨S1x300, .f32⟩
  | 8 => ⟨S300, .f32⟩
  | 9 => ⟨S_, .f32⟩
  | 10 => ⟨S300, .f32⟩
  | 11 => ⟨S_, .f32⟩
  | 12 => ⟨S300, .f32⟩
  | 13 => ⟨S300, .f32⟩
  | 14 => ⟨S_, .i32⟩
  | 15 => ⟨S_, .f32⟩
  | 16 => ⟨S300, .f32⟩
  | 17 => ⟨S1x300, .f32⟩
  | 18 => ⟨S_, .f32⟩
  | 19 => ⟨S1x300, .f32⟩
  | 20 => ⟨S1x300, .f32⟩
  | 21 => ⟨S10000x300, .f32⟩
  | 22 => ⟨S10000x300, .f32⟩
  | 23 => ⟨S10000x300, .f32⟩
  | 24 => ⟨S_, .f32⟩
  | 25 => ⟨S_, .f32⟩
  | 26 => ⟨S_, .f32⟩
  | 27 => ⟨S_, .f32⟩
  | 28 => ⟨S300, .f32⟩
  | 29 => ⟨S300, .f32⟩
  | 30 => ⟨S300, .f32⟩
  | 31 => ⟨S_, .f32⟩
  | 32 => ⟨S_, .i1⟩
  | 33 => ⟨S_, .f32⟩
  | 34 => ⟨S_, .f32⟩
  | 35 => ⟨S300, .f32⟩
  | 36 => ⟨S300, .f32⟩
  | 37 => ⟨S1x300, .f32⟩
  | 38 => ⟨S10000x300, .f32⟩
  | 39 => ⟨S10000x300, .f32⟩
  | 40 => ⟨S_, .f32⟩
  | 41 => ⟨S300, .f32⟩
  | 42 => ⟨S300, .f32⟩
  | 43 => ⟨S300, .f32⟩
  | 44 => ⟨S1x300, .f32⟩
  | 45 => ⟨S10000x300, .f32⟩
  | 46 => ⟨S10000x300, .f32⟩
  | 47 => ⟨S1x300, .f32⟩
  | 48 => ⟨S10000x300, .f32⟩
  | 49 => ⟨S10000x300, .f32⟩
  | 50 => ⟨S1x300, .f32⟩
  | 51 => ⟨S10000x300, .f32⟩
  | 52 => ⟨S10000x300, .f32⟩
  | 53 => ⟨S_, .f32⟩
  | 54 => ⟨S10000x300, .f32⟩
  | 55 => ⟨S10000x300, .f32⟩
  | 56 => ⟨S_, .i32⟩
  | 57 => ⟨S160000, .i32⟩
  | 58 => ⟨S160000, .i1⟩
  | 59 => ⟨S_, .i32⟩
  | 60 => ⟨S160000, .i32⟩
  | 61 => ⟨S160000, .i32⟩
  | 62 => ⟨S160000, .i32⟩
  | 63 => ⟨S160000x1, .i32⟩
  | 64 => ⟨S160000x300, .f32⟩
  | 65 => ⟨S1x5x300, .f32⟩
  | 66 => ⟨S5x300, .f32⟩
  | 67 => ⟨S_, .i32⟩
  | 68 => ⟨S160000, .i32⟩
  | 69 => ⟨S160000, .i1⟩
  | 70 => ⟨S_, .i32⟩
  | 71 => ⟨S160000, .i32⟩
  | 72 => ⟨S160000, .i32⟩
  | 73 => ⟨S160000, .i32⟩
  | 74 => ⟨S160000x1, .i32⟩
  | 75 => ⟨S160000x300, .f32⟩
  | 76 => ⟨S160000x300, .f32⟩
  | 77 => ⟨S_, .f32⟩
  | 78 => ⟨S160000x300, .f32⟩
  | 79 => ⟨S160000x300, .f32⟩
  | 80 => ⟨S_, .f32⟩
  | 81 => ⟨S10000x300, .f32⟩
  | 82 => ⟨S160000x1, .i32⟩
  | 83 => ⟨S10000x300, .f32⟩
  | 84 => ⟨S1, .f32⟩
  | 85 => ⟨S_, .f32⟩
  | 86 => ⟨S_, .f32⟩
  | 87 => ⟨S_, .f32⟩
  | 88 => ⟨S10000x300, .f32⟩
  | 89 => ⟨S10000x300, .f32⟩
  | 90 => ⟨S10000x300, .f32⟩
  | 91 => ⟨S1x300x600, .f32⟩
  | 92 => ⟨S300x600, .f32⟩
  | 93 => ⟨S10000x600, .f32⟩
  | 94 => ⟨S1x600, .f32⟩
  | 95 => ⟨S600, .f32⟩
  | 96 => ⟨S1x600, .f32⟩
  | 97 => ⟨S10000x600, .f32⟩
  | 98 => ⟨S10000x600, .f32⟩
  | 99 => ⟨S1x600, .f32⟩
  | 100 => ⟨S600, .f32⟩
  | 101 => ⟨S1x600, .f32⟩
  | 102 => ⟨S600, .f32⟩
  | 103 => ⟨S_, .f32⟩
  | 104 => ⟨S600, .f32⟩
  | 105 => ⟨S_, .f32⟩
  | 106 => ⟨S600, .f32⟩
  | 107 => ⟨S600, .f32⟩
  | 108 => ⟨S_, .i32⟩
  | 109 => ⟨S_, .f32⟩
  | 110 => ⟨S600, .f32⟩
  | 111 => ⟨S1x600, .f32⟩
  | 112 => ⟨S_, .f32⟩
  | 113 => ⟨S1x600, .f32⟩
  | 114 => ⟨S1x600, .f32⟩
  | 115 => ⟨S10000x600, .f32⟩
  | 116 => ⟨S10000x600, .f32⟩
  | 117 => ⟨S10000x600, .f32⟩
  | 118 => ⟨S_, .f32⟩
  | 119 => ⟨S_, .f32⟩
  | 120 => ⟨S_, .f32⟩
  | 121 => ⟨S_, .f32⟩
  | 122 => ⟨S600, .f32⟩
  | 123 => ⟨S600, .f32⟩
  | 124 => ⟨S600, .f32⟩
  | 125 => ⟨S_, .f32⟩
  | 126 => ⟨S_, .i1⟩
  | 127 => ⟨S_, .f32⟩
  | _ => ⟨S10000, .i32⟩

abbrev hbmTy0_2 (i : Nat) : BufTy := match i % 128 with
  | 0 => ⟨S_, .f32⟩
  | 1 => ⟨S600, .f32⟩
  | 2 => ⟨S600, .f32⟩
  | 3 => ⟨S1x600, .f32⟩
  | 4 => ⟨S10000x600, .f32⟩
  | 5 => ⟨S10000x600, .f32⟩
  | 6 => ⟨S_, .f32⟩
  | 7 => ⟨S600, .f32⟩
  | 8 => ⟨S600, .f32⟩
  | 9 => ⟨S600, .f32⟩
  | 10 => ⟨S1x600, .f32⟩
  | 11 => ⟨S10000x600, .f32⟩
  | 12 => ⟨S10000x600, .f32⟩
  | 13 => ⟨S1x600, .f32⟩
  | 14 => ⟨S10000x600, .f32⟩
  | 15 => ⟨S10000x600, .f32⟩
  | 16 => ⟨S1x600, .f32⟩
  | 17 => ⟨S10000x600, .f32⟩
  | 18 => ⟨S10000x600, .f32⟩
  | 19 => ⟨S_, .f32⟩
  | 20 => ⟨S10000x600, .f32⟩
  | 21 => ⟨S10000x600, .f32⟩
  | 22 => ⟨S1x600x300, .f32⟩
  | 23 => ⟨S600x300, .f32⟩
  | 24 => ⟨S10000x300, .f32⟩
  | 25 => ⟨S1x300, .f32⟩
  | 26 => ⟨S300, .f32⟩
  | 27 => ⟨S1x300, .f32⟩
  | 28 => ⟨S10000x300, .f32⟩
  | 29 => ⟨S10000x300, .f32⟩
  | 30 => ⟨S1x300, .f32⟩
  | 31 => ⟨S300, .f32⟩
  | 32 => ⟨S1x300, .f32⟩
  | 33 => ⟨S300, .f32⟩
  | 34 => ⟨S_, .f32⟩
  | 35 => ⟨S300, .f32⟩
  | 36 => ⟨S_, .f32⟩
  | 37 => ⟨S300, .f32⟩
  | 38 => ⟨S300, .f32⟩
  | 39 => ⟨S_, .i32⟩
  | 40 => ⟨S_, .f32⟩
  | 41 => ⟨S300, .f32⟩
  | 42 => ⟨S1x300, .f32⟩
  | 43 => ⟨S_, .f32⟩
  | 44 => ⟨S1x300, .f32⟩
  | 45 => ⟨S1x300, .f32⟩
  | 46 => ⟨S10000x300, .f32⟩
  | 47 => ⟨S10000x300, .f32⟩
  | 48 => ⟨S10000x300, .f32⟩
  | 49 => ⟨S_, .f32⟩
  | 50 => ⟨S_, .f32⟩
  | 51 => ⟨S_, .f32⟩
  | 52 => ⟨S_, .f32⟩
  | 53 => ⟨S300, .f32⟩
  | 54 => ⟨S300, .f32⟩
  | 55 => ⟨S300, .f32⟩
  | 56 => ⟨S_, .f32⟩
  | 57 => ⟨S_, .i1⟩
  | 58 => ⟨S_, .f32⟩
  | 59 => ⟨S_, .f32⟩
  | 60 => ⟨S300, .f32⟩
  | 61 => ⟨S300, .f32⟩
  | 62 => ⟨S1x300, .f32⟩
  | 63 => ⟨S10000x300, .f32⟩
  | 64 => ⟨S10000x300, .f32⟩
  | 65 => ⟨S_, .f32⟩
  | 66 => ⟨S300, .f32⟩
  | 67 => ⟨S300, .f32⟩
  | 68 => ⟨S300, .f32⟩
  | 69 => ⟨S1x300, .f32⟩
  | 70 => ⟨S10000x300, .f32⟩
  | 71 => ⟨S10000x300, .f32⟩
  | 72 => ⟨S1x300, .f32⟩
  | 73 => ⟨S10000x300, .f32⟩
  | 74 => ⟨S10000x300, .f32⟩
  | 75 => ⟨S1x300, .f32⟩
  | 76 => ⟨S10000x300, .f32⟩
  | 77 => ⟨S10000x300, .f32⟩
  | 78 => ⟨S_, .f32⟩
  | 79 => ⟨S10000x300, .f32⟩
  | 80 => ⟨S10000x300, .f32⟩
  | 81 => ⟨S_, .i32⟩
  | 82 => ⟨S160000, .i32⟩
  | 83 => ⟨S160000, .i1⟩
  | 84 => ⟨S_, .i32⟩
  | 85 => ⟨S160000, .i32⟩
  | 86 => ⟨S160000, .i32⟩
  | 87 => ⟨S160000, .i32⟩
  | 88 => ⟨S160000x1, .i32⟩
  | 89 => ⟨S160000x300, .f32⟩
  | 90 => ⟨S1x5x300, .f32⟩
  | 91 => ⟨S5x300, .f32⟩
  | 92 => ⟨S_, .i32⟩
  | 93 => ⟨S160000, .i32⟩
  | 94 => ⟨S160000, .i1⟩
  | 95 => ⟨S_, .i32⟩
  | 96 => ⟨S160000, .i32⟩
  | 97 => ⟨S160000, .i32⟩
  | 98 => ⟨S160000, .i32⟩
  | 99 => ⟨S160000x1, .i32⟩
  | 100 => ⟨S160000x300, .f32⟩
  | 101 => ⟨S160000x300, .f32⟩
  | 102 => ⟨S_, .f32⟩
  | 103 => ⟨S160000x300, .f32⟩
  | 104 => ⟨S160000x300, .f32⟩
  | 105 => ⟨S_, .f32⟩
  | 106 => ⟨S10000x300, .f32⟩
  | 107 => ⟨S160000x1, .i32⟩
  | 108 => ⟨S10000x300, .f32⟩
  | 109 => ⟨S1, .f32⟩
  | 110 => ⟨S_, .f32⟩
  | 111 => ⟨S_, .f32⟩
  | 112 => ⟨S_, .f32⟩
  | 113 => ⟨S10000x300, .f32⟩
  | 114 => ⟨S10000x300, .f32⟩
  | 115 => ⟨S10000x300, .f32⟩
  | 116 => ⟨S1x300x600, .f32⟩
  | 117 => ⟨S300x600, .f32⟩
  | 118 => ⟨S10000x600, .f32⟩
  | 119 => ⟨S1x600, .f32⟩
  | 120 => ⟨S600, .f32⟩
  | 121 => ⟨S1x600, .f32⟩
  | 122 => ⟨S10000x600, .f32⟩
  | 123 => ⟨S10000x600, .f32⟩
  | 124 => ⟨S1x600, .f32⟩
  | 125 => ⟨S600, .f32⟩
  | 126 => ⟨S1x600, .f32⟩
  | 127 => ⟨S600, .f32⟩
  | _ => ⟨S10000, .i32⟩

abbrev hbmTy0_3 (i : Nat) : BufTy := match i % 128 with
  | 0 => ⟨S_, .f32⟩
  | 1 => ⟨S600, .f32⟩
  | 2 => ⟨S_, .f32⟩
  | 3 => ⟨S600, .f32⟩
  | 4 => ⟨S600, .f32⟩
  | 5 => ⟨S_, .i32⟩
  | 6 => ⟨S_, .f32⟩
  | 7 => ⟨S600, .f32⟩
  | 8 => ⟨S1x600, .f32⟩
  | 9 => ⟨S_, .f32⟩
  | 10 => ⟨S1x600, .f32⟩
  | 11 => ⟨S1x600, .f32⟩
  | 12 => ⟨S10000x600, .f32⟩
  | 13 => ⟨S10000x600, .f32⟩
  | 14 => ⟨S10000x600, .f32⟩
  | 15 => ⟨S_, .f32⟩
  | 16 => ⟨S_, .f32⟩
  | 17 => ⟨S_, .f32⟩
  | 18 => ⟨S_, .f32⟩
  | 19 => ⟨S600, .f32⟩
  | 20 => ⟨S600, .f32⟩
  | 21 => ⟨S600, .f32⟩
  | 22 => ⟨S_, .f32⟩
  | 23 => ⟨S_, .i1⟩
  | 24 => ⟨S_, .f32⟩
  | 25 => ⟨S_, .f32⟩
  | 26 => ⟨S600, .f32⟩
  | 27 => ⟨S600, .f32⟩
  | 28 => ⟨S1x600, .f32⟩
  | 29 => ⟨S10000x600, .f32⟩
  | 30 => ⟨S10000x600, .f32⟩
  | 31 => ⟨S_, .f32⟩
  | 32 => ⟨S600, .f32⟩
  | 33 => ⟨S600, .f32⟩
  | 34 => ⟨S600, .f32⟩
  | 35 => ⟨S1x600, .f32⟩
  | 36 => ⟨S10000x600, .f32⟩
  | 37 => ⟨S10000x600, .f32⟩
  | 38 => ⟨S1x600, .f32⟩
  | 39 => ⟨S10000x600, .f32⟩
  | 40 => ⟨S10000x600, .f32⟩
  | 41 => ⟨S1x600, .f32⟩
  | 42 => ⟨S10000x600, .f32⟩
  | 43 => ⟨S10000x600, .f32⟩
  | 44 => ⟨S_, .f32⟩
  | 45 => ⟨S10000x600, .f32⟩
  | 46 => ⟨S10000x600, .f32⟩
  | 47 => ⟨S1x600x300, .f32⟩
  | 48 => ⟨S600x300, .f32⟩
  | 49 => ⟨S10000x300, .f32⟩
  | 50 => ⟨S1x300, .f32⟩
  | 51 => ⟨S300, .f32⟩
  | 52 => ⟨S1x300, .f32⟩
  | 53 => ⟨S10000x300, .f32⟩
  | 54 => ⟨S10000x300, .f32⟩
  | 55 => ⟨S1x300, .f32⟩
  | 56 => ⟨S300, .f32⟩
  | 57 => ⟨S1x300, .f32⟩
  | 58 => ⟨S300, .f32⟩
  | 59 => ⟨S_, .f32⟩
  | 60 => ⟨S300, .f32⟩
  | 61 => ⟨S_, .f32⟩
  | 62 => ⟨S300, .f32⟩
  | 63 => ⟨S300, .f32⟩
  | 64 => ⟨S_, .i32⟩
  | 65 => ⟨S_, .f32⟩
  | 66 => ⟨S300, .f32⟩
  | 67 => ⟨S1x300, .f32⟩
  | 68 => ⟨S_, .f32⟩
  | 69 => ⟨S1x300, .f32⟩
  | 70 => ⟨S1x300, .f32⟩
  | 71 => ⟨S10000x300, .f32⟩
  | 72 => ⟨S10000x300, .f32⟩
  | 73 => ⟨S10000x300, .f32⟩
  | 74 => ⟨S_, .f32⟩
  | 75 => ⟨S_, .f32⟩
  | 76 => ⟨S_, .f32⟩
  | 77 => ⟨S_, .f32⟩
  | 78 => ⟨S300, .f32⟩
  | 79 => ⟨S300, .f32⟩
  | 80 => ⟨S300, .f32⟩
  | 81 => ⟨S_, .f32⟩
  | 82 => ⟨S_, .i1⟩
  | 83 => ⟨S_, .f32⟩
  | 84 => ⟨S_, .f32⟩
  | 85 => ⟨S300, .f32⟩
  | 86 => ⟨S300, .f32⟩
  | 87 => ⟨S1x300, .f32⟩
  | 88 => ⟨S10000x300, .f32⟩
  | 89 => ⟨S10000x300, .f32⟩
  | 90 => ⟨S_, .f32⟩
  | 91 => ⟨S300, .f32⟩
  | 92 => ⟨S300, .f32⟩
  | 93 => ⟨S300, .f32⟩
  | 94 => ⟨S1x300, .f32⟩
  | 95 => ⟨S10000x300, .f32⟩
  | 96 => ⟨S10000x300, .f32⟩
  | 97 => ⟨S1x300, .f32⟩
  | 98 => ⟨S10000x300, .f32⟩
  | 99 => ⟨S10000x300, .f32⟩
  | 100 => ⟨S1x300, .f32⟩
  | 101 => ⟨S10000x300, .f32⟩
  | 102 => ⟨S10000x300, .f32⟩
  | 103 => ⟨S_, .f32⟩
  | 104 => ⟨S10000x300, .f32⟩
  | 105 => ⟨S10000x300, .f32⟩
  | 106 => ⟨S_, .i32⟩
  | 107 => ⟨S160000, .i32⟩
  | 108 => ⟨S160000, .i1⟩
  | 109 => ⟨S_, .i32⟩
  | 110 => ⟨S160000, .i32⟩
  | 111 => ⟨S160000, .i32⟩
  | 112 => ⟨S160000, .i32⟩
  | 113 => ⟨S160000x1, .i32⟩
  | 114 => ⟨S160000x300, .f32⟩
  | 115 => ⟨S1x5x300, .f32⟩
  | 116 => ⟨S5x300, .f32⟩
  | 117 => ⟨S_, .i32⟩
  | 118 => ⟨S160000, .i32⟩
  | 119 => ⟨S160000, .i1⟩
  | 120 => ⟨S_, .i32⟩
  | 121 => ⟨S160000, .i32⟩
  | 122 => ⟨S160000, .i32⟩
  | 123 => ⟨S160000, .i32⟩
  | 124 => ⟨S160000x1, .i32⟩
  | 125 => ⟨S160000x300, .f32⟩
  | 126 => ⟨S160000x300, .f32⟩
  | 127 => ⟨S_, .f32⟩
  | _ => ⟨S10000, .i32⟩

abbrev hbmTy0_4 (i : Nat) : BufTy := match i % 128 with
  | 0 => ⟨S160000x300, .f32⟩
  | 1 => ⟨S160000x300, .f32⟩
  | 2 => ⟨S_, .f32⟩
  | 3 => ⟨S10000x300, .f32⟩
  | 4 => ⟨S160000x1, .i32⟩
  | 5 => ⟨S10000x300, .f32⟩
  | 6 => ⟨S1, .f32⟩
  | 7 => ⟨S_, .f32⟩
  | 8 => ⟨S_, .f32⟩
  | 9 => ⟨S_, .f32⟩
  | 10 => ⟨S10000x300, .f32⟩
  | 11 => ⟨S10000x300, .f32⟩
  | 12 => ⟨S10000x300, .f32⟩
  | 13 => ⟨S1x300x600, .f32⟩
  | 14 => ⟨S300x600, .f32⟩
  | 15 => ⟨S10000x600, .f32⟩
  | 16 => ⟨S1x600, .f32⟩
  | 17 => ⟨S600, .f32⟩
  | 18 => ⟨S1x600, .f32⟩
  | 19 => ⟨S10000x600, .f32⟩
  | 20 => ⟨S10000x600, .f32⟩
  | 21 => ⟨S1x600, .f32⟩
  | 22 => ⟨S600, .f32⟩
  | 23 => ⟨S1x600, .f32⟩
  | 24 => ⟨S600, .f32⟩
  | 25 => ⟨S_, .f32⟩
  | 26 => ⟨S600, .f32⟩
  | 27 => ⟨S_, .f32⟩
  | 28 => ⟨S600, .f32⟩
  | 29 => ⟨S600, .f32⟩
  | 30 => ⟨S_, .i32⟩
  | 31 => ⟨S_, .f32⟩
  | 32 => ⟨S600, .f32⟩
  | 33 => ⟨S1x600, .f32⟩
  | 34 => ⟨S_, .f32⟩
  | 35 => ⟨S1x600, .f32⟩
  | 36 => ⟨S1x600, .f32⟩
  | 37 => ⟨S10000x600, .f32⟩
  | 38 => ⟨S10000x600, .f32⟩
  | 39 => ⟨S10000x600, .f32⟩
  | 40 => ⟨S_, .f32⟩
  | 41 => ⟨S_, .f32⟩
  | 42 => ⟨S_, .f32⟩
  | 43 => ⟨S_, .f32⟩
  | 44 => ⟨S600, .f32⟩
  | 45 => ⟨S600, .f32⟩
  | 46 => ⟨S600, .f32⟩
  | 47 => ⟨S_, .f32⟩
  | 48 => ⟨S_, .i1⟩
  | 49 => ⟨S_, .f32⟩
  | 50 => ⟨S_, .f32⟩
  | 51 => ⟨S600, .f32⟩
  | 52 => ⟨S600, .f32⟩
  | 53 => ⟨S1x600, .f32⟩
  | 54 => ⟨S10000x600, .f32⟩
  | 55 => ⟨S10000x600, .f32⟩
  | 56 => ⟨S_, .f32⟩
  | 57 => ⟨S600, .f32⟩
  | 58 => ⟨S600, .f32⟩
  | 59 => ⟨S600, .f32⟩
  | 60 => ⟨S1x600, .f32⟩
  | 61 => ⟨S10000x600, .f32⟩
  | 62 => ⟨S10000x600, .f32⟩
  | 63 => ⟨S1x600, .f32⟩
  | 64 => ⟨S10000x600, .f32⟩
  | 65 => ⟨S10000x600, .f32⟩
  | 66 => ⟨S1x600, .f32⟩
  | 67 => ⟨S10000x600, .f32⟩
  | 68 => ⟨S10000x600, .f32⟩
  | 69 => ⟨S_, .f32⟩
  | 70 => ⟨S10000x600, .f32⟩
  | 71 => ⟨S10000x600, .f32⟩
  | 72 => ⟨S1x600x300, .f32⟩
  | 73 => ⟨S600x300, .f32⟩
  | 74 => ⟨S10000x300, .f32⟩
  | 75 => ⟨S1x300, .f32⟩
  | 76 => ⟨S300, .f32⟩
  | 77 => ⟨S1x300, .f32⟩
  | 78 => ⟨S10000x300, .f32⟩
  | 79 => ⟨S10000x300, .f32⟩
  | 80 => ⟨S1x300, .f32⟩
  | 81 => ⟨S300, .f32⟩
  | 82 => ⟨S1x300, .f32⟩
  | 83 => ⟨S300, .f32⟩
  | 84 => ⟨S_, .f32⟩
  | 85 => ⟨S300, .f32⟩
  | 86 => ⟨S_, .f32⟩
  | 87 => ⟨S300, .f32⟩
  | 88 => ⟨S300, .f32⟩
  | 89 => ⟨S_, .i32⟩
  | 90 => ⟨S_, .f32⟩
  | 91 => ⟨S300, .f32⟩
  | 92 => ⟨S1x300, .f32⟩
  | 93 => ⟨S_, .f32⟩
  | 94 => ⟨S1x300, .f32⟩
  | 95 => ⟨S1x300, .f32⟩
  | 96 => ⟨S10000x300, .f32⟩
  | 97 => ⟨S10000x300, .f32⟩
  | 98 => ⟨S10000x300, .f32⟩
  | 99 => ⟨S_, .f32⟩
  | 100 => ⟨S_, .f32⟩
  | 101 => ⟨S_, .f32⟩
  | 102 => ⟨S_, .f32⟩
  | 103 => ⟨S300, .f32⟩
  | 104 => ⟨S300, .f32⟩
  | 105 => ⟨S300, .f32⟩
  | 106 => ⟨S_, .f32⟩
  | 107 => ⟨S_, .i1⟩
  | 108 => ⟨S_, .f32⟩
  | 109 => ⟨S_, .f32⟩
  | 110 => ⟨S300, .f32⟩
  | 111 => ⟨S300, .f32⟩
  | 112 => ⟨S1x300, .f32⟩
  | 113 => ⟨S10000x300, .f32⟩
  | 114 => ⟨S10000x300, .f32⟩
  | 115 => ⟨S_, .f32⟩
  | 116 => ⟨S300, .f32⟩
  | 117 => ⟨S300, .f32⟩
  | 118 => ⟨S300, .f32⟩
  | 119 => ⟨S1x300, .f32⟩
  | 120 => ⟨S10000x300, .f32⟩
  | 121 => ⟨S10000x300, .f32⟩
  | 122 => ⟨S1x300, .f32⟩
  | 123 => ⟨S10000x300, .f32⟩
  | 124 => ⟨S10000x300, .f32⟩
  | 125 => ⟨S1x300, .f32⟩
  | 126 => ⟨S10000x300, .f32⟩
  | 127 => ⟨S10000x300, .f32⟩
  | _ => ⟨S10000, .i32⟩

abbrev hbmTy0_5 (i : Nat) : BufTy := match i % 128 with
  | 0 => ⟨S_, .f32⟩
  | 1 => ⟨S10000x300, .f32⟩
  | 2 => ⟨S10000x300, .f32⟩
  | 3 => ⟨S_, .i32⟩
  | 4 => ⟨S160000, .i32⟩
  | 5 => ⟨S160000, .i1⟩
  | 6 => ⟨S_, .i32⟩
  | 7 => ⟨S160000, .i32⟩
  | 8 => ⟨S160000, .i32⟩
  | 9 => ⟨S160000, .i32⟩
  | 10 => ⟨S160000x1, .i32⟩
  | 11 => ⟨S160000x300, .f32⟩
  | 12 => ⟨S1x5x300, .f32⟩
  | 13 => ⟨S5x300, .f32⟩
  | 14 => ⟨S_, .i32⟩
  | 15 => ⟨S160000, .i32⟩
  | 16 => ⟨S160000, .i1⟩
  | 17 => ⟨S_, .i32⟩
  | 18 => ⟨S160000, .i32⟩
  | 19 => ⟨S160000, .i32⟩
  | 20 => ⟨S160000, .i32⟩
  | 21 => ⟨S160000x1, .i32⟩
  | 22 => ⟨S160000x300, .f32⟩
  | 23 => ⟨S160000x300, .f32⟩
  | 24 => ⟨S_, .f32⟩
  | 25 => ⟨S160000x300, .f32⟩
  | 26 => ⟨S160000x300, .f32⟩
  | 27 => ⟨S_, .f32⟩
  | 28 => ⟨S10000x300, .f32⟩
  | 29 => ⟨S160000x1, .i32⟩
  | 30 => ⟨S10000x300, .f32⟩
  | 31 => ⟨S1, .f32⟩
  | 32 => ⟨S_, .f32⟩
  | 33 => ⟨S_, .f32⟩
  | 34 => ⟨S_, .f32⟩
  | 35 => ⟨S10000x300, .f32⟩
  | 36 => ⟨S10000x300, .f32⟩
  | 37 => ⟨S10000x300, .f32⟩
  | 38 => ⟨S1x300x600, .f32⟩
  | 39 => ⟨S300x600, .f32⟩
  | 40 => ⟨S10000x600, .f32⟩
  | 41 => ⟨S1x600, .f32⟩
  | 42 => ⟨S600, .f32⟩
  | 43 => ⟨S1x600, .f32⟩
  | 44 => ⟨S10000x600, .f32⟩
  | 45 => ⟨S10000x600, .f32⟩
  | 46 => ⟨S1x600, .f32⟩
  | 47 => ⟨S600, .f32⟩
  | 48 => ⟨S1x600, .f32⟩
  | 49 => ⟨S600, .f32⟩
  | 50 => ⟨S_, .f32⟩
  | 51 => ⟨S600, .f32⟩
  | 52 => ⟨S_, .f32⟩
  | 53 => ⟨S600, .f32⟩
  | 54 => ⟨S600, .f32⟩
  | 55 => ⟨S_, .i32⟩
  | 56 => ⟨S_, .f32⟩
  | 57 => ⟨S600, .f32⟩
  | 58 => ⟨S1x600, .f32⟩
  | 59 => ⟨S_, .f32⟩
  | 60 => ⟨S1x600, .f32⟩
  | 61 => ⟨S1x600, .f32⟩
  | 62 => ⟨S10000x600, .f32⟩
  | 63 => ⟨S10000x600, .f32⟩
  | 64 => ⟨S10000x600, .f32⟩
  | 65 => ⟨S_, .f32⟩
  | 66 => ⟨S_, .f32⟩
  | 67 => ⟨S_, .f32⟩
  | 68 => ⟨S_, .f32⟩
  | 69 => ⟨S600, .f32⟩
  | 70 => ⟨S600, .f32⟩
  | 71 => ⟨S600, .f32⟩
  | 72 => ⟨S_, .f32⟩
  | 73 => ⟨S_, .i1⟩
  | 74 => ⟨S_, .f32⟩
  | 75 => ⟨S_, .f32⟩
  | 76 => ⟨S600, .f32⟩
  | 77 => ⟨S600, .f32⟩
  | 78 => ⟨S1x600, .f32⟩
  | 79 => ⟨S10000x600, .f32⟩
  | 80 => ⟨S10000x600, .f32⟩
  | 81 => ⟨S_, .f32⟩
  | 82 => ⟨S600, .f32⟩
  | 83 => ⟨S600, .f32⟩
  | 84 => ⟨S600, .f32⟩
  | 85 => ⟨S1x600, .f32⟩
  | 86 => ⟨S10000x600, .f32⟩
  | 87 => ⟨S10000x600, .f32⟩
  | 88 => ⟨S1x600, .f32⟩
  | 89 => ⟨S10000x600, .f32⟩
  | 90 => ⟨S10000x600, .f32⟩
  | 91 => ⟨S1x600, .f32⟩
  | 92 => ⟨S10000x600, .f32⟩
  | 93 => ⟨S10000x600, .f32⟩
  | 94 => ⟨S_, .f32⟩
  | 95 => ⟨S10000x600, .f32⟩
  | 96 => ⟨S10000x600, .f32⟩
  | 97 => ⟨S1x600x300, .f32⟩
  | 98 => ⟨S600x300, .f32⟩
  | 99 => ⟨S10000x300, .f32⟩
  | 100 => ⟨S1x300, .f32⟩
  | 101 => ⟨S300, .f32⟩
  | 102 => ⟨S1x300, .f32⟩
  | 103 => ⟨S10000x300, .f32⟩
  | 104 => ⟨S10000x300, .f32⟩
  | 105 => ⟨S1x300, .f32⟩
  | 106 => ⟨S300, .f32⟩
  | 107 => ⟨S1x300, .f32⟩
  | 108 => ⟨S300, .f32⟩
  | 109 => ⟨S_, .f32⟩
  | 110 => ⟨S300, .f32⟩
  | 111 => ⟨S_, .f32⟩
  | 112 => ⟨S300, .f32⟩
  | 113 => ⟨S300, .f32⟩
  | 114 => ⟨S_, .i32⟩
  | 115 => ⟨S_, .f32⟩
  | 116 => ⟨S300, .f32⟩
  | 117 => ⟨S1x300, .f32⟩
  | 118 => ⟨S_, .f32⟩
  | 119 => ⟨S1x300, .f32⟩
  | 120 => ⟨S1x300, .f32⟩
  | 121 => ⟨S10000x300, .f32⟩
  | 122 => ⟨S10000x300, .f32⟩
  | 123 => ⟨S10000x300, .f32⟩
  | 124 => ⟨S_, .f32⟩
  | 125 => ⟨S_, .f32⟩
  | 126 => ⟨S_, .f32⟩
  | 127 => ⟨S_, .f32⟩
  | _ => ⟨S10000, .i32⟩

abbrev hbmTy0_6 (i : Nat) : BufTy := match i % 128 with
  | 0 => ⟨S300, .f32⟩
  | 1 => ⟨S300, .f32⟩
  | 2 => ⟨S300, .f32⟩
  | 3 => ⟨S_, .f32⟩
  | 4 => ⟨S_, .i1⟩
  | 5 => ⟨S_, .f32⟩
  | 6 => ⟨S_, .f32⟩
  | 7 => ⟨S300, .f32⟩
  | 8 => ⟨S300, .f32⟩
  | 9 => ⟨S1x300, .f32⟩
  | 10 => ⟨S10000x300, .f32⟩
  | 11 => ⟨S10000x300, .f32⟩
  | 12 => ⟨S_, .f32⟩
  | 13 => ⟨S300, .f32⟩
  | 14 => ⟨S300, .f32⟩
  | 15 => ⟨S300, .f32⟩
  | 16 => ⟨S1x300, .f32⟩
  | 17 => ⟨S10000x300, .f32⟩
  | 18 => ⟨S10000x300, .f32⟩
  | 19 => ⟨S1x300, .f32⟩
  | 20 => ⟨S10000x300, .f32⟩
  | 21 => ⟨S10000x300, .f32⟩
  | 22 => ⟨S1x300, .f32⟩
  | 23 => ⟨S10000x300, .f32⟩
  | 24 => ⟨S10000x300, .f32⟩
  | 25 => ⟨S_, .f32⟩
  | 26 => ⟨S10000x300, .f32⟩
  | 27 => ⟨S10000x300, .f32⟩
  | 28 => ⟨S_, .i32⟩
  | 29 => ⟨S160000, .i32⟩
  | 30 => ⟨S160000, .i1⟩
  | 31 => ⟨S_, .i32⟩
  | 32 => ⟨S160000, .i32⟩
  | 33 => ⟨S160000, .i32⟩
  | 34 => ⟨S160000, .i32⟩
  | 35 => ⟨S160000x1, .i32⟩
  | 36 => ⟨S160000x300, .f32⟩
  | 37 => ⟨S1x5x300, .f32⟩
  | 38 => ⟨S5x300, .f32⟩
  | 39 => ⟨S_, .i32⟩
  | 40 => ⟨S160000, .i32⟩
  | 41 => ⟨S160000, .i1⟩
  | 42 => ⟨S_, .i32⟩
  | 43 => ⟨S160000, .i32⟩
  | 44 => ⟨S160000, .i32⟩
  | 45 => ⟨S160000, .i32⟩
  | 46 => ⟨S160000x1, .i32⟩
  | 47 => ⟨S160000x300, .f32⟩
  | 48 => ⟨S160000x300, .f32⟩
  | 49 => ⟨S_, .f32⟩
  | 50 => ⟨S160000x300, .f32⟩
  | 51 => ⟨S160000x300, .f32⟩
  | 52 => ⟨S_, .f32⟩
  | 53 => ⟨S10000x300, .f32⟩
  | 54 => ⟨S160000x1, .i32⟩
  | 55 => ⟨S10000x300, .f32⟩
  | 56 => ⟨S1, .f32⟩
  | 57 => ⟨S_, .f32⟩
  | 58 => ⟨S_, .f32⟩
  | 59 => ⟨S_, .f32⟩
  | 60 => ⟨S10000x300, .f32⟩
  | 61 => ⟨S10000x300, .f32⟩
  | 62 => ⟨S10000x300, .f32⟩
  | 63 => ⟨S1x300x600, .f32⟩
  | 64 => ⟨S300x600, .f32⟩
  | 65 => ⟨S10000x600, .f32⟩
  | 66 => ⟨S1x600, .f32⟩
  | 67 => ⟨S600, .f32⟩
  | 68 => ⟨S1x600, .f32⟩
  | 69 => ⟨S10000x600, .f32⟩
  | 70 => ⟨S10000x600, .f32⟩
  | 71 => ⟨S1x600, .f32⟩
  | 72 => ⟨S600, .f32⟩
  | 73 => ⟨S1x600, .f32⟩
  | 74 => ⟨S600, .f32⟩
  | 75 => ⟨S_, .f32⟩
  | 76 => ⟨S600, .f32⟩
  | 77 => ⟨S_, .f32⟩
  | 78 => ⟨S600, .f32⟩
  | 79 => ⟨S600, .f32⟩
  | 80 => ⟨S_, .i32⟩
  | 81 => ⟨S_, .f32⟩
  | 82 => ⟨S600, .f32⟩
  | 83 => ⟨S1x600, .f32⟩
  | 84 => ⟨S_, .f32⟩
  | 85 => ⟨S1x600, .f32⟩
  | 86 => ⟨S1x600, .f32⟩
  | 87 => ⟨S10000x600, .f32⟩
  | 88 => ⟨S10000x600, .f32⟩
  | 89 => ⟨S10000x600, .f32⟩
  | 90 => ⟨S_, .f32⟩
  | 91 => ⟨S_, .f32⟩
  | 92 => ⟨S_, .f32⟩
  | 93 => ⟨S_, .f32⟩
  | 94 => ⟨S600, .f32⟩
  | 95 => ⟨S600, .f32⟩
  | 96 => ⟨S600, .f32⟩
  | 97 => ⟨S_, .f32⟩
  | 98 => ⟨S_, .i1⟩
  | 99 => ⟨S_, .f32⟩
  | 100 => ⟨S_, .f32⟩
  | 101 => ⟨S600, .f32⟩
  | 102 => ⟨S600, .f32⟩
  | 103 => ⟨S1x600, .f32⟩
  | 104 => ⟨S10000x600, .f32⟩
  | 105 => ⟨S10000x600, .f32⟩
  | 106 => ⟨S_, .f32⟩
  | 107 => ⟨S600, .f32⟩
  | 108 => ⟨S600, .f32⟩
  | 109 => ⟨S600, .f32⟩
  | 110 => ⟨S1x600, .f32⟩
  | 111 => ⟨S10000x600, .f32⟩
  | 112 => ⟨S10000x600, .f32⟩
  | 113 => ⟨S1x600, .f32⟩
  | 114 => ⟨S10000x600, .f32⟩
  | 115 => ⟨S10000x600, .f32⟩
  | 116 => ⟨S1x600, .f32⟩
  | 117 => ⟨S10000x600, .f32⟩
  | 118 => ⟨S10000x600, .f32⟩
  | 119 => ⟨S_, .f32⟩
  | 120 => ⟨S10000x600, .f32⟩
  | 121 => ⟨S10000x600, .f32⟩
  | 122 => ⟨S1x600x300, .f32⟩
  | 123 => ⟨S600x300, .f32⟩
  | 124 => ⟨S10000x300, .f32⟩
  | 125 => ⟨S1x300, .f32⟩
  | 126 => ⟨S300, .f32⟩
  | 127 => ⟨S1x300, .f32⟩
  | _ => ⟨S10000, .i32⟩

abbrev hbmTy0_7 (i : Nat) : BufTy := match i % 128 with
  | 0 => ⟨S10000x300, .f32⟩
  | 1 => ⟨S10000x300, .f32⟩
  | 2 => ⟨S1x300, .f32⟩
  | 3 => ⟨S300, .f32⟩
  | 4 => ⟨S1x300, .f32⟩
  | 5 => ⟨S300, .f32⟩
  | 6 => ⟨S_, .f32⟩
  | 7 => ⟨S300, .f32⟩
  | 8 => ⟨S_, .f32⟩
  | 9 => ⟨S300, .f32⟩
  | 10 => ⟨S300, .f32⟩
  | 11 => ⟨S_, .i32⟩
  | 12 => ⟨S_, .f32⟩
  | 13 => ⟨S300, .f32⟩
  | 14 => ⟨S1x300, .f32⟩
  | 15 => ⟨S_, .f32⟩
  | 16 => ⟨S1x300, .f32⟩
  | 17 => ⟨S1x300, .f32⟩
  | 18 => ⟨S10000x300, .f32⟩
  | 19 => ⟨S10000x300, .f32⟩
  | 20 => ⟨S10000x300, .f32⟩
  | 21 => ⟨S_, .f32⟩
  | 22 => ⟨S_, .f32⟩
  | 23 => ⟨S_, .f32⟩
  | 24 => ⟨S_, .f32⟩
  | 25 => ⟨S300, .f32⟩
  | 26 => ⟨S300, .f32⟩
  | 27 => ⟨S300, .f32⟩
  | 28 => ⟨S_, .f32⟩
  | 29 => ⟨S_, .i1⟩
  | 30 => ⟨S_, .f32⟩
  | 31 => ⟨S_, .f32⟩
  | 32 => ⟨S300, .f32⟩
  | 33 => ⟨S300, .f32⟩
  | 34 => ⟨S1x300, .f32⟩
  | 35 => ⟨S10000x300, .f32⟩
  | 36 => ⟨S10000x300, .f32⟩
  | 37 => ⟨S_, .f32⟩
  | 38 => ⟨S300, .f32⟩
  | 39 => ⟨S300, .f32⟩
  | 40 => ⟨S300, .f32⟩
  | 41 => ⟨S1x300, .f32⟩
  | 42 => ⟨S10000x300, .f32⟩
  | 43 => ⟨S10000x300, .f32⟩
  | 44 => ⟨S1x300, .f32⟩
  | 45 => ⟨S10000x300, .f32⟩
  | 46 => ⟨S10000x300, .f32⟩
  | 47 => ⟨S1x300, .f32⟩
  | 48 => ⟨S10000x300, .f32⟩
  | 49 => ⟨S10000x300, .f32⟩
  | 50 => ⟨S_, .f32⟩
  | 51 => ⟨S10000x300, .f32⟩
  | 52 => ⟨S10000x300, .f32⟩
  | 53 => ⟨S_, .i32⟩
  | 54 => ⟨S160000, .i32⟩
  | 55 => ⟨S160000, .i1⟩
  | 56 => ⟨S_, .i32⟩
  | 57 => ⟨S160000, .i32⟩
  | 58 => ⟨S160000, .i32⟩
  | 59 => ⟨S160000, .i32⟩
  | 60 => ⟨S160000x1, .i32⟩
  | 61 => ⟨S160000x300, .f32⟩
  | 62 => ⟨S1x5x300, .f32⟩
  | 63 => ⟨S5x300, .f32⟩
  | 64 => ⟨S_, .i32⟩
  | 65 => ⟨S160000, .i32⟩
  | 66 => ⟨S160000, .i1⟩
  | 67 => ⟨S_, .i32⟩
  | 68 => ⟨S160000, .i32⟩
  | 69 => ⟨S160000, .i32⟩
  | 70 => ⟨S160000, .i32⟩
  | 71 => ⟨S160000x1, .i32⟩
  | 72 => ⟨S160000x300, .f32⟩
  | 73 => ⟨S160000x300, .f32⟩
  | 74 => ⟨S_, .f32⟩
  | 75 => ⟨S160000x300, .f32⟩
  | 76 => ⟨S160000x300, .f32⟩
  | 77 => ⟨S_, .f32⟩
  | 78 => ⟨S10000x300, .f32⟩
  | 79 => ⟨S160000x1, .i32⟩
  | 80 => ⟨S10000x300, .f32⟩
  | 81 => ⟨S1, .f32⟩
  | 82 => ⟨S_, .f32⟩
  | 83 => ⟨S_, .f32⟩
  | 84 => ⟨S_, .f32⟩
  | 85 => ⟨S10000x300, .f32⟩
  | 86 => ⟨S10000x300, .f32⟩
  | 87 => ⟨S10000x300, .f32⟩
  | 88 => ⟨S1x300x600, .f32⟩
  | 89 => ⟨S300x600, .f32⟩
  | 90 => ⟨S10000x600, .f32⟩
  | 91 => ⟨S1x600, .f32⟩
  | 92 => ⟨S600, .f32⟩
  | 93 => ⟨S1x600, .f32⟩
  | 94 => ⟨S10000x600, .f32⟩
  | 95 => ⟨S10000x600, .f32⟩
  | 96 => ⟨S1x600, .f32⟩
  | 97 => ⟨S600, .f32⟩
  | 98 => ⟨S1x600, .f32⟩
  | 99 => ⟨S600, .f32⟩
  | 100 => ⟨S_, .f32⟩
  | 101 => ⟨S600, .f32⟩
  | 102 => ⟨S_, .f32⟩
  | 103 => ⟨S600, .f32⟩
  | 104 => ⟨S600, .f32⟩
  | 105 => ⟨S_, .i32⟩
  | 106 => ⟨S_, .f32⟩
  | 107 => ⟨S600, .f32⟩
  | 108 => ⟨S1x600, .f32⟩
  | 109 => ⟨S_, .f32⟩
  | 110 => ⟨S1x600, .f32⟩
  | 111 => ⟨S1x600, .f32⟩
  | 112 => ⟨S10000x600, .f32⟩
  | 113 => ⟨S10000x600, .f32⟩
  | 114 => ⟨S10000x600, .f32⟩
  | 115 => ⟨S_, .f32⟩
  | 116 => ⟨S_, .f32⟩
  | 117 => ⟨S_, .f32⟩
  | 118 => ⟨S_, .f32⟩
  | 119 => ⟨S600, .f32⟩
  | 120 => ⟨S600, .f32⟩
  | 121 => ⟨S600, .f32⟩
  | 122 => ⟨S_, .f32⟩
  | 123 => ⟨S_, .i1⟩
  | 124 => ⟨S_, .f32⟩
  | 125 => ⟨S_, .f32⟩
  | 126 => ⟨S600, .f32⟩
  | 127 => ⟨S600, .f32⟩
  | _ => ⟨S10000, .i32⟩

abbrev hbmTy0_8 (i : Nat) : BufTy := match i % 128 with
  | 0 => ⟨S1x600, .f32⟩
  | 1 => ⟨S10000x600, .f32⟩
  | 2 => ⟨S10000x600, .f32⟩
  | 3 => ⟨S_, .f32⟩
  | 4 => ⟨S600, .f32⟩
  | 5 => ⟨S600, .f32⟩
  | 6 => ⟨S600, .f32⟩
  | 7 => ⟨S1x600, .f32⟩
  | 8 => ⟨S10000x600, .f32⟩
  | 9 => ⟨S10000x600, .f32⟩
  | 10 => ⟨S1x600, .f32⟩
  | 11 => ⟨S10000x600, .f32⟩
  | 12 => ⟨S10000x600, .f32⟩
  | 13 => ⟨S1x600, .f32⟩
  | 14 => ⟨S10000x600, .f32⟩
  | 15 => ⟨S10000x600, .f32⟩
  | 16 => ⟨S_, .f32⟩
  | 17 => ⟨S10000x600, .f32⟩
  | 18 => ⟨S10000x600, .f32⟩
  | 19 => ⟨S1x600x300, .f32⟩
  | 20 => ⟨S600x300, .f32⟩
  | 21 => ⟨S10000x300, .f32⟩
  | 22 => ⟨S1x300, .f32⟩
  | 23 => ⟨S300, .f32⟩
  | 24 => ⟨S1x300, .f32⟩
  | 25 => ⟨S10000x300, .f32⟩
  | 26 => ⟨S10000x300, .f32⟩
  | 27 => ⟨S1x300, .f32⟩
  | 28 => ⟨S300, .f32⟩
  | 29 => ⟨S1x300, .f32⟩
  | 30 => ⟨S300, .f32⟩
  | 31 => ⟨S_, .f32⟩
  | 32 => ⟨S300, .f32⟩
  | 33 => ⟨S_, .f32⟩
  | 34 => ⟨S300, .f32⟩
  | 35 => ⟨S300, .f32⟩
  | 36 => ⟨S_, .i32⟩
  | 37 => ⟨S_, .f32⟩
  | 38 => ⟨S300, .f32⟩
  | 39 => ⟨S1x300, .f32⟩
  | 40 => ⟨S_, .f32⟩
  | 41 => ⟨S1x300, .f32⟩
  | 42 => ⟨S1x300, .f32⟩
  | 43 => ⟨S10000x300, .f32⟩
  | 44 => ⟨S10000x300, .f32⟩
  | 45 => ⟨S10000x300, .f32⟩
  | 46 => ⟨S_, .f32⟩
  | 47 => ⟨S_, .f32⟩
  | 48 => ⟨S_, .f32⟩
  | 49 => ⟨S_, .f32⟩
  | 50 => ⟨S300, .f32⟩
  | 51 => ⟨S300, .f32⟩
  | 52 => ⟨S300, .f32⟩
  | 53 => ⟨S_, .f32⟩
  | 54 => ⟨S_, .i1⟩
  | 55 => ⟨S_, .f32⟩
  | 56 => ⟨S_, .f32⟩
  | 57 => ⟨S300, .f32⟩
  | 58 => ⟨S300, .f32⟩
  | 59 => ⟨S1x300, .f32⟩
  | 60 => ⟨S10000x300, .f32⟩
  | 61 => ⟨S10000x300, .f32⟩
  | 62 => ⟨S_, .f32⟩
  | 63 => ⟨S300, .f32⟩
  | 64 => ⟨S300, .f32⟩
  | 65 => ⟨S300, .f32⟩
  | 66 => ⟨S1x300, .f32⟩
  | 67 => ⟨S10000x300, .f32⟩
  | 68 => ⟨S10000x300, .f32⟩
  | 69 => ⟨S1x300, .f32⟩
  | 70 => ⟨S10000x300, .f32⟩
  | 71 => ⟨S10000x300, .f32⟩
  | 72 => ⟨S1x300, .f32⟩
  | 73 => ⟨S10000x300, .f32⟩
  | 74 => ⟨S10000x300, .f32⟩
  | 75 => ⟨S_, .f32⟩
  | 76 => ⟨S2000x300, .f32⟩
  | 77 => ⟨S10000x1, .i32⟩
  | 78 => ⟨S2000x300, .f32⟩
  | 79 => ⟨S_, .f32⟩
  | 80 => ⟨S10000x1, .f32⟩
  | 81 => ⟨S_, .f32⟩
  | 82 => ⟨S2000x1, .f32⟩
  | 83 => ⟨S10000x1, .i32⟩
  | 84 => ⟨S2000x1, .f32⟩
  | 85 => ⟨S_, .f32⟩
  | 86 => ⟨S_, .f32⟩
  | 87 => ⟨S2000x1, .f32⟩
  | 88 => ⟨S2000x1, .f32⟩
  | 89 => ⟨S2000x300, .f32⟩
  | 90 => ⟨S2000x300, .f32⟩
  | 91 => ⟨S_, .f32⟩
  | 92 => ⟨S64x300, .f32⟩
  | 93 => ⟨S2000x1, .i32⟩
  | 94 => ⟨S64x300, .f32⟩
  | 95 => ⟨S_, .f32⟩
  | 96 => ⟨S2000x1, .f32⟩
  | 97 => ⟨S_, .f32⟩
  | 98 => ⟨S64x1, .f32⟩
  | 99 => ⟨S2000x1, .i32⟩
  | 100 => ⟨S64x1, .f32⟩
  | 101 => ⟨S_, .f32⟩
  | 102 => ⟨S_, .f32⟩
  | 103 => ⟨S64x1, .f32⟩
  | 104 => ⟨S64x1, .f32⟩
  | 105 => ⟨S64x300, .f32⟩
  | 106 => ⟨S64x300, .f32⟩
  | 107 => ⟨S64x10, .f32⟩
  | 108 => ⟨S1x10, .f32⟩
  | 109 => ⟨S64x10, .f32⟩
  | 110 => ⟨S64x10, .f32⟩
  | _ => ⟨S10000, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S10000, .i32⟩

abbrev bufTy : (tb : Table) → Fin (tcTables nBuf tb) → BufTy
  | .hbm, ⟨i, _⟩ => hbmTy i
  | _, _ => ⟨S10000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_3 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call0_cst : Ref sig .tc := ⟨.hbm, 52, rfl⟩
abbrev main_call0_v0 : Ref sig .tc := ⟨.hbm, 53, rfl⟩
abbrev main_v28 : Ref sig .tc := ⟨.hbm, 54, rfl⟩
abbrev main_cst : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_6 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_c_8 : Ref sig .tc := ⟨.hbm, 83, rfl⟩
abbrev main_call1_cst : Ref sig .tc := ⟨.hbm, 84, rfl⟩
abbrev main_call1_v0 : Ref sig .tc := ⟨.hbm, 85, rfl⟩
abbrev main_call1_v1 : Ref sig .tc := ⟨.hbm, 86, rfl⟩
abbrev main_call1_cst_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_v7 : Ref sig .tc := ⟨.hbm, 93, rfl⟩
abbrev main_call1_cst_1 : Ref sig .tc := ⟨.hbm, 94, rfl⟩
abbrev main_call1_v8 : Ref sig .tc := ⟨.hbm, 95, rfl⟩
abbrev main_call1_cst_2 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_cst_3 : Ref sig .tc := ⟨.hbm, 100, rfl⟩
abbrev main_call1_v12 : Ref sig .tc := ⟨.hbm, 101, rfl⟩
abbrev main_call1_cst_4 : Ref sig .tc := ⟨.hbm, 102, rfl⟩
abbrev main_call1_call0_v0 : Ref sig .tc := ⟨.hbm, 103, rfl⟩
abbrev main_call1_call0_v1 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_cst_9 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_call2_cst : Ref sig .tc := ⟨.hbm, 122, rfl⟩
abbrev main_call2_v0 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_cst_10 : Ref sig .tc := ⟨.hbm, 137, rfl⟩
abbrev main_v82 : Ref sig .tc := ⟨.hbm, 138, rfl⟩
abbrev main_cst_11 : Ref sig .tc := ⟨.hbm, 139, rfl⟩
abbrev main_v83 : Ref sig .tc := ⟨.hbm, 140, rfl⟩
abbrev main_v84 : Ref sig .tc := ⟨.hbm, 141, rfl⟩
abbrev main_c_12 : Ref sig .tc := ⟨.hbm, 142, rfl⟩
abbrev main_call3_cst : Ref sig .tc := ⟨.hbm, 143, rfl⟩
abbrev main_call3_v0 : Ref sig .tc := ⟨.hbm, 144, rfl⟩
abbrev main_call3_v1 : Ref sig .tc := ⟨.hbm, 145, rfl⟩
abbrev main_call3_cst_0 : Ref sig .tc := ⟨.hbm, 146, rfl⟩
abbrev main_call3_v2 : Ref sig .tc := ⟨.hbm, 147, rfl⟩
abbrev main_call3_v3 : Ref sig .tc := ⟨.hbm, 148, rfl⟩
abbrev main_call3_v4 : Ref sig .tc := ⟨.hbm, 149, rfl⟩
abbrev main_call3_v5 : Ref sig .tc := ⟨.hbm, 150, rfl⟩
abbrev main_call3_v6 : Ref sig .tc := ⟨.hbm, 151, rfl⟩
abbrev main_call3_v7 : Ref sig .tc := ⟨.hbm, 152, rfl⟩
abbrev main_call3_cst_1 : Ref sig .tc := ⟨.hbm, 153, rfl⟩
abbrev main_call3_v8 : Ref sig .tc := ⟨.hbm, 154, rfl⟩
abbrev main_call3_cst_2 : Ref sig .tc := ⟨.hbm, 155, rfl⟩
abbrev main_call3_v9 : Ref sig .tc := ⟨.hbm, 156, rfl⟩
abbrev main_call3_v10 : Ref sig .tc := ⟨.hbm, 157, rfl⟩
abbrev main_call3_v11 : Ref sig .tc := ⟨.hbm, 158, rfl⟩
abbrev main_call3_cst_3 : Ref sig .tc := ⟨.hbm, 159, rfl⟩
abbrev main_call3_v12 : Ref sig .tc := ⟨.hbm, 160, rfl⟩
abbrev main_call3_cst_4 : Ref sig .tc := ⟨.hbm, 161, rfl⟩
abbrev main_call3_call0_v0 : Ref sig .tc := ⟨.hbm, 162, rfl⟩
abbrev main_call3_call0_v1 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_cst_13 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_call4_cst : Ref sig .tc := ⟨.hbm, 181, rfl⟩
abbrev main_call4_v0 : Ref sig .tc := ⟨.hbm, 182, rfl⟩
abbrev main_v101 : Ref sig .tc := ⟨.hbm, 183, rfl⟩
abbrev main_c_14 : Ref sig .tc := ⟨.hbm, 184, rfl⟩
abbrev main_v102 : Ref sig .tc := ⟨.hbm, 185, rfl⟩
abbrev main_v103 : Ref sig .tc := ⟨.hbm, 186, rfl⟩
abbrev main_c_15 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_c_16 : Ref sig .tc := ⟨.hbm, 195, rfl⟩
abbrev main_v111 : Ref sig .tc := ⟨.hbm, 196, rfl⟩
abbrev main_v112 : Ref sig .tc := ⟨.hbm, 197, rfl⟩
abbrev main_c_17 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_call5_cst : Ref sig .tc := ⟨.hbm, 205, rfl⟩
abbrev main_call5_v0 : Ref sig .tc := ⟨.hbm, 206, rfl⟩
abbrev main_v119 : Ref sig .tc := ⟨.hbm, 207, rfl⟩
abbrev main_cst_18 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_cst_19 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_cst_20 : Ref sig .tc := ⟨.hbm, 231, rfl⟩
abbrev main_v141 : Ref sig .tc := ⟨.hbm, 232, rfl⟩
abbrev main_cst_21 : Ref sig .tc := ⟨.hbm, 233, rfl⟩
abbrev main_v142 : Ref sig .tc := ⟨.hbm, 234, rfl⟩
abbrev main_v143 : Ref sig .tc := ⟨.hbm, 235, rfl⟩
abbrev main_c_22 : Ref sig .tc := ⟨.hbm, 236, rfl⟩
abbrev main_call6_cst : Ref sig .tc := ⟨.hbm, 237, rfl⟩
abbrev main_call6_v0 : Ref sig .tc := ⟨.hbm, 238, rfl⟩
abbrev main_call6_v1 : Ref sig .tc := ⟨.hbm, 239, rfl⟩
abbrev main_call6_cst_0 : Ref sig .tc := ⟨.hbm, 240, rfl⟩
abbrev main_call6_v2 : Ref sig .tc := ⟨.hbm, 241, rfl⟩
abbrev main_call6_v3 : Ref sig .tc := ⟨.hbm, 242, rfl⟩
abbrev main_call6_v4 : Ref sig .tc := ⟨.hbm, 243, rfl⟩
abbrev main_call6_v5 : Ref sig .tc := ⟨.hbm, 244, rfl⟩
abbrev main_call6_v6 : Ref sig .tc := ⟨.hbm, 245, rfl⟩
abbrev main_call6_v7 : Ref sig .tc := ⟨.hbm, 246, rfl⟩
abbrev main_call6_cst_1 : Ref sig .tc := ⟨.hbm, 247, rfl⟩
abbrev main_call6_v8 : Ref sig .tc := ⟨.hbm, 248, rfl⟩
abbrev main_call6_cst_2 : Ref sig .tc := ⟨.hbm, 249, rfl⟩
abbrev main_call6_v9 : Ref sig .tc := ⟨.hbm, 250, rfl⟩
abbrev main_call6_v10 : Ref sig .tc := ⟨.hbm, 251, rfl⟩
abbrev main_call6_v11 : Ref sig .tc := ⟨.hbm, 252, rfl⟩
abbrev main_call6_cst_3 : Ref sig .tc := ⟨.hbm, 253, rfl⟩
abbrev main_call6_v12 : Ref sig .tc := ⟨.hbm, 254, rfl⟩
abbrev main_call6_cst_4 : Ref sig .tc := ⟨.hbm, 255, rfl⟩
abbrev main_call6_call0_v0 : Ref sig .tc := ⟨.hbm, 256, rfl⟩
abbrev main_call6_call0_v1 : Ref sig .tc := ⟨.hbm, 257, rfl⟩
abbrev main_v144 : Ref sig .tc := ⟨.hbm, 258, rfl⟩
abbrev main_v145 : Ref sig .tc := ⟨.hbm, 259, rfl⟩
abbrev main_v146 : Ref sig .tc := ⟨.hbm, 260, rfl⟩
abbrev main_v147 : Ref sig .tc := ⟨.hbm, 261, rfl⟩
abbrev main_cst_23 : Ref sig .tc := ⟨.hbm, 262, rfl⟩
abbrev main_v148 : Ref sig .tc := ⟨.hbm, 263, rfl⟩
abbrev main_v149 : Ref sig .tc := ⟨.hbm, 264, rfl⟩
abbrev main_v150 : Ref sig .tc := ⟨.hbm, 265, rfl⟩
abbrev main_v151 : Ref sig .tc := ⟨.hbm, 266, rfl⟩
abbrev main_v152 : Ref sig .tc := ⟨.hbm, 267, rfl⟩
abbrev main_v153 : Ref sig .tc := ⟨.hbm, 268, rfl⟩
abbrev main_v154 : Ref sig .tc := ⟨.hbm, 269, rfl⟩
abbrev main_v155 : Ref sig .tc := ⟨.hbm, 270, rfl⟩
abbrev main_v156 : Ref sig .tc := ⟨.hbm, 271, rfl⟩
abbrev main_v157 : Ref sig .tc := ⟨.hbm, 272, rfl⟩
abbrev main_v158 : Ref sig .tc := ⟨.hbm, 273, rfl⟩
abbrev main_v159 : Ref sig .tc := ⟨.hbm, 274, rfl⟩
abbrev main_call7_cst : Ref sig .tc := ⟨.hbm, 275, rfl⟩
abbrev main_call7_v0 : Ref sig .tc := ⟨.hbm, 276, rfl⟩
abbrev main_v160 : Ref sig .tc := ⟨.hbm, 277, rfl⟩
abbrev main_v161 : Ref sig .tc := ⟨.hbm, 278, rfl⟩
abbrev main_v162 : Ref sig .tc := ⟨.hbm, 279, rfl⟩
abbrev main_v163 : Ref sig .tc := ⟨.hbm, 280, rfl⟩
abbrev main_v164 : Ref sig .tc := ⟨.hbm, 281, rfl⟩
abbrev main_v165 : Ref sig .tc := ⟨.hbm, 282, rfl⟩
abbrev main_v166 : Ref sig .tc := ⟨.hbm, 283, rfl⟩
abbrev main_v167 : Ref sig .tc := ⟨.hbm, 284, rfl⟩
abbrev main_v168 : Ref sig .tc := ⟨.hbm, 285, rfl⟩
abbrev main_v169 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_cst_24 : Ref sig .tc := ⟨.hbm, 290, rfl⟩
abbrev main_v173 : Ref sig .tc := ⟨.hbm, 291, rfl⟩
abbrev main_cst_25 : Ref sig .tc := ⟨.hbm, 292, rfl⟩
abbrev main_v174 : Ref sig .tc := ⟨.hbm, 293, rfl⟩
abbrev main_v175 : Ref sig .tc := ⟨.hbm, 294, rfl⟩
abbrev main_c_26 : Ref sig .tc := ⟨.hbm, 295, rfl⟩
abbrev main_call8_cst : Ref sig .tc := ⟨.hbm, 296, rfl⟩
abbrev main_call8_v0 : Ref sig .tc := ⟨.hbm, 297, rfl⟩
abbrev main_call8_v1 : Ref sig .tc := ⟨.hbm, 298, rfl⟩
abbrev main_call8_cst_0 : Ref sig .tc := ⟨.hbm, 299, rfl⟩
abbrev main_call8_v2 : Ref sig .tc := ⟨.hbm, 300, rfl⟩
abbrev main_call8_v3 : Ref sig .tc := ⟨.hbm, 301, rfl⟩
abbrev main_call8_v4 : Ref sig .tc := ⟨.hbm, 302, rfl⟩
abbrev main_call8_v5 : Ref sig .tc := ⟨.hbm, 303, rfl⟩
abbrev main_call8_v6 : Ref sig .tc := ⟨.hbm, 304, rfl⟩
abbrev main_call8_v7 : Ref sig .tc := ⟨.hbm, 305, rfl⟩
abbrev main_call8_cst_1 : Ref sig .tc := ⟨.hbm, 306, rfl⟩
abbrev main_call8_v8 : Ref sig .tc := ⟨.hbm, 307, rfl⟩
abbrev main_call8_cst_2 : Ref sig .tc := ⟨.hbm, 308, rfl⟩
abbrev main_call8_v9 : Ref sig .tc := ⟨.hbm, 309, rfl⟩
abbrev main_call8_v10 : Ref sig .tc := ⟨.hbm, 310, rfl⟩
abbrev main_call8_v11 : Ref sig .tc := ⟨.hbm, 311, rfl⟩
abbrev main_call8_cst_3 : Ref sig .tc := ⟨.hbm, 312, rfl⟩
abbrev main_call8_v12 : Ref sig .tc := ⟨.hbm, 313, rfl⟩
abbrev main_call8_cst_4 : Ref sig .tc := ⟨.hbm, 314, rfl⟩
abbrev main_call8_call0_v0 : Ref sig .tc := ⟨.hbm, 315, rfl⟩
abbrev main_call8_call0_v1 : Ref sig .tc := ⟨.hbm, 316, rfl⟩
abbrev main_v176 : Ref sig .tc := ⟨.hbm, 317, rfl⟩
abbrev main_v177 : Ref sig .tc := ⟨.hbm, 318, rfl⟩
abbrev main_v178 : Ref sig .tc := ⟨.hbm, 319, rfl⟩
abbrev main_v179 : Ref sig .tc := ⟨.hbm, 320, rfl⟩
abbrev main_cst_27 : Ref sig .tc := ⟨.hbm, 321, rfl⟩
abbrev main_v180 : Ref sig .tc := ⟨.hbm, 322, rfl⟩
abbrev main_v181 : Ref sig .tc := ⟨.hbm, 323, rfl⟩
abbrev main_v182 : Ref sig .tc := ⟨.hbm, 324, rfl⟩
abbrev main_v183 : Ref sig .tc := ⟨.hbm, 325, rfl⟩
abbrev main_v184 : Ref sig .tc := ⟨.hbm, 326, rfl⟩
abbrev main_v185 : Ref sig .tc := ⟨.hbm, 327, rfl⟩
abbrev main_v186 : Ref sig .tc := ⟨.hbm, 328, rfl⟩
abbrev main_v187 : Ref sig .tc := ⟨.hbm, 329, rfl⟩
abbrev main_v188 : Ref sig .tc := ⟨.hbm, 330, rfl⟩
abbrev main_v189 : Ref sig .tc := ⟨.hbm, 331, rfl⟩
abbrev main_v190 : Ref sig .tc := ⟨.hbm, 332, rfl⟩
abbrev main_v191 : Ref sig .tc := ⟨.hbm, 333, rfl⟩
abbrev main_call9_cst : Ref sig .tc := ⟨.hbm, 334, rfl⟩
abbrev main_call9_v0 : Ref sig .tc := ⟨.hbm, 335, rfl⟩
abbrev main_v192 : Ref sig .tc := ⟨.hbm, 336, rfl⟩
abbrev main_c_28 : Ref sig .tc := ⟨.hbm, 337, rfl⟩
abbrev main_v193 : Ref sig .tc := ⟨.hbm, 338, rfl⟩
abbrev main_v194 : Ref sig .tc := ⟨.hbm, 339, rfl⟩
abbrev main_c_29 : Ref sig .tc := ⟨.hbm, 340, rfl⟩
abbrev main_v195 : Ref sig .tc := ⟨.hbm, 341, rfl⟩
abbrev main_v196 : Ref sig .tc := ⟨.hbm, 342, rfl⟩
abbrev main_v197 : Ref sig .tc := ⟨.hbm, 343, rfl⟩
abbrev main_v198 : Ref sig .tc := ⟨.hbm, 344, rfl⟩
abbrev main_v199 : Ref sig .tc := ⟨.hbm, 345, rfl⟩
abbrev main_v200 : Ref sig .tc := ⟨.hbm, 346, rfl⟩
abbrev main_v201 : Ref sig .tc := ⟨.hbm, 347, rfl⟩
abbrev main_c_30 : Ref sig .tc := ⟨.hbm, 348, rfl⟩
abbrev main_v202 : Ref sig .tc := ⟨.hbm, 349, rfl⟩
abbrev main_v203 : Ref sig .tc := ⟨.hbm, 350, rfl⟩
abbrev main_c_31 : Ref sig .tc := ⟨.hbm, 351, rfl⟩
abbrev main_v204 : Ref sig .tc := ⟨.hbm, 352, rfl⟩
abbrev main_v205 : Ref sig .tc := ⟨.hbm, 353, rfl⟩
abbrev main_v206 : Ref sig .tc := ⟨.hbm, 354, rfl⟩
abbrev main_v207 : Ref sig .tc := ⟨.hbm, 355, rfl⟩
abbrev main_v208 : Ref sig .tc := ⟨.hbm, 356, rfl⟩
abbrev main_v209 : Ref sig .tc := ⟨.hbm, 357, rfl⟩
abbrev main_call10_cst : Ref sig .tc := ⟨.hbm, 358, rfl⟩
abbrev main_call10_v0 : Ref sig .tc := ⟨.hbm, 359, rfl⟩
abbrev main_v210 : Ref sig .tc := ⟨.hbm, 360, rfl⟩
abbrev main_cst_32 : Ref sig .tc := ⟨.hbm, 361, rfl⟩
abbrev main_v211 : Ref sig .tc := ⟨.hbm, 362, rfl⟩
abbrev main_v212 : Ref sig .tc := ⟨.hbm, 363, rfl⟩
abbrev main_v213 : Ref sig .tc := ⟨.hbm, 364, rfl⟩
abbrev main_v214 : Ref sig .tc := ⟨.hbm, 365, rfl⟩
abbrev main_v215 : Ref sig .tc := ⟨.hbm, 366, rfl⟩
abbrev main_cst_33 : Ref sig .tc := ⟨.hbm, 367, rfl⟩
abbrev main_v216 : Ref sig .tc := ⟨.hbm, 368, rfl⟩
abbrev main_v217 : Ref sig .tc := ⟨.hbm, 369, rfl⟩
abbrev main_v218 : Ref sig .tc := ⟨.hbm, 370, rfl⟩
abbrev main_v219 : Ref sig .tc := ⟨.hbm, 371, rfl⟩
abbrev main_v220 : Ref sig .tc := ⟨.hbm, 372, rfl⟩
abbrev main_v221 : Ref sig .tc := ⟨.hbm, 373, rfl⟩
abbrev main_v222 : Ref sig .tc := ⟨.hbm, 374, rfl⟩
abbrev main_v223 : Ref sig .tc := ⟨.hbm, 375, rfl⟩
abbrev main_v224 : Ref sig .tc := ⟨.hbm, 376, rfl⟩
abbrev main_v225 : Ref sig .tc := ⟨.hbm, 377, rfl⟩
abbrev main_v226 : Ref sig .tc := ⟨.hbm, 378, rfl⟩
abbrev main_v227 : Ref sig .tc := ⟨.hbm, 379, rfl⟩
abbrev main_v228 : Ref sig .tc := ⟨.hbm, 380, rfl⟩
abbrev main_v229 : Ref sig .tc := ⟨.hbm, 381, rfl⟩
abbrev main_v230 : Ref sig .tc := ⟨.hbm, 382, rfl⟩
abbrev main_v231 : Ref sig .tc := ⟨.hbm, 383, rfl⟩
abbrev main_cst_34 : Ref sig .tc := ⟨.hbm, 384, rfl⟩
abbrev main_v232 : Ref sig .tc := ⟨.hbm, 385, rfl⟩
abbrev main_cst_35 : Ref sig .tc := ⟨.hbm, 386, rfl⟩
abbrev main_v233 : Ref sig .tc := ⟨.hbm, 387, rfl⟩
abbrev main_v234 : Ref sig .tc := ⟨.hbm, 388, rfl⟩
abbrev main_c_36 : Ref sig .tc := ⟨.hbm, 389, rfl⟩
abbrev main_call11_cst : Ref sig .tc := ⟨.hbm, 390, rfl⟩
abbrev main_call11_v0 : Ref sig .tc := ⟨.hbm, 391, rfl⟩
abbrev main_call11_v1 : Ref sig .tc := ⟨.hbm, 392, rfl⟩
abbrev main_call11_cst_0 : Ref sig .tc := ⟨.hbm, 393, rfl⟩
abbrev main_call11_v2 : Ref sig .tc := ⟨.hbm, 394, rfl⟩
abbrev main_call11_v3 : Ref sig .tc := ⟨.hbm, 395, rfl⟩
abbrev main_call11_v4 : Ref sig .tc := ⟨.hbm, 396, rfl⟩
abbrev main_call11_v5 : Ref sig .tc := ⟨.hbm, 397, rfl⟩
abbrev main_call11_v6 : Ref sig .tc := ⟨.hbm, 398, rfl⟩
abbrev main_call11_v7 : Ref sig .tc := ⟨.hbm, 399, rfl⟩
abbrev main_call11_cst_1 : Ref sig .tc := ⟨.hbm, 400, rfl⟩
abbrev main_call11_v8 : Ref sig .tc := ⟨.hbm, 401, rfl⟩
abbrev main_call11_cst_2 : Ref sig .tc := ⟨.hbm, 402, rfl⟩
abbrev main_call11_v9 : Ref sig .tc := ⟨.hbm, 403, rfl⟩
abbrev main_call11_v10 : Ref sig .tc := ⟨.hbm, 404, rfl⟩
abbrev main_call11_v11 : Ref sig .tc := ⟨.hbm, 405, rfl⟩
abbrev main_call11_cst_3 : Ref sig .tc := ⟨.hbm, 406, rfl⟩
abbrev main_call11_v12 : Ref sig .tc := ⟨.hbm, 407, rfl⟩
abbrev main_call11_cst_4 : Ref sig .tc := ⟨.hbm, 408, rfl⟩
abbrev main_call11_call0_v0 : Ref sig .tc := ⟨.hbm, 409, rfl⟩
abbrev main_call11_call0_v1 : Ref sig .tc := ⟨.hbm, 410, rfl⟩
abbrev main_v235 : Ref sig .tc := ⟨.hbm, 411, rfl⟩
abbrev main_v236 : Ref sig .tc := ⟨.hbm, 412, rfl⟩
abbrev main_v237 : Ref sig .tc := ⟨.hbm, 413, rfl⟩
abbrev main_v238 : Ref sig .tc := ⟨.hbm, 414, rfl⟩
abbrev main_cst_37 : Ref sig .tc := ⟨.hbm, 415, rfl⟩
abbrev main_v239 : Ref sig .tc := ⟨.hbm, 416, rfl⟩
abbrev main_v240 : Ref sig .tc := ⟨.hbm, 417, rfl⟩
abbrev main_v241 : Ref sig .tc := ⟨.hbm, 418, rfl⟩
abbrev main_v242 : Ref sig .tc := ⟨.hbm, 419, rfl⟩
abbrev main_v243 : Ref sig .tc := ⟨.hbm, 420, rfl⟩
abbrev main_v244 : Ref sig .tc := ⟨.hbm, 421, rfl⟩
abbrev main_v245 : Ref sig .tc := ⟨.hbm, 422, rfl⟩
abbrev main_v246 : Ref sig .tc := ⟨.hbm, 423, rfl⟩
abbrev main_v247 : Ref sig .tc := ⟨.hbm, 424, rfl⟩
abbrev main_v248 : Ref sig .tc := ⟨.hbm, 425, rfl⟩
abbrev main_v249 : Ref sig .tc := ⟨.hbm, 426, rfl⟩
abbrev main_v250 : Ref sig .tc := ⟨.hbm, 427, rfl⟩
abbrev main_call12_cst : Ref sig .tc := ⟨.hbm, 428, rfl⟩
abbrev main_call12_v0 : Ref sig .tc := ⟨.hbm, 429, rfl⟩
abbrev main_v251 : Ref sig .tc := ⟨.hbm, 430, rfl⟩
abbrev main_v252 : Ref sig .tc := ⟨.hbm, 431, rfl⟩
abbrev main_v253 : Ref sig .tc := ⟨.hbm, 432, rfl⟩
abbrev main_v254 : Ref sig .tc := ⟨.hbm, 433, rfl⟩
abbrev main_v255 : Ref sig .tc := ⟨.hbm, 434, rfl⟩
abbrev main_v256 : Ref sig .tc := ⟨.hbm, 435, rfl⟩
abbrev main_v257 : Ref sig .tc := ⟨.hbm, 436, rfl⟩
abbrev main_v258 : Ref sig .tc := ⟨.hbm, 437, rfl⟩
abbrev main_v259 : Ref sig .tc := ⟨.hbm, 438, rfl⟩
abbrev main_v260 : Ref sig .tc := ⟨.hbm, 439, rfl⟩
abbrev main_v261 : Ref sig .tc := ⟨.hbm, 440, rfl⟩
abbrev main_v262 : Ref sig .tc := ⟨.hbm, 441, rfl⟩
abbrev main_v263 : Ref sig .tc := ⟨.hbm, 442, rfl⟩
abbrev main_cst_38 : Ref sig .tc := ⟨.hbm, 443, rfl⟩
abbrev main_v264 : Ref sig .tc := ⟨.hbm, 444, rfl⟩
abbrev main_cst_39 : Ref sig .tc := ⟨.hbm, 445, rfl⟩
abbrev main_v265 : Ref sig .tc := ⟨.hbm, 446, rfl⟩
abbrev main_v266 : Ref sig .tc := ⟨.hbm, 447, rfl⟩
abbrev main_c_40 : Ref sig .tc := ⟨.hbm, 448, rfl⟩
abbrev main_call13_cst : Ref sig .tc := ⟨.hbm, 449, rfl⟩
abbrev main_call13_v0 : Ref sig .tc := ⟨.hbm, 450, rfl⟩
abbrev main_call13_v1 : Ref sig .tc := ⟨.hbm, 451, rfl⟩
abbrev main_call13_cst_0 : Ref sig .tc := ⟨.hbm, 452, rfl⟩
abbrev main_call13_v2 : Ref sig .tc := ⟨.hbm, 453, rfl⟩
abbrev main_call13_v3 : Ref sig .tc := ⟨.hbm, 454, rfl⟩
abbrev main_call13_v4 : Ref sig .tc := ⟨.hbm, 455, rfl⟩
abbrev main_call13_v5 : Ref sig .tc := ⟨.hbm, 456, rfl⟩
abbrev main_call13_v6 : Ref sig .tc := ⟨.hbm, 457, rfl⟩
abbrev main_call13_v7 : Ref sig .tc := ⟨.hbm, 458, rfl⟩
abbrev main_call13_cst_1 : Ref sig .tc := ⟨.hbm, 459, rfl⟩
abbrev main_call13_v8 : Ref sig .tc := ⟨.hbm, 460, rfl⟩
abbrev main_call13_cst_2 : Ref sig .tc := ⟨.hbm, 461, rfl⟩
abbrev main_call13_v9 : Ref sig .tc := ⟨.hbm, 462, rfl⟩
abbrev main_call13_v10 : Ref sig .tc := ⟨.hbm, 463, rfl⟩
abbrev main_call13_v11 : Ref sig .tc := ⟨.hbm, 464, rfl⟩
abbrev main_call13_cst_3 : Ref sig .tc := ⟨.hbm, 465, rfl⟩
abbrev main_call13_v12 : Ref sig .tc := ⟨.hbm, 466, rfl⟩
abbrev main_call13_cst_4 : Ref sig .tc := ⟨.hbm, 467, rfl⟩
abbrev main_call13_call0_v0 : Ref sig .tc := ⟨.hbm, 468, rfl⟩
abbrev main_call13_call0_v1 : Ref sig .tc := ⟨.hbm, 469, rfl⟩
abbrev main_v267 : Ref sig .tc := ⟨.hbm, 470, rfl⟩
abbrev main_v268 : Ref sig .tc := ⟨.hbm, 471, rfl⟩
abbrev main_v269 : Ref sig .tc := ⟨.hbm, 472, rfl⟩
abbrev main_v270 : Ref sig .tc := ⟨.hbm, 473, rfl⟩
abbrev main_cst_41 : Ref sig .tc := ⟨.hbm, 474, rfl⟩
abbrev main_v271 : Ref sig .tc := ⟨.hbm, 475, rfl⟩
abbrev main_v272 : Ref sig .tc := ⟨.hbm, 476, rfl⟩
abbrev main_v273 : Ref sig .tc := ⟨.hbm, 477, rfl⟩
abbrev main_v274 : Ref sig .tc := ⟨.hbm, 478, rfl⟩
abbrev main_v275 : Ref sig .tc := ⟨.hbm, 479, rfl⟩
abbrev main_v276 : Ref sig .tc := ⟨.hbm, 480, rfl⟩
abbrev main_v277 : Ref sig .tc := ⟨.hbm, 481, rfl⟩
abbrev main_v278 : Ref sig .tc := ⟨.hbm, 482, rfl⟩
abbrev main_v279 : Ref sig .tc := ⟨.hbm, 483, rfl⟩
abbrev main_v280 : Ref sig .tc := ⟨.hbm, 484, rfl⟩
abbrev main_v281 : Ref sig .tc := ⟨.hbm, 485, rfl⟩
abbrev main_v282 : Ref sig .tc := ⟨.hbm, 486, rfl⟩
abbrev main_call14_cst : Ref sig .tc := ⟨.hbm, 487, rfl⟩
abbrev main_call14_v0 : Ref sig .tc := ⟨.hbm, 488, rfl⟩
abbrev main_v283 : Ref sig .tc := ⟨.hbm, 489, rfl⟩
abbrev main_c_42 : Ref sig .tc := ⟨.hbm, 490, rfl⟩
abbrev main_v284 : Ref sig .tc := ⟨.hbm, 491, rfl⟩
abbrev main_v285 : Ref sig .tc := ⟨.hbm, 492, rfl⟩
abbrev main_c_43 : Ref sig .tc := ⟨.hbm, 493, rfl⟩
abbrev main_v286 : Ref sig .tc := ⟨.hbm, 494, rfl⟩
abbrev main_v287 : Ref sig .tc := ⟨.hbm, 495, rfl⟩
abbrev main_v288 : Ref sig .tc := ⟨.hbm, 496, rfl⟩
abbrev main_v289 : Ref sig .tc := ⟨.hbm, 497, rfl⟩
abbrev main_v290 : Ref sig .tc := ⟨.hbm, 498, rfl⟩
abbrev main_v291 : Ref sig .tc := ⟨.hbm, 499, rfl⟩
abbrev main_v292 : Ref sig .tc := ⟨.hbm, 500, rfl⟩
abbrev main_c_44 : Ref sig .tc := ⟨.hbm, 501, rfl⟩
abbrev main_v293 : Ref sig .tc := ⟨.hbm, 502, rfl⟩
abbrev main_v294 : Ref sig .tc := ⟨.hbm, 503, rfl⟩
abbrev main_c_45 : Ref sig .tc := ⟨.hbm, 504, rfl⟩
abbrev main_v295 : Ref sig .tc := ⟨.hbm, 505, rfl⟩
abbrev main_v296 : Ref sig .tc := ⟨.hbm, 506, rfl⟩
abbrev main_v297 : Ref sig .tc := ⟨.hbm, 507, rfl⟩
abbrev main_v298 : Ref sig .tc := ⟨.hbm, 508, rfl⟩
abbrev main_v299 : Ref sig .tc := ⟨.hbm, 509, rfl⟩
abbrev main_v300 : Ref sig .tc := ⟨.hbm, 510, rfl⟩
abbrev main_call15_cst : Ref sig .tc := ⟨.hbm, 511, rfl⟩
abbrev main_call15_v0 : Ref sig .tc := ⟨.hbm, 512, rfl⟩
abbrev main_v301 : Ref sig .tc := ⟨.hbm, 513, rfl⟩
abbrev main_cst_46 : Ref sig .tc := ⟨.hbm, 514, rfl⟩
abbrev main_v302 : Ref sig .tc := ⟨.hbm, 515, rfl⟩
abbrev main_v303 : Ref sig .tc := ⟨.hbm, 516, rfl⟩
abbrev main_v304 : Ref sig .tc := ⟨.hbm, 517, rfl⟩
abbrev main_v305 : Ref sig .tc := ⟨.hbm, 518, rfl⟩
abbrev main_v306 : Ref sig .tc := ⟨.hbm, 519, rfl⟩
abbrev main_cst_47 : Ref sig .tc := ⟨.hbm, 520, rfl⟩
abbrev main_v307 : Ref sig .tc := ⟨.hbm, 521, rfl⟩
abbrev main_v308 : Ref sig .tc := ⟨.hbm, 522, rfl⟩
abbrev main_v309 : Ref sig .tc := ⟨.hbm, 523, rfl⟩
abbrev main_v310 : Ref sig .tc := ⟨.hbm, 524, rfl⟩
abbrev main_v311 : Ref sig .tc := ⟨.hbm, 525, rfl⟩
abbrev main_v312 : Ref sig .tc := ⟨.hbm, 526, rfl⟩
abbrev main_v313 : Ref sig .tc := ⟨.hbm, 527, rfl⟩
abbrev main_v314 : Ref sig .tc := ⟨.hbm, 528, rfl⟩
abbrev main_v315 : Ref sig .tc := ⟨.hbm, 529, rfl⟩
abbrev main_v316 : Ref sig .tc := ⟨.hbm, 530, rfl⟩
abbrev main_v317 : Ref sig .tc := ⟨.hbm, 531, rfl⟩
abbrev main_v318 : Ref sig .tc := ⟨.hbm, 532, rfl⟩
abbrev main_v319 : Ref sig .tc := ⟨.hbm, 533, rfl⟩
abbrev main_v320 : Ref sig .tc := ⟨.hbm, 534, rfl⟩
abbrev main_v321 : Ref sig .tc := ⟨.hbm, 535, rfl⟩
abbrev main_v322 : Ref sig .tc := ⟨.hbm, 536, rfl⟩
abbrev main_cst_48 : Ref sig .tc := ⟨.hbm, 537, rfl⟩
abbrev main_v323 : Ref sig .tc := ⟨.hbm, 538, rfl⟩
abbrev main_cst_49 : Ref sig .tc := ⟨.hbm, 539, rfl⟩
abbrev main_v324 : Ref sig .tc := ⟨.hbm, 540, rfl⟩
abbrev main_v325 : Ref sig .tc := ⟨.hbm, 541, rfl⟩
abbrev main_c_50 : Ref sig .tc := ⟨.hbm, 542, rfl⟩
abbrev main_call16_cst : Ref sig .tc := ⟨.hbm, 543, rfl⟩
abbrev main_call16_v0 : Ref sig .tc := ⟨.hbm, 544, rfl⟩
abbrev main_call16_v1 : Ref sig .tc := ⟨.hbm, 545, rfl⟩
abbrev main_call16_cst_0 : Ref sig .tc := ⟨.hbm, 546, rfl⟩
abbrev main_call16_v2 : Ref sig .tc := ⟨.hbm, 547, rfl⟩
abbrev main_call16_v3 : Ref sig .tc := ⟨.hbm, 548, rfl⟩
abbrev main_call16_v4 : Ref sig .tc := ⟨.hbm, 549, rfl⟩
abbrev main_call16_v5 : Ref sig .tc := ⟨.hbm, 550, rfl⟩
abbrev main_call16_v6 : Ref sig .tc := ⟨.hbm, 551, rfl⟩
abbrev main_call16_v7 : Ref sig .tc := ⟨.hbm, 552, rfl⟩
abbrev main_call16_cst_1 : Ref sig .tc := ⟨.hbm, 553, rfl⟩
abbrev main_call16_v8 : Ref sig .tc := ⟨.hbm, 554, rfl⟩
abbrev main_call16_cst_2 : Ref sig .tc := ⟨.hbm, 555, rfl⟩
abbrev main_call16_v9 : Ref sig .tc := ⟨.hbm, 556, rfl⟩
abbrev main_call16_v10 : Ref sig .tc := ⟨.hbm, 557, rfl⟩
abbrev main_call16_v11 : Ref sig .tc := ⟨.hbm, 558, rfl⟩
abbrev main_call16_cst_3 : Ref sig .tc := ⟨.hbm, 559, rfl⟩
abbrev main_call16_v12 : Ref sig .tc := ⟨.hbm, 560, rfl⟩
abbrev main_call16_cst_4 : Ref sig .tc := ⟨.hbm, 561, rfl⟩
abbrev main_call16_call0_v0 : Ref sig .tc := ⟨.hbm, 562, rfl⟩
abbrev main_call16_call0_v1 : Ref sig .tc := ⟨.hbm, 563, rfl⟩
abbrev main_v326 : Ref sig .tc := ⟨.hbm, 564, rfl⟩
abbrev main_v327 : Ref sig .tc := ⟨.hbm, 565, rfl⟩
abbrev main_v328 : Ref sig .tc := ⟨.hbm, 566, rfl⟩
abbrev main_v329 : Ref sig .tc := ⟨.hbm, 567, rfl⟩
abbrev main_cst_51 : Ref sig .tc := ⟨.hbm, 568, rfl⟩
abbrev main_v330 : Ref sig .tc := ⟨.hbm, 569, rfl⟩
abbrev main_v331 : Ref sig .tc := ⟨.hbm, 570, rfl⟩
abbrev main_v332 : Ref sig .tc := ⟨.hbm, 571, rfl⟩
abbrev main_v333 : Ref sig .tc := ⟨.hbm, 572, rfl⟩
abbrev main_v334 : Ref sig .tc := ⟨.hbm, 573, rfl⟩
abbrev main_v335 : Ref sig .tc := ⟨.hbm, 574, rfl⟩
abbrev main_v336 : Ref sig .tc := ⟨.hbm, 575, rfl⟩
abbrev main_v337 : Ref sig .tc := ⟨.hbm, 576, rfl⟩
abbrev main_v338 : Ref sig .tc := ⟨.hbm, 577, rfl⟩
abbrev main_v339 : Ref sig .tc := ⟨.hbm, 578, rfl⟩
abbrev main_v340 : Ref sig .tc := ⟨.hbm, 579, rfl⟩
abbrev main_v341 : Ref sig .tc := ⟨.hbm, 580, rfl⟩
abbrev main_call17_cst : Ref sig .tc := ⟨.hbm, 581, rfl⟩
abbrev main_call17_v0 : Ref sig .tc := ⟨.hbm, 582, rfl⟩
abbrev main_v342 : Ref sig .tc := ⟨.hbm, 583, rfl⟩
abbrev main_v343 : Ref sig .tc := ⟨.hbm, 584, rfl⟩
abbrev main_v344 : Ref sig .tc := ⟨.hbm, 585, rfl⟩
abbrev main_v345 : Ref sig .tc := ⟨.hbm, 586, rfl⟩
abbrev main_v346 : Ref sig .tc := ⟨.hbm, 587, rfl⟩
abbrev main_v347 : Ref sig .tc := ⟨.hbm, 588, rfl⟩
abbrev main_v348 : Ref sig .tc := ⟨.hbm, 589, rfl⟩
abbrev main_v349 : Ref sig .tc := ⟨.hbm, 590, rfl⟩
abbrev main_v350 : Ref sig .tc := ⟨.hbm, 591, rfl⟩
abbrev main_v351 : Ref sig .tc := ⟨.hbm, 592, rfl⟩
abbrev main_v352 : Ref sig .tc := ⟨.hbm, 593, rfl⟩
abbrev main_v353 : Ref sig .tc := ⟨.hbm, 594, rfl⟩
abbrev main_v354 : Ref sig .tc := ⟨.hbm, 595, rfl⟩
abbrev main_cst_52 : Ref sig .tc := ⟨.hbm, 596, rfl⟩
abbrev main_v355 : Ref sig .tc := ⟨.hbm, 597, rfl⟩
abbrev main_cst_53 : Ref sig .tc := ⟨.hbm, 598, rfl⟩
abbrev main_v356 : Ref sig .tc := ⟨.hbm, 599, rfl⟩
abbrev main_v357 : Ref sig .tc := ⟨.hbm, 600, rfl⟩
abbrev main_c_54 : Ref sig .tc := ⟨.hbm, 601, rfl⟩
abbrev main_call18_cst : Ref sig .tc := ⟨.hbm, 602, rfl⟩
abbrev main_call18_v0 : Ref sig .tc := ⟨.hbm, 603, rfl⟩
abbrev main_call18_v1 : Ref sig .tc := ⟨.hbm, 604, rfl⟩
abbrev main_call18_cst_0 : Ref sig .tc := ⟨.hbm, 605, rfl⟩
abbrev main_call18_v2 : Ref sig .tc := ⟨.hbm, 606, rfl⟩
abbrev main_call18_v3 : Ref sig .tc := ⟨.hbm, 607, rfl⟩
abbrev main_call18_v4 : Ref sig .tc := ⟨.hbm, 608, rfl⟩
abbrev main_call18_v5 : Ref sig .tc := ⟨.hbm, 609, rfl⟩
abbrev main_call18_v6 : Ref sig .tc := ⟨.hbm, 610, rfl⟩
abbrev main_call18_v7 : Ref sig .tc := ⟨.hbm, 611, rfl⟩
abbrev main_call18_cst_1 : Ref sig .tc := ⟨.hbm, 612, rfl⟩
abbrev main_call18_v8 : Ref sig .tc := ⟨.hbm, 613, rfl⟩
abbrev main_call18_cst_2 : Ref sig .tc := ⟨.hbm, 614, rfl⟩
abbrev main_call18_v9 : Ref sig .tc := ⟨.hbm, 615, rfl⟩
abbrev main_call18_v10 : Ref sig .tc := ⟨.hbm, 616, rfl⟩
abbrev main_call18_v11 : Ref sig .tc := ⟨.hbm, 617, rfl⟩
abbrev main_call18_cst_3 : Ref sig .tc := ⟨.hbm, 618, rfl⟩
abbrev main_call18_v12 : Ref sig .tc := ⟨.hbm, 619, rfl⟩
abbrev main_call18_cst_4 : Ref sig .tc := ⟨.hbm, 620, rfl⟩
abbrev main_call18_call0_v0 : Ref sig .tc := ⟨.hbm, 621, rfl⟩
abbrev main_call18_call0_v1 : Ref sig .tc := ⟨.hbm, 622, rfl⟩
abbrev main_v358 : Ref sig .tc := ⟨.hbm, 623, rfl⟩
abbrev main_v359 : Ref sig .tc := ⟨.hbm, 624, rfl⟩
abbrev main_v360 : Ref sig .tc := ⟨.hbm, 625, rfl⟩
abbrev main_v361 : Ref sig .tc := ⟨.hbm, 626, rfl⟩
abbrev main_cst_55 : Ref sig .tc := ⟨.hbm, 627, rfl⟩
abbrev main_v362 : Ref sig .tc := ⟨.hbm, 628, rfl⟩
abbrev main_v363 : Ref sig .tc := ⟨.hbm, 629, rfl⟩
abbrev main_v364 : Ref sig .tc := ⟨.hbm, 630, rfl⟩
abbrev main_v365 : Ref sig .tc := ⟨.hbm, 631, rfl⟩
abbrev main_v366 : Ref sig .tc := ⟨.hbm, 632, rfl⟩
abbrev main_v367 : Ref sig .tc := ⟨.hbm, 633, rfl⟩
abbrev main_v368 : Ref sig .tc := ⟨.hbm, 634, rfl⟩
abbrev main_v369 : Ref sig .tc := ⟨.hbm, 635, rfl⟩
abbrev main_v370 : Ref sig .tc := ⟨.hbm, 636, rfl⟩
abbrev main_v371 : Ref sig .tc := ⟨.hbm, 637, rfl⟩
abbrev main_v372 : Ref sig .tc := ⟨.hbm, 638, rfl⟩
abbrev main_v373 : Ref sig .tc := ⟨.hbm, 639, rfl⟩
abbrev main_call19_cst : Ref sig .tc := ⟨.hbm, 640, rfl⟩
abbrev main_call19_v0 : Ref sig .tc := ⟨.hbm, 641, rfl⟩
abbrev main_v374 : Ref sig .tc := ⟨.hbm, 642, rfl⟩
abbrev main_c_56 : Ref sig .tc := ⟨.hbm, 643, rfl⟩
abbrev main_v375 : Ref sig .tc := ⟨.hbm, 644, rfl⟩
abbrev main_v376 : Ref sig .tc := ⟨.hbm, 645, rfl⟩
abbrev main_c_57 : Ref sig .tc := ⟨.hbm, 646, rfl⟩
abbrev main_v377 : Ref sig .tc := ⟨.hbm, 647, rfl⟩
abbrev main_v378 : Ref sig .tc := ⟨.hbm, 648, rfl⟩
abbrev main_v379 : Ref sig .tc := ⟨.hbm, 649, rfl⟩
abbrev main_v380 : Ref sig .tc := ⟨.hbm, 650, rfl⟩
abbrev main_v381 : Ref sig .tc := ⟨.hbm, 651, rfl⟩
abbrev main_v382 : Ref sig .tc := ⟨.hbm, 652, rfl⟩
abbrev main_v383 : Ref sig .tc := ⟨.hbm, 653, rfl⟩
abbrev main_c_58 : Ref sig .tc := ⟨.hbm, 654, rfl⟩
abbrev main_v384 : Ref sig .tc := ⟨.hbm, 655, rfl⟩
abbrev main_v385 : Ref sig .tc := ⟨.hbm, 656, rfl⟩
abbrev main_c_59 : Ref sig .tc := ⟨.hbm, 657, rfl⟩
abbrev main_v386 : Ref sig .tc := ⟨.hbm, 658, rfl⟩
abbrev main_v387 : Ref sig .tc := ⟨.hbm, 659, rfl⟩
abbrev main_v388 : Ref sig .tc := ⟨.hbm, 660, rfl⟩
abbrev main_v389 : Ref sig .tc := ⟨.hbm, 661, rfl⟩
abbrev main_v390 : Ref sig .tc := ⟨.hbm, 662, rfl⟩
abbrev main_v391 : Ref sig .tc := ⟨.hbm, 663, rfl⟩
abbrev main_call20_cst : Ref sig .tc := ⟨.hbm, 664, rfl⟩
abbrev main_call20_v0 : Ref sig .tc := ⟨.hbm, 665, rfl⟩
abbrev main_v392 : Ref sig .tc := ⟨.hbm, 666, rfl⟩
abbrev main_cst_60 : Ref sig .tc := ⟨.hbm, 667, rfl⟩
abbrev main_v393 : Ref sig .tc := ⟨.hbm, 668, rfl⟩
abbrev main_v394 : Ref sig .tc := ⟨.hbm, 669, rfl⟩
abbrev main_v395 : Ref sig .tc := ⟨.hbm, 670, rfl⟩
abbrev main_v396 : Ref sig .tc := ⟨.hbm, 671, rfl⟩
abbrev main_v397 : Ref sig .tc := ⟨.hbm, 672, rfl⟩
abbrev main_cst_61 : Ref sig .tc := ⟨.hbm, 673, rfl⟩
abbrev main_v398 : Ref sig .tc := ⟨.hbm, 674, rfl⟩
abbrev main_v399 : Ref sig .tc := ⟨.hbm, 675, rfl⟩
abbrev main_v400 : Ref sig .tc := ⟨.hbm, 676, rfl⟩
abbrev main_v401 : Ref sig .tc := ⟨.hbm, 677, rfl⟩
abbrev main_v402 : Ref sig .tc := ⟨.hbm, 678, rfl⟩
abbrev main_v403 : Ref sig .tc := ⟨.hbm, 679, rfl⟩
abbrev main_v404 : Ref sig .tc := ⟨.hbm, 680, rfl⟩
abbrev main_v405 : Ref sig .tc := ⟨.hbm, 681, rfl⟩
abbrev main_v406 : Ref sig .tc := ⟨.hbm, 682, rfl⟩
abbrev main_v407 : Ref sig .tc := ⟨.hbm, 683, rfl⟩
abbrev main_v408 : Ref sig .tc := ⟨.hbm, 684, rfl⟩
abbrev main_v409 : Ref sig .tc := ⟨.hbm, 685, rfl⟩
abbrev main_v410 : Ref sig .tc := ⟨.hbm, 686, rfl⟩
abbrev main_v411 : Ref sig .tc := ⟨.hbm, 687, rfl⟩
abbrev main_v412 : Ref sig .tc := ⟨.hbm, 688, rfl⟩
abbrev main_v413 : Ref sig .tc := ⟨.hbm, 689, rfl⟩
abbrev main_cst_62 : Ref sig .tc := ⟨.hbm, 690, rfl⟩
abbrev main_v414 : Ref sig .tc := ⟨.hbm, 691, rfl⟩
abbrev main_cst_63 : Ref sig .tc := ⟨.hbm, 692, rfl⟩
abbrev main_v415 : Ref sig .tc := ⟨.hbm, 693, rfl⟩
abbrev main_v416 : Ref sig .tc := ⟨.hbm, 694, rfl⟩
abbrev main_c_64 : Ref sig .tc := ⟨.hbm, 695, rfl⟩
abbrev main_call21_cst : Ref sig .tc := ⟨.hbm, 696, rfl⟩
abbrev main_call21_v0 : Ref sig .tc := ⟨.hbm, 697, rfl⟩
abbrev main_call21_v1 : Ref sig .tc := ⟨.hbm, 698, rfl⟩
abbrev main_call21_cst_0 : Ref sig .tc := ⟨.hbm, 699, rfl⟩
abbrev main_call21_v2 : Ref sig .tc := ⟨.hbm, 700, rfl⟩
abbrev main_call21_v3 : Ref sig .tc := ⟨.hbm, 701, rfl⟩
abbrev main_call21_v4 : Ref sig .tc := ⟨.hbm, 702, rfl⟩
abbrev main_call21_v5 : Ref sig .tc := ⟨.hbm, 703, rfl⟩
abbrev main_call21_v6 : Ref sig .tc := ⟨.hbm, 704, rfl⟩
abbrev main_call21_v7 : Ref sig .tc := ⟨.hbm, 705, rfl⟩
abbrev main_call21_cst_1 : Ref sig .tc := ⟨.hbm, 706, rfl⟩
abbrev main_call21_v8 : Ref sig .tc := ⟨.hbm, 707, rfl⟩
abbrev main_call21_cst_2 : Ref sig .tc := ⟨.hbm, 708, rfl⟩
abbrev main_call21_v9 : Ref sig .tc := ⟨.hbm, 709, rfl⟩
abbrev main_call21_v10 : Ref sig .tc := ⟨.hbm, 710, rfl⟩
abbrev main_call21_v11 : Ref sig .tc := ⟨.hbm, 711, rfl⟩
abbrev main_call21_cst_3 : Ref sig .tc := ⟨.hbm, 712, rfl⟩
abbrev main_call21_v12 : Ref sig .tc := ⟨.hbm, 713, rfl⟩
abbrev main_call21_cst_4 : Ref sig .tc := ⟨.hbm, 714, rfl⟩
abbrev main_call21_call0_v0 : Ref sig .tc := ⟨.hbm, 715, rfl⟩
abbrev main_call21_call0_v1 : Ref sig .tc := ⟨.hbm, 716, rfl⟩
abbrev main_v417 : Ref sig .tc := ⟨.hbm, 717, rfl⟩
abbrev main_v418 : Ref sig .tc := ⟨.hbm, 718, rfl⟩
abbrev main_v419 : Ref sig .tc := ⟨.hbm, 719, rfl⟩
abbrev main_v420 : Ref sig .tc := ⟨.hbm, 720, rfl⟩
abbrev main_cst_65 : Ref sig .tc := ⟨.hbm, 721, rfl⟩
abbrev main_v421 : Ref sig .tc := ⟨.hbm, 722, rfl⟩
abbrev main_v422 : Ref sig .tc := ⟨.hbm, 723, rfl⟩
abbrev main_v423 : Ref sig .tc := ⟨.hbm, 724, rfl⟩
abbrev main_v424 : Ref sig .tc := ⟨.hbm, 725, rfl⟩
abbrev main_v425 : Ref sig .tc := ⟨.hbm, 726, rfl⟩
abbrev main_v426 : Ref sig .tc := ⟨.hbm, 727, rfl⟩
abbrev main_v427 : Ref sig .tc := ⟨.hbm, 728, rfl⟩
abbrev main_v428 : Ref sig .tc := ⟨.hbm, 729, rfl⟩
abbrev main_v429 : Ref sig .tc := ⟨.hbm, 730, rfl⟩
abbrev main_v430 : Ref sig .tc := ⟨.hbm, 731, rfl⟩
abbrev main_v431 : Ref sig .tc := ⟨.hbm, 732, rfl⟩
abbrev main_v432 : Ref sig .tc := ⟨.hbm, 733, rfl⟩
abbrev main_call22_cst : Ref sig .tc := ⟨.hbm, 734, rfl⟩
abbrev main_call22_v0 : Ref sig .tc := ⟨.hbm, 735, rfl⟩
abbrev main_v433 : Ref sig .tc := ⟨.hbm, 736, rfl⟩
abbrev main_v434 : Ref sig .tc := ⟨.hbm, 737, rfl⟩
abbrev main_v435 : Ref sig .tc := ⟨.hbm, 738, rfl⟩
abbrev main_v436 : Ref sig .tc := ⟨.hbm, 739, rfl⟩
abbrev main_v437 : Ref sig .tc := ⟨.hbm, 740, rfl⟩
abbrev main_v438 : Ref sig .tc := ⟨.hbm, 741, rfl⟩
abbrev main_v439 : Ref sig .tc := ⟨.hbm, 742, rfl⟩
abbrev main_v440 : Ref sig .tc := ⟨.hbm, 743, rfl⟩
abbrev main_v441 : Ref sig .tc := ⟨.hbm, 744, rfl⟩
abbrev main_v442 : Ref sig .tc := ⟨.hbm, 745, rfl⟩
abbrev main_v443 : Ref sig .tc := ⟨.hbm, 746, rfl⟩
abbrev main_v444 : Ref sig .tc := ⟨.hbm, 747, rfl⟩
abbrev main_v445 : Ref sig .tc := ⟨.hbm, 748, rfl⟩
abbrev main_cst_66 : Ref sig .tc := ⟨.hbm, 749, rfl⟩
abbrev main_v446 : Ref sig .tc := ⟨.hbm, 750, rfl⟩
abbrev main_cst_67 : Ref sig .tc := ⟨.hbm, 751, rfl⟩
abbrev main_v447 : Ref sig .tc := ⟨.hbm, 752, rfl⟩
abbrev main_v448 : Ref sig .tc := ⟨.hbm, 753, rfl⟩
abbrev main_c_68 : Ref sig .tc := ⟨.hbm, 754, rfl⟩
abbrev main_call23_cst : Ref sig .tc := ⟨.hbm, 755, rfl⟩
abbrev main_call23_v0 : Ref sig .tc := ⟨.hbm, 756, rfl⟩
abbrev main_call23_v1 : Ref sig .tc := ⟨.hbm, 757, rfl⟩
abbrev main_call23_cst_0 : Ref sig .tc := ⟨.hbm, 758, rfl⟩
abbrev main_call23_v2 : Ref sig .tc := ⟨.hbm, 759, rfl⟩
abbrev main_call23_v3 : Ref sig .tc := ⟨.hbm, 760, rfl⟩
abbrev main_call23_v4 : Ref sig .tc := ⟨.hbm, 761, rfl⟩
abbrev main_call23_v5 : Ref sig .tc := ⟨.hbm, 762, rfl⟩
abbrev main_call23_v6 : Ref sig .tc := ⟨.hbm, 763, rfl⟩
abbrev main_call23_v7 : Ref sig .tc := ⟨.hbm, 764, rfl⟩
abbrev main_call23_cst_1 : Ref sig .tc := ⟨.hbm, 765, rfl⟩
abbrev main_call23_v8 : Ref sig .tc := ⟨.hbm, 766, rfl⟩
abbrev main_call23_cst_2 : Ref sig .tc := ⟨.hbm, 767, rfl⟩
abbrev main_call23_v9 : Ref sig .tc := ⟨.hbm, 768, rfl⟩
abbrev main_call23_v10 : Ref sig .tc := ⟨.hbm, 769, rfl⟩
abbrev main_call23_v11 : Ref sig .tc := ⟨.hbm, 770, rfl⟩
abbrev main_call23_cst_3 : Ref sig .tc := ⟨.hbm, 771, rfl⟩
abbrev main_call23_v12 : Ref sig .tc := ⟨.hbm, 772, rfl⟩
abbrev main_call23_cst_4 : Ref sig .tc := ⟨.hbm, 773, rfl⟩
abbrev main_call23_call0_v0 : Ref sig .tc := ⟨.hbm, 774, rfl⟩
abbrev main_call23_call0_v1 : Ref sig .tc := ⟨.hbm, 775, rfl⟩
abbrev main_v449 : Ref sig .tc := ⟨.hbm, 776, rfl⟩
abbrev main_v450 : Ref sig .tc := ⟨.hbm, 777, rfl⟩
abbrev main_v451 : Ref sig .tc := ⟨.hbm, 778, rfl⟩
abbrev main_v452 : Ref sig .tc := ⟨.hbm, 779, rfl⟩
abbrev main_cst_69 : Ref sig .tc := ⟨.hbm, 780, rfl⟩
abbrev main_v453 : Ref sig .tc := ⟨.hbm, 781, rfl⟩
abbrev main_v454 : Ref sig .tc := ⟨.hbm, 782, rfl⟩
abbrev main_v455 : Ref sig .tc := ⟨.hbm, 783, rfl⟩
abbrev main_v456 : Ref sig .tc := ⟨.hbm, 784, rfl⟩
abbrev main_v457 : Ref sig .tc := ⟨.hbm, 785, rfl⟩
abbrev main_v458 : Ref sig .tc := ⟨.hbm, 786, rfl⟩
abbrev main_v459 : Ref sig .tc := ⟨.hbm, 787, rfl⟩
abbrev main_v460 : Ref sig .tc := ⟨.hbm, 788, rfl⟩
abbrev main_v461 : Ref sig .tc := ⟨.hbm, 789, rfl⟩
abbrev main_v462 : Ref sig .tc := ⟨.hbm, 790, rfl⟩
abbrev main_v463 : Ref sig .tc := ⟨.hbm, 791, rfl⟩
abbrev main_v464 : Ref sig .tc := ⟨.hbm, 792, rfl⟩
abbrev main_call24_cst : Ref sig .tc := ⟨.hbm, 793, rfl⟩
abbrev main_call24_v0 : Ref sig .tc := ⟨.hbm, 794, rfl⟩
abbrev main_v465 : Ref sig .tc := ⟨.hbm, 795, rfl⟩
abbrev main_c_70 : Ref sig .tc := ⟨.hbm, 796, rfl⟩
abbrev main_v466 : Ref sig .tc := ⟨.hbm, 797, rfl⟩
abbrev main_v467 : Ref sig .tc := ⟨.hbm, 798, rfl⟩
abbrev main_c_71 : Ref sig .tc := ⟨.hbm, 799, rfl⟩
abbrev main_v468 : Ref sig .tc := ⟨.hbm, 800, rfl⟩
abbrev main_v469 : Ref sig .tc := ⟨.hbm, 801, rfl⟩
abbrev main_v470 : Ref sig .tc := ⟨.hbm, 802, rfl⟩
abbrev main_v471 : Ref sig .tc := ⟨.hbm, 803, rfl⟩
abbrev main_v472 : Ref sig .tc := ⟨.hbm, 804, rfl⟩
abbrev main_v473 : Ref sig .tc := ⟨.hbm, 805, rfl⟩
abbrev main_v474 : Ref sig .tc := ⟨.hbm, 806, rfl⟩
abbrev main_c_72 : Ref sig .tc := ⟨.hbm, 807, rfl⟩
abbrev main_v475 : Ref sig .tc := ⟨.hbm, 808, rfl⟩
abbrev main_v476 : Ref sig .tc := ⟨.hbm, 809, rfl⟩
abbrev main_c_73 : Ref sig .tc := ⟨.hbm, 810, rfl⟩
abbrev main_v477 : Ref sig .tc := ⟨.hbm, 811, rfl⟩
abbrev main_v478 : Ref sig .tc := ⟨.hbm, 812, rfl⟩
abbrev main_v479 : Ref sig .tc := ⟨.hbm, 813, rfl⟩
abbrev main_v480 : Ref sig .tc := ⟨.hbm, 814, rfl⟩
abbrev main_v481 : Ref sig .tc := ⟨.hbm, 815, rfl⟩
abbrev main_v482 : Ref sig .tc := ⟨.hbm, 816, rfl⟩
abbrev main_call25_cst : Ref sig .tc := ⟨.hbm, 817, rfl⟩
abbrev main_call25_v0 : Ref sig .tc := ⟨.hbm, 818, rfl⟩
abbrev main_v483 : Ref sig .tc := ⟨.hbm, 819, rfl⟩
abbrev main_cst_74 : Ref sig .tc := ⟨.hbm, 820, rfl⟩
abbrev main_v484 : Ref sig .tc := ⟨.hbm, 821, rfl⟩
abbrev main_v485 : Ref sig .tc := ⟨.hbm, 822, rfl⟩
abbrev main_v486 : Ref sig .tc := ⟨.hbm, 823, rfl⟩
abbrev main_v487 : Ref sig .tc := ⟨.hbm, 824, rfl⟩
abbrev main_v488 : Ref sig .tc := ⟨.hbm, 825, rfl⟩
abbrev main_cst_75 : Ref sig .tc := ⟨.hbm, 826, rfl⟩
abbrev main_v489 : Ref sig .tc := ⟨.hbm, 827, rfl⟩
abbrev main_v490 : Ref sig .tc := ⟨.hbm, 828, rfl⟩
abbrev main_v491 : Ref sig .tc := ⟨.hbm, 829, rfl⟩
abbrev main_v492 : Ref sig .tc := ⟨.hbm, 830, rfl⟩
abbrev main_v493 : Ref sig .tc := ⟨.hbm, 831, rfl⟩
abbrev main_v494 : Ref sig .tc := ⟨.hbm, 832, rfl⟩
abbrev main_v495 : Ref sig .tc := ⟨.hbm, 833, rfl⟩
abbrev main_v496 : Ref sig .tc := ⟨.hbm, 834, rfl⟩
abbrev main_v497 : Ref sig .tc := ⟨.hbm, 835, rfl⟩
abbrev main_v498 : Ref sig .tc := ⟨.hbm, 836, rfl⟩
abbrev main_v499 : Ref sig .tc := ⟨.hbm, 837, rfl⟩
abbrev main_v500 : Ref sig .tc := ⟨.hbm, 838, rfl⟩
abbrev main_v501 : Ref sig .tc := ⟨.hbm, 839, rfl⟩
abbrev main_v502 : Ref sig .tc := ⟨.hbm, 840, rfl⟩
abbrev main_v503 : Ref sig .tc := ⟨.hbm, 841, rfl⟩
abbrev main_v504 : Ref sig .tc := ⟨.hbm, 842, rfl⟩
abbrev main_cst_76 : Ref sig .tc := ⟨.hbm, 843, rfl⟩
abbrev main_v505 : Ref sig .tc := ⟨.hbm, 844, rfl⟩
abbrev main_cst_77 : Ref sig .tc := ⟨.hbm, 845, rfl⟩
abbrev main_v506 : Ref sig .tc := ⟨.hbm, 846, rfl⟩
abbrev main_v507 : Ref sig .tc := ⟨.hbm, 847, rfl⟩
abbrev main_c_78 : Ref sig .tc := ⟨.hbm, 848, rfl⟩
abbrev main_call26_cst : Ref sig .tc := ⟨.hbm, 849, rfl⟩
abbrev main_call26_v0 : Ref sig .tc := ⟨.hbm, 850, rfl⟩
abbrev main_call26_v1 : Ref sig .tc := ⟨.hbm, 851, rfl⟩
abbrev main_call26_cst_0 : Ref sig .tc := ⟨.hbm, 852, rfl⟩
abbrev main_call26_v2 : Ref sig .tc := ⟨.hbm, 853, rfl⟩
abbrev main_call26_v3 : Ref sig .tc := ⟨.hbm, 854, rfl⟩
abbrev main_call26_v4 : Ref sig .tc := ⟨.hbm, 855, rfl⟩
abbrev main_call26_v5 : Ref sig .tc := ⟨.hbm, 856, rfl⟩
abbrev main_call26_v6 : Ref sig .tc := ⟨.hbm, 857, rfl⟩
abbrev main_call26_v7 : Ref sig .tc := ⟨.hbm, 858, rfl⟩
abbrev main_call26_cst_1 : Ref sig .tc := ⟨.hbm, 859, rfl⟩
abbrev main_call26_v8 : Ref sig .tc := ⟨.hbm, 860, rfl⟩
abbrev main_call26_cst_2 : Ref sig .tc := ⟨.hbm, 861, rfl⟩
abbrev main_call26_v9 : Ref sig .tc := ⟨.hbm, 862, rfl⟩
abbrev main_call26_v10 : Ref sig .tc := ⟨.hbm, 863, rfl⟩
abbrev main_call26_v11 : Ref sig .tc := ⟨.hbm, 864, rfl⟩
abbrev main_call26_cst_3 : Ref sig .tc := ⟨.hbm, 865, rfl⟩
abbrev main_call26_v12 : Ref sig .tc := ⟨.hbm, 866, rfl⟩
abbrev main_call26_cst_4 : Ref sig .tc := ⟨.hbm, 867, rfl⟩
abbrev main_call26_call0_v0 : Ref sig .tc := ⟨.hbm, 868, rfl⟩
abbrev main_call26_call0_v1 : Ref sig .tc := ⟨.hbm, 869, rfl⟩
abbrev main_v508 : Ref sig .tc := ⟨.hbm, 870, rfl⟩
abbrev main_v509 : Ref sig .tc := ⟨.hbm, 871, rfl⟩
abbrev main_v510 : Ref sig .tc := ⟨.hbm, 872, rfl⟩
abbrev main_v511 : Ref sig .tc := ⟨.hbm, 873, rfl⟩
abbrev main_cst_79 : Ref sig .tc := ⟨.hbm, 874, rfl⟩
abbrev main_v512 : Ref sig .tc := ⟨.hbm, 875, rfl⟩
abbrev main_v513 : Ref sig .tc := ⟨.hbm, 876, rfl⟩
abbrev main_v514 : Ref sig .tc := ⟨.hbm, 877, rfl⟩
abbrev main_v515 : Ref sig .tc := ⟨.hbm, 878, rfl⟩
abbrev main_v516 : Ref sig .tc := ⟨.hbm, 879, rfl⟩
abbrev main_v517 : Ref sig .tc := ⟨.hbm, 880, rfl⟩
abbrev main_v518 : Ref sig .tc := ⟨.hbm, 881, rfl⟩
abbrev main_v519 : Ref sig .tc := ⟨.hbm, 882, rfl⟩
abbrev main_v520 : Ref sig .tc := ⟨.hbm, 883, rfl⟩
abbrev main_v521 : Ref sig .tc := ⟨.hbm, 884, rfl⟩
abbrev main_v522 : Ref sig .tc := ⟨.hbm, 885, rfl⟩
abbrev main_v523 : Ref sig .tc := ⟨.hbm, 886, rfl⟩
abbrev main_call27_cst : Ref sig .tc := ⟨.hbm, 887, rfl⟩
abbrev main_call27_v0 : Ref sig .tc := ⟨.hbm, 888, rfl⟩
abbrev main_v524 : Ref sig .tc := ⟨.hbm, 889, rfl⟩
abbrev main_v525 : Ref sig .tc := ⟨.hbm, 890, rfl⟩
abbrev main_v526 : Ref sig .tc := ⟨.hbm, 891, rfl⟩
abbrev main_v527 : Ref sig .tc := ⟨.hbm, 892, rfl⟩
abbrev main_v528 : Ref sig .tc := ⟨.hbm, 893, rfl⟩
abbrev main_v529 : Ref sig .tc := ⟨.hbm, 894, rfl⟩
abbrev main_v530 : Ref sig .tc := ⟨.hbm, 895, rfl⟩
abbrev main_v531 : Ref sig .tc := ⟨.hbm, 896, rfl⟩
abbrev main_v532 : Ref sig .tc := ⟨.hbm, 897, rfl⟩
abbrev main_v533 : Ref sig .tc := ⟨.hbm, 898, rfl⟩
abbrev main_v534 : Ref sig .tc := ⟨.hbm, 899, rfl⟩
abbrev main_v535 : Ref sig .tc := ⟨.hbm, 900, rfl⟩
abbrev main_v536 : Ref sig .tc := ⟨.hbm, 901, rfl⟩
abbrev main_cst_80 : Ref sig .tc := ⟨.hbm, 902, rfl⟩
abbrev main_v537 : Ref sig .tc := ⟨.hbm, 903, rfl⟩
abbrev main_cst_81 : Ref sig .tc := ⟨.hbm, 904, rfl⟩
abbrev main_v538 : Ref sig .tc := ⟨.hbm, 905, rfl⟩
abbrev main_v539 : Ref sig .tc := ⟨.hbm, 906, rfl⟩
abbrev main_c_82 : Ref sig .tc := ⟨.hbm, 907, rfl⟩
abbrev main_call28_cst : Ref sig .tc := ⟨.hbm, 908, rfl⟩
abbrev main_call28_v0 : Ref sig .tc := ⟨.hbm, 909, rfl⟩
abbrev main_call28_v1 : Ref sig .tc := ⟨.hbm, 910, rfl⟩
abbrev main_call28_cst_0 : Ref sig .tc := ⟨.hbm, 911, rfl⟩
abbrev main_call28_v2 : Ref sig .tc := ⟨.hbm, 912, rfl⟩
abbrev main_call28_v3 : Ref sig .tc := ⟨.hbm, 913, rfl⟩
abbrev main_call28_v4 : Ref sig .tc := ⟨.hbm, 914, rfl⟩
abbrev main_call28_v5 : Ref sig .tc := ⟨.hbm, 915, rfl⟩
abbrev main_call28_v6 : Ref sig .tc := ⟨.hbm, 916, rfl⟩
abbrev main_call28_v7 : Ref sig .tc := ⟨.hbm, 917, rfl⟩
abbrev main_call28_cst_1 : Ref sig .tc := ⟨.hbm, 918, rfl⟩
abbrev main_call28_v8 : Ref sig .tc := ⟨.hbm, 919, rfl⟩
abbrev main_call28_cst_2 : Ref sig .tc := ⟨.hbm, 920, rfl⟩
abbrev main_call28_v9 : Ref sig .tc := ⟨.hbm, 921, rfl⟩
abbrev main_call28_v10 : Ref sig .tc := ⟨.hbm, 922, rfl⟩
abbrev main_call28_v11 : Ref sig .tc := ⟨.hbm, 923, rfl⟩
abbrev main_call28_cst_3 : Ref sig .tc := ⟨.hbm, 924, rfl⟩
abbrev main_call28_v12 : Ref sig .tc := ⟨.hbm, 925, rfl⟩
abbrev main_call28_cst_4 : Ref sig .tc := ⟨.hbm, 926, rfl⟩
abbrev main_call28_call0_v0 : Ref sig .tc := ⟨.hbm, 927, rfl⟩
abbrev main_call28_call0_v1 : Ref sig .tc := ⟨.hbm, 928, rfl⟩
abbrev main_v540 : Ref sig .tc := ⟨.hbm, 929, rfl⟩
abbrev main_v541 : Ref sig .tc := ⟨.hbm, 930, rfl⟩
abbrev main_v542 : Ref sig .tc := ⟨.hbm, 931, rfl⟩
abbrev main_v543 : Ref sig .tc := ⟨.hbm, 932, rfl⟩
abbrev main_cst_83 : Ref sig .tc := ⟨.hbm, 933, rfl⟩
abbrev main_v544 : Ref sig .tc := ⟨.hbm, 934, rfl⟩
abbrev main_v545 : Ref sig .tc := ⟨.hbm, 935, rfl⟩
abbrev main_v546 : Ref sig .tc := ⟨.hbm, 936, rfl⟩
abbrev main_v547 : Ref sig .tc := ⟨.hbm, 937, rfl⟩
abbrev main_v548 : Ref sig .tc := ⟨.hbm, 938, rfl⟩
abbrev main_v549 : Ref sig .tc := ⟨.hbm, 939, rfl⟩
abbrev main_v550 : Ref sig .tc := ⟨.hbm, 940, rfl⟩
abbrev main_v551 : Ref sig .tc := ⟨.hbm, 941, rfl⟩
abbrev main_v552 : Ref sig .tc := ⟨.hbm, 942, rfl⟩
abbrev main_v553 : Ref sig .tc := ⟨.hbm, 943, rfl⟩
abbrev main_v554 : Ref sig .tc := ⟨.hbm, 944, rfl⟩
abbrev main_v555 : Ref sig .tc := ⟨.hbm, 945, rfl⟩
abbrev main_call29_cst : Ref sig .tc := ⟨.hbm, 946, rfl⟩
abbrev main_call29_v0 : Ref sig .tc := ⟨.hbm, 947, rfl⟩
abbrev main_v556 : Ref sig .tc := ⟨.hbm, 948, rfl⟩
abbrev main_c_84 : Ref sig .tc := ⟨.hbm, 949, rfl⟩
abbrev main_v557 : Ref sig .tc := ⟨.hbm, 950, rfl⟩
abbrev main_v558 : Ref sig .tc := ⟨.hbm, 951, rfl⟩
abbrev main_c_85 : Ref sig .tc := ⟨.hbm, 952, rfl⟩
abbrev main_v559 : Ref sig .tc := ⟨.hbm, 953, rfl⟩
abbrev main_v560 : Ref sig .tc := ⟨.hbm, 954, rfl⟩
abbrev main_v561 : Ref sig .tc := ⟨.hbm, 955, rfl⟩
abbrev main_v562 : Ref sig .tc := ⟨.hbm, 956, rfl⟩
abbrev main_v563 : Ref sig .tc := ⟨.hbm, 957, rfl⟩
abbrev main_v564 : Ref sig .tc := ⟨.hbm, 958, rfl⟩
abbrev main_v565 : Ref sig .tc := ⟨.hbm, 959, rfl⟩
abbrev main_c_86 : Ref sig .tc := ⟨.hbm, 960, rfl⟩
abbrev main_v566 : Ref sig .tc := ⟨.hbm, 961, rfl⟩
abbrev main_v567 : Ref sig .tc := ⟨.hbm, 962, rfl⟩
abbrev main_c_87 : Ref sig .tc := ⟨.hbm, 963, rfl⟩
abbrev main_v568 : Ref sig .tc := ⟨.hbm, 964, rfl⟩
abbrev main_v569 : Ref sig .tc := ⟨.hbm, 965, rfl⟩
abbrev main_v570 : Ref sig .tc := ⟨.hbm, 966, rfl⟩
abbrev main_v571 : Ref sig .tc := ⟨.hbm, 967, rfl⟩
abbrev main_v572 : Ref sig .tc := ⟨.hbm, 968, rfl⟩
abbrev main_v573 : Ref sig .tc := ⟨.hbm, 969, rfl⟩
abbrev main_call30_cst : Ref sig .tc := ⟨.hbm, 970, rfl⟩
abbrev main_call30_v0 : Ref sig .tc := ⟨.hbm, 971, rfl⟩
abbrev main_v574 : Ref sig .tc := ⟨.hbm, 972, rfl⟩
abbrev main_cst_88 : Ref sig .tc := ⟨.hbm, 973, rfl⟩
abbrev main_v575 : Ref sig .tc := ⟨.hbm, 974, rfl⟩
abbrev main_v576 : Ref sig .tc := ⟨.hbm, 975, rfl⟩
abbrev main_v577 : Ref sig .tc := ⟨.hbm, 976, rfl⟩
abbrev main_v578 : Ref sig .tc := ⟨.hbm, 977, rfl⟩
abbrev main_v579 : Ref sig .tc := ⟨.hbm, 978, rfl⟩
abbrev main_cst_89 : Ref sig .tc := ⟨.hbm, 979, rfl⟩
abbrev main_v580 : Ref sig .tc := ⟨.hbm, 980, rfl⟩
abbrev main_v581 : Ref sig .tc := ⟨.hbm, 981, rfl⟩
abbrev main_v582 : Ref sig .tc := ⟨.hbm, 982, rfl⟩
abbrev main_v583 : Ref sig .tc := ⟨.hbm, 983, rfl⟩
abbrev main_v584 : Ref sig .tc := ⟨.hbm, 984, rfl⟩
abbrev main_v585 : Ref sig .tc := ⟨.hbm, 985, rfl⟩
abbrev main_v586 : Ref sig .tc := ⟨.hbm, 986, rfl⟩
abbrev main_v587 : Ref sig .tc := ⟨.hbm, 987, rfl⟩
abbrev main_v588 : Ref sig .tc := ⟨.hbm, 988, rfl⟩
abbrev main_v589 : Ref sig .tc := ⟨.hbm, 989, rfl⟩
abbrev main_v590 : Ref sig .tc := ⟨.hbm, 990, rfl⟩
abbrev main_v591 : Ref sig .tc := ⟨.hbm, 991, rfl⟩
abbrev main_v592 : Ref sig .tc := ⟨.hbm, 992, rfl⟩
abbrev main_v593 : Ref sig .tc := ⟨.hbm, 993, rfl⟩
abbrev main_v594 : Ref sig .tc := ⟨.hbm, 994, rfl⟩
abbrev main_v595 : Ref sig .tc := ⟨.hbm, 995, rfl⟩
abbrev main_cst_90 : Ref sig .tc := ⟨.hbm, 996, rfl⟩
abbrev main_v596 : Ref sig .tc := ⟨.hbm, 997, rfl⟩
abbrev main_cst_91 : Ref sig .tc := ⟨.hbm, 998, rfl⟩
abbrev main_v597 : Ref sig .tc := ⟨.hbm, 999, rfl⟩
abbrev main_v598 : Ref sig .tc := ⟨.hbm, 1000, rfl⟩
abbrev main_c_92 : Ref sig .tc := ⟨.hbm, 1001, rfl⟩
abbrev main_call31_cst : Ref sig .tc := ⟨.hbm, 1002, rfl⟩
abbrev main_call31_v0 : Ref sig .tc := ⟨.hbm, 1003, rfl⟩
abbrev main_call31_v1 : Ref sig .tc := ⟨.hbm, 1004, rfl⟩
abbrev main_call31_cst_0 : Ref sig .tc := ⟨.hbm, 1005, rfl⟩
abbrev main_call31_v2 : Ref sig .tc := ⟨.hbm, 1006, rfl⟩
abbrev main_call31_v3 : Ref sig .tc := ⟨.hbm, 1007, rfl⟩
abbrev main_call31_v4 : Ref sig .tc := ⟨.hbm, 1008, rfl⟩
abbrev main_call31_v5 : Ref sig .tc := ⟨.hbm, 1009, rfl⟩
abbrev main_call31_v6 : Ref sig .tc := ⟨.hbm, 1010, rfl⟩
abbrev main_call31_v7 : Ref sig .tc := ⟨.hbm, 1011, rfl⟩
abbrev main_call31_cst_1 : Ref sig .tc := ⟨.hbm, 1012, rfl⟩
abbrev main_call31_v8 : Ref sig .tc := ⟨.hbm, 1013, rfl⟩
abbrev main_call31_cst_2 : Ref sig .tc := ⟨.hbm, 1014, rfl⟩
abbrev main_call31_v9 : Ref sig .tc := ⟨.hbm, 1015, rfl⟩
abbrev main_call31_v10 : Ref sig .tc := ⟨.hbm, 1016, rfl⟩
abbrev main_call31_v11 : Ref sig .tc := ⟨.hbm, 1017, rfl⟩
abbrev main_call31_cst_3 : Ref sig .tc := ⟨.hbm, 1018, rfl⟩
abbrev main_call31_v12 : Ref sig .tc := ⟨.hbm, 1019, rfl⟩
abbrev main_call31_cst_4 : Ref sig .tc := ⟨.hbm, 1020, rfl⟩
abbrev main_call31_call0_v0 : Ref sig .tc := ⟨.hbm, 1021, rfl⟩
abbrev main_call31_call0_v1 : Ref sig .tc := ⟨.hbm, 1022, rfl⟩
abbrev main_v599 : Ref sig .tc := ⟨.hbm, 1023, rfl⟩
abbrev main_v600 : Ref sig .tc := ⟨.hbm, 1024, rfl⟩
abbrev main_v601 : Ref sig .tc := ⟨.hbm, 1025, rfl⟩
abbrev main_v602 : Ref sig .tc := ⟨.hbm, 1026, rfl⟩
abbrev main_cst_93 : Ref sig .tc := ⟨.hbm, 1027, rfl⟩
abbrev main_v603 : Ref sig .tc := ⟨.hbm, 1028, rfl⟩
abbrev main_v604 : Ref sig .tc := ⟨.hbm, 1029, rfl⟩
abbrev main_v605 : Ref sig .tc := ⟨.hbm, 1030, rfl⟩
abbrev main_v606 : Ref sig .tc := ⟨.hbm, 1031, rfl⟩
abbrev main_v607 : Ref sig .tc := ⟨.hbm, 1032, rfl⟩
abbrev main_v608 : Ref sig .tc := ⟨.hbm, 1033, rfl⟩
abbrev main_v609 : Ref sig .tc := ⟨.hbm, 1034, rfl⟩
abbrev main_v610 : Ref sig .tc := ⟨.hbm, 1035, rfl⟩
abbrev main_v611 : Ref sig .tc := ⟨.hbm, 1036, rfl⟩
abbrev main_v612 : Ref sig .tc := ⟨.hbm, 1037, rfl⟩
abbrev main_v613 : Ref sig .tc := ⟨.hbm, 1038, rfl⟩
abbrev main_v614 : Ref sig .tc := ⟨.hbm, 1039, rfl⟩
abbrev main_call32_cst : Ref sig .tc := ⟨.hbm, 1040, rfl⟩
abbrev main_call32_v0 : Ref sig .tc := ⟨.hbm, 1041, rfl⟩
abbrev main_v615 : Ref sig .tc := ⟨.hbm, 1042, rfl⟩
abbrev main_v616 : Ref sig .tc := ⟨.hbm, 1043, rfl⟩
abbrev main_v617 : Ref sig .tc := ⟨.hbm, 1044, rfl⟩
abbrev main_v618 : Ref sig .tc := ⟨.hbm, 1045, rfl⟩
abbrev main_v619 : Ref sig .tc := ⟨.hbm, 1046, rfl⟩
abbrev main_v620 : Ref sig .tc := ⟨.hbm, 1047, rfl⟩
abbrev main_v621 : Ref sig .tc := ⟨.hbm, 1048, rfl⟩
abbrev main_v622 : Ref sig .tc := ⟨.hbm, 1049, rfl⟩
abbrev main_v623 : Ref sig .tc := ⟨.hbm, 1050, rfl⟩
abbrev main_v624 : Ref sig .tc := ⟨.hbm, 1051, rfl⟩
abbrev main_v625 : Ref sig .tc := ⟨.hbm, 1052, rfl⟩
abbrev main_v626 : Ref sig .tc := ⟨.hbm, 1053, rfl⟩
abbrev main_v627 : Ref sig .tc := ⟨.hbm, 1054, rfl⟩
abbrev main_cst_94 : Ref sig .tc := ⟨.hbm, 1055, rfl⟩
abbrev main_v628 : Ref sig .tc := ⟨.hbm, 1056, rfl⟩
abbrev main_cst_95 : Ref sig .tc := ⟨.hbm, 1057, rfl⟩
abbrev main_v629 : Ref sig .tc := ⟨.hbm, 1058, rfl⟩
abbrev main_v630 : Ref sig .tc := ⟨.hbm, 1059, rfl⟩
abbrev main_c_96 : Ref sig .tc := ⟨.hbm, 1060, rfl⟩
abbrev main_call33_cst : Ref sig .tc := ⟨.hbm, 1061, rfl⟩
abbrev main_call33_v0 : Ref sig .tc := ⟨.hbm, 1062, rfl⟩
abbrev main_call33_v1 : Ref sig .tc := ⟨.hbm, 1063, rfl⟩
abbrev main_call33_cst_0 : Ref sig .tc := ⟨.hbm, 1064, rfl⟩
abbrev main_call33_v2 : Ref sig .tc := ⟨.hbm, 1065, rfl⟩
abbrev main_call33_v3 : Ref sig .tc := ⟨.hbm, 1066, rfl⟩
abbrev main_call33_v4 : Ref sig .tc := ⟨.hbm, 1067, rfl⟩
abbrev main_call33_v5 : Ref sig .tc := ⟨.hbm, 1068, rfl⟩
abbrev main_call33_v6 : Ref sig .tc := ⟨.hbm, 1069, rfl⟩
abbrev main_call33_v7 : Ref sig .tc := ⟨.hbm, 1070, rfl⟩
abbrev main_call33_cst_1 : Ref sig .tc := ⟨.hbm, 1071, rfl⟩
abbrev main_call33_v8 : Ref sig .tc := ⟨.hbm, 1072, rfl⟩
abbrev main_call33_cst_2 : Ref sig .tc := ⟨.hbm, 1073, rfl⟩
abbrev main_call33_v9 : Ref sig .tc := ⟨.hbm, 1074, rfl⟩
abbrev main_call33_v10 : Ref sig .tc := ⟨.hbm, 1075, rfl⟩
abbrev main_call33_v11 : Ref sig .tc := ⟨.hbm, 1076, rfl⟩
abbrev main_call33_cst_3 : Ref sig .tc := ⟨.hbm, 1077, rfl⟩
abbrev main_call33_v12 : Ref sig .tc := ⟨.hbm, 1078, rfl⟩
abbrev main_call33_cst_4 : Ref sig .tc := ⟨.hbm, 1079, rfl⟩
abbrev main_call33_call0_v0 : Ref sig .tc := ⟨.hbm, 1080, rfl⟩
abbrev main_call33_call0_v1 : Ref sig .tc := ⟨.hbm, 1081, rfl⟩
abbrev main_v631 : Ref sig .tc := ⟨.hbm, 1082, rfl⟩
abbrev main_v632 : Ref sig .tc := ⟨.hbm, 1083, rfl⟩
abbrev main_v633 : Ref sig .tc := ⟨.hbm, 1084, rfl⟩
abbrev main_v634 : Ref sig .tc := ⟨.hbm, 1085, rfl⟩
abbrev main_cst_97 : Ref sig .tc := ⟨.hbm, 1086, rfl⟩
abbrev main_v635 : Ref sig .tc := ⟨.hbm, 1087, rfl⟩
abbrev main_v636 : Ref sig .tc := ⟨.hbm, 1088, rfl⟩
abbrev main_v637 : Ref sig .tc := ⟨.hbm, 1089, rfl⟩
abbrev main_v638 : Ref sig .tc := ⟨.hbm, 1090, rfl⟩
abbrev main_v639 : Ref sig .tc := ⟨.hbm, 1091, rfl⟩
abbrev main_v640 : Ref sig .tc := ⟨.hbm, 1092, rfl⟩
abbrev main_v641 : Ref sig .tc := ⟨.hbm, 1093, rfl⟩
abbrev main_v642 : Ref sig .tc := ⟨.hbm, 1094, rfl⟩
abbrev main_v643 : Ref sig .tc := ⟨.hbm, 1095, rfl⟩
abbrev main_v644 : Ref sig .tc := ⟨.hbm, 1096, rfl⟩
abbrev main_v645 : Ref sig .tc := ⟨.hbm, 1097, rfl⟩
abbrev main_v646 : Ref sig .tc := ⟨.hbm, 1098, rfl⟩
abbrev main_cst_98 : Ref sig .tc := ⟨.hbm, 1099, rfl⟩
abbrev main_v647 : Ref sig .tc := ⟨.hbm, 1100, rfl⟩
abbrev main_v648 : Ref sig .tc := ⟨.hbm, 1101, rfl⟩
abbrev main_v649 : Ref sig .tc := ⟨.hbm, 1102, rfl⟩
abbrev main_cst_99 : Ref sig .tc := ⟨.hbm, 1103, rfl⟩
abbrev main_v650 : Ref sig .tc := ⟨.hbm, 1104, rfl⟩
abbrev main_cst_100 : Ref sig .tc := ⟨.hbm, 1105, rfl⟩
abbrev main_v651 : Ref sig .tc := ⟨.hbm, 1106, rfl⟩
abbrev main_v652 : Ref sig .tc := ⟨.hbm, 1107, rfl⟩
abbrev main_v653 : Ref sig .tc := ⟨.hbm, 1108, rfl⟩
abbrev main_cst_101 : Ref sig .tc := ⟨.hbm, 1109, rfl⟩
abbrev main_call34_v0 : Ref sig .tc := ⟨.hbm, 1110, rfl⟩
abbrev main_call34_v1 : Ref sig .tc := ⟨.hbm, 1111, rfl⟩
abbrev main_v654 : Ref sig .tc := ⟨.hbm, 1112, rfl⟩
abbrev main_v655 : Ref sig .tc := ⟨.hbm, 1113, rfl⟩
abbrev main_v656 : Ref sig .tc := ⟨.hbm, 1114, rfl⟩
abbrev main_cst_102 : Ref sig .tc := ⟨.hbm, 1115, rfl⟩
abbrev main_v657 : Ref sig .tc := ⟨.hbm, 1116, rfl⟩
abbrev main_v658 : Ref sig .tc := ⟨.hbm, 1117, rfl⟩
abbrev main_v659 : Ref sig .tc := ⟨.hbm, 1118, rfl⟩
abbrev main_cst_103 : Ref sig .tc := ⟨.hbm, 1119, rfl⟩
abbrev main_v660 : Ref sig .tc := ⟨.hbm, 1120, rfl⟩
abbrev main_cst_104 : Ref sig .tc := ⟨.hbm, 1121, rfl⟩
abbrev main_v661 : Ref sig .tc := ⟨.hbm, 1122, rfl⟩
abbrev main_v662 : Ref sig .tc := ⟨.hbm, 1123, rfl⟩
abbrev main_v663 : Ref sig .tc := ⟨.hbm, 1124, rfl⟩
abbrev main_cst_105 : Ref sig .tc := ⟨.hbm, 1125, rfl⟩
abbrev main_call35_v0 : Ref sig .tc := ⟨.hbm, 1126, rfl⟩
abbrev main_call35_v1 : Ref sig .tc := ⟨.hbm, 1127, rfl⟩
abbrev main_v664 : Ref sig .tc := ⟨.hbm, 1128, rfl⟩
abbrev main_v665 : Ref sig .tc := ⟨.hbm, 1129, rfl⟩
abbrev main_v666 : Ref sig .tc := ⟨.hbm, 1130, rfl⟩
abbrev main_v667 : Ref sig .tc := ⟨.hbm, 1131, rfl⟩
abbrev main_v668 : Ref sig .tc := ⟨.hbm, 1132, rfl⟩
abbrev main_v669 : Ref sig .tc := ⟨.hbm, 1133, rfl⟩
abbrev main_v670 : Ref sig .tc := ⟨.hbm, 1134, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S10000 : S_.BroadcastsInDim S10000 (![] : Fin 0 → Fin S10000.rank)
  bcast_S10000_S10000x1_0 : S10000.BroadcastsInDim S10000x1 (![0] : Fin 1 → Fin S10000x1.rank)
  bcast_S_S160000 : S_.BroadcastsInDim S160000 (![] : Fin 0 → Fin S160000.rank)
  bcast_S160000_S160000x1_0 : S160000.BroadcastsInDim S160000x1 (![0] : Fin 1 → Fin S160000x1.rank)
  slices_S7x5x300_S1x5x300_0_0_0 : S7x5x300.Slices ![0, 0, 0] S1x5x300
  shapeCasts_S1x5x300_S5x300 : S1x5x300.ShapeCasts S5x300
  bcast_S_S160000x300 : S_.BroadcastsInDim S160000x300 (![] : Fin 0 → Fin S160000x300.rank)
  bcast_S_S10000x300 : S_.BroadcastsInDim S10000x300 (![] : Fin 0 → Fin S10000x300.rank)
  slices_S7_S1_0 : S7.Slices ![0] S1
  shapeCasts_S1_S_ : S1.ShapeCasts S_
  slices_S7x300x600_S1x300x600_0_0_0 : S7x300x600.Slices ![0, 0, 0] S1x300x600
  shapeCasts_S1x300x600_S300x600 : S1x300x600.ShapeCasts S300x600
  slices_S7x600_S1x600_0_0 : S7x600.Slices ![0, 0] S1x600
  shapeCasts_S1x600_S600 : S1x600.ShapeCasts S600
  bcast_S600_S1x600_1 : S600.BroadcastsInDim S1x600 (![1] : Fin 1 → Fin S1x600.rank)
  bcast_S1x600_S10000x600_0_1 : S1x600.BroadcastsInDim S10000x600 (![0, 1] : Fin 2 → Fin S10000x600.rank)
  reducesTo_S10000x600_S600_d0 : S10000x600.ReducesTo [0] S600
  h_S_ : 0 < S_.numel
  bcast_S_S600 : S_.BroadcastsInDim S600 (![] : Fin 0 → Fin S600.rank)
  bcast_S_S1x600 : S_.BroadcastsInDim S1x600 (![] : Fin 0 → Fin S1x600.rank)
  bcast_S_S10000x600 : S_.BroadcastsInDim S10000x600 (![] : Fin 0 → Fin S10000x600.rank)
  slices_S7x600x300_S1x600x300_0_0_0 : S7x600x300.Slices ![0, 0, 0] S1x600x300
  shapeCasts_S1x600x300_S600x300 : S1x600x300.ShapeCasts S600x300
  slices_S7x300_S1x300_0_0 : S7x300.Slices ![0, 0] S1x300
  shapeCasts_S1x300_S300 : S1x300.ShapeCasts S300
  bcast_S300_S1x300_1 : S300.BroadcastsInDim S1x300 (![1] : Fin 1 → Fin S1x300.rank)
  bcast_S1x300_S10000x300_0_1 : S1x300.BroadcastsInDim S10000x300 (![0, 1] : Fin 2 → Fin S10000x300.rank)
  reducesTo_S10000x300_S300_d0 : S10000x300.ReducesTo [0] S300
  bcast_S_S300 : S_.BroadcastsInDim S300 (![] : Fin 0 → Fin S300.rank)
  bcast_S_S1x300 : S_.BroadcastsInDim S1x300 (![] : Fin 0 → Fin S1x300.rank)
  slices_S7x5x300_S1x5x300_1_0_0 : S7x5x300.Slices ![1, 0, 0] S1x5x300
  slices_S7_S1_1 : S7.Slices ![1] S1
  slices_S7x300x600_S1x300x600_1_0_0 : S7x300x600.Slices ![1, 0, 0] S1x300x600
  slices_S7x600_S1x600_1_0 : S7x600.Slices ![1, 0] S1x600
  slices_S7x600x300_S1x600x300_1_0_0 : S7x600x300.Slices ![1, 0, 0] S1x600x300
  slices_S7x300_S1x300_1_0 : S7x300.Slices ![1, 0] S1x300
  slices_S7x5x300_S1x5x300_2_0_0 : S7x5x300.Slices ![2, 0, 0] S1x5x300
  slices_S7_S1_2 : S7.Slices ![2] S1
  slices_S7x300x600_S1x300x600_2_0_0 : S7x300x600.Slices ![2, 0, 0] S1x300x600
  slices_S7x600_S1x600_2_0 : S7x600.Slices ![2, 0] S1x600
  slices_S7x600x300_S1x600x300_2_0_0 : S7x600x300.Slices ![2, 0, 0] S1x600x300
  slices_S7x300_S1x300_2_0 : S7x300.Slices ![2, 0] S1x300
  slices_S7x5x300_S1x5x300_3_0_0 : S7x5x300.Slices ![3, 0, 0] S1x5x300
  slices_S7_S1_3 : S7.Slices ![3] S1
  slices_S7x300x600_S1x300x600_3_0_0 : S7x300x600.Slices ![3, 0, 0] S1x300x600
  slices_S7x600_S1x600_3_0 : S7x600.Slices ![3, 0] S1x600
  slices_S7x600x300_S1x600x300_3_0_0 : S7x600x300.Slices ![3, 0, 0] S1x600x300
  slices_S7x300_S1x300_3_0 : S7x300.Slices ![3, 0] S1x300
  slices_S7x5x300_S1x5x300_4_0_0 : S7x5x300.Slices ![4, 0, 0] S1x5x300
  slices_S7_S1_4 : S7.Slices ![4] S1
  slices_S7x300x600_S1x300x600_4_0_0 : S7x300x600.Slices ![4, 0, 0] S1x300x600
  slices_S7x600_S1x600_4_0 : S7x600.Slices ![4, 0] S1x600
  slices_S7x600x300_S1x600x300_4_0_0 : S7x600x300.Slices ![4, 0, 0] S1x600x300
  slices_S7x300_S1x300_4_0 : S7x300.Slices ![4, 0] S1x300
  slices_S7x5x300_S1x5x300_5_0_0 : S7x5x300.Slices ![5, 0, 0] S1x5x300
  slices_S7_S1_5 : S7.Slices ![5] S1
  slices_S7x300x600_S1x300x600_5_0_0 : S7x300x600.Slices ![5, 0, 0] S1x300x600
  slices_S7x600_S1x600_5_0 : S7x600.Slices ![5, 0] S1x600
  slices_S7x600x300_S1x600x300_5_0_0 : S7x600x300.Slices ![5, 0, 0] S1x600x300
  slices_S7x300_S1x300_5_0 : S7x300.Slices ![5, 0] S1x300
  slices_S7x5x300_S1x5x300_6_0_0 : S7x5x300.Slices ![6, 0, 0] S1x5x300
  slices_S7_S1_6 : S7.Slices ![6] S1
  slices_S7x300x600_S1x300x600_6_0_0 : S7x300x600.Slices ![6, 0, 0] S1x300x600
  slices_S7x600_S1x600_6_0 : S7x600.Slices ![6, 0] S1x600
  slices_S7x600x300_S1x600x300_6_0_0 : S7x600x300.Slices ![6, 0, 0] S1x600x300
  slices_S7x300_S1x300_6_0 : S7x300.Slices ![6, 0] S1x300
  bcast_S_S2000x300 : S_.BroadcastsInDim S2000x300 (![] : Fin 0 → Fin S2000x300.rank)
  bcast_S_S10000x1 : S_.BroadcastsInDim S10000x1 (![] : Fin 0 → Fin S10000x1.rank)
  bcast_S_S2000x1 : S_.BroadcastsInDim S2000x1 (![] : Fin 0 → Fin S2000x1.rank)
  bcast_S2000x1_S2000x300_0_1 : S2000x1.BroadcastsInDim S2000x300 (![0, 1] : Fin 2 → Fin S2000x300.rank)
  bcast_S_S64x300 : S_.BroadcastsInDim S64x300 (![] : Fin 0 → Fin S64x300.rank)
  bcast_S2000_S2000x1_0 : S2000.BroadcastsInDim S2000x1 (![0] : Fin 1 → Fin S2000x1.rank)
  bcast_S_S64x1 : S_.BroadcastsInDim S64x1 (![] : Fin 0 → Fin S64x1.rank)
  bcast_S64x1_S64x300_0_1 : S64x1.BroadcastsInDim S64x300 (![0, 1] : Fin 2 → Fin S64x300.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  gather_S100x300_S10000x1_S10000x300_1_0_n_n_0_1_1300_wf : GatherDims.WF S100x300 S10000x1 S10000x300 [1] [0] [] [0] [] 1 ![1, 300]
  gather_S10000x300_S160000x1_S160000x300_1_0_n_n_0_1_1300_wf : GatherDims.WF S10000x300 S160000x1 S160000x300 [1] [0] [] [0] [] 1 ![1, 300]
  gather_S5x300_S160000x1_S160000x300_1_0_n_n_0_1_1300_wf : GatherDims.WF S5x300 S160000x1 S160000x300 [1] [0] [] [0] [] 1 ![1, 300]
  scatter_S10000x300_S160000x1_S160000x300_1_0_0_1_wf : ScatterDims.WF S10000x300 S160000x1 S160000x300 [1] [0] [0] 1
  dot_S10000x300_S300x600_S10000x600_1_0_0_1_n_n_wf : DotDims.WF S10000x300 S300x600 S10000x600 [1] [0] [0] [1] [] []
  dot_S10000x600_S600x300_S10000x300_1_0_0_1_n_n_wf : DotDims.WF S10000x600 S600x300 S10000x300 [1] [0] [0] [1] [] []
  scatter_S2000x300_S10000x1_S10000x300_1_0_0_1_wf : ScatterDims.WF S2000x300 S10000x1 S10000x300 [1] [0] [0] 1
  scatter_S2000x1_S10000x1_S10000x1_1_0_0_1_wf : ScatterDims.WF S2000x1 S10000x1 S10000x1 [1] [0] [0] 1
  scatter_S64x300_S2000x1_S2000x300_1_0_0_1_wf : ScatterDims.WF S64x300 S2000x1 S2000x300 [1] [0] [0] 1
  scatter_S64x1_S2000x1_S2000x1_1_0_0_1_wf : ScatterDims.WF S64x1 S2000x1 S2000x1 [1] [0] [0] 1
  dot_S64x300_S300x10_S64x10_1_0_0_1_n_n_wf : DotDims.WF S64x300 S300x10 S64x10 [1] [0] [0] [1] [] []

variable [Facts₀]

def gather_S100x300_S10000x1_S10000x300_1_0_n_n_0_1_1300 : GatherDims S100x300 S10000x1 S10000x300 where
  offsetDims := [1]
  collapsedSliceDims := [0]
  operandBatchingDims := []
  startIndicesBatchingDims := []
  startIndexMap := [0]
  indexVectorDim := 1
  sliceSizes := ![1, 300]
  wf := gather_S100x300_S10000x1_S10000x300_1_0_n_n_0_1_1300_wf
def gather_S10000x300_S160000x1_S160000x300_1_0_n_n_0_1_1300 : GatherDims S10000x300 S160000x1 S160000x300 where
  offsetDims := [1]
  collapsedSliceDims := [0]
  operandBatchingDims := []
  startIndicesBatchingDims := []
  startIndexMap := [0]
  indexVectorDim := 1
  sliceSizes := ![1, 300]
  wf := gather_S10000x300_S160000x1_S160000x300_1_0_n_n_0_1_1300_wf
def gather_S5x300_S160000x1_S160000x300_1_0_n_n_0_1_1300 : GatherDims S5x300 S160000x1 S160000x300 where
  offsetDims := [1]
  collapsedSliceDims := [0]
  operandBatchingDims := []
  startIndicesBatchingDims := []
  startIndexMap := [0]
  indexVectorDim := 1
  sliceSizes := ![1, 300]
  wf := gather_S5x300_S160000x1_S160000x300_1_0_n_n_0_1_1300_wf
def scatter_S10000x300_S160000x1_S160000x300_1_0_0_1 : ScatterDims S10000x300 S160000x1 S160000x300 where
  updateWindowDims := [1]
  insertedWindowDims := [0]
  scatterDimsToOperandDims := [0]
  indexVectorDim := 1
  wf := scatter_S10000x300_S160000x1_S160000x300_1_0_0_1_wf
def dot_S10000x300_S300x600_S10000x600_1_0_0_1_n_n : DotDims S10000x300 S300x600 S10000x600 where
  lhsContracting := [1]
  rhsContracting := [0]
  lhsNonContracting := [0]
  rhsNonContracting := [1]
  lhsBatch := []
  rhsBatch := []
  wf := dot_S10000x300_S300x600_S10000x600_1_0_0_1_n_n_wf
def dot_S10000x600_S600x300_S10000x300_1_0_0_1_n_n : DotDims S10000x600 S600x300 S10000x300 where
  lhsContracting := [1]
  rhsContracting := [0]
  lhsNonContracting := [0]
  rhsNonContracting := [1]
  lhsBatch := []
  rhsBatch := []
  wf := dot_S10000x600_S600x300_S10000x300_1_0_0_1_n_n_wf
def scatter_S2000x300_S10000x1_S10000x300_1_0_0_1 : ScatterDims S2000x300 S10000x1 S10000x300 where
  updateWindowDims := [1]
  insertedWindowDims := [0]
  scatterDimsToOperandDims := [0]
  indexVectorDim := 1
  wf := scatter_S2000x300_S10000x1_S10000x300_1_0_0_1_wf
def scatter_S2000x1_S10000x1_S10000x1_1_0_0_1 : ScatterDims S2000x1 S10000x1 S10000x1 where
  updateWindowDims := [1]
  insertedWindowDims := [0]
  scatterDimsToOperandDims := [0]
  indexVectorDim := 1
  wf := scatter_S2000x1_S10000x1_S10000x1_1_0_0_1_wf
def scatter_S64x300_S2000x1_S2000x300_1_0_0_1 : ScatterDims S64x300 S2000x1 S2000x300 where
  updateWindowDims := [1]
  insertedWindowDims := [0]
  scatterDimsToOperandDims := [0]
  indexVectorDim := 1
  wf := scatter_S64x300_S2000x1_S2000x300_1_0_0_1_wf
def scatter_S64x1_S2000x1_S2000x1_1_0_0_1 : ScatterDims S64x1 S2000x1 S2000x1 where
  updateWindowDims := [1]
  insertedWindowDims := [0]
  scatterDimsToOperandDims := [0]
  indexVectorDim := 1
  wf := scatter_S64x1_S2000x1_S2000x1_1_0_0_1_wf
def dot_S64x300_S300x10_S64x10_1_0_0_1_n_n : DotDims S64x300 S300x10 S64x10 where
  lhsContracting := [1]
  rhsContracting := [0]
  lhsNonContracting := [0]
  rhsNonContracting := [1]
  lhsBatch := []
  rhsBatch := []
  wf := dot_S64x300_S300x10_S64x10_1_0_0_1_n_n_wf

class Facts : Prop extends Facts₀ where

variable [Facts]
-- ==== Proof.LibHostSim.lean ====
/-
  Two straight lines of host operations over two different buffer signatures, compared slot by slot.

  Both lines are read as writing the HBM buffers in the order of their indices: the operation at position
  `k` of the comparison writes the HBM buffer of index `k` on either side and reads only buffers of smaller
  index, through the same function. If the two memories agree on every HBM buffer of index below `k`
  before such a pair of operations, they agree on every HBM buffer of index below `k + 1` after it; so
  after two lines paired in this way, memories that agreed on the first `k` buffers agree on the first
  `k + length` buffers. Agreement is heterogeneous equality, because a buffer's contents type is read off
  its own signature; for two buffers whose types are the same it is equality.
-/
import Idealize.ShloMosaic.Lib.StableHlo.Run

namespace Idealize.ShloMosaic.StableHlo.HostSim

open Idealize.ShloMosaic Idealize.ShloMosaic.TcCoe

variable {τ₁ τ₂ : Topo} {σ₁ σ₂ : RefSig} {Val : EltTy → Type}

/-- The two references are the HBM buffers of index `i` of their signatures. -/
def Same (x₁ : Ref σ₁ .tc) (x₂ : Ref σ₂ .tc) (i : Nat) : Prop :=
  x₁.space = .hbm ∧ x₂.space = .hbm ∧ x₁.idx.val = i ∧ x₂.idx.val = i

/-- The two memories hold the same contents in every HBM buffer of index below `k`. -/
def Agree (k : Nat) (V₁ : Valuation τ₁ σ₁ Val) (V₂ : Valuation τ₂ σ₂ Val) : Prop :=
  ∀ (x₁ : Ref σ₁ .tc) (x₂ : Ref σ₂ .tc) (i : Nat), Same x₁ x₂ i → i < k →
    HEq (V₁ (Proc.devRef .tc x₁)) (V₂ (Proc.devRef .tc x₂))

/-- A reference is determined by its space and its index there. -/
theorem ref_eq {σ : RefSig} {r y : Ref σ .tc} (hr : r.space = .hbm) (hy : y.space = .hbm)
    (h : r.idx.val = y.idx.val) : r = y := by
  obtain ⟨s, i, n⟩ := r
  obtain ⟨s', i', n'⟩ := y
  simp only at hr hy h
  subst hr; subst hy
  obtain rfl : i = i' := Fin.ext h
  rfl

theorem Same.ne_left {x₁ y₁ : Ref σ₁ .tc} {x₂ y₂ : Ref σ₂ .tc} {i k : Nat} (sx : Same x₁ x₂ i) (sy : Same y₁ y₂ k)
    (h : i < k) : x₁ ≠ y₁ := fun e => by
  subst e; exact absurd (sx.2.2.1.symm.trans sy.2.2.1) (Nat.ne_of_lt h)

theorem Same.ne_right {x₁ y₁ : Ref σ₁ .tc} {x₂ y₂ : Ref σ₂ .tc} {i k : Nat} (sx : Same x₁ x₂ i) (sy : Same y₁ y₂ k)
    (h : i < k) : x₂ ≠ y₂ := fun e => by
  subst e; exact absurd (sx.2.2.2.symm.trans sy.2.2.2) (Nat.ne_of_lt h)

theorem Same.eq_left {x₁ y₁ : Ref σ₁ .tc} {x₂ y₂ : Ref σ₂ .tc} {k : Nat} (sx : Same x₁ x₂ k) (sy : Same y₁ y₂ k) :
    x₁ = y₁ := ref_eq sx.1 sy.1 (sx.2.2.1.trans sy.2.2.1.symm)

theorem Same.eq_right {x₁ y₁ : Ref σ₁ .tc} {x₂ y₂ : Ref σ₂ .tc} {k : Nat} (sx : Same x₁ x₂ k) (sy : Same y₁ y₂ k) :
    x₂ = y₂ := ref_eq sx.2.1 sy.2.1 (sx.2.2.2.trans sy.2.2.2.symm)

/-! ### Heterogeneous congruence of an application -/

theorem heq_app1 {A A' B B' : Type} (hA : A = A') (hB : B = B') {f : A → B} {f' : A' → B'} (hf : HEq f f')
    {a : A} {a' : A'} (ha : HEq a a') : HEq (f a) (f' a') := by
  subst hA; subst hB; cases hf; cases ha; rfl

theorem heq_app2 {A A' B B' C C' : Type} (hA : A = A') (hB : B = B') (hC : C = C') {f : A → B → C} {f' : A' → B' → C'}
    (hf : HEq f f') {a : A} {a' : A'} (ha : HEq a a') {b : B} {b' : B'} (hb : HEq b b') : HEq (f a b) (f' a' b') := by
  subst hA; subst hB; subst hC; cases hf; cases ha; cases hb; rfl

theorem heq_app3 {A A' B B' C C' D D' : Type} (hA : A = A') (hB : B = B') (hC : C = C') (hD : D = D')
    {f : A → B → C → D} {f' : A' → B' → C' → D'} (hf : HEq f f') {a : A} {a' : A'} (ha : HEq a a') {b : B} {b' : B'}
    (hb : HEq b b') {c : C} {c' : C'} (hc : HEq c c') : HEq (f a b c) (f' a' b' c') := by
  subst hA; subst hB; subst hC; subst hD; cases hf; cases ha; cases hb; cases hc; rfl

theorem heq_reshape {A A' B B' : BufTy} (hA : A = A') (hB : B = B') (he : A.elt = B.elt) (he' : A'.elt = B'.elt)
    (hn : A.shape.ShapeCasts B.shape) (hn' : A'.shape.ShapeCasts B'.shape) {a : A.Contents Val} {a' : A'.Contents Val}
    (ha : HEq a a') :
    HEq (fun i => he ▸ shapeCast B.shape a hn i : B.Contents Val) (fun i => he' ▸ shapeCast B'.shape a' hn' i : B'.Contents Val) := by
  subst hA; subst hB; cases ha; rfl

/-! ### One pair of operations -/

section Step

variable {k : Nat} {V₁ : Valuation τ₁ σ₁ Val} {V₂ : Valuation τ₂ σ₂ Val}

/-- The common part of every case: off the written buffer nothing changes, at it the two new contents agree. -/
theorem agree_step {op₁ : HloOp τ₁ σ₁ Val} {op₂ : HloOp τ₂ σ₂ Val} {y₁ : Ref σ₁ .tc} {y₂ : Ref σ₂ .tc} (sy : Same y₁ y₂ k)
    (ne₁ : ∀ r : Ref σ₁ .tc, r ≠ y₁ → op₁.result V₁ (Proc.devRef .tc r) = V₁ (Proc.devRef .tc r))
    (ne₂ : ∀ r : Ref σ₂ .tc, r ≠ y₂ → op₂.result V₂ (Proc.devRef .tc r) = V₂ (Proc.devRef .tc r))
    (at_y : HEq (op₁.result V₁ (Proc.devRef .tc y₁)) (op₂.result V₂ (Proc.devRef .tc y₂)))
    (h : Agree k V₁ V₂) : Agree (k + 1) (op₁.result V₁) (op₂.result V₂) := by
  intro r₁ r₂ j sr hj
  rcases Nat.lt_succ_iff_lt_or_eq.mp hj with hlt | rfl
  · rw [ne₁ r₁ (sr.ne_left sy hlt), ne₂ r₂ (sr.ne_right sy hlt)]
    exact h r₁ r₂ j sr hlt
  · obtain rfl := sr.eq_left sy
    obtain rfl := sr.eq_right sy
    exact at_y

theorem agree_nullary {y₁ : Ref σ₁ .tc} {y₂ : Ref σ₂ .tc} {v₁ : y₁.ty.Contents Val} {v₂ : y₂.ty.Contents Val} {hy₁ hy₂}
    (sy : Same y₁ y₂ k) (hv : HEq v₁ v₂) (h : Agree k V₁ V₂) :
    Agree (k + 1) ((nullary y₁ v₁ hy₁ : HloOp τ₁ σ₁ Val).result V₁) ((nullary y₂ v₂ hy₂ : HloOp τ₂ σ₂ Val).result V₂) :=
  agree_step sy (fun _ hr => nullary_result_ne (y := y₁) v₁ hy₁ V₁ hr) (fun _ hr => nullary_result_ne (y := y₂) v₂ hy₂ V₂ hr)
    (by rw [nullary_result, nullary_result]; exact hv) h

theorem agree_unary {x₁ y₁ : Ref σ₁ .tc} {x₂ y₂ : Ref σ₂ .tc} {i : Nat}
    {f₁ : x₁.ty.Contents Val → y₁.ty.Contents Val} {f₂ : x₂.ty.Contents Val → y₂.ty.Contents Val} {hx₁ hy₁ hx₂ hy₂}
    (sx : Same x₁ x₂ i) (hi : i < k) (sy : Same y₁ y₂ k) (tx : x₁.ty = x₂.ty) (ty : y₁.ty = y₂.ty) (hf : HEq f₁ f₂)
    (h : Agree k V₁ V₂) :
    Agree (k + 1) ((unary x₁ y₁ f₁ hx₁ hy₁ : HloOp τ₁ σ₁ Val).result V₁) ((unary x₂ y₂ f₂ hx₂ hy₂ : HloOp τ₂ σ₂ Val).result V₂) :=
  agree_step sy (fun _ hr => unary_result_ne (x := x₁) (y := y₁) f₁ hx₁ hy₁ V₁ hr) (fun _ hr => unary_result_ne (x := x₂) (y := y₂) f₂ hx₂ hy₂ V₂ hr)
    (by rw [unary_result, unary_result]
        exact heq_app1 (congrArg (fun T : BufTy => T.Contents Val) tx) (congrArg (fun T : BufTy => T.Contents Val) ty) hf
          (h x₁ x₂ i sx hi)) h

theorem agree_binary {a₁ b₁ y₁ : Ref σ₁ .tc} {a₂ b₂ y₂ : Ref σ₂ .tc} {i j : Nat}
    {f₁ : a₁.ty.Contents Val → b₁.ty.Contents Val → y₁.ty.Contents Val}
    {f₂ : a₂.ty.Contents Val → b₂.ty.Contents Val → y₂.ty.Contents Val} {ha₁ hb₁ hy₁ ha₂ hb₂ hy₂}
    (sa : Same a₁ a₂ i) (hi : i < k) (sb : Same b₁ b₂ j) (hj : j < k) (sy : Same y₁ y₂ k)
    (ta : a₁.ty = a₂.ty) (tb : b₁.ty = b₂.ty) (ty : y₁.ty = y₂.ty) (hf : HEq f₁ f₂) (h : Agree k V₁ V₂) :
    Agree (k + 1) ((binary a₁ b₁ y₁ f₁ ha₁ hb₁ hy₁ : HloOp τ₁ σ₁ Val).result V₁)
      ((binary a₂ b₂ y₂ f₂ ha₂ hb₂ hy₂ : HloOp τ₂ σ₂ Val).result V₂) :=
  agree_step sy (fun _ hr => binary_result_ne (a := a₁) (b := b₁) (y := y₁) f₁ ha₁ hb₁ hy₁ V₁ hr) (fun _ hr => binary_result_ne (a := a₂) (b := b₂) (y := y₂) f₂ ha₂ hb₂ hy₂ V₂ hr)
    (by rw [binary_result, binary_result]
        exact heq_app2 (congrArg (fun T : BufTy => T.Contents Val) ta) (congrArg (fun T : BufTy => T.Contents Val) tb)
          (congrArg (fun T : BufTy => T.Contents Val) ty) hf (h a₁ a₂ i sa hi) (h b₁ b₂ j sb hj)) h

theorem agree_ternary {c₁ a₁ b₁ y₁ : Ref σ₁ .tc} {c₂ a₂ b₂ y₂ : Ref σ₂ .tc} {l i j : Nat}
    {f₁ : c₁.ty.Contents Val → a₁.ty.Contents Val → b₁.ty.Contents Val → y₁.ty.Contents Val}
    {f₂ : c₂.ty.Contents Val → a₂.ty.Contents Val → b₂.ty.Contents Val → y₂.ty.Contents Val}
    {hc₁ ha₁ hb₁ hy₁ hc₂ ha₂ hb₂ hy₂}
    (sc : Same c₁ c₂ l) (hl : l < k) (sa : Same a₁ a₂ i) (hi : i < k) (sb : Same b₁ b₂ j) (hj : j < k) (sy : Same y₁ y₂ k)
    (tc : c₁.ty = c₂.ty) (ta : a₁.ty = a₂.ty) (tb : b₁.ty = b₂.ty) (ty : y₁.ty = y₂.ty) (hf : HEq f₁ f₂)
    (h : Agree k V₁ V₂) :
    Agree (k + 1) ((ternary c₁ a₁ b₁ y₁ f₁ hc₁ ha₁ hb₁ hy₁ : HloOp τ₁ σ₁ Val).result V₁)
      ((ternary c₂ a₂ b₂ y₂ f₂ hc₂ ha₂ hb₂ hy₂ : HloOp τ₂ σ₂ Val).result V₂) :=
  agree_step sy (fun _ hr => ternary_result_ne (c := c₁) (a := a₁) (b := b₁) (y := y₁) f₁ hc₁ ha₁ hb₁ hy₁ V₁ hr)
    (fun _ hr => ternary_result_ne (c := c₂) (a := a₂) (b := b₂) (y := y₂) f₂ hc₂ ha₂ hb₂ hy₂ V₂ hr)
    (by rw [ternary_result, ternary_result]
        exact heq_app3 (congrArg (fun T : BufTy => T.Contents Val) tc) (congrArg (fun T : BufTy => T.Contents Val) ta)
          (congrArg (fun T : BufTy => T.Contents Val) tb) (congrArg (fun T : BufTy => T.Contents Val) ty) hf
          (h c₁ c₂ l sc hl) (h a₁ a₂ i sa hi) (h b₁ b₂ j sb hj)) h

theorem agree_reshape {x₁ y₁ : Ref σ₁ .tc} {x₂ y₂ : Ref σ₂ .tc} {i : Nat} {he₁ hn₁ hx₁ hy₁ he₂ hn₂ hx₂ hy₂}
    (sx : Same x₁ x₂ i) (hi : i < k) (sy : Same y₁ y₂ k) (tx : x₁.ty = x₂.ty) (ty : y₁.ty = y₂.ty) (h : Agree k V₁ V₂) :
    Agree (k + 1) ((reshape x₁ y₁ he₁ hn₁ hx₁ hy₁ : HloOp τ₁ σ₁ Val).result V₁)
      ((reshape x₂ y₂ he₂ hn₂ hx₂ hy₂ : HloOp τ₂ σ₂ Val).result V₂) :=
  agree_step sy (fun _ hr => reshape_result_ne (x := x₁) (y := y₁) he₁ hn₁ hx₁ hy₁ V₁ hr) (fun _ hr => reshape_result_ne (x := x₂) (y := y₂) he₂ hn₂ hx₂ hy₂ V₂ hr)
    (by rw [reshape_result, reshape_result]
        exact heq_reshape tx ty he₁ he₂ hn₁ hn₂ (h x₁ x₂ i sx hi)) h

end Step

/-! ### Two lines -/

/-- The two lines are paired operation by operation, the pair at position `k` keeping the agreement below
    `k` and extending it to `k`. -/
inductive Sim : Nat → List (HloOp τ₁ σ₁ Val) → List (HloOp τ₂ σ₂ Val) → Prop
  | nil (k : Nat) : Sim k [] []
  | cons {k : Nat} {o₁ : HloOp τ₁ σ₁ Val} {o₂ : HloOp τ₂ σ₂ Val} {l₁ : List (HloOp τ₁ σ₁ Val)} {l₂ : List (HloOp τ₂ σ₂ Val)} :
      (∀ (V₁ : Valuation τ₁ σ₁ Val) (V₂ : Valuation τ₂ σ₂ Val), Agree k V₁ V₂ → Agree (k + 1) (o₁.result V₁) (o₂.result V₂)) →
      Sim (k + 1) l₁ l₂ → Sim k (o₁ :: l₁) (o₂ :: l₂)

theorem Sim.after {k : Nat} {l₁ : List (HloOp τ₁ σ₁ Val)} {l₂ : List (HloOp τ₂ σ₂ Val)} (s : Sim k l₁ l₂) :
    ∀ (V₁ : Valuation τ₁ σ₁ Val) (V₂ : Valuation τ₂ σ₂ Val), Agree k V₁ V₂ →
      Agree (k + l₁.length) (StableHlo.after l₁ V₁) (StableHlo.after l₂ V₂) := by
  induction s with
  | nil k => intro V₁ V₂ h; simpa using h
  | cons hstep _ ih =>
    intro V₁ V₂ h
    have := ih _ _ (hstep V₁ V₂ h)
    rw [List.length_cons, after_cons, after_cons]
    rwa [Nat.add_assoc, Nat.add_comm 1] at this

theorem Sim.append {k k' : Nat} {a₁ b₁ : List (HloOp τ₁ σ₁ Val)} {a₂ b₂ : List (HloOp τ₂ σ₂ Val)} (sa : Sim k a₁ a₂)
    (hk : k' = k + a₁.length) (sb : Sim k' b₁ b₂) : Sim k (a₁ ++ b₁) (a₂ ++ b₂) := by
  subst hk
  induction sa with
  | nil k => simpa using sb
  | cons hstep _ ih =>
    rw [List.cons_append, List.cons_append]
    refine Sim.cons hstep (ih ?_)
    rwa [List.length_cons, ← Nat.add_assoc, Nat.add_right_comm] at sb

/-! ### One line: which buffers it writes -/

section Writes

variable {τ : Topo} {σ : RefSig}

/-- The operation at position `k` of the line writes the HBM buffer of index `k`, and nothing else. -/
inductive WritesFrom : Nat → List (HloOp τ σ Val) → Prop
  | nil (k : Nat) : WritesFrom k []
  | cons {k : Nat} {o : HloOp τ σ Val} {l : List (HloOp τ σ Val)} :
      (∃ y : Ref σ .tc, o.writes = {Proc.devRef .tc y} ∧ y.space = .hbm ∧ y.idx.val = k) → WritesFrom (k + 1) l →
      WritesFrom k (o :: l)

theorem WritesFrom.append {k k' : Nat} {a b : List (HloOp τ σ Val)} (wa : WritesFrom k a) (hk : k' = k + a.length)
    (wb : WritesFrom k' b) : WritesFrom k (a ++ b) := by
  subst hk
  induction wa with
  | nil k => simpa using wb
  | cons hw _ ih =>
    rw [List.cons_append]
    refine WritesFrom.cons hw (ih ?_)
    rwa [List.length_cons, ← Nat.add_assoc, Nat.add_right_comm] at wb

/-- An HBM buffer of index below the line's first position is not written: it keeps its contents. -/
theorem WritesFrom.keeps {k : Nat} {ops : List (HloOp τ σ Val)} (w : WritesFrom k ops) :
    ∀ (V : Valuation τ σ Val) (r : Ref σ .tc), r.space = .hbm → r.idx.val < k →
      StableHlo.after ops V (Proc.devRef .tc r) = V (Proc.devRef .tc r) := by
  induction w with
  | nil k => intro V r _ _; rfl
  | @cons k o l hw _ ih =>
    intro V r hr hlt
    obtain ⟨y, hy, _, hi⟩ := hw
    rw [after_cons, ih _ r hr (Nat.lt_succ_of_lt hlt)]
    refine o.result_of_not_mem V ?_
    rw [hy, Finset.mem_singleton]
    intro e
    have := Proc.devRef_injective _ e
    subst this
    omega

end Writes

/-- The operations of two lines run one after the other are those of their concatenation. -/
theorem after_append {τ : Topo} {σ : RefSig} (l₁ l₂ : List (HloOp τ σ Val)) (V : Valuation τ σ Val) :
    StableHlo.after (l₁ ++ l₂) V = StableHlo.after l₂ (StableHlo.after l₁ V) := by
  induction l₁ generalizing V with
  | nil => rfl
  | cons op l ih => rw [List.cons_append, after_cons, after_cons, ih]

end Idealize.ShloMosaic.StableHlo.HostSim
-- ==== Proof.KernelTail.lean ====
/-
  The kernel program's host operations before its one kernel call, cut where the reference's are.

  The 1114 host operations before the call are, in order, the 1113 that compute the pooled feature array (64 graphs
  by 300 features) from the eighteen argument arrays — listed here window by window, in the program's order —
  and one more, which places the bias vector as a row (1 by 10). So when the call is entered, the pooled features
  and the weights are what the 1113 operations leave, and the bias row is the bias those leave, placed as a row.
-/
import proofs.«141498_g68332929679506_cont_9to1c4b_488_2_alg».proof.Proof.KernelIdealFrameP
import proofs.«141498_g68332929679506_cont_9to1c4b_488_2_alg».proof.Proof.LibHostSim

set_option maxRecDepth 8192

noncomputable section

namespace Cert.KernelIdeal.Hand

open Cert.KernelIdeal Cert.KernelIdeal.Gen Cert.KernelIdeal.GenP
open Idealize.ShloMosaic Idealize.ShloMosaic.TcCoe Idealize.SL.Sem

variable {F : FTy → Type} [FloatOps F]

/-- The last two operations of the pooled feature array: the node counts repeated along the features, and the quotient. -/
abbrev lastShared : List (HloOp τ sig (Elt F)) :=
  [ StableHlo.unary main_v664 main_v665 (broadcastInDim S64x300 ![0, 1] bcast_S64x1_S64x300_0_1 : (⟨S64x1, .f32⟩ : BufTy).Contents (Elt F) → (⟨S64x300, .f32⟩ : BufTy).Contents (Elt F)),
    StableHlo.binary main_v659 main_v665 main_v666 (Host.divf : (⟨S64x300, .f32⟩ : BufTy).Contents (Elt F) → (⟨S64x300, .f32⟩ : BufTy).Contents (Elt F) → (⟨S64x300, .f32⟩ : BufTy).Contents (Elt F)) ]

/-- The bias vector placed as a row. -/
abbrev biasRow : HloOp τ sig (Elt F) :=
  StableHlo.unary main_arg17 main_v667 (broadcastInDim S1x10 ![1] bcast_S10_S1x10_1 : (⟨S10, .f32⟩ : BufTy).Contents (Elt F) → (⟨S1x10, .f32⟩ : BufTy).Contents (Elt F))

abbrev sharedPieces : List (List (HloOp τ sig (Elt F))) :=
  [main_part0_ops0, main_part0_ops1, main_part0_ops2, main_part1_ops0, main_part1_ops1, main_part1_ops2, main_part1_ops3, main_part1_ops4, main_part1_ops5, main_part1_ops6, main_part1_ops7, main_part1_ops8, main_part2_ops0, main_part2_ops1, main_part2_ops2, main_part2_ops3, main_part2_ops4, main_part3_ops0, main_part3_ops1, main_part3_ops2, main_part3_ops3, main_part3_ops4, main_part3_ops5, main_part3_ops6, main_part4_ops0, main_part4_ops1, main_part4_ops2, main_part4_ops3, main_part4_ops4, main_part4_ops5, main_part4_ops6, main_part5_ops0, main_part5_ops1, main_part5_ops2, main_part5_ops3, main_part5_ops4, main_part5_ops5, main_part5_ops6, main_part6_ops0, main_part6_ops1, main_part6_ops2, main_part6_ops3, main_part6_ops4, main_part6_ops5, main_part6_ops6, main_part7_ops0, main_part7_ops1, main_part7_ops2, main_part7_ops3, main_part7_ops4, main_part8_ops0, main_part8_ops1, main_part8_ops2, main_part8_ops3, main_part8_ops4, main_part8_ops5, main_part8_ops6, main_part8_ops7, main_part8_ops8, main_part9_ops0, main_part9_ops1, main_part9_ops2, main_part9_ops3, main_part9_ops4, main_part10_ops0, main_part10_ops1, main_part10_ops2, main_part10_ops3, main_part10_ops4, main_part10_ops5, main_part10_ops6, main_part11_ops0, main_part11_ops1, main_part11_ops2, main_part11_ops3, main_part11_ops4, main_part11_ops5, main_part11_ops6, main_part12_ops0, main_part12_ops1, main_part12_ops2, main_part12_ops3, main_part12_ops4, main_part12_ops5, lastShared]

/-- The 1113 operations that compute the pooled feature array. -/
abbrev sharedOps : List (HloOp τ sig (Elt F)) := List.flatten sharedPieces

/-- The operations before the call, stretch by stretch, are those 1113 and then the bias row. -/
theorem hostOps_eq : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72] : List (HloOp τ sig (Elt F))) = sharedOps ++ [biasRow] := by
  chain_rfl

variable (m : (ℓ : Loc nD τ sig) → Buf (Elt F) ℓ)

/-- Core `c`'s buffers after the 1113 operations. -/
abbrev W (c : Dev nD) : Valuation τ sig (Elt F) := StableHlo.after sharedOps (fun b => m (c, b))

theorem V_split (c : Dev nD) (b : Ref sig .tc) : V m c b = (biasRow (F := F)).result (W m c) b := by
  unfold V
  rw [hostOps_eq, StableHlo.HostSim.after_append]
  rfl

/-- The pooled features the call finds are those the 1113 operations leave. -/
theorem V_pooled (c : Dev nD) : V m c main_v666 = W m c main_v666 := by
  rw [V_split]
  exact StableHlo.unary_result_ne (x := main_arg17) (y := main_v667) _ _ _ _ (by decide)

/-- The weights the call finds are those the 1113 operations leave. -/
theorem V_weights (c : Dev nD) : V m c main_arg16 = W m c main_arg16 := by
  rw [V_split]
  exact StableHlo.unary_result_ne (x := main_arg17) (y := main_v667) _ _ _ _ (by decide)

/-- The bias row the call finds is the bias the 1113 operations leave, placed as a row. -/
theorem V_biasRow (c : Dev nD) :
    V m c main_v667 = broadcastInDim S1x10 ![1] bcast_S10_S1x10_1 (W m c main_arg17) := by
  rw [V_split]
  exact StableHlo.unary_result main_arg17 main_v667 _ _ _ _

end Cert.KernelIdeal.Hand

end
-- ==== Proof.RefProg.lean ====
/-
  The reference program's @main as the straight line of host operations it is.

  @main is written in thirteen windows of statements; a statement is one host operation, or a call of a
  module-local function (relu, where, var, clip), whose body is again a few host operations over the call's own
  buffers. Window by window the statements are listed here as lists of operations, a call's operations in place
  of the call; @main is the sequence of all of them in order. 1113 of them compute, from the eighteen argument
  arrays, the pooled feature array (64 graphs by 300 features): the embedding lookup, seven rounds of message
  passing (gather along the edges, rectify, scatter-add to the target nodes, two dense layers with batch
  normalisation), and the two segment means. The last four are the prediction head: the product with the 300 by
  10 weight array, the bias as a row, the row repeated down the 64 graphs, and the sum.
  The operation at position k of the line writes the HBM buffer of index 18 + k and nothing else, so the
  eighteen argument arrays (indices below 18) end as they were launched.
-/
import proofs.«141498_g68332929679506_cont_9to1c4b_488_2_alg».proof.Proof.Gen.ReferenceIdeal
import Idealize.ShloMosaic.Lib.StableHlo.Run
import Idealize.ShloMosaic.Lib.Pipeline.Regions
import proofs.«141498_g68332929679506_cont_9to1c4b_488_2_alg».proof.Proof.LibHostSim

set_option maxRecDepth 8192

noncomputable section

namespace Cert.ReferenceIdeal.Hand

open Cert.ReferenceIdeal Cert.ReferenceIdeal.Gen
open Idealize.ShloMosaic Idealize.ShloMosaic.TcCoe
open Idealize.SL Idealize.SL.Sem

variable {F : FTy → Type} [FloatOps F]

/-! ## The windows' operations -/

abbrev main_part0_ops0 : List (HloOp τ sig (Elt F)) :=
  ( StableHlo.unary main_arg1 main_v0 ((extractStridedSlice S1x160000 ![0, 0] · slices_S2x160000_S1x160000_0_0) : (⟨S2x160000, .i32⟩ : BufTy).Contents (Elt F) → (⟨S1x160000, .i32⟩ : BufTy).Contents (Elt F))
  :: StableHlo.reshape main_v0 main_v1 rfl shapeCasts_S1x160000_S160000
  :: StableHlo.unary main_arg1 main_v2 ((extractStridedSlice S1x160000 ![1, 0] · slices_S2x160000_S1x160000_1_0) : (⟨S2x160000, .i32⟩ : BufTy).Contents (Elt F) → (⟨S1x160000, .i32⟩ : BufTy).Contents (Elt F))
  :: StableHlo.reshape main_v2 main_v3 rfl shapeCasts_S1x160000_S160000
  :: StableHlo.nullary main_c (constantI S_ 32 0#32)
  :: StableHlo.unary main_c main_v4 (broadcastInDim S10000 ![] bcast_S_S10000 : (⟨S_, .i32⟩ : BufTy).Contents (Elt F) → (⟨S10000, .i32⟩ : BufTy).Contents (Elt F))
  :: StableHlo.binary main_arg0 main_v4 main_v5 (cmpi .slt : (⟨S10000, .i32⟩ : BufTy).Contents (Elt F) → (⟨S10000, .i32⟩ : BufTy).Contents (Elt F) → (⟨S10000, .i1⟩ : BufTy).Contents (Elt F))
  :: StableHlo.nullary main_c_0 (constantI S_ 32 100#32)
  :: StableHlo.unary main_c_0 main_v6 (broadcastInDim S10000 ![] bcast_S_S10000 : (⟨S_, .i32⟩ : BufTy).Contents (Elt F) → (⟨S10000, .i32⟩ : BufTy).Contents (Elt F))
  :: StableHlo.binary main_arg0 main_v6 main_v7 (addi : (⟨S10000, .i32⟩ : BufTy).Contents (Elt F) → (⟨S10000, .i32⟩ : BufTy).Contents (Elt F) → (⟨S10000, .i32⟩ : BufTy).Contents (Elt F))
  :: StableHlo.ternary main_v5 main_v7 main_arg0 main_v8 (select : (⟨S10000, .i1⟩ : BufTy).Contents (Elt F) → (⟨S10000, .i32⟩ : BufTy).Contents (Elt F) → (⟨S10000, .i32⟩ : BufTy).Contents (Elt F) → (⟨S10000, .i32⟩ : BufTy).Contents (Elt F))
  :: StableHlo.unary main_v8 main_v9 (broadcastInDim S10000x1 ![0] bcast_S10000_S10000x1_0 : (⟨S10000, .i32⟩ : BufTy).Contents (Elt F) → (⟨S10000x1, .i32⟩ : BufTy).Contents (Elt F))
  :: StableHlo.binary main_arg5 main_v9 main_v10 ((fun x i => Host.gather gather_S100x300_S10000x1_S10000x300_1_0_n_n_0_1_1300 x i) : (⟨S100x300, .f32⟩ : BufTy).Contents (Elt F) → (⟨S10000x1, .i32⟩ : BufTy).Contents (Elt F) → (⟨S10000x300, .f32⟩ : BufTy).Contents (Elt F))
  :: StableHlo.nullary main_c_1 (constantI S_ 32 0#32)
  :: StableHlo.unary main_c_1 main_v11 (broadcastInDim S160000 ![] bcast_S_S160000 : (⟨S_, .i32⟩ : BufTy).Contents (Elt F) → (⟨S160000, .i32⟩ : BufTy).Contents (Elt F))
  :: StableHlo.binary main_v1 main_v11 main_v12 (cmpi .slt : (⟨S160000, .i32⟩ : BufTy).Contents (Elt F) → (⟨S160000, .i32⟩ : BufTy).Contents (Elt F) → (⟨S160000, .i1⟩ : BufTy).Contents (Elt F))
  :: StableHlo.nullary main_c_2 (constantI S_ 32 10000#32)
  :: StableHlo.unary main_c_2 main_v13 (broadcastInDim S160000 ![] bcast_S_S160000 : (⟨S_, .i32⟩ : BufTy).Contents (Elt F) → (⟨S160000, .i32⟩ : BufTy).Contents (Elt F))
  :: StableHlo.binary main_v1 main_v13 main_v14 (addi : (⟨S160000, .i32⟩ : BufTy).Contents (Elt F) → (⟨S160000, .i32⟩ : BufTy).Contents (Elt F) → (⟨S160000, .i32⟩ : BufTy).Contents (Elt F))
  :: StableHlo.ternary main_v12 main_v14 main_v1 main_v15 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))
  :: StableHlo.unary main_v15 main_v16 (broadcastInDim S160000x1 ![0] bcast_S160000_S160000x1_0 : (⟨S160000, .i32⟩ : BufTy).Contents (Elt F) → (⟨S160000x1, .i32⟩ : BufTy).Contents (Elt F))
  :: StableHlo.binary main_v10 main_v16 main_v17 ((fun x i => Host.gather gather_S10000x300_S160000x1_S160000x300_1_0_n_n_0_1_1300 x i) : (⟨S10000x300, .f32⟩ : BufTy).Contents (Elt F) → (⟨S160000x1, .i32⟩ : BufTy).Contents (Elt F) → (⟨S160000x300, .f32⟩ : BufTy).Contents (Elt F))
  :: StableHlo.unary main_arg6 main_v18 ((extractStridedSlice S1x5x300 ![0, 0, 0] · slices_S7x5x300_S1x5x300_0_0_0) : (⟨S7x5x300, .f32⟩ : BufTy).Contents (Elt F) → (⟨S1x5x300, .f32⟩ : BufTy).Contents (Elt F))
  :: StableHlo.reshape main_v18 main_v19 rfl shapeCasts_S1x5x300_S5x300
  :: StableHlo.nullary main_c_3 (constantI S_ 32 0#32)
  :: StableHlo.unary main_c_3 main_v20 (broadcastInDim S160000 ![] bcast_S_S160000 : (⟨S_, .i32⟩ : BufTy).Contents (Elt F) → (⟨S160000, .i32⟩ : BufTy).Contents (Elt F))
  :: StableHlo.binary main_arg2 main_v20 main_v21 (cmpi .slt : (⟨S160000, .i32⟩ : BufTy).Contents (Elt F) → (⟨S160000, .i32⟩ : BufTy).Contents (Elt F) → (⟨S160000, .i1⟩ : BufTy).Contents (Elt F))
  :: StableHlo.nullary main_c_4 (constantI S_ 32 5#32)
  :: StableHlo.unary main_c_4 main_v22 (broadcastInDim S160000 ![] bcast_S_S160000 : (⟨S_, .i32⟩ : BufTy).Contents (Elt F) → (⟨S160000, .i32⟩ : BufTy).Contents (Elt F))
  :: StableHlo.binary main_arg2 main_v22 main_v23 (addi : (⟨S160000, .i32⟩ : BufTy).Contents (Elt F) → (⟨S160000, .i32⟩ : BufTy).Contents (Elt F) → (⟨S160000, .i32⟩ : BufTy).Contents (Elt F))
  :: StableHlo.ternary main_v21 main_v23 main_arg2 main_v24 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))
  :: StableHlo.unary main_v24 main_v25 (broadcastInDim S160000x1 ![0] bcast_S160000_S160000x1_0 : (⟨S160000, .i32⟩ : BufTy).Contents (Elt F) → (⟨S160000x1, .i32⟩ : BufTy).Contents (Elt F))
  :: StableHlo.binary main_v19 main_v25 main_v26 ((fun x i => Host.gather gather_S5x300_S160000x1_S160000x300_1_0_n_n_0_1_1300 x i) : (⟨S5x300, .f32⟩ : BufTy).Contents (Elt F) → (⟨S160000x1, .i32⟩ : BufTy).Contents (Elt F) → (⟨S160000x300, .f32⟩ : BufTy).Contents (Elt F))
  :: StableHlo.binary main_v17 main_v26 main_v27 (addf : (⟨S160000x300, .f32⟩ : BufTy).Contents (Elt F) → (⟨S160000x300, .f32⟩ : BufTy).Contents (Elt F) → (⟨S160000x300, .f32⟩ : BufTy).Contents (Elt F))
  :: [] )
theorem main_part0_ops0_sub : (main_part0_ops0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩
theorem main_part0_ops0_fresh : (main_part0_ops0 : List (HloOp τ sig (Elt F))).Forall fun op => op.fresh = ∅ := by
  simp only [List.Forall]; repeat' constructor
theorem main_part0_ops0_writes : StableHlo.HostSim.WritesFrom 18 (main_part0_ops0 : List (HloOp τ sig (Elt F))) := by
  repeat (first | exact .nil _ | refine .cons ⟨_, rfl, rfl, rfl⟩ ?_)
abbrev main_part0_ops1 : List (HloOp τ sig (Elt F)) :=
  [ StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S160000x300, .f32⟩) (broadcastInDim S160000x300 ![] bcast_S_S160000x300),
    StableHlo.TRef.binary (.of main_v27 : StableHlo.TRef sig ⟨S160000x300, .f32⟩) (.of main_call0_v0 : StableHlo.TRef sig ⟨S160000x300, .f32⟩) (.of main_v28 : StableHlo.TRef sig ⟨S160000x300, .f32⟩) maximumf ]
theorem main_part0_ops1_sub : (main_part0_ops1 : List (HloOp τ sig (Elt F))).Forall fun op => op.bufs ⊆ StableHlo.tcRefs τ sig :=
  ⟨StableHlo.nullary_bufs_sub .., StableHlo.unary_bufs_sub .., StableHlo.binary_bufs_sub ..⟩
theorem main_part0_ops1_fresh : (main_part0_ops1 : List (HloOp τ sig (Elt F))).Forall fun op => op.fresh = ∅ := by
  simp only [List.Forall]; repeat' constructor
theorem main_part0_ops1_writes : StableHlo.HostSim.WritesFrom 52 (main_part0_ops1 : List (HloOp τ sig (Elt F))) := by
  repeat (first | exact .nil _ | refine .cons ⟨_, rfl, rfl, rfl⟩ ?_)
abbrev main_part0_ops2 : List (HloOp τ sig (Elt F)) :=
  [ StableHlo.nullary main_cst (constant S_ .f32 0x00000000#32),
    StableHlo.unary main_cst main_v29 (broadcastInDim S10000x300 ![] bcast_S_S10000x300 : (⟨S_, .f32⟩ : BufTy).Contents (Elt F) → (⟨S10000x300, .f32⟩ : BufTy).Contents (Elt F)),
    StableHlo.unary main_v3 main_v30 (broadcastInDim S160000x1 ![0] bcast_S160000_S160000x1_0 : (⟨S160000, .i32⟩ : BufTy).Contents (Elt F) → (⟨S160000x1, .i32⟩ : BufTy).Contents (Elt F)),
    StableHlo.ternary main_v29 main_v30 main_v28 main_v31 ((fun x i u => Host.scatterAdd scatter_S10000x300_S160000x1_S160000x300_1_0_0_1 x i u) : (⟨S10000x300, .f32⟩ : BufTy).Contents (Elt F) → (⟨S160000x1, .i32⟩ : BufTy).Contents (Elt F) → (⟨S160000x300, .f32⟩ : BufTy).Contents (Elt F) → (⟨S10000x300, .f32⟩ : BufTy).Contents (Elt F)),
    StableHlo.unary main_arg13 main_v32 ((extractStridedSlice S1 ![0] · slices_S7_S1_0) : (⟨S7, .f32⟩ : BufTy).Contents (Elt F) → (⟨S1, .f32⟩ : BufTy).Contents (Elt F)),
    StableHlo.reshape main_v32 main_v33 rfl shapeCasts_S1_S_,
    StableHlo.nullary main_cst_5 (constant S_ .f32 0x3F800000#32),
    StableHlo.binary main_cst_5 main_v33 main_v34 (addf : (⟨S_, .f32⟩ : BufTy).Contents (Elt F) → (⟨S_, .f32⟩ : BufTy).Contents (Elt F) → (⟨S_, .f32⟩ : BufTy).Contents (Elt F)),
    StableHlo.unary main_v34 main_v35 (broadcastInDim S10000x300 ![] bcast_S_S10000x300 : (⟨S_, .f32⟩ : BufTy).Contents (Elt F) → (⟨S10000x300, .f32⟩ : BufTy).Contents (Elt F)),
    StableHlo.binary main_v35 main_v10 main_v36 (mulf : (⟨S10000x300, .f32⟩ : BufTy).Contents (Elt F) → (⟨S10000x300, .f32⟩ : BufTy).Contents (Elt F) → (⟨S10000x300, .f32⟩ : BufTy).Contents (Elt F)),
    StableHlo.binary main_v36 main_v31 main_v37 (addf : (⟨S10000x300, .f32⟩ : BufTy).Contents (Elt F) → (⟨S10000x300, .f32⟩ : BufTy).Contents (Elt F) → (⟨S10000x300, .f32⟩ : BufTy).Contents (Elt F)),
    StableHlo.unary main_arg7 main_v38 ((extractStridedSlice S1x300x600 ![0, 0, 0] · slices_S7x300x600_S1x300x600_0_0_0) : (⟨S7x300x600, .f32⟩ : BufTy).Contents (Elt F) → (⟨S1x300x600, .f32⟩ : BufTy).Contents (Elt F)),
    StableHlo.reshape main_v38 main_v39 rfl shapeCasts_S1x300x600_S300x600,
    StableHlo.binary main_v37 main_v39 main_v40 ((fun l r => Host.dotGeneral dot_S10000x300_S300x600_S10000x600_1_0_0_1_n_n none l r) : (⟨S10000x300, .f32⟩ : BufTy).Contents (Elt F) → (⟨S300x600, .f32⟩ : BufTy).Contents (Elt F) → (⟨S10000x600, .f32⟩ : BufTy).Contents (Elt F)),
    StableHlo.unary main_arg8 main_v41 ((extractStridedSlice S1x600 ![0, 0] · slices_S7x600_S1x600_0_0) : (⟨S7x600, .f32⟩ : BufTy).Contents (Elt F) → (⟨S1x600, .f32⟩ : BufTy).Contents (Elt F)),
    StableHlo.reshape main_v41 main_v42 rfl shapeCasts_S1x600_S600,
    StableHlo.unary main_v42 main_v43 (broadcastInDim S1x600 ![1] bcast_S600_S1x600_1 : (⟨S600, .f32⟩ : BufTy).Contents (Elt F) → (⟨S1x600, .f32⟩ : BufTy).Contents (Elt F)),
    StableHlo.unary main_v43 main_v44 (broadcastInDim S10000x600 ![0, 1] bcast_S1x600_S10000x600_0_1 : (⟨S1x600, .f32⟩ : BufTy).Contents (Elt F) → (⟨S10000x600, .f32⟩ : BufTy).Contents (Elt F)),
    StableHlo.binary main_v40 main_v44 main_v45 (addf : (⟨S10000x600, .f32⟩ : BufTy).Contents (Elt F) → (⟨S10000x600, .f32⟩ : BufTy).Contents (Elt F) → (⟨S10000x600, .f32⟩ : BufTy).Contents (Elt F)),
    StableHlo.unary main_arg9 main_v46 ((extractStridedSlice S1x600 ![0, 0] · slices_S7x600_S1x600_0_0) : (⟨S7x600, .f32⟩ : BufTy).Contents (Elt F) → (⟨S1x600, .f32⟩ : BufTy).Contents (Elt F)),
    StableHlo.reshape main_v46 main_v47 rfl shapeCasts_S1x600_S600,
    StableHlo.unary main_arg10 main_v48 ((extractStridedSlice S1x600 ![0, 0] · slices_S7x600_S1x600_0_0) : (⟨S7x600, .f32⟩ : BufTy).Contents (Elt F) → (⟨S1x600, .f32⟩ : BufTy).Contents (Elt F)),
    StableHlo.reshape main_v48 main_v49 rfl shapeCasts_S1x600_S600,
    StableHlo.nullary main_cst_6 (constant S_ .f32 0x00000000#32),
    StableHlo.binary main_v45 main_cst_6 main_v50 ((fun x v => Host.reduceAdd x v reducesTo_S10000x600_S600_d0 h_S_) : (⟨S10000x600, .f32⟩ : BufTy).Contents (Elt F) → (⟨S_, .f32⟩ : BufTy).Contents (Elt F) → (⟨S600, .f32⟩ : BufTy).Contents (Elt F)) ]
theorem main_part0_ops2_sub : (main_part0_ops2 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub ..⟩
theorem main_part0_ops2_fresh : (main_part0_ops2 : List (HloOp τ sig (Elt F))).Forall fun op => op.fresh = ∅ := by
  simp only [List.Forall]; repeat' constructor
theorem main_part0_ops2_writes : StableHlo.HostSim.WritesFrom 55 (main_part0_ops2 : List (HloOp τ sig (Elt F))) := by
  repeat (first | exact .nil _ | refine .cons ⟨_, rfl, rfl, rfl⟩ ?_)
abbrev main_part1_ops0 : List (HloOp τ sig (Elt F)) :=
  [ StableHlo.nullary main_cst_7 (constant S_ .f32 0x461C4000#32),
    StableHlo.unary main_cst_7 main_v51 (broadcastInDim S600 ![] bcast_S_S600 : (⟨S_, .f32⟩ : BufTy).Contents (Elt F) → (⟨S600, .f32⟩ : BufTy).Contents (Elt F)),
    StableHlo.binary main_v50 main_v51 main_v52 (Host.divf : (⟨S600, .f32⟩ : BufTy).Contents (Elt F) → (⟨S600, .f32⟩ : BufTy).Contents (Elt F) → (⟨S600, .f32⟩ : BufTy).Contents (Elt F)),
    StableHlo.nullary main_c_8 (constantI S_ 32 0#32) ]
theorem main_part1_ops0_sub : (main_part1_ops0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
theorem main_part1_ops0_fresh : (main_part1_ops0 : List (HloOp τ sig (Elt F))).Forall fun op => op.fresh = ∅ := by
  simp only [List.Forall]; repeat' constructor
theorem main_part1_ops0_writes : StableHlo.HostSim.WritesFrom 80 (main_part1_ops0 : List (HloOp τ sig (Elt F))) := by
  repeat (first | exact .nil _ | refine .cons ⟨_, rfl, rfl, rfl⟩ ?_)
abbrev main_part1_ops1 : List (HloOp τ sig (Elt F)) :=
  [ StableHlo.TRef.nullary (.of main_call1_cst : StableHlo.TRef sig ⟨S_, .f32⟩) (constant S_ .f32 0x00000000#32),
    StableHlo.TRef.binary (.of main_v45 : StableHlo.TRef sig ⟨S10000x600, .f32⟩) (.of main_call1_cst : StableHlo.TRef sig ⟨S_, .f32⟩) (.of main_call1_v0 : StableHlo.TRef sig ⟨S600, .f32⟩) (fun x v => Host.reduceAdd x v reducesTo_S10000x600_S600_d0 h_S_),
    StableHlo.TRef.unary (.of main_call1_v0 : StableHlo.TRef sig ⟨S600, .f32⟩) (.of main_call1_v1 : StableHlo.TRef sig ⟨S1x600, .f32⟩) (broadcastInDim S1x600 ![1] bcast_S600_S1x600_1),
    StableHlo.TRef.nullary (.of main_call1_cst_0 : StableHlo.TRef sig ⟨S_, .f32⟩) (constant S_ .f32 0x461C4000#32),
    StableHlo.TRef.unary (.of main_call1_cst_0 : StableHlo.TRef sig ⟨S_, .f32⟩) (.of main_call1_v2 : StableHlo.TRef sig ⟨S1x600, .f32⟩) (broadcastInDim S1x600 ![] bcast_S_S1x600),
    StableHlo.TRef.binary (.of main_call1_v1 : StableHlo.TRef sig ⟨S1x600, .f32⟩) (.of main_call1_v2 : StableHlo.TRef sig ⟨S1x600, .f32⟩) (.of main_call1_v3 : StableHlo.TRef sig ⟨S1x600, .f32⟩) Host.divf,
    StableHlo.TRef.unary (.of main_call1_v3 : StableHlo.TRef sig ⟨S1x600, .f32⟩) (.of main_call1_v4 : StableHlo.TRef sig ⟨S10000x600, .f32⟩) (broadcastInDim S10000x600 ![0, 1] bcast_S1x600_S10000x600_0_1),
    StableHlo.TRef.binary (.of main_v45 : StableHlo.TRef sig ⟨S10000x600, .f32⟩) (.of main_call1_v4 : StableHlo.TRef sig ⟨S10000x600, .f32⟩) (.of main_call1_v5 : StableHlo.TRef sig ⟨S10000x600, .f32⟩) subf,
    StableHlo.TRef.binary (.of main_call1_v5 : StableHlo.TRef sig ⟨S10000x600, .f32⟩) (.of main_call1_v5 : StableHlo.TRef sig ⟨S10000x600, .f32⟩) (.of main_call1_v6 : StableHlo.TRef sig ⟨S10000x600, .f32⟩) mulf,
    StableHlo.TRef.unary (.of main_c_8 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x461C4000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S10000x600, .f32⟩) (.of main_call1_cst_2 : StableHlo.TRef sig ⟨S_, .f32⟩) (.of main_call1_v9 : StableHlo.TRef sig ⟨S600, .f32⟩) (fun x v => Host.reduceAdd x v reducesTo_S10000x600_S600_d0 h_S_),
    StableHlo.TRef.unary (.of main_call1_v8 : StableHlo.TRef sig ⟨S_, .f32⟩) (.of main_call1_v10 : StableHlo.TRef sig ⟨S600, .f32⟩) (broadcastInDim S600 ![] bcast_S_S600),
    StableHlo.TRef.binary (.of main_call1_v9 : StableHlo.TRef sig ⟨S600, .f32⟩) (.of main_call1_v10 : StableHlo.TRef sig ⟨S600, .f32⟩) (.of main_call1_v11 : StableHlo.TRef sig ⟨S600, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S600, .f32⟩) (broadcastInDim S600 ![] bcast_S_S600),
    StableHlo.TRef.ternary (.of main_call1_v12 : StableHlo.TRef sig ⟨S_, .i1⟩) (.of main_call1_v11 : StableHlo.TRef sig ⟨S600, .f32⟩) (.of main_call1_call0_v1 : StableHlo.TRef sig ⟨S600, .f32⟩) (.of main_v53 : StableHlo.TRef sig ⟨S600, .f32⟩) (fun p a b => select (broadcastInDim S600 ![] bcast_S_S600 p) a b) ]
theorem main_part1_ops1_sub : (main_part1_ops1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem main_part1_ops1_fresh : (main_part1_ops1 : List (HloOp τ sig (Elt F))).Forall fun op => op.fresh = ∅ := by
  simp only [List.Forall]; repeat' constructor
theorem main_part1_ops1_writes : StableHlo.HostSim.WritesFrom 84 (main_part1_ops1 : List (HloOp τ sig (Elt F))) := by
  repeat (first | exact .nil _ | refine .cons ⟨_, rfl, rfl, rfl⟩ ?_)
abbrev main_part1_ops2 : List (HloOp τ sig (Elt F)) :=
  [ StableHlo.unary main_v52 main_v54 (broadcastInDim S1x600 ![1] bcast_S600_S1x600_1 : (⟨S600, .f32⟩ : BufTy).Contents (Elt F) → (⟨S1x600, .f32⟩ : BufTy).Contents (Elt F)),
    StableHlo.unary main_v54 main_v55 (broadcastInDim S10000x600 ![0, 1] bcast_S1x600_S10000x600_0_1 : (⟨S1x600, .f32⟩ : BufTy).Contents (Elt F) → (⟨S10000x600, .f32⟩ : BufTy).Contents (Elt F)),
    StableHlo.binary main_v45 main_v55 main_v56 (subf : (⟨S10000x600, .f32⟩ : BufTy).Contents (Elt F) → (⟨S10000x600, .f32⟩ : BufTy).Contents (Elt F) → (⟨S10000x600, .f32⟩ : BufTy).Contents (Elt F)),
    StableHlo.nullary main_cst_9 (constant S_ .f32 0x3727C5AC#32),
    StableHlo.unary main_cst_9 main_v57 (broadcastInDim S600 ![] bcast_S_S600 : (⟨S_, .f32⟩ : BufTy).Contents (Elt F) → (⟨S600, .f32⟩ : BufTy).Contents (Elt F)),
    StableHlo.binary main_v53 main_v57 main_v58 (addf : (⟨S600, .f32⟩ : BufTy).Contents (Elt F) → (⟨S600, .f32⟩ : BufTy).Contents (Elt F) → (⟨S600, .f32⟩ : BufTy).Contents (Elt F)),
    StableHlo.unary main_v58 main_v59 (Host.sqrt : (⟨S600, .f32⟩ : BufTy).Contents (Elt F) → (⟨S600, .f32⟩ : BufTy).Contents (Elt F)),
    StableHlo.unary main_v59 main_v60 (broadcastInDim S1x600 ![1] bcast_S600_S1x600_1 : (⟨S600, .f32⟩ : BufTy).Contents (Elt F) → (⟨S1x600, .f32⟩ : BufTy).Contents (Elt F)),
    StableHlo.unary main_v60 main_v61 (broadcastInDim S10000x600 ![0, 1] bcast_S1x600_S10000x600_0_1 : (⟨S1x600, .f32⟩ : BufTy).Contents (Elt F) → (⟨S10000x600, .f32⟩ : BufTy).Contents (Elt F)),
    StableHlo.binary main_v56 main_v61 main_v62 (Host.divf : (⟨S10000x600, .f32⟩ : BufTy).Contents (Elt F) → (⟨S10000x600, .f32⟩ : BufTy).Contents (Elt F) → (⟨S10000x600, .f32⟩ : BufTy).Contents (Elt F)),
    StableHlo.unary main_v47 main_v63 (broadcastInDim S1x600 ![1] bcast_S600_S1x600_1 : (⟨S600, .f32⟩ : BufTy).Contents (Elt F) → (⟨S1x600, .f32⟩ : BufTy).Contents (Elt F)),
    StableHlo.unary main_v63 main_v64 (broadcastInDim S10000x600 ![0, 1] bcast_S1x600_S10000x600_0_1 : (⟨S1x600, .f32⟩ : BufTy).Contents (Elt F) → (⟨S10000x600, .f32⟩ : BufTy).Contents (Elt F)),
    StableHlo.binary main_v62 main_v64 main_v65 (mulf : (⟨S10000x600, .f32⟩ : BufTy).Contents (Elt F) → (⟨S10000x600, .f32⟩ : BufTy).Contents (Elt F) → (⟨S10000x600, .f32⟩ : BufTy).Contents (Elt F)),
    StableHlo.unary main_v49 main_v66 (broadcastInDim S1x600 ![1] bcast_S600_S1x600_1 : (⟨S600, .f32⟩ : BufTy).Contents (Elt F) → (⟨S1x600, .f32⟩ : BufTy).Contents (Elt F)),
    StableHlo.unary main_v66 main_v67 (broadcastInDim S10000x600 ![0, 1] bcast_S1x600_S10000x600_0_1 : (⟨S1x600, .f32⟩ : BufTy).Contents (Elt F) → (⟨S10000x600, .f32⟩ : BufTy).Contents (Elt F)),
    StableHlo.binary main_v65 main_v67 main_v68 (addf : (⟨S10000x600, .f32⟩ : BufTy).Contents (Elt F) → (⟨S10000x600, .f32⟩ : BufTy).Contents (Elt F) → (⟨S10000x600, .f32⟩ : BufTy).Contents (Elt F)) ]
theorem main_part1_ops2_sub : (main_part1_ops2 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem main_part1_ops2_fresh : (main_part1_ops2 : List (HloOp τ sig (Elt F))).Forall fun op => op.fresh = ∅ := by
  simp only [List.Forall]; repeat' constructor
theorem main_part1_ops2_writes : StableHlo.HostSim.WritesFrom 106 (main_part1_ops2 : List (HloOp τ sig (Elt F))) := by
  repeat (first | exact .nil _ | refine .cons ⟨_, rfl, rfl, rfl⟩ ?_)
abbrev main_part1_ops3 : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S10000x600, .f32⟩) (broadcastInDim S10000x600 ![] bcast_S_S10000x600),
    StableHlo.TRef.binary (.of main_v68 : StableHlo.TRef sig ⟨S10000x600, .f32⟩) (.of main_call2_v0 : StableHlo.TRef sig ⟨S10000x600, .f32⟩) (.of main_v69 : StableHlo.TRef sig ⟨S10000x600, .f32⟩) maximumf ]
theorem main_part1_ops3_sub : (main_part1_ops3 : List (HloOp τ sig (Elt F))).Forall fun op => op.bufs ⊆ StableHlo.tcRefs τ sig :=
  ⟨StableHlo.nullary_bufs_sub .., StableHlo.unary_bufs_sub .., StableHlo.binary_bufs_sub ..⟩
theorem main_part1_ops3_fresh : (main_part1_ops3 : List (HloOp τ sig (Elt F))).Forall fun op => op.fresh = ∅ := by
  simp only [List.Forall]; repeat' constructor
theorem main_part1_ops3_writes : StableHlo.HostSim.WritesFrom 122 (main_part1_ops3 : List (HloOp τ sig (Elt F))) := by
  repeat (first | exact .nil _ | refine .cons ⟨_, rfl, rfl, rfl⟩ ?_)
abbrev main_part1_ops4 : List (HloOp τ sig (Elt F)) :=
  [ StableHlo.unary main_arg11 main_v70 ((extractStridedSlice S1x600x300 ![0, 0, 0] · slices_S7x600x300_S1x600x300_0_0_0) : (⟨S7x600x300, .f32⟩ : BufTy).Contents (Elt F) → (⟨S1x600x300, .f32⟩ : BufTy).Contents (Elt F)),
    StableHlo.reshape main_v70 main_v71 rfl shapeCasts_S1x600x300_S600x300,
    StableHlo.binary main_v69 main_v71 main_v72 ((fun l r => Host.dotGeneral dot_S10000x600_S600x300_S10000x300_1_0_0_1_n_n none l r) : (⟨S10000x600, .f32⟩ : BufTy).Contents (Elt F) → (⟨S600x300, .f32⟩ : BufTy).Contents (Elt F) → (⟨S10000x300, .f32⟩ : BufTy).Contents (Elt F)),
    StableHlo.unary main_arg12 main_v73 ((extractStridedSlice S1x300 ![0, 0] · slices_S7x300_S1x300_0_0) : (⟨S7x300, .f32⟩ : BufTy).Contents (Elt F) → (⟨S1x300, .f32⟩ : BufTy).Contents (Elt F)),
    StableHlo.reshape main_v73 main_v74 rfl shapeCasts_S1x300_S300,
    StableHlo.unary main_v74 main_v75 (broadcastInDim S1x300 ![1] bcast_S300_S1x300_1 : (⟨S300, .f32⟩ : BufTy).Contents (Elt F) → (⟨S1x300, .f32⟩ : BufTy).Contents (Elt F)),
    StableHlo.unary main_v75 main_v76 (broadcastInDim S10000x300 ![0, 1] bcast_S1x300_S10000x300_0_1 : (⟨S1x300, .f32⟩ : BufTy).Contents (Elt F) → (⟨S10000x300, .f32⟩ : BufTy).Contents (Elt F)),
    StableHlo.binary main_v72 main_v76 main_v77 (addf : (⟨S10000x300, .f32⟩ : BufTy).Contents (Elt F) → (⟨S10000x300, .f32⟩ : BufTy).Contents (Elt F) → (⟨S10000x300, .f32⟩ : BufTy).Contents (Elt F)),
    StableHlo.unary main_arg14 main_v78 ((extractStridedSlice S1x300 ![0, 0] · slices_S7x300_S1x300_0_0) : (⟨S7x300, .f32⟩ : BufTy).Contents (Elt F) → (⟨S1x300, .f32⟩ : BufTy).Contents (Elt F)),
    StableHlo.reshape main_v78 main_v79 rfl shapeCasts_S1x300_S300,
    StableHlo.unary main_arg15 main_v80 ((extractStridedSlice S1x300 ![0, 0] · slices_S7x300_S1x300_0_0) : (⟨S7x300, .f32⟩ : BufTy).Contents (Elt F) → (⟨S1x300, .f32⟩ : BufTy).Contents (Elt F)),
    StableHlo.reshape main_v80 main_v81 rfl shapeCasts_S1x300_S300,
    StableHlo.nullary main_cst_10 (constant S_ .f32 0x00000000#32),
    StableHlo.binary main_v77 main_cst_10 main_v82 ((fun x v => Host.reduceAdd x v reducesTo_S10000x300_S300_d0 h_S_) : (⟨S10000x300, .f32⟩ : BufTy).Contents (Elt F) → (⟨S_, .f32⟩ : BufTy).Contents (Elt F) → (⟨S300, .f32⟩ : BufTy).Contents (Elt F)),
    StableHlo.nullary main_cst_11 (constant S_ .f32 0x461C4000#32),
    StableHlo.unary main_cst_11 main_v83 (broadcastInDim S300 ![] bcast_S_S300 : (⟨S_, .f32⟩ : BufTy).Contents (Elt F) → (⟨S300, .f32⟩ : BufTy).Contents (Elt F)),
    StableHlo.binary main_v82 main_v83 main_v84 (Host.divf : (⟨S300, .f32⟩ : BufTy).Contents (Elt F) → (⟨S300, .f32⟩ : BufTy).Contents (Elt F) → (⟨S300, .f32⟩ : BufTy).Contents (Elt F)),
    StableHlo.nullary main_c_12 (constantI S_ 32 0#32) ]
theorem main_part1_ops4_sub : (main_part1_ops4 : List (HloOp τ sig (Elt F))).Forall fun op => op.bufs ⊆ StableHlo.tcRefs τ sig :=
  ⟨StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub ..⟩
theorem main_part1_ops4_fresh : (main_part1_ops4 : List (HloOp τ sig (Elt F))).Forall fun op => op.fresh = ∅ := by
  simp only [List.Forall]; repeat' constructor
theorem main_part1_ops4_writes : StableHlo.HostSim.WritesFrom 125 (main_part1_ops4 : List (HloOp τ sig (Elt F))) := by
  repeat (first | exact .nil _ | refine .cons ⟨_, rfl, rfl, rfl⟩ ?_)
abbrev main_part1_ops5 : List (HloOp τ sig (Elt F)) :=
  [ StableHlo.TRef.nullary (.of main_call3_cst : StableHlo.TRef sig ⟨S_, .f32⟩) (constant S_ .f32 0x00000000#32),
    StableHlo.TRef.binary (.of main_v77 : StableHlo.TRef sig ⟨S10000x300, .f32⟩) (.of main_call3_cst : StableHlo.TRef sig ⟨S_, .f32⟩) (.of main_call3_v0 : StableHlo.TRef sig ⟨S300, .f32⟩) (fun x v => Host.reduceAdd x v reducesTo_S10000x300_S300_d0 h_S_),
    StableHlo.TRef.unary (.of main_call3_v0 : StableHlo.TRef sig ⟨S300, .f32⟩) (.of main_call3_v1 : StableHlo.TRef sig ⟨S1x300, .f32⟩) (broadcastInDim S1x300 ![1] bcast_S300_S1x300_1),
    StableHlo.TRef.nullary (.of main_call3_cst_0 : StableHlo.TRef sig ⟨S_, .f32⟩) (constant S_ .f32 0x461C4000#32),
    StableHlo.TRef.unary (.of main_call3_cst_0 : StableHlo.TRef sig ⟨S_, .f32⟩) (.of main_call3_v2 : StableHlo.TRef sig ⟨S1x300, .f32⟩) (broadcastInDim S1x300 ![] bcast_S_S1x300),
    StableHlo.TRef.binary (.of main_call3_v1 : StableHlo.TRef sig ⟨S1x300, .f32⟩) (.of main_call3_v2 : StableHlo.TRef sig ⟨S1x300, .f32⟩) (.of main_call3_v3 : StableHlo.TRef sig ⟨S1x300, .f32⟩) Host.divf,
    StableHlo.TRef.unary (.of main_call3_v3 : StableHlo.TRef sig ⟨S1x300, .f32⟩) (.of main_call3_v4 : StableHlo.TRef sig ⟨S10000x300, .f32⟩) (broadcastInDim S10000x300 ![0, 1] bcast_S1x300_S10000x300_0_1),
    StableHlo.TRef.binary (.of main_v77 : StableHlo.TRef sig ⟨S10000x300, .f32⟩) (.of main_call3_v4 : StableHlo.TRef sig ⟨S10000x300, .f32⟩) (.of main_call3_v5 : StableHlo.TRef sig ⟨S10000x300, .f32⟩) subf,
    StableHlo.TRef.binary (.of main_call3_v5 : StableHlo.TRef sig ⟨S10000x300, .f32⟩) (.of main_call3_v5 : StableHlo.TRef sig ⟨S10000x300, .f32⟩) (.of main_call3_v6 : StableHlo.TRef sig ⟨S10000x300, .f32⟩) mulf,
    StableHlo.TRef.unary (.of main_c_12 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x461C4000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S10000x300, .f32⟩) (.of main_call3_cst_2 : StableHlo.TRef sig ⟨S_, .f32⟩) (.of main_call3_v9 : StableHlo.TRef sig ⟨S300, .f32⟩) (fun x v => Host.reduceAdd x v reducesTo_S10000x300_S300_d0 h_S_),
    StableHlo.TRef.unary (.of main_call3_v8 : StableHlo.TRef sig ⟨S_, .f32⟩) (.of main_call3_v10 : StableHlo.TRef sig ⟨S300, .f32⟩) (broadcastInDim S300 ![] bcast_S_S300),
    StableHlo.TRef.binary (.of main_call3_v9 : StableHlo.TRef sig ⟨S300, .f32⟩) (.of main_call3_v10 : StableHlo.TRef sig ⟨S300, .f32⟩) (.of main_call3_v11 : StableHlo.TRef sig ⟨S300, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v12 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S300, .f32⟩) (broadcastInDim S300 ![] bcast_S_S300),
    StableHlo.TRef.ternary (.of main_call3_v12 : StableHlo.TRef sig ⟨S_, .i1⟩) (.of main_call3_v11 : StableHlo.TRef sig ⟨S300, .f32⟩) (.of main_call3_call0_v1 : StableHlo.TRef sig ⟨S300, .f32⟩) (.of main_v85 : StableHlo.TRef sig ⟨S300, .f32⟩) (fun p a b => select (broadcastInDim S300 ![] bcast_S_S300 p) a b) ]
theorem main_part1_ops5_sub : (main_part1_ops5 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem main_part1_ops5_fresh : (main_part1_ops5 : List (HloOp τ sig (Elt F))).Forall fun op => op.fresh = ∅ := by
  simp only [List.Forall]; repeat' constructor
theorem main_part1_ops5_writes : StableHlo.HostSim.WritesFrom 143 (main_part1_ops5 : List (HloOp τ sig (Elt F))) := by
  repeat (first | exact .nil _ | refine .cons ⟨_, rfl, rfl, rfl⟩ ?_)
abbrev main_part1_ops6 : List (HloOp τ sig (Elt F)) :=
  [ StableHlo.unary main_v84 main_v86 (broadcastInDim S1x300 ![1] bcast_S300_S1x300_1 : (⟨S300, .f32⟩ : BufTy).Contents (Elt F) → (⟨S1x300, .f32⟩ : BufTy).Contents (Elt F)),
    StableHlo.unary main_v86 main_v87 (broadcastInDim S10000x300 ![0, 1] bcast_S1x300_S10000x300_0_1 : (⟨S1x300, .f32⟩ : BufTy).Contents (Elt F) → (⟨S10000x300, .f32⟩ : BufTy).Contents (Elt F)),
    StableHlo.binary main_v77 main_v87 main_v88 (subf : (⟨S10000x300, .f32⟩ : BufTy).Contents (Elt F) → (⟨S10000x300, .f32⟩ : BufTy).Contents (Elt F) → (⟨S10000x300, .f32⟩ : BufTy).Contents (Elt F)),
    StableHlo.nullary main_cst_13 (constant S_ .f32 0x3727C5AC#32),
    StableHlo.unary main_cst_13 main_v89 (broadcastInDim S300 ![] bcast_S_S300 : (⟨S_, .f32⟩ : BufTy).Contents (Elt F) → (⟨S300, .f32⟩ : BufTy).Contents (Elt F)),
    StableHlo.binary main_v85 main_v89 main_v90 (addf : (⟨S300, .f32⟩ : BufTy).Contents (Elt F) → (⟨S300, .f32⟩ : BufTy).Contents (Elt F) → (⟨S300, .f32⟩ : BufTy).Contents (Elt F)),
    StableHlo.unary main_v90 main_v91 (Host.sqrt : (⟨S300, .f32⟩ : BufTy).Contents (Elt F) → (⟨S300, .f32⟩ : BufTy).Contents (Elt F)),
    StableHlo.unary main_v91 main_v92 (broadcastInDim S1x300 ![1] bcast_S300_S1x300_1 : (⟨S300, .f32⟩ : BufTy).Contents (Elt F) → (⟨S1x300, .f32⟩ : BufTy).Contents (Elt F)),
    StableHlo.unary main_v92 main_v93 (broadcastInDim S10000x300 ![0, 1] bcast_S1x300_S10000x300_0_1 : (⟨S1x300, .f32⟩ : BufTy).Contents (Elt F) → (⟨S10000x300, .f32⟩ : BufTy).Contents (Elt F)),
    StableHlo.binary main_v88 main_v93 main_v94 (Host.divf : (⟨S10000x300, .f32⟩ : BufTy).Contents (Elt F) → (⟨S10000x300, .f32⟩ : BufTy).Contents (Elt F) → (⟨S10000x300, .f32⟩ : BufTy).Contents (Elt F)),
    StableHlo.unary main_v79 main_v95 (broadcastInDim S1x300 ![1] bcast_S300_S1x300_1 : (⟨S300, .f32⟩ : BufTy).Contents (Elt F) → (⟨S1x300, .f32⟩ : BufTy).Contents (Elt F)),
    StableHlo.unary main_v95 main_v96 (broadcastInDim S10000x300 ![0, 1] bcast_S1x300_S10000x300_0_1 : (⟨S1x300, .f32⟩ : BufTy).Contents (Elt F) → (⟨S10000x300, .f32⟩ : BufTy).Contents (Elt F)),
    StableHlo.binary main_v94 main_v96 main_v97 (mulf : (⟨S10000x300, .f32⟩ : BufTy).Contents (Elt F) → (⟨S10000x300, .f32⟩ : BufTy).Contents (Elt F) → (⟨S10000x300, .f32⟩ : BufTy).Contents (Elt F)),
    StableHlo.unary main_v81 main_v98 (broadcastInDim S1x300 ![1] bcast_S300_S1x300_1 : (⟨S300, .f32⟩ : BufTy).Contents (Elt F) → (⟨S1x300, .f32⟩ : BufTy).Contents (Elt F)),
    StableHlo.unary main_v98 main_v99 (broadcastInDim S10000x300 ![0, 1] bcast_S1x300_S10000x300_0_1 : (⟨S1x300, .f32⟩ : BufTy).Contents (Elt F) → (⟨S10000x300, .f32⟩ : BufTy).Contents (Elt F)),
    StableHlo.binary main_v97 main_v99 main_v100 (addf : (⟨S10000x300, .f32⟩ : BufTy).Contents (Elt F) → (⟨S10000x300, .f32⟩ : BufTy).Contents (Elt F) → (⟨S10000x300, .f32⟩ : BufTy).Contents (Elt F)) ]
theorem main_part1_ops6_sub : (main_part1_ops6 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem main_part1_ops6_fresh : (main_part1_ops6 : List (HloOp τ sig (Elt F))).Forall fun op => op.fresh = ∅ := by
  simp only [List.Forall]; repeat' constructor
theorem main_part1_ops6_writes : StableHlo.HostSim.WritesFrom 165 (main_part1_ops6 : List (HloOp τ sig (Elt F))) := by
  repeat (first | exact .nil _ | refine .cons ⟨_, rfl, rfl, rfl⟩ ?_)
abbrev main_part1_ops7 : List (HloOp τ sig (Elt F)) :=
  [ StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S10000x300, .f32⟩) (broadcastInDim S10000x300 ![] bcast_S_S10000x300),
    StableHlo.TRef.binary (.of main_v100 : StableHlo.TRef sig ⟨S10000x300, .f32⟩) (.of main_call4_v0 : StableHlo.TRef sig ⟨S10000x300, .f32⟩) (.of main_v101 : StableHlo.TRef sig ⟨S10000x300, .f32⟩) maximumf ]
theorem main_part1_ops7_sub : (main_part1_ops7 : List (HloOp τ sig (Elt F))).Forall fun op => op.bufs ⊆ StableHlo.tcRefs τ sig :=
  ⟨StableHlo.nullary_bufs_sub .., StableHlo.unary_bufs_sub .., StableHlo.binary_bufs_sub ..⟩
theorem main_part1_ops7_fresh : (main_part1_ops7 : List (HloOp τ sig (Elt F))).Forall fun op => op.fresh = ∅ := by
  simp only [List.Forall]; repeat' constructor
theorem main_part1_ops7_writes : StableHlo.HostSim.WritesFrom 181 (main_part1_ops7 : List (HloOp τ sig (Elt F))) := by
  repeat (first | exact .nil _ | refine .cons ⟨_, rfl, rfl, rfl⟩ ?_)
abbrev main_part1_ops8 : List (HloOp τ sig (Elt F)) :=
  [ StableHlo.nullary main_c_14 (constantI S_ 32 0#32),
    StableHlo.unary main_c_14 main_v102 (broadcastInDim S160000 ![] bcast_S_S160000 : (⟨S_, .i32⟩ : BufTy).Contents (Elt F) → (⟨S160000, .i32⟩ : BufTy).Contents (Elt F)) ]
theorem main_part1_ops8_sub : (main_part1_ops8 : List (HloOp τ sig (Elt F))).Forall fun op => op.bufs ⊆ StableHlo.tcRefs τ sig :=
  ⟨StableHlo.nullary_bufs_sub .., StableHlo.unary_bufs_sub ..⟩
theorem main_part1_ops8_fresh : (main_part1_ops8 : List (HloOp τ sig (Elt F))).Forall fun op => op.fresh = ∅ := by
  simp only [List.Forall]; repeat' constructor
theorem main_part1_ops8_writes : StableHlo.HostSim.WritesFrom 184 (main_part1_ops8 : List (HloOp τ sig (Elt F))) := by
  repeat (first | exact .nil _ | refine .cons ⟨_, rfl, rfl, rfl⟩ ?_)
abbrev main_part2_ops0 : List (HloOp τ sig (Elt F)) :=
  [ StableHlo.binary main_v1 main_v102 main_v103 (cmpi .slt : (⟨S160000, .i32⟩ : BufTy).Contents (Elt F) → (⟨S160000, .i32⟩ : BufTy).Contents (Elt F) → (⟨S160000, .i1⟩ : BufTy).Contents (Elt F)),
    StableHlo.nullary main_c_15 (constantI S_ 32 10000#32),
    StableHlo.unary main_c_15 main_v104 (broadcastInDim S160000 ![] bcast_S_S160000 : (⟨S_, .i32⟩ : BufTy).Contents (Elt F) → (⟨S160000, .i32⟩ : BufTy).Contents (Elt F)),
    StableHlo.binary main_v1 main_v104 main_v105 (addi : (⟨S160000, .i32⟩ : BufTy).Contents (Elt F) → (⟨S160000, .i32⟩ : BufTy).Contents (Elt F) → (⟨S160000, .i32⟩ : BufTy).Contents (Elt F)),
    StableHlo.ternary main_v103 main_v105 main_v1 main_v106 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v106 main_v107 (broadcastInDim S160000x1 ![0] bcast_S160000_S160000x1_0 : (⟨S160000, .i32⟩ : BufTy).Contents (Elt F) → (⟨S160000x1, .i32⟩ : BufTy).Contents (Elt F)),
    StableHlo.binary main_v101 main_v107 main_v108 ((fun x i => Host.gather gather_S10000x300_S160000x1_S160000x300_1_0_n_n_0_1_1300 x i) : (⟨S10000x300, .f32⟩ : BufTy).Contents (Elt F) → (⟨S160000x1, .i32⟩ : BufTy).Contents (Elt F) → (⟨S160000x300, .f32⟩ : BufTy).Contents (Elt F)),
    StableHlo.unary main_arg6 main_v109 ((extractStridedSlice S1x5x300 ![1, 0, 0] · slices_S7x5x300_S1x5x300_1_0_0) : (⟨S7x5x300, .f32⟩ : BufTy).Contents (Elt F) → (⟨S1x5x300, .f32⟩ : BufTy).Contents (Elt F)),
    StableHlo.reshape main_v109 main_v110 rfl shapeCasts_S1x5x300_S5x300,
    StableHlo.nullary main_c_16 (constantI S_ 32 0#32),
    StableHlo.unary main_c_16 main_v111 (broadcastInDim S160000 ![] bcast_S_S160000 : (⟨S_, .i32⟩ : BufTy).Contents (Elt F) → (⟨S160000, .i32⟩ : BufTy).Contents (Elt F)),
    StableHlo.binary main_arg2 main_v111 main_v112 (cmpi .slt : (⟨S160000, .i32⟩ : BufTy).Contents (Elt F) → (⟨S160000, .i32⟩ : BufTy).Contents (Elt F) → (⟨S160000, .i1⟩ : BufTy).Contents (Elt F)),
    StableHlo.nullary main_c_17 (constantI S_ 32 5#32),
    StableHlo.unary main_c_17 main_v113 (broadcastInDim S160000 ![] bcast_S_S160000 : (⟨S_, .i32⟩ : BufTy).Contents (Elt F) → (⟨S160000, .i32⟩ : BufTy).Contents (Elt F)),
    StableHlo.binary main_arg2 main_v113 main_v114 (addi : (⟨S160000, .i32⟩ : BufTy).Contents (Elt F) → (⟨S160000, .i32⟩ : BufTy).Contents (Elt F) → (⟨S160000, .i32⟩ : BufTy).Contents (Elt F)),
    StableHlo.ternary main_v112 main_v114 main_arg2 main_v115 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v115 main_v116 (broadcastInDim S160000x1 ![0] bcast_S160000_S160000x1_0 : (⟨S160000, .i32⟩ : BufTy).Contents (Elt F) → (⟨S160000x1, .i32⟩ : BufTy).Contents (Elt F)),
    StableHlo.binary main_v110 main_v116 main_v117 ((fun x i => Host.gather gather_S5x300_S160000x1_S160000x300_1_0_n_n_0_1_1300 x i) : (⟨S5x300, .f32⟩ : BufTy).Contents (Elt F) → (⟨S160000x1, .i32⟩ : BufTy).Contents (Elt F) → (⟨S160000x300, .f32⟩ : BufTy).Contents (Elt F)),
    StableHlo.binary main_v108 main_v117 main_v118 (addf : (⟨S160000x300, .f32⟩ : BufTy).Contents (Elt F) → (⟨S160000x300, .f32⟩ : BufTy).Contents (Elt F) → (⟨S160000x300, .f32⟩ : BufTy).Contents (Elt F)) ]
theorem main_part2_ops0_sub : (main_part2_ops0 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩
theorem main_part2_ops0_fresh : (main_part2_ops0 : List (HloOp τ sig (Elt F))).Forall fun op => op.fresh = ∅ := by
  simp only [List.Forall]; repeat' constructor
theorem main_part2_ops0_writes : StableHlo.HostSim.WritesFrom 186 (main_part2_ops0 : List (HloOp τ sig (Elt F))) := by
  repeat (first | exact .nil _ | refine .cons ⟨_, rfl, rfl, rfl⟩ ?_)
abbrev main_part2_ops1 : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S160000x300, .f32⟩) (broadcastInDim S160000x300 ![] bcast_S_S160000x300),
    StableHlo.TRef.binary (.of main_v118 : StableHlo.TRef sig ⟨S160000x300, .f32⟩) (.of main_call5_v0 : StableHlo.TRef sig ⟨S160000x300, .f32⟩) (.of main_v119 : StableHlo.TRef sig ⟨S160000x300, .f32⟩) maximumf ]
theorem main_part2_ops1_sub : (main_part2_ops1 : List (HloOp τ sig (Elt F))).Forall fun op => op.bufs ⊆ StableHlo.tcRefs τ sig :=
  ⟨StableHlo.nullary_bufs_sub .., StableHlo.unary_bufs_sub .., StableHlo.binary_bufs_sub ..⟩
theorem main_part2_ops1_fresh : (main_part2_ops1 : List (HloOp τ sig (Elt F))).Forall fun op => op.fresh = ∅ := by
  simp only [List.Forall]; repeat' constructor
theorem main_part2_ops1_writes : StableHlo.HostSim.WritesFrom 205 (main_part2_ops1 : List (HloOp τ sig (Elt F))) := by
  repeat (first | exact .nil _ | refine .cons ⟨_, rfl, rfl, rfl⟩ ?_)
abbrev main_part2_ops2 : List (HloOp τ sig (Elt F)) :=
  [ StableHlo.nullary main_cst_18 (constant S_ .f32 0x00000000#32),
    StableHlo.unary main_cst_18 main_v120 (broadcastInDim S10000x300 ![] bcast_S_S10000x300 : (⟨S_, .f32⟩ : BufTy).Contents (Elt F) → (⟨S10000x300, .f32⟩ : BufTy).Contents (Elt F)),
    StableHlo.unary main_v3 main_v121 (broadcastInDim S160000x1 ![0] bcast_S160000_S160000x1_0 : (⟨S160000, .i32⟩ : BufTy).Contents (Elt F) → (⟨S160000x1, .i32⟩ : BufTy).Contents (Elt F)),
    StableHlo.ternary main_v120 main_v121 main_v119 main_v122 ((fun x i u => Host.scatterAdd scatter_S10000x300_S160000x1_S160000x300_1_0_0_1 x i u) : (⟨S10000x300, .f32⟩ : BufTy).Contents (Elt F) → (⟨S160000x1, .i32⟩ : BufTy).Contents (Elt F) → (⟨S160000x300, .f32⟩ : BufTy).Contents (Elt F) → (⟨S10000x300, .f32⟩ : BufTy).Contents (Elt F)),
    StableHlo.unary main_arg13 main_v123 ((extractStridedSlice S1 ![1] · slices_S7_S1_1) : (⟨S7, .f32⟩ : BufTy).Contents (Elt F) → (⟨S1, .f32⟩ : BufTy).Contents (Elt F)),
    StableHlo.reshape main_v123 main_v124 rfl shapeCasts_S1_S_,
    StableHlo.nullary main_cst_19 (constant S_ .f32 0x3F800000#32),
    StableHlo.binary main_cst_19 main_v124 main_v125 (addf : (⟨S_, .f32⟩ : BufTy).Contents (Elt F) → (⟨S_, .f32⟩ : BufTy).Contents (Elt F) → (⟨S_, .f32⟩ : BufTy).Contents (Elt F)),
    StableHlo.unary main_v125 main_v126 (broadcastInDim S10000x300 ![] bcast_S_S10000x300 : (⟨S_, .f32⟩ : BufTy).Contents (Elt F) → (⟨S10000x300, .f32⟩ : BufTy).Contents (Elt F)),
    StableHlo.binary main_v126 main_v101 main_v127 (mulf : (⟨S10000x300, .f32⟩ : BufTy).Contents (Elt F) → (⟨S10000x300, .f32⟩ : BufTy).Contents (Elt F) → (⟨S10000x300, .f32⟩ : BufTy).Contents (Elt F)),
    StableHlo.binary main_v127 main_v122 main_v128 (addf : (⟨S10000x300, .f32⟩ : BufTy).Contents (Elt F) → (⟨S10000x300, .f32⟩ : BufTy).Contents (Elt F) → (⟨S10000x300, .f32⟩ : BufTy).Contents (Elt F)),
    StableHlo.unary main_arg7 main_v129 ((extractStridedSlice S1x300x600 ![1, 0, 0] · slices_S7x300x600_S1x300x600_1_0_0) : (⟨S7x300x600, .f32⟩ : BufTy).Contents (Elt F) → (⟨S1x300x600, .f32⟩ : BufTy).Contents (Elt F)),
    StableHlo.reshape main_v129 main_v130 rfl shapeCasts_S1x300x600_S300x600,
    StableHlo.binary main_v128 main_v130 main_v131 ((fun l r => Host.dotGeneral dot_S10000x300_S300x600_S10000x600_1_0_0_1_n_n none l r) : (⟨S10000x300, .f32⟩ : BufTy).Contents (Elt F) → (⟨S300x600, .f32⟩ : BufTy).Contents (Elt F) → (⟨S10000x600, .f32⟩ : BufTy).Contents (Elt F)),
    StableHlo.unary main_arg8 main_v132 ((extractStridedSlice S1x600 ![1, 0] · slices_S7x600_S1x600_1_0) : (⟨S7x600, .f32⟩ : BufTy).Contents (Elt F) → (⟨S1x600, .f32⟩ : BufTy).Contents (Elt F)),
    StableHlo.reshape main_v132 main_v133 rfl shapeCasts_S1x600_S600,
    StableHlo.unary main_v133 main_v134 (broadcastInDim S1x600 ![1] bcast_S600_S1x600_1 : (⟨S600, .f32⟩ : BufTy).Contents (Elt F) → (⟨S1x600, .f32⟩ : BufTy).Contents (Elt F)),
    StableHlo.unary main_v134 main_v135 (broadcastInDim S10000x600 ![0, 1] bcast_S1x600_S10000x600_0_1 : (⟨S1x600, .f32⟩ : BufTy).Contents (Elt F) → (⟨S10000x600, .f32⟩ : BufTy).Contents (Elt F)),
    StableHlo.binary main_v131 main_v135 main_v136 (addf : (⟨S10000x600, .f32⟩ : BufTy).Contents (Elt F) → (⟨S10000x600, .f32⟩ : BufTy).Contents (Elt F) → (⟨S10000x600, .f32⟩ : BufTy).Contents (Elt F)),
    StableHlo.unary main_arg9 main_v137 ((extractStridedSlice S1x600 ![1, 0] · slices_S7x600_S1x600_1_0) : (⟨S7x600, .f32⟩ : BufTy).Contents (Elt F) → (⟨S1x600, .f32⟩ : BufTy).Contents (Elt F)),
    StableHlo.reshape main_v137 main_v138 rfl shapeCasts_S1x600_S600,
    StableHlo.unary main_arg10 main_v139 ((extractStridedSlice S1x600 ![1, 0] · slices_S7x600_S1x600_1_0) : (⟨S7x600, .f32⟩ : BufTy).Contents (Elt F) → (⟨S1x600, .f32⟩ : BufTy).Contents (Elt F)),
    StableHlo.reshape main_v139 main_v140 rfl shapeCasts_S1x600_S600,
    StableHlo.nullary main_cst_20 (constant S_ .f32 0x00000000#32),
    StableHlo.binary main_v136 main_cst_20 main_v141 ((fun x v => Host.reduceAdd x v reducesTo_S10000x600_S600_d0 h_S_) : (⟨S10000x600, .f32⟩ : BufTy).Contents (Elt F) → (⟨S_, .f32⟩ : BufTy).Contents (Elt F) → (⟨S600, .f32⟩ : BufTy).Contents (Elt F)),
    StableHlo.nullary main_cst_21 (constant S_ .f32 0x461C4000#32),
    StableHlo.unary main_cst_21 main_v142 (broadcastInDim S600 ![] bcast_S_S600 : (⟨S_, .f32⟩ : BufTy).Contents (Elt F) → (⟨S600, .f32⟩ : BufTy).Contents (Elt F)),
    StableHlo.binary main_v141 main_v142 main_v143 (Host.divf : (⟨S600, .f32⟩ : BufTy).Contents (Elt F) → (⟨S600, .f32⟩ : BufTy).Contents (Elt F) → (⟨S600, .f32⟩ : BufTy).Contents (Elt F)),
    StableHlo.nullary main_c_22 (constantI S_ 32 0#32) ]
theorem main_part2_ops2_sub : (main_part2_ops2 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub ..⟩
theorem main_part2_ops2_fresh : (main_part2_ops2 : List (HloOp τ sig (Elt F))).Forall fun op => op.fresh = ∅ := by
  simp only [List.Forall]; repeat' constructor
theorem main_part2_ops2_writes : StableHlo.HostSim.WritesFrom 208 (main_part2_ops2 : List (HloOp τ sig (Elt F))) := by
  repeat (first | exact .nil _ | refine .cons ⟨_, rfl, rfl, rfl⟩ ?_)
abbrev main_part2_ops3 : List (HloOp τ sig (Elt F)) :=
  [ StableHlo.TRef.nullary (.of main_call6_cst : StableHlo.TRef sig ⟨S_, .f32⟩) (constant S_ .f32 0x00000000#32),
    StableHlo.TRef.binary (.of main_v136 : StableHlo.TRef sig ⟨S10000x600, .f32⟩) (.of main_call6_cst : StableHlo.TRef sig ⟨S_, .f32⟩) (.of main_call6_v0 : StableHlo.TRef sig ⟨S600, .f32⟩) (fun x v => Host.reduceAdd x v reducesTo_S10000x600_S600_d0 h_S_),
    StableHlo.TRef.unary (.of main_call6_v0 : StableHlo.TRef sig ⟨S600, .f32⟩) (.of main_call6_v1 : StableHlo.TRef sig ⟨S1x600, .f32⟩) (broadcastInDim S1x600 ![1] bcast_S600_S1x600_1),
    StableHlo.TRef.nullary (.of main_call6_cst_0 : StableHlo.TRef sig ⟨S_, .f32⟩) (constant S_ .f32 0x461C4000#32),
    StableHlo.TRef.unary (.of main_call6_cst_0 : StableHlo.TRef sig ⟨S_, .f32⟩) (.of main_call6_v2 : StableHlo.TRef sig ⟨S1x600, .f32⟩) (broadcastInDim S1x600 ![] bcast_S_S1x600),
    StableHlo.TRef.binary (.of main_call6_v1 : StableHlo.TRef sig ⟨S1x600, .f32⟩) (.of main_call6_v2 : StableHlo.TRef sig ⟨S1x600, .f32⟩) (.of main_call6_v3 : StableHlo.TRef sig ⟨S1x600, .f32⟩) Host.divf,
    StableHlo.TRef.unary (.of main_call6_v3 : StableHlo.TRef sig ⟨S1x600, .f32⟩) (.of main_call6_v4 : StableHlo.TRef sig ⟨S10000x600, .f32⟩) (broadcastInDim S10000x600 ![0, 1] bcast_S1x600_S10000x600_0_1),
    StableHlo.TRef.binary (.of main_v136 : StableHlo.TRef sig ⟨S10000x600, .f32⟩) (.of main_call6_v4 : StableHlo.TRef sig ⟨S10000x600, .f32⟩) (.of main_call6_v5 : StableHlo.TRef sig ⟨S10000x600, .f32⟩) subf,
    StableHlo.TRef.binary (.of main_call6_v5 : StableHlo.TRef sig ⟨S10000x600, .f32⟩) (.of main_call6_v5 : StableHlo.TRef sig ⟨S10000x600, .f32⟩) (.of main_call6_v6 : StableHlo.TRef sig ⟨S10000x600, .f32⟩) mulf,
    StableHlo.TRef.unary (.of main_c_22 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x461C4000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S10000x600, .f32⟩) (.of main_call6_cst_2 : StableHlo.TRef sig ⟨S_, .f32⟩) (.of main_call6_v9 : StableHlo.TRef sig ⟨S600, .f32⟩) (fun x v => Host.reduceAdd x v reducesTo_S10000x600_S600_d0 h_S_),
    StableHlo.TRef.unary (.of main_call6_v8 : StableHlo.TRef sig ⟨S_, .f32⟩) (.of main_call6_v10 : StableHlo.TRef sig ⟨S600, .f32⟩) (broadcastInDim S600 ![] bcast_S_S600),
    StableHlo.TRef.binary (.of main_call6_v9 : StableHlo.TRef sig ⟨S600, .f32⟩) (.of main_call6_v10 : StableHlo.TRef sig ⟨S600, .f32⟩) (.of main_call6_v11 : StableHlo.TRef sig ⟨S600, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S600, .f32⟩) (broadcastInDim S600 ![] bcast_S_S600),
    StableHlo.TRef.ternary (.of main_call6_v12 : StableHlo.TRef sig ⟨S_, .i1⟩) (.of main_call6_v11 : StableHlo.TRef sig ⟨S600, .f32⟩) (.of main_call6_call0_v1 : StableHlo.TRef sig ⟨S600, .f32⟩) (.of main_v144 : StableHlo.TRef sig ⟨S600, .f32⟩) (fun p a b => select (broadcastInDim S600 ![] bcast_S_S600 p) a b) ]
theorem main_part2_ops3_sub : (main_part2_ops3 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem main_part2_ops3_fresh : (main_part2_ops3 : List (HloOp τ sig (Elt F))).Forall fun op => op.fresh = ∅ := by
  simp only [List.Forall]; repeat' constructor
theorem main_part2_ops3_writes : StableHlo.HostSim.WritesFrom 237 (main_part2_ops3 : List (HloOp τ sig (Elt F))) := by
  repeat (first | exact .nil _ | refine .cons ⟨_, rfl, rfl, rfl⟩ ?_)
abbrev main_part2_ops4 : List (HloOp τ sig (Elt F)) :=
  [ StableHlo.unary main_v143 main_v145 (broadcastInDim S1x600 ![1] bcast_S600_S1x600_1 : (⟨S600, .f32⟩ : BufTy).Contents (Elt F) → (⟨S1x600, .f32⟩ : BufTy).Contents (Elt F)),
    StableHlo.unary main_v145 main_v146 (broadcastInDim S10000x600 ![0, 1] bcast_S1x600_S10000x600_0_1 : (⟨S1x600, .f32⟩ : BufTy).Contents (Elt F) → (⟨S10000x600, .f32⟩ : BufTy).Contents (Elt F)),
    StableHlo.binary main_v136 main_v146 main_v147 (subf : (⟨S10000x600, .f32⟩ : BufTy).Contents (Elt F) → (⟨S10000x600, .f32⟩ : BufTy).Contents (Elt F) → (⟨S10000x600, .f32⟩ : BufTy).Contents (Elt F)),
    StableHlo.nullary main_cst_23 (constant S_ .f32 0x3727C5AC#32),
    StableHlo.unary main_cst_23 main_v148 (broadcastInDim S600 ![] bcast_S_S600 : (⟨S_, .f32⟩ : BufTy).Contents (Elt F) → (⟨S600, .f32⟩ : BufTy).Contents (Elt F)),
    StableHlo.binary main_v144 main_v148 main_v149 (addf : (⟨S600, .f32⟩ : BufTy).Contents (Elt F) → (⟨S600, .f32⟩ : BufTy).Contents (Elt F) → (⟨S600, .f32⟩ : BufTy).Contents (Elt F)),
    StableHlo.unary main_v149 main_v150 (Host.sqrt : (⟨S600, .f32⟩ : BufTy).Contents (Elt F) → (⟨S600, .f32⟩ : BufTy).Contents (Elt F)),
    StableHlo.unary main_v150 main_v151 (broadcastInDim S1x600 ![1] bcast_S600_S1x600_1 : (⟨S600, .f32⟩ : BufTy).Contents (Elt F) → (⟨S1x600, .f32⟩ : BufTy).Contents (Elt F)),
    StableHlo.unary main_v151 main_v152 (broadcastInDim S10000x600 ![0, 1] bcast_S1x600_S10000x600_0_1 : (⟨S1x600, .f32⟩ : BufTy).Contents (Elt F) → (⟨S10000x600, .f32⟩ : BufTy).Contents (Elt F)),
    StableHlo.binary main_v147 main_v152 main_v153 (Host.divf : (⟨S10000x600, .f32⟩ : BufTy).Contents (Elt F) → (⟨S10000x600, .f32⟩ : BufTy).Contents (Elt F) → (⟨S10000x600, .f32⟩ : BufTy).Contents (Elt F)) ]
theorem main_part2_ops4_sub : (main_part2_ops4 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub ..⟩
theorem main_part2_ops4_fresh : (main_part2_ops4 : List (HloOp τ sig (Elt F))).Forall fun op => op.fresh = ∅ := by
  simp only [List.Forall]; repeat' constructor
theorem main_part2_ops4_writes : StableHlo.HostSim.WritesFrom 259 (main_part2_ops4 : List (HloOp τ sig (Elt F))) := by
  repeat (first | exact .nil _ | refine .cons ⟨_, rfl, rfl, rfl⟩ ?_)
abbrev main_part3_ops0 : List (HloOp τ sig (Elt F)) :=
  [ StableHlo.unary main_v138 main_v154 (broadcastInDim S1x600 ![1] bcast_S600_S1x600_1 : (⟨S600, .f32⟩ : BufTy).Contents (Elt F) → (⟨S1x600, .f32⟩ : BufTy).Contents (Elt F)),
    StableHlo.unary main_v154 main_v155 (broadcastInDim S10000x600 ![0, 1] bcast_S1x600_S10000x600_0_1 : (⟨S1x600, .f32⟩ : BufTy).Contents (Elt F) → (⟨S10000x600, .f32⟩ : BufTy).Contents (Elt F)),
    StableHlo.binary main_v153 main_v155 main_v156 (mulf : (⟨S10000x600, .f32⟩ : BufTy).Contents (Elt F) → (⟨S10000x600, .f32⟩ : BufTy).Contents (Elt F) → (⟨S10000x600, .f32⟩ : BufTy).Contents (Elt F)),
    StableHlo.unary main_v140 main_v157 (broadcastInDim S1x600 ![1] bcast_S600_S1x600_1 : (⟨S600, .f32⟩ : BufTy).Contents (Elt F) → (⟨S1x600, .f32⟩ : BufTy).Contents (Elt F)),
    StableHlo.unary main_v157 main_v158 (broadcastInDim S10000x600 ![0, 1] bcast_S1x600_S10000x600_0_1 : (⟨S1x600, .f32⟩ : BufTy).Contents (Elt F) → (⟨S10000x600, .f32⟩ : BufTy).Contents (Elt F)),
    StableHlo.binary main_v156 main_v158 main_v159 (addf : (⟨S10000x600, .f32⟩ : BufTy).Contents (Elt F) → (⟨S10000x600, .f32⟩ : BufTy).Contents (Elt F) → (⟨S10000x600, .f32⟩ : BufTy).Contents (Elt F)) ]
theorem main_part3_ops0_sub : (main_part3_ops0 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part3_ops0_fresh : (main_part3_ops0 : List (HloOp τ sig (Elt F))).Forall fun op => op.fresh = ∅ := by
  simp only [List.Forall]; repeat' constructor
theorem main_part3_ops0_writes : StableHlo.HostSim.WritesFrom 269 (main_part3_ops0 : List (HloOp τ sig (Elt F))) := by
  repeat (first | exact .nil _ | refine .cons ⟨_, rfl, rfl, rfl⟩ ?_)
abbrev main_part3_ops1 : List (HloOp τ sig (Elt F)) :=
  [ StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S10000x600, .f32⟩) (broadcastInDim S10000x600 ![] bcast_S_S10000x600),
    StableHlo.TRef.binary (.of main_v159 : StableHlo.TRef sig ⟨S10000x600, .f32⟩) (.of main_call7_v0 : StableHlo.TRef sig ⟨S10000x600, .f32⟩) (.of main_v160 : StableHlo.TRef sig ⟨S10000x600, .f32⟩) maximumf ]
theorem main_part3_ops1_sub : (main_part3_ops1 : List (HloOp τ sig (Elt F))).Forall fun op => op.bufs ⊆ StableHlo.tcRefs τ sig :=
  ⟨StableHlo.nullary_bufs_sub .., StableHlo.unary_bufs_sub .., StableHlo.binary_bufs_sub ..⟩
theorem main_part3_ops1_fresh : (main_part3_ops1 : List (HloOp τ sig (Elt F))).Forall fun op => op.fresh = ∅ := by
  simp only [List.Forall]; repeat' constructor
theorem main_part3_ops1_writes : StableHlo.HostSim.WritesFrom 275 (main_part3_ops1 : List (HloOp τ sig (Elt F))) := by
  repeat (first | exact .nil _ | refine .cons ⟨_, rfl, rfl, rfl⟩ ?_)
abbrev main_part3_ops2 : List (HloOp τ sig (Elt F)) :=
  [ StableHlo.unary main_arg11 main_v161 ((extractStridedSlice S1x600x300 ![1, 0, 0] · slices_S7x600x300_S1x600x300_1_0_0) : (⟨S7x600x300, .f32⟩ : BufTy).Contents (Elt F) → (⟨S1x600x300, .f32⟩ : BufTy).Contents (Elt F)),
    StableHlo.reshape main_v161 main_v162 rfl shapeCasts_S1x600x300_S600x300,
    StableHlo.binary main_v160 main_v162 main_v163 ((fun l r => Host.dotGeneral dot_S10000x600_S600x300_S10000x300_1_0_0_1_n_n none l r) : (⟨S10000x600, .f32⟩ : BufTy).Contents (Elt F) → (⟨S600x300, .f32⟩ : BufTy).Contents (Elt F) → (⟨S10000x300, .f32⟩ : BufTy).Contents (Elt F)),
    StableHlo.unary main_arg12 main_v164 ((extractStridedSlice S1x300 ![1, 0] · slices_S7x300_S1x300_1_0) : (⟨S7x300, .f32⟩ : BufTy).Contents (Elt F) → (⟨S1x300, .f32⟩ : BufTy).Contents (Elt F)),
    StableHlo.reshape main_v164 main_v165 rfl shapeCasts_S1x300_S300,
    StableHlo.unary main_v165 main_v166 (broadcastInDim S1x300 ![1] bcast_S300_S1x300_1 : (⟨S300, .f32⟩ : BufTy).Contents (Elt F) → (⟨S1x300, .f32⟩ : BufTy).Contents (Elt F)),
    StableHlo.unary main_v166 main_v167 (broadcastInDim S10000x300 ![0, 1] bcast_S1x300_S10000x300_0_1 : (⟨S1x300, .f32⟩ : BufTy).Contents (Elt F) → (⟨S10000x300, .f32⟩ : BufTy).Contents (Elt F)),
    StableHlo.binary main_v163 main_v167 main_v168 (addf : (⟨S10000x300, .f32⟩ : BufTy).Contents (Elt F) → (⟨S10000x300, .f32⟩ : BufTy).Contents (Elt F) → (⟨S10000x300, .f32⟩ : BufTy).Contents (Elt F)),
    StableHlo.unary main_arg14 main_v169 ((extractStridedSlice S1x300 ![1, 0] · slices_S7x300_S1x300_1_0) : (⟨S7x300, .f32⟩ : BufTy).Contents (Elt F) → (⟨S1x300, .f32⟩ : BufTy).Contents (Elt F)),
    StableHlo.reshape main_v169 main_v170 rfl shapeCasts_S1x300_S300,
    StableHlo.unary main_arg15 main_v171 ((extractStridedSlice S1x300 ![1, 0] · slices_S7x300_S1x300_1_0) : (⟨S7x300, .f32⟩ : BufTy).Contents (Elt F) → (⟨S1x300, .f32⟩ : BufTy).Contents (Elt F)),
    StableHlo.reshape main_v171 main_v172 rfl shapeCasts_S1x300_S300,
    StableHlo.nullary main_cst_24 (constant S_ .f32 0x00000000#32),
    StableHlo.binary main_v168 main_cst_24 main_v173 ((fun x v => Host.reduceAdd x v reducesTo_S10000x300_S300_d0 h_S_) : (⟨S10000x300, .f32⟩ : BufTy).Contents (Elt F) → (⟨S_, .f32⟩ : BufTy).Contents (Elt F) → (⟨S300, .f32⟩ : BufTy).Contents (Elt F)),
    StableHlo.nullary main_cst_25 (constant S_ .f32 0x461C4000#32),
    StableHlo.unary main_cst_25 main_v174 (broadcastInDim S300 ![] bcast_S_S300 : (⟨S_, .f32⟩ : BufTy).Contents (Elt F) → (⟨S300, .f32⟩ : BufTy).Contents (Elt F)),
    StableHlo.binary main_v173 main_v174 main_v175 (Host.divf : (⟨S300, .f32⟩ : BufTy).Contents (Elt F) → (⟨S300, .f32⟩ : BufTy).Contents (Elt F) → (⟨S300, .f32⟩ : BufTy).Contents (Elt F)),
    StableHlo.nullary main_c_26 (constantI S_ 32 0#32) ]
theorem main_part3_ops2_sub : (main_part3_ops2 : List (HloOp τ sig (Elt F))).Forall fun op => op.bufs ⊆ StableHlo.tcRefs τ sig :=
  ⟨StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub ..⟩
theorem main_part3_ops2_fresh : (main_part3_ops2 : List (HloOp τ sig (Elt F))).Forall fun op => op.fresh = ∅ := by
  simp only [List.Forall]; repeat' constructor
theorem main_part3_ops2_writes : StableHlo.HostSim.WritesFrom 278 (main_part3_ops2 : List (HloOp τ sig (Elt F))) := by
  repeat (first | exact .nil _ | refine .cons ⟨_, rfl, rfl, rfl⟩ ?_)
abbrev main_part3_ops3 : List (HloOp τ sig (Elt F)) :=
  [ StableHlo.TRef.nullary (.of main_call8_cst : StableHlo.TRef sig ⟨S_, .f32⟩) (constant S_ .f32 0x00000000#32),
    StableHlo.TRef.binary (.of main_v168 : StableHlo.TRef sig ⟨S10000x300, .f32⟩) (.of main_call8_cst : StableHlo.TRef sig ⟨S_, .f32⟩) (.of main_call8_v0 : StableHlo.TRef sig ⟨S300, .f32⟩) (fun x v => Host.reduceAdd x v reducesTo_S10000x300_S300_d0 h_S_),
    StableHlo.TRef.unary (.of main_call8_v0 : StableHlo.TRef sig ⟨S300, .f32⟩) (.of main_call8_v1 : StableHlo.TRef sig ⟨S1x300, .f32⟩) (broadcastInDim S1x300 ![1] bcast_S300_S1x300_1),
    StableHlo.TRef.nullary (.of main_call8_cst_0 : StableHlo.TRef sig ⟨S_, .f32⟩) (constant S_ .f32 0x461C4000#32),
    StableHlo.TRef.unary (.of main_call8_cst_0 : StableHlo.TRef sig ⟨S_, .f32⟩) (.of main_call8_v2 : StableHlo.TRef sig ⟨S1x300, .f32⟩) (broadcastInDim S1x300 ![] bcast_S_S1x300),
    StableHlo.TRef.binary (.of main_call8_v1 : StableHlo.TRef sig ⟨S1x300, .f32⟩) (.of main_call8_v2 : StableHlo.TRef sig ⟨S1x300, .f32⟩) (.of main_call8_v3 : StableHlo.TRef sig ⟨S1x300, .f32⟩) Host.divf,
    StableHlo.TRef.unary (.of main_call8_v3 : StableHlo.TRef sig ⟨S1x300, .f32⟩) (.of main_call8_v4 : StableHlo.TRef sig ⟨S10000x300, .f32⟩) (broadcastInDim S10000x300 ![0, 1] bcast_S1x300_S10000x300_0_1),
    StableHlo.TRef.binary (.of main_v168 : StableHlo.TRef sig ⟨S10000x300, .f32⟩) (.of main_call8_v4 : StableHlo.TRef sig ⟨S10000x300, .f32⟩) (.of main_call8_v5 : StableHlo.TRef sig ⟨S10000x300, .f32⟩) subf,
    StableHlo.TRef.binary (.of main_call8_v5 : StableHlo.TRef sig ⟨S10000x300, .f32⟩) (.of main_call8_v5 : StableHlo.TRef sig ⟨S10000x300, .f32⟩) (.of main_call8_v6 : StableHlo.TRef sig ⟨S10000x300, .f32⟩) mulf,
    StableHlo.TRef.unary (.of main_c_26 : StableHlo.TRef sig ⟨S_, .i32⟩) (.of main_call8_v7 : StableHlo.TRef sig ⟨S_, .f32⟩) (sitofp .f32),
    StableHlo.TRef.nullary (.of main_call8_cst_1 : StableHlo.TRef sig ⟨S_, .f32⟩) (constant S_ .f32 0x461C4000#32),
    StableHlo.TRef.binary (.of main_call8_cst_1 : StableHlo.TRef sig ⟨S_, .f32⟩) (.of main_call8_v7 : StableHlo.TRef sig ⟨S_, .f32⟩) (.of main_call8_v8 : StableHlo.TRef sig ⟨S_, .f32⟩) subf,
    StableHlo.TRef.nullary (.of main_call8_cst_2 : StableHlo.TRef sig ⟨S_, .f32⟩) (constant S_ .f32 0x00000000#32),
    StableHlo.TRef.binary (.of main_call8_v6 : StableHlo.TRef sig ⟨S10000x300, .f32⟩) (.of main_call8_cst_2 : StableHlo.TRef sig ⟨S_, .f32⟩) (.of main_call8_v9 : StableHlo.TRef sig ⟨S300, .f32⟩) (fun x v => Host.reduceAdd x v reducesTo_S10000x300_S300_d0 h_S_),
    StableHlo.TRef.unary (.of main_call8_v8 : StableHlo.TRef sig ⟨S_, .f32⟩) (.of main_call8_v10 : StableHlo.TRef sig ⟨S300, .f32⟩) (broadcastInDim S300 ![] bcast_S_S300),
    StableHlo.TRef.binary (.of main_call8_v9 : StableHlo.TRef sig ⟨S300, .f32⟩) (.of main_call8_v10 : StableHlo.TRef sig ⟨S300, .f32⟩) (.of main_call8_v11 : StableHlo.TRef sig ⟨S300, .f32⟩) Host.divf,
    StableHlo.TRef.nullary (.of main_call8_cst_3 : StableHlo.TRef sig ⟨S_, .f32⟩) (constant S_ .f32 0x00000000#32),
    StableHlo.TRef.binary (.of main_call8_v8 : StableHlo.TRef sig ⟨S_, .f32⟩) (.of main_call8_cst_3 : StableHlo.TRef sig ⟨S_, .f32⟩) (.of main_call8_v12 : StableHlo.TRef sig ⟨S_, .i1⟩) (cmpf .ogt),
    StableHlo.TRef.nullary (.of main_call8_cst_4 : StableHlo.TRef sig ⟨S_, .f32⟩) (constant S_ .f32 0x7FC00000#32),
    StableHlo.TRef.unary (.of main_call8_cst_4 : StableHlo.TRef sig ⟨S_, .f32⟩) (.of main_call8_call0_v0 : StableHlo.TRef sig ⟨S_, .f32⟩) id,
    StableHlo.TRef.unary (.of main_call8_call0_v0 : StableHlo.TRef sig ⟨S_, .f32⟩) (.of main_call8_call0_v1 : StableHlo.TRef sig ⟨S300, .f32⟩) (broadcastInDim S300 ![] bcast_S_S300),
    StableHlo.TRef.ternary (.of main_call8_v12 : StableHlo.TRef sig ⟨S_, .i1⟩) (.of main_call8_v11 : StableHlo.TRef sig ⟨S300, .f32⟩) (.of main_call8_call0_v1 : StableHlo.TRef sig ⟨S300, .f32⟩) (.of main_v176 : StableHlo.TRef sig ⟨S300, .f32⟩) (fun p a b => select (broadcastInDim S300 ![] bcast_S_S300 p) a b) ]
theorem main_part3_ops3_sub : (main_part3_ops3 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem main_part3_ops3_fresh : (main_part3_ops3 : List (HloOp τ sig (Elt F))).Forall fun op => op.fresh = ∅ := by
  simp only [List.Forall]; repeat' constructor
theorem main_part3_ops3_writes : StableHlo.HostSim.WritesFrom 296 (main_part3_ops3 : List (HloOp τ sig (Elt F))) := by
  repeat (first | exact .nil _ | refine .cons ⟨_, rfl, rfl, rfl⟩ ?_)
abbrev main_part3_ops4 : List (HloOp τ sig (Elt F)) :=
  [ StableHlo.unary main_v175 main_v177 (broadcastInDim S1x300 ![1] bcast_S300_S1x300_1 : (⟨S300, .f32⟩ : BufTy).Contents (Elt F) → (⟨S1x300, .f32⟩ : BufTy).Contents (Elt F)),
    StableHlo.unary main_v177 main_v178 (broadcastInDim S10000x300 ![0, 1] bcast_S1x300_S10000x300_0_1 : (⟨S1x300, .f32⟩ : BufTy).Contents (Elt F) → (⟨S10000x300, .f32⟩ : BufTy).Contents (Elt F)),
    StableHlo.binary main_v168 main_v178 main_v179 (subf : (⟨S10000x300, .f32⟩ : BufTy).Contents (Elt F) → (⟨S10000x300, .f32⟩ : BufTy).Contents (Elt F) → (⟨S10000x300, .f32⟩ : BufTy).Contents (Elt F)),
    StableHlo.nullary main_cst_27 (constant S_ .f32 0x3727C5AC#32),
    StableHlo.unary main_cst_27 main_v180 (broadcastInDim S300 ![] bcast_S_S300 : (⟨S_, .f32⟩ : BufTy).Contents (Elt F) → (⟨S300, .f32⟩ : BufTy).Contents (Elt F)),
    StableHlo.binary main_v176 main_v180 main_v181 (addf : (⟨S300, .f32⟩ : BufTy).Contents (Elt F) → (⟨S300, .f32⟩ : BufTy).Contents (Elt F) → (⟨S300, .f32⟩ : BufTy).Contents (Elt F)),
    StableHlo.unary main_v181 main_v182 (Host.sqrt : (⟨S300, .f32⟩ : BufTy).Contents (Elt F) → (⟨S300, .f32⟩ : BufTy).Contents (Elt F)),
    StableHlo.unary main_v182 main_v183 (broadcastInDim S1x300 ![1] bcast_S300_S1x300_1 : (⟨S300, .f32⟩ : BufTy).Contents (Elt F) → (⟨S1x300, .f32⟩ : BufTy).Contents (Elt F)),
    StableHlo.unary main_v183 main_v184 (broadcastInDim S10000x300 ![0, 1] bcast_S1x300_S10000x300_0_1 : (⟨S1x300, .f32⟩ : BufTy).Contents (Elt F) → (⟨S10000x300, .f32⟩ : BufTy).Contents (Elt F)),
    StableHlo.binary main_v179 main_v184 main_v185 (Host.divf : (⟨S10000x300, .f32⟩ : BufTy).Contents (Elt F) → (⟨S10000x300, .f32⟩ : BufTy).Contents (Elt F) → (⟨S10000x300, .f32⟩ : BufTy).Contents (Elt F)),
    StableHlo.unary main_v170 main_v186 (broadcastInDim S1x300 ![1] bcast_S300_S1x300_1 : (⟨S300, .f32⟩ : BufTy).Contents (Elt F) → (⟨S1x300, .f32⟩ : BufTy).Contents (Elt F)),
    StableHlo.unary main_v186 main_v187 (broadcastInDim S10000x300 ![0, 1] bcast_S1x300_S10000x300_0_1 : (⟨S1x300, .f32⟩ : BufTy).Contents (Elt F) → (⟨S10000x300, .f32⟩ : BufTy).Contents (Elt F)),
    StableHlo.binary main_v185 main_v187 main_v188 (mulf : (⟨S10000x300, .f32⟩ : BufTy).Contents (Elt F) → (⟨S10000x300, .f32⟩ : BufTy).Contents (Elt F) → (⟨S10000x300, .f32⟩ : BufTy).Contents (Elt F)),
    StableHlo.unary main_v172 main_v189 (broadcastInDim S1x300 ![1] bcast_S300_S1x300_1 : (⟨S300, .f32⟩ : BufTy).Contents (Elt F) → (⟨S1x300, .f32⟩ : BufTy).Contents (Elt F)),
    StableHlo.unary main_v189 main_v190 (broadcastInDim S10000x300 ![0, 1] bcast_S1x300_S10000x300_0_1 : (⟨S1x300, .f32⟩ : BufTy).Contents (Elt F) → (⟨S10000x300, .f32⟩ : BufTy).Contents (Elt F)),
    StableHlo.binary main_v188 main_v190 main_v191 (addf : (⟨S10000x300, .f32⟩ : BufTy).Contents (Elt F) → (⟨S10000x300, .f32⟩ : BufTy).Contents (Elt F) → (⟨S10000x300, .f32⟩ : BufTy).Contents (Elt F)) ]
theorem main_part3_ops4_sub : (main_part3_ops4 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem main_part3_ops4_fresh : (main_part3_ops4 : List (HloOp τ sig (Elt F))).Forall fun op => op.fresh = ∅ := by
  simp only [List.Forall]; repeat' constructor
theorem main_part3_ops4_writes : StableHlo.HostSim.WritesFrom 318 (main_part3_ops4 : List (HloOp τ sig (Elt F))) := by
  repeat (first | exact .nil _ | refine .cons ⟨_, rfl, rfl, rfl⟩ ?_)
abbrev main_part3_ops5 : List (HloOp τ sig (Elt F)) :=
  [ StableHlo.TRef.nullary (.of main_call9_cst : StableHlo.TRef sig ⟨S_, .f32⟩) (constant S_ .f32 0x00000000#32),
    StableHlo.TRef.unary (.of main_call9_cst : StableHlo.TRef sig ⟨S_, .f32⟩) (.of main_call9_v0 : StableHlo.TRef sig ⟨S10000x300, .f32⟩) (broadcastInDim S10000x300 ![] bcast_S_S10000x300),
    StableHlo.TRef.binary (.of main_v191 : StableHlo.TRef sig ⟨S10000x300, .f32⟩) (.of main_call9_v0 : StableHlo.TRef sig ⟨S10000x300, .f32⟩) (.of main_v192 : StableHlo.TRef sig ⟨S10000x300, .f32⟩) maximumf ]
theorem main_part3_ops5_sub : (main_part3_ops5 : List (HloOp τ sig (Elt F))).Forall fun op => op.bufs ⊆ StableHlo.tcRefs τ sig :=
  ⟨StableHlo.nullary_bufs_sub .., StableHlo.unary_bufs_sub .., StableHlo.binary_bufs_sub ..⟩
theorem main_part3_ops5_fresh : (main_part3_ops5 : List (HloOp τ sig (Elt F))).Forall fun op => op.fresh = ∅ := by
  simp only [List.Forall]; repeat' constructor
theorem main_part3_ops5_writes : StableHlo.HostSim.WritesFrom 334 (main_part3_ops5 : List (HloOp τ sig (Elt F))) := by
  repeat (first | exact .nil _ | refine .cons ⟨_, rfl, rfl, rfl⟩ ?_)
abbrev main_part3_ops6 : List (HloOp τ sig (Elt F)) :=
  [ StableHlo.nullary main_c_28 (constantI S_ 32 0#32),
    StableHlo.unary main_c_28 main_v193 (broadcastInDim S160000 ![] bcast_S_S160000 : (⟨S_, .i32⟩ : BufTy).Contents (Elt F) → (⟨S160000, .i32⟩ : BufTy).Contents (Elt F)),
    StableHlo.binary main_v1 main_v193 main_v194 (cmpi .slt : (⟨S160000, .i32⟩ : BufTy).Contents (Elt F) → (⟨S160000, .i32⟩ : BufTy).Contents (Elt F) → (⟨S160000, .i1⟩ : BufTy).Contents (Elt F)),
    StableHlo.nullary main_c_29 (constantI S_ 32 10000#32),
    StableHlo.unary main_c_29 main_v195 (broadcastInDim S160000 ![] bcast_S_S160000 : (⟨S_, .i32⟩ : BufTy).Contents (Elt F) → (⟨S160000, .i32⟩ : BufTy).Contents (Elt F)),
    StableHlo.binary main_v1 main_v195 main_v196 (addi : (⟨S160000, .i32⟩ : BufTy).Contents (Elt F) → (⟨S160000, .i32⟩ : BufTy).Contents (Elt F) → (⟨S160000, .i32⟩ : BufTy).Contents (Elt F)),
    StableHlo.ternary main_v194 main_v196 main_v1 main_v197 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v197 main_v198 (broadcastInDim S160000x1 ![0] bcast_S160000_S160000x1_0 : (⟨S160000, .i32⟩ : BufTy).Contents (Elt F) → (⟨S160000x1, .i32⟩ : BufTy).Contents (Elt F)),
    StableHlo.binary main_v192 main_v198 main_v199 ((fun x i => Host.gather gather_S10000x300_S160000x1_S160000x300_1_0_n_n_0_1_1300 x i) : (⟨S10000x300, .f32⟩ : BufTy).Contents (Elt F) → (⟨S160000x1, .i32⟩ : BufTy).Contents (Elt F) → (⟨S160000x300, .f32⟩ : BufTy).Contents (Elt F)),
    StableHlo.unary main_arg6 main_v200 ((extractStridedSlice S1x5x300 ![2, 0, 0] · slices_S7x5x300_S1x5x300_2_0_0) : (⟨S7x5x300, .f32⟩ : BufTy).Contents (Elt F) → (⟨S1x5x300, .f32⟩ : BufTy).Contents (Elt F)),
    StableHlo.reshape main_v200 main_v201 rfl shapeCasts_S1x5x300_S5x300,
    StableHlo.nullary main_c_30 (constantI S_ 32 0#32),
    StableHlo.unary main_c_30 main_v202 (broadcastInDim S160000 ![] bcast_S_S160000 : (⟨S_, .i32⟩ : BufTy).Contents (Elt F) → (⟨S160000, .i32⟩ : BufTy).Contents (Elt F)),
    StableHlo.binary main_arg2 main_v202 main_v203 (cmpi .slt : (⟨S160000, .i32⟩ : BufTy).Contents (Elt F) → (⟨S160000, .i32⟩ : BufTy).Contents (Elt F) → (⟨S160000, .i1⟩ : BufTy).Contents (Elt F)),
    StableHlo.nullary main_c_31 (constantI S_ 32 5#32),
    StableHlo.unary main_c_31 main_v204 (broadcastInDim S160000 ![] bcast_S_S160000 : (⟨S_, .i32⟩ : BufTy).Contents (Elt F) → (⟨S160000, .i32⟩ : BufTy).Contents (Elt F)),
    StableHlo.binary main_arg2 main_v204 main_v205 (addi : (⟨S160000, .i32⟩ : BufTy).Contents (Elt F) → (⟨S160000, .i32⟩ : BufTy).Contents (Elt F) → (⟨S160000, .i32⟩ : BufTy).Contents (Elt F)) ]
theorem main_part3_ops6_sub : (main_part3_ops6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub ..⟩
theorem main_part3_ops6_fresh : (main_part3_ops6 : List (HloOp τ sig (Elt F))).Forall fun op => op.fresh = ∅ := by
  simp only [List.Forall]; repeat' constructor
theorem main_part3_ops6_writes : StableHlo.HostSim.WritesFrom 337 (main_part3_ops6 : List (HloOp τ sig (Elt F))) := by
  repeat (first | exact .nil _ | refine .cons ⟨_, rfl, rfl, rfl⟩ ?_)
abbrev main_part4_ops0 : List (HloOp τ sig (Elt F)) :=
  [ StableHlo.ternary main_v203 main_v205 main_arg2 main_v206 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v206 main_v207 (broadcastInDim S160000x1 ![0] bcast_S160000_S160000x1_0 : (⟨S160000, .i32⟩ : BufTy).Contents (Elt F) → (⟨S160000x1, .i32⟩ : BufTy).Contents (Elt F)),
    StableHlo.binary main_v201 main_v207 main_v208 ((fun x i => Host.gather gather_S5x300_S160000x1_S160000x300_1_0_n_n_0_1_1300 x i) : (⟨S5x300, .f32⟩ : BufTy).Contents (Elt F) → (⟨S160000x1, .i32⟩ : BufTy).Contents (Elt F) → (⟨S160000x300, .f32⟩ : BufTy).Contents (Elt F)),
    StableHlo.binary main_v199 main_v208 main_v209 (addf : (⟨S160000x300, .f32⟩ : BufTy).Contents (Elt F) → (⟨S160000x300, .f32⟩ : BufTy).Contents (Elt F) → (⟨S160000x300, .f32⟩ : BufTy).Contents (Elt F)) ]
theorem main_part4_ops0_sub : (main_part4_ops0 : List (HloOp τ sig (Elt F))).Forall fun op => op.bufs ⊆ StableHlo.tcRefs τ sig :=
  ⟨StableHlo.ternary_bufs_sub .., StableHlo.unary_bufs_sub .., StableHlo.binary_bufs_sub .., StableHlo.binary_bufs_sub ..⟩
theorem main_part4_ops0_fresh : (main_part4_ops0 : List (HloOp τ sig (Elt F))).Forall fun op => op.fresh = ∅ := by
  simp only [List.Forall]; repeat' constructor
theorem main_part4_ops0_writes : StableHlo.HostSim.WritesFrom 354 (main_part4_ops0 : List (HloOp τ sig (Elt F))) := by
  repeat (first | exact .nil _ | refine .cons ⟨_, rfl, rfl, rfl⟩ ?_)
abbrev main_part4_ops1 : List (HloOp τ sig (Elt F)) :=
  [ StableHlo.TRef.nullary (.of main_call10_cst : StableHlo.TRef sig ⟨S_, .f32⟩) (constant S_ .f32 0x00000000#32),
    StableHlo.TRef.unary (.of main_call10_cst : StableHlo.TRef sig ⟨S_, .f32⟩) (.of main_call10_v0 : StableHlo.TRef sig ⟨S160000x300, .f32⟩) (broadcastInDim S160000x300 ![] bcast_S_S160000x300),
    StableHlo.TRef.binary (.of main_v209 : StableHlo.TRef sig ⟨S160000x300, .f32⟩) (.of main_call10_v0 : StableHlo.TRef sig ⟨S160000x300, .f32⟩) (.of main_v210 : StableHlo.TRef sig ⟨S160000x300, .f32⟩) maximumf ]
theorem main_part4_ops1_sub : (main_part4_ops1 : List (HloOp τ sig (Elt F))).Forall fun op => op.bufs ⊆ StableHlo.tcRefs τ sig :=
  ⟨StableHlo.nullary_bufs_sub .., StableHlo.unary_bufs_sub .., StableHlo.binary_bufs_sub ..⟩
theorem main_part4_ops1_fresh : (main_part4_ops1 : List (HloOp τ sig (Elt F))).Forall fun op => op.fresh = ∅ := by
  simp only [List.Forall]; repeat' constructor
theorem main_part4_ops1_writes : StableHlo.HostSim.WritesFrom 358 (main_part4_ops1 : List (HloOp τ sig (Elt F))) := by
  repeat (first | exact .nil _ | refine .cons ⟨_, rfl, rfl, rfl⟩ ?_)
abbrev main_part4_ops2 : List (HloOp τ sig (Elt F)) :=
  [ StableHlo.nullary main_cst_32 (constant S_ .f32 0x00000000#32),
    StableHlo.unary main_cst_32 main_v211 (broadcastInDim S10000x300 ![] bcast_S_S10000x300 : (⟨S_, .f32⟩ : BufTy).Contents (Elt F) → (⟨S10000x300, .f32⟩ : BufTy).Contents (Elt F)),
    StableHlo.unary main_v3 main_v212 (broadcastInDim S160000x1 ![0] bcast_S160000_S160000x1_0 : (⟨S160000, .i32⟩ : BufTy).Contents (Elt F) → (⟨S160000x1, .i32⟩ : BufTy).Contents (Elt F)),
    StableHlo.ternary main_v211 main_v212 main_v210 main_v213 ((fun x i u => Host.scatterAdd scatter_S10000x300_S160000x1_S160000x300_1_0_0_1 x i u) : (⟨S10000x300, .f32⟩ : BufTy).Contents (Elt F) → (⟨S160000x1, .i32⟩ : BufTy).Contents (Elt F) → (⟨S160000x300, .f32⟩ : BufTy).Contents (Elt F) → (⟨S10000x300, .f32⟩ : BufTy).Contents (Elt F)),
    StableHlo.unary main_arg13 main_v214 ((extractStridedSlice S1 ![2] · slices_S7_S1_2) : (⟨S7, .f32⟩ : BufTy).Contents (Elt F) → (⟨S1, .f32⟩ : BufTy).Contents (Elt F)),
    StableHlo.reshape main_v214 main_v215 rfl shapeCasts_S1_S_,
    StableHlo.nullary main_cst_33 (constant S_ .f32 0x3F800000#32),
    StableHlo.binary main_cst_33 main_v215 main_v216 (addf : (⟨S_, .f32⟩ : BufTy).Contents (Elt F) → (⟨S_, .f32⟩ : BufTy).Contents (Elt F) → (⟨S_, .f32⟩ : BufTy).Contents (Elt F)),
    StableHlo.unary main_v216 main_v217 (broadcastInDim S10000x300 ![] bcast_S_S10000x300 : (⟨S_, .f32⟩ : BufTy).Contents (Elt F) → (⟨S10000x300, .f32⟩ : BufTy).Contents (Elt F)),
    StableHlo.binary main_v217 main_v192 main_v218 (mulf : (⟨S10000x300, .f32⟩ : BufTy).Contents (Elt F) → (⟨S10000x300, .f32⟩ : BufTy).Contents (Elt F) → (⟨S10000x300, .f32⟩ : BufTy).Contents (Elt F)),
    StableHlo.binary main_v218 main_v213 main_v219 (addf : (⟨S10000x300, .f32⟩ : BufTy).Contents (Elt F) → (⟨S10000x300, .f32⟩ : BufTy).Contents (Elt F) → (⟨S10000x300, .f32⟩ : BufTy).Contents (Elt F)),
    StableHlo.unary main_arg7 main_v220 ((extractStridedSlice S1x300x600 ![2, 0, 0] · slices_S7x300x600_S1x300x600_2_0_0) : (⟨S7x300x600, .f32⟩ : BufTy).Contents (Elt F) → (⟨S1x300x600, .f32⟩ : BufTy).Contents (Elt F)),
    StableHlo.reshape main_v220 main_v221 rfl shapeCasts_S1x300x600_S300x600,
    StableHlo.binary main_v219 main_v221 main_v222 ((fun l r => Host.dotGeneral dot_S10000x300_S300x600_S10000x600_1_0_0_1_n_n none l r) : (⟨S10000x300, .f32⟩ : BufTy).Contents (Elt F) → (⟨S300x600, .f32⟩ : BufTy).Contents (Elt F) → (⟨S10000x600, .f32⟩ : BufTy).Contents (Elt F)),
    StableHlo.unary main_arg8 main_v223 ((extractStridedSlice S1x600 ![2, 0] · slices_S7x600_S1x600_2_0) : (⟨S7x600, .f32⟩ : BufTy).Contents (Elt F) → (⟨S1x600, .f32⟩ : BufTy).Contents (Elt F)),
    StableHlo.reshape main_v223 main_v224 rfl shapeCasts_S1x600_S600,
    StableHlo.unary main_v224 main_v225 (broadcastInDim S1x600 ![1] bcast_S600_S1x600_1 : (⟨S600, .f32⟩ : BufTy).Contents (Elt F) → (⟨S1x600, .f32⟩ : BufTy).Contents (Elt F)),
    StableHlo.unary main_v225 main_v226 (broadcastInDim S10000x600 ![0, 1] bcast_S1x600_S10000x600_0_1 : (⟨S1x600, .f32⟩ : BufTy).Contents (Elt F) → (⟨S10000x600, .f32⟩ : BufTy).Contents (Elt F)),
    StableHlo.binary main_v222 main_v226 main_v227 (addf : (⟨S10000x600, .f32⟩ : BufTy).Contents (Elt F) → (⟨S10000x600, .f32⟩ : BufTy).Contents (Elt F) → (⟨S10000x600, .f32⟩ : BufTy).Contents (Elt F)),
    StableHlo.unary main_arg9 main_v228 ((extractStridedSlice S1x600 ![2, 0] · slices_S7x600_S1x600_2_0) : (⟨S7x600, .f32⟩ : BufTy).Contents (Elt F) → (⟨S1x600, .f32⟩ : BufTy).Contents (Elt F)),
    StableHlo.reshape main_v228 main_v229 rfl shapeCasts_S1x600_S600,
    StableHlo.unary main_arg10 main_v230 ((extractStridedSlice S1x600 ![2, 0] · slices_S7x600_S1x600_2_0) : (⟨S7x600, .f32⟩ : BufTy).Contents (Elt F) → (⟨S1x600, .f32⟩ : BufTy).Contents (Elt F)),
    StableHlo.reshape main_v230 main_v231 rfl shapeCasts_S1x600_S600,
    StableHlo.nullary main_cst_34 (constant S_ .f32 0x00000000#32),
    StableHlo.binary main_v227 main_cst_34 main_v232 ((fun x v => Host.reduceAdd x v reducesTo_S10000x600_S600_d0 h_S_) : (⟨S10000x600, .f32⟩ : BufTy).Contents (Elt F) → (⟨S_, .f32⟩ : BufTy).Contents (Elt F) → (⟨S600, .f32⟩ : BufTy).Contents (Elt F)),
    StableHlo.nullary main_cst_35 (constant S_ .f32 0x461C4000#32),
    StableHlo.unary main_cst_35 main_v233 (broadcastInDim S600 ![] bcast_S_S600 : (⟨S_, .f32⟩ : BufTy).Contents (Elt F) → (⟨S600, .f32⟩ : BufTy).Contents (Elt F)),
    StableHlo.binary main_v232 main_v233 main_v234 (Host.divf : (⟨S600, .f32⟩ : BufTy).Contents (Elt F) → (⟨S600, .f32⟩ : BufTy).Contents (Elt F) → (⟨S600, .f32⟩ : BufTy).Contents (Elt F)),
    StableHlo.nullary main_c_36 (constantI S_ 32 0#32) ]
theorem main_part4_ops2_sub : (main_part4_ops2 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub ..⟩
theorem main_part4_ops2_fresh : (main_part4_ops2 : List (HloOp τ sig (Elt F))).Forall fun op => op.fresh = ∅ := by
  simp only [List.Forall]; repeat' constructor
theorem main_part4_ops2_writes : StableHlo.HostSim.WritesFrom 361 (main_part4_ops2 : List (HloOp τ sig (Elt F))) := by
  repeat (first | exact .nil _ | refine .cons ⟨_, rfl, rfl, rfl⟩ ?_)
abbrev main_part4_ops3 : List (HloOp τ sig (Elt F)) :=
  [ StableHlo.TRef.nullary (.of main_call11_cst : StableHlo.TRef sig ⟨S_, .f32⟩) (constant S_ .f32 0x00000000#32),
    StableHlo.TRef.binary (.of main_v227 : StableHlo.TRef sig ⟨S10000x600, .f32⟩) (.of main_call11_cst : StableHlo.TRef sig ⟨S_, .f32⟩) (.of main_call11_v0 : StableHlo.TRef sig ⟨S600, .f32⟩) (fun x v => Host.reduceAdd x v reducesTo_S10000x600_S600_d0 h_S_),
    StableHlo.TRef.unary (.of main_call11_v0 : StableHlo.TRef sig ⟨S600, .f32⟩) (.of main_call11_v1 : StableHlo.TRef sig ⟨S1x600, .f32⟩) (broadcastInDim S1x600 ![1] bcast_S600_S1x600_1),
    StableHlo.TRef.nullary (.of main_call11_cst_0 : StableHlo.TRef sig ⟨S_, .f32⟩) (constant S_ .f32 0x461C4000#32),
    StableHlo.TRef.unary (.of main_call11_cst_0 : StableHlo.TRef sig ⟨S_, .f32⟩) (.of main_call11_v2 : StableHlo.TRef sig ⟨S1x600, .f32⟩) (broadcastInDim S1x600 ![] bcast_S_S1x600),
    StableHlo.TRef.binary (.of main_call11_v1 : StableHlo.TRef sig ⟨S1x600, .f32⟩) (.of main_call11_v2 : StableHlo.TRef sig ⟨S1x600, .f32⟩) (.of main_call11_v3 : StableHlo.TRef sig ⟨S1x600, .f32⟩) Host.divf,
    StableHlo.TRef.unary (.of main_call11_v3 : StableHlo.TRef sig ⟨S1x600, .f32⟩) (.of main_call11_v4 : StableHlo.TRef sig ⟨S10000x600, .f32⟩) (broadcastInDim S10000x600 ![0, 1] bcast_S1x600_S10000x600_0_1),
    StableHlo.TRef.binary (.of main_v227 : StableHlo.TRef sig ⟨S10000x600, .f32⟩) (.of main_call11_v4 : StableHlo.TRef sig ⟨S10000x600, .f32⟩) (.of main_call11_v5 : StableHlo.TRef sig ⟨S10000x600, .f32⟩) subf,
    StableHlo.TRef.binary (.of main_call11_v5 : StableHlo.TRef sig ⟨S10000x600, .f32⟩) (.of main_call11_v5 : StableHlo.TRef sig ⟨S10000x600, .f32⟩) (.of main_call11_v6 : StableHlo.TRef sig ⟨S10000x600, .f32⟩) mulf,
    StableHlo.TRef.unary (.of main_c_36 : StableHlo.TRef sig ⟨S_, .i32⟩) (.of main_call11_v7 : StableHlo.TRef sig ⟨S_, .f32⟩) (sitofp .f32),
    StableHlo.TRef.nullary (.of main_call11_cst_1 : StableHlo.TRef sig ⟨S_, .f32⟩) (constant S_ .f32 0x461C4000#32),
    StableHlo.TRef.binary (.of main_call11_cst_1 : StableHlo.TRef sig ⟨S_, .f32⟩) (.of main_call11_v7 : StableHlo.TRef sig ⟨S_, .f32⟩) (.of main_call11_v8 : StableHlo.TRef sig ⟨S_, .f32⟩) subf,
    StableHlo.TRef.nullary (.of main_call11_cst_2 : StableHlo.TRef sig ⟨S_, .f32⟩) (constant S_ .f32 0x00000000#32),
    StableHlo.TRef.binary (.of main_call11_v6 : StableHlo.TRef sig ⟨S10000x600, .f32⟩) (.of main_call11_cst_2 : StableHlo.TRef sig ⟨S_, .f32⟩) (.of main_call11_v9 : StableHlo.TRef sig ⟨S600, .f32⟩) (fun x v => Host.reduceAdd x v reducesTo_S10000x600_S600_d0 h_S_),
    StableHlo.TRef.unary (.of main_call11_v8 : StableHlo.TRef sig ⟨S_, .f32⟩) (.of main_call11_v10 : StableHlo.TRef sig ⟨S600, .f32⟩) (broadcastInDim S600 ![] bcast_S_S600),
    StableHlo.TRef.binary (.of main_call11_v9 : StableHlo.TRef sig ⟨S600, .f32⟩) (.of main_call11_v10 : StableHlo.TRef sig ⟨S600, .f32⟩) (.of main_call11_v11 : StableHlo.TRef sig ⟨S600, .f32⟩) Host.divf,
    StableHlo.TRef.nullary (.of main_call11_cst_3 : StableHlo.TRef sig ⟨S_, .f32⟩) (constant S_ .f32 0x00000000#32),
    StableHlo.TRef.binary (.of main_call11_v8 : StableHlo.TRef sig ⟨S_, .f32⟩) (.of main_call11_cst_3 : StableHlo.TRef sig ⟨S_, .f32⟩) (.of main_call11_v12 : StableHlo.TRef sig ⟨S_, .i1⟩) (cmpf .ogt),
    StableHlo.TRef.nullary (.of main_call11_cst_4 : StableHlo.TRef sig ⟨S_, .f32⟩) (constant S_ .f32 0x7FC00000#32),
    StableHlo.TRef.unary (.of main_call11_cst_4 : StableHlo.TRef sig ⟨S_, .f32⟩) (.of main_call11_call0_v0 : StableHlo.TRef sig ⟨S_, .f32⟩) id,
    StableHlo.TRef.unary (.of main_call11_call0_v0 : StableHlo.TRef sig ⟨S_, .f32⟩) (.of main_call11_call0_v1 : StableHlo.TRef sig ⟨S600, .f32⟩) (broadcastInDim S600 ![] bcast_S_S600),
    StableHlo.TRef.ternary (.of main_call11_v12 : StableHlo.TRef sig ⟨S_, .i1⟩) (.of main_call11_v11 : StableHlo.TRef sig ⟨S600, .f32⟩) (.of main_call11_call0_v1 : StableHlo.TRef sig ⟨S600, .f32⟩) (.of main_v235 : StableHlo.TRef sig ⟨S600, .f32⟩) (fun p a b => select (broadcastInDim S600 ![] bcast_S_S600 p) a b) ]
theorem main_part4_ops3_sub : (main_part4_ops3 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem main_part4_ops3_fresh : (main_part4_ops3 : List (HloOp τ sig (Elt F))).Forall fun op => op.fresh = ∅ := by
  simp only [List.Forall]; repeat' constructor
theorem main_part4_ops3_writes : StableHlo.HostSim.WritesFrom 390 (main_part4_ops3 : List (HloOp τ sig (Elt F))) := by
  repeat (first | exact .nil _ | refine .cons ⟨_, rfl, rfl, rfl⟩ ?_)
abbrev main_part4_ops4 : List (HloOp τ sig (Elt F)) :=
  [ StableHlo.unary main_v234 main_v236 (broadcastInDim S1x600 ![1] bcast_S600_S1x600_1 : (⟨S600, .f32⟩ : BufTy).Contents (Elt F) → (⟨S1x600, .f32⟩ : BufTy).Contents (Elt F)),
    StableHlo.unary main_v236 main_v237 (broadcastInDim S10000x600 ![0, 1] bcast_S1x600_S10000x600_0_1 : (⟨S1x600, .f32⟩ : BufTy).Contents (Elt F) → (⟨S10000x600, .f32⟩ : BufTy).Contents (Elt F)),
    StableHlo.binary main_v227 main_v237 main_v238 (subf : (⟨S10000x600, .f32⟩ : BufTy).Contents (Elt F) → (⟨S10000x600, .f32⟩ : BufTy).Contents (Elt F) → (⟨S10000x600, .f32⟩ : BufTy).Contents (Elt F)),
    StableHlo.nullary main_cst_37 (constant S_ .f32 0x3727C5AC#32),
    StableHlo.unary main_cst_37 main_v239 (broadcastInDim S600 ![] bcast_S_S600 : (⟨S_, .f32⟩ : BufTy).Contents (Elt F) → (⟨S600, .f32⟩ : BufTy).Contents (Elt F)),
    StableHlo.binary main_v235 main_v239 main_v240 (addf : (⟨S600, .f32⟩ : BufTy).Contents (Elt F) → (⟨S600, .f32⟩ : BufTy).Contents (Elt F) → (⟨S600, .f32⟩ : BufTy).Contents (Elt F)),
    StableHlo.unary main_v240 main_v241 (Host.sqrt : (⟨S600, .f32⟩ : BufTy).Contents (Elt F) → (⟨S600, .f32⟩ : BufTy).Contents (Elt F)),
    StableHlo.unary main_v241 main_v242 (broadcastInDim S1x600 ![1] bcast_S600_S1x600_1 : (⟨S600, .f32⟩ : BufTy).Contents (Elt F) → (⟨S1x600, .f32⟩ : BufTy).Contents (Elt F)),
    StableHlo.unary main_v242 main_v243 (broadcastInDim S10000x600 ![0, 1] bcast_S1x600_S10000x600_0_1 : (⟨S1x600, .f32⟩ : BufTy).Contents (Elt F) → (⟨S10000x600, .f32⟩ : BufTy).Contents (Elt F)),
    StableHlo.binary main_v238 main_v243 main_v244 (Host.divf : (⟨S10000x600, .f32⟩ : BufTy).Contents (Elt F) → (⟨S10000x600, .f32⟩ : BufTy).Contents (Elt F) → (⟨S10000x600, .f32⟩ : BufTy).Contents (Elt F)),
    StableHlo.unary main_v229 main_v245 (broadcastInDim S1x600 ![1] bcast_S600_S1x600_1 : (⟨S600, .f32⟩ : BufTy).Contents (Elt F) → (⟨S1x600, .f32⟩ : BufTy).Contents (Elt F)),
    StableHlo.unary main_v245 main_v246 (broadcastInDim S10000x600 ![0, 1] bcast_S1x600_S10000x600_0_1 : (⟨S1x600, .f32⟩ : BufTy).Contents (Elt F) → (⟨S10000x600, .f32⟩ : BufTy).Contents (Elt F)),
    StableHlo.binary main_v244 main_v246 main_v247 (mulf : (⟨S10000x600, .f32⟩ : BufTy).Contents (Elt F) → (⟨S10000x600, .f32⟩ : BufTy).Contents (Elt F) → (⟨S10000x600, .f32⟩ : BufTy).Contents (Elt F)),
    StableHlo.unary main_v231 main_v248 (broadcastInDim S1x600 ![1] bcast_S600_S1x600_1 : (⟨S600, .f32⟩ : BufTy).Contents (Elt F) → (⟨S1x600, .f32⟩ : BufTy).Contents (Elt F)),
    StableHlo.unary main_v248 main_v249 (broadcastInDim S10000x600 ![0, 1] bcast_S1x600_S10000x600_0_1 : (⟨S1x600, .f32⟩ : BufTy).Contents (Elt F) → (⟨S10000x600, .f32⟩ : BufTy).Contents (Elt F)),
    StableHlo.binary main_v247 main_v249 main_v250 (addf : (⟨S10000x600, .f32⟩ : BufTy).Contents (Elt F) → (⟨S10000x600, .f32⟩ : BufTy).Contents (Elt F) → (⟨S10000x600, .f32⟩ : BufTy).Contents (Elt F)) ]
theorem main_part4_ops4_sub : (main_part4_ops4 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem main_part4_ops4_fresh : (main_part4_ops4 : List (HloOp τ sig (Elt F))).Forall fun op => op.fresh = ∅ := by
  simp only [List.Forall]; repeat' constructor
theorem main_part4_ops4_writes : StableHlo.HostSim.WritesFrom 412 (main_part4_ops4 : List (HloOp τ sig (Elt F))) := by
  repeat (first | exact .nil _ | refine .cons ⟨_, rfl, rfl, rfl⟩ ?_)
abbrev main_part4_ops5 : List (HloOp τ sig (Elt F)) :=
  [ StableHlo.TRef.nullary (.of main_call12_cst : StableHlo.TRef sig ⟨S_, .f32⟩) (constant S_ .f32 0x00000000#32),
    StableHlo.TRef.unary (.of main_call12_cst : StableHlo.TRef sig ⟨S_, .f32⟩) (.of main_call12_v0 : StableHlo.TRef sig ⟨S10000x600, .f32⟩) (broadcastInDim S10000x600 ![] bcast_S_S10000x600),
    StableHlo.TRef.binary (.of main_v250 : StableHlo.TRef sig ⟨S10000x600, .f32⟩) (.of main_call12_v0 : StableHlo.TRef sig ⟨S10000x600, .f32⟩) (.of main_v251 : StableHlo.TRef sig ⟨S10000x600, .f32⟩) maximumf ]
theorem main_part4_ops5_sub : (main_part4_ops5 : List (HloOp τ sig (Elt F))).Forall fun op => op.bufs ⊆ StableHlo.tcRefs τ sig :=
  ⟨StableHlo.nullary_bufs_sub .., StableHlo.unary_bufs_sub .., StableHlo.binary_bufs_sub ..⟩
theorem main_part4_ops5_fresh : (main_part4_ops5 : List (HloOp τ sig (Elt F))).Forall fun op => op.fresh = ∅ := by
  simp only [List.Forall]; repeat' constructor
theorem main_part4_ops5_writes : StableHlo.HostSim.WritesFrom 428 (main_part4_ops5 : List (HloOp τ sig (Elt F))) := by
  repeat (first | exact .nil _ | refine .cons ⟨_, rfl, rfl, rfl⟩ ?_)
abbrev main_part4_ops6 : List (HloOp τ sig (Elt F)) :=
  [ StableHlo.unary main_arg11 main_v252 ((extractStridedSlice S1x600x300 ![2, 0, 0] · slices_S7x600x300_S1x600x300_2_0_0) : (⟨S7x600x300, .f32⟩ : BufTy).Contents (Elt F) → (⟨S1x600x300, .f32⟩ : BufTy).Contents (Elt F)),
    StableHlo.reshape main_v252 main_v253 rfl shapeCasts_S1x600x300_S600x300,
    StableHlo.binary main_v251 main_v253 main_v254 ((fun l r => Host.dotGeneral dot_S10000x600_S600x300_S10000x300_1_0_0_1_n_n none l r) : (⟨S10000x600, .f32⟩ : BufTy).Contents (Elt F) → (⟨S600x300, .f32⟩ : BufTy).Contents (Elt F) → (⟨S10000x300, .f32⟩ : BufTy).Contents (Elt F)),
    StableHlo.unary main_arg12 main_v255 ((extractStridedSlice S1x300 ![2, 0] · slices_S7x300_S1x300_2_0) : (⟨S7x300, .f32⟩ : BufTy).Contents (Elt F) → (⟨S1x300, .f32⟩ : BufTy).Contents (Elt F)),
    StableHlo.reshape main_v255 main_v256 rfl shapeCasts_S1x300_S300,
    StableHlo.unary main_v256 main_v257 (broadcastInDim S1x300 ![1] bcast_S300_S1x300_1 : (⟨S300, .f32⟩ : BufTy).Contents (Elt F) → (⟨S1x300, .f32⟩ : BufTy).Contents (Elt F)),
    StableHlo.unary main_v257 main_v258 (broadcastInDim S10000x300 ![0, 1] bcast_S1x300_S10000x300_0_1 : (⟨S1x300, .f32⟩ : BufTy).Contents (Elt F) → (⟨S10000x300, .f32⟩ : BufTy).Contents (Elt F)),
    StableHlo.binary main_v254 main_v258 main_v259 (addf : (⟨S10000x300, .f32⟩ : BufTy).Contents (Elt F) → (⟨S10000x300, .f32⟩ : BufTy).Contents (Elt F) → (⟨S10000x300, .f32⟩ : BufTy).Contents (Elt F)) ]
theorem main_part4_ops6_sub : (main_part4_ops6 : List (HloOp τ sig (Elt F))).Forall fun op => op.bufs ⊆ StableHlo.tcRefs τ sig :=
  ⟨StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub ..⟩
theorem main_part4_ops6_fresh : (main_part4_ops6 : List (HloOp τ sig (Elt F))).Forall fun op => op.fresh = ∅ := by
  simp only [List.Forall]; repeat' constructor
theorem main_part4_ops6_writes : StableHlo.HostSim.WritesFrom 431 (main_part4_ops6 : List (HloOp τ sig (Elt F))) := by
  repeat (first | exact .nil _ | refine .cons ⟨_, rfl, rfl, rfl⟩ ?_)
abbrev main_part5_ops0 : List (HloOp τ sig (Elt F)) :=
  [ StableHlo.unary main_arg14 main_v260 ((extractStridedSlice S1x300 ![2, 0] · slices_S7x300_S1x300_2_0) : (⟨S7x300, .f32⟩ : BufTy).Contents (Elt F) → (⟨S1x300, .f32⟩ : BufTy).Contents (Elt F)),
    StableHlo.reshape main_v260 main_v261 rfl shapeCasts_S1x300_S300,
    StableHlo.unary main_arg15 main_v262 ((extractStridedSlice S1x300 ![2, 0] · slices_S7x300_S1x300_2_0) : (⟨S7x300, .f32⟩ : BufTy).Contents (Elt F) → (⟨S1x300, .f32⟩ : BufTy).Contents (Elt F)),
    StableHlo.reshape main_v262 main_v263 rfl shapeCasts_S1x300_S300,
    StableHlo.nullary main_cst_38 (constant S_ .f32 0x00000000#32),
    StableHlo.binary main_v259 main_cst_38 main_v264 ((fun x v => Host.reduceAdd x v reducesTo_S10000x300_S300_d0 h_S_) : (⟨S10000x300, .f32⟩ : BufTy).Contents (Elt F) → (⟨S_, .f32⟩ : BufTy).Contents (Elt F) → (⟨S300, .f32⟩ : BufTy).Contents (Elt F)),
    StableHlo.nullary main_cst_39 (constant S_ .f32 0x461C4000#32),
    StableHlo.unary main_cst_39 main_v265 (broadcastInDim S300 ![] bcast_S_S300 : (⟨S_, .f32⟩ : BufTy).Contents (Elt F) → (⟨S300, .f32⟩ : BufTy).Contents (Elt F)),
    StableHlo.binary main_v264 main_v265 main_v266 (Host.divf : (⟨S300, .f32⟩ : BufTy).Contents (Elt F) → (⟨S300, .f32⟩ : BufTy).Contents (Elt F) → (⟨S300, .f32⟩ : BufTy).Contents (Elt F)),
    StableHlo.nullary main_c_40 (constantI S_ 32 0#32) ]
theorem main_part5_ops0_sub : (main_part5_ops0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub ..⟩
theorem main_part5_ops0_fresh : (main_part5_ops0 : List (HloOp τ sig (Elt F))).Forall fun op => op.fresh = ∅ := by
  simp only [List.Forall]; repeat' constructor
theorem main_part5_ops0_writes : StableHlo.HostSim.WritesFrom 439 (main_part5_ops0 : List (HloOp τ sig (Elt F))) := by
  repeat (first | exact .nil _ | refine .cons ⟨_, rfl, rfl, rfl⟩ ?_)
abbrev main_part5_ops1 : List (HloOp τ sig (Elt F)) :=
  [ StableHlo.TRef.nullary (.of main_call13_cst : StableHlo.TRef sig ⟨S_, .f32⟩) (constant S_ .f32 0x00000000#32),
    StableHlo.TRef.binary (.of main_v259 : StableHlo.TRef sig ⟨S10000x300, .f32⟩) (.of main_call13_cst : StableHlo.TRef sig ⟨S_, .f32⟩) (.of main_call13_v0 : StableHlo.TRef sig ⟨S300, .f32⟩) (fun x v => Host.reduceAdd x v reducesTo_S10000x300_S300_d0 h_S_),
    StableHlo.TRef.unary (.of main_call13_v0 : StableHlo.TRef sig ⟨S300, .f32⟩) (.of main_call13_v1 : StableHlo.TRef sig ⟨S1x300, .f32⟩) (broadcastInDim S1x300 ![1] bcast_S300_S1x300_1),
    StableHlo.TRef.nullary (.of main_call13_cst_0 : StableHlo.TRef sig ⟨S_, .f32⟩) (constant S_ .f32 0x461C4000#32),
    StableHlo.TRef.unary (.of main_call13_cst_0 : StableHlo.TRef sig ⟨S_, .f32⟩) (.of main_call13_v2 : StableHlo.TRef sig ⟨S1x300, .f32⟩) (broadcastInDim S1x300 ![] bcast_S_S1x300),
    StableHlo.TRef.binary (.of main_call13_v1 : StableHlo.TRef sig ⟨S1x300, .f32⟩) (.of main_call13_v2 : StableHlo.TRef sig ⟨S1x300, .f32⟩) (.of main_call13_v3 : StableHlo.TRef sig ⟨S1x300, .f32⟩) Host.divf,
    StableHlo.TRef.unary (.of main_call13_v3 : StableHlo.TRef sig ⟨S1x300, .f32⟩) (.of main_call13_v4 : StableHlo.TRef sig ⟨S10000x300, .f32⟩) (broadcastInDim S10000x300 ![0, 1] bcast_S1x300_S10000x300_0_1),
    StableHlo.TRef.binary (.of main_v259 : StableHlo.TRef sig ⟨S10000x300, .f32⟩) (.of main_call13_v4 : StableHlo.TRef sig ⟨S10000x300, .f32⟩) (.of main_call13_v5 : StableHlo.TRef sig ⟨S10000x300, .f32⟩) subf,
    StableHlo.TRef.binary (.of main_call13_v5 : StableHlo.TRef sig ⟨S10000x300, .f32⟩) (.of main_call13_v5 : StableHlo.TRef sig ⟨S10000x300, .f32⟩) (.of main_call13_v6 : StableHlo.TRef sig ⟨S10000x300, .f32⟩) mulf,
    StableHlo.TRef.unary (.of main_c_40 : StableHlo.TRef sig ⟨S_, .i32⟩) (.of main_call13_v7 : StableHlo.TRef sig ⟨S_, .f32⟩) (sitofp .f32),
    StableHlo.TRef.nullary (.of main_call13_cst_1 : StableHlo.TRef sig ⟨S_, .f32⟩) (constant S_ .f32 0x461C4000#32),
    StableHlo.TRef.binary (.of main_call13_cst_1 : StableHlo.TRef sig ⟨S_, .f32⟩) (.of main_call13_v7 : StableHlo.TRef sig ⟨S_, .f32⟩) (.of main_call13_v8 : StableHlo.TRef sig ⟨S_, .f32⟩) subf,
    StableHlo.TRef.nullary (.of main_call13_cst_2 : StableHlo.TRef sig ⟨S_, .f32⟩) (constant S_ .f32 0x00000000#32),
    StableHlo.TRef.binary (.of main_call13_v6 : StableHlo.TRef sig ⟨S10000x300, .f32⟩) (.of main_call13_cst_2 : StableHlo.TRef sig ⟨S_, .f32⟩) (.of main_call13_v9 : StableHlo.TRef sig ⟨S300, .f32⟩) (fun x v => Host.reduceAdd x v reducesTo_S10000x300_S300_d0 h_S_),
    StableHlo.TRef.unary (.of main_call13_v8 : StableHlo.TRef sig ⟨S_, .f32⟩) (.of main_call13_v10 : StableHlo.TRef sig ⟨S300, .f32⟩) (broadcastInDim S300 ![] bcast_S_S300),
    StableHlo.TRef.binary (.of main_call13_v9 : StableHlo.TRef sig ⟨S300, .f32⟩) (.of main_call13_v10 : StableHlo.TRef sig ⟨S300, .f32⟩) (.of main_call13_v11 : StableHlo.TRef sig ⟨S300, .f32⟩) Host.divf,
    StableHlo.TRef.nullary (.of main_call13_cst_3 : StableHlo.TRef sig ⟨S_, .f32⟩) (constant S_ .f32 0x00000000#32),
    StableHlo.TRef.binary (.of main_call13_v8 : StableHlo.TRef sig ⟨S_, .f32⟩) (.of main_call13_cst_3 : StableHlo.TRef sig ⟨S_, .f32⟩) (.of main_call13_v12 : StableHlo.TRef sig ⟨S_, .i1⟩) (cmpf .ogt),
    StableHlo.TRef.nullary (.of main_call13_cst_4 : StableHlo.TRef sig ⟨S_, .f32⟩) (constant S_ .f32 0x7FC00000#32),
    StableHlo.TRef.unary (.of main_call13_cst_4 : StableHlo.TRef sig ⟨S_, .f32⟩) (.of main_call13_call0_v0 : StableHlo.TRef sig ⟨S_, .f32⟩) id,
    StableHlo.TRef.unary (.of main_call13_call0_v0 : StableHlo.TRef sig ⟨S_, .f32⟩) (.of main_call13_call0_v1 : StableHlo.TRef sig ⟨S300, .f32⟩) (broadcastInDim S300 ![] bcast_S_S300),
    StableHlo.TRef.ternary (.of main_call13_v12 : StableHlo.TRef sig ⟨S_, .i1⟩) (.of main_call13_v11 : StableHlo.TRef sig ⟨S300, .f32⟩) (.of main_call13_call0_v1 : StableHlo.TRef sig ⟨S300, .f32⟩) (.of main_v267 : StableHlo.TRef sig ⟨S300, .f32⟩) (fun p a b => select (broadcastInDim S300 ![] bcast_S_S300 p) a b) ]
theorem main_part5_ops1_sub : (main_part5_ops1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem main_part5_ops1_fresh : (main_part5_ops1 : List (HloOp τ sig (Elt F))).Forall fun op => op.fresh = ∅ := by
  simp only [List.Forall]; repeat' constructor
theorem main_part5_ops1_writes : StableHlo.HostSim.WritesFrom 449 (main_part5_ops1 : List (HloOp τ sig (Elt F))) := by
  repeat (first | exact .nil _ | refine .cons ⟨_, rfl, rfl, rfl⟩ ?_)
abbrev main_part5_ops2 : List (HloOp τ sig (Elt F)) :=
  [ StableHlo.unary main_v266 main_v268 (broadcastInDim S1x300 ![1] bcast_S300_S1x300_1 : (⟨S300, .f32⟩ : BufTy).Contents (Elt F) → (⟨S1x300, .f32⟩ : BufTy).Contents (Elt F)),
    StableHlo.unary main_v268 main_v269 (broadcastInDim S10000x300 ![0, 1] bcast_S1x300_S10000x300_0_1 : (⟨S1x300, .f32⟩ : BufTy).Contents (Elt F) → (⟨S10000x300, .f32⟩ : BufTy).Contents (Elt F)),
    StableHlo.binary main_v259 main_v269 main_v270 (subf : (⟨S10000x300, .f32⟩ : BufTy).Contents (Elt F) → (⟨S10000x300, .f32⟩ : BufTy).Contents (Elt F) → (⟨S10000x300, .f32⟩ : BufTy).Contents (Elt F)),
    StableHlo.nullary main_cst_41 (constant S_ .f32 0x3727C5AC#32),
    StableHlo.unary main_cst_41 main_v271 (broadcastInDim S300 ![] bcast_S_S300 : (⟨S_, .f32⟩ : BufTy).Contents (Elt F) → (⟨S300, .f32⟩ : BufTy).Contents (Elt F)),
    StableHlo.binary main_v267 main_v271 main_v272 (addf : (⟨S300, .f32⟩ : BufTy).Contents (Elt F) → (⟨S300, .f32⟩ : BufTy).Contents (Elt F) → (⟨S300, .f32⟩ : BufTy).Contents (Elt F)),
    StableHlo.unary main_v272 main_v273 (Host.sqrt : (⟨S300, .f32⟩ : BufTy).Contents (Elt F) → (⟨S300, .f32⟩ : BufTy).Contents (Elt F)),
    StableHlo.unary main_v273 main_v274 (broadcastInDim S1x300 ![1] bcast_S300_S1x300_1 : (⟨S300, .f32⟩ : BufTy).Contents (Elt F) → (⟨S1x300, .f32⟩ : BufTy).Contents (Elt F)),
    StableHlo.unary main_v274 main_v275 (broadcastInDim S10000x300 ![0, 1] bcast_S1x300_S10000x300_0_1 : (⟨S1x300, .f32⟩ : BufTy).Contents (Elt F) → (⟨S10000x300, .f32⟩ : BufTy).Contents (Elt F)),
    StableHlo.binary main_v270 main_v275 main_v276 (Host.divf : (⟨S10000x300, .f32⟩ : BufTy).Contents (Elt F) → (⟨S10000x300, .f32⟩ : BufTy).Contents (Elt F) → (⟨S10000x300, .f32⟩ : BufTy).Contents (Elt F)),
    StableHlo.unary main_v261 main_v277 (broadcastInDim S1x300 ![1] bcast_S300_S1x300_1 : (⟨S300, .f32⟩ : BufTy).Contents (Elt F) → (⟨S1x300, .f32⟩ : BufTy).Contents (Elt F)),
    StableHlo.unary main_v277 main_v278 (broadcastInDim S10000x300 ![0, 1] bcast_S1x300_S10000x300_0_1 : (⟨S1x300, .f32⟩ : BufTy).Contents (Elt F) → (⟨S10000x300, .f32⟩ : BufTy).Contents (Elt F)),
    StableHlo.binary main_v276 main_v278 main_v279 (mulf : (⟨S10000x300, .f32⟩ : BufTy).Contents (Elt F) → (⟨S10000x300, .f32⟩ : BufTy).Contents (Elt F) → (⟨S10000x300, .f32⟩ : BufTy).Contents (Elt F)),
    StableHlo.unary main_v263 main_v280 (broadcastInDim S1x300 ![1] bcast_S300_S1x300_1 : (⟨S300, .f32⟩ : BufTy).Contents (Elt F) → (⟨S1x300, .f32⟩ : BufTy).Contents (Elt F)),
    StableHlo.unary main_v280 main_v281 (broadcastInDim S10000x300 ![0, 1] bcast_S1x300_S10000x300_0_1 : (⟨S1x300, .f32⟩ : BufTy).Contents (Elt F) → (⟨S10000x300, .f32⟩ : BufTy).Contents (Elt F)),
    StableHlo.binary main_v279 main_v281 main_v282 (addf : (⟨S10000x300, .f32⟩ : BufTy).Contents (Elt F) → (⟨S10000x300, .f32⟩ : BufTy).Contents (Elt F) → (⟨S10000x300, .f32⟩ : BufTy).Contents (Elt F)) ]
theorem main_part5_ops2_sub : (main_part5_ops2 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem main_part5_ops2_fresh : (main_part5_ops2 : List (HloOp τ sig (Elt F))).Forall fun op => op.fresh = ∅ := by
  simp only [List.Forall]; repeat' constructor
theorem main_part5_ops2_writes : StableHlo.HostSim.WritesFrom 471 (main_part5_ops2 : List (HloOp τ sig (Elt F))) := by
  repeat (first | exact .nil _ | refine .cons ⟨_, rfl, rfl, rfl⟩ ?_)
abbrev main_part5_ops3 : List (HloOp τ sig (Elt F)) :=
  [ StableHlo.TRef.nullary (.of main_call14_cst : StableHlo.TRef sig ⟨S_, .f32⟩) (constant S_ .f32 0x00000000#32),
    StableHlo.TRef.unary (.of main_call14_cst : StableHlo.TRef sig ⟨S_, .f32⟩) (.of main_call14_v0 : StableHlo.TRef sig ⟨S10000x300, .f32⟩) (broadcastInDim S10000x300 ![] bcast_S_S10000x300),
    StableHlo.TRef.binary (.of main_v282 : StableHlo.TRef sig ⟨S10000x300, .f32⟩) (.of main_call14_v0 : StableHlo.TRef sig ⟨S10000x300, .f32⟩) (.of main_v283 : StableHlo.TRef sig ⟨S10000x300, .f32⟩) maximumf ]
theorem main_part5_ops3_sub : (main_part5_ops3 : List (HloOp τ sig (Elt F))).Forall fun op => op.bufs ⊆ StableHlo.tcRefs τ sig :=
  ⟨StableHlo.nullary_bufs_sub .., StableHlo.unary_bufs_sub .., StableHlo.binary_bufs_sub ..⟩
theorem main_part5_ops3_fresh : (main_part5_ops3 : List (HloOp τ sig (Elt F))).Forall fun op => op.fresh = ∅ := by
  simp only [List.Forall]; repeat' constructor
theorem main_part5_ops3_writes : StableHlo.HostSim.WritesFrom 487 (main_part5_ops3 : List (HloOp τ sig (Elt F))) := by
  repeat (first | exact .nil _ | refine .cons ⟨_, rfl, rfl, rfl⟩ ?_)
abbrev main_part5_ops4 : List (HloOp τ sig (Elt F)) :=
  [ StableHlo.nullary main_c_42 (constantI S_ 32 0#32),
    StableHlo.unary main_c_42 main_v284 (broadcastInDim S160000 ![] bcast_S_S160000 : (⟨S_, .i32⟩ : BufTy).Contents (Elt F) → (⟨S160000, .i32⟩ : BufTy).Contents (Elt F)),
    StableHlo.binary main_v1 main_v284 main_v285 (cmpi .slt : (⟨S160000, .i32⟩ : BufTy).Contents (Elt F) → (⟨S160000, .i32⟩ : BufTy).Contents (Elt F) → (⟨S160000, .i1⟩ : BufTy).Contents (Elt F)),
    StableHlo.nullary main_c_43 (constantI S_ 32 10000#32),
    StableHlo.unary main_c_43 main_v286 (broadcastInDim S160000 ![] bcast_S_S160000 : (⟨S_, .i32⟩ : BufTy).Contents (Elt F) → (⟨S160000, .i32⟩ : BufTy).Contents (Elt F)),
    StableHlo.binary main_v1 main_v286 main_v287 (addi : (⟨S160000, .i32⟩ : BufTy).Contents (Elt F) → (⟨S160000, .i32⟩ : BufTy).Contents (Elt F) → (⟨S160000, .i32⟩ : BufTy).Contents (Elt F)),
    StableHlo.ternary main_v285 main_v287 main_v1 main_v288 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v288 main_v289 (broadcastInDim S160000x1 ![0] bcast_S160000_S160000x1_0 : (⟨S160000, .i32⟩ : BufTy).Contents (Elt F) → (⟨S160000x1, .i32⟩ : BufTy).Contents (Elt F)),
    StableHlo.binary main_v283 main_v289 main_v290 ((fun x i => Host.gather gather_S10000x300_S160000x1_S160000x300_1_0_n_n_0_1_1300 x i) : (⟨S10000x300, .f32⟩ : BufTy).Contents (Elt F) → (⟨S160000x1, .i32⟩ : BufTy).Contents (Elt F) → (⟨S160000x300, .f32⟩ : BufTy).Contents (Elt F)),
    StableHlo.unary main_arg6 main_v291 ((extractStridedSlice S1x5x300 ![3, 0, 0] · slices_S7x5x300_S1x5x300_3_0_0) : (⟨S7x5x300, .f32⟩ : BufTy).Contents (Elt F) → (⟨S1x5x300, .f32⟩ : BufTy).Contents (Elt F)),
    StableHlo.reshape main_v291 main_v292 rfl shapeCasts_S1x5x300_S5x300,
    StableHlo.nullary main_c_44 (constantI S_ 32 0#32),
    StableHlo.unary main_c_44 main_v293 (broadcastInDim S160000 ![] bcast_S_S160000 : (⟨S_, .i32⟩ : BufTy).Contents (Elt F) → (⟨S160000, .i32⟩ : BufTy).Contents (Elt F)),
    StableHlo.binary main_arg2 main_v293 main_v294 (cmpi .slt : (⟨S160000, .i32⟩ : BufTy).Contents (Elt F) → (⟨S160000, .i32⟩ : BufTy).Contents (Elt F) → (⟨S160000, .i1⟩ : BufTy).Contents (Elt F)),
    StableHlo.nullary main_c_45 (constantI S_ 32 5#32),
    StableHlo.unary main_c_45 main_v295 (broadcastInDim S160000 ![] bcast_S_S160000 : (⟨S_, .i32⟩ : BufTy).Contents (Elt F) → (⟨S160000, .i32⟩ : BufTy).Contents (Elt F)),
    StableHlo.binary main_arg2 main_v295 main_v296 (addi : (⟨S160000, .i32⟩ : BufTy).Contents (Elt F) → (⟨S160000, .i32⟩ : BufTy).Contents (Elt F) → (⟨S160000, .i32⟩ : BufTy).Contents (Elt F)),
    StableHlo.ternary main_v294 main_v296 main_arg2 main_v297 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v297 main_v298 (broadcastInDim S160000x1 ![0] bcast_S160000_S160000x1_0 : (⟨S160000, .i32⟩ : BufTy).Contents (Elt F) → (⟨S160000x1, .i32⟩ : BufTy).Contents (Elt F)),
    StableHlo.binary main_v292 main_v298 main_v299 ((fun x i => Host.gather gather_S5x300_S160000x1_S160000x300_1_0_n_n_0_1_1300 x i) : (⟨S5x300, .f32⟩ : BufTy).Contents (Elt F) → (⟨S160000x1, .i32⟩ : BufTy).Contents (Elt F) → (⟨S160000x300, .f32⟩ : BufTy).Contents (Elt F)),
    StableHlo.binary main_v290 main_v299 main_v300 (addf : (⟨S160000x300, .f32⟩ : BufTy).Contents (Elt F) → (⟨S160000x300, .f32⟩ : BufTy).Contents (Elt F) → (⟨S160000x300, .f32⟩ : BufTy).Contents (Elt F)) ]
theorem main_part5_ops4_sub : (main_part5_ops4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩
theorem main_part5_ops4_fresh : (main_part5_ops4 : List (HloOp τ sig (Elt F))).Forall fun op => op.fresh = ∅ := by
  simp only [List.Forall]; repeat' constructor
theorem main_part5_ops4_writes : StableHlo.HostSim.WritesFrom 490 (main_part5_ops4 : List (HloOp τ sig (Elt F))) := by
  repeat (first | exact .nil _ | refine .cons ⟨_, rfl, rfl, rfl⟩ ?_)
abbrev main_part5_ops5 : List (HloOp τ sig (Elt F)) :=
  [ StableHlo.TRef.nullary (.of main_call15_cst : StableHlo.TRef sig ⟨S_, .f32⟩) (constant S_ .f32 0x00000000#32),
    StableHlo.TRef.unary (.of main_call15_cst : StableHlo.TRef sig ⟨S_, .f32⟩) (.of main_call15_v0 : StableHlo.TRef sig ⟨S160000x300, .f32⟩) (broadcastInDim S160000x300 ![] bcast_S_S160000x300),
    StableHlo.TRef.binary (.of main_v300 : StableHlo.TRef sig ⟨S160000x300, .f32⟩) (.of main_call15_v0 : StableHlo.TRef sig ⟨S160000x300, .f32⟩) (.of main_v301 : StableHlo.TRef sig ⟨S160000x300, .f32⟩) maximumf ]
theorem main_part5_ops5_sub : (main_part5_ops5 : List (HloOp τ sig (Elt F))).Forall fun op => op.bufs ⊆ StableHlo.tcRefs τ sig :=
  ⟨StableHlo.nullary_bufs_sub .., StableHlo.unary_bufs_sub .., StableHlo.binary_bufs_sub ..⟩
theorem main_part5_ops5_fresh : (main_part5_ops5 : List (HloOp τ sig (Elt F))).Forall fun op => op.fresh = ∅ := by
  simp only [List.Forall]; repeat' constructor
theorem main_part5_ops5_writes : StableHlo.HostSim.WritesFrom 511 (main_part5_ops5 : List (HloOp τ sig (Elt F))) := by
  repeat (first | exact .nil _ | refine .cons ⟨_, rfl, rfl, rfl⟩ ?_)
abbrev main_part5_ops6 : List (HloOp τ sig (Elt F)) :=
  [ StableHlo.nullary main_cst_46 (constant S_ .f32 0x00000000#32),
    StableHlo.unary main_cst_46 main_v302 (broadcastInDim S10000x300 ![] bcast_S_S10000x300 : (⟨S_, .f32⟩ : BufTy).Contents (Elt F) → (⟨S10000x300, .f32⟩ : BufTy).Contents (Elt F)),
    StableHlo.unary main_v3 main_v303 (broadcastInDim S160000x1 ![0] bcast_S160000_S160000x1_0 : (⟨S160000, .i32⟩ : BufTy).Contents (Elt F) → (⟨S160000x1, .i32⟩ : BufTy).Contents (Elt F)),
    StableHlo.ternary main_v302 main_v303 main_v301 main_v304 ((fun x i u => Host.scatterAdd scatter_S10000x300_S160000x1_S160000x300_1_0_0_1 x i u) : (⟨S10000x300, .f32⟩ : BufTy).Contents (Elt F) → (⟨S160000x1, .i32⟩ : BufTy).Contents (Elt F) → (⟨S160000x300, .f32⟩ : BufTy).Contents (Elt F) → (⟨S10000x300, .f32⟩ : BufTy).Contents (Elt F)),
    StableHlo.unary main_arg13 main_v305 ((extractStridedSlice S1 ![3] · slices_S7_S1_3) : (⟨S7, .f32⟩ : BufTy).Contents (Elt F) → (⟨S1, .f32⟩ : BufTy).Contents (Elt F)),
    StableHlo.reshape main_v305 main_v306 rfl shapeCasts_S1_S_,
    StableHlo.nullary main_cst_47 (constant S_ .f32 0x3F800000#32),
    StableHlo.binary main_cst_47 main_v306 main_v307 (addf : (⟨S_, .f32⟩ : BufTy).Contents (Elt F) → (⟨S_, .f32⟩ : BufTy).Contents (Elt F) → (⟨S_, .f32⟩ : BufTy).Contents (Elt F)),
    StableHlo.unary main_v307 main_v308 (broadcastInDim S10000x300 ![] bcast_S_S10000x300 : (⟨S_, .f32⟩ : BufTy).Contents (Elt F) → (⟨S10000x300, .f32⟩ : BufTy).Contents (Elt F)),
    StableHlo.binary main_v308 main_v283 main_v309 (mulf : (⟨S10000x300, .f32⟩ : BufTy).Contents (Elt F) → (⟨S10000x300, .f32⟩ : BufTy).Contents (Elt F) → (⟨S10000x300, .f32⟩ : BufTy).Contents (Elt F)) ]
theorem main_part5_ops6_sub : (main_part5_ops6 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.binary_bufs_sub .., StableHlo.unary_bufs_sub .., StableHlo.binary_bufs_sub ..⟩
theorem main_part5_ops6_fresh : (main_part5_ops6 : List (HloOp τ sig (Elt F))).Forall fun op => op.fresh = ∅ := by
  simp only [List.Forall]; repeat' constructor
theorem main_part5_ops6_writes : StableHlo.HostSim.WritesFrom 514 (main_part5_ops6 : List (HloOp τ sig (Elt F))) := by
  repeat (first | exact .nil _ | refine .cons ⟨_, rfl, rfl, rfl⟩ ?_)
abbrev main_part6_ops0 : List (HloOp τ sig (Elt F)) :=
  [ StableHlo.binary main_v309 main_v304 main_v310 (addf : (⟨S10000x300, .f32⟩ : BufTy).Contents (Elt F) → (⟨S10000x300, .f32⟩ : BufTy).Contents (Elt F) → (⟨S10000x300, .f32⟩ : BufTy).Contents (Elt F)),
    StableHlo.unary main_arg7 main_v311 ((extractStridedSlice S1x300x600 ![3, 0, 0] · slices_S7x300x600_S1x300x600_3_0_0) : (⟨S7x300x600, .f32⟩ : BufTy).Contents (Elt F) → (⟨S1x300x600, .f32⟩ : BufTy).Contents (Elt F)),
    StableHlo.reshape main_v311 main_v312 rfl shapeCasts_S1x300x600_S300x600,
    StableHlo.binary main_v310 main_v312 main_v313 ((fun l r => Host.dotGeneral dot_S10000x300_S300x600_S10000x600_1_0_0_1_n_n none l r) : (⟨S10000x300, .f32⟩ : BufTy).Contents (Elt F) → (⟨S300x600, .f32⟩ : BufTy).Contents (Elt F) → (⟨S10000x600, .f32⟩ : BufTy).Contents (Elt F)),
    StableHlo.unary main_arg8 main_v314 ((extractStridedSlice S1x600 ![3, 0] · slices_S7x600_S1x600_3_0) : (⟨S7x600, .f32⟩ : BufTy).Contents (Elt F) → (⟨S1x600, .f32⟩ : BufTy).Contents (Elt F)),
    StableHlo.reshape main_v314 main_v315 rfl shapeCasts_S1x600_S600,
    StableHlo.unary main_v315 main_v316 (broadcastInDim S1x600 ![1] bcast_S600_S1x600_1 : (⟨S600, .f32⟩ : BufTy).Contents (Elt F) → (⟨S1x600, .f32⟩ : BufTy).Contents (Elt F)),
    StableHlo.unary main_v316 main_v317 (broadcastInDim S10000x600 ![0, 1] bcast_S1x600_S10000x600_0_1 : (⟨S1x600, .f32⟩ : BufTy).Contents (Elt F) → (⟨S10000x600, .f32⟩ : BufTy).Contents (Elt F)),
    StableHlo.binary main_v313 main_v317 main_v318 (addf : (⟨S10000x600, .f32⟩ : BufTy).Contents (Elt F) → (⟨S10000x600, .f32⟩ : BufTy).Contents (Elt F) → (⟨S10000x600, .f32⟩ : BufTy).Contents (Elt F)),
    StableHlo.unary main_arg9 main_v319 ((extractStridedSlice S1x600 ![3, 0] · slices_S7x600_S1x600_3_0) : (⟨S7x600, .f32⟩ : BufTy).Contents (Elt F) → (⟨S1x600, .f32⟩ : BufTy).Contents (Elt F)),
    StableHlo.reshape main_v319 main_v320 rfl shapeCasts_S1x600_S600,
    StableHlo.unary main_arg10 main_v321 ((extractStridedSlice S1x600 ![3, 0] · slices_S7x600_S1x600_3_0) : (⟨S7x600, .f32⟩ : BufTy).Contents (Elt F) → (⟨S1x600, .f32⟩ : BufTy).Contents (Elt F)),
    StableHlo.reshape main_v321 main_v322 rfl shapeCasts_S1x600_S600,
    StableHlo.nullary main_cst_48 (constant S_ .f32 0x00000000#32),
    StableHlo.binary main_v318 main_cst_48 main_v323 ((fun x v => Host.reduceAdd x v reducesTo_S10000x600_S600_d0 h_S_) : (⟨S10000x600, .f32⟩ : BufTy).Contents (Elt F) → (⟨S_, .f32⟩ : BufTy).Contents (Elt F) → (⟨S600, .f32⟩ : BufTy).Contents (Elt F)),
    StableHlo.nullary main_cst_49 (constant S_ .f32 0x461C4000#32),
    StableHlo.unary main_cst_49 main_v324 (broadcastInDim S600 ![] bcast_S_S600 : (⟨S_, .f32⟩ : BufTy).Contents (Elt F) → (⟨S600, .f32⟩ : BufTy).Contents (Elt F)),
    StableHlo.binary main_v323 main_v324 main_v325 (Host.divf : (⟨S600, .f32⟩ : BufTy).Contents (Elt F) → (⟨S600, .f32⟩ : BufTy).Contents (Elt F) → (⟨S600, .f32⟩ : BufTy).Contents (Elt F)),
    StableHlo.nullary main_c_50 (constantI S_ 32 0#32) ]
theorem main_part6_ops0_sub : (main_part6_ops0 : List (HloOp τ sig (Elt F))).Forall fun op => op.bufs ⊆ StableHlo.tcRefs τ sig :=
  ⟨StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub ..⟩
theorem main_part6_ops0_fresh : (main_part6_ops0 : List (HloOp τ sig (Elt F))).Forall fun op => op.fresh = ∅ := by
  simp only [List.Forall]; repeat' constructor
theorem main_part6_ops0_writes : StableHlo.HostSim.WritesFrom 524 (main_part6_ops0 : List (HloOp τ sig (Elt F))) := by
  repeat (first | exact .nil _ | refine .cons ⟨_, rfl, rfl, rfl⟩ ?_)
abbrev main_part6_ops1 : List (HloOp τ sig (Elt F)) :=
  [ StableHlo.TRef.nullary (.of main_call16_cst : StableHlo.TRef sig ⟨S_, .f32⟩) (constant S_ .f32 0x00000000#32),
    StableHlo.TRef.binary (.of main_v318 : StableHlo.TRef sig ⟨S10000x600, .f32⟩) (.of main_call16_cst : StableHlo.TRef sig ⟨S_, .f32⟩) (.of main_call16_v0 : StableHlo.TRef sig ⟨S600, .f32⟩) (fun x v => Host.reduceAdd x v reducesTo_S10000x600_S600_d0 h_S_),
    StableHlo.TRef.unary (.of main_call16_v0 : StableHlo.TRef sig ⟨S600, .f32⟩) (.of main_call16_v1 : StableHlo.TRef sig ⟨S1x600, .f32⟩) (broadcastInDim S1x600 ![1] bcast_S600_S1x600_1),
    StableHlo.TRef.nullary (.of main_call16_cst_0 : StableHlo.TRef sig ⟨S_, .f32⟩) (constant S_ .f32 0x461C4000#32),
    StableHlo.TRef.unary (.of main_call16_cst_0 : StableHlo.TRef sig ⟨S_, .f32⟩) (.of main_call16_v2 : StableHlo.TRef sig ⟨S1x600, .f32⟩) (broadcastInDim S1x600 ![] bcast_S_S1x600),
    StableHlo.TRef.binary (.of main_call16_v1 : StableHlo.TRef sig ⟨S1x600, .f32⟩) (.of main_call16_v2 : StableHlo.TRef sig ⟨S1x600, .f32⟩) (.of main_call16_v3 : StableHlo.TRef sig ⟨S1x600, .f32⟩) Host.divf,
    StableHlo.TRef.unary (.of main_call16_v3 : StableHlo.TRef sig ⟨S1x600, .f32⟩) (.of main_call16_v4 : StableHlo.TRef sig ⟨S10000x600, .f32⟩) (broadcastInDim S10000x600 ![0, 1] bcast_S1x600_S10000x600_0_1),
    StableHlo.TRef.binary (.of main_v318 : StableHlo.TRef sig ⟨S10000x600, .f32⟩) (.of main_call16_v4 : StableHlo.TRef sig ⟨S10000x600, .f32⟩) (.of main_call16_v5 : StableHlo.TRef sig ⟨S10000x600, .f32⟩) subf,
    StableHlo.TRef.binary (.of main_call16_v5 : StableHlo.TRef sig ⟨S10000x600, .f32⟩) (.of main_call16_v5 : StableHlo.TRef sig ⟨S10000x600, .f32⟩) (.of main_call16_v6 : StableHlo.TRef sig ⟨S10000x600, .f32⟩) mulf,
    StableHlo.TRef.unary (.of main_c_50 : StableHlo.TRef sig ⟨S_, .i32⟩) (.of main_call16_v7 : StableHlo.TRef sig ⟨S_, .f32⟩) (sitofp .f32),
    StableHlo.TRef.nullary (.of main_call16_cst_1 : StableHlo.TRef sig ⟨S_, .f32⟩) (constant S_ .f32 0x461C4000#32),
    StableHlo.TRef.binary (.of main_call16_cst_1 : StableHlo.TRef sig ⟨S_, .f32⟩) (.of main_call16_v7 : StableHlo.TRef sig ⟨S_, .f32⟩) (.of main_call16_v8 : StableHlo.TRef sig ⟨S_, .f32⟩) subf,
    StableHlo.TRef.nullary (.of main_call16_cst_2 : StableHlo.TRef sig ⟨S_, .f32⟩) (constant S_ .f32 0x00000000#32),
    StableHlo.TRef.binary (.of main_call16_v6 : StableHlo.TRef sig ⟨S10000x600, .f32⟩) (.of main_call16_cst_2 : StableHlo.TRef sig ⟨S_, .f32⟩) (.of main_call16_v9 : StableHlo.TRef sig ⟨S600, .f32⟩) (fun x v => Host.reduceAdd x v reducesTo_S10000x600_S600_d0 h_S_),
    StableHlo.TRef.unary (.of main_call16_v8 : StableHlo.TRef sig ⟨S_, .f32⟩) (.of main_call16_v10 : StableHlo.TRef sig ⟨S600, .f32⟩) (broadcastInDim S600 ![] bcast_S_S600),
    StableHlo.TRef.binary (.of main_call16_v9 : StableHlo.TRef sig ⟨S600, .f32⟩) (.of main_call16_v10 : StableHlo.TRef sig ⟨S600, .f32⟩) (.of main_call16_v11 : StableHlo.TRef sig ⟨S600, .f32⟩) Host.divf,
    StableHlo.TRef.nullary (.of main_call16_cst_3 : StableHlo.TRef sig ⟨S_, .f32⟩) (constant S_ .f32 0x00000000#32),
    StableHlo.TRef.binary (.of main_call16_v8 : StableHlo.TRef sig ⟨S_, .f32⟩) (.of main_call16_cst_3 : StableHlo.TRef sig ⟨S_, .f32⟩) (.of main_call16_v12 : StableHlo.TRef sig ⟨S_, .i1⟩) (cmpf .ogt),
    StableHlo.TRef.nullary (.of main_call16_cst_4 : StableHlo.TRef sig ⟨S_, .f32⟩) (constant S_ .f32 0x7FC00000#32),
    StableHlo.TRef.unary (.of main_call16_cst_4 : StableHlo.TRef sig ⟨S_, .f32⟩) (.of main_call16_call0_v0 : StableHlo.TRef sig ⟨S_, .f32⟩) id,
    StableHlo.TRef.unary (.of main_call16_call0_v0 : StableHlo.TRef sig ⟨S_, .f32⟩) (.of main_call16_call0_v1 : StableHlo.TRef sig ⟨S600, .f32⟩) (broadcastInDim S600 ![] bcast_S_S600),
    StableHlo.TRef.ternary (.of main_call16_v12 : StableHlo.TRef sig ⟨S_, .i1⟩) (.of main_call16_v11 : StableHlo.TRef sig ⟨S600, .f32⟩) (.of main_call16_call0_v1 : StableHlo.TRef sig ⟨S600, .f32⟩) (.of main_v326 : StableHlo.TRef sig ⟨S600, .f32⟩) (fun p a b => select (broadcastInDim S600 ![] bcast_S_S600 p) a b) ]
theorem main_part6_ops1_sub : (main_part6_ops1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem main_part6_ops1_fresh : (main_part6_ops1 : List (HloOp τ sig (Elt F))).Forall fun op => op.fresh = ∅ := by
  simp only [List.Forall]; repeat' constructor
theorem main_part6_ops1_writes : StableHlo.HostSim.WritesFrom 543 (main_part6_ops1 : List (HloOp τ sig (Elt F))) := by
  repeat (first | exact .nil _ | refine .cons ⟨_, rfl, rfl, rfl⟩ ?_)
abbrev main_part6_ops2 : List (HloOp τ sig (Elt F)) :=
  [ StableHlo.unary main_v325 main_v327 (broadcastInDim S1x600 ![1] bcast_S600_S1x600_1 : (⟨S600, .f32⟩ : BufTy).Contents (Elt F) → (⟨S1x600, .f32⟩ : BufTy).Contents (Elt F)),
    StableHlo.unary main_v327 main_v328 (broadcastInDim S10000x600 ![0, 1] bcast_S1x600_S10000x600_0_1 : (⟨S1x600, .f32⟩ : BufTy).Contents (Elt F) → (⟨S10000x600, .f32⟩ : BufTy).Contents (Elt F)),
    StableHlo.binary main_v318 main_v328 main_v329 (subf : (⟨S10000x600, .f32⟩ : BufTy).Contents (Elt F) → (⟨S10000x600, .f32⟩ : BufTy).Contents (Elt F) → (⟨S10000x600, .f32⟩ : BufTy).Contents (Elt F)),
    StableHlo.nullary main_cst_51 (constant S_ .f32 0x3727C5AC#32),
    StableHlo.unary main_cst_51 main_v330 (broadcastInDim S600 ![] bcast_S_S600 : (⟨S_, .f32⟩ : BufTy).Contents (Elt F) → (⟨S600, .f32⟩ : BufTy).Contents (Elt F)),
    StableHlo.binary main_v326 main_v330 main_v331 (addf : (⟨S600, .f32⟩ : BufTy).Contents (Elt F) → (⟨S600, .f32⟩ : BufTy).Contents (Elt F) → (⟨S600, .f32⟩ : BufTy).Contents (Elt F)),
    StableHlo.unary main_v331 main_v332 (Host.sqrt : (⟨S600, .f32⟩ : BufTy).Contents (Elt F) → (⟨S600, .f32⟩ : BufTy).Contents (Elt F)),
    StableHlo.unary main_v332 main_v333 (broadcastInDim S1x600 ![1] bcast_S600_S1x600_1 : (⟨S600, .f32⟩ : BufTy).Contents (Elt F) → (⟨S1x600, .f32⟩ : BufTy).Contents (Elt F)),
    StableHlo.unary main_v333 main_v334 (broadcastInDim S10000x600 ![0, 1] bcast_S1x600_S10000x600_0_1 : (⟨S1x600, .f32⟩ : BufTy).Contents (Elt F) → (⟨S10000x600, .f32⟩ : BufTy).Contents (Elt F)),
    StableHlo.binary main_v329 main_v334 main_v335 (Host.divf : (⟨S10000x600, .f32⟩ : BufTy).Contents (Elt F) → (⟨S10000x600, .f32⟩ : BufTy).Contents (Elt F) → (⟨S10000x600, .f32⟩ : BufTy).Contents (Elt F)),
    StableHlo.unary main_v320 main_v336 (broadcastInDim S1x600 ![1] bcast_S600_S1x600_1 : (⟨S600, .f32⟩ : BufTy).Contents (Elt F) → (⟨S1x600, .f32⟩ : BufTy).Contents (Elt F)),
    StableHlo.unary main_v336 main_v337 (broadcastInDim S10000x600 ![0, 1] bcast_S1x600_S10000x600_0_1 : (⟨S1x600, .f32⟩ : BufTy).Contents (Elt F) → (⟨S10000x600, .f32⟩ : BufTy).Contents (Elt F)),
    StableHlo.binary main_v335 main_v337 main_v338 (mulf : (⟨S10000x600, .f32⟩ : BufTy).Contents (Elt F) → (⟨S10000x600, .f32⟩ : BufTy).Contents (Elt F) → (⟨S10000x600, .f32⟩ : BufTy).Contents (Elt F)),
    StableHlo.unary main_v322 main_v339 (broadcastInDim S1x600 ![1] bcast_S600_S1x600_1 : (⟨S600, .f32⟩ : BufTy).Contents (Elt F) → (⟨S1x600, .f32⟩ : BufTy).Contents (Elt F)),
    StableHlo.unary main_v339 main_v340 (broadcastInDim S10000x600 ![0, 1] bcast_S1x600_S10000x600_0_1 : (⟨S1x600, .f32⟩ : BufTy).Contents (Elt F) → (⟨S10000x600, .f32⟩ : BufTy).Contents (Elt F)),
    StableHlo.binary main_v338 main_v340 main_v341 (addf : (⟨S10000x600, .f32⟩ : BufTy).Contents (Elt F) → (⟨S10000x600, .f32⟩ : BufTy).Contents (Elt F) → (⟨S10000x600, .f32⟩ : BufTy).Contents (Elt F)) ]
theorem main_part6_ops2_sub : (main_part6_ops2 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem main_part6_ops2_fresh : (main_part6_ops2 : List (HloOp τ sig (Elt F))).Forall fun op => op.fresh = ∅ := by
  simp only [List.Forall]; repeat' constructor
theorem main_part6_ops2_writes : StableHlo.HostSim.WritesFrom 565 (main_part6_ops2 : List (HloOp τ sig (Elt F))) := by
  repeat (first | exact .nil _ | refine .cons ⟨_, rfl, rfl, rfl⟩ ?_)
abbrev main_part6_ops3 : List (HloOp τ sig (Elt F)) :=
  [ StableHlo.TRef.nullary (.of main_call17_cst : StableHlo.TRef sig ⟨S_, .f32⟩) (constant S_ .f32 0x00000000#32),
    StableHlo.TRef.unary (.of main_call17_cst : StableHlo.TRef sig ⟨S_, .f32⟩) (.of main_call17_v0 : StableHlo.TRef sig ⟨S10000x600, .f32⟩) (broadcastInDim S10000x600 ![] bcast_S_S10000x600),
    StableHlo.TRef.binary (.of main_v341 : StableHlo.TRef sig ⟨S10000x600, .f32⟩) (.of main_call17_v0 : StableHlo.TRef sig ⟨S10000x600, .f32⟩) (.of main_v342 : StableHlo.TRef sig ⟨S10000x600, .f32⟩) maximumf ]
theorem main_part6_ops3_sub : (main_part6_ops3 : List (HloOp τ sig (Elt F))).Forall fun op => op.bufs ⊆ StableHlo.tcRefs τ sig :=
  ⟨StableHlo.nullary_bufs_sub .., StableHlo.unary_bufs_sub .., StableHlo.binary_bufs_sub ..⟩
theorem main_part6_ops3_fresh : (main_part6_ops3 : List (HloOp τ sig (Elt F))).Forall fun op => op.fresh = ∅ := by
  simp only [List.Forall]; repeat' constructor
theorem main_part6_ops3_writes : StableHlo.HostSim.WritesFrom 581 (main_part6_ops3 : List (HloOp τ sig (Elt F))) := by
  repeat (first | exact .nil _ | refine .cons ⟨_, rfl, rfl, rfl⟩ ?_)
abbrev main_part6_ops4 : List (HloOp τ sig (Elt F)) :=
  [ StableHlo.unary main_arg11 main_v343 ((extractStridedSlice S1x600x300 ![3, 0, 0] · slices_S7x600x300_S1x600x300_3_0_0) : (⟨S7x600x300, .f32⟩ : BufTy).Contents (Elt F) → (⟨S1x600x300, .f32⟩ : BufTy).Contents (Elt F)),
    StableHlo.reshape main_v343 main_v344 rfl shapeCasts_S1x600x300_S600x300,
    StableHlo.binary main_v342 main_v344 main_v345 ((fun l r => Host.dotGeneral dot_S10000x600_S600x300_S10000x300_1_0_0_1_n_n none l r) : (⟨S10000x600, .f32⟩ : BufTy).Contents (Elt F) → (⟨S600x300, .f32⟩ : BufTy).Contents (Elt F) → (⟨S10000x300, .f32⟩ : BufTy).Contents (Elt F)),
    StableHlo.unary main_arg12 main_v346 ((extractStridedSlice S1x300 ![3, 0] · slices_S7x300_S1x300_3_0) : (⟨S7x300, .f32⟩ : BufTy).Contents (Elt F) → (⟨S1x300, .f32⟩ : BufTy).Contents (Elt F)),
    StableHlo.reshape main_v346 main_v347 rfl shapeCasts_S1x300_S300,
    StableHlo.unary main_v347 main_v348 (broadcastInDim S1x300 ![1] bcast_S300_S1x300_1 : (⟨S300, .f32⟩ : BufTy).Contents (Elt F) → (⟨S1x300, .f32⟩ : BufTy).Contents (Elt F)),
    StableHlo.unary main_v348 main_v349 (broadcastInDim S10000x300 ![0, 1] bcast_S1x300_S10000x300_0_1 : (⟨S1x300, .f32⟩ : BufTy).Contents (Elt F) → (⟨S10000x300, .f32⟩ : BufTy).Contents (Elt F)),
    StableHlo.binary main_v345 main_v349 main_v350 (addf : (⟨S10000x300, .f32⟩ : BufTy).Contents (Elt F) → (⟨S10000x300, .f32⟩ : BufTy).Contents (Elt F) → (⟨S10000x300, .f32⟩ : BufTy).Contents (Elt F)),
    StableHlo.unary main_arg14 main_v351 ((extractStridedSlice S1x300 ![3, 0] · slices_S7x300_S1x300_3_0) : (⟨S7x300, .f32⟩ : BufTy).Contents (Elt F) → (⟨S1x300, .f32⟩ : BufTy).Contents (Elt F)),
    StableHlo.reshape main_v351 main_v352 rfl shapeCasts_S1x300_S300,
    StableHlo.unary main_arg15 main_v353 ((extractStridedSlice S1x300 ![3, 0] · slices_S7x300_S1x300_3_0) : (⟨S7x300, .f32⟩ : BufTy).Contents (Elt F) → (⟨S1x300, .f32⟩ : BufTy).Contents (Elt F)),
    StableHlo.reshape main_v353 main_v354 rfl shapeCasts_S1x300_S300,
    StableHlo.nullary main_cst_52 (constant S_ .f32 0x00000000#32),
    StableHlo.binary main_v350 main_cst_52 main_v355 ((fun x v => Host.reduceAdd x v reducesTo_S10000x300_S300_d0 h_S_) : (⟨S10000x300, .f32⟩ : BufTy).Contents (Elt F) → (⟨S_, .f32⟩ : BufTy).Contents (Elt F) → (⟨S300, .f32⟩ : BufTy).Contents (Elt F)),
    StableHlo.nullary main_cst_53 (constant S_ .f32 0x461C4000#32),
    StableHlo.unary main_cst_53 main_v356 (broadcastInDim S300 ![] bcast_S_S300 : (⟨S_, .f32⟩ : BufTy).Contents (Elt F) → (⟨S300, .f32⟩ : BufTy).Contents (Elt F)),
    StableHlo.binary main_v355 main_v356 main_v357 (Host.divf : (⟨S300, .f32⟩ : BufTy).Contents (Elt F) → (⟨S300, .f32⟩ : BufTy).Contents (Elt F) → (⟨S300, .f32⟩ : BufTy).Contents (Elt F)),
    StableHlo.nullary main_c_54 (constantI S_ 32 0#32) ]
theorem main_part6_ops4_sub : (main_part6_ops4 : List (HloOp τ sig (Elt F))).Forall fun op => op.bufs ⊆ StableHlo.tcRefs τ sig :=
  ⟨StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub ..⟩
theorem main_part6_ops4_fresh : (main_part6_ops4 : List (HloOp τ sig (Elt F))).Forall fun op => op.fresh = ∅ := by
  simp only [List.Forall]; repeat' constructor
theorem main_part6_ops4_writes : StableHlo.HostSim.WritesFrom 584 (main_part6_ops4 : List (HloOp τ sig (Elt F))) := by
  repeat (first | exact .nil _ | refine .cons ⟨_, rfl, rfl, rfl⟩ ?_)
abbrev main_part6_ops5 : List (HloOp τ sig (Elt F)) :=
  [ StableHlo.TRef.nullary (.of main_call18_cst : StableHlo.TRef sig ⟨S_, .f32⟩) (constant S_ .f32 0x00000000#32),
    StableHlo.TRef.binary (.of main_v350 : StableHlo.TRef sig ⟨S10000x300, .f32⟩) (.of main_call18_cst : StableHlo.TRef sig ⟨S_, .f32⟩) (.of main_call18_v0 : StableHlo.TRef sig ⟨S300, .f32⟩) (fun x v => Host.reduceAdd x v reducesTo_S10000x300_S300_d0 h_S_),
    StableHlo.TRef.unary (.of main_call18_v0 : StableHlo.TRef sig ⟨S300, .f32⟩) (.of main_call18_v1 : StableHlo.TRef sig ⟨S1x300, .f32⟩) (broadcastInDim S1x300 ![1] bcast_S300_S1x300_1),
    StableHlo.TRef.nullary (.of main_call18_cst_0 : StableHlo.TRef sig ⟨S_, .f32⟩) (constant S_ .f32 0x461C4000#32),
    StableHlo.TRef.unary (.of main_call18_cst_0 : StableHlo.TRef sig ⟨S_, .f32⟩) (.of main_call18_v2 : StableHlo.TRef sig ⟨S1x300, .f32⟩) (broadcastInDim S1x300 ![] bcast_S_S1x300),
    StableHlo.TRef.binary (.of main_call18_v1 : StableHlo.TRef sig ⟨S1x300, .f32⟩) (.of main_call18_v2 : StableHlo.TRef sig ⟨S1x300, .f32⟩) (.of main_call18_v3 : StableHlo.TRef sig ⟨S1x300, .f32⟩) Host.divf,
    StableHlo.TRef.unary (.of main_call18_v3 : StableHlo.TRef sig ⟨S1x300, .f32⟩) (.of main_call18_v4 : StableHlo.TRef sig ⟨S10000x300, .f32⟩) (broadcastInDim S10000x300 ![0, 1] bcast_S1x300_S10000x300_0_1),
    StableHlo.TRef.binary (.of main_v350 : StableHlo.TRef sig ⟨S10000x300, .f32⟩) (.of main_call18_v4 : StableHlo.TRef sig ⟨S10000x300, .f32⟩) (.of main_call18_v5 : StableHlo.TRef sig ⟨S10000x300, .f32⟩) subf,
    StableHlo.TRef.binary (.of main_call18_v5 : StableHlo.TRef sig ⟨S10000x300, .f32⟩) (.of main_call18_v5 : StableHlo.TRef sig ⟨S10000x300, .f32⟩) (.of main_call18_v6 : StableHlo.TRef sig ⟨S10000x300, .f32⟩) mulf,
    StableHlo.TRef.unary (.of main_c_54 : StableHlo.TRef sig ⟨S_, .i32⟩) (.of main_call18_v7 : StableHlo.TRef sig ⟨S_, .f32⟩) (sitofp .f32),
    StableHlo.TRef.nullary (.of main_call18_cst_1 : StableHlo.TRef sig ⟨S_, .f32⟩) (constant S_ .f32 0x461C4000#32),
    StableHlo.TRef.binary (.of main_call18_cst_1 : StableHlo.TRef sig ⟨S_, .f32⟩) (.of main_call18_v7 : StableHlo.TRef sig ⟨S_, .f32⟩) (.of main_call18_v8 : StableHlo.TRef sig ⟨S_, .f32⟩) subf,
    StableHlo.TRef.nullary (.of main_call18_cst_2 : StableHlo.TRef sig ⟨S_, .f32⟩) (constant S_ .f32 0x00000000#32),
    StableHlo.TRef.binary (.of main_call18_v6 : StableHlo.TRef sig ⟨S10000x300, .f32⟩) (.of main_call18_cst_2 : StableHlo.TRef sig ⟨S_, .f32⟩) (.of main_call18_v9 : StableHlo.TRef sig ⟨S300, .f32⟩) (fun x v => Host.reduceAdd x v reducesTo_S10000x300_S300_d0 h_S_),
    StableHlo.TRef.unary (.of main_call18_v8 : StableHlo.TRef sig ⟨S_, .f32⟩) (.of main_call18_v10 : StableHlo.TRef sig ⟨S300, .f32⟩) (broadcastInDim S300 ![] bcast_S_S300),
    StableHlo.TRef.binary (.of main_call18_v9 : StableHlo.TRef sig ⟨S300, .f32⟩) (.of main_call18_v10 : StableHlo.TRef sig ⟨S300, .f32⟩) (.of main_call18_v11 : StableHlo.TRef sig ⟨S300, .f32⟩) Host.divf,
    StableHlo.TRef.nullary (.of main_call18_cst_3 : StableHlo.TRef sig ⟨S_, .f32⟩) (constant S_ .f32 0x00000000#32),
    StableHlo.TRef.binary (.of main_call18_v8 : StableHlo.TRef sig ⟨S_, .f32⟩) (.of main_call18_cst_3 : StableHlo.TRef sig ⟨S_, .f32⟩) (.of main_call18_v12 : StableHlo.TRef sig ⟨S_, .i1⟩) (cmpf .ogt),
    StableHlo.TRef.nullary (.of main_call18_cst_4 : StableHlo.TRef sig ⟨S_, .f32⟩) (constant S_ .f32 0x7FC00000#32),
    StableHlo.TRef.unary (.of main_call18_cst_4 : StableHlo.TRef sig ⟨S_, .f32⟩) (.of main_call18_call0_v0 : StableHlo.TRef sig ⟨S_, .f32⟩) id,
    StableHlo.TRef.unary (.of main_call18_call0_v0 : StableHlo.TRef sig ⟨S_, .f32⟩) (.of main_call18_call0_v1 : StableHlo.TRef sig ⟨S300, .f32⟩) (broadcastInDim S300 ![] bcast_S_S300),
    StableHlo.TRef.ternary (.of main_call18_v12 : StableHlo.TRef sig ⟨S_, .i1⟩) (.of main_call18_v11 : StableHlo.TRef sig ⟨S300, .f32⟩) (.of main_call18_call0_v1 : StableHlo.TRef sig ⟨S300, .f32⟩) (.of main_v358 : StableHlo.TRef sig ⟨S300, .f32⟩) (fun p a b => select (broadcastInDim S300 ![] bcast_S_S300 p) a b) ]
theorem main_part6_ops5_sub : (main_part6_ops5 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem main_part6_ops5_fresh : (main_part6_ops5 : List (HloOp τ sig (Elt F))).Forall fun op => op.fresh = ∅ := by
  simp only [List.Forall]; repeat' constructor
theorem main_part6_ops5_writes : StableHlo.HostSim.WritesFrom 602 (main_part6_ops5 : List (HloOp τ sig (Elt F))) := by
  repeat (first | exact .nil _ | refine .cons ⟨_, rfl, rfl, rfl⟩ ?_)
abbrev main_part6_ops6 : List (HloOp τ sig (Elt F)) :=
  [ StableHlo.unary main_v357 main_v359 (broadcastInDim S1x300 ![1] bcast_S300_S1x300_1 : (⟨S300, .f32⟩ : BufTy).Contents (Elt F) → (⟨S1x300, .f32⟩ : BufTy).Contents (Elt F)),
    StableHlo.unary main_v359 main_v360 (broadcastInDim S10000x300 ![0, 1] bcast_S1x300_S10000x300_0_1 : (⟨S1x300, .f32⟩ : BufTy).Contents (Elt F) → (⟨S10000x300, .f32⟩ : BufTy).Contents (Elt F)),
    StableHlo.binary main_v350 main_v360 main_v361 (subf : (⟨S10000x300, .f32⟩ : BufTy).Contents (Elt F) → (⟨S10000x300, .f32⟩ : BufTy).Contents (Elt F) → (⟨S10000x300, .f32⟩ : BufTy).Contents (Elt F)),
    StableHlo.nullary main_cst_55 (constant S_ .f32 0x3727C5AC#32) ]
theorem main_part6_ops6_sub : (main_part6_ops6 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub ..⟩
theorem main_part6_ops6_fresh : (main_part6_ops6 : List (HloOp τ sig (Elt F))).Forall fun op => op.fresh = ∅ := by
  simp only [List.Forall]; repeat' constructor
theorem main_part6_ops6_writes : StableHlo.HostSim.WritesFrom 624 (main_part6_ops6 : List (HloOp τ sig (Elt F))) := by
  repeat (first | exact .nil _ | refine .cons ⟨_, rfl, rfl, rfl⟩ ?_)
abbrev main_part7_ops0 : List (HloOp τ sig (Elt F)) :=
  [ StableHlo.unary main_cst_55 main_v362 (broadcastInDim S300 ![] bcast_S_S300 : (⟨S_, .f32⟩ : BufTy).Contents (Elt F) → (⟨S300, .f32⟩ : BufTy).Contents (Elt F)),
    StableHlo.binary main_v358 main_v362 main_v363 (addf : (⟨S300, .f32⟩ : BufTy).Contents (Elt F) → (⟨S300, .f32⟩ : BufTy).Contents (Elt F) → (⟨S300, .f32⟩ : BufTy).Contents (Elt F)),
    StableHlo.unary main_v363 main_v364 (Host.sqrt : (⟨S300, .f32⟩ : BufTy).Contents (Elt F) → (⟨S300, .f32⟩ : BufTy).Contents (Elt F)),
    StableHlo.unary main_v364 main_v365 (broadcastInDim S1x300 ![1] bcast_S300_S1x300_1 : (⟨S300, .f32⟩ : BufTy).Contents (Elt F) → (⟨S1x300, .f32⟩ : BufTy).Contents (Elt F)),
    StableHlo.unary main_v365 main_v366 (broadcastInDim S10000x300 ![0, 1] bcast_S1x300_S10000x300_0_1 : (⟨S1x300, .f32⟩ : BufTy).Contents (Elt F) → (⟨S10000x300, .f32⟩ : BufTy).Contents (Elt F)),
    StableHlo.binary main_v361 main_v366 main_v367 (Host.divf : (⟨S10000x300, .f32⟩ : BufTy).Contents (Elt F) → (⟨S10000x300, .f32⟩ : BufTy).Contents (Elt F) → (⟨S10000x300, .f32⟩ : BufTy).Contents (Elt F)),
    StableHlo.unary main_v352 main_v368 (broadcastInDim S1x300 ![1] bcast_S300_S1x300_1 : (⟨S300, .f32⟩ : BufTy).Contents (Elt F) → (⟨S1x300, .f32⟩ : BufTy).Contents (Elt F)),
    StableHlo.unary main_v368 main_v369 (broadcastInDim S10000x300 ![0, 1] bcast_S1x300_S10000x300_0_1 : (⟨S1x300, .f32⟩ : BufTy).Contents (Elt F) → (⟨S10000x300, .f32⟩ : BufTy).Contents (Elt F)),
    StableHlo.binary main_v367 main_v369 main_v370 (mulf : (⟨S10000x300, .f32⟩ : BufTy).Contents (Elt F) → (⟨S10000x300, .f32⟩ : BufTy).Contents (Elt F) → (⟨S10000x300, .f32⟩ : BufTy).Contents (Elt F)),
    StableHlo.unary main_v354 main_v371 (broadcastInDim S1x300 ![1] bcast_S300_S1x300_1 : (⟨S300, .f32⟩ : BufTy).Contents (Elt F) → (⟨S1x300, .f32⟩ : BufTy).Contents (Elt F)),
    StableHlo.unary main_v371 main_v372 (broadcastInDim S10000x300 ![0, 1] bcast_S1x300_S10000x300_0_1 : (⟨S1x300, .f32⟩ : BufTy).Contents (Elt F) → (⟨S10000x300, .f32⟩ : BufTy).Contents (Elt F)),
    StableHlo.binary main_v370 main_v372 main_v373 (addf : (⟨S10000x300, .f32⟩ : BufTy).Contents (Elt F) → (⟨S10000x300, .f32⟩ : BufTy).Contents (Elt F) → (⟨S10000x300, .f32⟩ : BufTy).Contents (Elt F)) ]
theorem main_part7_ops0_sub : (main_part7_ops0 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem main_part7_ops0_fresh : (main_part7_ops0 : List (HloOp τ sig (Elt F))).Forall fun op => op.fresh = ∅ := by
  simp only [List.Forall]; repeat' constructor
theorem main_part7_ops0_writes : StableHlo.HostSim.WritesFrom 628 (main_part7_ops0 : List (HloOp τ sig (Elt F))) := by
  repeat (first | exact .nil _ | refine .cons ⟨_, rfl, rfl, rfl⟩ ?_)
abbrev main_part7_ops1 : List (HloOp τ sig (Elt F)) :=
  [ StableHlo.TRef.nullary (.of main_call19_cst : StableHlo.TRef sig ⟨S_, .f32⟩) (constant S_ .f32 0x00000000#32),
    StableHlo.TRef.unary (.of main_call19_cst : StableHlo.TRef sig ⟨S_, .f32⟩) (.of main_call19_v0 : StableHlo.TRef sig ⟨S10000x300, .f32⟩) (broadcastInDim S10000x300 ![] bcast_S_S10000x300),
    StableHlo.TRef.binary (.of main_v373 : StableHlo.TRef sig ⟨S10000x300, .f32⟩) (.of main_call19_v0 : StableHlo.TRef sig ⟨S10000x300, .f32⟩) (.of main_v374 : StableHlo.TRef sig ⟨S10000x300, .f32⟩) maximumf ]
theorem main_part7_ops1_sub : (main_part7_ops1 : List (HloOp τ sig (Elt F))).Forall fun op => op.bufs ⊆ StableHlo.tcRefs τ sig :=
  ⟨StableHlo.nullary_bufs_sub .., StableHlo.unary_bufs_sub .., StableHlo.binary_bufs_sub ..⟩
theorem main_part7_ops1_fresh : (main_part7_ops1 : List (HloOp τ sig (Elt F))).Forall fun op => op.fresh = ∅ := by
  simp only [List.Forall]; repeat' constructor
theorem main_part7_ops1_writes : StableHlo.HostSim.WritesFrom 640 (main_part7_ops1 : List (HloOp τ sig (Elt F))) := by
  repeat (first | exact .nil _ | refine .cons ⟨_, rfl, rfl, rfl⟩ ?_)
abbrev main_part7_ops2 : List (HloOp τ sig (Elt F)) :=
  [ StableHlo.nullary main_c_56 (constantI S_ 32 0#32),
    StableHlo.unary main_c_56 main_v375 (broadcastInDim S160000 ![] bcast_S_S160000 : (⟨S_, .i32⟩ : BufTy).Contents (Elt F) → (⟨S160000, .i32⟩ : BufTy).Contents (Elt F)),
    StableHlo.binary main_v1 main_v375 main_v376 (cmpi .slt : (⟨S160000, .i32⟩ : BufTy).Contents (Elt F) → (⟨S160000, .i32⟩ : BufTy).Contents (Elt F) → (⟨S160000, .i1⟩ : BufTy).Contents (Elt F)),
    StableHlo.nullary main_c_57 (constantI S_ 32 10000#32),
    StableHlo.unary main_c_57 main_v377 (broadcastInDim S160000 ![] bcast_S_S160000 : (⟨S_, .i32⟩ : BufTy).Contents (Elt F) → (⟨S160000, .i32⟩ : BufTy).Contents (Elt F)),
    StableHlo.binary main_v1 main_v377 main_v378 (addi : (⟨S160000, .i32⟩ : BufTy).Contents (Elt F) → (⟨S160000, .i32⟩ : BufTy).Contents (Elt F) → (⟨S160000, .i32⟩ : BufTy).Contents (Elt F)),
    StableHlo.ternary main_v376 main_v378 main_v1 main_v379 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v379 main_v380 (broadcastInDim S160000x1 ![0] bcast_S160000_S160000x1_0 : (⟨S160000, .i32⟩ : BufTy).Contents (Elt F) → (⟨S160000x1, .i32⟩ : BufTy).Contents (Elt F)),
    StableHlo.binary main_v374 main_v380 main_v381 ((fun x i => Host.gather gather_S10000x300_S160000x1_S160000x300_1_0_n_n_0_1_1300 x i) : (⟨S10000x300, .f32⟩ : BufTy).Contents (Elt F) → (⟨S160000x1, .i32⟩ : BufTy).Contents (Elt F) → (⟨S160000x300, .f32⟩ : BufTy).Contents (Elt F)),
    StableHlo.unary main_arg6 main_v382 ((extractStridedSlice S1x5x300 ![4, 0, 0] · slices_S7x5x300_S1x5x300_4_0_0) : (⟨S7x5x300, .f32⟩ : BufTy).Contents (Elt F) → (⟨S1x5x300, .f32⟩ : BufTy).Contents (Elt F)),
    StableHlo.reshape main_v382 main_v383 rfl shapeCasts_S1x5x300_S5x300,
    StableHlo.nullary main_c_58 (constantI S_ 32 0#32),
    StableHlo.unary main_c_58 main_v384 (broadcastInDim S160000 ![] bcast_S_S160000 : (⟨S_, .i32⟩ : BufTy).Contents (Elt F) → (⟨S160000, .i32⟩ : BufTy).Contents (Elt F)),
    StableHlo.binary main_arg2 main_v384 main_v385 (cmpi .slt : (⟨S160000, .i32⟩ : BufTy).Contents (Elt F) → (⟨S160000, .i32⟩ : BufTy).Contents (Elt F) → (⟨S160000, .i1⟩ : BufTy).Contents (Elt F)),
    StableHlo.nullary main_c_59 (constantI S_ 32 5#32),
    StableHlo.unary main_c_59 main_v386 (broadcastInDim S160000 ![] bcast_S_S160000 : (⟨S_, .i32⟩ : BufTy).Contents (Elt F) → (⟨S160000, .i32⟩ : BufTy).Contents (Elt F)),
    StableHlo.binary main_arg2 main_v386 main_v387 (addi : (⟨S160000, .i32⟩ : BufTy).Contents (Elt F) → (⟨S160000, .i32⟩ : BufTy).Contents (Elt F) → (⟨S160000, .i32⟩ : BufTy).Contents (Elt F)),
    StableHlo.ternary main_v385 main_v387 main_arg2 main_v388 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v388 main_v389 (broadcastInDim S160000x1 ![0] bcast_S160000_S160000x1_0 : (⟨S160000, .i32⟩ : BufTy).Contents (Elt F) → (⟨S160000x1, .i32⟩ : BufTy).Contents (Elt F)),
    StableHlo.binary main_v383 main_v389 main_v390 ((fun x i => Host.gather gather_S5x300_S160000x1_S160000x300_1_0_n_n_0_1_1300 x i) : (⟨S5x300, .f32⟩ : BufTy).Contents (Elt F) → (⟨S160000x1, .i32⟩ : BufTy).Contents (Elt F) → (⟨S160000x300, .f32⟩ : BufTy).Contents (Elt F)),
    StableHlo.binary main_v381 main_v390 main_v391 (addf : (⟨S160000x300, .f32⟩ : BufTy).Contents (Elt F) → (⟨S160000x300, .f32⟩ : BufTy).Contents (Elt F) → (⟨S160000x300, .f32⟩ : BufTy).Contents (Elt F)) ]
theorem main_part7_ops2_sub : (main_part7_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩
theorem main_part7_ops2_fresh : (main_part7_ops2 : List (HloOp τ sig (Elt F))).Forall fun op => op.fresh = ∅ := by
  simp only [List.Forall]; repeat' constructor
theorem main_part7_ops2_writes : StableHlo.HostSim.WritesFrom 643 (main_part7_ops2 : List (HloOp τ sig (Elt F))) := by
  repeat (first | exact .nil _ | refine .cons ⟨_, rfl, rfl, rfl⟩ ?_)
abbrev main_part7_ops3 : List (HloOp τ sig (Elt F)) :=
  [ StableHlo.TRef.nullary (.of main_call20_cst : StableHlo.TRef sig ⟨S_, .f32⟩) (constant S_ .f32 0x00000000#32),
    StableHlo.TRef.unary (.of main_call20_cst : StableHlo.TRef sig ⟨S_, .f32⟩) (.of main_call20_v0 : StableHlo.TRef sig ⟨S160000x300, .f32⟩) (broadcastInDim S160000x300 ![] bcast_S_S160000x300),
    StableHlo.TRef.binary (.of main_v391 : StableHlo.TRef sig ⟨S160000x300, .f32⟩) (.of main_call20_v0 : StableHlo.TRef sig ⟨S160000x300, .f32⟩) (.of main_v392 : StableHlo.TRef sig ⟨S160000x300, .f32⟩) maximumf ]
theorem main_part7_ops3_sub : (main_part7_ops3 : List (HloOp τ sig (Elt F))).Forall fun op => op.bufs ⊆ StableHlo.tcRefs τ sig :=
  ⟨StableHlo.nullary_bufs_sub .., StableHlo.unary_bufs_sub .., StableHlo.binary_bufs_sub ..⟩
theorem main_part7_ops3_fresh : (main_part7_ops3 : List (HloOp τ sig (Elt F))).Forall fun op => op.fresh = ∅ := by
  simp only [List.Forall]; repeat' constructor
theorem main_part7_ops3_writes : StableHlo.HostSim.WritesFrom 664 (main_part7_ops3 : List (HloOp τ sig (Elt F))) := by
  repeat (first | exact .nil _ | refine .cons ⟨_, rfl, rfl, rfl⟩ ?_)
abbrev main_part7_ops4 : List (HloOp τ sig (Elt F)) :=
  [ StableHlo.nullary main_cst_60 (constant S_ .f32 0x00000000#32),
    StableHlo.unary main_cst_60 main_v393 (broadcastInDim S10000x300 ![] bcast_S_S10000x300 : (⟨S_, .f32⟩ : BufTy).Contents (Elt F) → (⟨S10000x300, .f32⟩ : BufTy).Contents (Elt F)),
    StableHlo.unary main_v3 main_v394 (broadcastInDim S160000x1 ![0] bcast_S160000_S160000x1_0 : (⟨S160000, .i32⟩ : BufTy).Contents (Elt F) → (⟨S160000x1, .i32⟩ : BufTy).Contents (Elt F)),
    StableHlo.ternary main_v393 main_v394 main_v392 main_v395 ((fun x i u => Host.scatterAdd scatter_S10000x300_S160000x1_S160000x300_1_0_0_1 x i u) : (⟨S10000x300, .f32⟩ : BufTy).Contents (Elt F) → (⟨S160000x1, .i32⟩ : BufTy).Contents (Elt F) → (⟨S160000x300, .f32⟩ : BufTy).Contents (Elt F) → (⟨S10000x300, .f32⟩ : BufTy).Contents (Elt F)),
    StableHlo.unary main_arg13 main_v396 ((extractStridedSlice S1 ![4] · slices_S7_S1_4) : (⟨S7, .f32⟩ : BufTy).Contents (Elt F) → (⟨S1, .f32⟩ : BufTy).Contents (Elt F)),
    StableHlo.reshape main_v396 main_v397 rfl shapeCasts_S1_S_,
    StableHlo.nullary main_cst_61 (constant S_ .f32 0x3F800000#32),
    StableHlo.binary main_cst_61 main_v397 main_v398 (addf : (⟨S_, .f32⟩ : BufTy).Contents (Elt F) → (⟨S_, .f32⟩ : BufTy).Contents (Elt F) → (⟨S_, .f32⟩ : BufTy).Contents (Elt F)),
    StableHlo.unary main_v398 main_v399 (broadcastInDim S10000x300 ![] bcast_S_S10000x300 : (⟨S_, .f32⟩ : BufTy).Contents (Elt F) → (⟨S10000x300, .f32⟩ : BufTy).Contents (Elt F)),
    StableHlo.binary main_v399 main_v374 main_v400 (mulf : (⟨S10000x300, .f32⟩ : BufTy).Contents (Elt F) → (⟨S10000x300, .f32⟩ : BufTy).Contents (Elt F) → (⟨S10000x300, .f32⟩ : BufTy).Contents (Elt F)),
    StableHlo.binary main_v400 main_v395 main_v401 (addf : (⟨S10000x300, .f32⟩ : BufTy).Contents (Elt F) → (⟨S10000x300, .f32⟩ : BufTy).Contents (Elt F) → (⟨S10000x300, .f32⟩ : BufTy).Contents (Elt F)),
    StableHlo.unary main_arg7 main_v402 ((extractStridedSlice S1x300x600 ![4, 0, 0] · slices_S7x300x600_S1x300x600_4_0_0) : (⟨S7x300x600, .f32⟩ : BufTy).Contents (Elt F) → (⟨S1x300x600, .f32⟩ : BufTy).Contents (Elt F)),
    StableHlo.reshape main_v402 main_v403 rfl shapeCasts_S1x300x600_S300x600,
    StableHlo.binary main_v401 main_v403 main_v404 ((fun l r => Host.dotGeneral dot_S10000x300_S300x600_S10000x600_1_0_0_1_n_n none l r) : (⟨S10000x300, .f32⟩ : BufTy).Contents (Elt F) → (⟨S300x600, .f32⟩ : BufTy).Contents (Elt F) → (⟨S10000x600, .f32⟩ : BufTy).Contents (Elt F)),
    StableHlo.unary main_arg8 main_v405 ((extractStridedSlice S1x600 ![4, 0] · slices_S7x600_S1x600_4_0) : (⟨S7x600, .f32⟩ : BufTy).Contents (Elt F) → (⟨S1x600, .f32⟩ : BufTy).Contents (Elt F)),
    StableHlo.reshape main_v405 main_v406 rfl shapeCasts_S1x600_S600,
    StableHlo.unary main_v406 main_v407 (broadcastInDim S1x600 ![1] bcast_S600_S1x600_1 : (⟨S600, .f32⟩ : BufTy).Contents (Elt F) → (⟨S1x600, .f32⟩ : BufTy).Contents (Elt F)),
    StableHlo.unary main_v407 main_v408 (broadcastInDim S10000x600 ![0, 1] bcast_S1x600_S10000x600_0_1 : (⟨S1x600, .f32⟩ : BufTy).Contents (Elt F) → (⟨S10000x600, .f32⟩ : BufTy).Contents (Elt F)),
    StableHlo.binary main_v404 main_v408 main_v409 (addf : (⟨S10000x600, .f32⟩ : BufTy).Contents (Elt F) → (⟨S10000x600, .f32⟩ : BufTy).Contents (Elt F) → (⟨S10000x600, .f32⟩ : BufTy).Contents (Elt F)),
    StableHlo.unary main_arg9 main_v410 ((extractStridedSlice S1x600 ![4, 0] · slices_S7x600_S1x600_4_0) : (⟨S7x600, .f32⟩ : BufTy).Contents (Elt F) → (⟨S1x600, .f32⟩ : BufTy).Contents (Elt F)),
    StableHlo.reshape main_v410 main_v411 rfl shapeCasts_S1x600_S600,
    StableHlo.unary main_arg10 main_v412 ((extractStridedSlice S1x600 ![4, 0] · slices_S7x600_S1x600_4_0) : (⟨S7x600, .f32⟩ : BufTy).Contents (Elt F) → (⟨S1x600, .f32⟩ : BufTy).Contents (Elt F)),
    StableHlo.reshape main_v412 main_v413 rfl shapeCasts_S1x600_S600,
    StableHlo.nullary main_cst_62 (constant S_ .f32 0x00000000#32),
    StableHlo.binary main_v409 main_cst_62 main_v414 ((fun x v => Host.reduceAdd x v reducesTo_S10000x600_S600_d0 h_S_) : (⟨S10000x600, .f32⟩ : BufTy).Contents (Elt F) → (⟨S_, .f32⟩ : BufTy).Contents (Elt F) → (⟨S600, .f32⟩ : BufTy).Contents (Elt F)) ]
theorem main_part7_ops4_sub : (main_part7_ops4 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub ..⟩
theorem main_part7_ops4_fresh : (main_part7_ops4 : List (HloOp τ sig (Elt F))).Forall fun op => op.fresh = ∅ := by
  simp only [List.Forall]; repeat' constructor
theorem main_part7_ops4_writes : StableHlo.HostSim.WritesFrom 667 (main_part7_ops4 : List (HloOp τ sig (Elt F))) := by
  repeat (first | exact .nil _ | refine .cons ⟨_, rfl, rfl, rfl⟩ ?_)
abbrev main_part8_ops0 : List (HloOp τ sig (Elt F)) :=
  [ StableHlo.nullary main_cst_63 (constant S_ .f32 0x461C4000#32),
    StableHlo.unary main_cst_63 main_v415 (broadcastInDim S600 ![] bcast_S_S600 : (⟨S_, .f32⟩ : BufTy).Contents (Elt F) → (⟨S600, .f32⟩ : BufTy).Contents (Elt F)),
    StableHlo.binary main_v414 main_v415 main_v416 (Host.divf : (⟨S600, .f32⟩ : BufTy).Contents (Elt F) → (⟨S600, .f32⟩ : BufTy).Contents (Elt F) → (⟨S600, .f32⟩ : BufTy).Contents (Elt F)),
    StableHlo.nullary main_c_64 (constantI S_ 32 0#32) ]
theorem main_part8_ops0_sub : (main_part8_ops0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
theorem main_part8_ops0_fresh : (main_part8_ops0 : List (HloOp τ sig (Elt F))).Forall fun op => op.fresh = ∅ := by
  simp only [List.Forall]; repeat' constructor
theorem main_part8_ops0_writes : StableHlo.HostSim.WritesFrom 692 (main_part8_ops0 : List (HloOp τ sig (Elt F))) := by
  repeat (first | exact .nil _ | refine .cons ⟨_, rfl, rfl, rfl⟩ ?_)
abbrev main_part8_ops1 : List (HloOp τ sig (Elt F)) :=
  [ StableHlo.TRef.nullary (.of main_call21_cst : StableHlo.TRef sig ⟨S_, .f32⟩) (constant S_ .f32 0x00000000#32),
    StableHlo.TRef.binary (.of main_v409 : StableHlo.TRef sig ⟨S10000x600, .f32⟩) (.of main_call21_cst : StableHlo.TRef sig ⟨S_, .f32⟩) (.of main_call21_v0 : StableHlo.TRef sig ⟨S600, .f32⟩) (fun x v => Host.reduceAdd x v reducesTo_S10000x600_S600_d0 h_S_),
    StableHlo.TRef.unary (.of main_call21_v0 : StableHlo.TRef sig ⟨S600, .f32⟩) (.of main_call21_v1 : StableHlo.TRef sig ⟨S1x600, .f32⟩) (broadcastInDim S1x600 ![1] bcast_S600_S1x600_1),
    StableHlo.TRef.nullary (.of main_call21_cst_0 : StableHlo.TRef sig ⟨S_, .f32⟩) (constant S_ .f32 0x461C4000#32),
    StableHlo.TRef.unary (.of main_call21_cst_0 : StableHlo.TRef sig ⟨S_, .f32⟩) (.of main_call21_v2 : StableHlo.TRef sig ⟨S1x600, .f32⟩) (broadcastInDim S1x600 ![] bcast_S_S1x600),
    StableHlo.TRef.binary (.of main_call21_v1 : StableHlo.TRef sig ⟨S1x600, .f32⟩) (.of main_call21_v2 : StableHlo.TRef sig ⟨S1x600, .f32⟩) (.of main_call21_v3 : StableHlo.TRef sig ⟨S1x600, .f32⟩) Host.divf,
    StableHlo.TRef.unary (.of main_call21_v3 : StableHlo.TRef sig ⟨S1x600, .f32⟩) (.of main_call21_v4 : StableHlo.TRef sig ⟨S10000x600, .f32⟩) (broadcastInDim S10000x600 ![0, 1] bcast_S1x600_S10000x600_0_1),
    StableHlo.TRef.binary (.of main_v409 : StableHlo.TRef sig ⟨S10000x600, .f32⟩) (.of main_call21_v4 : StableHlo.TRef sig ⟨S10000x600, .f32⟩) (.of main_call21_v5 : StableHlo.TRef sig ⟨S10000x600, .f32⟩) subf,
    StableHlo.TRef.binary (.of main_call21_v5 : StableHlo.TRef sig ⟨S10000x600, .f32⟩) (.of main_call21_v5 : StableHlo.TRef sig ⟨S10000x600, .f32⟩) (.of main_call21_v6 : StableHlo.TRef sig ⟨S10000x600, .f32⟩) mulf,
    StableHlo.TRef.unary (.of main_c_64 : StableHlo.TRef sig ⟨S_, .i32⟩) (.of main_call21_v7 : StableHlo.TRef sig ⟨S_, .f32⟩) (sitofp .f32),
    StableHlo.TRef.nullary (.of main_call21_cst_1 : StableHlo.TRef sig ⟨S_, .f32⟩) (constant S_ .f32 0x461C4000#32),
    StableHlo.TRef.binary (.of main_call21_cst_1 : StableHlo.TRef sig ⟨S_, .f32⟩) (.of main_call21_v7 : StableHlo.TRef sig ⟨S_, .f32⟩) (.of main_call21_v8 : StableHlo.TRef sig ⟨S_, .f32⟩) subf,
    StableHlo.TRef.nullary (.of main_call21_cst_2 : StableHlo.TRef sig ⟨S_, .f32⟩) (constant S_ .f32 0x00000000#32),
    StableHlo.TRef.binary (.of main_call21_v6 : StableHlo.TRef sig ⟨S10000x600, .f32⟩) (.of main_call21_cst_2 : StableHlo.TRef sig ⟨S_, .f32⟩) (.of main_call21_v9 : StableHlo.TRef sig ⟨S600, .f32⟩) (fun x v => Host.reduceAdd x v reducesTo_S10000x600_S600_d0 h_S_),
    StableHlo.TRef.unary (.of main_call21_v8 : StableHlo.TRef sig ⟨S_, .f32⟩) (.of main_call21_v10 : StableHlo.TRef sig ⟨S600, .f32⟩) (broadcastInDim S600 ![] bcast_S_S600),
    StableHlo.TRef.binary (.of main_call21_v9 : StableHlo.TRef sig ⟨S600, .f32⟩) (.of main_call21_v10 : StableHlo.TRef sig ⟨S600, .f32⟩) (.of main_call21_v11 : StableHlo.TRef sig ⟨S600, .f32⟩) Host.divf,
    StableHlo.TRef.nullary (.of main_call21_cst_3 : StableHlo.TRef sig ⟨S_, .f32⟩) (constant S_ .f32 0x00000000#32),
    StableHlo.TRef.binary (.of main_call21_v8 : StableHlo.TRef sig ⟨S_, .f32⟩) (.of main_call21_cst_3 : StableHlo.TRef sig ⟨S_, .f32⟩) (.of main_call21_v12 : StableHlo.TRef sig ⟨S_, .i1⟩) (cmpf .ogt),
    StableHlo.TRef.nullary (.of main_call21_cst_4 : StableHlo.TRef sig ⟨S_, .f32⟩) (constant S_ .f32 0x7FC00000#32),
    StableHlo.TRef.unary (.of main_call21_cst_4 : StableHlo.TRef sig ⟨S_, .f32⟩) (.of main_call21_call0_v0 : StableHlo.TRef sig ⟨S_, .f32⟩) id,
    StableHlo.TRef.unary (.of main_call21_call0_v0 : StableHlo.TRef sig ⟨S_, .f32⟩) (.of main_call21_call0_v1 : StableHlo.TRef sig ⟨S600, .f32⟩) (broadcastInDim S600 ![] bcast_S_S600),
    StableHlo.TRef.ternary (.of main_call21_v12 : StableHlo.TRef sig ⟨S_, .i1⟩) (.of main_call21_v11 : StableHlo.TRef sig ⟨S600, .f32⟩) (.of main_call21_call0_v1 : StableHlo.TRef sig ⟨S600, .f32⟩) (.of main_v417 : StableHlo.TRef sig ⟨S600, .f32⟩) (fun p a b => select (broadcastInDim S600 ![] bcast_S_S600 p) a b) ]
theorem main_part8_ops1_sub : (main_part8_ops1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem main_part8_ops1_fresh : (main_part8_ops1 : List (HloOp τ sig (Elt F))).Forall fun op => op.fresh = ∅ := by
  simp only [List.Forall]; repeat' constructor
theorem main_part8_ops1_writes : StableHlo.HostSim.WritesFrom 696 (main_part8_ops1 : List (HloOp τ sig (Elt F))) := by
  repeat (first | exact .nil _ | refine .cons ⟨_, rfl, rfl, rfl⟩ ?_)
abbrev main_part8_ops2 : List (HloOp τ sig (Elt F)) :=
  [ StableHlo.unary main_v416 main_v418 (broadcastInDim S1x600 ![1] bcast_S600_S1x600_1 : (⟨S600, .f32⟩ : BufTy).Contents (Elt F) → (⟨S1x600, .f32⟩ : BufTy).Contents (Elt F)),
    StableHlo.unary main_v418 main_v419 (broadcastInDim S10000x600 ![0, 1] bcast_S1x600_S10000x600_0_1 : (⟨S1x600, .f32⟩ : BufTy).Contents (Elt F) → (⟨S10000x600, .f32⟩ : BufTy).Contents (Elt F)),
    StableHlo.binary main_v409 main_v419 main_v420 (subf : (⟨S10000x600, .f32⟩ : BufTy).Contents (Elt F) → (⟨S10000x600, .f32⟩ : BufTy).Contents (Elt F) → (⟨S10000x600, .f32⟩ : BufTy).Contents (Elt F)),
    StableHlo.nullary main_cst_65 (constant S_ .f32 0x3727C5AC#32),
    StableHlo.unary main_cst_65 main_v421 (broadcastInDim S600 ![] bcast_S_S600 : (⟨S_, .f32⟩ : BufTy).Contents (Elt F) → (⟨S600, .f32⟩ : BufTy).Contents (Elt F)),
    StableHlo.binary main_v417 main_v421 main_v422 (addf : (⟨S600, .f32⟩ : BufTy).Contents (Elt F) → (⟨S600, .f32⟩ : BufTy).Contents (Elt F) → (⟨S600, .f32⟩ : BufTy).Contents (Elt F)),
    StableHlo.unary main_v422 main_v423 (Host.sqrt : (⟨S600, .f32⟩ : BufTy).Contents (Elt F) → (⟨S600, .f32⟩ : BufTy).Contents (Elt F)),
    StableHlo.unary main_v423 main_v424 (broadcastInDim S1x600 ![1] bcast_S600_S1x600_1 : (⟨S600, .f32⟩ : BufTy).Contents (Elt F) → (⟨S1x600, .f32⟩ : BufTy).Contents (Elt F)),
    StableHlo.unary main_v424 main_v425 (broadcastInDim S10000x600 ![0, 1] bcast_S1x600_S10000x600_0_1 : (⟨S1x600, .f32⟩ : BufTy).Contents (Elt F) → (⟨S10000x600, .f32⟩ : BufTy).Contents (Elt F)),
    StableHlo.binary main_v420 main_v425 main_v426 (Host.divf : (⟨S10000x600, .f32⟩ : BufTy).Contents (Elt F) → (⟨S10000x600, .f32⟩ : BufTy).Contents (Elt F) → (⟨S10000x600, .f32⟩ : BufTy).Contents (Elt F)),
    StableHlo.unary main_v411 main_v427 (broadcastInDim S1x600 ![1] bcast_S600_S1x600_1 : (⟨S600, .f32⟩ : BufTy).Contents (Elt F) → (⟨S1x600, .f32⟩ : BufTy).Contents (Elt F)),
    StableHlo.unary main_v427 main_v428 (broadcastInDim S10000x600 ![0, 1] bcast_S1x600_S10000x600_0_1 : (⟨S1x600, .f32⟩ : BufTy).Contents (Elt F) → (⟨S10000x600, .f32⟩ : BufTy).Contents (Elt F)),
    StableHlo.binary main_v426 main_v428 main_v429 (mulf : (⟨S10000x600, .f32⟩ : BufTy).Contents (Elt F) → (⟨S10000x600, .f32⟩ : BufTy).Contents (Elt F) → (⟨S10000x600, .f32⟩ : BufTy).Contents (Elt F)),
    StableHlo.unary main_v413 main_v430 (broadcastInDim S1x600 ![1] bcast_S600_S1x600_1 : (⟨S600, .f32⟩ : BufTy).Contents (Elt F) → (⟨S1x600, .f32⟩ : BufTy).Contents (Elt F)),
    StableHlo.unary main_v430 main_v431 (broadcastInDim S10000x600 ![0, 1] bcast_S1x600_S10000x600_0_1 : (⟨S1x600, .f32⟩ : BufTy).Contents (Elt F) → (⟨S10000x600, .f32⟩ : BufTy).Contents (Elt F)),
    StableHlo.binary main_v429 main_v431 main_v432 (addf : (⟨S10000x600, .f32⟩ : BufTy).Contents (Elt F) → (⟨S10000x600, .f32⟩ : BufTy).Contents (Elt F) → (⟨S10000x600, .f32⟩ : BufTy).Contents (Elt F)) ]
theorem main_part8_ops2_sub : (main_part8_ops2 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem main_part8_ops2_fresh : (main_part8_ops2 : List (HloOp τ sig (Elt F))).Forall fun op => op.fresh = ∅ := by
  simp only [List.Forall]; repeat' constructor
theorem main_part8_ops2_writes : StableHlo.HostSim.WritesFrom 718 (main_part8_ops2 : List (HloOp τ sig (Elt F))) := by
  repeat (first | exact .nil _ | refine .cons ⟨_, rfl, rfl, rfl⟩ ?_)
abbrev main_part8_ops3 : List (HloOp τ sig (Elt F)) :=
  [ StableHlo.TRef.nullary (.of main_call22_cst : StableHlo.TRef sig ⟨S_, .f32⟩) (constant S_ .f32 0x00000000#32),
    StableHlo.TRef.unary (.of main_call22_cst : StableHlo.TRef sig ⟨S_, .f32⟩) (.of main_call22_v0 : StableHlo.TRef sig ⟨S10000x600, .f32⟩) (broadcastInDim S10000x600 ![] bcast_S_S10000x600),
    StableHlo.TRef.binary (.of main_v432 : StableHlo.TRef sig ⟨S10000x600, .f32⟩) (.of main_call22_v0 : StableHlo.TRef sig ⟨S10000x600, .f32⟩) (.of main_v433 : StableHlo.TRef sig ⟨S10000x600, .f32⟩) maximumf ]
theorem main_part8_ops3_sub : (main_part8_ops3 : List (HloOp τ sig (Elt F))).Forall fun op => op.bufs ⊆ StableHlo.tcRefs τ sig :=
  ⟨StableHlo.nullary_bufs_sub .., StableHlo.unary_bufs_sub .., StableHlo.binary_bufs_sub ..⟩
theorem main_part8_ops3_fresh : (main_part8_ops3 : List (HloOp τ sig (Elt F))).Forall fun op => op.fresh = ∅ := by
  simp only [List.Forall]; repeat' constructor
theorem main_part8_ops3_writes : StableHlo.HostSim.WritesFrom 734 (main_part8_ops3 : List (HloOp τ sig (Elt F))) := by
  repeat (first | exact .nil _ | refine .cons ⟨_, rfl, rfl, rfl⟩ ?_)
abbrev main_part8_ops4 : List (HloOp τ sig (Elt F)) :=
  [ StableHlo.unary main_arg11 main_v434 ((extractStridedSlice S1x600x300 ![4, 0, 0] · slices_S7x600x300_S1x600x300_4_0_0) : (⟨S7x600x300, .f32⟩ : BufTy).Contents (Elt F) → (⟨S1x600x300, .f32⟩ : BufTy).Contents (Elt F)),
    StableHlo.reshape main_v434 main_v435 rfl shapeCasts_S1x600x300_S600x300,
    StableHlo.binary main_v433 main_v435 main_v436 ((fun l r => Host.dotGeneral dot_S10000x600_S600x300_S10000x300_1_0_0_1_n_n none l r) : (⟨S10000x600, .f32⟩ : BufTy).Contents (Elt F) → (⟨S600x300, .f32⟩ : BufTy).Contents (Elt F) → (⟨S10000x300, .f32⟩ : BufTy).Contents (Elt F)),
    StableHlo.unary main_arg12 main_v437 ((extractStridedSlice S1x300 ![4, 0] · slices_S7x300_S1x300_4_0) : (⟨S7x300, .f32⟩ : BufTy).Contents (Elt F) → (⟨S1x300, .f32⟩ : BufTy).Contents (Elt F)),
    StableHlo.reshape main_v437 main_v438 rfl shapeCasts_S1x300_S300,
    StableHlo.unary main_v438 main_v439 (broadcastInDim S1x300 ![1] bcast_S300_S1x300_1 : (⟨S300, .f32⟩ : BufTy).Contents (Elt F) → (⟨S1x300, .f32⟩ : BufTy).Contents (Elt F)),
    StableHlo.unary main_v439 main_v440 (broadcastInDim S10000x300 ![0, 1] bcast_S1x300_S10000x300_0_1 : (⟨S1x300, .f32⟩ : BufTy).Contents (Elt F) → (⟨S10000x300, .f32⟩ : BufTy).Contents (Elt F)),
    StableHlo.binary main_v436 main_v440 main_v441 (addf : (⟨S10000x300, .f32⟩ : BufTy).Contents (Elt F) → (⟨S10000x300, .f32⟩ : BufTy).Contents (Elt F) → (⟨S10000x300, .f32⟩ : BufTy).Contents (Elt F)),
    StableHlo.unary main_arg14 main_v442 ((extractStridedSlice S1x300 ![4, 0] · slices_S7x300_S1x300_4_0) : (⟨S7x300, .f32⟩ : BufTy).Contents (Elt F) → (⟨S1x300, .f32⟩ : BufTy).Contents (Elt F)),
    StableHlo.reshape main_v442 main_v443 rfl shapeCasts_S1x300_S300,
    StableHlo.unary main_arg15 main_v444 ((extractStridedSlice S1x300 ![4, 0] · slices_S7x300_S1x300_4_0) : (⟨S7x300, .f32⟩ : BufTy).Contents (Elt F) → (⟨S1x300, .f32⟩ : BufTy).Contents (Elt F)),
    StableHlo.reshape main_v444 main_v445 rfl shapeCasts_S1x300_S300,
    StableHlo.nullary main_cst_66 (constant S_ .f32 0x00000000#32),
    StableHlo.binary main_v441 main_cst_66 main_v446 ((fun x v => Host.reduceAdd x v reducesTo_S10000x300_S300_d0 h_S_) : (⟨S10000x300, .f32⟩ : BufTy).Contents (Elt F) → (⟨S_, .f32⟩ : BufTy).Contents (Elt F) → (⟨S300, .f32⟩ : BufTy).Contents (Elt F)),
    StableHlo.nullary main_cst_67 (constant S_ .f32 0x461C4000#32),
    StableHlo.unary main_cst_67 main_v447 (broadcastInDim S300 ![] bcast_S_S300 : (⟨S_, .f32⟩ : BufTy).Contents (Elt F) → (⟨S300, .f32⟩ : BufTy).Contents (Elt F)),
    StableHlo.binary main_v446 main_v447 main_v448 (Host.divf : (⟨S300, .f32⟩ : BufTy).Contents (Elt F) → (⟨S300, .f32⟩ : BufTy).Contents (Elt F) → (⟨S300, .f32⟩ : BufTy).Contents (Elt F)),
    StableHlo.nullary main_c_68 (constantI S_ 32 0#32) ]
theorem main_part8_ops4_sub : (main_part8_ops4 : List (HloOp τ sig (Elt F))).Forall fun op => op.bufs ⊆ StableHlo.tcRefs τ sig :=
  ⟨StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub ..⟩
theorem main_part8_ops4_fresh : (main_part8_ops4 : List (HloOp τ sig (Elt F))).Forall fun op => op.fresh = ∅ := by
  simp only [List.Forall]; repeat' constructor
theorem main_part8_ops4_writes : StableHlo.HostSim.WritesFrom 737 (main_part8_ops4 : List (HloOp τ sig (Elt F))) := by
  repeat (first | exact .nil _ | refine .cons ⟨_, rfl, rfl, rfl⟩ ?_)
abbrev main_part8_ops5 : List (HloOp τ sig (Elt F)) :=
  [ StableHlo.TRef.nullary (.of main_call23_cst : StableHlo.TRef sig ⟨S_, .f32⟩) (constant S_ .f32 0x00000000#32),
    StableHlo.TRef.binary (.of main_v441 : StableHlo.TRef sig ⟨S10000x300, .f32⟩) (.of main_call23_cst : StableHlo.TRef sig ⟨S_, .f32⟩) (.of main_call23_v0 : StableHlo.TRef sig ⟨S300, .f32⟩) (fun x v => Host.reduceAdd x v reducesTo_S10000x300_S300_d0 h_S_),
    StableHlo.TRef.unary (.of main_call23_v0 : StableHlo.TRef sig ⟨S300, .f32⟩) (.of main_call23_v1 : StableHlo.TRef sig ⟨S1x300, .f32⟩) (broadcastInDim S1x300 ![1] bcast_S300_S1x300_1),
    StableHlo.TRef.nullary (.of main_call23_cst_0 : StableHlo.TRef sig ⟨S_, .f32⟩) (constant S_ .f32 0x461C4000#32),
    StableHlo.TRef.unary (.of main_call23_cst_0 : StableHlo.TRef sig ⟨S_, .f32⟩) (.of main_call23_v2 : StableHlo.TRef sig ⟨S1x300, .f32⟩) (broadcastInDim S1x300 ![] bcast_S_S1x300),
    StableHlo.TRef.binary (.of main_call23_v1 : StableHlo.TRef sig ⟨S1x300, .f32⟩) (.of main_call23_v2 : StableHlo.TRef sig ⟨S1x300, .f32⟩) (.of main_call23_v3 : StableHlo.TRef sig ⟨S1x300, .f32⟩) Host.divf,
    StableHlo.TRef.unary (.of main_call23_v3 : StableHlo.TRef sig ⟨S1x300, .f32⟩) (.of main_call23_v4 : StableHlo.TRef sig ⟨S10000x300, .f32⟩) (broadcastInDim S10000x300 ![0, 1] bcast_S1x300_S10000x300_0_1),
    StableHlo.TRef.binary (.of main_v441 : StableHlo.TRef sig ⟨S10000x300, .f32⟩) (.of main_call23_v4 : StableHlo.TRef sig ⟨S10000x300, .f32⟩) (.of main_call23_v5 : StableHlo.TRef sig ⟨S10000x300, .f32⟩) subf,
    StableHlo.TRef.binary (.of main_call23_v5 : StableHlo.TRef sig ⟨S10000x300, .f32⟩) (.of main_call23_v5 : StableHlo.TRef sig ⟨S10000x300, .f32⟩) (.of main_call23_v6 : StableHlo.TRef sig ⟨S10000x300, .f32⟩) mulf,
    StableHlo.TRef.unary (.of main_c_68 : StableHlo.TRef sig ⟨S_, .i32⟩) (.of main_call23_v7 : StableHlo.TRef sig ⟨S_, .f32⟩) (sitofp .f32),
    StableHlo.TRef.nullary (.of main_call23_cst_1 : StableHlo.TRef sig ⟨S_, .f32⟩) (constant S_ .f32 0x461C4000#32),
    StableHlo.TRef.binary (.of main_call23_cst_1 : StableHlo.TRef sig ⟨S_, .f32⟩) (.of main_call23_v7 : StableHlo.TRef sig ⟨S_, .f32⟩) (.of main_call23_v8 : StableHlo.TRef sig ⟨S_, .f32⟩) subf,
    StableHlo.TRef.nullary (.of main_call23_cst_2 : StableHlo.TRef sig ⟨S_, .f32⟩) (constant S_ .f32 0x00000000#32),
    StableHlo.TRef.binary (.of main_call23_v6 : StableHlo.TRef sig ⟨S10000x300, .f32⟩) (.of main_call23_cst_2 : StableHlo.TRef sig ⟨S_, .f32⟩) (.of main_call23_v9 : StableHlo.TRef sig ⟨S300, .f32⟩) (fun x v => Host.reduceAdd x v reducesTo_S10000x300_S300_d0 h_S_),
    StableHlo.TRef.unary (.of main_call23_v8 : StableHlo.TRef sig ⟨S_, .f32⟩) (.of main_call23_v10 : StableHlo.TRef sig ⟨S300, .f32⟩) (broadcastInDim S300 ![] bcast_S_S300),
    StableHlo.TRef.binary (.of main_call23_v9 : StableHlo.TRef sig ⟨S300, .f32⟩) (.of main_call23_v10 : StableHlo.TRef sig ⟨S300, .f32⟩) (.of main_call23_v11 : StableHlo.TRef sig ⟨S300, .f32⟩) Host.divf,
    StableHlo.TRef.nullary (.of main_call23_cst_3 : StableHlo.TRef sig ⟨S_, .f32⟩) (constant S_ .f32 0x00000000#32),
    StableHlo.TRef.binary (.of main_call23_v8 : StableHlo.TRef sig ⟨S_, .f32⟩) (.of main_call23_cst_3 : StableHlo.TRef sig ⟨S_, .f32⟩) (.of main_call23_v12 : StableHlo.TRef sig ⟨S_, .i1⟩) (cmpf .ogt),
    StableHlo.TRef.nullary (.of main_call23_cst_4 : StableHlo.TRef sig ⟨S_, .f32⟩) (constant S_ .f32 0x7FC00000#32),
    StableHlo.TRef.unary (.of main_call23_cst_4 : StableHlo.TRef sig ⟨S_, .f32⟩) (.of main_call23_call0_v0 : StableHlo.TRef sig ⟨S_, .f32⟩) id,
    StableHlo.TRef.unary (.of main_call23_call0_v0 : StableHlo.TRef sig ⟨S_, .f32⟩) (.of main_call23_call0_v1 : StableHlo.TRef sig ⟨S300, .f32⟩) (broadcastInDim S300 ![] bcast_S_S300),
    StableHlo.TRef.ternary (.of main_call23_v12 : StableHlo.TRef sig ⟨S_, .i1⟩) (.of main_call23_v11 : StableHlo.TRef sig ⟨S300, .f32⟩) (.of main_call23_call0_v1 : StableHlo.TRef sig ⟨S300, .f32⟩) (.of main_v449 : StableHlo.TRef sig ⟨S300, .f32⟩) (fun p a b => select (broadcastInDim S300 ![] bcast_S_S300 p) a b) ]
theorem main_part8_ops5_sub : (main_part8_ops5 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem main_part8_ops5_fresh : (main_part8_ops5 : List (HloOp τ sig (Elt F))).Forall fun op => op.fresh = ∅ := by
  simp only [List.Forall]; repeat' constructor
theorem main_part8_ops5_writes : StableHlo.HostSim.WritesFrom 755 (main_part8_ops5 : List (HloOp τ sig (Elt F))) := by
  repeat (first | exact .nil _ | refine .cons ⟨_, rfl, rfl, rfl⟩ ?_)
abbrev main_part8_ops6 : List (HloOp τ sig (Elt F)) :=
  [ StableHlo.unary main_v448 main_v450 (broadcastInDim S1x300 ![1] bcast_S300_S1x300_1 : (⟨S300, .f32⟩ : BufTy).Contents (Elt F) → (⟨S1x300, .f32⟩ : BufTy).Contents (Elt F)),
    StableHlo.unary main_v450 main_v451 (broadcastInDim S10000x300 ![0, 1] bcast_S1x300_S10000x300_0_1 : (⟨S1x300, .f32⟩ : BufTy).Contents (Elt F) → (⟨S10000x300, .f32⟩ : BufTy).Contents (Elt F)),
    StableHlo.binary main_v441 main_v451 main_v452 (subf : (⟨S10000x300, .f32⟩ : BufTy).Contents (Elt F) → (⟨S10000x300, .f32⟩ : BufTy).Contents (Elt F) → (⟨S10000x300, .f32⟩ : BufTy).Contents (Elt F)),
    StableHlo.nullary main_cst_69 (constant S_ .f32 0x3727C5AC#32),
    StableHlo.unary main_cst_69 main_v453 (broadcastInDim S300 ![] bcast_S_S300 : (⟨S_, .f32⟩ : BufTy).Contents (Elt F) → (⟨S300, .f32⟩ : BufTy).Contents (Elt F)),
    StableHlo.binary main_v449 main_v453 main_v454 (addf : (⟨S300, .f32⟩ : BufTy).Contents (Elt F) → (⟨S300, .f32⟩ : BufTy).Contents (Elt F) → (⟨S300, .f32⟩ : BufTy).Contents (Elt F)),
    StableHlo.unary main_v454 main_v455 (Host.sqrt : (⟨S300, .f32⟩ : BufTy).Contents (Elt F) → (⟨S300, .f32⟩ : BufTy).Contents (Elt F)),
    StableHlo.unary main_v455 main_v456 (broadcastInDim S1x300 ![1] bcast_S300_S1x300_1 : (⟨S300, .f32⟩ : BufTy).Contents (Elt F) → (⟨S1x300, .f32⟩ : BufTy).Contents (Elt F)),
    StableHlo.unary main_v456 main_v457 (broadcastInDim S10000x300 ![0, 1] bcast_S1x300_S10000x300_0_1 : (⟨S1x300, .f32⟩ : BufTy).Contents (Elt F) → (⟨S10000x300, .f32⟩ : BufTy).Contents (Elt F)),
    StableHlo.binary main_v452 main_v457 main_v458 (Host.divf : (⟨S10000x300, .f32⟩ : BufTy).Contents (Elt F) → (⟨S10000x300, .f32⟩ : BufTy).Contents (Elt F) → (⟨S10000x300, .f32⟩ : BufTy).Contents (Elt F)),
    StableHlo.unary main_v443 main_v459 (broadcastInDim S1x300 ![1] bcast_S300_S1x300_1 : (⟨S300, .f32⟩ : BufTy).Contents (Elt F) → (⟨S1x300, .f32⟩ : BufTy).Contents (Elt F)),
    StableHlo.unary main_v459 main_v460 (broadcastInDim S10000x300 ![0, 1] bcast_S1x300_S10000x300_0_1 : (⟨S1x300, .f32⟩ : BufTy).Contents (Elt F) → (⟨S10000x300, .f32⟩ : BufTy).Contents (Elt F)),
    StableHlo.binary main_v458 main_v460 main_v461 (mulf : (⟨S10000x300, .f32⟩ : BufTy).Contents (Elt F) → (⟨S10000x300, .f32⟩ : BufTy).Contents (Elt F) → (⟨S10000x300, .f32⟩ : BufTy).Contents (Elt F)),
    StableHlo.unary main_v445 main_v462 (broadcastInDim S1x300 ![1] bcast_S300_S1x300_1 : (⟨S300, .f32⟩ : BufTy).Contents (Elt F) → (⟨S1x300, .f32⟩ : BufTy).Contents (Elt F)),
    StableHlo.unary main_v462 main_v463 (broadcastInDim S10000x300 ![0, 1] bcast_S1x300_S10000x300_0_1 : (⟨S1x300, .f32⟩ : BufTy).Contents (Elt F) → (⟨S10000x300, .f32⟩ : BufTy).Contents (Elt F)),
    StableHlo.binary main_v461 main_v463 main_v464 (addf : (⟨S10000x300, .f32⟩ : BufTy).Contents (Elt F) → (⟨S10000x300, .f32⟩ : BufTy).Contents (Elt F) → (⟨S10000x300, .f32⟩ : BufTy).Contents (Elt F)) ]
theorem main_part8_ops6_sub : (main_part8_ops6 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem main_part8_ops6_fresh : (main_part8_ops6 : List (HloOp τ sig (Elt F))).Forall fun op => op.fresh = ∅ := by
  simp only [List.Forall]; repeat' constructor
theorem main_part8_ops6_writes : StableHlo.HostSim.WritesFrom 777 (main_part8_ops6 : List (HloOp τ sig (Elt F))) := by
  repeat (first | exact .nil _ | refine .cons ⟨_, rfl, rfl, rfl⟩ ?_)
abbrev main_part8_ops7 : List (HloOp τ sig (Elt F)) :=
  [ StableHlo.TRef.nullary (.of main_call24_cst : StableHlo.TRef sig ⟨S_, .f32⟩) (constant S_ .f32 0x00000000#32),
    StableHlo.TRef.unary (.of main_call24_cst : StableHlo.TRef sig ⟨S_, .f32⟩) (.of main_call24_v0 : StableHlo.TRef sig ⟨S10000x300, .f32⟩) (broadcastInDim S10000x300 ![] bcast_S_S10000x300),
    StableHlo.TRef.binary (.of main_v464 : StableHlo.TRef sig ⟨S10000x300, .f32⟩) (.of main_call24_v0 : StableHlo.TRef sig ⟨S10000x300, .f32⟩) (.of main_v465 : StableHlo.TRef sig ⟨S10000x300, .f32⟩) maximumf ]
theorem main_part8_ops7_sub : (main_part8_ops7 : List (HloOp τ sig (Elt F))).Forall fun op => op.bufs ⊆ StableHlo.tcRefs τ sig :=
  ⟨StableHlo.nullary_bufs_sub .., StableHlo.unary_bufs_sub .., StableHlo.binary_bufs_sub ..⟩
theorem main_part8_ops7_fresh : (main_part8_ops7 : List (HloOp τ sig (Elt F))).Forall fun op => op.fresh = ∅ := by
  simp only [List.Forall]; repeat' constructor
theorem main_part8_ops7_writes : StableHlo.HostSim.WritesFrom 793 (main_part8_ops7 : List (HloOp τ sig (Elt F))) := by
  repeat (first | exact .nil _ | refine .cons ⟨_, rfl, rfl, rfl⟩ ?_)
abbrev main_part8_ops8 : List (HloOp τ sig (Elt F)) :=
  [ StableHlo.nullary main_c_70 (constantI S_ 32 0#32),
    StableHlo.unary main_c_70 main_v466 (broadcastInDim S160000 ![] bcast_S_S160000 : (⟨S_, .i32⟩ : BufTy).Contents (Elt F) → (⟨S160000, .i32⟩ : BufTy).Contents (Elt F)) ]
theorem main_part8_ops8_sub : (main_part8_ops8 : List (HloOp τ sig (Elt F))).Forall fun op => op.bufs ⊆ StableHlo.tcRefs τ sig :=
  ⟨StableHlo.nullary_bufs_sub .., StableHlo.unary_bufs_sub ..⟩
theorem main_part8_ops8_fresh : (main_part8_ops8 : List (HloOp τ sig (Elt F))).Forall fun op => op.fresh = ∅ := by
  simp only [List.Forall]; repeat' constructor
theorem main_part8_ops8_writes : StableHlo.HostSim.WritesFrom 796 (main_part8_ops8 : List (HloOp τ sig (Elt F))) := by
  repeat (first | exact .nil _ | refine .cons ⟨_, rfl, rfl, rfl⟩ ?_)
abbrev main_part9_ops0 : List (HloOp τ sig (Elt F)) :=
  [ StableHlo.binary main_v1 main_v466 main_v467 (cmpi .slt : (⟨S160000, .i32⟩ : BufTy).Contents (Elt F) → (⟨S160000, .i32⟩ : BufTy).Contents (Elt F) → (⟨S160000, .i1⟩ : BufTy).Contents (Elt F)),
    StableHlo.nullary main_c_71 (constantI S_ 32 10000#32),
    StableHlo.unary main_c_71 main_v468 (broadcastInDim S160000 ![] bcast_S_S160000 : (⟨S_, .i32⟩ : BufTy).Contents (Elt F) → (⟨S160000, .i32⟩ : BufTy).Contents (Elt F)),
    StableHlo.binary main_v1 main_v468 main_v469 (addi : (⟨S160000, .i32⟩ : BufTy).Contents (Elt F) → (⟨S160000, .i32⟩ : BufTy).Contents (Elt F) → (⟨S160000, .i32⟩ : BufTy).Contents (Elt F)),
    StableHlo.ternary main_v467 main_v469 main_v1 main_v470 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v470 main_v471 (broadcastInDim S160000x1 ![0] bcast_S160000_S160000x1_0 : (⟨S160000, .i32⟩ : BufTy).Contents (Elt F) → (⟨S160000x1, .i32⟩ : BufTy).Contents (Elt F)),
    StableHlo.binary main_v465 main_v471 main_v472 ((fun x i => Host.gather gather_S10000x300_S160000x1_S160000x300_1_0_n_n_0_1_1300 x i) : (⟨S10000x300, .f32⟩ : BufTy).Contents (Elt F) → (⟨S160000x1, .i32⟩ : BufTy).Contents (Elt F) → (⟨S160000x300, .f32⟩ : BufTy).Contents (Elt F)),
    StableHlo.unary main_arg6 main_v473 ((extractStridedSlice S1x5x300 ![5, 0, 0] · slices_S7x5x300_S1x5x300_5_0_0) : (⟨S7x5x300, .f32⟩ : BufTy).Contents (Elt F) → (⟨S1x5x300, .f32⟩ : BufTy).Contents (Elt F)),
    StableHlo.reshape main_v473 main_v474 rfl shapeCasts_S1x5x300_S5x300,
    StableHlo.nullary main_c_72 (constantI S_ 32 0#32),
    StableHlo.unary main_c_72 main_v475 (broadcastInDim S160000 ![] bcast_S_S160000 : (⟨S_, .i32⟩ : BufTy).Contents (Elt F) → (⟨S160000, .i32⟩ : BufTy).Contents (Elt F)),
    StableHlo.binary main_arg2 main_v475 main_v476 (cmpi .slt : (⟨S160000, .i32⟩ : BufTy).Contents (Elt F) → (⟨S160000, .i32⟩ : BufTy).Contents (Elt F) → (⟨S160000, .i1⟩ : BufTy).Contents (Elt F)),
    StableHlo.nullary main_c_73 (constantI S_ 32 5#32),
    StableHlo.unary main_c_73 main_v477 (broadcastInDim S160000 ![] bcast_S_S160000 : (⟨S_, .i32⟩ : BufTy).Contents (Elt F) → (⟨S160000, .i32⟩ : BufTy).Contents (Elt F)),
    StableHlo.binary main_arg2 main_v477 main_v478 (addi : (⟨S160000, .i32⟩ : BufTy).Contents (Elt F) → (⟨S160000, .i32⟩ : BufTy).Contents (Elt F) → (⟨S160000, .i32⟩ : BufTy).Contents (Elt F)),
    StableHlo.ternary main_v476 main_v478 main_arg2 main_v479 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v479 main_v480 (broadcastInDim S160000x1 ![0] bcast_S160000_S160000x1_0 : (⟨S160000, .i32⟩ : BufTy).Contents (Elt F) → (⟨S160000x1, .i32⟩ : BufTy).Contents (Elt F)),
    StableHlo.binary main_v474 main_v480 main_v481 ((fun x i => Host.gather gather_S5x300_S160000x1_S160000x300_1_0_n_n_0_1_1300 x i) : (⟨S5x300, .f32⟩ : BufTy).Contents (Elt F) → (⟨S160000x1, .i32⟩ : BufTy).Contents (Elt F) → (⟨S160000x300, .f32⟩ : BufTy).Contents (Elt F)),
    StableHlo.binary main_v472 main_v481 main_v482 (addf : (⟨S160000x300, .f32⟩ : BufTy).Contents (Elt F) → (⟨S160000x300, .f32⟩ : BufTy).Contents (Elt F) → (⟨S160000x300, .f32⟩ : BufTy).Contents (Elt F)) ]
theorem main_part9_ops0_sub : (main_part9_ops0 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩
theorem main_part9_ops0_fresh : (main_part9_ops0 : List (HloOp τ sig (Elt F))).Forall fun op => op.fresh = ∅ := by
  simp only [List.Forall]; repeat' constructor
theorem main_part9_ops0_writes : StableHlo.HostSim.WritesFrom 798 (main_part9_ops0 : List (HloOp τ sig (Elt F))) := by
  repeat (first | exact .nil _ | refine .cons ⟨_, rfl, rfl, rfl⟩ ?_)
abbrev main_part9_ops1 : List (HloOp τ sig (Elt F)) :=
  [ StableHlo.TRef.nullary (.of main_call25_cst : StableHlo.TRef sig ⟨S_, .f32⟩) (constant S_ .f32 0x00000000#32),
    StableHlo.TRef.unary (.of main_call25_cst : StableHlo.TRef sig ⟨S_, .f32⟩) (.of main_call25_v0 : StableHlo.TRef sig ⟨S160000x300, .f32⟩) (broadcastInDim S160000x300 ![] bcast_S_S160000x300),
    StableHlo.TRef.binary (.of main_v482 : StableHlo.TRef sig ⟨S160000x300, .f32⟩) (.of main_call25_v0 : StableHlo.TRef sig ⟨S160000x300, .f32⟩) (.of main_v483 : StableHlo.TRef sig ⟨S160000x300, .f32⟩) maximumf ]
theorem main_part9_ops1_sub : (main_part9_ops1 : List (HloOp τ sig (Elt F))).Forall fun op => op.bufs ⊆ StableHlo.tcRefs τ sig :=
  ⟨StableHlo.nullary_bufs_sub .., StableHlo.unary_bufs_sub .., StableHlo.binary_bufs_sub ..⟩
theorem main_part9_ops1_fresh : (main_part9_ops1 : List (HloOp τ sig (Elt F))).Forall fun op => op.fresh = ∅ := by
  simp only [List.Forall]; repeat' constructor
theorem main_part9_ops1_writes : StableHlo.HostSim.WritesFrom 817 (main_part9_ops1 : List (HloOp τ sig (Elt F))) := by
  repeat (first | exact .nil _ | refine .cons ⟨_, rfl, rfl, rfl⟩ ?_)
abbrev main_part9_ops2 : List (HloOp τ sig (Elt F)) :=
  [ StableHlo.nullary main_cst_74 (constant S_ .f32 0x00000000#32),
    StableHlo.unary main_cst_74 main_v484 (broadcastInDim S10000x300 ![] bcast_S_S10000x300 : (⟨S_, .f32⟩ : BufTy).Contents (Elt F) → (⟨S10000x300, .f32⟩ : BufTy).Contents (Elt F)),
    StableHlo.unary main_v3 main_v485 (broadcastInDim S160000x1 ![0] bcast_S160000_S160000x1_0 : (⟨S160000, .i32⟩ : BufTy).Contents (Elt F) → (⟨S160000x1, .i32⟩ : BufTy).Contents (Elt F)),
    StableHlo.ternary main_v484 main_v485 main_v483 main_v486 ((fun x i u => Host.scatterAdd scatter_S10000x300_S160000x1_S160000x300_1_0_0_1 x i u) : (⟨S10000x300, .f32⟩ : BufTy).Contents (Elt F) → (⟨S160000x1, .i32⟩ : BufTy).Contents (Elt F) → (⟨S160000x300, .f32⟩ : BufTy).Contents (Elt F) → (⟨S10000x300, .f32⟩ : BufTy).Contents (Elt F)),
    StableHlo.unary main_arg13 main_v487 ((extractStridedSlice S1 ![5] · slices_S7_S1_5) : (⟨S7, .f32⟩ : BufTy).Contents (Elt F) → (⟨S1, .f32⟩ : BufTy).Contents (Elt F)),
    StableHlo.reshape main_v487 main_v488 rfl shapeCasts_S1_S_,
    StableHlo.nullary main_cst_75 (constant S_ .f32 0x3F800000#32),
    StableHlo.binary main_cst_75 main_v488 main_v489 (addf : (⟨S_, .f32⟩ : BufTy).Contents (Elt F) → (⟨S_, .f32⟩ : BufTy).Contents (Elt F) → (⟨S_, .f32⟩ : BufTy).Contents (Elt F)),
    StableHlo.unary main_v489 main_v490 (broadcastInDim S10000x300 ![] bcast_S_S10000x300 : (⟨S_, .f32⟩ : BufTy).Contents (Elt F) → (⟨S10000x300, .f32⟩ : BufTy).Contents (Elt F)),
    StableHlo.binary main_v490 main_v465 main_v491 (mulf : (⟨S10000x300, .f32⟩ : BufTy).Contents (Elt F) → (⟨S10000x300, .f32⟩ : BufTy).Contents (Elt F) → (⟨S10000x300, .f32⟩ : BufTy).Contents (Elt F)),
    StableHlo.binary main_v491 main_v486 main_v492 (addf : (⟨S10000x300, .f32⟩ : BufTy).Contents (Elt F) → (⟨S10000x300, .f32⟩ : BufTy).Contents (Elt F) → (⟨S10000x300, .f32⟩ : BufTy).Contents (Elt F)),
    StableHlo.unary main_arg7 main_v493 ((extractStridedSlice S1x300x600 ![5, 0, 0] · slices_S7x300x600_S1x300x600_5_0_0) : (⟨S7x300x600, .f32⟩ : BufTy).Contents (Elt F) → (⟨S1x300x600, .f32⟩ : BufTy).Contents (Elt F)),
    StableHlo.reshape main_v493 main_v494 rfl shapeCasts_S1x300x600_S300x600,
    StableHlo.binary main_v492 main_v494 main_v495 ((fun l r => Host.dotGeneral dot_S10000x300_S300x600_S10000x600_1_0_0_1_n_n none l r) : (⟨S10000x300, .f32⟩ : BufTy).Contents (Elt F) → (⟨S300x600, .f32⟩ : BufTy).Contents (Elt F) → (⟨S10000x600, .f32⟩ : BufTy).Contents (Elt F)),
    StableHlo.unary main_arg8 main_v496 ((extractStridedSlice S1x600 ![5, 0] · slices_S7x600_S1x600_5_0) : (⟨S7x600, .f32⟩ : BufTy).Contents (Elt F) → (⟨S1x600, .f32⟩ : BufTy).Contents (Elt F)),
    StableHlo.reshape main_v496 main_v497 rfl shapeCasts_S1x600_S600,
    StableHlo.unary main_v497 main_v498 (broadcastInDim S1x600 ![1] bcast_S600_S1x600_1 : (⟨S600, .f32⟩ : BufTy).Contents (Elt F) → (⟨S1x600, .f32⟩ : BufTy).Contents (Elt F)),
    StableHlo.unary main_v498 main_v499 (broadcastInDim S10000x600 ![0, 1] bcast_S1x600_S10000x600_0_1 : (⟨S1x600, .f32⟩ : BufTy).Contents (Elt F) → (⟨S10000x600, .f32⟩ : BufTy).Contents (Elt F)),
    StableHlo.binary main_v495 main_v499 main_v500 (addf : (⟨S10000x600, .f32⟩ : BufTy).Contents (Elt F) → (⟨S10000x600, .f32⟩ : BufTy).Contents (Elt F) → (⟨S10000x600, .f32⟩ : BufTy).Contents (Elt F)),
    StableHlo.unary main_arg9 main_v501 ((extractStridedSlice S1x600 ![5, 0] · slices_S7x600_S1x600_5_0) : (⟨S7x600, .f32⟩ : BufTy).Contents (Elt F) → (⟨S1x600, .f32⟩ : BufTy).Contents (Elt F)),
    StableHlo.reshape main_v501 main_v502 rfl shapeCasts_S1x600_S600,
    StableHlo.unary main_arg10 main_v503 ((extractStridedSlice S1x600 ![5, 0] · slices_S7x600_S1x600_5_0) : (⟨S7x600, .f32⟩ : BufTy).Contents (Elt F) → (⟨S1x600, .f32⟩ : BufTy).Contents (Elt F)),
    StableHlo.reshape main_v503 main_v504 rfl shapeCasts_S1x600_S600,
    StableHlo.nullary main_cst_76 (constant S_ .f32 0x00000000#32),
    StableHlo.binary main_v500 main_cst_76 main_v505 ((fun x v => Host.reduceAdd x v reducesTo_S10000x600_S600_d0 h_S_) : (⟨S10000x600, .f32⟩ : BufTy).Contents (Elt F) → (⟨S_, .f32⟩ : BufTy).Contents (Elt F) → (⟨S600, .f32⟩ : BufTy).Contents (Elt F)),
    StableHlo.nullary main_cst_77 (constant S_ .f32 0x461C4000#32),
    StableHlo.unary main_cst_77 main_v506 (broadcastInDim S600 ![] bcast_S_S600 : (⟨S_, .f32⟩ : BufTy).Contents (Elt F) → (⟨S600, .f32⟩ : BufTy).Contents (Elt F)),
    StableHlo.binary main_v505 main_v506 main_v507 (Host.divf : (⟨S600, .f32⟩ : BufTy).Contents (Elt F) → (⟨S600, .f32⟩ : BufTy).Contents (Elt F) → (⟨S600, .f32⟩ : BufTy).Contents (Elt F)),
    StableHlo.nullary main_c_78 (constantI S_ 32 0#32) ]
theorem main_part9_ops2_sub : (main_part9_ops2 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub ..⟩
theorem main_part9_ops2_fresh : (main_part9_ops2 : List (HloOp τ sig (Elt F))).Forall fun op => op.fresh = ∅ := by
  simp only [List.Forall]; repeat' constructor
theorem main_part9_ops2_writes : StableHlo.HostSim.WritesFrom 820 (main_part9_ops2 : List (HloOp τ sig (Elt F))) := by
  repeat (first | exact .nil _ | refine .cons ⟨_, rfl, rfl, rfl⟩ ?_)
abbrev main_part9_ops3 : List (HloOp τ sig (Elt F)) :=
  [ StableHlo.TRef.nullary (.of main_call26_cst : StableHlo.TRef sig ⟨S_, .f32⟩) (constant S_ .f32 0x00000000#32),
    StableHlo.TRef.binary (.of main_v500 : StableHlo.TRef sig ⟨S10000x600, .f32⟩) (.of main_call26_cst : StableHlo.TRef sig ⟨S_, .f32⟩) (.of main_call26_v0 : StableHlo.TRef sig ⟨S600, .f32⟩) (fun x v => Host.reduceAdd x v reducesTo_S10000x600_S600_d0 h_S_),
    StableHlo.TRef.unary (.of main_call26_v0 : StableHlo.TRef sig ⟨S600, .f32⟩) (.of main_call26_v1 : StableHlo.TRef sig ⟨S1x600, .f32⟩) (broadcastInDim S1x600 ![1] bcast_S600_S1x600_1),
    StableHlo.TRef.nullary (.of main_call26_cst_0 : StableHlo.TRef sig ⟨S_, .f32⟩) (constant S_ .f32 0x461C4000#32),
    StableHlo.TRef.unary (.of main_call26_cst_0 : StableHlo.TRef sig ⟨S_, .f32⟩) (.of main_call26_v2 : StableHlo.TRef sig ⟨S1x600, .f32⟩) (broadcastInDim S1x600 ![] bcast_S_S1x600),
    StableHlo.TRef.binary (.of main_call26_v1 : StableHlo.TRef sig ⟨S1x600, .f32⟩) (.of main_call26_v2 : StableHlo.TRef sig ⟨S1x600, .f32⟩) (.of main_call26_v3 : StableHlo.TRef sig ⟨S1x600, .f32⟩) Host.divf,
    StableHlo.TRef.unary (.of main_call26_v3 : StableHlo.TRef sig ⟨S1x600, .f32⟩) (.of main_call26_v4 : StableHlo.TRef sig ⟨S10000x600, .f32⟩) (broadcastInDim S10000x600 ![0, 1] bcast_S1x600_S10000x600_0_1),
    StableHlo.TRef.binary (.of main_v500 : StableHlo.TRef sig ⟨S10000x600, .f32⟩) (.of main_call26_v4 : StableHlo.TRef sig ⟨S10000x600, .f32⟩) (.of main_call26_v5 : StableHlo.TRef sig ⟨S10000x600, .f32⟩) subf,
    StableHlo.TRef.binary (.of main_call26_v5 : StableHlo.TRef sig ⟨S10000x600, .f32⟩) (.of main_call26_v5 : StableHlo.TRef sig ⟨S10000x600, .f32⟩) (.of main_call26_v6 : StableHlo.TRef sig ⟨S10000x600, .f32⟩) mulf,
    StableHlo.TRef.unary (.of main_c_78 : StableHlo.TRef sig ⟨S_, .i32⟩) (.of main_call26_v7 : StableHlo.TRef sig ⟨S_, .f32⟩) (sitofp .f32),
    StableHlo.TRef.nullary (.of main_call26_cst_1 : StableHlo.TRef sig ⟨S_, .f32⟩) (constant S_ .f32 0x461C4000#32),
    StableHlo.TRef.binary (.of main_call26_cst_1 : StableHlo.TRef sig ⟨S_, .f32⟩) (.of main_call26_v7 : StableHlo.TRef sig ⟨S_, .f32⟩) (.of main_call26_v8 : StableHlo.TRef sig ⟨S_, .f32⟩) subf,
    StableHlo.TRef.nullary (.of main_call26_cst_2 : StableHlo.TRef sig ⟨S_, .f32⟩) (constant S_ .f32 0x00000000#32),
    StableHlo.TRef.binary (.of main_call26_v6 : StableHlo.TRef sig ⟨S10000x600, .f32⟩) (.of main_call26_cst_2 : StableHlo.TRef sig ⟨S_, .f32⟩) (.of main_call26_v9 : StableHlo.TRef sig ⟨S600, .f32⟩) (fun x v => Host.reduceAdd x v reducesTo_S10000x600_S600_d0 h_S_),
    StableHlo.TRef.unary (.of main_call26_v8 : StableHlo.TRef sig ⟨S_, .f32⟩) (.of main_call26_v10 : StableHlo.TRef sig ⟨S600, .f32⟩) (broadcastInDim S600 ![] bcast_S_S600),
    StableHlo.TRef.binary (.of main_call26_v9 : StableHlo.TRef sig ⟨S600, .f32⟩) (.of main_call26_v10 : StableHlo.TRef sig ⟨S600, .f32⟩) (.of main_call26_v11 : StableHlo.TRef sig ⟨S600, .f32⟩) Host.divf,
    StableHlo.TRef.nullary (.of main_call26_cst_3 : StableHlo.TRef sig ⟨S_, .f32⟩) (constant S_ .f32 0x00000000#32),
    StableHlo.TRef.binary (.of main_call26_v8 : StableHlo.TRef sig ⟨S_, .f32⟩) (.of main_call26_cst_3 : StableHlo.TRef sig ⟨S_, .f32⟩) (.of main_call26_v12 : StableHlo.TRef sig ⟨S_, .i1⟩) (cmpf .ogt),
    StableHlo.TRef.nullary (.of main_call26_cst_4 : StableHlo.TRef sig ⟨S_, .f32⟩) (constant S_ .f32 0x7FC00000#32),
    StableHlo.TRef.unary (.of main_call26_cst_4 : StableHlo.TRef sig ⟨S_, .f32⟩) (.of main_call26_call0_v0 : StableHlo.TRef sig ⟨S_, .f32⟩) id,
    StableHlo.TRef.unary (.of main_call26_call0_v0 : StableHlo.TRef sig ⟨S_, .f32⟩) (.of main_call26_call0_v1 : StableHlo.TRef sig ⟨S600, .f32⟩) (broadcastInDim S600 ![] bcast_S_S600),
    StableHlo.TRef.ternary (.of main_call26_v12 : StableHlo.TRef sig ⟨S_, .i1⟩) (.of main_call26_v11 : StableHlo.TRef sig ⟨S600, .f32⟩) (.of main_call26_call0_v1 : StableHlo.TRef sig ⟨S600, .f32⟩) (.of main_v508 : StableHlo.TRef sig ⟨S600, .f32⟩) (fun p a b => select (broadcastInDim S600 ![] bcast_S_S600 p) a b) ]
theorem main_part9_ops3_sub : (main_part9_ops3 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem main_part9_ops3_fresh : (main_part9_ops3 : List (HloOp τ sig (Elt F))).Forall fun op => op.fresh = ∅ := by
  simp only [List.Forall]; repeat' constructor
theorem main_part9_ops3_writes : StableHlo.HostSim.WritesFrom 849 (main_part9_ops3 : List (HloOp τ sig (Elt F))) := by
  repeat (first | exact .nil _ | refine .cons ⟨_, rfl, rfl, rfl⟩ ?_)
abbrev main_part9_ops4 : List (HloOp τ sig (Elt F)) :=
  [ StableHlo.unary main_v507 main_v509 (broadcastInDim S1x600 ![1] bcast_S600_S1x600_1 : (⟨S600, .f32⟩ : BufTy).Contents (Elt F) → (⟨S1x600, .f32⟩ : BufTy).Contents (Elt F)),
    StableHlo.unary main_v509 main_v510 (broadcastInDim S10000x600 ![0, 1] bcast_S1x600_S10000x600_0_1 : (⟨S1x600, .f32⟩ : BufTy).Contents (Elt F) → (⟨S10000x600, .f32⟩ : BufTy).Contents (Elt F)),
    StableHlo.binary main_v500 main_v510 main_v511 (subf : (⟨S10000x600, .f32⟩ : BufTy).Contents (Elt F) → (⟨S10000x600, .f32⟩ : BufTy).Contents (Elt F) → (⟨S10000x600, .f32⟩ : BufTy).Contents (Elt F)),
    StableHlo.nullary main_cst_79 (constant S_ .f32 0x3727C5AC#32),
    StableHlo.unary main_cst_79 main_v512 (broadcastInDim S600 ![] bcast_S_S600 : (⟨S_, .f32⟩ : BufTy).Contents (Elt F) → (⟨S600, .f32⟩ : BufTy).Contents (Elt F)),
    StableHlo.binary main_v508 main_v512 main_v513 (addf : (⟨S600, .f32⟩ : BufTy).Contents (Elt F) → (⟨S600, .f32⟩ : BufTy).Contents (Elt F) → (⟨S600, .f32⟩ : BufTy).Contents (Elt F)),
    StableHlo.unary main_v513 main_v514 (Host.sqrt : (⟨S600, .f32⟩ : BufTy).Contents (Elt F) → (⟨S600, .f32⟩ : BufTy).Contents (Elt F)),
    StableHlo.unary main_v514 main_v515 (broadcastInDim S1x600 ![1] bcast_S600_S1x600_1 : (⟨S600, .f32⟩ : BufTy).Contents (Elt F) → (⟨S1x600, .f32⟩ : BufTy).Contents (Elt F)),
    StableHlo.unary main_v515 main_v516 (broadcastInDim S10000x600 ![0, 1] bcast_S1x600_S10000x600_0_1 : (⟨S1x600, .f32⟩ : BufTy).Contents (Elt F) → (⟨S10000x600, .f32⟩ : BufTy).Contents (Elt F)),
    StableHlo.binary main_v511 main_v516 main_v517 (Host.divf : (⟨S10000x600, .f32⟩ : BufTy).Contents (Elt F) → (⟨S10000x600, .f32⟩ : BufTy).Contents (Elt F) → (⟨S10000x600, .f32⟩ : BufTy).Contents (Elt F)) ]
theorem main_part9_ops4_sub : (main_part9_ops4 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub ..⟩
theorem main_part9_ops4_fresh : (main_part9_ops4 : List (HloOp τ sig (Elt F))).Forall fun op => op.fresh = ∅ := by
  simp only [List.Forall]; repeat' constructor
theorem main_part9_ops4_writes : StableHlo.HostSim.WritesFrom 871 (main_part9_ops4 : List (HloOp τ sig (Elt F))) := by
  repeat (first | exact .nil _ | refine .cons ⟨_, rfl, rfl, rfl⟩ ?_)
abbrev main_part10_ops0 : List (HloOp τ sig (Elt F)) :=
  [ StableHlo.unary main_v502 main_v518 (broadcastInDim S1x600 ![1] bcast_S600_S1x600_1 : (⟨S600, .f32⟩ : BufTy).Contents (Elt F) → (⟨S1x600, .f32⟩ : BufTy).Contents (Elt F)),
    StableHlo.unary main_v518 main_v519 (broadcastInDim S10000x600 ![0, 1] bcast_S1x600_S10000x600_0_1 : (⟨S1x600, .f32⟩ : BufTy).Contents (Elt F) → (⟨S10000x600, .f32⟩ : BufTy).Contents (Elt F)),
    StableHlo.binary main_v517 main_v519 main_v520 (mulf : (⟨S10000x600, .f32⟩ : BufTy).Contents (Elt F) → (⟨S10000x600, .f32⟩ : BufTy).Contents (Elt F) → (⟨S10000x600, .f32⟩ : BufTy).Contents (Elt F)),
    StableHlo.unary main_v504 main_v521 (broadcastInDim S1x600 ![1] bcast_S600_S1x600_1 : (⟨S600, .f32⟩ : BufTy).Contents (Elt F) → (⟨S1x600, .f32⟩ : BufTy).Contents (Elt F)),
    StableHlo.unary main_v521 main_v522 (broadcastInDim S10000x600 ![0, 1] bcast_S1x600_S10000x600_0_1 : (⟨S1x600, .f32⟩ : BufTy).Contents (Elt F) → (⟨S10000x600, .f32⟩ : BufTy).Contents (Elt F)),
    StableHlo.binary main_v520 main_v522 main_v523 (addf : (⟨S10000x600, .f32⟩ : BufTy).Contents (Elt F) → (⟨S10000x600, .f32⟩ : BufTy).Contents (Elt F) → (⟨S10000x600, .f32⟩ : BufTy).Contents (Elt F)) ]
theorem main_part10_ops0_sub : (main_part10_ops0 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part10_ops0_fresh : (main_part10_ops0 : List (HloOp τ sig (Elt F))).Forall fun op => op.fresh = ∅ := by
  simp only [List.Forall]; repeat' constructor
theorem main_part10_ops0_writes : StableHlo.HostSim.WritesFrom 881 (main_part10_ops0 : List (HloOp τ sig (Elt F))) := by
  repeat (first | exact .nil _ | refine .cons ⟨_, rfl, rfl, rfl⟩ ?_)
abbrev main_part10_ops1 : List (HloOp τ sig (Elt F)) :=
  [ StableHlo.TRef.nullary (.of main_call27_cst : StableHlo.TRef sig ⟨S_, .f32⟩) (constant S_ .f32 0x00000000#32),
    StableHlo.TRef.unary (.of main_call27_cst : StableHlo.TRef sig ⟨S_, .f32⟩) (.of main_call27_v0 : StableHlo.TRef sig ⟨S10000x600, .f32⟩) (broadcastInDim S10000x600 ![] bcast_S_S10000x600),
    StableHlo.TRef.binary (.of main_v523 : StableHlo.TRef sig ⟨S10000x600, .f32⟩) (.of main_call27_v0 : StableHlo.TRef sig ⟨S10000x600, .f32⟩) (.of main_v524 : StableHlo.TRef sig ⟨S10000x600, .f32⟩) maximumf ]
theorem main_part10_ops1_sub : (main_part10_ops1 : List (HloOp τ sig (Elt F))).Forall fun op => op.bufs ⊆ StableHlo.tcRefs τ sig :=
  ⟨StableHlo.nullary_bufs_sub .., StableHlo.unary_bufs_sub .., StableHlo.binary_bufs_sub ..⟩
theorem main_part10_ops1_fresh : (main_part10_ops1 : List (HloOp τ sig (Elt F))).Forall fun op => op.fresh = ∅ := by
  simp only [List.Forall]; repeat' constructor
theorem main_part10_ops1_writes : StableHlo.HostSim.WritesFrom 887 (main_part10_ops1 : List (HloOp τ sig (Elt F))) := by
  repeat (first | exact .nil _ | refine .cons ⟨_, rfl, rfl, rfl⟩ ?_)
abbrev main_part10_ops2 : List (HloOp τ sig (Elt F)) :=
  [ StableHlo.unary main_arg11 main_v525 ((extractStridedSlice S1x600x300 ![5, 0, 0] · slices_S7x600x300_S1x600x300_5_0_0) : (⟨S7x600x300, .f32⟩ : BufTy).Contents (Elt F) → (⟨S1x600x300, .f32⟩ : BufTy).Contents (Elt F)),
    StableHlo.reshape main_v525 main_v526 rfl shapeCasts_S1x600x300_S600x300,
    StableHlo.binary main_v524 main_v526 main_v527 ((fun l r => Host.dotGeneral dot_S10000x600_S600x300_S10000x300_1_0_0_1_n_n none l r) : (⟨S10000x600, .f32⟩ : BufTy).Contents (Elt F) → (⟨S600x300, .f32⟩ : BufTy).Contents (Elt F) → (⟨S10000x300, .f32⟩ : BufTy).Contents (Elt F)),
    StableHlo.unary main_arg12 main_v528 ((extractStridedSlice S1x300 ![5, 0] · slices_S7x300_S1x300_5_0) : (⟨S7x300, .f32⟩ : BufTy).Contents (Elt F) → (⟨S1x300, .f32⟩ : BufTy).Contents (Elt F)),
    StableHlo.reshape main_v528 main_v529 rfl shapeCasts_S1x300_S300,
    StableHlo.unary main_v529 main_v530 (broadcastInDim S1x300 ![1] bcast_S300_S1x300_1 : (⟨S300, .f32⟩ : BufTy).Contents (Elt F) → (⟨S1x300, .f32⟩ : BufTy).Contents (Elt F)),
    StableHlo.unary main_v530 main_v531 (broadcastInDim S10000x300 ![0, 1] bcast_S1x300_S10000x300_0_1 : (⟨S1x300, .f32⟩ : BufTy).Contents (Elt F) → (⟨S10000x300, .f32⟩ : BufTy).Contents (Elt F)),
    StableHlo.binary main_v527 main_v531 main_v532 (addf : (⟨S10000x300, .f32⟩ : BufTy).Contents (Elt F) → (⟨S10000x300, .f32⟩ : BufTy).Contents (Elt F) → (⟨S10000x300, .f32⟩ : BufTy).Contents (Elt F)),
    StableHlo.unary main_arg14 main_v533 ((extractStridedSlice S1x300 ![5, 0] · slices_S7x300_S1x300_5_0) : (⟨S7x300, .f32⟩ : BufTy).Contents (Elt F) → (⟨S1x300, .f32⟩ : BufTy).Contents (Elt F)),
    StableHlo.reshape main_v533 main_v534 rfl shapeCasts_S1x300_S300,
    StableHlo.unary main_arg15 main_v535 ((extractStridedSlice S1x300 ![5, 0] · slices_S7x300_S1x300_5_0) : (⟨S7x300, .f32⟩ : BufTy).Contents (Elt F) → (⟨S1x300, .f32⟩ : BufTy).Contents (Elt F)),
    StableHlo.reshape main_v535 main_v536 rfl shapeCasts_S1x300_S300,
    StableHlo.nullary main_cst_80 (constant S_ .f32 0x00000000#32),
    StableHlo.binary main_v532 main_cst_80 main_v537 ((fun x v => Host.reduceAdd x v reducesTo_S10000x300_S300_d0 h_S_) : (⟨S10000x300, .f32⟩ : BufTy).Contents (Elt F) → (⟨S_, .f32⟩ : BufTy).Contents (Elt F) → (⟨S300, .f32⟩ : BufTy).Contents (Elt F)),
    StableHlo.nullary main_cst_81 (constant S_ .f32 0x461C4000#32),
    StableHlo.unary main_cst_81 main_v538 (broadcastInDim S300 ![] bcast_S_S300 : (⟨S_, .f32⟩ : BufTy).Contents (Elt F) → (⟨S300, .f32⟩ : BufTy).Contents (Elt F)),
    StableHlo.binary main_v537 main_v538 main_v539 (Host.divf : (⟨S300, .f32⟩ : BufTy).Contents (Elt F) → (⟨S300, .f32⟩ : BufTy).Contents (Elt F) → (⟨S300, .f32⟩ : BufTy).Contents (Elt F)),
    StableHlo.nullary main_c_82 (constantI S_ 32 0#32) ]
theorem main_part10_ops2_sub : (main_part10_ops2 : List (HloOp τ sig (Elt F))).Forall fun op => op.bufs ⊆ StableHlo.tcRefs τ sig :=
  ⟨StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub ..⟩
theorem main_part10_ops2_fresh : (main_part10_ops2 : List (HloOp τ sig (Elt F))).Forall fun op => op.fresh = ∅ := by
  simp only [List.Forall]; repeat' constructor
theorem main_part10_ops2_writes : StableHlo.HostSim.WritesFrom 890 (main_part10_ops2 : List (HloOp τ sig (Elt F))) := by
  repeat (first | exact .nil _ | refine .cons ⟨_, rfl, rfl, rfl⟩ ?_)
abbrev main_part10_ops3 : List (HloOp τ sig (Elt F)) :=
  [ StableHlo.TRef.nullary (.of main_call28_cst : StableHlo.TRef sig ⟨S_, .f32⟩) (constant S_ .f32 0x00000000#32),
    StableHlo.TRef.binary (.of main_v532 : StableHlo.TRef sig ⟨S10000x300, .f32⟩) (.of main_call28_cst : StableHlo.TRef sig ⟨S_, .f32⟩) (.of main_call28_v0 : StableHlo.TRef sig ⟨S300, .f32⟩) (fun x v => Host.reduceAdd x v reducesTo_S10000x300_S300_d0 h_S_),
    StableHlo.TRef.unary (.of main_call28_v0 : StableHlo.TRef sig ⟨S300, .f32⟩) (.of main_call28_v1 : StableHlo.TRef sig ⟨S1x300, .f32⟩) (broadcastInDim S1x300 ![1] bcast_S300_S1x300_1),
    StableHlo.TRef.nullary (.of main_call28_cst_0 : StableHlo.TRef sig ⟨S_, .f32⟩) (constant S_ .f32 0x461C4000#32),
    StableHlo.TRef.unary (.of main_call28_cst_0 : StableHlo.TRef sig ⟨S_, .f32⟩) (.of main_call28_v2 : StableHlo.TRef sig ⟨S1x300, .f32⟩) (broadcastInDim S1x300 ![] bcast_S_S1x300),
    StableHlo.TRef.binary (.of main_call28_v1 : StableHlo.TRef sig ⟨S1x300, .f32⟩) (.of main_call28_v2 : StableHlo.TRef sig ⟨S1x300, .f32⟩) (.of main_call28_v3 : StableHlo.TRef sig ⟨S1x300, .f32⟩) Host.divf,
    StableHlo.TRef.unary (.of main_call28_v3 : StableHlo.TRef sig ⟨S1x300, .f32⟩) (.of main_call28_v4 : StableHlo.TRef sig ⟨S10000x300, .f32⟩) (broadcastInDim S10000x300 ![0, 1] bcast_S1x300_S10000x300_0_1),
    StableHlo.TRef.binary (.of main_v532 : StableHlo.TRef sig ⟨S10000x300, .f32⟩) (.of main_call28_v4 : StableHlo.TRef sig ⟨S10000x300, .f32⟩) (.of main_call28_v5 : StableHlo.TRef sig ⟨S10000x300, .f32⟩) subf,
    StableHlo.TRef.binary (.of main_call28_v5 : StableHlo.TRef sig ⟨S10000x300, .f32⟩) (.of main_call28_v5 : StableHlo.TRef sig ⟨S10000x300, .f32⟩) (.of main_call28_v6 : StableHlo.TRef sig ⟨S10000x300, .f32⟩) mulf,
    StableHlo.TRef.unary (.of main_c_82 : StableHlo.TRef sig ⟨S_, .i32⟩) (.of main_call28_v7 : StableHlo.TRef sig ⟨S_, .f32⟩) (sitofp .f32),
    StableHlo.TRef.nullary (.of main_call28_cst_1 : StableHlo.TRef sig ⟨S_, .f32⟩) (constant S_ .f32 0x461C4000#32),
    StableHlo.TRef.binary (.of main_call28_cst_1 : StableHlo.TRef sig ⟨S_, .f32⟩) (.of main_call28_v7 : StableHlo.TRef sig ⟨S_, .f32⟩) (.of main_call28_v8 : StableHlo.TRef sig ⟨S_, .f32⟩) subf,
    StableHlo.TRef.nullary (.of main_call28_cst_2 : StableHlo.TRef sig ⟨S_, .f32⟩) (constant S_ .f32 0x00000000#32),
    StableHlo.TRef.binary (.of main_call28_v6 : StableHlo.TRef sig ⟨S10000x300, .f32⟩) (.of main_call28_cst_2 : StableHlo.TRef sig ⟨S_, .f32⟩) (.of main_call28_v9 : StableHlo.TRef sig ⟨S300, .f32⟩) (fun x v => Host.reduceAdd x v reducesTo_S10000x300_S300_d0 h_S_),
    StableHlo.TRef.unary (.of main_call28_v8 : StableHlo.TRef sig ⟨S_, .f32⟩) (.of main_call28_v10 : StableHlo.TRef sig ⟨S300, .f32⟩) (broadcastInDim S300 ![] bcast_S_S300),
    StableHlo.TRef.binary (.of main_call28_v9 : StableHlo.TRef sig ⟨S300, .f32⟩) (.of main_call28_v10 : StableHlo.TRef sig ⟨S300, .f32⟩) (.of main_call28_v11 : StableHlo.TRef sig ⟨S300, .f32⟩) Host.divf,
    StableHlo.TRef.nullary (.of main_call28_cst_3 : StableHlo.TRef sig ⟨S_, .f32⟩) (constant S_ .f32 0x00000000#32),
    StableHlo.TRef.binary (.of main_call28_v8 : StableHlo.TRef sig ⟨S_, .f32⟩) (.of main_call28_cst_3 : StableHlo.TRef sig ⟨S_, .f32⟩) (.of main_call28_v12 : StableHlo.TRef sig ⟨S_, .i1⟩) (cmpf .ogt),
    StableHlo.TRef.nullary (.of main_call28_cst_4 : StableHlo.TRef sig ⟨S_, .f32⟩) (constant S_ .f32 0x7FC00000#32),
    StableHlo.TRef.unary (.of main_call28_cst_4 : StableHlo.TRef sig ⟨S_, .f32⟩) (.of main_call28_call0_v0 : StableHlo.TRef sig ⟨S_, .f32⟩) id,
    StableHlo.TRef.unary (.of main_call28_call0_v0 : StableHlo.TRef sig ⟨S_, .f32⟩) (.of main_call28_call0_v1 : StableHlo.TRef sig ⟨S300, .f32⟩) (broadcastInDim S300 ![] bcast_S_S300),
    StableHlo.TRef.ternary (.of main_call28_v12 : StableHlo.TRef sig ⟨S_, .i1⟩) (.of main_call28_v11 : StableHlo.TRef sig ⟨S300, .f32⟩) (.of main_call28_call0_v1 : StableHlo.TRef sig ⟨S300, .f32⟩) (.of main_v540 : StableHlo.TRef sig ⟨S300, .f32⟩) (fun p a b => select (broadcastInDim S300 ![] bcast_S_S300 p) a b) ]
theorem main_part10_ops3_sub : (main_part10_ops3 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem main_part10_ops3_fresh : (main_part10_ops3 : List (HloOp τ sig (Elt F))).Forall fun op => op.fresh = ∅ := by
  simp only [List.Forall]; repeat' constructor
theorem main_part10_ops3_writes : StableHlo.HostSim.WritesFrom 908 (main_part10_ops3 : List (HloOp τ sig (Elt F))) := by
  repeat (first | exact .nil _ | refine .cons ⟨_, rfl, rfl, rfl⟩ ?_)
abbrev main_part10_ops4 : List (HloOp τ sig (Elt F)) :=
  [ StableHlo.unary main_v539 main_v541 (broadcastInDim S1x300 ![1] bcast_S300_S1x300_1 : (⟨S300, .f32⟩ : BufTy).Contents (Elt F) → (⟨S1x300, .f32⟩ : BufTy).Contents (Elt F)),
    StableHlo.unary main_v541 main_v542 (broadcastInDim S10000x300 ![0, 1] bcast_S1x300_S10000x300_0_1 : (⟨S1x300, .f32⟩ : BufTy).Contents (Elt F) → (⟨S10000x300, .f32⟩ : BufTy).Contents (Elt F)),
    StableHlo.binary main_v532 main_v542 main_v543 (subf : (⟨S10000x300, .f32⟩ : BufTy).Contents (Elt F) → (⟨S10000x300, .f32⟩ : BufTy).Contents (Elt F) → (⟨S10000x300, .f32⟩ : BufTy).Contents (Elt F)),
    StableHlo.nullary main_cst_83 (constant S_ .f32 0x3727C5AC#32),
    StableHlo.unary main_cst_83 main_v544 (broadcastInDim S300 ![] bcast_S_S300 : (⟨S_, .f32⟩ : BufTy).Contents (Elt F) → (⟨S300, .f32⟩ : BufTy).Contents (Elt F)),
    StableHlo.binary main_v540 main_v544 main_v545 (addf : (⟨S300, .f32⟩ : BufTy).Contents (Elt F) → (⟨S300, .f32⟩ : BufTy).Contents (Elt F) → (⟨S300, .f32⟩ : BufTy).Contents (Elt F)),
    StableHlo.unary main_v545 main_v546 (Host.sqrt : (⟨S300, .f32⟩ : BufTy).Contents (Elt F) → (⟨S300, .f32⟩ : BufTy).Contents (Elt F)),
    StableHlo.unary main_v546 main_v547 (broadcastInDim S1x300 ![1] bcast_S300_S1x300_1 : (⟨S300, .f32⟩ : BufTy).Contents (Elt F) → (⟨S1x300, .f32⟩ : BufTy).Contents (Elt F)),
    StableHlo.unary main_v547 main_v548 (broadcastInDim S10000x300 ![0, 1] bcast_S1x300_S10000x300_0_1 : (⟨S1x300, .f32⟩ : BufTy).Contents (Elt F) → (⟨S10000x300, .f32⟩ : BufTy).Contents (Elt F)),
    StableHlo.binary main_v543 main_v548 main_v549 (Host.divf : (⟨S10000x300, .f32⟩ : BufTy).Contents (Elt F) → (⟨S10000x300, .f32⟩ : BufTy).Contents (Elt F) → (⟨S10000x300, .f32⟩ : BufTy).Contents (Elt F)),
    StableHlo.unary main_v534 main_v550 (broadcastInDim S1x300 ![1] bcast_S300_S1x300_1 : (⟨S300, .f32⟩ : BufTy).Contents (Elt F) → (⟨S1x300, .f32⟩ : BufTy).Contents (Elt F)),
    StableHlo.unary main_v550 main_v551 (broadcastInDim S10000x300 ![0, 1] bcast_S1x300_S10000x300_0_1 : (⟨S1x300, .f32⟩ : BufTy).Contents (Elt F) → (⟨S10000x300, .f32⟩ : BufTy).Contents (Elt F)),
    StableHlo.binary main_v549 main_v551 main_v552 (mulf : (⟨S10000x300, .f32⟩ : BufTy).Contents (Elt F) → (⟨S10000x300, .f32⟩ : BufTy).Contents (Elt F) → (⟨S10000x300, .f32⟩ : BufTy).Contents (Elt F)),
    StableHlo.unary main_v536 main_v553 (broadcastInDim S1x300 ![1] bcast_S300_S1x300_1 : (⟨S300, .f32⟩ : BufTy).Contents (Elt F) → (⟨S1x300, .f32⟩ : BufTy).Contents (Elt F)),
    StableHlo.unary main_v553 main_v554 (broadcastInDim S10000x300 ![0, 1] bcast_S1x300_S10000x300_0_1 : (⟨S1x300, .f32⟩ : BufTy).Contents (Elt F) → (⟨S10000x300, .f32⟩ : BufTy).Contents (Elt F)),
    StableHlo.binary main_v552 main_v554 main_v555 (addf : (⟨S10000x300, .f32⟩ : BufTy).Contents (Elt F) → (⟨S10000x300, .f32⟩ : BufTy).Contents (Elt F) → (⟨S10000x300, .f32⟩ : BufTy).Contents (Elt F)) ]
theorem main_part10_ops4_sub : (main_part10_ops4 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem main_part10_ops4_fresh : (main_part10_ops4 : List (HloOp τ sig (Elt F))).Forall fun op => op.fresh = ∅ := by
  simp only [List.Forall]; repeat' constructor
theorem main_part10_ops4_writes : StableHlo.HostSim.WritesFrom 930 (main_part10_ops4 : List (HloOp τ sig (Elt F))) := by
  repeat (first | exact .nil _ | refine .cons ⟨_, rfl, rfl, rfl⟩ ?_)
abbrev main_part10_ops5 : List (HloOp τ sig (Elt F)) :=
  [ StableHlo.TRef.nullary (.of main_call29_cst : StableHlo.TRef sig ⟨S_, .f32⟩) (constant S_ .f32 0x00000000#32),
    StableHlo.TRef.unary (.of main_call29_cst : StableHlo.TRef sig ⟨S_, .f32⟩) (.of main_call29_v0 : StableHlo.TRef sig ⟨S10000x300, .f32⟩) (broadcastInDim S10000x300 ![] bcast_S_S10000x300),
    StableHlo.TRef.binary (.of main_v555 : StableHlo.TRef sig ⟨S10000x300, .f32⟩) (.of main_call29_v0 : StableHlo.TRef sig ⟨S10000x300, .f32⟩) (.of main_v556 : StableHlo.TRef sig ⟨S10000x300, .f32⟩) maximumf ]
theorem main_part10_ops5_sub : (main_part10_ops5 : List (HloOp τ sig (Elt F))).Forall fun op => op.bufs ⊆ StableHlo.tcRefs τ sig :=
  ⟨StableHlo.nullary_bufs_sub .., StableHlo.unary_bufs_sub .., StableHlo.binary_bufs_sub ..⟩
theorem main_part10_ops5_fresh : (main_part10_ops5 : List (HloOp τ sig (Elt F))).Forall fun op => op.fresh = ∅ := by
  simp only [List.Forall]; repeat' constructor
theorem main_part10_ops5_writes : StableHlo.HostSim.WritesFrom 946 (main_part10_ops5 : List (HloOp τ sig (Elt F))) := by
  repeat (first | exact .nil _ | refine .cons ⟨_, rfl, rfl, rfl⟩ ?_)
abbrev main_part10_ops6 : List (HloOp τ sig (Elt F)) :=
  [ StableHlo.nullary main_c_84 (constantI S_ 32 0#32),
    StableHlo.unary main_c_84 main_v557 (broadcastInDim S160000 ![] bcast_S_S160000 : (⟨S_, .i32⟩ : BufTy).Contents (Elt F) → (⟨S160000, .i32⟩ : BufTy).Contents (Elt F)),
    StableHlo.binary main_v1 main_v557 main_v558 (cmpi .slt : (⟨S160000, .i32⟩ : BufTy).Contents (Elt F) → (⟨S160000, .i32⟩ : BufTy).Contents (Elt F) → (⟨S160000, .i1⟩ : BufTy).Contents (Elt F)),
    StableHlo.nullary main_c_85 (constantI S_ 32 10000#32),
    StableHlo.unary main_c_85 main_v559 (broadcastInDim S160000 ![] bcast_S_S160000 : (⟨S_, .i32⟩ : BufTy).Contents (Elt F) → (⟨S160000, .i32⟩ : BufTy).Contents (Elt F)),
    StableHlo.binary main_v1 main_v559 main_v560 (addi : (⟨S160000, .i32⟩ : BufTy).Contents (Elt F) → (⟨S160000, .i32⟩ : BufTy).Contents (Elt F) → (⟨S160000, .i32⟩ : BufTy).Contents (Elt F)),
    StableHlo.ternary main_v558 main_v560 main_v1 main_v561 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v561 main_v562 (broadcastInDim S160000x1 ![0] bcast_S160000_S160000x1_0 : (⟨S160000, .i32⟩ : BufTy).Contents (Elt F) → (⟨S160000x1, .i32⟩ : BufTy).Contents (Elt F)),
    StableHlo.binary main_v556 main_v562 main_v563 ((fun x i => Host.gather gather_S10000x300_S160000x1_S160000x300_1_0_n_n_0_1_1300 x i) : (⟨S10000x300, .f32⟩ : BufTy).Contents (Elt F) → (⟨S160000x1, .i32⟩ : BufTy).Contents (Elt F) → (⟨S160000x300, .f32⟩ : BufTy).Contents (Elt F)),
    StableHlo.unary main_arg6 main_v564 ((extractStridedSlice S1x5x300 ![6, 0, 0] · slices_S7x5x300_S1x5x300_6_0_0) : (⟨S7x5x300, .f32⟩ : BufTy).Contents (Elt F) → (⟨S1x5x300, .f32⟩ : BufTy).Contents (Elt F)),
    StableHlo.reshape main_v564 main_v565 rfl shapeCasts_S1x5x300_S5x300,
    StableHlo.nullary main_c_86 (constantI S_ 32 0#32),
    StableHlo.unary main_c_86 main_v566 (broadcastInDim S160000 ![] bcast_S_S160000 : (⟨S_, .i32⟩ : BufTy).Contents (Elt F) → (⟨S160000, .i32⟩ : BufTy).Contents (Elt F)),
    StableHlo.binary main_arg2 main_v566 main_v567 (cmpi .slt : (⟨S160000, .i32⟩ : BufTy).Contents (Elt F) → (⟨S160000, .i32⟩ : BufTy).Contents (Elt F) → (⟨S160000, .i1⟩ : BufTy).Contents (Elt F)),
    StableHlo.nullary main_c_87 (constantI S_ 32 5#32),
    StableHlo.unary main_c_87 main_v568 (broadcastInDim S160000 ![] bcast_S_S160000 : (⟨S_, .i32⟩ : BufTy).Contents (Elt F) → (⟨S160000, .i32⟩ : BufTy).Contents (Elt F)),
    StableHlo.binary main_arg2 main_v568 main_v569 (addi : (⟨S160000, .i32⟩ : BufTy).Contents (Elt F) → (⟨S160000, .i32⟩ : BufTy).Contents (Elt F) → (⟨S160000, .i32⟩ : BufTy).Contents (Elt F)) ]
theorem main_part10_ops6_sub : (main_part10_ops6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub ..⟩
theorem main_part10_ops6_fresh : (main_part10_ops6 : List (HloOp τ sig (Elt F))).Forall fun op => op.fresh = ∅ := by
  simp only [List.Forall]; repeat' constructor
theorem main_part10_ops6_writes : StableHlo.HostSim.WritesFrom 949 (main_part10_ops6 : List (HloOp τ sig (Elt F))) := by
  repeat (first | exact .nil _ | refine .cons ⟨_, rfl, rfl, rfl⟩ ?_)
abbrev main_part11_ops0 : List (HloOp τ sig (Elt F)) :=
  [ StableHlo.ternary main_v567 main_v569 main_arg2 main_v570 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v570 main_v571 (broadcastInDim S160000x1 ![0] bcast_S160000_S160000x1_0 : (⟨S160000, .i32⟩ : BufTy).Contents (Elt F) → (⟨S160000x1, .i32⟩ : BufTy).Contents (Elt F)),
    StableHlo.binary main_v565 main_v571 main_v572 ((fun x i => Host.gather gather_S5x300_S160000x1_S160000x300_1_0_n_n_0_1_1300 x i) : (⟨S5x300, .f32⟩ : BufTy).Contents (Elt F) → (⟨S160000x1, .i32⟩ : BufTy).Contents (Elt F) → (⟨S160000x300, .f32⟩ : BufTy).Contents (Elt F)),
    StableHlo.binary main_v563 main_v572 main_v573 (addf : (⟨S160000x300, .f32⟩ : BufTy).Contents (Elt F) → (⟨S160000x300, .f32⟩ : BufTy).Contents (Elt F) → (⟨S160000x300, .f32⟩ : BufTy).Contents (Elt F)) ]
theorem main_part11_ops0_sub : (main_part11_ops0 : List (HloOp τ sig (Elt F))).Forall fun op => op.bufs ⊆ StableHlo.tcRefs τ sig :=
  ⟨StableHlo.ternary_bufs_sub .., StableHlo.unary_bufs_sub .., StableHlo.binary_bufs_sub .., StableHlo.binary_bufs_sub ..⟩
theorem main_part11_ops0_fresh : (main_part11_ops0 : List (HloOp τ sig (Elt F))).Forall fun op => op.fresh = ∅ := by
  simp only [List.Forall]; repeat' constructor
theorem main_part11_ops0_writes : StableHlo.HostSim.WritesFrom 966 (main_part11_ops0 : List (HloOp τ sig (Elt F))) := by
  repeat (first | exact .nil _ | refine .cons ⟨_, rfl, rfl, rfl⟩ ?_)
abbrev main_part11_ops1 : List (HloOp τ sig (Elt F)) :=
  [ StableHlo.TRef.nullary (.of main_call30_cst : StableHlo.TRef sig ⟨S_, .f32⟩) (constant S_ .f32 0x00000000#32),
    StableHlo.TRef.unary (.of main_call30_cst : StableHlo.TRef sig ⟨S_, .f32⟩) (.of main_call30_v0 : StableHlo.TRef sig ⟨S160000x300, .f32⟩) (broadcastInDim S160000x300 ![] bcast_S_S160000x300),
    StableHlo.TRef.binary (.of main_v573 : StableHlo.TRef sig ⟨S160000x300, .f32⟩) (.of main_call30_v0 : StableHlo.TRef sig ⟨S160000x300, .f32⟩) (.of main_v574 : StableHlo.TRef sig ⟨S160000x300, .f32⟩) maximumf ]
theorem main_part11_ops1_sub : (main_part11_ops1 : List (HloOp τ sig (Elt F))).Forall fun op => op.bufs ⊆ StableHlo.tcRefs τ sig :=
  ⟨StableHlo.nullary_bufs_sub .., StableHlo.unary_bufs_sub .., StableHlo.binary_bufs_sub ..⟩
theorem main_part11_ops1_fresh : (main_part11_ops1 : List (HloOp τ sig (Elt F))).Forall fun op => op.fresh = ∅ := by
  simp only [List.Forall]; repeat' constructor
theorem main_part11_ops1_writes : StableHlo.HostSim.WritesFrom 970 (main_part11_ops1 : List (HloOp τ sig (Elt F))) := by
  repeat (first | exact .nil _ | refine .cons ⟨_, rfl, rfl, rfl⟩ ?_)
abbrev main_part11_ops2 : List (HloOp τ sig (Elt F)) :=
  [ StableHlo.nullary main_cst_88 (constant S_ .f32 0x00000000#32),
    StableHlo.unary main_cst_88 main_v575 (broadcastInDim S10000x300 ![] bcast_S_S10000x300 : (⟨S_, .f32⟩ : BufTy).Contents (Elt F) → (⟨S10000x300, .f32⟩ : BufTy).Contents (Elt F)),
    StableHlo.unary main_v3 main_v576 (broadcastInDim S160000x1 ![0] bcast_S160000_S160000x1_0 : (⟨S160000, .i32⟩ : BufTy).Contents (Elt F) → (⟨S160000x1, .i32⟩ : BufTy).Contents (Elt F)),
    StableHlo.ternary main_v575 main_v576 main_v574 main_v577 ((fun x i u => Host.scatterAdd scatter_S10000x300_S160000x1_S160000x300_1_0_0_1 x i u) : (⟨S10000x300, .f32⟩ : BufTy).Contents (Elt F) → (⟨S160000x1, .i32⟩ : BufTy).Contents (Elt F) → (⟨S160000x300, .f32⟩ : BufTy).Contents (Elt F) → (⟨S10000x300, .f32⟩ : BufTy).Contents (Elt F)),
    StableHlo.unary main_arg13 main_v578 ((extractStridedSlice S1 ![6] · slices_S7_S1_6) : (⟨S7, .f32⟩ : BufTy).Contents (Elt F) → (⟨S1, .f32⟩ : BufTy).Contents (Elt F)),
    StableHlo.reshape main_v578 main_v579 rfl shapeCasts_S1_S_,
    StableHlo.nullary main_cst_89 (constant S_ .f32 0x3F800000#32),
    StableHlo.binary main_cst_89 main_v579 main_v580 (addf : (⟨S_, .f32⟩ : BufTy).Contents (Elt F) → (⟨S_, .f32⟩ : BufTy).Contents (Elt F) → (⟨S_, .f32⟩ : BufTy).Contents (Elt F)),
    StableHlo.unary main_v580 main_v581 (broadcastInDim S10000x300 ![] bcast_S_S10000x300 : (⟨S_, .f32⟩ : BufTy).Contents (Elt F) → (⟨S10000x300, .f32⟩ : BufTy).Contents (Elt F)),
    StableHlo.binary main_v581 main_v556 main_v582 (mulf : (⟨S10000x300, .f32⟩ : BufTy).Contents (Elt F) → (⟨S10000x300, .f32⟩ : BufTy).Contents (Elt F) → (⟨S10000x300, .f32⟩ : BufTy).Contents (Elt F)),
    StableHlo.binary main_v582 main_v577 main_v583 (addf : (⟨S10000x300, .f32⟩ : BufTy).Contents (Elt F) → (⟨S10000x300, .f32⟩ : BufTy).Contents (Elt F) → (⟨S10000x300, .f32⟩ : BufTy).Contents (Elt F)),
    StableHlo.unary main_arg7 main_v584 ((extractStridedSlice S1x300x600 ![6, 0, 0] · slices_S7x300x600_S1x300x600_6_0_0) : (⟨S7x300x600, .f32⟩ : BufTy).Contents (Elt F) → (⟨S1x300x600, .f32⟩ : BufTy).Contents (Elt F)),
    StableHlo.reshape main_v584 main_v585 rfl shapeCasts_S1x300x600_S300x600,
    StableHlo.binary main_v583 main_v585 main_v586 ((fun l r => Host.dotGeneral dot_S10000x300_S300x600_S10000x600_1_0_0_1_n_n none l r) : (⟨S10000x300, .f32⟩ : BufTy).Contents (Elt F) → (⟨S300x600, .f32⟩ : BufTy).Contents (Elt F) → (⟨S10000x600, .f32⟩ : BufTy).Contents (Elt F)),
    StableHlo.unary main_arg8 main_v587 ((extractStridedSlice S1x600 ![6, 0] · slices_S7x600_S1x600_6_0) : (⟨S7x600, .f32⟩ : BufTy).Contents (Elt F) → (⟨S1x600, .f32⟩ : BufTy).Contents (Elt F)),
    StableHlo.reshape main_v587 main_v588 rfl shapeCasts_S1x600_S600,
    StableHlo.unary main_v588 main_v589 (broadcastInDim S1x600 ![1] bcast_S600_S1x600_1 : (⟨S600, .f32⟩ : BufTy).Contents (Elt F) → (⟨S1x600, .f32⟩ : BufTy).Contents (Elt F)),
    StableHlo.unary main_v589 main_v590 (broadcastInDim S10000x600 ![0, 1] bcast_S1x600_S10000x600_0_1 : (⟨S1x600, .f32⟩ : BufTy).Contents (Elt F) → (⟨S10000x600, .f32⟩ : BufTy).Contents (Elt F)),
    StableHlo.binary main_v586 main_v590 main_v591 (addf : (⟨S10000x600, .f32⟩ : BufTy).Contents (Elt F) → (⟨S10000x600, .f32⟩ : BufTy).Contents (Elt F) → (⟨S10000x600, .f32⟩ : BufTy).Contents (Elt F)),
    StableHlo.unary main_arg9 main_v592 ((extractStridedSlice S1x600 ![6, 0] · slices_S7x600_S1x600_6_0) : (⟨S7x600, .f32⟩ : BufTy).Contents (Elt F) → (⟨S1x600, .f32⟩ : BufTy).Contents (Elt F)),
    StableHlo.reshape main_v592 main_v593 rfl shapeCasts_S1x600_S600,
    StableHlo.unary main_arg10 main_v594 ((extractStridedSlice S1x600 ![6, 0] · slices_S7x600_S1x600_6_0) : (⟨S7x600, .f32⟩ : BufTy).Contents (Elt F) → (⟨S1x600, .f32⟩ : BufTy).Contents (Elt F)),
    StableHlo.reshape main_v594 main_v595 rfl shapeCasts_S1x600_S600,
    StableHlo.nullary main_cst_90 (constant S_ .f32 0x00000000#32),
    StableHlo.binary main_v591 main_cst_90 main_v596 ((fun x v => Host.reduceAdd x v reducesTo_S10000x600_S600_d0 h_S_) : (⟨S10000x600, .f32⟩ : BufTy).Contents (Elt F) → (⟨S_, .f32⟩ : BufTy).Contents (Elt F) → (⟨S600, .f32⟩ : BufTy).Contents (Elt F)),
    StableHlo.nullary main_cst_91 (constant S_ .f32 0x461C4000#32),
    StableHlo.unary main_cst_91 main_v597 (broadcastInDim S600 ![] bcast_S_S600 : (⟨S_, .f32⟩ : BufTy).Contents (Elt F) → (⟨S600, .f32⟩ : BufTy).Contents (Elt F)),
    StableHlo.binary main_v596 main_v597 main_v598 (Host.divf : (⟨S600, .f32⟩ : BufTy).Contents (Elt F) → (⟨S600, .f32⟩ : BufTy).Contents (Elt F) → (⟨S600, .f32⟩ : BufTy).Contents (Elt F)),
    StableHlo.nullary main_c_92 (constantI S_ 32 0#32) ]
theorem main_part11_ops2_sub : (main_part11_ops2 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub ..⟩
theorem main_part11_ops2_fresh : (main_part11_ops2 : List (HloOp τ sig (Elt F))).Forall fun op => op.fresh = ∅ := by
  simp only [List.Forall]; repeat' constructor
theorem main_part11_ops2_writes : StableHlo.HostSim.WritesFrom 973 (main_part11_ops2 : List (HloOp τ sig (Elt F))) := by
  repeat (first | exact .nil _ | refine .cons ⟨_, rfl, rfl, rfl⟩ ?_)
abbrev main_part11_ops3 : List (HloOp τ sig (Elt F)) :=
  [ StableHlo.TRef.nullary (.of main_call31_cst : StableHlo.TRef sig ⟨S_, .f32⟩) (constant S_ .f32 0x00000000#32),
    StableHlo.TRef.binary (.of main_v591 : StableHlo.TRef sig ⟨S10000x600, .f32⟩) (.of main_call31_cst : StableHlo.TRef sig ⟨S_, .f32⟩) (.of main_call31_v0 : StableHlo.TRef sig ⟨S600, .f32⟩) (fun x v => Host.reduceAdd x v reducesTo_S10000x600_S600_d0 h_S_),
    StableHlo.TRef.unary (.of main_call31_v0 : StableHlo.TRef sig ⟨S600, .f32⟩) (.of main_call31_v1 : StableHlo.TRef sig ⟨S1x600, .f32⟩) (broadcastInDim S1x600 ![1] bcast_S600_S1x600_1),
    StableHlo.TRef.nullary (.of main_call31_cst_0 : StableHlo.TRef sig ⟨S_, .f32⟩) (constant S_ .f32 0x461C4000#32),
    StableHlo.TRef.unary (.of main_call31_cst_0 : StableHlo.TRef sig ⟨S_, .f32⟩) (.of main_call31_v2 : StableHlo.TRef sig ⟨S1x600, .f32⟩) (broadcastInDim S1x600 ![] bcast_S_S1x600),
    StableHlo.TRef.binary (.of main_call31_v1 : StableHlo.TRef sig ⟨S1x600, .f32⟩) (.of main_call31_v2 : StableHlo.TRef sig ⟨S1x600, .f32⟩) (.of main_call31_v3 : StableHlo.TRef sig ⟨S1x600, .f32⟩) Host.divf,
    StableHlo.TRef.unary (.of main_call31_v3 : StableHlo.TRef sig ⟨S1x600, .f32⟩) (.of main_call31_v4 : StableHlo.TRef sig ⟨S10000x600, .f32⟩) (broadcastInDim S10000x600 ![0, 1] bcast_S1x600_S10000x600_0_1),
    StableHlo.TRef.binary (.of main_v591 : StableHlo.TRef sig ⟨S10000x600, .f32⟩) (.of main_call31_v4 : StableHlo.TRef sig ⟨S10000x600, .f32⟩) (.of main_call31_v5 : StableHlo.TRef sig ⟨S10000x600, .f32⟩) subf,
    StableHlo.TRef.binary (.of main_call31_v5 : StableHlo.TRef sig ⟨S10000x600, .f32⟩) (.of main_call31_v5 : StableHlo.TRef sig ⟨S10000x600, .f32⟩) (.of main_call31_v6 : StableHlo.TRef sig ⟨S10000x600, .f32⟩) mulf,
    StableHlo.TRef.unary (.of main_c_92 : StableHlo.TRef sig ⟨S_, .i32⟩) (.of main_call31_v7 : StableHlo.TRef sig ⟨S_, .f32⟩) (sitofp .f32),
    StableHlo.TRef.nullary (.of main_call31_cst_1 : StableHlo.TRef sig ⟨S_, .f32⟩) (constant S_ .f32 0x461C4000#32),
    StableHlo.TRef.binary (.of main_call31_cst_1 : StableHlo.TRef sig ⟨S_, .f32⟩) (.of main_call31_v7 : StableHlo.TRef sig ⟨S_, .f32⟩) (.of main_call31_v8 : StableHlo.TRef sig ⟨S_, .f32⟩) subf,
    StableHlo.TRef.nullary (.of main_call31_cst_2 : StableHlo.TRef sig ⟨S_, .f32⟩) (constant S_ .f32 0x00000000#32),
    StableHlo.TRef.binary (.of main_call31_v6 : StableHlo.TRef sig ⟨S10000x600, .f32⟩) (.of main_call31_cst_2 : StableHlo.TRef sig ⟨S_, .f32⟩) (.of main_call31_v9 : StableHlo.TRef sig ⟨S600, .f32⟩) (fun x v => Host.reduceAdd x v reducesTo_S10000x600_S600_d0 h_S_),
    StableHlo.TRef.unary (.of main_call31_v8 : StableHlo.TRef sig ⟨S_, .f32⟩) (.of main_call31_v10 : StableHlo.TRef sig ⟨S600, .f32⟩) (broadcastInDim S600 ![] bcast_S_S600),
    StableHlo.TRef.binary (.of main_call31_v9 : StableHlo.TRef sig ⟨S600, .f32⟩) (.of main_call31_v10 : StableHlo.TRef sig ⟨S600, .f32⟩) (.of main_call31_v11 : StableHlo.TRef sig ⟨S600, .f32⟩) Host.divf,
    StableHlo.TRef.nullary (.of main_call31_cst_3 : StableHlo.TRef sig ⟨S_, .f32⟩) (constant S_ .f32 0x00000000#32),
    StableHlo.TRef.binary (.of main_call31_v8 : StableHlo.TRef sig ⟨S_, .f32⟩) (.of main_call31_cst_3 : StableHlo.TRef sig ⟨S_, .f32⟩) (.of main_call31_v12 : StableHlo.TRef sig ⟨S_, .i1⟩) (cmpf .ogt),
    StableHlo.TRef.nullary (.of main_call31_cst_4 : StableHlo.TRef sig ⟨S_, .f32⟩) (constant S_ .f32 0x7FC00000#32),
    StableHlo.TRef.unary (.of main_call31_cst_4 : StableHlo.TRef sig ⟨S_, .f32⟩) (.of main_call31_call0_v0 : StableHlo.TRef sig ⟨S_, .f32⟩) id,
    StableHlo.TRef.unary (.of main_call31_call0_v0 : StableHlo.TRef sig ⟨S_, .f32⟩) (.of main_call31_call0_v1 : StableHlo.TRef sig ⟨S600, .f32⟩) (broadcastInDim S600 ![] bcast_S_S600),
    StableHlo.TRef.ternary (.of main_call31_v12 : StableHlo.TRef sig ⟨S_, .i1⟩) (.of main_call31_v11 : StableHlo.TRef sig ⟨S600, .f32⟩) (.of main_call31_call0_v1 : StableHlo.TRef sig ⟨S600, .f32⟩) (.of main_v599 : StableHlo.TRef sig ⟨S600, .f32⟩) (fun p a b => select (broadcastInDim S600 ![] bcast_S_S600 p) a b) ]
theorem main_part11_ops3_sub : (main_part11_ops3 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem main_part11_ops3_fresh : (main_part11_ops3 : List (HloOp τ sig (Elt F))).Forall fun op => op.fresh = ∅ := by
  simp only [List.Forall]; repeat' constructor
theorem main_part11_ops3_writes : StableHlo.HostSim.WritesFrom 1002 (main_part11_ops3 : List (HloOp τ sig (Elt F))) := by
  repeat (first | exact .nil _ | refine .cons ⟨_, rfl, rfl, rfl⟩ ?_)
abbrev main_part11_ops4 : List (HloOp τ sig (Elt F)) :=
  [ StableHlo.unary main_v598 main_v600 (broadcastInDim S1x600 ![1] bcast_S600_S1x600_1 : (⟨S600, .f32⟩ : BufTy).Contents (Elt F) → (⟨S1x600, .f32⟩ : BufTy).Contents (Elt F)),
    StableHlo.unary main_v600 main_v601 (broadcastInDim S10000x600 ![0, 1] bcast_S1x600_S10000x600_0_1 : (⟨S1x600, .f32⟩ : BufTy).Contents (Elt F) → (⟨S10000x600, .f32⟩ : BufTy).Contents (Elt F)),
    StableHlo.binary main_v591 main_v601 main_v602 (subf : (⟨S10000x600, .f32⟩ : BufTy).Contents (Elt F) → (⟨S10000x600, .f32⟩ : BufTy).Contents (Elt F) → (⟨S10000x600, .f32⟩ : BufTy).Contents (Elt F)),
    StableHlo.nullary main_cst_93 (constant S_ .f32 0x3727C5AC#32),
    StableHlo.unary main_cst_93 main_v603 (broadcastInDim S600 ![] bcast_S_S600 : (⟨S_, .f32⟩ : BufTy).Contents (Elt F) → (⟨S600, .f32⟩ : BufTy).Contents (Elt F)),
    StableHlo.binary main_v599 main_v603 main_v604 (addf : (⟨S600, .f32⟩ : BufTy).Contents (Elt F) → (⟨S600, .f32⟩ : BufTy).Contents (Elt F) → (⟨S600, .f32⟩ : BufTy).Contents (Elt F)),
    StableHlo.unary main_v604 main_v605 (Host.sqrt : (⟨S600, .f32⟩ : BufTy).Contents (Elt F) → (⟨S600, .f32⟩ : BufTy).Contents (Elt F)),
    StableHlo.unary main_v605 main_v606 (broadcastInDim S1x600 ![1] bcast_S600_S1x600_1 : (⟨S600, .f32⟩ : BufTy).Contents (Elt F) → (⟨S1x600, .f32⟩ : BufTy).Contents (Elt F)),
    StableHlo.unary main_v606 main_v607 (broadcastInDim S10000x600 ![0, 1] bcast_S1x600_S10000x600_0_1 : (⟨S1x600, .f32⟩ : BufTy).Contents (Elt F) → (⟨S10000x600, .f32⟩ : BufTy).Contents (Elt F)),
    StableHlo.binary main_v602 main_v607 main_v608 (Host.divf : (⟨S10000x600, .f32⟩ : BufTy).Contents (Elt F) → (⟨S10000x600, .f32⟩ : BufTy).Contents (Elt F) → (⟨S10000x600, .f32⟩ : BufTy).Contents (Elt F)),
    StableHlo.unary main_v593 main_v609 (broadcastInDim S1x600 ![1] bcast_S600_S1x600_1 : (⟨S600, .f32⟩ : BufTy).Contents (Elt F) → (⟨S1x600, .f32⟩ : BufTy).Contents (Elt F)),
    StableHlo.unary main_v609 main_v610 (broadcastInDim S10000x600 ![0, 1] bcast_S1x600_S10000x600_0_1 : (⟨S1x600, .f32⟩ : BufTy).Contents (Elt F) → (⟨S10000x600, .f32⟩ : BufTy).Contents (Elt F)),
    StableHlo.binary main_v608 main_v610 main_v611 (mulf : (⟨S10000x600, .f32⟩ : BufTy).Contents (Elt F) → (⟨S10000x600, .f32⟩ : BufTy).Contents (Elt F) → (⟨S10000x600, .f32⟩ : BufTy).Contents (Elt F)),
    StableHlo.unary main_v595 main_v612 (broadcastInDim S1x600 ![1] bcast_S600_S1x600_1 : (⟨S600, .f32⟩ : BufTy).Contents (Elt F) → (⟨S1x600, .f32⟩ : BufTy).Contents (Elt F)),
    StableHlo.unary main_v612 main_v613 (broadcastInDim S10000x600 ![0, 1] bcast_S1x600_S10000x600_0_1 : (⟨S1x600, .f32⟩ : BufTy).Contents (Elt F) → (⟨S10000x600, .f32⟩ : BufTy).Contents (Elt F)),
    StableHlo.binary main_v611 main_v613 main_v614 (addf : (⟨S10000x600, .f32⟩ : BufTy).Contents (Elt F) → (⟨S10000x600, .f32⟩ : BufTy).Contents (Elt F) → (⟨S10000x600, .f32⟩ : BufTy).Contents (Elt F)) ]
theorem main_part11_ops4_sub : (main_part11_ops4 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem main_part11_ops4_fresh : (main_part11_ops4 : List (HloOp τ sig (Elt F))).Forall fun op => op.fresh = ∅ := by
  simp only [List.Forall]; repeat' constructor
theorem main_part11_ops4_writes : StableHlo.HostSim.WritesFrom 1024 (main_part11_ops4 : List (HloOp τ sig (Elt F))) := by
  repeat (first | exact .nil _ | refine .cons ⟨_, rfl, rfl, rfl⟩ ?_)
abbrev main_part11_ops5 : List (HloOp τ sig (Elt F)) :=
  [ StableHlo.TRef.nullary (.of main_call32_cst : StableHlo.TRef sig ⟨S_, .f32⟩) (constant S_ .f32 0x00000000#32),
    StableHlo.TRef.unary (.of main_call32_cst : StableHlo.TRef sig ⟨S_, .f32⟩) (.of main_call32_v0 : StableHlo.TRef sig ⟨S10000x600, .f32⟩) (broadcastInDim S10000x600 ![] bcast_S_S10000x600),
    StableHlo.TRef.binary (.of main_v614 : StableHlo.TRef sig ⟨S10000x600, .f32⟩) (.of main_call32_v0 : StableHlo.TRef sig ⟨S10000x600, .f32⟩) (.of main_v615 : StableHlo.TRef sig ⟨S10000x600, .f32⟩) maximumf ]
theorem main_part11_ops5_sub : (main_part11_ops5 : List (HloOp τ sig (Elt F))).Forall fun op => op.bufs ⊆ StableHlo.tcRefs τ sig :=
  ⟨StableHlo.nullary_bufs_sub .., StableHlo.unary_bufs_sub .., StableHlo.binary_bufs_sub ..⟩
theorem main_part11_ops5_fresh : (main_part11_ops5 : List (HloOp τ sig (Elt F))).Forall fun op => op.fresh = ∅ := by
  simp only [List.Forall]; repeat' constructor
theorem main_part11_ops5_writes : StableHlo.HostSim.WritesFrom 1040 (main_part11_ops5 : List (HloOp τ sig (Elt F))) := by
  repeat (first | exact .nil _ | refine .cons ⟨_, rfl, rfl, rfl⟩ ?_)
abbrev main_part11_ops6 : List (HloOp τ sig (Elt F)) :=
  [ StableHlo.unary main_arg11 main_v616 ((extractStridedSlice S1x600x300 ![6, 0, 0] · slices_S7x600x300_S1x600x300_6_0_0) : (⟨S7x600x300, .f32⟩ : BufTy).Contents (Elt F) → (⟨S1x600x300, .f32⟩ : BufTy).Contents (Elt F)),
    StableHlo.reshape main_v616 main_v617 rfl shapeCasts_S1x600x300_S600x300,
    StableHlo.binary main_v615 main_v617 main_v618 ((fun l r => Host.dotGeneral dot_S10000x600_S600x300_S10000x300_1_0_0_1_n_n none l r) : (⟨S10000x600, .f32⟩ : BufTy).Contents (Elt F) → (⟨S600x300, .f32⟩ : BufTy).Contents (Elt F) → (⟨S10000x300, .f32⟩ : BufTy).Contents (Elt F)),
    StableHlo.unary main_arg12 main_v619 ((extractStridedSlice S1x300 ![6, 0] · slices_S7x300_S1x300_6_0) : (⟨S7x300, .f32⟩ : BufTy).Contents (Elt F) → (⟨S1x300, .f32⟩ : BufTy).Contents (Elt F)),
    StableHlo.reshape main_v619 main_v620 rfl shapeCasts_S1x300_S300,
    StableHlo.unary main_v620 main_v621 (broadcastInDim S1x300 ![1] bcast_S300_S1x300_1 : (⟨S300, .f32⟩ : BufTy).Contents (Elt F) → (⟨S1x300, .f32⟩ : BufTy).Contents (Elt F)),
    StableHlo.unary main_v621 main_v622 (broadcastInDim S10000x300 ![0, 1] bcast_S1x300_S10000x300_0_1 : (⟨S1x300, .f32⟩ : BufTy).Contents (Elt F) → (⟨S10000x300, .f32⟩ : BufTy).Contents (Elt F)),
    StableHlo.binary main_v618 main_v622 main_v623 (addf : (⟨S10000x300, .f32⟩ : BufTy).Contents (Elt F) → (⟨S10000x300, .f32⟩ : BufTy).Contents (Elt F) → (⟨S10000x300, .f32⟩ : BufTy).Contents (Elt F)) ]
theorem main_part11_ops6_sub : (main_part11_ops6 : List (HloOp τ sig (Elt F))).Forall fun op => op.bufs ⊆ StableHlo.tcRefs τ sig :=
  ⟨StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub ..⟩
theorem main_part11_ops6_fresh : (main_part11_ops6 : List (HloOp τ sig (Elt F))).Forall fun op => op.fresh = ∅ := by
  simp only [List.Forall]; repeat' constructor
theorem main_part11_ops6_writes : StableHlo.HostSim.WritesFrom 1043 (main_part11_ops6 : List (HloOp τ sig (Elt F))) := by
  repeat (first | exact .nil _ | refine .cons ⟨_, rfl, rfl, rfl⟩ ?_)
abbrev main_part12_ops0 : List (HloOp τ sig (Elt F)) :=
  [ StableHlo.unary main_arg14 main_v624 ((extractStridedSlice S1x300 ![6, 0] · slices_S7x300_S1x300_6_0) : (⟨S7x300, .f32⟩ : BufTy).Contents (Elt F) → (⟨S1x300, .f32⟩ : BufTy).Contents (Elt F)),
    StableHlo.reshape main_v624 main_v625 rfl shapeCasts_S1x300_S300,
    StableHlo.unary main_arg15 main_v626 ((extractStridedSlice S1x300 ![6, 0] · slices_S7x300_S1x300_6_0) : (⟨S7x300, .f32⟩ : BufTy).Contents (Elt F) → (⟨S1x300, .f32⟩ : BufTy).Contents (Elt F)),
    StableHlo.reshape main_v626 main_v627 rfl shapeCasts_S1x300_S300,
    StableHlo.nullary main_cst_94 (constant S_ .f32 0x00000000#32),
    StableHlo.binary main_v623 main_cst_94 main_v628 ((fun x v => Host.reduceAdd x v reducesTo_S10000x300_S300_d0 h_S_) : (⟨S10000x300, .f32⟩ : BufTy).Contents (Elt F) → (⟨S_, .f32⟩ : BufTy).Contents (Elt F) → (⟨S300, .f32⟩ : BufTy).Contents (Elt F)),
    StableHlo.nullary main_cst_95 (constant S_ .f32 0x461C4000#32),
    StableHlo.unary main_cst_95 main_v629 (broadcastInDim S300 ![] bcast_S_S300 : (⟨S_, .f32⟩ : BufTy).Contents (Elt F) → (⟨S300, .f32⟩ : BufTy).Contents (Elt F)),
    StableHlo.binary main_v628 main_v629 main_v630 (Host.divf : (⟨S300, .f32⟩ : BufTy).Contents (Elt F) → (⟨S300, .f32⟩ : BufTy).Contents (Elt F) → (⟨S300, .f32⟩ : BufTy).Contents (Elt F)),
    StableHlo.nullary main_c_96 (constantI S_ 32 0#32) ]
theorem main_part12_ops0_sub : (main_part12_ops0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub ..⟩
theorem main_part12_ops0_fresh : (main_part12_ops0 : List (HloOp τ sig (Elt F))).Forall fun op => op.fresh = ∅ := by
  simp only [List.Forall]; repeat' constructor
theorem main_part12_ops0_writes : StableHlo.HostSim.WritesFrom 1051 (main_part12_ops0 : List (HloOp τ sig (Elt F))) := by
  repeat (first | exact .nil _ | refine .cons ⟨_, rfl, rfl, rfl⟩ ?_)
abbrev main_part12_ops1 : List (HloOp τ sig (Elt F)) :=
  [ StableHlo.TRef.nullary (.of main_call33_cst : StableHlo.TRef sig ⟨S_, .f32⟩) (constant S_ .f32 0x00000000#32),
    StableHlo.TRef.binary (.of main_v623 : StableHlo.TRef sig ⟨S10000x300, .f32⟩) (.of main_call33_cst : StableHlo.TRef sig ⟨S_, .f32⟩) (.of main_call33_v0 : StableHlo.TRef sig ⟨S300, .f32⟩) (fun x v => Host.reduceAdd x v reducesTo_S10000x300_S300_d0 h_S_),
    StableHlo.TRef.unary (.of main_call33_v0 : StableHlo.TRef sig ⟨S300, .f32⟩) (.of main_call33_v1 : StableHlo.TRef sig ⟨S1x300, .f32⟩) (broadcastInDim S1x300 ![1] bcast_S300_S1x300_1),
    StableHlo.TRef.nullary (.of main_call33_cst_0 : StableHlo.TRef sig ⟨S_, .f32⟩) (constant S_ .f32 0x461C4000#32),
    StableHlo.TRef.unary (.of main_call33_cst_0 : StableHlo.TRef sig ⟨S_, .f32⟩) (.of main_call33_v2 : StableHlo.TRef sig ⟨S1x300, .f32⟩) (broadcastInDim S1x300 ![] bcast_S_S1x300),
    StableHlo.TRef.binary (.of main_call33_v1 : StableHlo.TRef sig ⟨S1x300, .f32⟩) (.of main_call33_v2 : StableHlo.TRef sig ⟨S1x300, .f32⟩) (.of main_call33_v3 : StableHlo.TRef sig ⟨S1x300, .f32⟩) Host.divf,
    StableHlo.TRef.unary (.of main_call33_v3 : StableHlo.TRef sig ⟨S1x300, .f32⟩) (.of main_call33_v4 : StableHlo.TRef sig ⟨S10000x300, .f32⟩) (broadcastInDim S10000x300 ![0, 1] bcast_S1x300_S10000x300_0_1),
    StableHlo.TRef.binary (.of main_v623 : StableHlo.TRef sig ⟨S10000x300, .f32⟩) (.of main_call33_v4 : StableHlo.TRef sig ⟨S10000x300, .f32⟩) (.of main_call33_v5 : StableHlo.TRef sig ⟨S10000x300, .f32⟩) subf,
    StableHlo.TRef.binary (.of main_call33_v5 : StableHlo.TRef sig ⟨S10000x300, .f32⟩) (.of main_call33_v5 : StableHlo.TRef sig ⟨S10000x300, .f32⟩) (.of main_call33_v6 : StableHlo.TRef sig ⟨S10000x300, .f32⟩) mulf,
    StableHlo.TRef.unary (.of main_c_96 : StableHlo.TRef sig ⟨S_, .i32⟩) (.of main_call33_v7 : StableHlo.TRef sig ⟨S_, .f32⟩) (sitofp .f32),
    StableHlo.TRef.nullary (.of main_call33_cst_1 : StableHlo.TRef sig ⟨S_, .f32⟩) (constant S_ .f32 0x461C4000#32),
    StableHlo.TRef.binary (.of main_call33_cst_1 : StableHlo.TRef sig ⟨S_, .f32⟩) (.of main_call33_v7 : StableHlo.TRef sig ⟨S_, .f32⟩) (.of main_call33_v8 : StableHlo.TRef sig ⟨S_, .f32⟩) subf,
    StableHlo.TRef.nullary (.of main_call33_cst_2 : StableHlo.TRef sig ⟨S_, .f32⟩) (constant S_ .f32 0x00000000#32),
    StableHlo.TRef.binary (.of main_call33_v6 : StableHlo.TRef sig ⟨S10000x300, .f32⟩) (.of main_call33_cst_2 : StableHlo.TRef sig ⟨S_, .f32⟩) (.of main_call33_v9 : StableHlo.TRef sig ⟨S300, .f32⟩) (fun x v => Host.reduceAdd x v reducesTo_S10000x300_S300_d0 h_S_),
    StableHlo.TRef.unary (.of main_call33_v8 : StableHlo.TRef sig ⟨S_, .f32⟩) (.of main_call33_v10 : StableHlo.TRef sig ⟨S300, .f32⟩) (broadcastInDim S300 ![] bcast_S_S300),
    StableHlo.TRef.binary (.of main_call33_v9 : StableHlo.TRef sig ⟨S300, .f32⟩) (.of main_call33_v10 : StableHlo.TRef sig ⟨S300, .f32⟩) (.of main_call33_v11 : StableHlo.TRef sig ⟨S300, .f32⟩) Host.divf,
    StableHlo.TRef.nullary (.of main_call33_cst_3 : StableHlo.TRef sig ⟨S_, .f32⟩) (constant S_ .f32 0x00000000#32),
    StableHlo.TRef.binary (.of main_call33_v8 : StableHlo.TRef sig ⟨S_, .f32⟩) (.of main_call33_cst_3 : StableHlo.TRef sig ⟨S_, .f32⟩) (.of main_call33_v12 : StableHlo.TRef sig ⟨S_, .i1⟩) (cmpf .ogt),
    StableHlo.TRef.nullary (.of main_call33_cst_4 : StableHlo.TRef sig ⟨S_, .f32⟩) (constant S_ .f32 0x7FC00000#32),
    StableHlo.TRef.unary (.of main_call33_cst_4 : StableHlo.TRef sig ⟨S_, .f32⟩) (.of main_call33_call0_v0 : StableHlo.TRef sig ⟨S_, .f32⟩) id,
    StableHlo.TRef.unary (.of main_call33_call0_v0 : StableHlo.TRef sig ⟨S_, .f32⟩) (.of main_call33_call0_v1 : StableHlo.TRef sig ⟨S300, .f32⟩) (broadcastInDim S300 ![] bcast_S_S300),
    StableHlo.TRef.ternary (.of main_call33_v12 : StableHlo.TRef sig ⟨S_, .i1⟩) (.of main_call33_v11 : StableHlo.TRef sig ⟨S300, .f32⟩) (.of main_call33_call0_v1 : StableHlo.TRef sig ⟨S300, .f32⟩) (.of main_v631 : StableHlo.TRef sig ⟨S300, .f32⟩) (fun p a b => select (broadcastInDim S300 ![] bcast_S_S300 p) a b) ]
theorem main_part12_ops1_sub : (main_part12_ops1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem main_part12_ops1_fresh : (main_part12_ops1 : List (HloOp τ sig (Elt F))).Forall fun op => op.fresh = ∅ := by
  simp only [List.Forall]; repeat' constructor
theorem main_part12_ops1_writes : StableHlo.HostSim.WritesFrom 1061 (main_part12_ops1 : List (HloOp τ sig (Elt F))) := by
  repeat (first | exact .nil _ | refine .cons ⟨_, rfl, rfl, rfl⟩ ?_)
abbrev main_part12_ops2 : List (HloOp τ sig (Elt F)) :=
  [ StableHlo.unary main_v630 main_v632 (broadcastInDim S1x300 ![1] bcast_S300_S1x300_1 : (⟨S300, .f32⟩ : BufTy).Contents (Elt F) → (⟨S1x300, .f32⟩ : BufTy).Contents (Elt F)),
    StableHlo.unary main_v632 main_v633 (broadcastInDim S10000x300 ![0, 1] bcast_S1x300_S10000x300_0_1 : (⟨S1x300, .f32⟩ : BufTy).Contents (Elt F) → (⟨S10000x300, .f32⟩ : BufTy).Contents (Elt F)),
    StableHlo.binary main_v623 main_v633 main_v634 (subf : (⟨S10000x300, .f32⟩ : BufTy).Contents (Elt F) → (⟨S10000x300, .f32⟩ : BufTy).Contents (Elt F) → (⟨S10000x300, .f32⟩ : BufTy).Contents (Elt F)),
    StableHlo.nullary main_cst_97 (constant S_ .f32 0x3727C5AC#32),
    StableHlo.unary main_cst_97 main_v635 (broadcastInDim S300 ![] bcast_S_S300 : (⟨S_, .f32⟩ : BufTy).Contents (Elt F) → (⟨S300, .f32⟩ : BufTy).Contents (Elt F)),
    StableHlo.binary main_v631 main_v635 main_v636 (addf : (⟨S300, .f32⟩ : BufTy).Contents (Elt F) → (⟨S300, .f32⟩ : BufTy).Contents (Elt F) → (⟨S300, .f32⟩ : BufTy).Contents (Elt F)),
    StableHlo.unary main_v636 main_v637 (Host.sqrt : (⟨S300, .f32⟩ : BufTy).Contents (Elt F) → (⟨S300, .f32⟩ : BufTy).Contents (Elt F)),
    StableHlo.unary main_v637 main_v638 (broadcastInDim S1x300 ![1] bcast_S300_S1x300_1 : (⟨S300, .f32⟩ : BufTy).Contents (Elt F) → (⟨S1x300, .f32⟩ : BufTy).Contents (Elt F)),
    StableHlo.unary main_v638 main_v639 (broadcastInDim S10000x300 ![0, 1] bcast_S1x300_S10000x300_0_1 : (⟨S1x300, .f32⟩ : BufTy).Contents (Elt F) → (⟨S10000x300, .f32⟩ : BufTy).Contents (Elt F)),
    StableHlo.binary main_v634 main_v639 main_v640 (Host.divf : (⟨S10000x300, .f32⟩ : BufTy).Contents (Elt F) → (⟨S10000x300, .f32⟩ : BufTy).Contents (Elt F) → (⟨S10000x300, .f32⟩ : BufTy).Contents (Elt F)),
    StableHlo.unary main_v625 main_v641 (broadcastInDim S1x300 ![1] bcast_S300_S1x300_1 : (⟨S300, .f32⟩ : BufTy).Contents (Elt F) → (⟨S1x300, .f32⟩ : BufTy).Contents (Elt F)),
    StableHlo.unary main_v641 main_v642 (broadcastInDim S10000x300 ![0, 1] bcast_S1x300_S10000x300_0_1 : (⟨S1x300, .f32⟩ : BufTy).Contents (Elt F) → (⟨S10000x300, .f32⟩ : BufTy).Contents (Elt F)),
    StableHlo.binary main_v640 main_v642 main_v643 (mulf : (⟨S10000x300, .f32⟩ : BufTy).Contents (Elt F) → (⟨S10000x300, .f32⟩ : BufTy).Contents (Elt F) → (⟨S10000x300, .f32⟩ : BufTy).Contents (Elt F)),
    StableHlo.unary main_v627 main_v644 (broadcastInDim S1x300 ![1] bcast_S300_S1x300_1 : (⟨S300, .f32⟩ : BufTy).Contents (Elt F) → (⟨S1x300, .f32⟩ : BufTy).Contents (Elt F)),
    StableHlo.unary main_v644 main_v645 (broadcastInDim S10000x300 ![0, 1] bcast_S1x300_S10000x300_0_1 : (⟨S1x300, .f32⟩ : BufTy).Contents (Elt F) → (⟨S10000x300, .f32⟩ : BufTy).Contents (Elt F)),
    StableHlo.binary main_v643 main_v645 main_v646 (addf : (⟨S10000x300, .f32⟩ : BufTy).Contents (Elt F) → (⟨S10000x300, .f32⟩ : BufTy).Contents (Elt F) → (⟨S10000x300, .f32⟩ : BufTy).Contents (Elt F)),
    StableHlo.nullary main_cst_98 (constant S_ .f32 0x00000000#32),
    StableHlo.unary main_cst_98 main_v647 (broadcastInDim S2000x300 ![] bcast_S_S2000x300 : (⟨S_, .f32⟩ : BufTy).Contents (Elt F) → (⟨S2000x300, .f32⟩ : BufTy).Contents (Elt F)),
    StableHlo.unary main_arg3 main_v648 (broadcastInDim S10000x1 ![0] bcast_S10000_S10000x1_0 : (⟨S10000, .i32⟩ : BufTy).Contents (Elt F) → (⟨S10000x1, .i32⟩ : BufTy).Contents (Elt F)),
    StableHlo.ternary main_v647 main_v648 main_v646 main_v649 ((fun x i u => Host.scatterAdd scatter_S2000x300_S10000x1_S10000x300_1_0_0_1 x i u) : (⟨S2000x300, .f32⟩ : BufTy).Contents (Elt F) → (⟨S10000x1, .i32⟩ : BufTy).Contents (Elt F) → (⟨S10000x300, .f32⟩ : BufTy).Contents (Elt F) → (⟨S2000x300, .f32⟩ : BufTy).Contents (Elt F)),
    StableHlo.nullary main_cst_99 (constant S_ .f32 0x3F800000#32),
    StableHlo.unary main_cst_99 main_v650 (broadcastInDim S10000x1 ![] bcast_S_S10000x1 : (⟨S_, .f32⟩ : BufTy).Contents (Elt F) → (⟨S10000x1, .f32⟩ : BufTy).Contents (Elt F)),
    StableHlo.nullary main_cst_100 (constant S_ .f32 0x00000000#32),
    StableHlo.unary main_cst_100 main_v651 (broadcastInDim S2000x1 ![] bcast_S_S2000x1 : (⟨S_, .f32⟩ : BufTy).Contents (Elt F) → (⟨S2000x1, .f32⟩ : BufTy).Contents (Elt F)),
    StableHlo.unary main_arg3 main_v652 (broadcastInDim S10000x1 ![0] bcast_S10000_S10000x1_0 : (⟨S10000, .i32⟩ : BufTy).Contents (Elt F) → (⟨S10000x1, .i32⟩ : BufTy).Contents (Elt F)),
    StableHlo.ternary main_v651 main_v652 main_v650 main_v653 ((fun x i u => Host.scatterAdd scatter_S2000x1_S10000x1_S10000x1_1_0_0_1 x i u) : (⟨S2000x1, .f32⟩ : BufTy).Contents (Elt F) → (⟨S10000x1, .i32⟩ : BufTy).Contents (Elt F) → (⟨S10000x1, .f32⟩ : BufTy).Contents (Elt F) → (⟨S2000x1, .f32⟩ : BufTy).Contents (Elt F)),
    StableHlo.nullary main_cst_101 (constant S_ .f32 0x3F800000#32) ]
theorem main_part12_ops2_sub : (main_part12_ops2 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub ..⟩
theorem main_part12_ops2_fresh : (main_part12_ops2 : List (HloOp τ sig (Elt F))).Forall fun op => op.fresh = ∅ := by
  simp only [List.Forall]; repeat' constructor
theorem main_part12_ops2_writes : StableHlo.HostSim.WritesFrom 1083 (main_part12_ops2 : List (HloOp τ sig (Elt F))) := by
  repeat (first | exact .nil _ | refine .cons ⟨_, rfl, rfl, rfl⟩ ?_)
abbrev main_part12_ops3 : List (HloOp τ sig (Elt F)) :=
  [ StableHlo.TRef.unary (.of main_cst_101 : StableHlo.TRef sig ⟨S_, .f32⟩) (.of main_call34_v0 : StableHlo.TRef sig ⟨S_, .f32⟩) id,
    StableHlo.TRef.unary (.of main_call34_v0 : StableHlo.TRef sig ⟨S_, .f32⟩) (.of main_call34_v1 : StableHlo.TRef sig ⟨S2000x1, .f32⟩) (broadcastInDim S2000x1 ![] bcast_S_S2000x1),
    StableHlo.TRef.binary (.of main_call34_v1 : StableHlo.TRef sig ⟨S2000x1, .f32⟩) (.of main_v653 : StableHlo.TRef sig ⟨S2000x1, .f32⟩) (.of main_v654 : StableHlo.TRef sig ⟨S2000x1, .f32⟩) maximumf ]
theorem main_part12_ops3_sub : (main_part12_ops3 : List (HloOp τ sig (Elt F))).Forall fun op => op.bufs ⊆ StableHlo.tcRefs τ sig :=
  ⟨StableHlo.unary_bufs_sub .., StableHlo.unary_bufs_sub .., StableHlo.binary_bufs_sub ..⟩
theorem main_part12_ops3_fresh : (main_part12_ops3 : List (HloOp τ sig (Elt F))).Forall fun op => op.fresh = ∅ := by
  simp only [List.Forall]; repeat' constructor
theorem main_part12_ops3_writes : StableHlo.HostSim.WritesFrom 1110 (main_part12_ops3 : List (HloOp τ sig (Elt F))) := by
  repeat (first | exact .nil _ | refine .cons ⟨_, rfl, rfl, rfl⟩ ?_)
abbrev main_part12_ops4 : List (HloOp τ sig (Elt F)) :=
  [ StableHlo.unary main_v654 main_v655 (broadcastInDim S2000x300 ![0, 1] bcast_S2000x1_S2000x300_0_1 : (⟨S2000x1, .f32⟩ : BufTy).Contents (Elt F) → (⟨S2000x300, .f32⟩ : BufTy).Contents (Elt F)),
    StableHlo.binary main_v649 main_v655 main_v656 (Host.divf : (⟨S2000x300, .f32⟩ : BufTy).Contents (Elt F) → (⟨S2000x300, .f32⟩ : BufTy).Contents (Elt F) → (⟨S2000x300, .f32⟩ : BufTy).Contents (Elt F)),
    StableHlo.nullary main_cst_102 (constant S_ .f32 0x00000000#32),
    StableHlo.unary main_cst_102 main_v657 (broadcastInDim S64x300 ![] bcast_S_S64x300 : (⟨S_, .f32⟩ : BufTy).Contents (Elt F) → (⟨S64x300, .f32⟩ : BufTy).Contents (Elt F)),
    StableHlo.unary main_arg4 main_v658 (broadcastInDim S2000x1 ![0] bcast_S2000_S2000x1_0 : (⟨S2000, .i32⟩ : BufTy).Contents (Elt F) → (⟨S2000x1, .i32⟩ : BufTy).Contents (Elt F)),
    StableHlo.ternary main_v657 main_v658 main_v656 main_v659 ((fun x i u => Host.scatterAdd scatter_S64x300_S2000x1_S2000x300_1_0_0_1 x i u) : (⟨S64x300, .f32⟩ : BufTy).Contents (Elt F) → (⟨S2000x1, .i32⟩ : BufTy).Contents (Elt F) → (⟨S2000x300, .f32⟩ : BufTy).Contents (Elt F) → (⟨S64x300, .f32⟩ : BufTy).Contents (Elt F)),
    StableHlo.nullary main_cst_103 (constant S_ .f32 0x3F800000#32),
    StableHlo.unary main_cst_103 main_v660 (broadcastInDim S2000x1 ![] bcast_S_S2000x1 : (⟨S_, .f32⟩ : BufTy).Contents (Elt F) → (⟨S2000x1, .f32⟩ : BufTy).Contents (Elt F)),
    StableHlo.nullary main_cst_104 (constant S_ .f32 0x00000000#32),
    StableHlo.unary main_cst_104 main_v661 (broadcastInDim S64x1 ![] bcast_S_S64x1 : (⟨S_, .f32⟩ : BufTy).Contents (Elt F) → (⟨S64x1, .f32⟩ : BufTy).Contents (Elt F)),
    StableHlo.unary main_arg4 main_v662 (broadcastInDim S2000x1 ![0] bcast_S2000_S2000x1_0 : (⟨S2000, .i32⟩ : BufTy).Contents (Elt F) → (⟨S2000x1, .i32⟩ : BufTy).Contents (Elt F)),
    StableHlo.ternary main_v661 main_v662 main_v660 main_v663 ((fun x i u => Host.scatterAdd scatter_S64x1_S2000x1_S2000x1_1_0_0_1 x i u) : (⟨S64x1, .f32⟩ : BufTy).Contents (Elt F) → (⟨S2000x1, .i32⟩ : BufTy).Contents (Elt F) → (⟨S2000x1, .f32⟩ : BufTy).Contents (Elt F) → (⟨S64x1, .f32⟩ : BufTy).Contents (Elt F)),
    StableHlo.nullary main_cst_105 (constant S_ .f32 0x3F800000#32) ]
theorem main_part12_ops4_sub : (main_part12_ops4 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub ..⟩
theorem main_part12_ops4_fresh : (main_part12_ops4 : List (HloOp τ sig (Elt F))).Forall fun op => op.fresh = ∅ := by
  simp only [List.Forall]; repeat' constructor
theorem main_part12_ops4_writes : StableHlo.HostSim.WritesFrom 1113 (main_part12_ops4 : List (HloOp τ sig (Elt F))) := by
  repeat (first | exact .nil _ | refine .cons ⟨_, rfl, rfl, rfl⟩ ?_)
abbrev main_part12_ops5 : List (HloOp τ sig (Elt F)) :=
  [ StableHlo.TRef.unary (.of main_cst_105 : StableHlo.TRef sig ⟨S_, .f32⟩) (.of main_call35_v0 : StableHlo.TRef sig ⟨S_, .f32⟩) id,
    StableHlo.TRef.unary (.of main_call35_v0 : StableHlo.TRef sig ⟨S_, .f32⟩) (.of main_call35_v1 : StableHlo.TRef sig ⟨S64x1, .f32⟩) (broadcastInDim S64x1 ![] bcast_S_S64x1),
    StableHlo.TRef.binary (.of main_call35_v1 : StableHlo.TRef sig ⟨S64x1, .f32⟩) (.of main_v663 : StableHlo.TRef sig ⟨S64x1, .f32⟩) (.of main_v664 : StableHlo.TRef sig ⟨S64x1, .f32⟩) maximumf ]
theorem main_part12_ops5_sub : (main_part12_ops5 : List (HloOp τ sig (Elt F))).Forall fun op => op.bufs ⊆ StableHlo.tcRefs τ sig :=
  ⟨StableHlo.unary_bufs_sub .., StableHlo.unary_bufs_sub .., StableHlo.binary_bufs_sub ..⟩
theorem main_part12_ops5_fresh : (main_part12_ops5 : List (HloOp τ sig (Elt F))).Forall fun op => op.fresh = ∅ := by
  simp only [List.Forall]; repeat' constructor
theorem main_part12_ops5_writes : StableHlo.HostSim.WritesFrom 1126 (main_part12_ops5 : List (HloOp τ sig (Elt F))) := by
  repeat (first | exact .nil _ | refine .cons ⟨_, rfl, rfl, rfl⟩ ?_)
/-- The last two operations of the pooled feature array: the node counts repeated along the features, and the quotient. -/
abbrev lastShared : List (HloOp τ sig (Elt F)) :=
  [ StableHlo.unary main_v664 main_v665 (broadcastInDim S64x300 ![0, 1] bcast_S64x1_S64x300_0_1 : (⟨S64x1, .f32⟩ : BufTy).Contents (Elt F) → (⟨S64x300, .f32⟩ : BufTy).Contents (Elt F)),
    StableHlo.binary main_v659 main_v665 main_v666 (Host.divf : (⟨S64x300, .f32⟩ : BufTy).Contents (Elt F) → (⟨S64x300, .f32⟩ : BufTy).Contents (Elt F) → (⟨S64x300, .f32⟩ : BufTy).Contents (Elt F)) ]
theorem lastShared_sub : (lastShared : List (HloOp τ sig (Elt F))).Forall fun op => op.bufs ⊆ StableHlo.tcRefs τ sig :=
  ⟨StableHlo.unary_bufs_sub .., StableHlo.binary_bufs_sub ..⟩
theorem lastShared_fresh : (lastShared : List (HloOp τ sig (Elt F))).Forall fun op => op.fresh = ∅ := by
  simp only [List.Forall]; repeat' constructor
theorem lastShared_writes : StableHlo.HostSim.WritesFrom 1129 (lastShared : List (HloOp τ sig (Elt F))) := by
  repeat (first | exact .nil _ | refine .cons ⟨_, rfl, rfl, rfl⟩ ?_)
/-- The prediction head: the product with the weights, the bias as a row, the row repeated, the sum. -/
abbrev tailOps : List (HloOp τ sig (Elt F)) :=
  [ StableHlo.binary main_v666 main_arg16 main_v667 ((fun l r => Host.dotGeneral dot_S64x300_S300x10_S64x10_1_0_0_1_n_n none l r) : (⟨S64x300, .f32⟩ : BufTy).Contents (Elt F) → (⟨S300x10, .f32⟩ : BufTy).Contents (Elt F) → (⟨S64x10, .f32⟩ : BufTy).Contents (Elt F)),
    StableHlo.unary main_arg17 main_v668 (broadcastInDim S1x10 ![1] bcast_S10_S1x10_1 : (⟨S10, .f32⟩ : BufTy).Contents (Elt F) → (⟨S1x10, .f32⟩ : BufTy).Contents (Elt F)),
    StableHlo.unary main_v668 main_v669 (broadcastInDim S64x10 ![0, 1] bcast_S1x10_S64x10_0_1 : (⟨S1x10, .f32⟩ : BufTy).Contents (Elt F) → (⟨S64x10, .f32⟩ : BufTy).Contents (Elt F)),
    StableHlo.binary main_v667 main_v669 main_v670 (addf : (⟨S64x10, .f32⟩ : BufTy).Contents (Elt F) → (⟨S64x10, .f32⟩ : BufTy).Contents (Elt F) → (⟨S64x10, .f32⟩ : BufTy).Contents (Elt F)) ]
theorem tailOps_sub : (tailOps : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
theorem tailOps_fresh : (tailOps : List (HloOp τ sig (Elt F))).Forall fun op => op.fresh = ∅ := by
  simp only [List.Forall]; repeat' constructor
theorem tailOps_writes : StableHlo.HostSim.WritesFrom 1131 (tailOps : List (HloOp τ sig (Elt F))) := by
  repeat (first | exact .nil _ | refine .cons ⟨_, rfl, rfl, rfl⟩ ?_)
abbrev main_part12_ops6 : List (HloOp τ sig (Elt F)) := lastShared ++ tailOps

/-! ## Each window is the sequence of its operations -/

theorem main_part0_chain (c : Dev nD) : main_part0 (F := F) c = (Pipeline.chainK
  [ StableHlo.seq main_part0_ops0,
    StableHlo.seq main_part0_ops1 ]
  (StableHlo.seq main_part0_ops2) : Prog (TpuEff nD τ sig (Elt F) (Pipeline.Sig Λ₀ (Fin 0) fun p => (pcfgs (F := F) p).Adm) .tc) PUnit) := by
  chain_rfl
theorem main_part1_chain (c : Dev nD) : main_part1 (F := F) c = (Pipeline.chainK
  [ StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6,
    StableHlo.seq main_part1_ops7 ]
  (StableHlo.seq main_part1_ops8) : Prog (TpuEff nD τ sig (Elt F) (Pipeline.Sig Λ₀ (Fin 0) fun p => (pcfgs (F := F) p).Adm) .tc) PUnit) := by
  chain_rfl
theorem main_part2_chain (c : Dev nD) : main_part2 (F := F) c = (Pipeline.chainK
  [ StableHlo.seq main_part2_ops0,
    StableHlo.seq main_part2_ops1,
    StableHlo.seq main_part2_ops2,
    StableHlo.seq main_part2_ops3 ]
  (StableHlo.seq main_part2_ops4) : Prog (TpuEff nD τ sig (Elt F) (Pipeline.Sig Λ₀ (Fin 0) fun p => (pcfgs (F := F) p).Adm) .tc) PUnit) := by
  chain_rfl
theorem main_part3_chain (c : Dev nD) : main_part3 (F := F) c = (Pipeline.chainK
  [ StableHlo.seq main_part3_ops0,
    StableHlo.seq main_part3_ops1,
    StableHlo.seq main_part3_ops2,
    StableHlo.seq main_part3_ops3,
    StableHlo.seq main_part3_ops4,
    StableHlo.seq main_part3_ops5 ]
  (StableHlo.seq main_part3_ops6) : Prog (TpuEff nD τ sig (Elt F) (Pipeline.Sig Λ₀ (Fin 0) fun p => (pcfgs (F := F) p).Adm) .tc) PUnit) := by
  chain_rfl
theorem main_part4_chain (c : Dev nD) : main_part4 (F := F) c = (Pipeline.chainK
  [ StableHlo.seq main_part4_ops0,
    StableHlo.seq main_part4_ops1,
    StableHlo.seq main_part4_ops2,
    StableHlo.seq main_part4_ops3,
    StableHlo.seq main_part4_ops4,
    StableHlo.seq main_part4_ops5 ]
  (StableHlo.seq main_part4_ops6) : Prog (TpuEff nD τ sig (Elt F) (Pipeline.Sig Λ₀ (Fin 0) fun p => (pcfgs (F := F) p).Adm) .tc) PUnit) := by
  chain_rfl
theorem main_part5_chain (c : Dev nD) : main_part5 (F := F) c = (Pipeline.chainK
  [ StableHlo.seq main_part5_ops0,
    StableHlo.seq main_part5_ops1,
    StableHlo.seq main_part5_ops2,
    StableHlo.seq main_part5_ops3,
    StableHlo.seq main_part5_ops4,
    StableHlo.seq main_part5_ops5 ]
  (StableHlo.seq main_part5_ops6) : Prog (TpuEff nD τ sig (Elt F) (Pipeline.Sig Λ₀ (Fin 0) fun p => (pcfgs (F := F) p).Adm) .tc) PUnit) := by
  chain_rfl
theorem main_part6_chain (c : Dev nD) : main_part6 (F := F) c = (Pipeline.chainK
  [ StableHlo.seq main_part6_ops0,
    StableHlo.seq main_part6_ops1,
    StableHlo.seq main_part6_ops2,
    StableHlo.seq main_part6_ops3,
    StableHlo.seq main_part6_ops4,
    StableHlo.seq main_part6_ops5 ]
  (StableHlo.seq main_part6_ops6) : Prog (TpuEff nD τ sig (Elt F) (Pipeline.Sig Λ₀ (Fin 0) fun p => (pcfgs (F := F) p).Adm) .tc) PUnit) := by
  chain_rfl
theorem main_part7_chain (c : Dev nD) : main_part7 (F := F) c = (Pipeline.chainK
  [ StableHlo.seq main_part7_ops0,
    StableHlo.seq main_part7_ops1,
    StableHlo.seq main_part7_ops2,
    StableHlo.seq main_part7_ops3 ]
  (StableHlo.seq main_part7_ops4) : Prog (TpuEff nD τ sig (Elt F) (Pipeline.Sig Λ₀ (Fin 0) fun p => (pcfgs (F := F) p).Adm) .tc) PUnit) := by
  chain_rfl
theorem main_part8_chain (c : Dev nD) : main_part8 (F := F) c = (Pipeline.chainK
  [ StableHlo.seq main_part8_ops0,
    StableHlo.seq main_part8_ops1,
    StableHlo.seq main_part8_ops2,
    StableHlo.seq main_part8_ops3,
    StableHlo.seq main_part8_ops4,
    StableHlo.seq main_part8_ops5,
    StableHlo.seq main_part8_ops6,
    StableHlo.seq main_part8_ops7 ]
  (StableHlo.seq main_part8_ops8) : Prog (TpuEff nD τ sig (Elt F) (Pipeline.Sig Λ₀ (Fin 0) fun p => (pcfgs (F := F) p).Adm) .tc) PUnit) := by
  chain_rfl
theorem main_part9_chain (c : Dev nD) : main_part9 (F := F) c = (Pipeline.chainK
  [ StableHlo.seq main_part9_ops0,
    StableHlo.seq main_part9_ops1,
    StableHlo.seq main_part9_ops2,
    StableHlo.seq main_part9_ops3 ]
  (StableHlo.seq main_part9_ops4) : Prog (TpuEff nD τ sig (Elt F) (Pipeline.Sig Λ₀ (Fin 0) fun p => (pcfgs (F := F) p).Adm) .tc) PUnit) := by
  chain_rfl
theorem main_part10_chain (c : Dev nD) : main_part10 (F := F) c = (Pipeline.chainK
  [ StableHlo.seq main_part10_ops0,
    StableHlo.seq main_part10_ops1,
    StableHlo.seq main_part10_ops2,
    StableHlo.seq main_part10_ops3,
    StableHlo.seq main_part10_ops4,
    StableHlo.seq main_part10_ops5 ]
  (StableHlo.seq main_part10_ops6) : Prog (TpuEff nD τ sig (Elt F) (Pipeline.Sig Λ₀ (Fin 0) fun p => (pcfgs (F := F) p).Adm) .tc) PUnit) := by
  chain_rfl
theorem main_part11_chain (c : Dev nD) : main_part11 (F := F) c = (Pipeline.chainK
  [ StableHlo.seq main_part11_ops0,
    StableHlo.seq main_part11_ops1,
    StableHlo.seq main_part11_ops2,
    StableHlo.seq main_part11_ops3,
    StableHlo.seq main_part11_ops4,
    StableHlo.seq main_part11_ops5 ]
  (StableHlo.seq main_part11_ops6) : Prog (TpuEff nD τ sig (Elt F) (Pipeline.Sig Λ₀ (Fin 0) fun p => (pcfgs (F := F) p).Adm) .tc) PUnit) := by
  chain_rfl
theorem main_part12_chain (c : Dev nD) : main_part12 (F := F) c = (Pipeline.chain
  [ StableHlo.seq main_part12_ops0,
    StableHlo.seq main_part12_ops1,
    StableHlo.seq main_part12_ops2,
    StableHlo.seq main_part12_ops3,
    StableHlo.seq main_part12_ops4,
    StableHlo.seq main_part12_ops5,
    StableHlo.seq main_part12_ops6 ] : Prog (TpuEff nD τ sig (Elt F) (Pipeline.Sig Λ₀ (Fin 0) fun p => (pcfgs (F := F) p).Adm) .tc) PUnit) := by
  chain_rfl

/-! ## @main is the sequence of all of them -/

theorem main_chain_windows (c : Dev nD) : main (F := F) c = (Pipeline.chain
  [ StableHlo.seq main_part0_ops0,
    StableHlo.seq main_part0_ops1,
    StableHlo.seq main_part0_ops2,
    StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6,
    StableHlo.seq main_part1_ops7,
    StableHlo.seq main_part1_ops8,
    StableHlo.seq main_part2_ops0,
    StableHlo.seq main_part2_ops1,
    StableHlo.seq main_part2_ops2,
    StableHlo.seq main_part2_ops3,
    StableHlo.seq main_part2_ops4,
    StableHlo.seq main_part3_ops0,
    StableHlo.seq main_part3_ops1,
    StableHlo.seq main_part3_ops2,
    StableHlo.seq main_part3_ops3,
    StableHlo.seq main_part3_ops4,
    StableHlo.seq main_part3_ops5,
    StableHlo.seq main_part3_ops6,
    StableHlo.seq main_part4_ops0,
    StableHlo.seq main_part4_ops1,
    StableHlo.seq main_part4_ops2,
    StableHlo.seq main_part4_ops3,
    StableHlo.seq main_part4_ops4,
    StableHlo.seq main_part4_ops5,
    StableHlo.seq main_part4_ops6,
    StableHlo.seq main_part5_ops0,
    StableHlo.seq main_part5_ops1,
    StableHlo.seq main_part5_ops2,
    StableHlo.seq main_part5_ops3,
    StableHlo.seq main_part5_ops4,
    StableHlo.seq main_part5_ops5,
    StableHlo.seq main_part5_ops6,
    StableHlo.seq main_part6_ops0,
    StableHlo.seq main_part6_ops1,
    StableHlo.seq main_part6_ops2,
    StableHlo.seq main_part6_ops3,
    StableHlo.seq main_part6_ops4,
    StableHlo.seq main_part6_ops5,
    StableHlo.seq main_part6_ops6,
    StableHlo.seq main_part7_ops0,
    StableHlo.seq main_part7_ops1,
    StableHlo.seq main_part7_ops2,
    StableHlo.seq main_part7_ops3,
    StableHlo.seq main_part7_ops4,
    StableHlo.seq main_part8_ops0,
    StableHlo.seq main_part8_ops1,
    StableHlo.seq main_part8_ops2,
    StableHlo.seq main_part8_ops3,
    StableHlo.seq main_part8_ops4,
    StableHlo.seq main_part8_ops5,
    StableHlo.seq main_part8_ops6,
    StableHlo.seq main_part8_ops7,
    StableHlo.seq main_part8_ops8,
    StableHlo.seq main_part9_ops0,
    StableHlo.seq main_part9_ops1,
    StableHlo.seq main_part9_ops2,
    StableHlo.seq main_part9_ops3,
    StableHlo.seq main_part9_ops4,
    StableHlo.seq main_part10_ops0,
    StableHlo.seq main_part10_ops1,
    StableHlo.seq main_part10_ops2,
    StableHlo.seq main_part10_ops3,
    StableHlo.seq main_part10_ops4,
    StableHlo.seq main_part10_ops5,
    StableHlo.seq main_part10_ops6,
    StableHlo.seq main_part11_ops0,
    StableHlo.seq main_part11_ops1,
    StableHlo.seq main_part11_ops2,
    StableHlo.seq main_part11_ops3,
    StableHlo.seq main_part11_ops4,
    StableHlo.seq main_part11_ops5,
    StableHlo.seq main_part11_ops6,
    StableHlo.seq main_part12_ops0,
    StableHlo.seq main_part12_ops1,
    StableHlo.seq main_part12_ops2,
    StableHlo.seq main_part12_ops3,
    StableHlo.seq main_part12_ops4,
    StableHlo.seq main_part12_ops5,
    StableHlo.seq main_part12_ops6 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c >>= fun _ => main_part7 (F := F) c >>= fun _ => main_part8 (F := F) c >>= fun _ => main_part9 (F := F) c >>= fun _ => main_part10 (F := F) c >>= fun _ => main_part11 (F := F) c >>= fun _ => main_part12 (F := F) c) = _
  rewrite [main_part12_chain, main_part11_chain, Pipeline.chainK_bind_chain, main_part10_chain, Pipeline.chainK_bind_chain, main_part9_chain, Pipeline.chainK_bind_chain, main_part8_chain, Pipeline.chainK_bind_chain, main_part7_chain, Pipeline.chainK_bind_chain, main_part6_chain, Pipeline.chainK_bind_chain, main_part5_chain, Pipeline.chainK_bind_chain, main_part4_chain, Pipeline.chainK_bind_chain, main_part3_chain, Pipeline.chainK_bind_chain, main_part2_chain, Pipeline.chainK_bind_chain, main_part1_chain, Pipeline.chainK_bind_chain, main_part0_chain, Pipeline.chainK_bind_chain]
  chain_rfl

/-- The windows' operation lists, in order. -/
abbrev pieces : List (List (HloOp τ sig (Elt F))) :=
  [main_part0_ops0, main_part0_ops1, main_part0_ops2, main_part1_ops0, main_part1_ops1, main_part1_ops2, main_part1_ops3, main_part1_ops4, main_part1_ops5, main_part1_ops6, main_part1_ops7, main_part1_ops8, main_part2_ops0, main_part2_ops1, main_part2_ops2, main_part2_ops3, main_part2_ops4, main_part3_ops0, main_part3_ops1, main_part3_ops2, main_part3_ops3, main_part3_ops4, main_part3_ops5, main_part3_ops6, main_part4_ops0, main_part4_ops1, main_part4_ops2, main_part4_ops3, main_part4_ops4, main_part4_ops5, main_part4_ops6, main_part5_ops0, main_part5_ops1, main_part5_ops2, main_part5_ops3, main_part5_ops4, main_part5_ops5, main_part5_ops6, main_part6_ops0, main_part6_ops1, main_part6_ops2, main_part6_ops3, main_part6_ops4, main_part6_ops5, main_part6_ops6, main_part7_ops0, main_part7_ops1, main_part7_ops2, main_part7_ops3, main_part7_ops4, main_part8_ops0, main_part8_ops1, main_part8_ops2, main_part8_ops3, main_part8_ops4, main_part8_ops5, main_part8_ops6, main_part8_ops7, main_part8_ops8, main_part9_ops0, main_part9_ops1, main_part9_ops2, main_part9_ops3, main_part9_ops4, main_part10_ops0, main_part10_ops1, main_part10_ops2, main_part10_ops3, main_part10_ops4, main_part10_ops5, main_part10_ops6, main_part11_ops0, main_part11_ops1, main_part11_ops2, main_part11_ops3, main_part11_ops4, main_part11_ops5, main_part11_ops6, main_part12_ops0, main_part12_ops1, main_part12_ops2, main_part12_ops3, main_part12_ops4, main_part12_ops5, main_part12_ops6]

/-- All of @main's operations, in order. -/
abbrev allOps : List (HloOp τ sig (Elt F)) := List.flatten pieces

/-- Sequences run one after the other are the sequence of the concatenation. -/
theorem chain_seq (L : List (List (HloOp τ sig (Elt F)))) :
    (Pipeline.chain (L.map fun l => (StableHlo.seq l : Prog (TpuEff nD τ sig (Elt F) (Pipeline.Sig Λ₀ (Fin 0) fun p => (pcfgs (F := F) p).Adm) .tc) PUnit)))
      = StableHlo.seq L.flatten := by
  induction L with
  | nil => rfl
  | cons a L ih => rw [List.map_cons, Pipeline.chain_cons, ih, List.flatten_cons, StableHlo.seq_append]

theorem main_eq (c : Dev nD) : main (F := F) c = StableHlo.seq allOps :=
  (main_chain_windows c).trans (chain_seq pieces)

private theorem fa {α : Type} {p : α → Prop} {a b : List α} (ha : a.Forall p) (hb : b.Forall p) : (a ++ b).Forall p :=
  List.forall_append.mpr ⟨ha, hb⟩

theorem main_part12_ops6_sub : (main_part12_ops6 : List (HloOp τ sig (Elt F))).Forall fun op => op.bufs ⊆ StableHlo.tcRefs τ sig :=
  fa lastShared_sub tailOps_sub
theorem main_part12_ops6_fresh : (main_part12_ops6 : List (HloOp τ sig (Elt F))).Forall fun op => op.fresh = ∅ :=
  fa lastShared_fresh tailOps_fresh
theorem main_part12_ops6_writes : StableHlo.HostSim.WritesFrom 1129 (main_part12_ops6 : List (HloOp τ sig (Elt F))) :=
  lastShared_writes.append rfl tailOps_writes

theorem allOps_sub : (allOps : List (HloOp τ sig (Elt F))).Forall fun op => op.bufs ⊆ StableHlo.tcRefs τ sig := by
  simp only [allOps, pieces, List.flatten_cons, List.flatten_nil]
  exact (fa main_part0_ops0_sub (fa main_part0_ops1_sub (fa main_part0_ops2_sub (fa main_part1_ops0_sub (fa main_part1_ops1_sub (fa main_part1_ops2_sub (fa main_part1_ops3_sub (fa main_part1_ops4_sub (fa main_part1_ops5_sub (fa main_part1_ops6_sub (fa main_part1_ops7_sub (fa main_part1_ops8_sub (fa main_part2_ops0_sub (fa main_part2_ops1_sub (fa main_part2_ops2_sub (fa main_part2_ops3_sub (fa main_part2_ops4_sub (fa main_part3_ops0_sub (fa main_part3_ops1_sub (fa main_part3_ops2_sub (fa main_part3_ops3_sub (fa main_part3_ops4_sub (fa main_part3_ops5_sub (fa main_part3_ops6_sub (fa main_part4_ops0_sub (fa main_part4_ops1_sub (fa main_part4_ops2_sub (fa main_part4_ops3_sub (fa main_part4_ops4_sub (fa main_part4_ops5_sub (fa main_part4_ops6_sub (fa main_part5_ops0_sub (fa main_part5_ops1_sub (fa main_part5_ops2_sub (fa main_part5_ops3_sub (fa main_part5_ops4_sub (fa main_part5_ops5_sub (fa main_part5_ops6_sub (fa main_part6_ops0_sub (fa main_part6_ops1_sub (fa main_part6_ops2_sub (fa main_part6_ops3_sub (fa main_part6_ops4_sub (fa main_part6_ops5_sub (fa main_part6_ops6_sub (fa main_part7_ops0_sub (fa main_part7_ops1_sub (fa main_part7_ops2_sub (fa main_part7_ops3_sub (fa main_part7_ops4_sub (fa main_part8_ops0_sub (fa main_part8_ops1_sub (fa main_part8_ops2_sub (fa main_part8_ops3_sub (fa main_part8_ops4_sub (fa main_part8_ops5_sub (fa main_part8_ops6_sub (fa main_part8_ops7_sub (fa main_part8_ops8_sub (fa main_part9_ops0_sub (fa main_part9_ops1_sub (fa main_part9_ops2_sub (fa main_part9_ops3_sub (fa main_part9_ops4_sub (fa main_part10_ops0_sub (fa main_part10_ops1_sub (fa main_part10_ops2_sub (fa main_part10_ops3_sub (fa main_part10_ops4_sub (fa main_part10_ops5_sub (fa main_part10_ops6_sub (fa main_part11_ops0_sub (fa main_part11_ops1_sub (fa main_part11_ops2_sub (fa main_part11_ops3_sub (fa main_part11_ops4_sub (fa main_part11_ops5_sub (fa main_part11_ops6_sub (fa main_part12_ops0_sub (fa main_part12_ops1_sub (fa main_part12_ops2_sub (fa main_part12_ops3_sub (fa main_part12_ops4_sub (fa main_part12_ops5_sub (fa main_part12_ops6_sub trivial)))))))))))))))))))))))))))))))))))))))))))))))))))))))))))))))))))))))))))))))))))))

theorem allOps_fresh : (allOps : List (HloOp τ sig (Elt F))).Forall fun op => op.fresh = ∅ := by
  simp only [allOps, pieces, List.flatten_cons, List.flatten_nil]
  exact (fa main_part0_ops0_fresh (fa main_part0_ops1_fresh (fa main_part0_ops2_fresh (fa main_part1_ops0_fresh (fa main_part1_ops1_fresh (fa main_part1_ops2_fresh (fa main_part1_ops3_fresh (fa main_part1_ops4_fresh (fa main_part1_ops5_fresh (fa main_part1_ops6_fresh (fa main_part1_ops7_fresh (fa main_part1_ops8_fresh (fa main_part2_ops0_fresh (fa main_part2_ops1_fresh (fa main_part2_ops2_fresh (fa main_part2_ops3_fresh (fa main_part2_ops4_fresh (fa main_part3_ops0_fresh (fa main_part3_ops1_fresh (fa main_part3_ops2_fresh (fa main_part3_ops3_fresh (fa main_part3_ops4_fresh (fa main_part3_ops5_fresh (fa main_part3_ops6_fresh (fa main_part4_ops0_fresh (fa main_part4_ops1_fresh (fa main_part4_ops2_fresh (fa main_part4_ops3_fresh (fa main_part4_ops4_fresh (fa main_part4_ops5_fresh (fa main_part4_ops6_fresh (fa main_part5_ops0_fresh (fa main_part5_ops1_fresh (fa main_part5_ops2_fresh (fa main_part5_ops3_fresh (fa main_part5_ops4_fresh (fa main_part5_ops5_fresh (fa main_part5_ops6_fresh (fa main_part6_ops0_fresh (fa main_part6_ops1_fresh (fa main_part6_ops2_fresh (fa main_part6_ops3_fresh (fa main_part6_ops4_fresh (fa main_part6_ops5_fresh (fa main_part6_ops6_fresh (fa main_part7_ops0_fresh (fa main_part7_ops1_fresh (fa main_part7_ops2_fresh (fa main_part7_ops3_fresh (fa main_part7_ops4_fresh (fa main_part8_ops0_fresh (fa main_part8_ops1_fresh (fa main_part8_ops2_fresh (fa main_part8_ops3_fresh (fa main_part8_ops4_fresh (fa main_part8_ops5_fresh (fa main_part8_ops6_fresh (fa main_part8_ops7_fresh (fa main_part8_ops8_fresh (fa main_part9_ops0_fresh (fa main_part9_ops1_fresh (fa main_part9_ops2_fresh (fa main_part9_ops3_fresh (fa main_part9_ops4_fresh (fa main_part10_ops0_fresh (fa main_part10_ops1_fresh (fa main_part10_ops2_fresh (fa main_part10_ops3_fresh (fa main_part10_ops4_fresh (fa main_part10_ops5_fresh (fa main_part10_ops6_fresh (fa main_part11_ops0_fresh (fa main_part11_ops1_fresh (fa main_part11_ops2_fresh (fa main_part11_ops3_fresh (fa main_part11_ops4_fresh (fa main_part11_ops5_fresh (fa main_part11_ops6_fresh (fa main_part12_ops0_fresh (fa main_part12_ops1_fresh (fa main_part12_ops2_fresh (fa main_part12_ops3_fresh (fa main_part12_ops4_fresh (fa main_part12_ops5_fresh (fa main_part12_ops6_fresh trivial)))))))))))))))))))))))))))))))))))))))))))))))))))))))))))))))))))))))))))))))))))))

/-- The operation at position k writes the HBM buffer of index 18 + k. -/
theorem allWrites : StableHlo.HostSim.WritesFrom 18 (allOps : List (HloOp τ sig (Elt F))) := by
  simp only [allOps, pieces, List.flatten_cons, List.flatten_nil]
  exact (main_part0_ops0_writes.append rfl (main_part0_ops1_writes.append rfl (main_part0_ops2_writes.append rfl (main_part1_ops0_writes.append rfl (main_part1_ops1_writes.append rfl (main_part1_ops2_writes.append rfl (main_part1_ops3_writes.append rfl (main_part1_ops4_writes.append rfl (main_part1_ops5_writes.append rfl (main_part1_ops6_writes.append rfl (main_part1_ops7_writes.append rfl (main_part1_ops8_writes.append rfl (main_part2_ops0_writes.append rfl (main_part2_ops1_writes.append rfl (main_part2_ops2_writes.append rfl (main_part2_ops3_writes.append rfl (main_part2_ops4_writes.append rfl (main_part3_ops0_writes.append rfl (main_part3_ops1_writes.append rfl (main_part3_ops2_writes.append rfl (main_part3_ops3_writes.append rfl (main_part3_ops4_writes.append rfl (main_part3_ops5_writes.append rfl (main_part3_ops6_writes.append rfl (main_part4_ops0_writes.append rfl (main_part4_ops1_writes.append rfl (main_part4_ops2_writes.append rfl (main_part4_ops3_writes.append rfl (main_part4_ops4_writes.append rfl (main_part4_ops5_writes.append rfl (main_part4_ops6_writes.append rfl (main_part5_ops0_writes.append rfl (main_part5_ops1_writes.append rfl (main_part5_ops2_writes.append rfl (main_part5_ops3_writes.append rfl (main_part5_ops4_writes.append rfl (main_part5_ops5_writes.append rfl (main_part5_ops6_writes.append rfl (main_part6_ops0_writes.append rfl (main_part6_ops1_writes.append rfl (main_part6_ops2_writes.append rfl (main_part6_ops3_writes.append rfl (main_part6_ops4_writes.append rfl (main_part6_ops5_writes.append rfl (main_part6_ops6_writes.append rfl (main_part7_ops0_writes.append rfl (main_part7_ops1_writes.append rfl (main_part7_ops2_writes.append rfl (main_part7_ops3_writes.append rfl (main_part7_ops4_writes.append rfl (main_part8_ops0_writes.append rfl (main_part8_ops1_writes.append rfl (main_part8_ops2_writes.append rfl (main_part8_ops3_writes.append rfl (main_part8_ops4_writes.append rfl (main_part8_ops5_writes.append rfl (main_part8_ops6_writes.append rfl (main_part8_ops7_writes.append rfl (main_part8_ops8_writes.append rfl (main_part9_ops0_writes.append rfl (main_part9_ops1_writes.append rfl (main_part9_ops2_writes.append rfl (main_part9_ops3_writes.append rfl (main_part9_ops4_writes.append rfl (main_part10_ops0_writes.append rfl (main_part10_ops1_writes.append rfl (main_part10_ops2_writes.append rfl (main_part10_ops3_writes.append rfl (main_part10_ops4_writes.append rfl (main_part10_ops5_writes.append rfl (main_part10_ops6_writes.append rfl (main_part11_ops0_writes.append rfl (main_part11_ops1_writes.append rfl (main_part11_ops2_writes.append rfl (main_part11_ops3_writes.append rfl (main_part11_ops4_writes.append rfl (main_part11_ops5_writes.append rfl (main_part11_ops6_writes.append rfl (main_part12_ops0_writes.append rfl (main_part12_ops1_writes.append rfl (main_part12_ops2_writes.append rfl (main_part12_ops3_writes.append rfl (main_part12_ops4_writes.append rfl (main_part12_ops5_writes.append rfl (main_part12_ops6_writes.append rfl (.nil _))))))))))))))))))))))))))))))))))))))))))))))))))))))))))))))))))))))))))))))))))))))

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates, each buffer ending at the operations' fold over its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after allOps (StableHlo.launchContents m d) (Proc.devRef .tc b) :=
  StableHlo.run_seq scopedRefs_eq scopedSems_eq defs main (fun _ => allOps) main_eq (fun _ => allOps_sub) m ρ
    (fun _ op hop => List.forall_iff_forall_mem.mp allOps_fresh op hop)

/-- An argument array (an HBM buffer of index below 18) is written by no operation. -/
theorem kept (m : (ℓ : Loc nD τ sig) → Buf (Elt F) ℓ) (d : Dev nD) (r : Ref sig .tc) (hs : r.space = .hbm) (hi : r.idx.val < 18) :
    StableHlo.after allOps (StableHlo.launchContents m d) (Proc.devRef .tc r) = m ((d.tc : Thread nD τ).loc r) :=
  (allWrites (F := F)).keeps _ r hs hi

/-! ## The operations up to the pooled features, and the head's four -/

abbrev sharedPieces : List (List (HloOp τ sig (Elt F))) :=
  [main_part0_ops0, main_part0_ops1, main_part0_ops2, main_part1_ops0, main_part1_ops1, main_part1_ops2, main_part1_ops3, main_part1_ops4, main_part1_ops5, main_part1_ops6, main_part1_ops7, main_part1_ops8, main_part2_ops0, main_part2_ops1, main_part2_ops2, main_part2_ops3, main_part2_ops4, main_part3_ops0, main_part3_ops1, main_part3_ops2, main_part3_ops3, main_part3_ops4, main_part3_ops5, main_part3_ops6, main_part4_ops0, main_part4_ops1, main_part4_ops2, main_part4_ops3, main_part4_ops4, main_part4_ops5, main_part4_ops6, main_part5_ops0, main_part5_ops1, main_part5_ops2, main_part5_ops3, main_part5_ops4, main_part5_ops5, main_part5_ops6, main_part6_ops0, main_part6_ops1, main_part6_ops2, main_part6_ops3, main_part6_ops4, main_part6_ops5, main_part6_ops6, main_part7_ops0, main_part7_ops1, main_part7_ops2, main_part7_ops3, main_part7_ops4, main_part8_ops0, main_part8_ops1, main_part8_ops2, main_part8_ops3, main_part8_ops4, main_part8_ops5, main_part8_ops6, main_part8_ops7, main_part8_ops8, main_part9_ops0, main_part9_ops1, main_part9_ops2, main_part9_ops3, main_part9_ops4, main_part10_ops0, main_part10_ops1, main_part10_ops2, main_part10_ops3, main_part10_ops4, main_part10_ops5, main_part10_ops6, main_part11_ops0, main_part11_ops1, main_part11_ops2, main_part11_ops3, main_part11_ops4, main_part11_ops5, main_part11_ops6, main_part12_ops0, main_part12_ops1, main_part12_ops2, main_part12_ops3, main_part12_ops4, main_part12_ops5, lastShared]

/-- The 1113 operations that compute the pooled feature array. -/
abbrev sharedOps : List (HloOp τ sig (Elt F)) := List.flatten sharedPieces

theorem allOps_eq : (allOps : List (HloOp τ sig (Elt F))) = sharedOps ++ tailOps := by
  simp only [allOps, sharedOps, pieces, sharedPieces, main_part12_ops6, List.flatten_cons, List.flatten_nil, List.append_nil, List.append_assoc]

end Cert.ReferenceIdeal.Hand

end
-- ==== Proof.HeadSpec.lean ====
/-
  The prediction head at the extended reals, entry by entry.

  From a pooled feature array `g` (64 graphs by 300 features), a weight array `w` (300 by 10 tasks) and a bias kept
  as a row `brow` (1 by 10), entry `(a, b)` of the head is the sum over the 300 features `c` of `g[a,c] · w[c,b]`, plus
  `brow[0,b]`.
-/
import Idealize.ShloMosaic.PureOps.Ideal
import Idealize.ShloMosaic.Lib.ValueIdx

noncomputable section

open scoped BigOperators

namespace Cert.Head

open Idealize.ShloMosaic Idealize.ShloMosaic.ValueIdx

/-- Entry `i = (a, b)` of the head: `∑ c, g[a,c] · w[c,b] + brow[0,b]`. -/
def head (g : (⟨2, ![64, 300]⟩ : Shape).Idx → EReal) (w : (⟨2, ![300, 10]⟩ : Shape).Idx → EReal)
    (brow : (⟨2, ![1, 10]⟩ : Shape).Idx → EReal) : (⟨2, ![64, 10]⟩ : Shape).Idx → EReal :=
  fun i => (∑ c : Fin 300, g (ix2 (i 0) c) * w (ix2 c (i 1))) + brow (ix2 (0 : Fin 1) (i 1))

theorem head_apply (g : (⟨2, ![64, 300]⟩ : Shape).Idx → EReal) (w : (⟨2, ![300, 10]⟩ : Shape).Idx → EReal)
    (brow : (⟨2, ![1, 10]⟩ : Shape).Idx → EReal) (a : Fin 64) (b : Fin 10) :
    head g w brow (ix2 a b) = (∑ c : Fin 300, g (ix2 a c) * w (ix2 c b)) + brow (ix2 (0 : Fin 1) b) := rfl

end Cert.Head

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.LibDenseRead.lean ====
/-
  Dense-layer pieces on the host read at one entry, at the extended reals.

  * The host's plain matrix product of an `m × k` by a `k × n` array holds at entry `(a, b)` the sum over the
    contracted position `c` of `A[a,c] · B[c,b]` (no accumulator, whatever the schedule key).
  * A bias vector `[n]` placed as the row `[1, n]` and repeated down `m` rows holds at `(p, c)` the vector's entry `c`.
  * The zero word filled into any shape holds `0` at every index.
-/
import Idealize.ShloMosaic.PureOps.Ideal.Laws
import Idealize.ShloMosaic.Lib.ValueIdx
import Idealize.ShloMosaic.Lib.Pipeline.Value
import proofs.«141498_g68332929679506_cont_9to1c4b_488_2_alg».proof.Proof.LibPlainMatmul

noncomputable section

open scoped BigOperators

namespace Idealize.ShloMosaic.DenseRead

open Idealize.ShloMosaic Idealize.ShloMosaic.ValueIdx Idealize.ShloMosaic.PlainMatmul

variable {m k n : Nat}

/-- **The host's plain product at an entry**: `∑ c, A[a,c] · B[c,b]`. -/
theorem dotGeneral_apply {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

/-- A bias vector placed as a row and repeated down the rows, at `(p, c)`: the vector's entry `c`. -/
theorem biasRows_apply {α : Type} (x : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2)) (p : Fin m) (c : Fin n) :
    broadcastInDim ⟨2, ![m, n]⟩ ![0, 1] h2 (broadcastInDim ⟨2, ![1, n]⟩ ![1] h1 x) (ix2 p c) = x (ix1 c) := by
  refine (broadcastInDim_apply _ h2 _ (ix2 p c) (ix2 (0 : Fin 1) c) (fun a => ?_)).trans
    (broadcastInDim_apply _ h1 x (ix2 (0 : Fin 1) c) (ix1 c) (fun a => ?_))
  · match a with
    | ⟨0, _⟩ => show 0 = if (1 : Nat) = 1 then 0 else p.val; rw [if_pos rfl]
    | ⟨1, _⟩ =>
      show c.val = if n = 1 then 0 else c.val
      split
      · have := c.isLt; omega
      · rfl
  · match a with
    | ⟨0, _⟩ =>
      show c.val = if n = 1 then 0 else c.val
      split
      · have := c.isLt; omega
      · rfl

/-- The zero word filled into a shape, at any index: `0`. -/
theorem zeroFill_apply {s : Shape} (h : (⟨0, ![]⟩ : Shape).BroadcastsInDim s (![] : Fin 0 → Fin s.rank)) (i : s.Idx) :
    broadcastInDim s ![] h (constant (F := Ideal) ⟨0, ![]⟩ .f32 0x00000000#32) i = (0 : EReal) :=
  (broadcastInDim_apply _ h _ i ix0 (fun a => a.elim0)).trans Ideal.ofBits_zero_f32

end Idealize.ShloMosaic.DenseRead

end
-- ==== Proof.RefValue.lean ====
/-
  The reference program's result is the prediction head of what its first 1113 operations leave.

  After the 1113 operations that compute the pooled features `g` (64 by 300), the reference applies four more: the
  product of `g` with the weights `w` (300 by 10), the bias placed as a row (1 by 10), that row repeated down the 64
  rows, and the sum. At the extended reals the product's entry `(a, b)` is the sum over the 300 features `c` of
  `g[a,c] · w[c,b]`, and the repeated row's entry `(a, b)` is the row's entry `(0, b)`: the head.
-/
import proofs.«141498_g68332929679506_cont_9to1c4b_488_2_alg».proof.Proof.RefProg
import proofs.«141498_g68332929679506_cont_9to1c4b_488_2_alg».proof.Proof.HeadSpec
import proofs.«141498_g68332929679506_cont_9to1c4b_488_2_alg».proof.Proof.LibDenseRead
import Idealize.ShloMosaic.Lib.StableHlo.Run
import Idealize.ShloMosaic.Lib.Pipeline.Value
import Idealize.ShloMosaic.Lib.ValueIdx
import Idealize.ShloMosaic.PureOps.Ideal

set_option maxRecDepth 8192

noncomputable section

open scoped BigOperators

namespace Cert.ReferenceIdeal.HeadValue

open Cert.ReferenceIdeal Cert.ReferenceIdeal.Gen Cert.ReferenceIdeal.Hand
open Idealize.ShloMosaic Idealize.ShloMosaic.TcCoe Idealize.ShloMosaic.ValueIdx Idealize.SL.Sem Idealize.ShloMosaic.StableHlo

/-- Core `d`'s buffers after the 1113 operations. -/
abbrev W (m : (ℓ : Loc nD τ sig) → Buf (Elt Ideal) ℓ) (d : Dev nD) : Valuation τ sig (Elt Ideal) :=
  StableHlo.after (sharedOps (F := Ideal)) (StableHlo.launchContents m d)

/-- The product's dimension numbers are the plain ones: rows against columns, no batch axis. -/
theorem dot_plain : dot_S64x300_S300x10_S64x10_1_0_0_1_n_n = DotDims.plain 64 300 10 := rfl

/-- A row repeated down the 64 rows, at `(a, b)`: the row's entry `(0, b)`. -/
theorem rows_apply (y : S1x10.Idx → EReal) (a : Fin 64) (b : Fin 10) :
    broadcastInDim S64x10 ![0, 1] bcast_S1x10_S64x10_0_1 y (ix2 a b) = y (ix2 (0 : Fin 1) b) :=
  broadcastInDim_apply _ bcast_S1x10_S64x10_0_1 y (ix2 a b) (ix2 (0 : Fin 1) b) (fun ax => by
    match ax with
    | ⟨0, _⟩ => show 0 = if (1 : Nat) = 1 then 0 else a.val; rw [if_pos rfl]
    | ⟨1, _⟩ => show b.val = if (10 : Nat) = 1 then 0 else b.val; rw [if_neg (by decide)])

/-- The product plus the repeated bias row is the head. -/
theorem tail_eq_head (g : FVec Ideal S64x300 .f32) (w : FVec Ideal S300x10 .f32) (brow : FVec Ideal S1x10 .f32) :
    addf (Host.dotGeneral (F := Ideal) (φ₁ := .f32) (φ₂ := .f32) dot_S64x300_S300x10_S64x10_1_0_0_1_n_n none g w)
        (broadcastInDim S64x10 ![0, 1] bcast_S1x10_S64x10_0_1 brow)
      = Cert.Head.head g w brow := by
  funext i
  obtain ⟨a, b, rfl⟩ : ∃ (a : Fin 64) (b : Fin 10), i = ix2 a b := ⟨i 0, i 1, eq_ix2 i⟩
  rw [Cert.Head.head_apply, addf_apply, rows_apply]
  refine congrArg (· + brow (ix2 (0 : Fin 1) b)) ?_
  show FloatOps.dotGeneral dot_S64x300_S300x10_S64x10_1_0_0_1_n_n none .single g w (ix2 a b) = _
  rw [dot_plain]
  exact DenseRead.dotGeneral_apply none .single g w a b

/-- The reference's result buffer after all of @main's operations: the four head operations on what the 1113 leave. -/
theorem result_term (m : (ℓ : Loc nD τ sig) → Buf (Elt Ideal) ℓ) (d : Dev nD) :
    StableHlo.after (allOps (F := Ideal)) (StableHlo.launchContents m d) (Proc.devRef .tc main_v670)
      = addf (Host.dotGeneral (F := Ideal) (φ₁ := .f32) (φ₂ := .f32) dot_S64x300_S300x10_S64x10_1_0_0_1_n_n none
            (W m d main_v666 : FVec Ideal S64x300 .f32) (W m d main_arg16 : FVec Ideal S300x10 .f32))
          (broadcastInDim S64x10 ![0, 1] bcast_S1x10_S64x10_0_1
            (broadcastInDim S1x10 ![1] bcast_S10_S1x10_1 (W m d main_arg17 : FVec Ideal S10 .f32))) := by
  rw [allOps_eq, HostSim.after_append]
  dsimp only [W]
  generalize StableHlo.after (sharedOps (F := Ideal)) (StableHlo.launchContents m d) = Wv
  after_results

/-- The reference's result is the head of the pooled features, the weights and the bias row the 1113 operations leave. -/
theorem result_head (m : (ℓ : Loc nD τ sig) → Buf (Elt Ideal) ℓ) (d : Dev nD) :
    StableHlo.after (allOps (F := Ideal)) (StableHlo.launchContents m d) (Proc.devRef .tc main_v670)
      = Cert.Head.head (W m d main_v666 : FVec Ideal S64x300 .f32) (W m d main_arg16 : FVec Ideal S300x10 .f32)
          (broadcastInDim S1x10 ![1] bcast_S10_S1x10_1 (W m d main_arg17 : FVec Ideal S10 .f32)) :=
  (result_term m d).trans (tail_eq_head _ _ _)

end Cert.ReferenceIdeal.HeadValue

end
-- ==== Proof.BridgeA.lean ====
/-
  The two programs' host operations, paired window by window (part A).

  For each listed window: the kernel program's operations and the reference program's are the same operations in the
  same order — the one at position k reads buffers of smaller index through the same function on either side and
  writes the buffer of index k — so memories that agree below the window's first position agree below its last.
-/
import proofs.«141498_g68332929679506_cont_9to1c4b_488_2_alg».proof.Proof.KernelIdealFrameP
import proofs.«141498_g68332929679506_cont_9to1c4b_488_2_alg».proof.Proof.RefProg
import proofs.«141498_g68332929679506_cont_9to1c4b_488_2_alg».proof.Proof.LibHostSim
import Idealize.ShloMosaic.PureOps.Ideal

set_option maxRecDepth 8192

noncomputable section

namespace Cert.Bridge

open Idealize.ShloMosaic Idealize.ShloMosaic.TcCoe Idealize.ShloMosaic.StableHlo Idealize.ShloMosaic.StableHlo.HostSim

theorem sim_main_part0_ops0 : Sim 18 (Cert.KernelIdeal.Gen.main_part0_ops0 (F := Ideal)) (Cert.ReferenceIdeal.Hand.main_part0_ops0 (F := Ideal)) :=
  .cons (fun _ _ h => agree_unary (i := 1) ⟨rfl, rfl, rfl, rfl⟩ (by decide) ⟨rfl, rfl, rfl, rfl⟩ rfl rfl HEq.rfl h)
  (.cons (fun _ _ h => agree_reshape (i := 18) ⟨rfl, rfl, rfl, rfl⟩ (by decide) ⟨rfl, rfl, rfl, rfl⟩ rfl rfl h)
  (.cons (fun _ _ h => agree_unary (i := 1) ⟨rfl, rfl, rfl, rfl⟩ (by decide) ⟨rfl, rfl, rfl, rfl⟩ rfl rfl HEq.rfl h)
  (.cons (fun _ _ h => agree_reshape (i := 20) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_unary (i := 22) ⟨rfl, rfl, rfl, rfl⟩ (by decide) ⟨rfl, rfl, rfl, rfl⟩ rfl rfl HEq.rfl h)
  (.cons (fun _ _ h => agree_binary (i := 0) (j := 23) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 25) ⟨rfl, rfl, rfl, rfl⟩ (by decide) ⟨rfl, rfl, rfl, rfl⟩ rfl rfl HEq.rfl h)
  (.cons (fun _ _ h => agree_binary (i := 0) (j := 26) ⟨rfl, rfl, rfl, rfl⟩ (by decide) ⟨rfl, rfl, rfl, rfl⟩ (by decide) ⟨rfl, rfl, rfl, rfl⟩ rfl rfl rfl HEq.rfl h)
  (.cons (fun _ _ h => agree_ternary (l := 24) (i := 27) (j := 0) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.cons (fun _ _ h => agree_unary (i := 28) ⟨rfl, rfl, rfl, rfl⟩ (by decide) ⟨rfl, rfl, rfl, rfl⟩ rfl rfl HEq.rfl h)
  (.cons (fun _ _ h => agree_binary (i := 5) (j := 29) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 31) ⟨rfl, rfl, rfl, rfl⟩ (by decide) ⟨rfl, rfl, rfl, rfl⟩ rfl rfl HEq.rfl h)
  (.cons (fun _ _ h => agree_binary (i := 19) (j := 32) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 34) ⟨rfl, rfl, rfl, rfl⟩ (by decide) ⟨rfl, rfl, rfl, rfl⟩ rfl rfl HEq.rfl h)
  (.cons (fun _ _ h => agree_binary (i := 19) (j := 35) ⟨rfl, rfl, rfl, rfl⟩ (by decide) ⟨rfl, rfl, rfl, rfl⟩ (by decide) ⟨rfl, rfl, rfl, rfl⟩ rfl rfl rfl HEq.rfl h)
  (.cons (fun _ _ h => agree_ternary (l := 33) (i := 36) (j := 19) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.cons (fun _ _ h => agree_unary (i := 37) ⟨rfl, rfl, rfl, rfl⟩ (by decide) ⟨rfl, rfl, rfl, rfl⟩ rfl rfl HEq.rfl h)
  (.cons (fun _ _ h => agree_binary (i := 30) (j := 38) ⟨rfl, rfl, rfl, rfl⟩ (by decide) ⟨rfl, rfl, rfl, rfl⟩ (by decide) ⟨rfl, rfl, rfl, rfl⟩ rfl rfl rfl HEq.rfl h)
  (.cons (fun _ _ h => agree_unary (i := 6) ⟨rfl, rfl, rfl, rfl⟩ (by decide) ⟨rfl, rfl, rfl, rfl⟩ rfl rfl HEq.rfl h)
  (.cons (fun _ _ h => agree_reshape (i := 40) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_unary (i := 42) ⟨rfl, rfl, rfl, rfl⟩ (by decide) ⟨rfl, rfl, rfl, rfl⟩ rfl rfl HEq.rfl h)
  (.cons (fun _ _ h => agree_binary (i := 2) (j := 43) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 45) ⟨rfl, rfl, rfl, rfl⟩ (by decide) ⟨rfl, rfl, rfl, rfl⟩ rfl rfl HEq.rfl h)
  (.cons (fun _ _ h => agree_binary (i := 2) (j := 46) ⟨rfl, rfl, rfl, rfl⟩ (by decide) ⟨rfl, rfl, rfl, rfl⟩ (by decide) ⟨rfl, rfl, rfl, rfl⟩ rfl rfl rfl HEq.rfl h)
  (.cons (fun _ _ h => agree_ternary (l := 44) (i := 47) (j := 2) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.cons (fun _ _ h => agree_unary (i := 48) ⟨rfl, rfl, rfl, rfl⟩ (by decide) ⟨rfl, rfl, rfl, rfl⟩ rfl rfl HEq.rfl h)
  (.cons (fun _ _ h => agree_binary (i := 41) (j := 49) ⟨rfl, rfl, rfl, rfl⟩ (by decide) ⟨rfl, rfl, rfl, rfl⟩ (by decide) ⟨rfl, rfl, rfl, rfl⟩ rfl rfl rfl HEq.rfl h)
  (.cons (fun _ _ h => agree_binary (i := 39) (j := 50) ⟨rfl, rfl, rfl, rfl⟩ (by decide) ⟨rfl, rfl, rfl, rfl⟩ (by decide) ⟨rfl, rfl, rfl, rfl⟩ rfl rfl rfl HEq.rfl h)
  (.nil _))))))))))))))))))))))))))))))))))

theorem sim_main_part0_ops1 : Sim 52 (Cert.KernelIdeal.Gen.main_part0_ops1 (F := Ideal)) (Cert.ReferenceIdeal.Hand.main_part0_ops1 (F := Ideal)) :=
  .cons (fun _ _ h => agree_nullary ⟨rfl, rfl, rfl, rfl⟩ HEq.rfl h)
  (.cons (fun _ _ h => agree_unary (i := 52) ⟨rfl, rfl, rfl, rfl⟩ (by decide) ⟨rfl, rfl, rfl, rfl⟩ rfl rfl HEq.rfl h)
  (.cons (fun _ _ h => agree_binary (i := 51) (j := 53) ⟨rfl, rfl, rfl, rfl⟩ (by decide) ⟨rfl, rfl, rfl, rfl⟩ (by decide) ⟨rfl, rfl, rfl, rfl⟩ rfl rfl rfl HEq.rfl h)
  (.nil _)))

theorem sim_main_part0_ops2 : Sim 55 (Cert.KernelIdeal.Gen.main_part0_ops2 (F := Ideal)) (Cert.ReferenceIdeal.Hand.main_part0_ops2 (F := Ideal)) :=
  .cons (fun _ _ h => agree_nullary ⟨rfl, rfl, rfl, rfl⟩ HEq.rfl h)
  (.cons (fun _ _ h => agree_unary (i := 55) ⟨rfl, rfl, rfl, rfl⟩ (by decide) ⟨rfl, rfl, rfl, rfl⟩ rfl rfl HEq.rfl h)
  (.cons (fun _ _ h => agree_unary (i := 21) ⟨rfl, rfl, rfl, rfl⟩ (by decide) ⟨rfl, rfl, rfl, rfl⟩ rfl rfl HEq.rfl h)
  (.cons (fun _ _ h => agree_ternary (l := 56) (i := 57) (j := 54) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.cons (fun _ _ h => agree_unary (i := 13) ⟨rfl, rfl, rfl, rfl⟩ (by decide) ⟨rfl, rfl, rfl, rfl⟩ rfl rfl HEq.rfl h)
  (.cons (fun _ _ h => agree_reshape (i := 59) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_binary (i := 61) (j := 60) ⟨rfl, rfl, rfl, rfl⟩ (by decide) ⟨rfl, rfl, rfl, rfl⟩ (by decide) ⟨rfl, rfl, rfl, rfl⟩ rfl rfl rfl HEq.rfl h)
  (.cons (fun _ _ h => agree_unary (i := 62) ⟨rfl, rfl, rfl, rfl⟩ (by decide) ⟨rfl, rfl, rfl, rfl⟩ rfl rfl HEq.rfl h)
  (.cons (fun _ _ h => agree_binary (i := 63) (j := 30) ⟨rfl, rfl, rfl, rfl⟩ (by decide) ⟨rfl, rfl, rfl, rfl⟩ (by decide) ⟨rfl, rfl, rfl, rfl⟩ rfl rfl rfl HEq.rfl h)
  (.cons (fun _ _ h => agree_binary (i := 64) (j := 58) ⟨rfl, rfl, rfl, rfl⟩ (by decide) ⟨rfl, rfl, rfl, rfl⟩ (by decide) ⟨rfl, rfl, rfl, rfl⟩ rfl rfl rfl HEq.rfl h)
  (.cons (fun _ _ h => agree_unary (i := 7) ⟨rfl, rfl, rfl, rfl⟩ (by decide) ⟨rfl, rfl, rfl, rfl⟩ rfl rfl HEq.rfl h)
  (.cons (fun _ _ h => agree_reshape (i := 66) ⟨rfl, rfl, rfl, rfl⟩ (by decide) ⟨rfl, rfl, rfl, rfl⟩ rfl rfl h)
  (.cons (fun _ _ h => agree_binary (i := 65) (j := 67) ⟨rfl, rfl, rfl, rfl⟩ (by decide) ⟨rfl, rfl, rfl, rfl⟩ (by decide) ⟨rfl, rfl, rfl, rfl⟩ rfl rfl rfl HEq.rfl h)
  (.cons (fun _ _ h => agree_unary (i := 8) ⟨rfl, rfl, rfl, rfl⟩ (by decide) ⟨rfl, rfl, rfl, rfl⟩ rfl rfl HEq.rfl h)
  (.cons (fun _ _ h => agree_reshape (i := 69) ⟨rfl, rfl, rfl, rfl⟩ (by decide) ⟨rfl, rfl, rfl, rfl⟩ rfl rfl h)
  (.cons (fun _ _ h => agree_unary (i := 70) ⟨rfl, rfl, rfl, rfl⟩ (by decide) ⟨rfl, rfl, rfl, rfl⟩ rfl rfl HEq.rfl h)
  (.cons (fun _ _ h => agree_unary (i := 71) ⟨rfl, rfl, rfl, rfl⟩ (by decide) ⟨rfl, rfl, rfl, rfl⟩ rfl rfl HEq.rfl h)
  (.cons (fun _ _ h => agree_binary (i := 68) (j := 72) ⟨rfl, rfl, rfl, rfl⟩ (by decide) ⟨rfl, rfl, rfl, rfl⟩ (by decide) ⟨rfl, rfl, rfl, rfl⟩ rfl rfl rfl HEq.rfl h)
  (.cons (fun _ _ h => agree_unary (i := 9) ⟨rfl, rfl, rfl, rfl⟩ (by decide) ⟨rfl, rfl, rfl, rfl⟩ rfl rfl HEq.rfl h)
  (.cons (fun _ _ h => agree_reshape (i := 74) ⟨rfl, rfl, rfl, rfl⟩ (by decide) ⟨rfl, rfl, rfl, rfl⟩ rfl rfl h)
  (.cons (fun _ _ h => agree_unary (i := 10) ⟨rfl, rfl, rfl, rfl⟩ (by decide) ⟨rfl, rfl, rfl, rfl⟩ rfl rfl HEq.rfl h)
  (.cons (fun _ _ h => agree_reshape (i := 76) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_binary (i := 73) (j := 78) ⟨rfl, rfl, rfl, rfl⟩ (by decide) ⟨rfl, rfl, rfl, rfl⟩ (by decide) ⟨rfl, rfl, rfl, rfl⟩ rfl rfl rfl HEq.rfl h)
  (.nil _)))))))))))))))))))))))))

theorem sim_main_part1_ops0 : Sim 80 (Cert.KernelIdeal.Gen.main_part1_ops0 (F := Ideal)) (Cert.ReferenceIdeal.Hand.main_part1_ops0 (F := Ideal)) :=
  .cons (fun _ _ h => agree_nullary ⟨rfl, rfl, rfl, rfl⟩ HEq.rfl h)
  (.cons (fun _ _ h => agree_unary (i := 80) ⟨rfl, rfl, rfl, rfl⟩ (by decide) ⟨rfl, rfl, rfl, rfl⟩ rfl rfl HEq.rfl h)
  (.cons (fun _ _ h => agree_binary (i := 79) (j := 81) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.nil _))))

theorem sim_main_part1_ops1 : Sim 84 (Cert.KernelIdeal.Gen.main_part1_ops1 (F := Ideal)) (Cert.ReferenceIdeal.Hand.main_part1_ops1 (F := Ideal)) :=
  .cons (fun _ _ h => agree_nullary ⟨rfl, rfl, rfl, rfl⟩ HEq.rfl h)
  (.cons (fun _ _ h => agree_binary (i := 73) (j := 84) ⟨rfl, rfl, rfl, rfl⟩ (by decide) ⟨rfl, rfl, rfl, rfl⟩ (by decide) ⟨rfl, rfl, rfl, rfl⟩ rfl rfl rfl HEq.rfl h)
  (.cons (fun _ _ h => agree_unary (i := 85) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_unary (i := 87) ⟨rfl, rfl, rfl, rfl⟩ (by decide) ⟨rfl, rfl, rfl, rfl⟩ rfl rfl HEq.rfl h)
  (.cons (fun _ _ h => agree_binary (i := 86) (j := 88) ⟨rfl, rfl, rfl, rfl⟩ (by decide) ⟨rfl, rfl, rfl, rfl⟩ (by decide) ⟨rfl, rfl, rfl, rfl⟩ rfl rfl rfl HEq.rfl h)
  (.cons (fun _ _ h => agree_unary (i := 89) ⟨rfl, rfl, rfl, rfl⟩ (by decide) ⟨rfl, rfl, rfl, rfl⟩ rfl rfl HEq.rfl h)
  (.cons (fun _ _ h => agree_binary (i := 73) (j := 90) ⟨rfl, rfl, rfl, rfl⟩ (by decide) ⟨rfl, rfl, rfl, rfl⟩ (by decide) ⟨rfl, rfl, rfl, rfl⟩ rfl rfl rfl HEq.rfl h)
  (.cons (fun _ _ h => agree_binary (i := 91) (j := 91) ⟨rfl, rfl, rfl, rfl⟩ (by decide) ⟨rfl, rfl, rfl, rfl⟩ (by decide) ⟨rfl, rfl, rfl, rfl⟩ rfl rfl rfl HEq.rfl h)
  (.cons (fun _ _ h => agree_unary (i := 83) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_binary (i := 94) (j := 93) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_binary (i := 92) (j := 96) ⟨rfl, rfl, rfl, rfl⟩ (by decide) ⟨rfl, rfl, rfl, rfl⟩ (by decide) ⟨rfl, rfl, rfl, rfl⟩ rfl rfl rfl HEq.rfl h)
  (.cons (fun _ _ h => agree_unary (i := 95) ⟨rfl, rfl, rfl, rfl⟩ (by decide) ⟨rfl, rfl, rfl, rfl⟩ rfl rfl HEq.rfl h)
  (.cons (fun _ _ h => agree_binary (i := 97) (j := 98) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_binary (i := 95) (j := 100) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 102) ⟨rfl, rfl, rfl, rfl⟩ (by decide) ⟨rfl, rfl, rfl, rfl⟩ rfl rfl HEq.rfl h)
  (.cons (fun _ _ h => agree_unary (i := 103) ⟨rfl, rfl, rfl, rfl⟩ (by decide) ⟨rfl, rfl, rfl, rfl⟩ rfl rfl HEq.rfl h)
  (.cons (fun _ _ h => agree_ternary (l := 101) (i := 99) (j := 104) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.nil _))))))))))))))))))))))

theorem sim_main_part1_ops2 : Sim 106 (Cert.KernelIdeal.Gen.main_part1_ops2 (F := Ideal)) (Cert.ReferenceIdeal.Hand.main_part1_ops2 (F := Ideal)) :=
  .cons (fun _ _ h => agree_unary (i := 82) ⟨rfl, rfl, rfl, rfl⟩ (by decide) ⟨rfl, rfl, rfl, rfl⟩ rfl rfl HEq.rfl h)
  (.cons (fun _ _ h => agree_unary (i := 106) ⟨rfl, rfl, rfl, rfl⟩ (by decide) ⟨rfl, rfl, rfl, rfl⟩ rfl rfl HEq.rfl h)
  (.cons (fun _ _ h => agree_binary (i := 73) (j := 107) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 109) ⟨rfl, rfl, rfl, rfl⟩ (by decide) ⟨rfl, rfl, rfl, rfl⟩ rfl rfl HEq.rfl h)
  (.cons (fun _ _ h => agree_binary (i := 105) (j := 110) ⟨rfl, rfl, rfl, rfl⟩ (by decide) ⟨rfl, rfl, rfl, rfl⟩ (by decide) ⟨rfl, rfl, rfl, rfl⟩ rfl rfl rfl HEq.rfl h)
  (.cons (fun _ _ h => agree_unary (i := 111) ⟨rfl, rfl, rfl, rfl⟩ (by decide) ⟨rfl, rfl, rfl, rfl⟩ rfl rfl HEq.rfl h)
  (.cons (fun _ _ h => agree_unary (i := 112) ⟨rfl, rfl, rfl, rfl⟩ (by decide) ⟨rfl, rfl, rfl, rfl⟩ rfl rfl HEq.rfl h)
  (.cons (fun _ _ h => agree_unary (i := 113) ⟨rfl, rfl, rfl, rfl⟩ (by decide) ⟨rfl, rfl, rfl, rfl⟩ rfl rfl HEq.rfl h)
  (.cons (fun _ _ h => agree_binary (i := 108) (j := 114) ⟨rfl, rfl, rfl, rfl⟩ (by decide) ⟨rfl, rfl, rfl, rfl⟩ (by decide) ⟨rfl, rfl, rfl, rfl⟩ rfl rfl rfl HEq.rfl h)
  (.cons (fun _ _ h => agree_unary (i := 75) ⟨rfl, rfl, rfl, rfl⟩ (by decide) ⟨rfl, rfl, rfl, rfl⟩ rfl rfl HEq.rfl h)
  (.cons (fun _ _ h => agree_unary (i := 116) ⟨rfl, rfl, rfl, rfl⟩ (by decide) ⟨rfl, rfl, rfl, rfl⟩ rfl rfl HEq.rfl h)
  (.cons (fun _ _ h => agree_binary (i := 115) (j := 117) ⟨rfl, rfl, rfl, rfl⟩ (by decide) ⟨rfl, rfl, rfl, rfl⟩ (by decide) ⟨rfl, rfl, rfl, rfl⟩ rfl rfl rfl HEq.rfl h)
  (.cons (fun _ _ h => agree_unary (i := 77) ⟨rfl, rfl, rfl, rfl⟩ (by decide) ⟨rfl, rfl, rfl, rfl⟩ rfl rfl HEq.rfl h)
  (.cons (fun _ _ h => agree_unary (i := 119) ⟨rfl, rfl, rfl, rfl⟩ (by decide) ⟨rfl, rfl, rfl, rfl⟩ rfl rfl HEq.rfl h)
  (.cons (fun _ _ h => agree_binary (i := 118) (j := 120) ⟨rfl, rfl, rfl, rfl⟩ (by decide) ⟨rfl, rfl, rfl, rfl⟩ (by decide) ⟨rfl, rfl, rfl, rfl⟩ rfl rfl rfl HEq.rfl h)
  (.nil _))))))))))))))))

theorem sim_main_part1_ops3 : Sim 122 (Cert.KernelIdeal.Gen.main_part1_ops3 (F := Ideal)) (Cert.ReferenceIdeal.Hand.main_part1_ops3 (F := Ideal)) :=
  .cons (fun _ _ h => agree_nullary ⟨rfl, rfl, rfl, rfl⟩ HEq.rfl h)
  (.cons (fun _ _ h => agree_unary (i := 122) ⟨rfl, rfl, rfl, rfl⟩ (by decide) ⟨rfl, rfl, rfl, rfl⟩ rfl rfl HEq.rfl h)
  (.cons (fun _ _ h => agree_binary (i := 121) (j := 123) ⟨rfl, rfl, rfl, rfl⟩ (by decide) ⟨rfl, rfl, rfl, rfl⟩ (by decide) ⟨rfl, rfl, rfl, rfl⟩ rfl rfl rfl HEq.rfl h)
  (.nil _)))

theorem sim_main_part1_ops4 : Sim 125 (Cert.KernelIdeal.Gen.main_part1_ops4 (F := Ideal)) (Cert.ReferenceIdeal.Hand.main_part1_ops4 (F := Ideal)) :=
  .cons (fun _ _ h => agree_unary (i := 11) ⟨rfl, rfl, rfl, rfl⟩ (by decide) ⟨rfl, rfl, rfl, rfl⟩ rfl rfl HEq.rfl h)
  (.cons (fun _ _ h => agree_reshape (i := 125) ⟨rfl, rfl, rfl, rfl⟩ (by decide) ⟨rfl, rfl, rfl, rfl⟩ rfl rfl h)
  (.cons (fun _ _ h => agree_binary (i := 124) (j := 126) ⟨rfl, rfl, rfl, rfl⟩ (by decide) ⟨rfl, rfl, rfl, rfl⟩ (by decide) ⟨rfl, rfl, rfl, rfl⟩ rfl rfl rfl HEq.rfl h)
  (.cons (fun _ _ h => agree_unary (i := 12) ⟨rfl, rfl, rfl, rfl⟩ (by decide) ⟨rfl, rfl, rfl, rfl⟩ rfl rfl HEq.rfl h)
  (.cons (fun _ _ h => agree_reshape (i := 128) ⟨rfl, rfl, rfl, rfl⟩ (by decide) ⟨rfl, rfl, rfl, rfl⟩ rfl rfl h)
  (.cons (fun _ _ h => agree_unary (i := 129) ⟨rfl, rfl, rfl, rfl⟩ (by decide) ⟨rfl, rfl, rfl, rfl⟩ rfl rfl HEq.rfl h)
  (.cons (fun _ _ h => agree_unary (i := 130) ⟨rfl, rfl, rfl, rfl⟩ (by decide) ⟨rfl, rfl, rfl, rfl⟩ rfl rfl HEq.rfl h)
  (.cons (fun _ _ h => agree_binary (i := 127) (j := 131) ⟨rfl, rfl, rfl, rfl⟩ (by decide) ⟨rfl, rfl, rfl, rfl⟩ (by decide) ⟨rfl, rfl, rfl, rfl⟩ rfl rfl rfl HEq.rfl h)
  (.cons (fun _ _ h => agree_unary (i := 14) ⟨rfl, rfl, rfl, rfl⟩ (by decide) ⟨rfl, rfl, rfl, rfl⟩ rfl rfl HEq.rfl h)
  (.cons (fun _ _ h => agree_reshape (i := 133) ⟨rfl, rfl, rfl, rfl⟩ (by decide) ⟨rfl, rfl, rfl, rfl⟩ rfl rfl h)
  (.cons (fun _ _ h => agree_unary (i := 15) ⟨rfl, rfl, rfl, rfl⟩ (by decide) ⟨rfl, rfl, rfl, rfl⟩ rfl rfl HEq.rfl h)
  (.cons (fun _ _ h => agree_reshape (i := 135) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_binary (i := 132) (j := 137) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 139) ⟨rfl, rfl, rfl, rfl⟩ (by decide) ⟨rfl, rfl, rfl, rfl⟩ rfl rfl HEq.rfl h)
  (.cons (fun _ _ h => agree_binary (i := 138) (j := 140) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.nil _))))))))))))))))))

theorem sim_main_part1_ops5 : Sim 143 (Cert.KernelIdeal.Gen.main_part1_ops5 (F := Ideal)) (Cert.ReferenceIdeal.Hand.main_part1_ops5 (F := Ideal)) :=
  .cons (fun _ _ h => agree_nullary ⟨rfl, rfl, rfl, rfl⟩ HEq.rfl h)
  (.cons (fun _ _ h => agree_binary (i := 132) (j := 143) ⟨rfl, rfl, rfl, rfl⟩ (by decide) ⟨rfl, rfl, rfl, rfl⟩ (by decide) ⟨rfl, rfl, rfl, rfl⟩ rfl rfl rfl HEq.rfl h)
  (.cons (fun _ _ h => agree_unary (i := 144) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_unary (i := 146) ⟨rfl, rfl, rfl, rfl⟩ (by decide) ⟨rfl, rfl, rfl, rfl⟩ rfl rfl HEq.rfl h)
  (.cons (fun _ _ h => agree_binary (i := 145) (j := 147) ⟨rfl, rfl, rfl, rfl⟩ (by decide) ⟨rfl, rfl, rfl, rfl⟩ (by decide) ⟨rfl, rfl, rfl, rfl⟩ rfl rfl rfl HEq.rfl h)
  (.cons (fun _ _ h => agree_unary (i := 148) ⟨rfl, rfl, rfl, rfl⟩ (by decide) ⟨rfl, rfl, rfl, rfl⟩ rfl rfl HEq.rfl h)
  (.cons (fun _ _ h => agree_binary (i := 132) (j := 149) ⟨rfl, rfl, rfl, rfl⟩ (by decide) ⟨rfl, rfl, rfl, rfl⟩ (by decide) ⟨rfl, rfl, rfl, rfl⟩ rfl rfl rfl HEq.rfl h)
  (.cons (fun _ _ h => agree_binary (i := 150) (j := 150) ⟨rfl, rfl, rfl, rfl⟩ (by decide) ⟨rfl, rfl, rfl, rfl⟩ (by decide) ⟨rfl, rfl, rfl, rfl⟩ rfl rfl rfl HEq.rfl h)
  (.cons (fun _ _ h => agree_unary (i := 142) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_binary (i := 153) (j := 152) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_binary (i := 151) (j := 155) ⟨rfl, rfl, rfl, rfl⟩ (by decide) ⟨rfl, rfl, rfl, rfl⟩ (by decide) ⟨rfl, rfl, rfl, rfl⟩ rfl rfl rfl HEq.rfl h)
  (.cons (fun _ _ h => agree_unary (i := 154) ⟨rfl, rfl, rfl, rfl⟩ (by decide) ⟨rfl, rfl, rfl, rfl⟩ rfl rfl HEq.rfl h)
  (.cons (fun _ _ h => agree_binary (i := 156) (j := 157) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_binary (i := 154) (j := 159) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 161) ⟨rfl, rfl, rfl, rfl⟩ (by decide) ⟨rfl, rfl, rfl, rfl⟩ rfl rfl HEq.rfl h)
  (.cons (fun _ _ h => agree_unary (i := 162) ⟨rfl, rfl, rfl, rfl⟩ (by decide) ⟨rfl, rfl, rfl, rfl⟩ rfl rfl HEq.rfl h)
  (.cons (fun _ _ h => agree_ternary (l := 160) (i := 158) (j := 163) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.nil _))))))))))))))))))))))

theorem sim_main_part1_ops6 : Sim 165 (Cert.KernelIdeal.Gen.main_part1_ops6 (F := Ideal)) (Cert.ReferenceIdeal.Hand.main_part1_ops6 (F := Ideal)) :=
  .cons (fun _ _ h => agree_unary (i := 141) ⟨rfl, rfl, rfl, rfl⟩ (by decide) ⟨rfl, rfl, rfl, rfl⟩ rfl rfl HEq.rfl h)
  (.cons (fun _ _ h => agree_unary (i := 165) ⟨rfl, rfl, rfl, rfl⟩ (by decide) ⟨rfl, rfl, rfl, rfl⟩ rfl rfl HEq.rfl h)
  (.cons (fun _ _ h => agree_binary (i := 132) (j := 166) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 168) ⟨rfl, rfl, rfl, rfl⟩ (by decide) ⟨rfl, rfl, rfl, rfl⟩ rfl rfl HEq.rfl h)
  (.cons (fun _ _ h => agree_binary (i := 164) (j := 169) ⟨rfl, rfl, rfl, rfl⟩ (by decide) ⟨rfl, rfl, rfl, rfl⟩ (by decide) ⟨rfl, rfl, rfl, rfl⟩ rfl rfl rfl HEq.rfl h)
  (.cons (fun _ _ h => agree_unary (i := 170) ⟨rfl, rfl, rfl, rfl⟩ (by decide) ⟨rfl, rfl, rfl, rfl⟩ rfl rfl HEq.rfl h)
  (.cons (fun _ _ h => agree_unary (i := 171) ⟨rfl, rfl, rfl, rfl⟩ (by decide) ⟨rfl, rfl, rfl, rfl⟩ rfl rfl HEq.rfl h)
  (.cons (fun _ _ h => agree_unary (i := 172) ⟨rfl, rfl, rfl, rfl⟩ (by decide) ⟨rfl, rfl, rfl, rfl⟩ rfl rfl HEq.rfl h)
  (.cons (fun _ _ h => agree_binary (i := 167) (j := 173) ⟨rfl, rfl, rfl, rfl⟩ (by decide) ⟨rfl, rfl, rfl, rfl⟩ (by decide) ⟨rfl, rfl, rfl, rfl⟩ rfl rfl rfl HEq.rfl h)
  (.cons (fun _ _ h => agree_unary (i := 134) ⟨rfl, rfl, rfl, rfl⟩ (by decide) ⟨rfl, rfl, rfl, rfl⟩ rfl rfl HEq.rfl h)
  (.cons (fun _ _ h => agree_unary (i := 175) ⟨rfl, rfl, rfl, rfl⟩ (by decide) ⟨rfl, rfl, rfl, rfl⟩ rfl rfl HEq.rfl h)
  (.cons (fun _ _ h => agree_binary (i := 174) (j := 176) ⟨rfl, rfl, rfl, rfl⟩ (by decide) ⟨rfl, rfl, rfl, rfl⟩ (by decide) ⟨rfl, rfl, rfl, rfl⟩ rfl rfl rfl HEq.rfl h)
  (.cons (fun _ _ h => agree_unary (i := 136) ⟨rfl, rfl, rfl, rfl⟩ (by decide) ⟨rfl, rfl, rfl, rfl⟩ rfl rfl HEq.rfl h)
  (.cons (fun _ _ h => agree_unary (i := 178) ⟨rfl, rfl, rfl, rfl⟩ (by decide) ⟨rfl, rfl, rfl, rfl⟩ rfl rfl HEq.rfl h)
  (.cons (fun _ _ h => agree_binary (i := 177) (j := 179) ⟨rfl, rfl, rfl, rfl⟩ (by decide) ⟨rfl, rfl, rfl, rfl⟩ (by decide) ⟨rfl, rfl, rfl, rfl⟩ rfl rfl rfl HEq.rfl h)
  (.nil _))))))))))))))))

theorem sim_main_part1_ops7 : Sim 181 (Cert.KernelIdeal.Gen.main_part1_ops7 (F := Ideal)) (Cert.ReferenceIdeal.Hand.main_part1_ops7 (F := Ideal)) :=
  .cons (fun _ _ h => agree_nullary ⟨rfl, rfl, rfl, rfl⟩ HEq.rfl h)
  (.cons (fun _ _ h => agree_unary (i := 181) ⟨rfl, rfl, rfl, rfl⟩ (by decide) ⟨rfl, rfl, rfl, rfl⟩ rfl rfl HEq.rfl h)
  (.cons (fun _ _ h => agree_binary (i := 180) (j := 182) ⟨rfl, rfl, rfl, rfl⟩ (by decide) ⟨rfl, rfl, rfl, rfl⟩ (by decide) ⟨rfl, rfl, rfl, rfl⟩ rfl rfl rfl HEq.rfl h)
  (.nil _)))

theorem sim_main_part1_ops8 : Sim 184 (Cert.KernelIdeal.Gen.main_part1_ops8 (F := Ideal)) (Cert.ReferenceIdeal.Hand.main_part1_ops8 (F := Ideal)) :=
  .cons (fun _ _ h => agree_nullary ⟨rfl, rfl, rfl, rfl⟩ HEq.rfl h)
  (.cons (fun _ _ h => agree_unary (i := 184) ⟨rfl, rfl, rfl, rfl⟩ (by decide) ⟨rfl, rfl, rfl, rfl⟩ rfl rfl HEq.rfl h)
  (.nil _))

theorem sim_main_part2_ops0 : Sim 186 (Cert.KernelIdeal.Gen.main_part2_ops0 (F := Ideal)) (Cert.ReferenceIdeal.Hand.main_part2_ops0 (F := Ideal)) :=
  .cons (fun _ _ h => agree_binary (i := 19) (j := 185) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 187) ⟨rfl, rfl, rfl, rfl⟩ (by decide) ⟨rfl, rfl, rfl, rfl⟩ rfl rfl HEq.rfl h)
  (.cons (fun _ _ h => agree_binary (i := 19) (j := 188) ⟨rfl, rfl, rfl, rfl⟩ (by decide) ⟨rfl, rfl, rfl, rfl⟩ (by decide) ⟨rfl, rfl, rfl, rfl⟩ rfl rfl rfl HEq.rfl h)
  (.cons (fun _ _ h => agree_ternary (l := 186) (i := 189) (j := 19) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.cons (fun _ _ h => agree_unary (i := 190) ⟨rfl, rfl, rfl, rfl⟩ (by decide) ⟨rfl, rfl, rfl, rfl⟩ rfl rfl HEq.rfl h)
  (.cons (fun _ _ h => agree_binary (i := 183) (j := 191) ⟨rfl, rfl, rfl, rfl⟩ (by decide) ⟨rfl, rfl, rfl, rfl⟩ (by decide) ⟨rfl, rfl, rfl, rfl⟩ rfl rfl rfl HEq.rfl h)
  (.cons (fun _ _ h => agree_unary (i := 6) ⟨rfl, rfl, rfl, rfl⟩ (by decide) ⟨rfl, rfl, rfl, rfl⟩ rfl rfl HEq.rfl h)
  (.cons (fun _ _ h => agree_reshape (i := 193) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_unary (i := 195) ⟨rfl, rfl, rfl, rfl⟩ (by decide) ⟨rfl, rfl, rfl, rfl⟩ rfl rfl HEq.rfl h)
  (.cons (fun _ _ h => agree_binary (i := 2) (j := 196) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 198) ⟨rfl, rfl, rfl, rfl⟩ (by decide) ⟨rfl, rfl, rfl, rfl⟩ rfl rfl HEq.rfl h)
  (.cons (fun _ _ h => agree_binary (i := 2) (j := 199) ⟨rfl, rfl, rfl, rfl⟩ (by decide) ⟨rfl, rfl, rfl, rfl⟩ (by decide) ⟨rfl, rfl, rfl, rfl⟩ rfl rfl rfl HEq.rfl h)
  (.cons (fun _ _ h => agree_ternary (l := 197) (i := 200) (j := 2) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.cons (fun _ _ h => agree_unary (i := 201) ⟨rfl, rfl, rfl, rfl⟩ (by decide) ⟨rfl, rfl, rfl, rfl⟩ rfl rfl HEq.rfl h)
  (.cons (fun _ _ h => agree_binary (i := 194) (j := 202) ⟨rfl, rfl, rfl, rfl⟩ (by decide) ⟨rfl, rfl, rfl, rfl⟩ (by decide) ⟨rfl, rfl, rfl, rfl⟩ rfl rfl rfl HEq.rfl h)
  (.cons (fun _ _ h => agree_binary (i := 192) (j := 203) ⟨rfl, rfl, rfl, rfl⟩ (by decide) ⟨rfl, rfl, rfl, rfl⟩ (by decide) ⟨rfl, rfl, rfl, rfl⟩ rfl rfl rfl HEq.rfl h)
  (.nil _)))))))))))))))))))

end Cert.Bridge

end
-- ==== Proof.BridgeB.lean ====
/-
  The two programs' host operations, paired window by window (part B).

  For each listed window: the kernel program's operations and the reference program's are the same operations in the
  same order — the one at position k reads buffers of smaller index through the same function on either side and
  writes the buffer of index k — so memories that agree below the window's first position agree below its last.
-/
import proofs.«141498_g68332929679506_cont_9to1c4b_488_2_alg».proof.Proof.KernelIdealFrameP
import proofs.«141498_g68332929679506_cont_9to1c4b_488_2_alg».proof.Proof.RefProg
import proofs.«141498_g68332929679506_cont_9to1c4b_488_2_alg».proof.Proof.LibHostSim
import Idealize.ShloMosaic.PureOps.Ideal

set_option maxRecDepth 8192

noncomputable section

namespace Cert.Bridge

open Idealize.ShloMosaic Idealize.ShloMosaic.TcCoe Idealize.ShloMosaic.StableHlo Idealize.ShloMosaic.StableHlo.HostSim

theorem sim_main_part2_ops1 : Sim 205 (Cert.KernelIdeal.Gen.main_part2_ops1 (F := Ideal)) (Cert.ReferenceIdeal.Hand.main_part2_ops1 (F := Ideal)) :=
  .cons (fun _ _ h => agree_nullary ⟨rfl, rfl, rfl, rfl⟩ HEq.rfl h)
  (.cons (fun _ _ h => agree_unary (i := 205) ⟨rfl, rfl, rfl, rfl⟩ (by decide) ⟨rfl, rfl, rfl, rfl⟩ rfl rfl HEq.rfl h)
  (.cons (fun _ _ h => agree_binary (i := 204) (j := 206) ⟨rfl, rfl, rfl, rfl⟩ (by decide) ⟨rfl, rfl, rfl, rfl⟩ (by decide) ⟨rfl, rfl, rfl, rfl⟩ rfl rfl rfl HEq.rfl h)
  (.nil _)))

theorem sim_main_part2_ops2 : Sim 208 (Cert.KernelIdeal.Gen.main_part2_ops2 (F := Ideal)) (Cert.ReferenceIdeal.Hand.main_part2_ops2 (F := Ideal)) :=
  .cons (fun _ _ h => agree_nullary ⟨rfl, rfl, rfl, rfl⟩ HEq.rfl h)
  (.cons (fun _ _ h => agree_unary (i := 208) ⟨rfl, rfl, rfl, rfl⟩ (by decide) ⟨rfl, rfl, rfl, rfl⟩ rfl rfl HEq.rfl h)
  (.cons (fun _ _ h => agree_unary (i := 21) ⟨rfl, rfl, rfl, rfl⟩ (by decide) ⟨rfl, rfl, rfl, rfl⟩ rfl rfl HEq.rfl h)
  (.cons (fun _ _ h => agree_ternary (l := 209) (i := 210) (j := 207) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.cons (fun _ _ h => agree_unary (i := 13) ⟨rfl, rfl, rfl, rfl⟩ (by decide) ⟨rfl, rfl, rfl, rfl⟩ rfl rfl HEq.rfl h)
  (.cons (fun _ _ h => agree_reshape (i := 212) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_binary (i := 214) (j := 213) ⟨rfl, rfl, rfl, rfl⟩ (by decide) ⟨rfl, rfl, rfl, rfl⟩ (by decide) ⟨rfl, rfl, rfl, rfl⟩ rfl rfl rfl HEq.rfl h)
  (.cons (fun _ _ h => agree_unary (i := 215) ⟨rfl, rfl, rfl, rfl⟩ (by decide) ⟨rfl, rfl, rfl, rfl⟩ rfl rfl HEq.rfl h)
  (.cons (fun _ _ h => agree_binary (i := 216) (j := 183) ⟨rfl, rfl, rfl, rfl⟩ (by decide) ⟨rfl, rfl, rfl, rfl⟩ (by decide) ⟨rfl, rfl, rfl, rfl⟩ rfl rfl rfl HEq.rfl h)
  (.cons (fun _ _ h => agree_binary (i := 217) (j := 211) ⟨rfl, rfl, rfl, rfl⟩ (by decide) ⟨rfl, rfl, rfl, rfl⟩ (by decide) ⟨rfl, rfl, rfl, rfl⟩ rfl rfl rfl HEq.rfl h)
  (.cons (fun _ _ h => agree_unary (i := 7) ⟨rfl, rfl, rfl, rfl⟩ (by decide) ⟨rfl, rfl, rfl, rfl⟩ rfl rfl HEq.rfl h)
  (.cons (fun _ _ h => agree_reshape (i := 219) ⟨rfl, rfl, rfl, rfl⟩ (by decide) ⟨rfl, rfl, rfl, rfl⟩ rfl rfl h)
  (.cons (fun _ _ h => agree_binary (i := 218) (j := 220) ⟨rfl, rfl, rfl, rfl⟩ (by decide) ⟨rfl, rfl, rfl, rfl⟩ (by decide) ⟨rfl, rfl, rfl, rfl⟩ rfl rfl rfl HEq.rfl h)
  (.cons (fun _ _ h => agree_unary (i := 8) ⟨rfl, rfl, rfl, rfl⟩ (by decide) ⟨rfl, rfl, rfl, rfl⟩ rfl rfl HEq.rfl h)
  (.cons (fun _ _ h => agree_reshape (i := 222) ⟨rfl, rfl, rfl, rfl⟩ (by decide) ⟨rfl, rfl, rfl, rfl⟩ rfl rfl h)
  (.cons (fun _ _ h => agree_unary (i := 223) ⟨rfl, rfl, rfl, rfl⟩ (by decide) ⟨rfl, rfl, rfl, rfl⟩ rfl rfl HEq.rfl h)
  (.cons (fun _ _ h => agree_unary (i := 224) ⟨rfl, rfl, rfl, rfl⟩ (by decide) ⟨rfl, rfl, rfl, rfl⟩ rfl rfl HEq.rfl h)
  (.cons (fun _ _ h => agree_binary (i := 221) (j := 225) ⟨rfl, rfl, rfl, rfl⟩ (by decide) ⟨rfl, rfl, rfl, rfl⟩ (by decide) ⟨rfl, rfl, rfl, rfl⟩ rfl rfl rfl HEq.rfl h)
  (.cons (fun _ _ h => agree_unary (i := 9) ⟨rfl, rfl, rfl, rfl⟩ (by decide) ⟨rfl, rfl, rfl, rfl⟩ rfl rfl HEq.rfl h)
  (.cons (fun _ _ h => agree_reshape (i := 227) ⟨rfl, rfl, rfl, rfl⟩ (by decide) ⟨rfl, rfl, rfl, rfl⟩ rfl rfl h)
  (.cons (fun _ _ h => agree_unary (i := 10) ⟨rfl, rfl, rfl, rfl⟩ (by decide) ⟨rfl, rfl, rfl, rfl⟩ rfl rfl HEq.rfl h)
  (.cons (fun _ _ h => agree_reshape (i := 229) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_binary (i := 226) (j := 231) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 233) ⟨rfl, rfl, rfl, rfl⟩ (by decide) ⟨rfl, rfl, rfl, rfl⟩ rfl rfl HEq.rfl h)
  (.cons (fun _ _ h => agree_binary (i := 232) (j := 234) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.nil _)))))))))))))))))))))))))))))

theorem sim_main_part2_ops3 : Sim 237 (Cert.KernelIdeal.Gen.main_part2_ops3 (F := Ideal)) (Cert.ReferenceIdeal.Hand.main_part2_ops3 (F := Ideal)) :=
  .cons (fun _ _ h => agree_nullary ⟨rfl, rfl, rfl, rfl⟩ HEq.rfl h)
  (.cons (fun _ _ h => agree_binary (i := 226) (j := 237) ⟨rfl, rfl, rfl, rfl⟩ (by decide) ⟨rfl, rfl, rfl, rfl⟩ (by decide) ⟨rfl, rfl, rfl, rfl⟩ rfl rfl rfl HEq.rfl h)
  (.cons (fun _ _ h => agree_unary (i := 238) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_unary (i := 240) ⟨rfl, rfl, rfl, rfl⟩ (by decide) ⟨rfl, rfl, rfl, rfl⟩ rfl rfl HEq.rfl h)
  (.cons (fun _ _ h => agree_binary (i := 239) (j := 241) ⟨rfl, rfl, rfl, rfl⟩ (by decide) ⟨rfl, rfl, rfl, rfl⟩ (by decide) ⟨rfl, rfl, rfl, rfl⟩ rfl rfl rfl HEq.rfl h)
  (.cons (fun _ _ h => agree_unary (i := 242) ⟨rfl, rfl, rfl, rfl⟩ (by decide) ⟨rfl, rfl, rfl, rfl⟩ rfl rfl HEq.rfl h)
  (.cons (fun _ _ h => agree_binary (i := 226) (j := 243) ⟨rfl, rfl, rfl, rfl⟩ (by decide) ⟨rfl, rfl, rfl, rfl⟩ (by decide) ⟨rfl, rfl, rfl, rfl⟩ rfl rfl rfl HEq.rfl h)
  (.cons (fun _ _ h => agree_binary (i := 244) (j := 244) ⟨rfl, rfl, rfl, rfl⟩ (by decide) ⟨rfl, rfl, rfl, rfl⟩ (by decide) ⟨rfl, rfl, rfl, rfl⟩ rfl rfl rfl HEq.rfl h)
  (.cons (fun _ _ h => agree_unary (i := 236) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_binary (i := 247) (j := 246) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_binary (i := 245) (j := 249) ⟨rfl, rfl, rfl, rfl⟩ (by decide) ⟨rfl, rfl, rfl, rfl⟩ (by decide) ⟨rfl, rfl, rfl, rfl⟩ rfl rfl rfl HEq.rfl h)
  (.cons (fun _ _ h => agree_unary (i := 248) ⟨rfl, rfl, rfl, rfl⟩ (by decide) ⟨rfl, rfl, rfl, rfl⟩ rfl rfl HEq.rfl h)
  (.cons (fun _ _ h => agree_binary (i := 250) (j := 251) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_binary (i := 248) (j := 253) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 255) ⟨rfl, rfl, rfl, rfl⟩ (by decide) ⟨rfl, rfl, rfl, rfl⟩ rfl rfl HEq.rfl h)
  (.cons (fun _ _ h => agree_unary (i := 256) ⟨rfl, rfl, rfl, rfl⟩ (by decide) ⟨rfl, rfl, rfl, rfl⟩ rfl rfl HEq.rfl h)
  (.cons (fun _ _ h => agree_ternary (l := 254) (i := 252) (j := 257) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.nil _))))))))))))))))))))))

theorem sim_main_part2_ops4 : Sim 259 (Cert.KernelIdeal.Gen.main_part2_ops4 (F := Ideal)) (Cert.ReferenceIdeal.Hand.main_part2_ops4 (F := Ideal)) :=
  .cons (fun _ _ h => agree_unary (i := 235) ⟨rfl, rfl, rfl, rfl⟩ (by decide) ⟨rfl, rfl, rfl, rfl⟩ rfl rfl HEq.rfl h)
  (.cons (fun _ _ h => agree_unary (i := 259) ⟨rfl, rfl, rfl, rfl⟩ (by decide) ⟨rfl, rfl, rfl, rfl⟩ rfl rfl HEq.rfl h)
  (.cons (fun _ _ h => agree_binary (i := 226) (j := 260) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 262) ⟨rfl, rfl, rfl, rfl⟩ (by decide) ⟨rfl, rfl, rfl, rfl⟩ rfl rfl HEq.rfl h)
  (.cons (fun _ _ h => agree_binary (i := 258) (j := 263) ⟨rfl, rfl, rfl, rfl⟩ (by decide) ⟨rfl, rfl, rfl, rfl⟩ (by decide) ⟨rfl, rfl, rfl, rfl⟩ rfl rfl rfl HEq.rfl h)
  (.cons (fun _ _ h => agree_unary (i := 264) ⟨rfl, rfl, rfl, rfl⟩ (by decide) ⟨rfl, rfl, rfl, rfl⟩ rfl rfl HEq.rfl h)
  (.cons (fun _ _ h => agree_unary (i := 265) ⟨rfl, rfl, rfl, rfl⟩ (by decide) ⟨rfl, rfl, rfl, rfl⟩ rfl rfl HEq.rfl h)
  (.cons (fun _ _ h => agree_unary (i := 266) ⟨rfl, rfl, rfl, rfl⟩ (by decide) ⟨rfl, rfl, rfl, rfl⟩ rfl rfl HEq.rfl h)
  (.cons (fun _ _ h => agree_binary (i := 261) (j := 267) ⟨rfl, rfl, rfl, rfl⟩ (by decide) ⟨rfl, rfl, rfl, rfl⟩ (by decide) ⟨rfl, rfl, rfl, rfl⟩ rfl rfl rfl HEq.rfl h)
  (.nil _))))))))))

theorem sim_main_part3_ops0 : Sim 269 (Cert.KernelIdeal.Gen.main_part3_ops0 (F := Ideal)) (Cert.ReferenceIdeal.Hand.main_part3_ops0 (F := Ideal)) :=
  .cons (fun _ _ h => agree_unary (i := 228) ⟨rfl, rfl, rfl, rfl⟩ (by decide) ⟨rfl, rfl, rfl, rfl⟩ rfl rfl HEq.rfl h)
  (.cons (fun _ _ h => agree_unary (i := 269) ⟨rfl, rfl, rfl, rfl⟩ (by decide) ⟨rfl, rfl, rfl, rfl⟩ rfl rfl HEq.rfl h)
  (.cons (fun _ _ h => agree_binary (i := 268) (j := 270) ⟨rfl, rfl, rfl, rfl⟩ (by decide) ⟨rfl, rfl, rfl, rfl⟩ (by decide) ⟨rfl, rfl, rfl, rfl⟩ rfl rfl rfl HEq.rfl h)
  (.cons (fun _ _ h => agree_unary (i := 230) ⟨rfl, rfl, rfl, rfl⟩ (by decide) ⟨rfl, rfl, rfl, rfl⟩ rfl rfl HEq.rfl h)
  (.cons (fun _ _ h => agree_unary (i := 272) ⟨rfl, rfl, rfl, rfl⟩ (by decide) ⟨rfl, rfl, rfl, rfl⟩ rfl rfl HEq.rfl h)
  (.cons (fun _ _ h => agree_binary (i := 271) (j := 273) ⟨rfl, rfl, rfl, rfl⟩ (by decide) ⟨rfl, rfl, rfl, rfl⟩ (by decide) ⟨rfl, rfl, rfl, rfl⟩ rfl rfl rfl HEq.rfl h)
  (.nil _))))))

theorem sim_main_part3_ops1 : Sim 275 (Cert.KernelIdeal.Gen.main_part3_ops1 (F := Ideal)) (Cert.ReferenceIdeal.Hand.main_part3_ops1 (F := Ideal)) :=
  .cons (fun _ _ h => agree_nullary ⟨rfl, rfl, rfl, rfl⟩ HEq.rfl h)
  (.cons (fun _ _ h => agree_unary (i := 275) ⟨rfl, rfl, rfl, rfl⟩ (by decide) ⟨rfl, rfl, rfl, rfl⟩ rfl rfl HEq.rfl h)
  (.cons (fun _ _ h => agree_binary (i := 274) (j := 276) ⟨rfl, rfl, rfl, rfl⟩ (by decide) ⟨rfl, rfl, rfl, rfl⟩ (by decide) ⟨rfl, rfl, rfl, rfl⟩ rfl rfl rfl HEq.rfl h)
  (.nil _)))

theorem sim_main_part3_ops2 : Sim 278 (Cert.KernelIdeal.Gen.main_part3_ops2 (F := Ideal)) (Cert.ReferenceIdeal.Hand.main_part3_ops2 (F := Ideal)) :=
  .cons (fun _ _ h => agree_unary (i := 11) ⟨rfl, rfl, rfl, rfl⟩ (by decide) ⟨rfl, rfl, rfl, rfl⟩ rfl rfl HEq.rfl h)
  (.cons (fun _ _ h => agree_reshape (i := 278) ⟨rfl, rfl, rfl, rfl⟩ (by decide) ⟨rfl, rfl, rfl, rfl⟩ rfl rfl h)
  (.cons (fun _ _ h => agree_binary (i := 277) (j := 279) ⟨rfl, rfl, rfl, rfl⟩ (by decide) ⟨rfl, rfl, rfl, rfl⟩ (by decide) ⟨rfl, rfl, rfl, rfl⟩ rfl rfl rfl HEq.rfl h)
  (.cons (fun _ _ h => agree_unary (i := 12) ⟨rfl, rfl, rfl, rfl⟩ (by decide) ⟨rfl, rfl, rfl, rfl⟩ rfl rfl HEq.rfl h)
  (.cons (fun _ _ h => agree_reshape (i := 281) ⟨rfl, rfl, rfl, rfl⟩ (by decide) ⟨rfl, rfl, rfl, rfl⟩ rfl rfl h)
  (.cons (fun _ _ h => agree_unary (i := 282) ⟨rfl, rfl, rfl, rfl⟩ (by decide) ⟨rfl, rfl, rfl, rfl⟩ rfl rfl HEq.rfl h)
  (.cons (fun _ _ h => agree_unary (i := 283) ⟨rfl, rfl, rfl, rfl⟩ (by decide) ⟨rfl, rfl, rfl, rfl⟩ rfl rfl HEq.rfl h)
  (.cons (fun _ _ h => agree_binary (i := 280) (j := 284) ⟨rfl, rfl, rfl, rfl⟩ (by decide) ⟨rfl, rfl, rfl, rfl⟩ (by decide) ⟨rfl, rfl, rfl, rfl⟩ rfl rfl rfl HEq.rfl h)
  (.cons (fun _ _ h => agree_unary (i := 14) ⟨rfl, rfl, rfl, rfl⟩ (by decide) ⟨rfl, rfl, rfl, rfl⟩ rfl rfl HEq.rfl h)
  (.cons (fun _ _ h => agree_reshape (i := 286) ⟨rfl, rfl, rfl, rfl⟩ (by decide) ⟨rfl, rfl, rfl, rfl⟩ rfl rfl h)
  (.cons (fun _ _ h => agree_unary (i := 15) ⟨rfl, rfl, rfl, rfl⟩ (by decide) ⟨rfl, rfl, rfl, rfl⟩ rfl rfl HEq.rfl h)
  (.cons (fun _ _ h => agree_reshape (i := 288) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_binary (i := 285) (j := 290) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 292) ⟨rfl, rfl, rfl, rfl⟩ (by decide) ⟨rfl, rfl, rfl, rfl⟩ rfl rfl HEq.rfl h)
  (.cons (fun _ _ h => agree_binary (i := 291) (j := 293) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.nil _))))))))))))))))))

theorem sim_main_part3_ops3 : Sim 296 (Cert.KernelIdeal.Gen.main_part3_ops3 (F := Ideal)) (Cert.ReferenceIdeal.Hand.main_part3_ops3 (F := Ideal)) :=
  .cons (fun _ _ h => agree_nullary ⟨rfl, rfl, rfl, rfl⟩ HEq.rfl h)
  (.cons (fun _ _ h => agree_binary (i := 285) (j := 296) ⟨rfl, rfl, rfl, rfl⟩ (by decide) ⟨rfl, rfl, rfl, rfl⟩ (by decide) ⟨rfl, rfl, rfl, rfl⟩ rfl rfl rfl HEq.rfl h)
  (.cons (fun _ _ h => agree_unary (i := 297) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_unary (i := 299) ⟨rfl, rfl, rfl, rfl⟩ (by decide) ⟨rfl, rfl, rfl, rfl⟩ rfl rfl HEq.rfl h)
  (.cons (fun _ _ h => agree_binary (i := 298) (j := 300) ⟨rfl, rfl, rfl, rfl⟩ (by decide) ⟨rfl, rfl, rfl, rfl⟩ (by decide) ⟨rfl, rfl, rfl, rfl⟩ rfl rfl rfl HEq.rfl h)
  (.cons (fun _ _ h => agree_unary (i := 301) ⟨rfl, rfl, rfl, rfl⟩ (by decide) ⟨rfl, rfl, rfl, rfl⟩ rfl rfl HEq.rfl h)
  (.cons (fun _ _ h => agree_binary (i := 285) (j := 302) ⟨rfl, rfl, rfl, rfl⟩ (by decide) ⟨rfl, rfl, rfl, rfl⟩ (by decide) ⟨rfl, rfl, rfl, rfl⟩ rfl rfl rfl HEq.rfl h)
  (.cons (fun _ _ h => agree_binary (i := 303) (j := 303) ⟨rfl, rfl, rfl, rfl⟩ (by decide) ⟨rfl, rfl, rfl, rfl⟩ (by decide) ⟨rfl, rfl, rfl, rfl⟩ rfl rfl rfl HEq.rfl h)
  (.cons (fun _ _ h => agree_unary (i := 295) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_binary (i := 306) (j := 305) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_binary (i := 304) (j := 308) ⟨rfl, rfl, rfl, rfl⟩ (by decide) ⟨rfl, rfl, rfl, rfl⟩ (by decide) ⟨rfl, rfl, rfl, rfl⟩ rfl rfl rfl HEq.rfl h)
  (.cons (fun _ _ h => agree_unary (i := 307) ⟨rfl, rfl, rfl, rfl⟩ (by decide) ⟨rfl, rfl, rfl, rfl⟩ rfl rfl HEq.rfl h)
  (.cons (fun _ _ h => agree_binary (i := 309) (j := 310) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_binary (i := 307) (j := 312) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 314) ⟨rfl, rfl, rfl, rfl⟩ (by decide) ⟨rfl, rfl, rfl, rfl⟩ rfl rfl HEq.rfl h)
  (.cons (fun _ _ h => agree_unary (i := 315) ⟨rfl, rfl, rfl, rfl⟩ (by decide) ⟨rfl, rfl, rfl, rfl⟩ rfl rfl HEq.rfl h)
  (.cons (fun _ _ h => agree_ternary (l := 313) (i := 311) (j := 316) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.nil _))))))))))))))))))))))

theorem sim_main_part3_ops4 : Sim 318 (Cert.KernelIdeal.Gen.main_part3_ops4 (F := Ideal)) (Cert.ReferenceIdeal.Hand.main_part3_ops4 (F := Ideal)) :=
  .cons (fun _ _ h => agree_unary (i := 294) ⟨rfl, rfl, rfl, rfl⟩ (by decide) ⟨rfl, rfl, rfl, rfl⟩ rfl rfl HEq.rfl h)
  (.cons (fun _ _ h => agree_unary (i := 318) ⟨rfl, rfl, rfl, rfl⟩ (by decide) ⟨rfl, rfl, rfl, rfl⟩ rfl rfl HEq.rfl h)
  (.cons (fun _ _ h => agree_binary (i := 285) (j := 319) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 321) ⟨rfl, rfl, rfl, rfl⟩ (by decide) ⟨rfl, rfl, rfl, rfl⟩ rfl rfl HEq.rfl h)
  (.cons (fun _ _ h => agree_binary (i := 317) (j := 322) ⟨rfl, rfl, rfl, rfl⟩ (by decide) ⟨rfl, rfl, rfl, rfl⟩ (by decide) ⟨rfl, rfl, rfl, rfl⟩ rfl rfl rfl HEq.rfl h)
  (.cons (fun _ _ h => agree_unary (i := 323) ⟨rfl, rfl, rfl, rfl⟩ (by decide) ⟨rfl, rfl, rfl, rfl⟩ rfl rfl HEq.rfl h)
  (.cons (fun _ _ h => agree_unary (i := 324) ⟨rfl, rfl, rfl, rfl⟩ (by decide) ⟨rfl, rfl, rfl, rfl⟩ rfl rfl HEq.rfl h)
  (.cons (fun _ _ h => agree_unary (i := 325) ⟨rfl, rfl, rfl, rfl⟩ (by decide) ⟨rfl, rfl, rfl, rfl⟩ rfl rfl HEq.rfl h)
  (.cons (fun _ _ h => agree_binary (i := 320) (j := 326) ⟨rfl, rfl, rfl, rfl⟩ (by decide) ⟨rfl, rfl, rfl, rfl⟩ (by decide) ⟨rfl, rfl, rfl, rfl⟩ rfl rfl rfl HEq.rfl h)
  (.cons (fun _ _ h => agree_unary (i := 287) ⟨rfl, rfl, rfl, rfl⟩ (by decide) ⟨rfl, rfl, rfl, rfl⟩ rfl rfl HEq.rfl h)
  (.cons (fun _ _ h => agree_unary (i := 328) ⟨rfl, rfl, rfl, rfl⟩ (by decide) ⟨rfl, rfl, rfl, rfl⟩ rfl rfl HEq.rfl h)
  (.cons (fun _ _ h => agree_binary (i := 327) (j := 329) ⟨rfl, rfl, rfl, rfl⟩ (by decide) ⟨rfl, rfl, rfl, rfl⟩ (by decide) ⟨rfl, rfl, rfl, rfl⟩ rfl rfl rfl HEq.rfl h)
  (.cons (fun _ _ h => agree_unary (i := 289) ⟨rfl, rfl, rfl, rfl⟩ (by decide) ⟨rfl, rfl, rfl, rfl⟩ rfl rfl HEq.rfl h)
  (.cons (fun _ _ h => agree_unary (i := 331) ⟨rfl, rfl, rfl, rfl⟩ (by decide) ⟨rfl, rfl, rfl, rfl⟩ rfl rfl HEq.rfl h)
  (.cons (fun _ _ h => agree_binary (i := 330) (j := 332) ⟨rfl, rfl, rfl, rfl⟩ (by decide) ⟨rfl, rfl, rfl, rfl⟩ (by decide) ⟨rfl, rfl, rfl, rfl⟩ rfl rfl rfl HEq.rfl h)
  (.nil _))))))))))))))))

theorem sim_main_part3_ops5 : Sim 334 (Cert.KernelIdeal.Gen.main_part3_ops5 (F := Ideal)) (Cert.ReferenceIdeal.Hand.main_part3_ops5 (F := Ideal)) :=
  .cons (fun _ _ h => agree_nullary ⟨rfl, rfl, rfl, rfl⟩ HEq.rfl h)
  (.cons (fun _ _ h => agree_unary (i := 334) ⟨rfl, rfl, rfl, rfl⟩ (by decide) ⟨rfl, rfl, rfl, rfl⟩ rfl rfl HEq.rfl h)
  (.cons (fun _ _ h => agree_binary (i := 333) (j := 335) ⟨rfl, rfl, rfl, rfl⟩ (by decide) ⟨rfl, rfl, rfl, rfl⟩ (by decide) ⟨rfl, rfl, rfl, rfl⟩ rfl rfl rfl HEq.rfl h)
  (.nil _)))

theorem sim_main_part3_ops6 : Sim 337 (Cert.KernelIdeal.Gen.main_part3_ops6 (F := Ideal)) (Cert.ReferenceIdeal.Hand.main_part3_ops6 (F := Ideal)) :=
  .cons (fun _ _ h => agree_nullary ⟨rfl, rfl, rfl, rfl⟩ HEq.rfl h)
  (.cons (fun _ _ h => agree_unary (i := 337) ⟨rfl, rfl, rfl, rfl⟩ (by decide) ⟨rfl, rfl, rfl, rfl⟩ rfl rfl HEq.rfl h)
  (.cons (fun _ _ h => agree_binary (i := 19) (j := 338) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 340) ⟨rfl, rfl, rfl, rfl⟩ (by decide) ⟨rfl, rfl, rfl, rfl⟩ rfl rfl HEq.rfl h)
  (.cons (fun _ _ h => agree_binary (i := 19) (j := 341) ⟨rfl, rfl, rfl, rfl⟩ (by decide) ⟨rfl, rfl, rfl, rfl⟩ (by decide) ⟨rfl, rfl, rfl, rfl⟩ rfl rfl rfl HEq.rfl h)
  (.cons (fun _ _ h => agree_ternary (l := 339) (i := 342) (j := 19) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.cons (fun _ _ h => agree_unary (i := 343) ⟨rfl, rfl, rfl, rfl⟩ (by decide) ⟨rfl, rfl, rfl, rfl⟩ rfl rfl HEq.rfl h)
  (.cons (fun _ _ h => agree_binary (i := 336) (j := 344) ⟨rfl, rfl, rfl, rfl⟩ (by decide) ⟨rfl, rfl, rfl, rfl⟩ (by decide) ⟨rfl, rfl, rfl, rfl⟩ rfl rfl rfl HEq.rfl h)
  (.cons (fun _ _ h => agree_unary (i := 6) ⟨rfl, rfl, rfl, rfl⟩ (by decide) ⟨rfl, rfl, rfl, rfl⟩ rfl rfl HEq.rfl h)
  (.cons (fun _ _ h => agree_reshape (i := 346) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_unary (i := 348) ⟨rfl, rfl, rfl, rfl⟩ (by decide) ⟨rfl, rfl, rfl, rfl⟩ rfl rfl HEq.rfl h)
  (.cons (fun _ _ h => agree_binary (i := 2) (j := 349) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 351) ⟨rfl, rfl, rfl, rfl⟩ (by decide) ⟨rfl, rfl, rfl, rfl⟩ rfl rfl HEq.rfl h)
  (.cons (fun _ _ h => agree_binary (i := 2) (j := 352) ⟨rfl, rfl, rfl, rfl⟩ (by decide) ⟨rfl, rfl, rfl, rfl⟩ (by decide) ⟨rfl, rfl, rfl, rfl⟩ rfl rfl rfl HEq.rfl h)
  (.nil _)))))))))))))))))

theorem sim_main_part4_ops0 : Sim 354 (Cert.KernelIdeal.Gen.main_part4_ops0 (F := Ideal)) (Cert.ReferenceIdeal.Hand.main_part4_ops0 (F := Ideal)) :=
  .cons (fun _ _ h => agree_ternary (l := 350) (i := 353) (j := 2) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.cons (fun _ _ h => agree_unary (i := 354) ⟨rfl, rfl, rfl, rfl⟩ (by decide) ⟨rfl, rfl, rfl, rfl⟩ rfl rfl HEq.rfl h)
  (.cons (fun _ _ h => agree_binary (i := 347) (j := 355) ⟨rfl, rfl, rfl, rfl⟩ (by decide) ⟨rfl, rfl, rfl, rfl⟩ (by decide) ⟨rfl, rfl, rfl, rfl⟩ rfl rfl rfl HEq.rfl h)
  (.cons (fun _ _ h => agree_binary (i := 345) (j := 356) ⟨rfl, rfl, rfl, rfl⟩ (by decide) ⟨rfl, rfl, rfl, rfl⟩ (by decide) ⟨rfl, rfl, rfl, rfl⟩ rfl rfl rfl HEq.rfl h)
  (.nil _))))

theorem sim_main_part4_ops1 : Sim 358 (Cert.KernelIdeal.Gen.main_part4_ops1 (F := Ideal)) (Cert.ReferenceIdeal.Hand.main_part4_ops1 (F := Ideal)) :=
  .cons (fun _ _ h => agree_nullary ⟨rfl, rfl, rfl, rfl⟩ HEq.rfl h)
  (.cons (fun _ _ h => agree_unary (i := 358) ⟨rfl, rfl, rfl, rfl⟩ (by decide) ⟨rfl, rfl, rfl, rfl⟩ rfl rfl HEq.rfl h)
  (.cons (fun _ _ h => agree_binary (i := 357) (j := 359) ⟨rfl, rfl, rfl, rfl⟩ (by decide) ⟨rfl, rfl, rfl, rfl⟩ (by decide) ⟨rfl, rfl, rfl, rfl⟩ rfl rfl rfl HEq.rfl h)
  (.nil _)))

theorem sim_main_part4_ops2 : Sim 361 (Cert.KernelIdeal.Gen.main_part4_ops2 (F := Ideal)) (Cert.ReferenceIdeal.Hand.main_part4_ops2 (F := Ideal)) :=
  .cons (fun _ _ h => agree_nullary ⟨rfl, rfl, rfl, rfl⟩ HEq.rfl h)
  (.cons (fun _ _ h => agree_unary (i := 361) ⟨rfl, rfl, rfl, rfl⟩ (by decide) ⟨rfl, rfl, rfl, rfl⟩ rfl rfl HEq.rfl h)
  (.cons (fun _ _ h => agree_unary (i := 21) ⟨rfl, rfl, rfl, rfl⟩ (by decide) ⟨rfl, rfl, rfl, rfl⟩ rfl rfl HEq.rfl h)
  (.cons (fun _ _ h => agree_ternary (l := 362) (i := 363) (j := 360) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.cons (fun _ _ h => agree_unary (i := 13) ⟨rfl, rfl, rfl, rfl⟩ (by decide) ⟨rfl, rfl, rfl, rfl⟩ rfl rfl HEq.rfl h)
  (.cons (fun _ _ h => agree_reshape (i := 365) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_binary (i := 367) (j := 366) ⟨rfl, rfl, rfl, rfl⟩ (by decide) ⟨rfl, rfl, rfl, rfl⟩ (by decide) ⟨rfl, rfl, rfl, rfl⟩ rfl rfl rfl HEq.rfl h)
  (.cons (fun _ _ h => agree_unary (i := 368) ⟨rfl, rfl, rfl, rfl⟩ (by decide) ⟨rfl, rfl, rfl, rfl⟩ rfl rfl HEq.rfl h)
  (.cons (fun _ _ h => agree_binary (i := 369) (j := 336) ⟨rfl, rfl, rfl, rfl⟩ (by decide) ⟨rfl, rfl, rfl, rfl⟩ (by decide) ⟨rfl, rfl, rfl, rfl⟩ rfl rfl rfl HEq.rfl h)
  (.cons (fun _ _ h => agree_binary (i := 370) (j := 364) ⟨rfl, rfl, rfl, rfl⟩ (by decide) ⟨rfl, rfl, rfl, rfl⟩ (by decide) ⟨rfl, rfl, rfl, rfl⟩ rfl rfl rfl HEq.rfl h)
  (.cons (fun _ _ h => agree_unary (i := 7) ⟨rfl, rfl, rfl, rfl⟩ (by decide) ⟨rfl, rfl, rfl, rfl⟩ rfl rfl HEq.rfl h)
  (.cons (fun _ _ h => agree_reshape (i := 372) ⟨rfl, rfl, rfl, rfl⟩ (by decide) ⟨rfl, rfl, rfl, rfl⟩ rfl rfl h)
  (.cons (fun _ _ h => agree_binary (i := 371) (j := 373) ⟨rfl, rfl, rfl, rfl⟩ (by decide) ⟨rfl, rfl, rfl, rfl⟩ (by decide) ⟨rfl, rfl, rfl, rfl⟩ rfl rfl rfl HEq.rfl h)
  (.cons (fun _ _ h => agree_unary (i := 8) ⟨rfl, rfl, rfl, rfl⟩ (by decide) ⟨rfl, rfl, rfl, rfl⟩ rfl rfl HEq.rfl h)
  (.cons (fun _ _ h => agree_reshape (i := 375) ⟨rfl, rfl, rfl, rfl⟩ (by decide) ⟨rfl, rfl, rfl, rfl⟩ rfl rfl h)
  (.cons (fun _ _ h => agree_unary (i := 376) ⟨rfl, rfl, rfl, rfl⟩ (by decide) ⟨rfl, rfl, rfl, rfl⟩ rfl rfl HEq.rfl h)
  (.cons (fun _ _ h => agree_unary (i := 377) ⟨rfl, rfl, rfl, rfl⟩ (by decide) ⟨rfl, rfl, rfl, rfl⟩ rfl rfl HEq.rfl h)
  (.cons (fun _ _ h => agree_binary (i := 374) (j := 378) ⟨rfl, rfl, rfl, rfl⟩ (by decide) ⟨rfl, rfl, rfl, rfl⟩ (by decide) ⟨rfl, rfl, rfl, rfl⟩ rfl rfl rfl HEq.rfl h)
  (.cons (fun _ _ h => agree_unary (i := 9) ⟨rfl, rfl, rfl, rfl⟩ (by decide) ⟨rfl, rfl, rfl, rfl⟩ rfl rfl HEq.rfl h)
  (.cons (fun _ _ h => agree_reshape (i := 380) ⟨rfl, rfl, rfl, rfl⟩ (by decide) ⟨rfl, rfl, rfl, rfl⟩ rfl rfl h)
  (.cons (fun _ _ h => agree_unary (i := 10) ⟨rfl, rfl, rfl, rfl⟩ (by decide) ⟨rfl, rfl, rfl, rfl⟩ rfl rfl HEq.rfl h)
  (.cons (fun _ _ h => agree_reshape (i := 382) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_binary (i := 379) (j := 384) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 386) ⟨rfl, rfl, rfl, rfl⟩ (by decide) ⟨rfl, rfl, rfl, rfl⟩ rfl rfl HEq.rfl h)
  (.cons (fun _ _ h => agree_binary (i := 385) (j := 387) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.nil _)))))))))))))))))))))))))))))

end Cert.Bridge

end
-- ==== Proof.BridgeC.lean ====
/-
  The two programs' host operations, paired window by window (part C).

  For each listed window: the kernel program's operations and the reference program's are the same operations in the
  same order — the one at position k reads buffers of smaller index through the same function on either side and
  writes the buffer of index k — so memories that agree below the window's first position agree below its last.
-/
import proofs.«141498_g68332929679506_cont_9to1c4b_488_2_alg».proof.Proof.KernelIdealFrameP
import proofs.«141498_g68332929679506_cont_9to1c4b_488_2_alg».proof.Proof.RefProg
import proofs.«141498_g68332929679506_cont_9to1c4b_488_2_alg».proof.Proof.LibHostSim
import Idealize.ShloMosaic.PureOps.Ideal

set_option maxRecDepth 8192

noncomputable section

namespace Cert.Bridge

open Idealize.ShloMosaic Idealize.ShloMosaic.TcCoe Idealize.ShloMosaic.StableHlo Idealize.ShloMosaic.StableHlo.HostSim

theorem sim_main_part4_ops3 : Sim 390 (Cert.KernelIdeal.Gen.main_part4_ops3 (F := Ideal)) (Cert.ReferenceIdeal.Hand.main_part4_ops3 (F := Ideal)) :=
  .cons (fun _ _ h => agree_nullary ⟨rfl, rfl, rfl, rfl⟩ HEq.rfl h)
  (.cons (fun _ _ h => agree_binary (i := 379) (j := 390) ⟨rfl, rfl, rfl, rfl⟩ (by decide) ⟨rfl, rfl, rfl, rfl⟩ (by decide) ⟨rfl, rfl, rfl, rfl⟩ rfl rfl rfl HEq.rfl h)
  (.cons (fun _ _ h => agree_unary (i := 391) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_unary (i := 393) ⟨rfl, rfl, rfl, rfl⟩ (by decide) ⟨rfl, rfl, rfl, rfl⟩ rfl rfl HEq.rfl h)
  (.cons (fun _ _ h => agree_binary (i := 392) (j := 394) ⟨rfl, rfl, rfl, rfl⟩ (by decide) ⟨rfl, rfl, rfl, rfl⟩ (by decide) ⟨rfl, rfl, rfl, rfl⟩ rfl rfl rfl HEq.rfl h)
  (.cons (fun _ _ h => agree_unary (i := 395) ⟨rfl, rfl, rfl, rfl⟩ (by decide) ⟨rfl, rfl, rfl, rfl⟩ rfl rfl HEq.rfl h)
  (.cons (fun _ _ h => agree_binary (i := 379) (j := 396) ⟨rfl, rfl, rfl, rfl⟩ (by decide) ⟨rfl, rfl, rfl, rfl⟩ (by decide) ⟨rfl, rfl, rfl, rfl⟩ rfl rfl rfl HEq.rfl h)
  (.cons (fun _ _ h => agree_binary (i := 397) (j := 397) ⟨rfl, rfl, rfl, rfl⟩ (by decide) ⟨rfl, rfl, rfl, rfl⟩ (by decide) ⟨rfl, rfl, rfl, rfl⟩ rfl rfl rfl HEq.rfl h)
  (.cons (fun _ _ h => agree_unary (i := 389) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_binary (i := 400) (j := 399) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_binary (i := 398) (j := 402) ⟨rfl, rfl, rfl, rfl⟩ (by decide) ⟨rfl, rfl, rfl, rfl⟩ (by decide) ⟨rfl, rfl, rfl, rfl⟩ rfl rfl rfl HEq.rfl h)
  (.cons (fun _ _ h => agree_unary (i := 401) ⟨rfl, rfl, rfl, rfl⟩ (by decide) ⟨rfl, rfl, rfl, rfl⟩ rfl rfl HEq.rfl h)
  (.cons (fun _ _ h => agree_binary (i := 403) (j := 404) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_binary (i := 401) (j := 406) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 408) ⟨rfl, rfl, rfl, rfl⟩ (by decide) ⟨rfl, rfl, rfl, rfl⟩ rfl rfl HEq.rfl h)
  (.cons (fun _ _ h => agree_unary (i := 409) ⟨rfl, rfl, rfl, rfl⟩ (by decide) ⟨rfl, rfl, rfl, rfl⟩ rfl rfl HEq.rfl h)
  (.cons (fun _ _ h => agree_ternary (l := 407) (i := 405) (j := 410) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.nil _))))))))))))))))))))))

theorem sim_main_part4_ops4 : Sim 412 (Cert.KernelIdeal.Gen.main_part4_ops4 (F := Ideal)) (Cert.ReferenceIdeal.Hand.main_part4_ops4 (F := Ideal)) :=
  .cons (fun _ _ h => agree_unary (i := 388) ⟨rfl, rfl, rfl, rfl⟩ (by decide) ⟨rfl, rfl, rfl, rfl⟩ rfl rfl HEq.rfl h)
  (.cons (fun _ _ h => agree_unary (i := 412) ⟨rfl, rfl, rfl, rfl⟩ (by decide) ⟨rfl, rfl, rfl, rfl⟩ rfl rfl HEq.rfl h)
  (.cons (fun _ _ h => agree_binary (i := 379) (j := 413) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 415) ⟨rfl, rfl, rfl, rfl⟩ (by decide) ⟨rfl, rfl, rfl, rfl⟩ rfl rfl HEq.rfl h)
  (.cons (fun _ _ h => agree_binary (i := 411) (j := 416) ⟨rfl, rfl, rfl, rfl⟩ (by decide) ⟨rfl, rfl, rfl, rfl⟩ (by decide) ⟨rfl, rfl, rfl, rfl⟩ rfl rfl rfl HEq.rfl h)
  (.cons (fun _ _ h => agree_unary (i := 417) ⟨rfl, rfl, rfl, rfl⟩ (by decide) ⟨rfl, rfl, rfl, rfl⟩ rfl rfl HEq.rfl h)
  (.cons (fun _ _ h => agree_unary (i := 418) ⟨rfl, rfl, rfl, rfl⟩ (by decide) ⟨rfl, rfl, rfl, rfl⟩ rfl rfl HEq.rfl h)
  (.cons (fun _ _ h => agree_unary (i := 419) ⟨rfl, rfl, rfl, rfl⟩ (by decide) ⟨rfl, rfl, rfl, rfl⟩ rfl rfl HEq.rfl h)
  (.cons (fun _ _ h => agree_binary (i := 414) (j := 420) ⟨rfl, rfl, rfl, rfl⟩ (by decide) ⟨rfl, rfl, rfl, rfl⟩ (by decide) ⟨rfl, rfl, rfl, rfl⟩ rfl rfl rfl HEq.rfl h)
  (.cons (fun _ _ h => agree_unary (i := 381) ⟨rfl, rfl, rfl, rfl⟩ (by decide) ⟨rfl, rfl, rfl, rfl⟩ rfl rfl HEq.rfl h)
  (.cons (fun _ _ h => agree_unary (i := 422) ⟨rfl, rfl, rfl, rfl⟩ (by decide) ⟨rfl, rfl, rfl, rfl⟩ rfl rfl HEq.rfl h)
  (.cons (fun _ _ h => agree_binary (i := 421) (j := 423) ⟨rfl, rfl, rfl, rfl⟩ (by decide) ⟨rfl, rfl, rfl, rfl⟩ (by decide) ⟨rfl, rfl, rfl, rfl⟩ rfl rfl rfl HEq.rfl h)
  (.cons (fun _ _ h => agree_unary (i := 383) ⟨rfl, rfl, rfl, rfl⟩ (by decide) ⟨rfl, rfl, rfl, rfl⟩ rfl rfl HEq.rfl h)
  (.cons (fun _ _ h => agree_unary (i := 425) ⟨rfl, rfl, rfl, rfl⟩ (by decide) ⟨rfl, rfl, rfl, rfl⟩ rfl rfl HEq.rfl h)
  (.cons (fun _ _ h => agree_binary (i := 424) (j := 426) ⟨rfl, rfl, rfl, rfl⟩ (by decide) ⟨rfl, rfl, rfl, rfl⟩ (by decide) ⟨rfl, rfl, rfl, rfl⟩ rfl rfl rfl HEq.rfl h)
  (.nil _))))))))))))))))

theorem sim_main_part4_ops5 : Sim 428 (Cert.KernelIdeal.Gen.main_part4_ops5 (F := Ideal)) (Cert.ReferenceIdeal.Hand.main_part4_ops5 (F := Ideal)) :=
  .cons (fun _ _ h => agree_nullary ⟨rfl, rfl, rfl, rfl⟩ HEq.rfl h)
  (.cons (fun _ _ h => agree_unary (i := 428) ⟨rfl, rfl, rfl, rfl⟩ (by decide) ⟨rfl, rfl, rfl, rfl⟩ rfl rfl HEq.rfl h)
  (.cons (fun _ _ h => agree_binary (i := 427) (j := 429) ⟨rfl, rfl, rfl, rfl⟩ (by decide) ⟨rfl, rfl, rfl, rfl⟩ (by decide) ⟨rfl, rfl, rfl, rfl⟩ rfl rfl rfl HEq.rfl h)
  (.nil _)))

theorem sim_main_part4_ops6 : Sim 431 (Cert.KernelIdeal.Gen.main_part4_ops6 (F := Ideal)) (Cert.ReferenceIdeal.Hand.main_part4_ops6 (F := Ideal)) :=
  .cons (fun _ _ h => agree_unary (i := 11) ⟨rfl, rfl, rfl, rfl⟩ (by decide) ⟨rfl, rfl, rfl, rfl⟩ rfl rfl HEq.rfl h)
  (.cons (fun _ _ h => agree_reshape (i := 431) ⟨rfl, rfl, rfl, rfl⟩ (by decide) ⟨rfl, rfl, rfl, rfl⟩ rfl rfl h)
  (.cons (fun _ _ h => agree_binary (i := 430) (j := 432) ⟨rfl, rfl, rfl, rfl⟩ (by decide) ⟨rfl, rfl, rfl, rfl⟩ (by decide) ⟨rfl, rfl, rfl, rfl⟩ rfl rfl rfl HEq.rfl h)
  (.cons (fun _ _ h => agree_unary (i := 12) ⟨rfl, rfl, rfl, rfl⟩ (by decide) ⟨rfl, rfl, rfl, rfl⟩ rfl rfl HEq.rfl h)
  (.cons (fun _ _ h => agree_reshape (i := 434) ⟨rfl, rfl, rfl, rfl⟩ (by decide) ⟨rfl, rfl, rfl, rfl⟩ rfl rfl h)
  (.cons (fun _ _ h => agree_unary (i := 435) ⟨rfl, rfl, rfl, rfl⟩ (by decide) ⟨rfl, rfl, rfl, rfl⟩ rfl rfl HEq.rfl h)
  (.cons (fun _ _ h => agree_unary (i := 436) ⟨rfl, rfl, rfl, rfl⟩ (by decide) ⟨rfl, rfl, rfl, rfl⟩ rfl rfl HEq.rfl h)
  (.cons (fun _ _ h => agree_binary (i := 433) (j := 437) ⟨rfl, rfl, rfl, rfl⟩ (by decide) ⟨rfl, rfl, rfl, rfl⟩ (by decide) ⟨rfl, rfl, rfl, rfl⟩ rfl rfl rfl HEq.rfl h)
  (.nil _))))))))

theorem sim_main_part5_ops0 : Sim 439 (Cert.KernelIdeal.Gen.main_part5_ops0 (F := Ideal)) (Cert.ReferenceIdeal.Hand.main_part5_ops0 (F := Ideal)) :=
  .cons (fun _ _ h => agree_unary (i := 14) ⟨rfl, rfl, rfl, rfl⟩ (by decide) ⟨rfl, rfl, rfl, rfl⟩ rfl rfl HEq.rfl h)
  (.cons (fun _ _ h => agree_reshape (i := 439) ⟨rfl, rfl, rfl, rfl⟩ (by decide) ⟨rfl, rfl, rfl, rfl⟩ rfl rfl h)
  (.cons (fun _ _ h => agree_unary (i := 15) ⟨rfl, rfl, rfl, rfl⟩ (by decide) ⟨rfl, rfl, rfl, rfl⟩ rfl rfl HEq.rfl h)
  (.cons (fun _ _ h => agree_reshape (i := 441) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_binary (i := 438) (j := 443) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 445) ⟨rfl, rfl, rfl, rfl⟩ (by decide) ⟨rfl, rfl, rfl, rfl⟩ rfl rfl HEq.rfl h)
  (.cons (fun _ _ h => agree_binary (i := 444) (j := 446) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.nil _))))))))))

theorem sim_main_part5_ops1 : Sim 449 (Cert.KernelIdeal.Gen.main_part5_ops1 (F := Ideal)) (Cert.ReferenceIdeal.Hand.main_part5_ops1 (F := Ideal)) :=
  .cons (fun _ _ h => agree_nullary ⟨rfl, rfl, rfl, rfl⟩ HEq.rfl h)
  (.cons (fun _ _ h => agree_binary (i := 438) (j := 449) ⟨rfl, rfl, rfl, rfl⟩ (by decide) ⟨rfl, rfl, rfl, rfl⟩ (by decide) ⟨rfl, rfl, rfl, rfl⟩ rfl rfl rfl HEq.rfl h)
  (.cons (fun _ _ h => agree_unary (i := 450) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_unary (i := 452) ⟨rfl, rfl, rfl, rfl⟩ (by decide) ⟨rfl, rfl, rfl, rfl⟩ rfl rfl HEq.rfl h)
  (.cons (fun _ _ h => agree_binary (i := 451) (j := 453) ⟨rfl, rfl, rfl, rfl⟩ (by decide) ⟨rfl, rfl, rfl, rfl⟩ (by decide) ⟨rfl, rfl, rfl, rfl⟩ rfl rfl rfl HEq.rfl h)
  (.cons (fun _ _ h => agree_unary (i := 454) ⟨rfl, rfl, rfl, rfl⟩ (by decide) ⟨rfl, rfl, rfl, rfl⟩ rfl rfl HEq.rfl h)
  (.cons (fun _ _ h => agree_binary (i := 438) (j := 455) ⟨rfl, rfl, rfl, rfl⟩ (by decide) ⟨rfl, rfl, rfl, rfl⟩ (by decide) ⟨rfl, rfl, rfl, rfl⟩ rfl rfl rfl HEq.rfl h)
  (.cons (fun _ _ h => agree_binary (i := 456) (j := 456) ⟨rfl, rfl, rfl, rfl⟩ (by decide) ⟨rfl, rfl, rfl, rfl⟩ (by decide) ⟨rfl, rfl, rfl, rfl⟩ rfl rfl rfl HEq.rfl h)
  (.cons (fun _ _ h => agree_unary (i := 448) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_binary (i := 459) (j := 458) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_binary (i := 457) (j := 461) ⟨rfl, rfl, rfl, rfl⟩ (by decide) ⟨rfl, rfl, rfl, rfl⟩ (by decide) ⟨rfl, rfl, rfl, rfl⟩ rfl rfl rfl HEq.rfl h)
  (.cons (fun _ _ h => agree_unary (i := 460) ⟨rfl, rfl, rfl, rfl⟩ (by decide) ⟨rfl, rfl, rfl, rfl⟩ rfl rfl HEq.rfl h)
  (.cons (fun _ _ h => agree_binary (i := 462) (j := 463) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_binary (i := 460) (j := 465) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 467) ⟨rfl, rfl, rfl, rfl⟩ (by decide) ⟨rfl, rfl, rfl, rfl⟩ rfl rfl HEq.rfl h)
  (.cons (fun _ _ h => agree_unary (i := 468) ⟨rfl, rfl, rfl, rfl⟩ (by decide) ⟨rfl, rfl, rfl, rfl⟩ rfl rfl HEq.rfl h)
  (.cons (fun _ _ h => agree_ternary (l := 466) (i := 464) (j := 469) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.nil _))))))))))))))))))))))

theorem sim_main_part5_ops2 : Sim 471 (Cert.KernelIdeal.Gen.main_part5_ops2 (F := Ideal)) (Cert.ReferenceIdeal.Hand.main_part5_ops2 (F := Ideal)) :=
  .cons (fun _ _ h => agree_unary (i := 447) ⟨rfl, rfl, rfl, rfl⟩ (by decide) ⟨rfl, rfl, rfl, rfl⟩ rfl rfl HEq.rfl h)
  (.cons (fun _ _ h => agree_unary (i := 471) ⟨rfl, rfl, rfl, rfl⟩ (by decide) ⟨rfl, rfl, rfl, rfl⟩ rfl rfl HEq.rfl h)
  (.cons (fun _ _ h => agree_binary (i := 438) (j := 472) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 474) ⟨rfl, rfl, rfl, rfl⟩ (by decide) ⟨rfl, rfl, rfl, rfl⟩ rfl rfl HEq.rfl h)
  (.cons (fun _ _ h => agree_binary (i := 470) (j := 475) ⟨rfl, rfl, rfl, rfl⟩ (by decide) ⟨rfl, rfl, rfl, rfl⟩ (by decide) ⟨rfl, rfl, rfl, rfl⟩ rfl rfl rfl HEq.rfl h)
  (.cons (fun _ _ h => agree_unary (i := 476) ⟨rfl, rfl, rfl, rfl⟩ (by decide) ⟨rfl, rfl, rfl, rfl⟩ rfl rfl HEq.rfl h)
  (.cons (fun _ _ h => agree_unary (i := 477) ⟨rfl, rfl, rfl, rfl⟩ (by decide) ⟨rfl, rfl, rfl, rfl⟩ rfl rfl HEq.rfl h)
  (.cons (fun _ _ h => agree_unary (i := 478) ⟨rfl, rfl, rfl, rfl⟩ (by decide) ⟨rfl, rfl, rfl, rfl⟩ rfl rfl HEq.rfl h)
  (.cons (fun _ _ h => agree_binary (i := 473) (j := 479) ⟨rfl, rfl, rfl, rfl⟩ (by decide) ⟨rfl, rfl, rfl, rfl⟩ (by decide) ⟨rfl, rfl, rfl, rfl⟩ rfl rfl rfl HEq.rfl h)
  (.cons (fun _ _ h => agree_unary (i := 440) ⟨rfl, rfl, rfl, rfl⟩ (by decide) ⟨rfl, rfl, rfl, rfl⟩ rfl rfl HEq.rfl h)
  (.cons (fun _ _ h => agree_unary (i := 481) ⟨rfl, rfl, rfl, rfl⟩ (by decide) ⟨rfl, rfl, rfl, rfl⟩ rfl rfl HEq.rfl h)
  (.cons (fun _ _ h => agree_binary (i := 480) (j := 482) ⟨rfl, rfl, rfl, rfl⟩ (by decide) ⟨rfl, rfl, rfl, rfl⟩ (by decide) ⟨rfl, rfl, rfl, rfl⟩ rfl rfl rfl HEq.rfl h)
  (.cons (fun _ _ h => agree_unary (i := 442) ⟨rfl, rfl, rfl, rfl⟩ (by decide) ⟨rfl, rfl, rfl, rfl⟩ rfl rfl HEq.rfl h)
  (.cons (fun _ _ h => agree_unary (i := 484) ⟨rfl, rfl, rfl, rfl⟩ (by decide) ⟨rfl, rfl, rfl, rfl⟩ rfl rfl HEq.rfl h)
  (.cons (fun _ _ h => agree_binary (i := 483) (j := 485) ⟨rfl, rfl, rfl, rfl⟩ (by decide) ⟨rfl, rfl, rfl, rfl⟩ (by decide) ⟨rfl, rfl, rfl, rfl⟩ rfl rfl rfl HEq.rfl h)
  (.nil _))))))))))))))))

theorem sim_main_part5_ops3 : Sim 487 (Cert.KernelIdeal.Gen.main_part5_ops3 (F := Ideal)) (Cert.ReferenceIdeal.Hand.main_part5_ops3 (F := Ideal)) :=
  .cons (fun _ _ h => agree_nullary ⟨rfl, rfl, rfl, rfl⟩ HEq.rfl h)
  (.cons (fun _ _ h => agree_unary (i := 487) ⟨rfl, rfl, rfl, rfl⟩ (by decide) ⟨rfl, rfl, rfl, rfl⟩ rfl rfl HEq.rfl h)
  (.cons (fun _ _ h => agree_binary (i := 486) (j := 488) ⟨rfl, rfl, rfl, rfl⟩ (by decide) ⟨rfl, rfl, rfl, rfl⟩ (by decide) ⟨rfl, rfl, rfl, rfl⟩ rfl rfl rfl HEq.rfl h)
  (.nil _)))

theorem sim_main_part5_ops4 : Sim 490 (Cert.KernelIdeal.Gen.main_part5_ops4 (F := Ideal)) (Cert.ReferenceIdeal.Hand.main_part5_ops4 (F := Ideal)) :=
  .cons (fun _ _ h => agree_nullary ⟨rfl, rfl, rfl, rfl⟩ HEq.rfl h)
  (.cons (fun _ _ h => agree_unary (i := 490) ⟨rfl, rfl, rfl, rfl⟩ (by decide) ⟨rfl, rfl, rfl, rfl⟩ rfl rfl HEq.rfl h)
  (.cons (fun _ _ h => agree_binary (i := 19) (j := 491) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 493) ⟨rfl, rfl, rfl, rfl⟩ (by decide) ⟨rfl, rfl, rfl, rfl⟩ rfl rfl HEq.rfl h)
  (.cons (fun _ _ h => agree_binary (i := 19) (j := 494) ⟨rfl, rfl, rfl, rfl⟩ (by decide) ⟨rfl, rfl, rfl, rfl⟩ (by decide) ⟨rfl, rfl, rfl, rfl⟩ rfl rfl rfl HEq.rfl h)
  (.cons (fun _ _ h => agree_ternary (l := 492) (i := 495) (j := 19) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.cons (fun _ _ h => agree_unary (i := 496) ⟨rfl, rfl, rfl, rfl⟩ (by decide) ⟨rfl, rfl, rfl, rfl⟩ rfl rfl HEq.rfl h)
  (.cons (fun _ _ h => agree_binary (i := 489) (j := 497) ⟨rfl, rfl, rfl, rfl⟩ (by decide) ⟨rfl, rfl, rfl, rfl⟩ (by decide) ⟨rfl, rfl, rfl, rfl⟩ rfl rfl rfl HEq.rfl h)
  (.cons (fun _ _ h => agree_unary (i := 6) ⟨rfl, rfl, rfl, rfl⟩ (by decide) ⟨rfl, rfl, rfl, rfl⟩ rfl rfl HEq.rfl h)
  (.cons (fun _ _ h => agree_reshape (i := 499) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_unary (i := 501) ⟨rfl, rfl, rfl, rfl⟩ (by decide) ⟨rfl, rfl, rfl, rfl⟩ rfl rfl HEq.rfl h)
  (.cons (fun _ _ h => agree_binary (i := 2) (j := 502) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 504) ⟨rfl, rfl, rfl, rfl⟩ (by decide) ⟨rfl, rfl, rfl, rfl⟩ rfl rfl HEq.rfl h)
  (.cons (fun _ _ h => agree_binary (i := 2) (j := 505) ⟨rfl, rfl, rfl, rfl⟩ (by decide) ⟨rfl, rfl, rfl, rfl⟩ (by decide) ⟨rfl, rfl, rfl, rfl⟩ rfl rfl rfl HEq.rfl h)
  (.cons (fun _ _ h => agree_ternary (l := 503) (i := 506) (j := 2) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.cons (fun _ _ h => agree_unary (i := 507) ⟨rfl, rfl, rfl, rfl⟩ (by decide) ⟨rfl, rfl, rfl, rfl⟩ rfl rfl HEq.rfl h)
  (.cons (fun _ _ h => agree_binary (i := 500) (j := 508) ⟨rfl, rfl, rfl, rfl⟩ (by decide) ⟨rfl, rfl, rfl, rfl⟩ (by decide) ⟨rfl, rfl, rfl, rfl⟩ rfl rfl rfl HEq.rfl h)
  (.cons (fun _ _ h => agree_binary (i := 498) (j := 509) ⟨rfl, rfl, rfl, rfl⟩ (by decide) ⟨rfl, rfl, rfl, rfl⟩ (by decide) ⟨rfl, rfl, rfl, rfl⟩ rfl rfl rfl HEq.rfl h)
  (.nil _)))))))))))))))))))))

theorem sim_main_part5_ops5 : Sim 511 (Cert.KernelIdeal.Gen.main_part5_ops5 (F := Ideal)) (Cert.ReferenceIdeal.Hand.main_part5_ops5 (F := Ideal)) :=
  .cons (fun _ _ h => agree_nullary ⟨rfl, rfl, rfl, rfl⟩ HEq.rfl h)
  (.cons (fun _ _ h => agree_unary (i := 511) ⟨rfl, rfl, rfl, rfl⟩ (by decide) ⟨rfl, rfl, rfl, rfl⟩ rfl rfl HEq.rfl h)
  (.cons (fun _ _ h => agree_binary (i := 510) (j := 512) ⟨rfl, rfl, rfl, rfl⟩ (by decide) ⟨rfl, rfl, rfl, rfl⟩ (by decide) ⟨rfl, rfl, rfl, rfl⟩ rfl rfl rfl HEq.rfl h)
  (.nil _)))

theorem sim_main_part5_ops6 : Sim 514 (Cert.KernelIdeal.Gen.main_part5_ops6 (F := Ideal)) (Cert.ReferenceIdeal.Hand.main_part5_ops6 (F := Ideal)) :=
  .cons (fun _ _ h => agree_nullary ⟨rfl, rfl, rfl, rfl⟩ HEq.rfl h)
  (.cons (fun _ _ h => agree_unary (i := 514) ⟨rfl, rfl, rfl, rfl⟩ (by decide) ⟨rfl, rfl, rfl, rfl⟩ rfl rfl HEq.rfl h)
  (.cons (fun _ _ h => agree_unary (i := 21) ⟨rfl, rfl, rfl, rfl⟩ (by decide) ⟨rfl, rfl, rfl, rfl⟩ rfl rfl HEq.rfl h)
  (.cons (fun _ _ h => agree_ternary (l := 515) (i := 516) (j := 513) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.cons (fun _ _ h => agree_unary (i := 13) ⟨rfl, rfl, rfl, rfl⟩ (by decide) ⟨rfl, rfl, rfl, rfl⟩ rfl rfl HEq.rfl h)
  (.cons (fun _ _ h => agree_reshape (i := 518) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_binary (i := 520) (j := 519) ⟨rfl, rfl, rfl, rfl⟩ (by decide) ⟨rfl, rfl, rfl, rfl⟩ (by decide) ⟨rfl, rfl, rfl, rfl⟩ rfl rfl rfl HEq.rfl h)
  (.cons (fun _ _ h => agree_unary (i := 521) ⟨rfl, rfl, rfl, rfl⟩ (by decide) ⟨rfl, rfl, rfl, rfl⟩ rfl rfl HEq.rfl h)
  (.cons (fun _ _ h => agree_binary (i := 522) (j := 489) ⟨rfl, rfl, rfl, rfl⟩ (by decide) ⟨rfl, rfl, rfl, rfl⟩ (by decide) ⟨rfl, rfl, rfl, rfl⟩ rfl rfl rfl HEq.rfl h)
  (.nil _))))))))))

theorem sim_main_part6_ops0 : Sim 524 (Cert.KernelIdeal.Gen.main_part6_ops0 (F := Ideal)) (Cert.ReferenceIdeal.Hand.main_part6_ops0 (F := Ideal)) :=
  .cons (fun _ _ h => agree_binary (i := 523) (j := 517) ⟨rfl, rfl, rfl, rfl⟩ (by decide) ⟨rfl, rfl, rfl, rfl⟩ (by decide) ⟨rfl, rfl, rfl, rfl⟩ rfl rfl rfl HEq.rfl h)
  (.cons (fun _ _ h => agree_unary (i := 7) ⟨rfl, rfl, rfl, rfl⟩ (by decide) ⟨rfl, rfl, rfl, rfl⟩ rfl rfl HEq.rfl h)
  (.cons (fun _ _ h => agree_reshape (i := 525) ⟨rfl, rfl, rfl, rfl⟩ (by decide) ⟨rfl, rfl, rfl, rfl⟩ rfl rfl h)
  (.cons (fun _ _ h => agree_binary (i := 524) (j := 526) ⟨rfl, rfl, rfl, rfl⟩ (by decide) ⟨rfl, rfl, rfl, rfl⟩ (by decide) ⟨rfl, rfl, rfl, rfl⟩ rfl rfl rfl HEq.rfl h)
  (.cons (fun _ _ h => agree_unary (i := 8) ⟨rfl, rfl, rfl, rfl⟩ (by decide) ⟨rfl, rfl, rfl, rfl⟩ rfl rfl HEq.rfl h)
  (.cons (fun _ _ h => agree_reshape (i := 528) ⟨rfl, rfl, rfl, rfl⟩ (by decide) ⟨rfl, rfl, rfl, rfl⟩ rfl rfl h)
  (.cons (fun _ _ h => agree_unary (i := 529) ⟨rfl, rfl, rfl, rfl⟩ (by decide) ⟨rfl, rfl, rfl, rfl⟩ rfl rfl HEq.rfl h)
  (.cons (fun _ _ h => agree_unary (i := 530) ⟨rfl, rfl, rfl, rfl⟩ (by decide) ⟨rfl, rfl, rfl, rfl⟩ rfl rfl HEq.rfl h)
  (.cons (fun _ _ h => agree_binary (i := 527) (j := 531) ⟨rfl, rfl, rfl, rfl⟩ (by decide) ⟨rfl, rfl, rfl, rfl⟩ (by decide) ⟨rfl, rfl, rfl, rfl⟩ rfl rfl rfl HEq.rfl h)
  (.cons (fun _ _ h => agree_unary (i := 9) ⟨rfl, rfl, rfl, rfl⟩ (by decide) ⟨rfl, rfl, rfl, rfl⟩ rfl rfl HEq.rfl h)
  (.cons (fun _ _ h => agree_reshape (i := 533) ⟨rfl, rfl, rfl, rfl⟩ (by decide) ⟨rfl, rfl, rfl, rfl⟩ rfl rfl h)
  (.cons (fun _ _ h => agree_unary (i := 10) ⟨rfl, rfl, rfl, rfl⟩ (by decide) ⟨rfl, rfl, rfl, rfl⟩ rfl rfl HEq.rfl h)
  (.cons (fun _ _ h => agree_reshape (i := 535) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_binary (i := 532) (j := 537) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 539) ⟨rfl, rfl, rfl, rfl⟩ (by decide) ⟨rfl, rfl, rfl, rfl⟩ rfl rfl HEq.rfl h)
  (.cons (fun _ _ h => agree_binary (i := 538) (j := 540) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.nil _)))))))))))))))))))

theorem sim_main_part6_ops1 : Sim 543 (Cert.KernelIdeal.Gen.main_part6_ops1 (F := Ideal)) (Cert.ReferenceIdeal.Hand.main_part6_ops1 (F := Ideal)) :=
  .cons (fun _ _ h => agree_nullary ⟨rfl, rfl, rfl, rfl⟩ HEq.rfl h)
  (.cons (fun _ _ h => agree_binary (i := 532) (j := 543) ⟨rfl, rfl, rfl, rfl⟩ (by decide) ⟨rfl, rfl, rfl, rfl⟩ (by decide) ⟨rfl, rfl, rfl, rfl⟩ rfl rfl rfl HEq.rfl h)
  (.cons (fun _ _ h => agree_unary (i := 544) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_unary (i := 546) ⟨rfl, rfl, rfl, rfl⟩ (by decide) ⟨rfl, rfl, rfl, rfl⟩ rfl rfl HEq.rfl h)
  (.cons (fun _ _ h => agree_binary (i := 545) (j := 547) ⟨rfl, rfl, rfl, rfl⟩ (by decide) ⟨rfl, rfl, rfl, rfl⟩ (by decide) ⟨rfl, rfl, rfl, rfl⟩ rfl rfl rfl HEq.rfl h)
  (.cons (fun _ _ h => agree_unary (i := 548) ⟨rfl, rfl, rfl, rfl⟩ (by decide) ⟨rfl, rfl, rfl, rfl⟩ rfl rfl HEq.rfl h)
  (.cons (fun _ _ h => agree_binary (i := 532) (j := 549) ⟨rfl, rfl, rfl, rfl⟩ (by decide) ⟨rfl, rfl, rfl, rfl⟩ (by decide) ⟨rfl, rfl, rfl, rfl⟩ rfl rfl rfl HEq.rfl h)
  (.cons (fun _ _ h => agree_binary (i := 550) (j := 550) ⟨rfl, rfl, rfl, rfl⟩ (by decide) ⟨rfl, rfl, rfl, rfl⟩ (by decide) ⟨rfl, rfl, rfl, rfl⟩ rfl rfl rfl HEq.rfl h)
  (.cons (fun _ _ h => agree_unary (i := 542) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_binary (i := 553) (j := 552) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_binary (i := 551) (j := 555) ⟨rfl, rfl, rfl, rfl⟩ (by decide) ⟨rfl, rfl, rfl, rfl⟩ (by decide) ⟨rfl, rfl, rfl, rfl⟩ rfl rfl rfl HEq.rfl h)
  (.cons (fun _ _ h => agree_unary (i := 554) ⟨rfl, rfl, rfl, rfl⟩ (by decide) ⟨rfl, rfl, rfl, rfl⟩ rfl rfl HEq.rfl h)
  (.cons (fun _ _ h => agree_binary (i := 556) (j := 557) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_binary (i := 554) (j := 559) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 561) ⟨rfl, rfl, rfl, rfl⟩ (by decide) ⟨rfl, rfl, rfl, rfl⟩ rfl rfl HEq.rfl h)
  (.cons (fun _ _ h => agree_unary (i := 562) ⟨rfl, rfl, rfl, rfl⟩ (by decide) ⟨rfl, rfl, rfl, rfl⟩ rfl rfl HEq.rfl h)
  (.cons (fun _ _ h => agree_ternary (l := 560) (i := 558) (j := 563) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.nil _))))))))))))))))))))))

theorem sim_main_part6_ops2 : Sim 565 (Cert.KernelIdeal.Gen.main_part6_ops2 (F := Ideal)) (Cert.ReferenceIdeal.Hand.main_part6_ops2 (F := Ideal)) :=
  .cons (fun _ _ h => agree_unary (i := 541) ⟨rfl, rfl, rfl, rfl⟩ (by decide) ⟨rfl, rfl, rfl, rfl⟩ rfl rfl HEq.rfl h)
  (.cons (fun _ _ h => agree_unary (i := 565) ⟨rfl, rfl, rfl, rfl⟩ (by decide) ⟨rfl, rfl, rfl, rfl⟩ rfl rfl HEq.rfl h)
  (.cons (fun _ _ h => agree_binary (i := 532) (j := 566) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 568) ⟨rfl, rfl, rfl, rfl⟩ (by decide) ⟨rfl, rfl, rfl, rfl⟩ rfl rfl HEq.rfl h)
  (.cons (fun _ _ h => agree_binary (i := 564) (j := 569) ⟨rfl, rfl, rfl, rfl⟩ (by decide) ⟨rfl, rfl, rfl, rfl⟩ (by decide) ⟨rfl, rfl, rfl, rfl⟩ rfl rfl rfl HEq.rfl h)
  (.cons (fun _ _ h => agree_unary (i := 570) ⟨rfl, rfl, rfl, rfl⟩ (by decide) ⟨rfl, rfl, rfl, rfl⟩ rfl rfl HEq.rfl h)
  (.cons (fun _ _ h => agree_unary (i := 571) ⟨rfl, rfl, rfl, rfl⟩ (by decide) ⟨rfl, rfl, rfl, rfl⟩ rfl rfl HEq.rfl h)
  (.cons (fun _ _ h => agree_unary (i := 572) ⟨rfl, rfl, rfl, rfl⟩ (by decide) ⟨rfl, rfl, rfl, rfl⟩ rfl rfl HEq.rfl h)
  (.cons (fun _ _ h => agree_binary (i := 567) (j := 573) ⟨rfl, rfl, rfl, rfl⟩ (by decide) ⟨rfl, rfl, rfl, rfl⟩ (by decide) ⟨rfl, rfl, rfl, rfl⟩ rfl rfl rfl HEq.rfl h)
  (.cons (fun _ _ h => agree_unary (i := 534) ⟨rfl, rfl, rfl, rfl⟩ (by decide) ⟨rfl, rfl, rfl, rfl⟩ rfl rfl HEq.rfl h)
  (.cons (fun _ _ h => agree_unary (i := 575) ⟨rfl, rfl, rfl, rfl⟩ (by decide) ⟨rfl, rfl, rfl, rfl⟩ rfl rfl HEq.rfl h)
  (.cons (fun _ _ h => agree_binary (i := 574) (j := 576) ⟨rfl, rfl, rfl, rfl⟩ (by decide) ⟨rfl, rfl, rfl, rfl⟩ (by decide) ⟨rfl, rfl, rfl, rfl⟩ rfl rfl rfl HEq.rfl h)
  (.cons (fun _ _ h => agree_unary (i := 536) ⟨rfl, rfl, rfl, rfl⟩ (by decide) ⟨rfl, rfl, rfl, rfl⟩ rfl rfl HEq.rfl h)
  (.cons (fun _ _ h => agree_unary (i := 578) ⟨rfl, rfl, rfl, rfl⟩ (by decide) ⟨rfl, rfl, rfl, rfl⟩ rfl rfl HEq.rfl h)
  (.cons (fun _ _ h => agree_binary (i := 577) (j := 579) ⟨rfl, rfl, rfl, rfl⟩ (by decide) ⟨rfl, rfl, rfl, rfl⟩ (by decide) ⟨rfl, rfl, rfl, rfl⟩ rfl rfl rfl HEq.rfl h)
  (.nil _))))))))))))))))

end Cert.Bridge

end
-- ==== Proof.BridgeD.lean ====
/-
  The two programs' host operations, paired window by window (part D).

  For each listed window: the kernel program's operations and the reference program's are the same operations in the
  same order — the one at position k reads buffers of smaller index through the same function on either side and
  writes the buffer of index k — so memories that agree below the window's first position agree below its last.
-/
import proofs.«141498_g68332929679506_cont_9to1c4b_488_2_alg».proof.Proof.KernelIdealFrameP
import proofs.«141498_g68332929679506_cont_9to1c4b_488_2_alg».proof.Proof.RefProg
import proofs.«141498_g68332929679506_cont_9to1c4b_488_2_alg».proof.Proof.LibHostSim
import Idealize.ShloMosaic.PureOps.Ideal

set_option maxRecDepth 8192

noncomputable section

namespace Cert.Bridge

open Idealize.ShloMosaic Idealize.ShloMosaic.TcCoe Idealize.ShloMosaic.StableHlo Idealize.ShloMosaic.StableHlo.HostSim

theorem sim_main_part6_ops3 : Sim 581 (Cert.KernelIdeal.Gen.main_part6_ops3 (F := Ideal)) (Cert.ReferenceIdeal.Hand.main_part6_ops3 (F := Ideal)) :=
  .cons (fun _ _ h => agree_nullary ⟨rfl, rfl, rfl, rfl⟩ HEq.rfl h)
  (.cons (fun _ _ h => agree_unary (i := 581) ⟨rfl, rfl, rfl, rfl⟩ (by decide) ⟨rfl, rfl, rfl, rfl⟩ rfl rfl HEq.rfl h)
  (.cons (fun _ _ h => agree_binary (i := 580) (j := 582) ⟨rfl, rfl, rfl, rfl⟩ (by decide) ⟨rfl, rfl, rfl, rfl⟩ (by decide) ⟨rfl, rfl, rfl, rfl⟩ rfl rfl rfl HEq.rfl h)
  (.nil _)))

theorem sim_main_part6_ops4 : Sim 584 (Cert.KernelIdeal.Gen.main_part6_ops4 (F := Ideal)) (Cert.ReferenceIdeal.Hand.main_part6_ops4 (F := Ideal)) :=
  .cons (fun _ _ h => agree_unary (i := 11) ⟨rfl, rfl, rfl, rfl⟩ (by decide) ⟨rfl, rfl, rfl, rfl⟩ rfl rfl HEq.rfl h)
  (.cons (fun _ _ h => agree_reshape (i := 584) ⟨rfl, rfl, rfl, rfl⟩ (by decide) ⟨rfl, rfl, rfl, rfl⟩ rfl rfl h)
  (.cons (fun _ _ h => agree_binary (i := 583) (j := 585) ⟨rfl, rfl, rfl, rfl⟩ (by decide) ⟨rfl, rfl, rfl, rfl⟩ (by decide) ⟨rfl, rfl, rfl, rfl⟩ rfl rfl rfl HEq.rfl h)
  (.cons (fun _ _ h => agree_unary (i := 12) ⟨rfl, rfl, rfl, rfl⟩ (by decide) ⟨rfl, rfl, rfl, rfl⟩ rfl rfl HEq.rfl h)
  (.cons (fun _ _ h => agree_reshape (i := 587) ⟨rfl, rfl, rfl, rfl⟩ (by decide) ⟨rfl, rfl, rfl, rfl⟩ rfl rfl h)
  (.cons (fun _ _ h => agree_unary (i := 588) ⟨rfl, rfl, rfl, rfl⟩ (by decide) ⟨rfl, rfl, rfl, rfl⟩ rfl rfl HEq.rfl h)
  (.cons (fun _ _ h => agree_unary (i := 589) ⟨rfl, rfl, rfl, rfl⟩ (by decide) ⟨rfl, rfl, rfl, rfl⟩ rfl rfl HEq.rfl h)
  (.cons (fun _ _ h => agree_binary (i := 586) (j := 590) ⟨rfl, rfl, rfl, rfl⟩ (by decide) ⟨rfl, rfl, rfl, rfl⟩ (by decide) ⟨rfl, rfl, rfl, rfl⟩ rfl rfl rfl HEq.rfl h)
  (.cons (fun _ _ h => agree_unary (i := 14) ⟨rfl, rfl, rfl, rfl⟩ (by decide) ⟨rfl, rfl, rfl, rfl⟩ rfl rfl HEq.rfl h)
  (.cons (fun _ _ h => agree_reshape (i := 592) ⟨rfl, rfl, rfl, rfl⟩ (by decide) ⟨rfl, rfl, rfl, rfl⟩ rfl rfl h)
  (.cons (fun _ _ h => agree_unary (i := 15) ⟨rfl, rfl, rfl, rfl⟩ (by decide) ⟨rfl, rfl, rfl, rfl⟩ rfl rfl HEq.rfl h)
  (.cons (fun _ _ h => agree_reshape (i := 594) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_binary (i := 591) (j := 596) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 598) ⟨rfl, rfl, rfl, rfl⟩ (by decide) ⟨rfl, rfl, rfl, rfl⟩ rfl rfl HEq.rfl h)
  (.cons (fun _ _ h => agree_binary (i := 597) (j := 599) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.nil _))))))))))))))))))

theorem sim_main_part6_ops5 : Sim 602 (Cert.KernelIdeal.Gen.main_part6_ops5 (F := Ideal)) (Cert.ReferenceIdeal.Hand.main_part6_ops5 (F := Ideal)) :=
  .cons (fun _ _ h => agree_nullary ⟨rfl, rfl, rfl, rfl⟩ HEq.rfl h)
  (.cons (fun _ _ h => agree_binary (i := 591) (j := 602) ⟨rfl, rfl, rfl, rfl⟩ (by decide) ⟨rfl, rfl, rfl, rfl⟩ (by decide) ⟨rfl, rfl, rfl, rfl⟩ rfl rfl rfl HEq.rfl h)
  (.cons (fun _ _ h => agree_unary (i := 603) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_unary (i := 605) ⟨rfl, rfl, rfl, rfl⟩ (by decide) ⟨rfl, rfl, rfl, rfl⟩ rfl rfl HEq.rfl h)
  (.cons (fun _ _ h => agree_binary (i := 604) (j := 606) ⟨rfl, rfl, rfl, rfl⟩ (by decide) ⟨rfl, rfl, rfl, rfl⟩ (by decide) ⟨rfl, rfl, rfl, rfl⟩ rfl rfl rfl HEq.rfl h)
  (.cons (fun _ _ h => agree_unary (i := 607) ⟨rfl, rfl, rfl, rfl⟩ (by decide) ⟨rfl, rfl, rfl, rfl⟩ rfl rfl HEq.rfl h)
  (.cons (fun _ _ h => agree_binary (i := 591) (j := 608) ⟨rfl, rfl, rfl, rfl⟩ (by decide) ⟨rfl, rfl, rfl, rfl⟩ (by decide) ⟨rfl, rfl, rfl, rfl⟩ rfl rfl rfl HEq.rfl h)
  (.cons (fun _ _ h => agree_binary (i := 609) (j := 609) ⟨rfl, rfl, rfl, rfl⟩ (by decide) ⟨rfl, rfl, rfl, rfl⟩ (by decide) ⟨rfl, rfl, rfl, rfl⟩ rfl rfl rfl HEq.rfl h)
  (.cons (fun _ _ h => agree_unary (i := 601) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_binary (i := 612) (j := 611) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_binary (i := 610) (j := 614) ⟨rfl, rfl, rfl, rfl⟩ (by decide) ⟨rfl, rfl, rfl, rfl⟩ (by decide) ⟨rfl, rfl, rfl, rfl⟩ rfl rfl rfl HEq.rfl h)
  (.cons (fun _ _ h => agree_unary (i := 613) ⟨rfl, rfl, rfl, rfl⟩ (by decide) ⟨rfl, rfl, rfl, rfl⟩ rfl rfl HEq.rfl h)
  (.cons (fun _ _ h => agree_binary (i := 615) (j := 616) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_binary (i := 613) (j := 618) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 620) ⟨rfl, rfl, rfl, rfl⟩ (by decide) ⟨rfl, rfl, rfl, rfl⟩ rfl rfl HEq.rfl h)
  (.cons (fun _ _ h => agree_unary (i := 621) ⟨rfl, rfl, rfl, rfl⟩ (by decide) ⟨rfl, rfl, rfl, rfl⟩ rfl rfl HEq.rfl h)
  (.cons (fun _ _ h => agree_ternary (l := 619) (i := 617) (j := 622) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.nil _))))))))))))))))))))))

theorem sim_main_part6_ops6 : Sim 624 (Cert.KernelIdeal.Gen.main_part6_ops6 (F := Ideal)) (Cert.ReferenceIdeal.Hand.main_part6_ops6 (F := Ideal)) :=
  .cons (fun _ _ h => agree_unary (i := 600) ⟨rfl, rfl, rfl, rfl⟩ (by decide) ⟨rfl, rfl, rfl, rfl⟩ rfl rfl HEq.rfl h)
  (.cons (fun _ _ h => agree_unary (i := 624) ⟨rfl, rfl, rfl, rfl⟩ (by decide) ⟨rfl, rfl, rfl, rfl⟩ rfl rfl HEq.rfl h)
  (.cons (fun _ _ h => agree_binary (i := 591) (j := 625) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.nil _))))

theorem sim_main_part7_ops0 : Sim 628 (Cert.KernelIdeal.Gen.main_part7_ops0 (F := Ideal)) (Cert.ReferenceIdeal.Hand.main_part7_ops0 (F := Ideal)) :=
  .cons (fun _ _ h => agree_unary (i := 627) ⟨rfl, rfl, rfl, rfl⟩ (by decide) ⟨rfl, rfl, rfl, rfl⟩ rfl rfl HEq.rfl h)
  (.cons (fun _ _ h => agree_binary (i := 623) (j := 628) ⟨rfl, rfl, rfl, rfl⟩ (by decide) ⟨rfl, rfl, rfl, rfl⟩ (by decide) ⟨rfl, rfl, rfl, rfl⟩ rfl rfl rfl HEq.rfl h)
  (.cons (fun _ _ h => agree_unary (i := 629) ⟨rfl, rfl, rfl, rfl⟩ (by decide) ⟨rfl, rfl, rfl, rfl⟩ rfl rfl HEq.rfl h)
  (.cons (fun _ _ h => agree_unary (i := 630) ⟨rfl, rfl, rfl, rfl⟩ (by decide) ⟨rfl, rfl, rfl, rfl⟩ rfl rfl HEq.rfl h)
  (.cons (fun _ _ h => agree_unary (i := 631) ⟨rfl, rfl, rfl, rfl⟩ (by decide) ⟨rfl, rfl, rfl, rfl⟩ rfl rfl HEq.rfl h)
  (.cons (fun _ _ h => agree_binary (i := 626) (j := 632) ⟨rfl, rfl, rfl, rfl⟩ (by decide) ⟨rfl, rfl, rfl, rfl⟩ (by decide) ⟨rfl, rfl, rfl, rfl⟩ rfl rfl rfl HEq.rfl h)
  (.cons (fun _ _ h => agree_unary (i := 593) ⟨rfl, rfl, rfl, rfl⟩ (by decide) ⟨rfl, rfl, rfl, rfl⟩ rfl rfl HEq.rfl h)
  (.cons (fun _ _ h => agree_unary (i := 634) ⟨rfl, rfl, rfl, rfl⟩ (by decide) ⟨rfl, rfl, rfl, rfl⟩ rfl rfl HEq.rfl h)
  (.cons (fun _ _ h => agree_binary (i := 633) (j := 635) ⟨rfl, rfl, rfl, rfl⟩ (by decide) ⟨rfl, rfl, rfl, rfl⟩ (by decide) ⟨rfl, rfl, rfl, rfl⟩ rfl rfl rfl HEq.rfl h)
  (.cons (fun _ _ h => agree_unary (i := 595) ⟨rfl, rfl, rfl, rfl⟩ (by decide) ⟨rfl, rfl, rfl, rfl⟩ rfl rfl HEq.rfl h)
  (.cons (fun _ _ h => agree_unary (i := 637) ⟨rfl, rfl, rfl, rfl⟩ (by decide) ⟨rfl, rfl, rfl, rfl⟩ rfl rfl HEq.rfl h)
  (.cons (fun _ _ h => agree_binary (i := 636) (j := 638) ⟨rfl, rfl, rfl, rfl⟩ (by decide) ⟨rfl, rfl, rfl, rfl⟩ (by decide) ⟨rfl, rfl, rfl, rfl⟩ rfl rfl rfl HEq.rfl h)
  (.nil _))))))))))))

theorem sim_main_part7_ops1 : Sim 640 (Cert.KernelIdeal.Gen.main_part7_ops1 (F := Ideal)) (Cert.ReferenceIdeal.Hand.main_part7_ops1 (F := Ideal)) :=
  .cons (fun _ _ h => agree_nullary ⟨rfl, rfl, rfl, rfl⟩ HEq.rfl h)
  (.cons (fun _ _ h => agree_unary (i := 640) ⟨rfl, rfl, rfl, rfl⟩ (by decide) ⟨rfl, rfl, rfl, rfl⟩ rfl rfl HEq.rfl h)
  (.cons (fun _ _ h => agree_binary (i := 639) (j := 641) ⟨rfl, rfl, rfl, rfl⟩ (by decide) ⟨rfl, rfl, rfl, rfl⟩ (by decide) ⟨rfl, rfl, rfl, rfl⟩ rfl rfl rfl HEq.rfl h)
  (.nil _)))

theorem sim_main_part7_ops2 : Sim 643 (Cert.KernelIdeal.Gen.main_part7_ops2 (F := Ideal)) (Cert.ReferenceIdeal.Hand.main_part7_ops2 (F := Ideal)) :=
  .cons (fun _ _ h => agree_nullary ⟨rfl, rfl, rfl, rfl⟩ HEq.rfl h)
  (.cons (fun _ _ h => agree_unary (i := 643) ⟨rfl, rfl, rfl, rfl⟩ (by decide) ⟨rfl, rfl, rfl, rfl⟩ rfl rfl HEq.rfl h)
  (.cons (fun _ _ h => agree_binary (i := 19) (j := 644) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 646) ⟨rfl, rfl, rfl, rfl⟩ (by decide) ⟨rfl, rfl, rfl, rfl⟩ rfl rfl HEq.rfl h)
  (.cons (fun _ _ h => agree_binary (i := 19) (j := 647) ⟨rfl, rfl, rfl, rfl⟩ (by decide) ⟨rfl, rfl, rfl, rfl⟩ (by decide) ⟨rfl, rfl, rfl, rfl⟩ rfl rfl rfl HEq.rfl h)
  (.cons (fun _ _ h => agree_ternary (l := 645) (i := 648) (j := 19) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.cons (fun _ _ h => agree_unary (i := 649) ⟨rfl, rfl, rfl, rfl⟩ (by decide) ⟨rfl, rfl, rfl, rfl⟩ rfl rfl HEq.rfl h)
  (.cons (fun _ _ h => agree_binary (i := 642) (j := 650) ⟨rfl, rfl, rfl, rfl⟩ (by decide) ⟨rfl, rfl, rfl, rfl⟩ (by decide) ⟨rfl, rfl, rfl, rfl⟩ rfl rfl rfl HEq.rfl h)
  (.cons (fun _ _ h => agree_unary (i := 6) ⟨rfl, rfl, rfl, rfl⟩ (by decide) ⟨rfl, rfl, rfl, rfl⟩ rfl rfl HEq.rfl h)
  (.cons (fun _ _ h => agree_reshape (i := 652) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_unary (i := 654) ⟨rfl, rfl, rfl, rfl⟩ (by decide) ⟨rfl, rfl, rfl, rfl⟩ rfl rfl HEq.rfl h)
  (.cons (fun _ _ h => agree_binary (i := 2) (j := 655) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 657) ⟨rfl, rfl, rfl, rfl⟩ (by decide) ⟨rfl, rfl, rfl, rfl⟩ rfl rfl HEq.rfl h)
  (.cons (fun _ _ h => agree_binary (i := 2) (j := 658) ⟨rfl, rfl, rfl, rfl⟩ (by decide) ⟨rfl, rfl, rfl, rfl⟩ (by decide) ⟨rfl, rfl, rfl, rfl⟩ rfl rfl rfl HEq.rfl h)
  (.cons (fun _ _ h => agree_ternary (l := 656) (i := 659) (j := 2) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.cons (fun _ _ h => agree_unary (i := 660) ⟨rfl, rfl, rfl, rfl⟩ (by decide) ⟨rfl, rfl, rfl, rfl⟩ rfl rfl HEq.rfl h)
  (.cons (fun _ _ h => agree_binary (i := 653) (j := 661) ⟨rfl, rfl, rfl, rfl⟩ (by decide) ⟨rfl, rfl, rfl, rfl⟩ (by decide) ⟨rfl, rfl, rfl, rfl⟩ rfl rfl rfl HEq.rfl h)
  (.cons (fun _ _ h => agree_binary (i := 651) (j := 662) ⟨rfl, rfl, rfl, rfl⟩ (by decide) ⟨rfl, rfl, rfl, rfl⟩ (by decide) ⟨rfl, rfl, rfl, rfl⟩ rfl rfl rfl HEq.rfl h)
  (.nil _)))))))))))))))))))))

theorem sim_main_part7_ops3 : Sim 664 (Cert.KernelIdeal.Gen.main_part7_ops3 (F := Ideal)) (Cert.ReferenceIdeal.Hand.main_part7_ops3 (F := Ideal)) :=
  .cons (fun _ _ h => agree_nullary ⟨rfl, rfl, rfl, rfl⟩ HEq.rfl h)
  (.cons (fun _ _ h => agree_unary (i := 664) ⟨rfl, rfl, rfl, rfl⟩ (by decide) ⟨rfl, rfl, rfl, rfl⟩ rfl rfl HEq.rfl h)
  (.cons (fun _ _ h => agree_binary (i := 663) (j := 665) ⟨rfl, rfl, rfl, rfl⟩ (by decide) ⟨rfl, rfl, rfl, rfl⟩ (by decide) ⟨rfl, rfl, rfl, rfl⟩ rfl rfl rfl HEq.rfl h)
  (.nil _)))

theorem sim_main_part7_ops4 : Sim 667 (Cert.KernelIdeal.Gen.main_part7_ops4 (F := Ideal)) (Cert.ReferenceIdeal.Hand.main_part7_ops4 (F := Ideal)) :=
  .cons (fun _ _ h => agree_nullary ⟨rfl, rfl, rfl, rfl⟩ HEq.rfl h)
  (.cons (fun _ _ h => agree_unary (i := 667) ⟨rfl, rfl, rfl, rfl⟩ (by decide) ⟨rfl, rfl, rfl, rfl⟩ rfl rfl HEq.rfl h)
  (.cons (fun _ _ h => agree_unary (i := 21) ⟨rfl, rfl, rfl, rfl⟩ (by decide) ⟨rfl, rfl, rfl, rfl⟩ rfl rfl HEq.rfl h)
  (.cons (fun _ _ h => agree_ternary (l := 668) (i := 669) (j := 666) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.cons (fun _ _ h => agree_unary (i := 13) ⟨rfl, rfl, rfl, rfl⟩ (by decide) ⟨rfl, rfl, rfl, rfl⟩ rfl rfl HEq.rfl h)
  (.cons (fun _ _ h => agree_reshape (i := 671) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_binary (i := 673) (j := 672) ⟨rfl, rfl, rfl, rfl⟩ (by decide) ⟨rfl, rfl, rfl, rfl⟩ (by decide) ⟨rfl, rfl, rfl, rfl⟩ rfl rfl rfl HEq.rfl h)
  (.cons (fun _ _ h => agree_unary (i := 674) ⟨rfl, rfl, rfl, rfl⟩ (by decide) ⟨rfl, rfl, rfl, rfl⟩ rfl rfl HEq.rfl h)
  (.cons (fun _ _ h => agree_binary (i := 675) (j := 642) ⟨rfl, rfl, rfl, rfl⟩ (by decide) ⟨rfl, rfl, rfl, rfl⟩ (by decide) ⟨rfl, rfl, rfl, rfl⟩ rfl rfl rfl HEq.rfl h)
  (.cons (fun _ _ h => agree_binary (i := 676) (j := 670) ⟨rfl, rfl, rfl, rfl⟩ (by decide) ⟨rfl, rfl, rfl, rfl⟩ (by decide) ⟨rfl, rfl, rfl, rfl⟩ rfl rfl rfl HEq.rfl h)
  (.cons (fun _ _ h => agree_unary (i := 7) ⟨rfl, rfl, rfl, rfl⟩ (by decide) ⟨rfl, rfl, rfl, rfl⟩ rfl rfl HEq.rfl h)
  (.cons (fun _ _ h => agree_reshape (i := 678) ⟨rfl, rfl, rfl, rfl⟩ (by decide) ⟨rfl, rfl, rfl, rfl⟩ rfl rfl h)
  (.cons (fun _ _ h => agree_binary (i := 677) (j := 679) ⟨rfl, rfl, rfl, rfl⟩ (by decide) ⟨rfl, rfl, rfl, rfl⟩ (by decide) ⟨rfl, rfl, rfl, rfl⟩ rfl rfl rfl HEq.rfl h)
  (.cons (fun _ _ h => agree_unary (i := 8) ⟨rfl, rfl, rfl, rfl⟩ (by decide) ⟨rfl, rfl, rfl, rfl⟩ rfl rfl HEq.rfl h)
  (.cons (fun _ _ h => agree_reshape (i := 681) ⟨rfl, rfl, rfl, rfl⟩ (by decide) ⟨rfl, rfl, rfl, rfl⟩ rfl rfl h)
  (.cons (fun _ _ h => agree_unary (i := 682) ⟨rfl, rfl, rfl, rfl⟩ (by decide) ⟨rfl, rfl, rfl, rfl⟩ rfl rfl HEq.rfl h)
  (.cons (fun _ _ h => agree_unary (i := 683) ⟨rfl, rfl, rfl, rfl⟩ (by decide) ⟨rfl, rfl, rfl, rfl⟩ rfl rfl HEq.rfl h)
  (.cons (fun _ _ h => agree_binary (i := 680) (j := 684) ⟨rfl, rfl, rfl, rfl⟩ (by decide) ⟨rfl, rfl, rfl, rfl⟩ (by decide) ⟨rfl, rfl, rfl, rfl⟩ rfl rfl rfl HEq.rfl h)
  (.cons (fun _ _ h => agree_unary (i := 9) ⟨rfl, rfl, rfl, rfl⟩ (by decide) ⟨rfl, rfl, rfl, rfl⟩ rfl rfl HEq.rfl h)
  (.cons (fun _ _ h => agree_reshape (i := 686) ⟨rfl, rfl, rfl, rfl⟩ (by decide) ⟨rfl, rfl, rfl, rfl⟩ rfl rfl h)
  (.cons (fun _ _ h => agree_unary (i := 10) ⟨rfl, rfl, rfl, rfl⟩ (by decide) ⟨rfl, rfl, rfl, rfl⟩ rfl rfl HEq.rfl h)
  (.cons (fun _ _ h => agree_reshape (i := 688) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_binary (i := 685) (j := 690) ⟨rfl, rfl, rfl, rfl⟩ (by decide) ⟨rfl, rfl, rfl, rfl⟩ (by decide) ⟨rfl, rfl, rfl, rfl⟩ rfl rfl rfl HEq.rfl h)
  (.nil _)))))))))))))))))))))))))

theorem sim_main_part8_ops0 : Sim 692 (Cert.KernelIdeal.Gen.main_part8_ops0 (F := Ideal)) (Cert.ReferenceIdeal.Hand.main_part8_ops0 (F := Ideal)) :=
  .cons (fun _ _ h => agree_nullary ⟨rfl, rfl, rfl, rfl⟩ HEq.rfl h)
  (.cons (fun _ _ h => agree_unary (i := 692) ⟨rfl, rfl, rfl, rfl⟩ (by decide) ⟨rfl, rfl, rfl, rfl⟩ rfl rfl HEq.rfl h)
  (.cons (fun _ _ h => agree_binary (i := 691) (j := 693) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.nil _))))

theorem sim_main_part8_ops1 : Sim 696 (Cert.KernelIdeal.Gen.main_part8_ops1 (F := Ideal)) (Cert.ReferenceIdeal.Hand.main_part8_ops1 (F := Ideal)) :=
  .cons (fun _ _ h => agree_nullary ⟨rfl, rfl, rfl, rfl⟩ HEq.rfl h)
  (.cons (fun _ _ h => agree_binary (i := 685) (j := 696) ⟨rfl, rfl, rfl, rfl⟩ (by decide) ⟨rfl, rfl, rfl, rfl⟩ (by decide) ⟨rfl, rfl, rfl, rfl⟩ rfl rfl rfl HEq.rfl h)
  (.cons (fun _ _ h => agree_unary (i := 697) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_unary (i := 699) ⟨rfl, rfl, rfl, rfl⟩ (by decide) ⟨rfl, rfl, rfl, rfl⟩ rfl rfl HEq.rfl h)
  (.cons (fun _ _ h => agree_binary (i := 698) (j := 700) ⟨rfl, rfl, rfl, rfl⟩ (by decide) ⟨rfl, rfl, rfl, rfl⟩ (by decide) ⟨rfl, rfl, rfl, rfl⟩ rfl rfl rfl HEq.rfl h)
  (.cons (fun _ _ h => agree_unary (i := 701) ⟨rfl, rfl, rfl, rfl⟩ (by decide) ⟨rfl, rfl, rfl, rfl⟩ rfl rfl HEq.rfl h)
  (.cons (fun _ _ h => agree_binary (i := 685) (j := 702) ⟨rfl, rfl, rfl, rfl⟩ (by decide) ⟨rfl, rfl, rfl, rfl⟩ (by decide) ⟨rfl, rfl, rfl, rfl⟩ rfl rfl rfl HEq.rfl h)
  (.cons (fun _ _ h => agree_binary (i := 703) (j := 703) ⟨rfl, rfl, rfl, rfl⟩ (by decide) ⟨rfl, rfl, rfl, rfl⟩ (by decide) ⟨rfl, rfl, rfl, rfl⟩ rfl rfl rfl HEq.rfl h)
  (.cons (fun _ _ h => agree_unary (i := 695) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_binary (i := 706) (j := 705) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_binary (i := 704) (j := 708) ⟨rfl, rfl, rfl, rfl⟩ (by decide) ⟨rfl, rfl, rfl, rfl⟩ (by decide) ⟨rfl, rfl, rfl, rfl⟩ rfl rfl rfl HEq.rfl h)
  (.cons (fun _ _ h => agree_unary (i := 707) ⟨rfl, rfl, rfl, rfl⟩ (by decide) ⟨rfl, rfl, rfl, rfl⟩ rfl rfl HEq.rfl h)
  (.cons (fun _ _ h => agree_binary (i := 709) (j := 710) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_binary (i := 707) (j := 712) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 714) ⟨rfl, rfl, rfl, rfl⟩ (by decide) ⟨rfl, rfl, rfl, rfl⟩ rfl rfl HEq.rfl h)
  (.cons (fun _ _ h => agree_unary (i := 715) ⟨rfl, rfl, rfl, rfl⟩ (by decide) ⟨rfl, rfl, rfl, rfl⟩ rfl rfl HEq.rfl h)
  (.cons (fun _ _ h => agree_ternary (l := 713) (i := 711) (j := 716) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.nil _))))))))))))))))))))))

theorem sim_main_part8_ops2 : Sim 718 (Cert.KernelIdeal.Gen.main_part8_ops2 (F := Ideal)) (Cert.ReferenceIdeal.Hand.main_part8_ops2 (F := Ideal)) :=
  .cons (fun _ _ h => agree_unary (i := 694) ⟨rfl, rfl, rfl, rfl⟩ (by decide) ⟨rfl, rfl, rfl, rfl⟩ rfl rfl HEq.rfl h)
  (.cons (fun _ _ h => agree_unary (i := 718) ⟨rfl, rfl, rfl, rfl⟩ (by decide) ⟨rfl, rfl, rfl, rfl⟩ rfl rfl HEq.rfl h)
  (.cons (fun _ _ h => agree_binary (i := 685) (j := 719) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 721) ⟨rfl, rfl, rfl, rfl⟩ (by decide) ⟨rfl, rfl, rfl, rfl⟩ rfl rfl HEq.rfl h)
  (.cons (fun _ _ h => agree_binary (i := 717) (j := 722) ⟨rfl, rfl, rfl, rfl⟩ (by decide) ⟨rfl, rfl, rfl, rfl⟩ (by decide) ⟨rfl, rfl, rfl, rfl⟩ rfl rfl rfl HEq.rfl h)
  (.cons (fun _ _ h => agree_unary (i := 723) ⟨rfl, rfl, rfl, rfl⟩ (by decide) ⟨rfl, rfl, rfl, rfl⟩ rfl rfl HEq.rfl h)
  (.cons (fun _ _ h => agree_unary (i := 724) ⟨rfl, rfl, rfl, rfl⟩ (by decide) ⟨rfl, rfl, rfl, rfl⟩ rfl rfl HEq.rfl h)
  (.cons (fun _ _ h => agree_unary (i := 725) ⟨rfl, rfl, rfl, rfl⟩ (by decide) ⟨rfl, rfl, rfl, rfl⟩ rfl rfl HEq.rfl h)
  (.cons (fun _ _ h => agree_binary (i := 720) (j := 726) ⟨rfl, rfl, rfl, rfl⟩ (by decide) ⟨rfl, rfl, rfl, rfl⟩ (by decide) ⟨rfl, rfl, rfl, rfl⟩ rfl rfl rfl HEq.rfl h)
  (.cons (fun _ _ h => agree_unary (i := 687) ⟨rfl, rfl, rfl, rfl⟩ (by decide) ⟨rfl, rfl, rfl, rfl⟩ rfl rfl HEq.rfl h)
  (.cons (fun _ _ h => agree_unary (i := 728) ⟨rfl, rfl, rfl, rfl⟩ (by decide) ⟨rfl, rfl, rfl, rfl⟩ rfl rfl HEq.rfl h)
  (.cons (fun _ _ h => agree_binary (i := 727) (j := 729) ⟨rfl, rfl, rfl, rfl⟩ (by decide) ⟨rfl, rfl, rfl, rfl⟩ (by decide) ⟨rfl, rfl, rfl, rfl⟩ rfl rfl rfl HEq.rfl h)
  (.cons (fun _ _ h => agree_unary (i := 689) ⟨rfl, rfl, rfl, rfl⟩ (by decide) ⟨rfl, rfl, rfl, rfl⟩ rfl rfl HEq.rfl h)
  (.cons (fun _ _ h => agree_unary (i := 731) ⟨rfl, rfl, rfl, rfl⟩ (by decide) ⟨rfl, rfl, rfl, rfl⟩ rfl rfl HEq.rfl h)
  (.cons (fun _ _ h => agree_binary (i := 730) (j := 732) ⟨rfl, rfl, rfl, rfl⟩ (by decide) ⟨rfl, rfl, rfl, rfl⟩ (by decide) ⟨rfl, rfl, rfl, rfl⟩ rfl rfl rfl HEq.rfl h)
  (.nil _))))))))))))))))

theorem sim_main_part8_ops3 : Sim 734 (Cert.KernelIdeal.Gen.main_part8_ops3 (F := Ideal)) (Cert.ReferenceIdeal.Hand.main_part8_ops3 (F := Ideal)) :=
  .cons (fun _ _ h => agree_nullary ⟨rfl, rfl, rfl, rfl⟩ HEq.rfl h)
  (.cons (fun _ _ h => agree_unary (i := 734) ⟨rfl, rfl, rfl, rfl⟩ (by decide) ⟨rfl, rfl, rfl, rfl⟩ rfl rfl HEq.rfl h)
  (.cons (fun _ _ h => agree_binary (i := 733) (j := 735) ⟨rfl, rfl, rfl, rfl⟩ (by decide) ⟨rfl, rfl, rfl, rfl⟩ (by decide) ⟨rfl, rfl, rfl, rfl⟩ rfl rfl rfl HEq.rfl h)
  (.nil _)))

theorem sim_main_part8_ops4 : Sim 737 (Cert.KernelIdeal.Gen.main_part8_ops4 (F := Ideal)) (Cert.ReferenceIdeal.Hand.main_part8_ops4 (F := Ideal)) :=
  .cons (fun _ _ h => agree_unary (i := 11) ⟨rfl, rfl, rfl, rfl⟩ (by decide) ⟨rfl, rfl, rfl, rfl⟩ rfl rfl HEq.rfl h)
  (.cons (fun _ _ h => agree_reshape (i := 737) ⟨rfl, rfl, rfl, rfl⟩ (by decide) ⟨rfl, rfl, rfl, rfl⟩ rfl rfl h)
  (.cons (fun _ _ h => agree_binary (i := 736) (j := 738) ⟨rfl, rfl, rfl, rfl⟩ (by decide) ⟨rfl, rfl, rfl, rfl⟩ (by decide) ⟨rfl, rfl, rfl, rfl⟩ rfl rfl rfl HEq.rfl h)
  (.cons (fun _ _ h => agree_unary (i := 12) ⟨rfl, rfl, rfl, rfl⟩ (by decide) ⟨rfl, rfl, rfl, rfl⟩ rfl rfl HEq.rfl h)
  (.cons (fun _ _ h => agree_reshape (i := 740) ⟨rfl, rfl, rfl, rfl⟩ (by decide) ⟨rfl, rfl, rfl, rfl⟩ rfl rfl h)
  (.cons (fun _ _ h => agree_unary (i := 741) ⟨rfl, rfl, rfl, rfl⟩ (by decide) ⟨rfl, rfl, rfl, rfl⟩ rfl rfl HEq.rfl h)
  (.cons (fun _ _ h => agree_unary (i := 742) ⟨rfl, rfl, rfl, rfl⟩ (by decide) ⟨rfl, rfl, rfl, rfl⟩ rfl rfl HEq.rfl h)
  (.cons (fun _ _ h => agree_binary (i := 739) (j := 743) ⟨rfl, rfl, rfl, rfl⟩ (by decide) ⟨rfl, rfl, rfl, rfl⟩ (by decide) ⟨rfl, rfl, rfl, rfl⟩ rfl rfl rfl HEq.rfl h)
  (.cons (fun _ _ h => agree_unary (i := 14) ⟨rfl, rfl, rfl, rfl⟩ (by decide) ⟨rfl, rfl, rfl, rfl⟩ rfl rfl HEq.rfl h)
  (.cons (fun _ _ h => agree_reshape (i := 745) ⟨rfl, rfl, rfl, rfl⟩ (by decide) ⟨rfl, rfl, rfl, rfl⟩ rfl rfl h)
  (.cons (fun _ _ h => agree_unary (i := 15) ⟨rfl, rfl, rfl, rfl⟩ (by decide) ⟨rfl, rfl, rfl, rfl⟩ rfl rfl HEq.rfl h)
  (.cons (fun _ _ h => agree_reshape (i := 747) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_binary (i := 744) (j := 749) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 751) ⟨rfl, rfl, rfl, rfl⟩ (by decide) ⟨rfl, rfl, rfl, rfl⟩ rfl rfl HEq.rfl h)
  (.cons (fun _ _ h => agree_binary (i := 750) (j := 752) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.nil _))))))))))))))))))

theorem sim_main_part8_ops5 : Sim 755 (Cert.KernelIdeal.Gen.main_part8_ops5 (F := Ideal)) (Cert.ReferenceIdeal.Hand.main_part8_ops5 (F := Ideal)) :=
  .cons (fun _ _ h => agree_nullary ⟨rfl, rfl, rfl, rfl⟩ HEq.rfl h)
  (.cons (fun _ _ h => agree_binary (i := 744) (j := 755) ⟨rfl, rfl, rfl, rfl⟩ (by decide) ⟨rfl, rfl, rfl, rfl⟩ (by decide) ⟨rfl, rfl, rfl, rfl⟩ rfl rfl rfl HEq.rfl h)
  (.cons (fun _ _ h => agree_unary (i := 756) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_unary (i := 758) ⟨rfl, rfl, rfl, rfl⟩ (by decide) ⟨rfl, rfl, rfl, rfl⟩ rfl rfl HEq.rfl h)
  (.cons (fun _ _ h => agree_binary (i := 757) (j := 759) ⟨rfl, rfl, rfl, rfl⟩ (by decide) ⟨rfl, rfl, rfl, rfl⟩ (by decide) ⟨rfl, rfl, rfl, rfl⟩ rfl rfl rfl HEq.rfl h)
  (.cons (fun _ _ h => agree_unary (i := 760) ⟨rfl, rfl, rfl, rfl⟩ (by decide) ⟨rfl, rfl, rfl, rfl⟩ rfl rfl HEq.rfl h)
  (.cons (fun _ _ h => agree_binary (i := 744) (j := 761) ⟨rfl, rfl, rfl, rfl⟩ (by decide) ⟨rfl, rfl, rfl, rfl⟩ (by decide) ⟨rfl, rfl, rfl, rfl⟩ rfl rfl rfl HEq.rfl h)
  (.cons (fun _ _ h => agree_binary (i := 762) (j := 762) ⟨rfl, rfl, rfl, rfl⟩ (by decide) ⟨rfl, rfl, rfl, rfl⟩ (by decide) ⟨rfl, rfl, rfl, rfl⟩ rfl rfl rfl HEq.rfl h)
  (.cons (fun _ _ h => agree_unary (i := 754) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_binary (i := 765) (j := 764) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_binary (i := 763) (j := 767) ⟨rfl, rfl, rfl, rfl⟩ (by decide) ⟨rfl, rfl, rfl, rfl⟩ (by decide) ⟨rfl, rfl, rfl, rfl⟩ rfl rfl rfl HEq.rfl h)
  (.cons (fun _ _ h => agree_unary (i := 766) ⟨rfl, rfl, rfl, rfl⟩ (by decide) ⟨rfl, rfl, rfl, rfl⟩ rfl rfl HEq.rfl h)
  (.cons (fun _ _ h => agree_binary (i := 768) (j := 769) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_binary (i := 766) (j := 771) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 773) ⟨rfl, rfl, rfl, rfl⟩ (by decide) ⟨rfl, rfl, rfl, rfl⟩ rfl rfl HEq.rfl h)
  (.cons (fun _ _ h => agree_unary (i := 774) ⟨rfl, rfl, rfl, rfl⟩ (by decide) ⟨rfl, rfl, rfl, rfl⟩ rfl rfl HEq.rfl h)
  (.cons (fun _ _ h => agree_ternary (l := 772) (i := 770) (j := 775) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.nil _))))))))))))))))))))))

end Cert.Bridge

end
-- ==== Proof.BridgeE.lean ====
/-
  The two programs' host operations, paired window by window (part E).

  For each listed window: the kernel program's operations and the reference program's are the same operations in the
  same order — the one at position k reads buffers of smaller index through the same function on either side and
  writes the buffer of index k — so memories that agree below the window's first position agree below its last.
-/
import proofs.«141498_g68332929679506_cont_9to1c4b_488_2_alg».proof.Proof.KernelIdealFrameP
import proofs.«141498_g68332929679506_cont_9to1c4b_488_2_alg».proof.Proof.RefProg
import proofs.«141498_g68332929679506_cont_9to1c4b_488_2_alg».proof.Proof.LibHostSim
import Idealize.ShloMosaic.PureOps.Ideal

set_option maxRecDepth 8192

noncomputable section

namespace Cert.Bridge

open Idealize.ShloMosaic Idealize.ShloMosaic.TcCoe Idealize.ShloMosaic.StableHlo Idealize.ShloMosaic.StableHlo.HostSim

theorem sim_main_part8_ops6 : Sim 777 (Cert.KernelIdeal.Gen.main_part8_ops6 (F := Ideal)) (Cert.ReferenceIdeal.Hand.main_part8_ops6 (F := Ideal)) :=
  .cons (fun _ _ h => agree_unary (i := 753) ⟨rfl, rfl, rfl, rfl⟩ (by decide) ⟨rfl, rfl, rfl, rfl⟩ rfl rfl HEq.rfl h)
  (.cons (fun _ _ h => agree_unary (i := 777) ⟨rfl, rfl, rfl, rfl⟩ (by decide) ⟨rfl, rfl, rfl, rfl⟩ rfl rfl HEq.rfl h)
  (.cons (fun _ _ h => agree_binary (i := 744) (j := 778) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 780) ⟨rfl, rfl, rfl, rfl⟩ (by decide) ⟨rfl, rfl, rfl, rfl⟩ rfl rfl HEq.rfl h)
  (.cons (fun _ _ h => agree_binary (i := 776) (j := 781) ⟨rfl, rfl, rfl, rfl⟩ (by decide) ⟨rfl, rfl, rfl, rfl⟩ (by decide) ⟨rfl, rfl, rfl, rfl⟩ rfl rfl rfl HEq.rfl h)
  (.cons (fun _ _ h => agree_unary (i := 782) ⟨rfl, rfl, rfl, rfl⟩ (by decide) ⟨rfl, rfl, rfl, rfl⟩ rfl rfl HEq.rfl h)
  (.cons (fun _ _ h => agree_unary (i := 783) ⟨rfl, rfl, rfl, rfl⟩ (by decide) ⟨rfl, rfl, rfl, rfl⟩ rfl rfl HEq.rfl h)
  (.cons (fun _ _ h => agree_unary (i := 784) ⟨rfl, rfl, rfl, rfl⟩ (by decide) ⟨rfl, rfl, rfl, rfl⟩ rfl rfl HEq.rfl h)
  (.cons (fun _ _ h => agree_binary (i := 779) (j := 785) ⟨rfl, rfl, rfl, rfl⟩ (by decide) ⟨rfl, rfl, rfl, rfl⟩ (by decide) ⟨rfl, rfl, rfl, rfl⟩ rfl rfl rfl HEq.rfl h)
  (.cons (fun _ _ h => agree_unary (i := 746) ⟨rfl, rfl, rfl, rfl⟩ (by decide) ⟨rfl, rfl, rfl, rfl⟩ rfl rfl HEq.rfl h)
  (.cons (fun _ _ h => agree_unary (i := 787) ⟨rfl, rfl, rfl, rfl⟩ (by decide) ⟨rfl, rfl, rfl, rfl⟩ rfl rfl HEq.rfl h)
  (.cons (fun _ _ h => agree_binary (i := 786) (j := 788) ⟨rfl, rfl, rfl, rfl⟩ (by decide) ⟨rfl, rfl, rfl, rfl⟩ (by decide) ⟨rfl, rfl, rfl, rfl⟩ rfl rfl rfl HEq.rfl h)
  (.cons (fun _ _ h => agree_unary (i := 748) ⟨rfl, rfl, rfl, rfl⟩ (by decide) ⟨rfl, rfl, rfl, rfl⟩ rfl rfl HEq.rfl h)
  (.cons (fun _ _ h => agree_unary (i := 790) ⟨rfl, rfl, rfl, rfl⟩ (by decide) ⟨rfl, rfl, rfl, rfl⟩ rfl rfl HEq.rfl h)
  (.cons (fun _ _ h => agree_binary (i := 789) (j := 791) ⟨rfl, rfl, rfl, rfl⟩ (by decide) ⟨rfl, rfl, rfl, rfl⟩ (by decide) ⟨rfl, rfl, rfl, rfl⟩ rfl rfl rfl HEq.rfl h)
  (.nil _))))))))))))))))

theorem sim_main_part8_ops7 : Sim 793 (Cert.KernelIdeal.Gen.main_part8_ops7 (F := Ideal)) (Cert.ReferenceIdeal.Hand.main_part8_ops7 (F := Ideal)) :=
  .cons (fun _ _ h => agree_nullary ⟨rfl, rfl, rfl, rfl⟩ HEq.rfl h)
  (.cons (fun _ _ h => agree_unary (i := 793) ⟨rfl, rfl, rfl, rfl⟩ (by decide) ⟨rfl, rfl, rfl, rfl⟩ rfl rfl HEq.rfl h)
  (.cons (fun _ _ h => agree_binary (i := 792) (j := 794) ⟨rfl, rfl, rfl, rfl⟩ (by decide) ⟨rfl, rfl, rfl, rfl⟩ (by decide) ⟨rfl, rfl, rfl, rfl⟩ rfl rfl rfl HEq.rfl h)
  (.nil _)))

theorem sim_main_part8_ops8 : Sim 796 (Cert.KernelIdeal.Gen.main_part8_ops8 (F := Ideal)) (Cert.ReferenceIdeal.Hand.main_part8_ops8 (F := Ideal)) :=
  .cons (fun _ _ h => agree_nullary ⟨rfl, rfl, rfl, rfl⟩ HEq.rfl h)
  (.cons (fun _ _ h => agree_unary (i := 796) ⟨rfl, rfl, rfl, rfl⟩ (by decide) ⟨rfl, rfl, rfl, rfl⟩ rfl rfl HEq.rfl h)
  (.nil _))

theorem sim_main_part9_ops0 : Sim 798 (Cert.KernelIdeal.Gen.main_part9_ops0 (F := Ideal)) (Cert.ReferenceIdeal.Hand.main_part9_ops0 (F := Ideal)) :=
  .cons (fun _ _ h => agree_binary (i := 19) (j := 797) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 799) ⟨rfl, rfl, rfl, rfl⟩ (by decide) ⟨rfl, rfl, rfl, rfl⟩ rfl rfl HEq.rfl h)
  (.cons (fun _ _ h => agree_binary (i := 19) (j := 800) ⟨rfl, rfl, rfl, rfl⟩ (by decide) ⟨rfl, rfl, rfl, rfl⟩ (by decide) ⟨rfl, rfl, rfl, rfl⟩ rfl rfl rfl HEq.rfl h)
  (.cons (fun _ _ h => agree_ternary (l := 798) (i := 801) (j := 19) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.cons (fun _ _ h => agree_unary (i := 802) ⟨rfl, rfl, rfl, rfl⟩ (by decide) ⟨rfl, rfl, rfl, rfl⟩ rfl rfl HEq.rfl h)
  (.cons (fun _ _ h => agree_binary (i := 795) (j := 803) ⟨rfl, rfl, rfl, rfl⟩ (by decide) ⟨rfl, rfl, rfl, rfl⟩ (by decide) ⟨rfl, rfl, rfl, rfl⟩ rfl rfl rfl HEq.rfl h)
  (.cons (fun _ _ h => agree_unary (i := 6) ⟨rfl, rfl, rfl, rfl⟩ (by decide) ⟨rfl, rfl, rfl, rfl⟩ rfl rfl HEq.rfl h)
  (.cons (fun _ _ h => agree_reshape (i := 805) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_unary (i := 807) ⟨rfl, rfl, rfl, rfl⟩ (by decide) ⟨rfl, rfl, rfl, rfl⟩ rfl rfl HEq.rfl h)
  (.cons (fun _ _ h => agree_binary (i := 2) (j := 808) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 810) ⟨rfl, rfl, rfl, rfl⟩ (by decide) ⟨rfl, rfl, rfl, rfl⟩ rfl rfl HEq.rfl h)
  (.cons (fun _ _ h => agree_binary (i := 2) (j := 811) ⟨rfl, rfl, rfl, rfl⟩ (by decide) ⟨rfl, rfl, rfl, rfl⟩ (by decide) ⟨rfl, rfl, rfl, rfl⟩ rfl rfl rfl HEq.rfl h)
  (.cons (fun _ _ h => agree_ternary (l := 809) (i := 812) (j := 2) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.cons (fun _ _ h => agree_unary (i := 813) ⟨rfl, rfl, rfl, rfl⟩ (by decide) ⟨rfl, rfl, rfl, rfl⟩ rfl rfl HEq.rfl h)
  (.cons (fun _ _ h => agree_binary (i := 806) (j := 814) ⟨rfl, rfl, rfl, rfl⟩ (by decide) ⟨rfl, rfl, rfl, rfl⟩ (by decide) ⟨rfl, rfl, rfl, rfl⟩ rfl rfl rfl HEq.rfl h)
  (.cons (fun _ _ h => agree_binary (i := 804) (j := 815) ⟨rfl, rfl, rfl, rfl⟩ (by decide) ⟨rfl, rfl, rfl, rfl⟩ (by decide) ⟨rfl, rfl, rfl, rfl⟩ rfl rfl rfl HEq.rfl h)
  (.nil _)))))))))))))))))))

theorem sim_main_part9_ops1 : Sim 817 (Cert.KernelIdeal.Gen.main_part9_ops1 (F := Ideal)) (Cert.ReferenceIdeal.Hand.main_part9_ops1 (F := Ideal)) :=
  .cons (fun _ _ h => agree_nullary ⟨rfl, rfl, rfl, rfl⟩ HEq.rfl h)
  (.cons (fun _ _ h => agree_unary (i := 817) ⟨rfl, rfl, rfl, rfl⟩ (by decide) ⟨rfl, rfl, rfl, rfl⟩ rfl rfl HEq.rfl h)
  (.cons (fun _ _ h => agree_binary (i := 816) (j := 818) ⟨rfl, rfl, rfl, rfl⟩ (by decide) ⟨rfl, rfl, rfl, rfl⟩ (by decide) ⟨rfl, rfl, rfl, rfl⟩ rfl rfl rfl HEq.rfl h)
  (.nil _)))

theorem sim_main_part9_ops2 : Sim 820 (Cert.KernelIdeal.Gen.main_part9_ops2 (F := Ideal)) (Cert.ReferenceIdeal.Hand.main_part9_ops2 (F := Ideal)) :=
  .cons (fun _ _ h => agree_nullary ⟨rfl, rfl, rfl, rfl⟩ HEq.rfl h)
  (.cons (fun _ _ h => agree_unary (i := 820) ⟨rfl, rfl, rfl, rfl⟩ (by decide) ⟨rfl, rfl, rfl, rfl⟩ rfl rfl HEq.rfl h)
  (.cons (fun _ _ h => agree_unary (i := 21) ⟨rfl, rfl, rfl, rfl⟩ (by decide) ⟨rfl, rfl, rfl, rfl⟩ rfl rfl HEq.rfl h)
  (.cons (fun _ _ h => agree_ternary (l := 821) (i := 822) (j := 819) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.cons (fun _ _ h => agree_unary (i := 13) ⟨rfl, rfl, rfl, rfl⟩ (by decide) ⟨rfl, rfl, rfl, rfl⟩ rfl rfl HEq.rfl h)
  (.cons (fun _ _ h => agree_reshape (i := 824) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_binary (i := 826) (j := 825) ⟨rfl, rfl, rfl, rfl⟩ (by decide) ⟨rfl, rfl, rfl, rfl⟩ (by decide) ⟨rfl, rfl, rfl, rfl⟩ rfl rfl rfl HEq.rfl h)
  (.cons (fun _ _ h => agree_unary (i := 827) ⟨rfl, rfl, rfl, rfl⟩ (by decide) ⟨rfl, rfl, rfl, rfl⟩ rfl rfl HEq.rfl h)
  (.cons (fun _ _ h => agree_binary (i := 828) (j := 795) ⟨rfl, rfl, rfl, rfl⟩ (by decide) ⟨rfl, rfl, rfl, rfl⟩ (by decide) ⟨rfl, rfl, rfl, rfl⟩ rfl rfl rfl HEq.rfl h)
  (.cons (fun _ _ h => agree_binary (i := 829) (j := 823) ⟨rfl, rfl, rfl, rfl⟩ (by decide) ⟨rfl, rfl, rfl, rfl⟩ (by decide) ⟨rfl, rfl, rfl, rfl⟩ rfl rfl rfl HEq.rfl h)
  (.cons (fun _ _ h => agree_unary (i := 7) ⟨rfl, rfl, rfl, rfl⟩ (by decide) ⟨rfl, rfl, rfl, rfl⟩ rfl rfl HEq.rfl h)
  (.cons (fun _ _ h => agree_reshape (i := 831) ⟨rfl, rfl, rfl, rfl⟩ (by decide) ⟨rfl, rfl, rfl, rfl⟩ rfl rfl h)
  (.cons (fun _ _ h => agree_binary (i := 830) (j := 832) ⟨rfl, rfl, rfl, rfl⟩ (by decide) ⟨rfl, rfl, rfl, rfl⟩ (by decide) ⟨rfl, rfl, rfl, rfl⟩ rfl rfl rfl HEq.rfl h)
  (.cons (fun _ _ h => agree_unary (i := 8) ⟨rfl, rfl, rfl, rfl⟩ (by decide) ⟨rfl, rfl, rfl, rfl⟩ rfl rfl HEq.rfl h)
  (.cons (fun _ _ h => agree_reshape (i := 834) ⟨rfl, rfl, rfl, rfl⟩ (by decide) ⟨rfl, rfl, rfl, rfl⟩ rfl rfl h)
  (.cons (fun _ _ h => agree_unary (i := 835) ⟨rfl, rfl, rfl, rfl⟩ (by decide) ⟨rfl, rfl, rfl, rfl⟩ rfl rfl HEq.rfl h)
  (.cons (fun _ _ h => agree_unary (i := 836) ⟨rfl, rfl, rfl, rfl⟩ (by decide) ⟨rfl, rfl, rfl, rfl⟩ rfl rfl HEq.rfl h)
  (.cons (fun _ _ h => agree_binary (i := 833) (j := 837) ⟨rfl, rfl, rfl, rfl⟩ (by decide) ⟨rfl, rfl, rfl, rfl⟩ (by decide) ⟨rfl, rfl, rfl, rfl⟩ rfl rfl rfl HEq.rfl h)
  (.cons (fun _ _ h => agree_unary (i := 9) ⟨rfl, rfl, rfl, rfl⟩ (by decide) ⟨rfl, rfl, rfl, rfl⟩ rfl rfl HEq.rfl h)
  (.cons (fun _ _ h => agree_reshape (i := 839) ⟨rfl, rfl, rfl, rfl⟩ (by decide) ⟨rfl, rfl, rfl, rfl⟩ rfl rfl h)
  (.cons (fun _ _ h => agree_unary (i := 10) ⟨rfl, rfl, rfl, rfl⟩ (by decide) ⟨rfl, rfl, rfl, rfl⟩ rfl rfl HEq.rfl h)
  (.cons (fun _ _ h => agree_reshape (i := 841) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_binary (i := 838) (j := 843) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 845) ⟨rfl, rfl, rfl, rfl⟩ (by decide) ⟨rfl, rfl, rfl, rfl⟩ rfl rfl HEq.rfl h)
  (.cons (fun _ _ h => agree_binary (i := 844) (j := 846) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.nil _)))))))))))))))))))))))))))))

theorem sim_main_part9_ops3 : Sim 849 (Cert.KernelIdeal.Gen.main_part9_ops3 (F := Ideal)) (Cert.ReferenceIdeal.Hand.main_part9_ops3 (F := Ideal)) :=
  .cons (fun _ _ h => agree_nullary ⟨rfl, rfl, rfl, rfl⟩ HEq.rfl h)
  (.cons (fun _ _ h => agree_binary (i := 838) (j := 849) ⟨rfl, rfl, rfl, rfl⟩ (by decide) ⟨rfl, rfl, rfl, rfl⟩ (by decide) ⟨rfl, rfl, rfl, rfl⟩ rfl rfl rfl HEq.rfl h)
  (.cons (fun _ _ h => agree_unary (i := 850) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_unary (i := 852) ⟨rfl, rfl, rfl, rfl⟩ (by decide) ⟨rfl, rfl, rfl, rfl⟩ rfl rfl HEq.rfl h)
  (.cons (fun _ _ h => agree_binary (i := 851) (j := 853) ⟨rfl, rfl, rfl, rfl⟩ (by decide) ⟨rfl, rfl, rfl, rfl⟩ (by decide) ⟨rfl, rfl, rfl, rfl⟩ rfl rfl rfl HEq.rfl h)
  (.cons (fun _ _ h => agree_unary (i := 854) ⟨rfl, rfl, rfl, rfl⟩ (by decide) ⟨rfl, rfl, rfl, rfl⟩ rfl rfl HEq.rfl h)
  (.cons (fun _ _ h => agree_binary (i := 838) (j := 855) ⟨rfl, rfl, rfl, rfl⟩ (by decide) ⟨rfl, rfl, rfl, rfl⟩ (by decide) ⟨rfl, rfl, rfl, rfl⟩ rfl rfl rfl HEq.rfl h)
  (.cons (fun _ _ h => agree_binary (i := 856) (j := 856) ⟨rfl, rfl, rfl, rfl⟩ (by decide) ⟨rfl, rfl, rfl, rfl⟩ (by decide) ⟨rfl, rfl, rfl, rfl⟩ rfl rfl rfl HEq.rfl h)
  (.cons (fun _ _ h => agree_unary (i := 848) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_binary (i := 859) (j := 858) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_binary (i := 857) (j := 861) ⟨rfl, rfl, rfl, rfl⟩ (by decide) ⟨rfl, rfl, rfl, rfl⟩ (by decide) ⟨rfl, rfl, rfl, rfl⟩ rfl rfl rfl HEq.rfl h)
  (.cons (fun _ _ h => agree_unary (i := 860) ⟨rfl, rfl, rfl, rfl⟩ (by decide) ⟨rfl, rfl, rfl, rfl⟩ rfl rfl HEq.rfl h)
  (.cons (fun _ _ h => agree_binary (i := 862) (j := 863) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_binary (i := 860) (j := 865) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 867) ⟨rfl, rfl, rfl, rfl⟩ (by decide) ⟨rfl, rfl, rfl, rfl⟩ rfl rfl HEq.rfl h)
  (.cons (fun _ _ h => agree_unary (i := 868) ⟨rfl, rfl, rfl, rfl⟩ (by decide) ⟨rfl, rfl, rfl, rfl⟩ rfl rfl HEq.rfl h)
  (.cons (fun _ _ h => agree_ternary (l := 866) (i := 864) (j := 869) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.nil _))))))))))))))))))))))

theorem sim_main_part9_ops4 : Sim 871 (Cert.KernelIdeal.Gen.main_part9_ops4 (F := Ideal)) (Cert.ReferenceIdeal.Hand.main_part9_ops4 (F := Ideal)) :=
  .cons (fun _ _ h => agree_unary (i := 847) ⟨rfl, rfl, rfl, rfl⟩ (by decide) ⟨rfl, rfl, rfl, rfl⟩ rfl rfl HEq.rfl h)
  (.cons (fun _ _ h => agree_unary (i := 871) ⟨rfl, rfl, rfl, rfl⟩ (by decide) ⟨rfl, rfl, rfl, rfl⟩ rfl rfl HEq.rfl h)
  (.cons (fun _ _ h => agree_binary (i := 838) (j := 872) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 874) ⟨rfl, rfl, rfl, rfl⟩ (by decide) ⟨rfl, rfl, rfl, rfl⟩ rfl rfl HEq.rfl h)
  (.cons (fun _ _ h => agree_binary (i := 870) (j := 875) ⟨rfl, rfl, rfl, rfl⟩ (by decide) ⟨rfl, rfl, rfl, rfl⟩ (by decide) ⟨rfl, rfl, rfl, rfl⟩ rfl rfl rfl HEq.rfl h)
  (.cons (fun _ _ h => agree_unary (i := 876) ⟨rfl, rfl, rfl, rfl⟩ (by decide) ⟨rfl, rfl, rfl, rfl⟩ rfl rfl HEq.rfl h)
  (.cons (fun _ _ h => agree_unary (i := 877) ⟨rfl, rfl, rfl, rfl⟩ (by decide) ⟨rfl, rfl, rfl, rfl⟩ rfl rfl HEq.rfl h)
  (.cons (fun _ _ h => agree_unary (i := 878) ⟨rfl, rfl, rfl, rfl⟩ (by decide) ⟨rfl, rfl, rfl, rfl⟩ rfl rfl HEq.rfl h)
  (.cons (fun _ _ h => agree_binary (i := 873) (j := 879) ⟨rfl, rfl, rfl, rfl⟩ (by decide) ⟨rfl, rfl, rfl, rfl⟩ (by decide) ⟨rfl, rfl, rfl, rfl⟩ rfl rfl rfl HEq.rfl h)
  (.nil _))))))))))

theorem sim_main_part10_ops0 : Sim 881 (Cert.KernelIdeal.Gen.main_part10_ops0 (F := Ideal)) (Cert.ReferenceIdeal.Hand.main_part10_ops0 (F := Ideal)) :=
  .cons (fun _ _ h => agree_unary (i := 840) ⟨rfl, rfl, rfl, rfl⟩ (by decide) ⟨rfl, rfl, rfl, rfl⟩ rfl rfl HEq.rfl h)
  (.cons (fun _ _ h => agree_unary (i := 881) ⟨rfl, rfl, rfl, rfl⟩ (by decide) ⟨rfl, rfl, rfl, rfl⟩ rfl rfl HEq.rfl h)
  (.cons (fun _ _ h => agree_binary (i := 880) (j := 882) ⟨rfl, rfl, rfl, rfl⟩ (by decide) ⟨rfl, rfl, rfl, rfl⟩ (by decide) ⟨rfl, rfl, rfl, rfl⟩ rfl rfl rfl HEq.rfl h)
  (.cons (fun _ _ h => agree_unary (i := 842) ⟨rfl, rfl, rfl, rfl⟩ (by decide) ⟨rfl, rfl, rfl, rfl⟩ rfl rfl HEq.rfl h)
  (.cons (fun _ _ h => agree_unary (i := 884) ⟨rfl, rfl, rfl, rfl⟩ (by decide) ⟨rfl, rfl, rfl, rfl⟩ rfl rfl HEq.rfl h)
  (.cons (fun _ _ h => agree_binary (i := 883) (j := 885) ⟨rfl, rfl, rfl, rfl⟩ (by decide) ⟨rfl, rfl, rfl, rfl⟩ (by decide) ⟨rfl, rfl, rfl, rfl⟩ rfl rfl rfl HEq.rfl h)
  (.nil _))))))

theorem sim_main_part10_ops1 : Sim 887 (Cert.KernelIdeal.Gen.main_part10_ops1 (F := Ideal)) (Cert.ReferenceIdeal.Hand.main_part10_ops1 (F := Ideal)) :=
  .cons (fun _ _ h => agree_nullary ⟨rfl, rfl, rfl, rfl⟩ HEq.rfl h)
  (.cons (fun _ _ h => agree_unary (i := 887) ⟨rfl, rfl, rfl, rfl⟩ (by decide) ⟨rfl, rfl, rfl, rfl⟩ rfl rfl HEq.rfl h)
  (.cons (fun _ _ h => agree_binary (i := 886) (j := 888) ⟨rfl, rfl, rfl, rfl⟩ (by decide) ⟨rfl, rfl, rfl, rfl⟩ (by decide) ⟨rfl, rfl, rfl, rfl⟩ rfl rfl rfl HEq.rfl h)
  (.nil _)))

theorem sim_main_part10_ops2 : Sim 890 (Cert.KernelIdeal.Gen.main_part10_ops2 (F := Ideal)) (Cert.ReferenceIdeal.Hand.main_part10_ops2 (F := Ideal)) :=
  .cons (fun _ _ h => agree_unary (i := 11) ⟨rfl, rfl, rfl, rfl⟩ (by decide) ⟨rfl, rfl, rfl, rfl⟩ rfl rfl HEq.rfl h)
  (.cons (fun _ _ h => agree_reshape (i := 890) ⟨rfl, rfl, rfl, rfl⟩ (by decide) ⟨rfl, rfl, rfl, rfl⟩ rfl rfl h)
  (.cons (fun _ _ h => agree_binary (i := 889) (j := 891) ⟨rfl, rfl, rfl, rfl⟩ (by decide) ⟨rfl, rfl, rfl, rfl⟩ (by decide) ⟨rfl, rfl, rfl, rfl⟩ rfl rfl rfl HEq.rfl h)
  (.cons (fun _ _ h => agree_unary (i := 12) ⟨rfl, rfl, rfl, rfl⟩ (by decide) ⟨rfl, rfl, rfl, rfl⟩ rfl rfl HEq.rfl h)
  (.cons (fun _ _ h => agree_reshape (i := 893) ⟨rfl, rfl, rfl, rfl⟩ (by decide) ⟨rfl, rfl, rfl, rfl⟩ rfl rfl h)
  (.cons (fun _ _ h => agree_unary (i := 894) ⟨rfl, rfl, rfl, rfl⟩ (by decide) ⟨rfl, rfl, rfl, rfl⟩ rfl rfl HEq.rfl h)
  (.cons (fun _ _ h => agree_unary (i := 895) ⟨rfl, rfl, rfl, rfl⟩ (by decide) ⟨rfl, rfl, rfl, rfl⟩ rfl rfl HEq.rfl h)
  (.cons (fun _ _ h => agree_binary (i := 892) (j := 896) ⟨rfl, rfl, rfl, rfl⟩ (by decide) ⟨rfl, rfl, rfl, rfl⟩ (by decide) ⟨rfl, rfl, rfl, rfl⟩ rfl rfl rfl HEq.rfl h)
  (.cons (fun _ _ h => agree_unary (i := 14) ⟨rfl, rfl, rfl, rfl⟩ (by decide) ⟨rfl, rfl, rfl, rfl⟩ rfl rfl HEq.rfl h)
  (.cons (fun _ _ h => agree_reshape (i := 898) ⟨rfl, rfl, rfl, rfl⟩ (by decide) ⟨rfl, rfl, rfl, rfl⟩ rfl rfl h)
  (.cons (fun _ _ h => agree_unary (i := 15) ⟨rfl, rfl, rfl, rfl⟩ (by decide) ⟨rfl, rfl, rfl, rfl⟩ rfl rfl HEq.rfl h)
  (.cons (fun _ _ h => agree_reshape (i := 900) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_binary (i := 897) (j := 902) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 904) ⟨rfl, rfl, rfl, rfl⟩ (by decide) ⟨rfl, rfl, rfl, rfl⟩ rfl rfl HEq.rfl h)
  (.cons (fun _ _ h => agree_binary (i := 903) (j := 905) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.nil _))))))))))))))))))

theorem sim_main_part10_ops3 : Sim 908 (Cert.KernelIdeal.Gen.main_part10_ops3 (F := Ideal)) (Cert.ReferenceIdeal.Hand.main_part10_ops3 (F := Ideal)) :=
  .cons (fun _ _ h => agree_nullary ⟨rfl, rfl, rfl, rfl⟩ HEq.rfl h)
  (.cons (fun _ _ h => agree_binary (i := 897) (j := 908) ⟨rfl, rfl, rfl, rfl⟩ (by decide) ⟨rfl, rfl, rfl, rfl⟩ (by decide) ⟨rfl, rfl, rfl, rfl⟩ rfl rfl rfl HEq.rfl h)
  (.cons (fun _ _ h => agree_unary (i := 909) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_unary (i := 911) ⟨rfl, rfl, rfl, rfl⟩ (by decide) ⟨rfl, rfl, rfl, rfl⟩ rfl rfl HEq.rfl h)
  (.cons (fun _ _ h => agree_binary (i := 910) (j := 912) ⟨rfl, rfl, rfl, rfl⟩ (by decide) ⟨rfl, rfl, rfl, rfl⟩ (by decide) ⟨rfl, rfl, rfl, rfl⟩ rfl rfl rfl HEq.rfl h)
  (.cons (fun _ _ h => agree_unary (i := 913) ⟨rfl, rfl, rfl, rfl⟩ (by decide) ⟨rfl, rfl, rfl, rfl⟩ rfl rfl HEq.rfl h)
  (.cons (fun _ _ h => agree_binary (i := 897) (j := 914) ⟨rfl, rfl, rfl, rfl⟩ (by decide) ⟨rfl, rfl, rfl, rfl⟩ (by decide) ⟨rfl, rfl, rfl, rfl⟩ rfl rfl rfl HEq.rfl h)
  (.cons (fun _ _ h => agree_binary (i := 915) (j := 915) ⟨rfl, rfl, rfl, rfl⟩ (by decide) ⟨rfl, rfl, rfl, rfl⟩ (by decide) ⟨rfl, rfl, rfl, rfl⟩ rfl rfl rfl HEq.rfl h)
  (.cons (fun _ _ h => agree_unary (i := 907) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_binary (i := 918) (j := 917) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_binary (i := 916) (j := 920) ⟨rfl, rfl, rfl, rfl⟩ (by decide) ⟨rfl, rfl, rfl, rfl⟩ (by decide) ⟨rfl, rfl, rfl, rfl⟩ rfl rfl rfl HEq.rfl h)
  (.cons (fun _ _ h => agree_unary (i := 919) ⟨rfl, rfl, rfl, rfl⟩ (by decide) ⟨rfl, rfl, rfl, rfl⟩ rfl rfl HEq.rfl h)
  (.cons (fun _ _ h => agree_binary (i := 921) (j := 922) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_binary (i := 919) (j := 924) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 926) ⟨rfl, rfl, rfl, rfl⟩ (by decide) ⟨rfl, rfl, rfl, rfl⟩ rfl rfl HEq.rfl h)
  (.cons (fun _ _ h => agree_unary (i := 927) ⟨rfl, rfl, rfl, rfl⟩ (by decide) ⟨rfl, rfl, rfl, rfl⟩ rfl rfl HEq.rfl h)
  (.cons (fun _ _ h => agree_ternary (l := 925) (i := 923) (j := 928) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.nil _))))))))))))))))))))))

theorem sim_main_part10_ops4 : Sim 930 (Cert.KernelIdeal.Gen.main_part10_ops4 (F := Ideal)) (Cert.ReferenceIdeal.Hand.main_part10_ops4 (F := Ideal)) :=
  .cons (fun _ _ h => agree_unary (i := 906) ⟨rfl, rfl, rfl, rfl⟩ (by decide) ⟨rfl, rfl, rfl, rfl⟩ rfl rfl HEq.rfl h)
  (.cons (fun _ _ h => agree_unary (i := 930) ⟨rfl, rfl, rfl, rfl⟩ (by decide) ⟨rfl, rfl, rfl, rfl⟩ rfl rfl HEq.rfl h)
  (.cons (fun _ _ h => agree_binary (i := 897) (j := 931) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 933) ⟨rfl, rfl, rfl, rfl⟩ (by decide) ⟨rfl, rfl, rfl, rfl⟩ rfl rfl HEq.rfl h)
  (.cons (fun _ _ h => agree_binary (i := 929) (j := 934) ⟨rfl, rfl, rfl, rfl⟩ (by decide) ⟨rfl, rfl, rfl, rfl⟩ (by decide) ⟨rfl, rfl, rfl, rfl⟩ rfl rfl rfl HEq.rfl h)
  (.cons (fun _ _ h => agree_unary (i := 935) ⟨rfl, rfl, rfl, rfl⟩ (by decide) ⟨rfl, rfl, rfl, rfl⟩ rfl rfl HEq.rfl h)
  (.cons (fun _ _ h => agree_unary (i := 936) ⟨rfl, rfl, rfl, rfl⟩ (by decide) ⟨rfl, rfl, rfl, rfl⟩ rfl rfl HEq.rfl h)
  (.cons (fun _ _ h => agree_unary (i := 937) ⟨rfl, rfl, rfl, rfl⟩ (by decide) ⟨rfl, rfl, rfl, rfl⟩ rfl rfl HEq.rfl h)
  (.cons (fun _ _ h => agree_binary (i := 932) (j := 938) ⟨rfl, rfl, rfl, rfl⟩ (by decide) ⟨rfl, rfl, rfl, rfl⟩ (by decide) ⟨rfl, rfl, rfl, rfl⟩ rfl rfl rfl HEq.rfl h)
  (.cons (fun _ _ h => agree_unary (i := 899) ⟨rfl, rfl, rfl, rfl⟩ (by decide) ⟨rfl, rfl, rfl, rfl⟩ rfl rfl HEq.rfl h)
  (.cons (fun _ _ h => agree_unary (i := 940) ⟨rfl, rfl, rfl, rfl⟩ (by decide) ⟨rfl, rfl, rfl, rfl⟩ rfl rfl HEq.rfl h)
  (.cons (fun _ _ h => agree_binary (i := 939) (j := 941) ⟨rfl, rfl, rfl, rfl⟩ (by decide) ⟨rfl, rfl, rfl, rfl⟩ (by decide) ⟨rfl, rfl, rfl, rfl⟩ rfl rfl rfl HEq.rfl h)
  (.cons (fun _ _ h => agree_unary (i := 901) ⟨rfl, rfl, rfl, rfl⟩ (by decide) ⟨rfl, rfl, rfl, rfl⟩ rfl rfl HEq.rfl h)
  (.cons (fun _ _ h => agree_unary (i := 943) ⟨rfl, rfl, rfl, rfl⟩ (by decide) ⟨rfl, rfl, rfl, rfl⟩ rfl rfl HEq.rfl h)
  (.cons (fun _ _ h => agree_binary (i := 942) (j := 944) ⟨rfl, rfl, rfl, rfl⟩ (by decide) ⟨rfl, rfl, rfl, rfl⟩ (by decide) ⟨rfl, rfl, rfl, rfl⟩ rfl rfl rfl HEq.rfl h)
  (.nil _))))))))))))))))

end Cert.Bridge

end
-- ==== Proof.BridgeF.lean ====
/-
  The two programs' host operations, paired window by window (part F).

  For each listed window: the kernel program's operations and the reference program's are the same operations in the
  same order — the one at position k reads buffers of smaller index through the same function on either side and
  writes the buffer of index k — so memories that agree below the window's first position agree below its last.
-/
import proofs.«141498_g68332929679506_cont_9to1c4b_488_2_alg».proof.Proof.KernelIdealFrameP
import proofs.«141498_g68332929679506_cont_9to1c4b_488_2_alg».proof.Proof.RefProg
import proofs.«141498_g68332929679506_cont_9to1c4b_488_2_alg».proof.Proof.LibHostSim
import proofs.«141498_g68332929679506_cont_9to1c4b_488_2_alg».proof.Proof.KernelTail
import Idealize.ShloMosaic.PureOps.Ideal

set_option maxRecDepth 8192

noncomputable section

namespace Cert.Bridge

open Idealize.ShloMosaic Idealize.ShloMosaic.TcCoe Idealize.ShloMosaic.StableHlo Idealize.ShloMosaic.StableHlo.HostSim

theorem sim_main_part10_ops5 : Sim 946 (Cert.KernelIdeal.Gen.main_part10_ops5 (F := Ideal)) (Cert.ReferenceIdeal.Hand.main_part10_ops5 (F := Ideal)) :=
  .cons (fun _ _ h => agree_nullary ⟨rfl, rfl, rfl, rfl⟩ HEq.rfl h)
  (.cons (fun _ _ h => agree_unary (i := 946) ⟨rfl, rfl, rfl, rfl⟩ (by decide) ⟨rfl, rfl, rfl, rfl⟩ rfl rfl HEq.rfl h)
  (.cons (fun _ _ h => agree_binary (i := 945) (j := 947) ⟨rfl, rfl, rfl, rfl⟩ (by decide) ⟨rfl, rfl, rfl, rfl⟩ (by decide) ⟨rfl, rfl, rfl, rfl⟩ rfl rfl rfl HEq.rfl h)
  (.nil _)))

theorem sim_main_part10_ops6 : Sim 949 (Cert.KernelIdeal.Gen.main_part10_ops6 (F := Ideal)) (Cert.ReferenceIdeal.Hand.main_part10_ops6 (F := Ideal)) :=
  .cons (fun _ _ h => agree_nullary ⟨rfl, rfl, rfl, rfl⟩ HEq.rfl h)
  (.cons (fun _ _ h => agree_unary (i := 949) ⟨rfl, rfl, rfl, rfl⟩ (by decide) ⟨rfl, rfl, rfl, rfl⟩ rfl rfl HEq.rfl h)
  (.cons (fun _ _ h => agree_binary (i := 19) (j := 950) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 952) ⟨rfl, rfl, rfl, rfl⟩ (by decide) ⟨rfl, rfl, rfl, rfl⟩ rfl rfl HEq.rfl h)
  (.cons (fun _ _ h => agree_binary (i := 19) (j := 953) ⟨rfl, rfl, rfl, rfl⟩ (by decide) ⟨rfl, rfl, rfl, rfl⟩ (by decide) ⟨rfl, rfl, rfl, rfl⟩ rfl rfl rfl HEq.rfl h)
  (.cons (fun _ _ h => agree_ternary (l := 951) (i := 954) (j := 19) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.cons (fun _ _ h => agree_unary (i := 955) ⟨rfl, rfl, rfl, rfl⟩ (by decide) ⟨rfl, rfl, rfl, rfl⟩ rfl rfl HEq.rfl h)
  (.cons (fun _ _ h => agree_binary (i := 948) (j := 956) ⟨rfl, rfl, rfl, rfl⟩ (by decide) ⟨rfl, rfl, rfl, rfl⟩ (by decide) ⟨rfl, rfl, rfl, rfl⟩ rfl rfl rfl HEq.rfl h)
  (.cons (fun _ _ h => agree_unary (i := 6) ⟨rfl, rfl, rfl, rfl⟩ (by decide) ⟨rfl, rfl, rfl, rfl⟩ rfl rfl HEq.rfl h)
  (.cons (fun _ _ h => agree_reshape (i := 958) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_unary (i := 960) ⟨rfl, rfl, rfl, rfl⟩ (by decide) ⟨rfl, rfl, rfl, rfl⟩ rfl rfl HEq.rfl h)
  (.cons (fun _ _ h => agree_binary (i := 2) (j := 961) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 963) ⟨rfl, rfl, rfl, rfl⟩ (by decide) ⟨rfl, rfl, rfl, rfl⟩ rfl rfl HEq.rfl h)
  (.cons (fun _ _ h => agree_binary (i := 2) (j := 964) ⟨rfl, rfl, rfl, rfl⟩ (by decide) ⟨rfl, rfl, rfl, rfl⟩ (by decide) ⟨rfl, rfl, rfl, rfl⟩ rfl rfl rfl HEq.rfl h)
  (.nil _)))))))))))))))))

theorem sim_main_part11_ops0 : Sim 966 (Cert.KernelIdeal.Gen.main_part11_ops0 (F := Ideal)) (Cert.ReferenceIdeal.Hand.main_part11_ops0 (F := Ideal)) :=
  .cons (fun _ _ h => agree_ternary (l := 962) (i := 965) (j := 2) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.cons (fun _ _ h => agree_unary (i := 966) ⟨rfl, rfl, rfl, rfl⟩ (by decide) ⟨rfl, rfl, rfl, rfl⟩ rfl rfl HEq.rfl h)
  (.cons (fun _ _ h => agree_binary (i := 959) (j := 967) ⟨rfl, rfl, rfl, rfl⟩ (by decide) ⟨rfl, rfl, rfl, rfl⟩ (by decide) ⟨rfl, rfl, rfl, rfl⟩ rfl rfl rfl HEq.rfl h)
  (.cons (fun _ _ h => agree_binary (i := 957) (j := 968) ⟨rfl, rfl, rfl, rfl⟩ (by decide) ⟨rfl, rfl, rfl, rfl⟩ (by decide) ⟨rfl, rfl, rfl, rfl⟩ rfl rfl rfl HEq.rfl h)
  (.nil _))))

theorem sim_main_part11_ops1 : Sim 970 (Cert.KernelIdeal.Gen.main_part11_ops1 (F := Ideal)) (Cert.ReferenceIdeal.Hand.main_part11_ops1 (F := Ideal)) :=
  .cons (fun _ _ h => agree_nullary ⟨rfl, rfl, rfl, rfl⟩ HEq.rfl h)
  (.cons (fun _ _ h => agree_unary (i := 970) ⟨rfl, rfl, rfl, rfl⟩ (by decide) ⟨rfl, rfl, rfl, rfl⟩ rfl rfl HEq.rfl h)
  (.cons (fun _ _ h => agree_binary (i := 969) (j := 971) ⟨rfl, rfl, rfl, rfl⟩ (by decide) ⟨rfl, rfl, rfl, rfl⟩ (by decide) ⟨rfl, rfl, rfl, rfl⟩ rfl rfl rfl HEq.rfl h)
  (.nil _)))

theorem sim_main_part11_ops2 : Sim 973 (Cert.KernelIdeal.Gen.main_part11_ops2 (F := Ideal)) (Cert.ReferenceIdeal.Hand.main_part11_ops2 (F := Ideal)) :=
  .cons (fun _ _ h => agree_nullary ⟨rfl, rfl, rfl, rfl⟩ HEq.rfl h)
  (.cons (fun _ _ h => agree_unary (i := 973) ⟨rfl, rfl, rfl, rfl⟩ (by decide) ⟨rfl, rfl, rfl, rfl⟩ rfl rfl HEq.rfl h)
  (.cons (fun _ _ h => agree_unary (i := 21) ⟨rfl, rfl, rfl, rfl⟩ (by decide) ⟨rfl, rfl, rfl, rfl⟩ rfl rfl HEq.rfl h)
  (.cons (fun _ _ h => agree_ternary (l := 974) (i := 975) (j := 972) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.cons (fun _ _ h => agree_unary (i := 13) ⟨rfl, rfl, rfl, rfl⟩ (by decide) ⟨rfl, rfl, rfl, rfl⟩ rfl rfl HEq.rfl h)
  (.cons (fun _ _ h => agree_reshape (i := 977) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_binary (i := 979) (j := 978) ⟨rfl, rfl, rfl, rfl⟩ (by decide) ⟨rfl, rfl, rfl, rfl⟩ (by decide) ⟨rfl, rfl, rfl, rfl⟩ rfl rfl rfl HEq.rfl h)
  (.cons (fun _ _ h => agree_unary (i := 980) ⟨rfl, rfl, rfl, rfl⟩ (by decide) ⟨rfl, rfl, rfl, rfl⟩ rfl rfl HEq.rfl h)
  (.cons (fun _ _ h => agree_binary (i := 981) (j := 948) ⟨rfl, rfl, rfl, rfl⟩ (by decide) ⟨rfl, rfl, rfl, rfl⟩ (by decide) ⟨rfl, rfl, rfl, rfl⟩ rfl rfl rfl HEq.rfl h)
  (.cons (fun _ _ h => agree_binary (i := 982) (j := 976) ⟨rfl, rfl, rfl, rfl⟩ (by decide) ⟨rfl, rfl, rfl, rfl⟩ (by decide) ⟨rfl, rfl, rfl, rfl⟩ rfl rfl rfl HEq.rfl h)
  (.cons (fun _ _ h => agree_unary (i := 7) ⟨rfl, rfl, rfl, rfl⟩ (by decide) ⟨rfl, rfl, rfl, rfl⟩ rfl rfl HEq.rfl h)
  (.cons (fun _ _ h => agree_reshape (i := 984) ⟨rfl, rfl, rfl, rfl⟩ (by decide) ⟨rfl, rfl, rfl, rfl⟩ rfl rfl h)
  (.cons (fun _ _ h => agree_binary (i := 983) (j := 985) ⟨rfl, rfl, rfl, rfl⟩ (by decide) ⟨rfl, rfl, rfl, rfl⟩ (by decide) ⟨rfl, rfl, rfl, rfl⟩ rfl rfl rfl HEq.rfl h)
  (.cons (fun _ _ h => agree_unary (i := 8) ⟨rfl, rfl, rfl, rfl⟩ (by decide) ⟨rfl, rfl, rfl, rfl⟩ rfl rfl HEq.rfl h)
  (.cons (fun _ _ h => agree_reshape (i := 987) ⟨rfl, rfl, rfl, rfl⟩ (by decide) ⟨rfl, rfl, rfl, rfl⟩ rfl rfl h)
  (.cons (fun _ _ h => agree_unary (i := 988) ⟨rfl, rfl, rfl, rfl⟩ (by decide) ⟨rfl, rfl, rfl, rfl⟩ rfl rfl HEq.rfl h)
  (.cons (fun _ _ h => agree_unary (i := 989) ⟨rfl, rfl, rfl, rfl⟩ (by decide) ⟨rfl, rfl, rfl, rfl⟩ rfl rfl HEq.rfl h)
  (.cons (fun _ _ h => agree_binary (i := 986) (j := 990) ⟨rfl, rfl, rfl, rfl⟩ (by decide) ⟨rfl, rfl, rfl, rfl⟩ (by decide) ⟨rfl, rfl, rfl, rfl⟩ rfl rfl rfl HEq.rfl h)
  (.cons (fun _ _ h => agree_unary (i := 9) ⟨rfl, rfl, rfl, rfl⟩ (by decide) ⟨rfl, rfl, rfl, rfl⟩ rfl rfl HEq.rfl h)
  (.cons (fun _ _ h => agree_reshape (i := 992) ⟨rfl, rfl, rfl, rfl⟩ (by decide) ⟨rfl, rfl, rfl, rfl⟩ rfl rfl h)
  (.cons (fun _ _ h => agree_unary (i := 10) ⟨rfl, rfl, rfl, rfl⟩ (by decide) ⟨rfl, rfl, rfl, rfl⟩ rfl rfl HEq.rfl h)
  (.cons (fun _ _ h => agree_reshape (i := 994) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_binary (i := 991) (j := 996) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 998) ⟨rfl, rfl, rfl, rfl⟩ (by decide) ⟨rfl, rfl, rfl, rfl⟩ rfl rfl HEq.rfl h)
  (.cons (fun _ _ h => agree_binary (i := 997) (j := 999) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.nil _)))))))))))))))))))))))))))))

theorem sim_main_part11_ops3 : Sim 1002 (Cert.KernelIdeal.Gen.main_part11_ops3 (F := Ideal)) (Cert.ReferenceIdeal.Hand.main_part11_ops3 (F := Ideal)) :=
  .cons (fun _ _ h => agree_nullary ⟨rfl, rfl, rfl, rfl⟩ HEq.rfl h)
  (.cons (fun _ _ h => agree_binary (i := 991) (j := 1002) ⟨rfl, rfl, rfl, rfl⟩ (by decide) ⟨rfl, rfl, rfl, rfl⟩ (by decide) ⟨rfl, rfl, rfl, rfl⟩ rfl rfl rfl HEq.rfl h)
  (.cons (fun _ _ h => agree_unary (i := 1003) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_unary (i := 1005) ⟨rfl, rfl, rfl, rfl⟩ (by decide) ⟨rfl, rfl, rfl, rfl⟩ rfl rfl HEq.rfl h)
  (.cons (fun _ _ h => agree_binary (i := 1004) (j := 1006) ⟨rfl, rfl, rfl, rfl⟩ (by decide) ⟨rfl, rfl, rfl, rfl⟩ (by decide) ⟨rfl, rfl, rfl, rfl⟩ rfl rfl rfl HEq.rfl h)
  (.cons (fun _ _ h => agree_unary (i := 1007) ⟨rfl, rfl, rfl, rfl⟩ (by decide) ⟨rfl, rfl, rfl, rfl⟩ rfl rfl HEq.rfl h)
  (.cons (fun _ _ h => agree_binary (i := 991) (j := 1008) ⟨rfl, rfl, rfl, rfl⟩ (by decide) ⟨rfl, rfl, rfl, rfl⟩ (by decide) ⟨rfl, rfl, rfl, rfl⟩ rfl rfl rfl HEq.rfl h)
  (.cons (fun _ _ h => agree_binary (i := 1009) (j := 1009) ⟨rfl, rfl, rfl, rfl⟩ (by decide) ⟨rfl, rfl, rfl, rfl⟩ (by decide) ⟨rfl, rfl, rfl, rfl⟩ rfl rfl rfl HEq.rfl h)
  (.cons (fun _ _ h => agree_unary (i := 1001) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_binary (i := 1012) (j := 1011) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_binary (i := 1010) (j := 1014) ⟨rfl, rfl, rfl, rfl⟩ (by decide) ⟨rfl, rfl, rfl, rfl⟩ (by decide) ⟨rfl, rfl, rfl, rfl⟩ rfl rfl rfl HEq.rfl h)
  (.cons (fun _ _ h => agree_unary (i := 1013) ⟨rfl, rfl, rfl, rfl⟩ (by decide) ⟨rfl, rfl, rfl, rfl⟩ rfl rfl HEq.rfl h)
  (.cons (fun _ _ h => agree_binary (i := 1015) (j := 1016) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_binary (i := 1013) (j := 1018) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 1020) ⟨rfl, rfl, rfl, rfl⟩ (by decide) ⟨rfl, rfl, rfl, rfl⟩ rfl rfl HEq.rfl h)
  (.cons (fun _ _ h => agree_unary (i := 1021) ⟨rfl, rfl, rfl, rfl⟩ (by decide) ⟨rfl, rfl, rfl, rfl⟩ rfl rfl HEq.rfl h)
  (.cons (fun _ _ h => agree_ternary (l := 1019) (i := 1017) (j := 1022) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.nil _))))))))))))))))))))))

theorem sim_main_part11_ops4 : Sim 1024 (Cert.KernelIdeal.Gen.main_part11_ops4 (F := Ideal)) (Cert.ReferenceIdeal.Hand.main_part11_ops4 (F := Ideal)) :=
  .cons (fun _ _ h => agree_unary (i := 1000) ⟨rfl, rfl, rfl, rfl⟩ (by decide) ⟨rfl, rfl, rfl, rfl⟩ rfl rfl HEq.rfl h)
  (.cons (fun _ _ h => agree_unary (i := 1024) ⟨rfl, rfl, rfl, rfl⟩ (by decide) ⟨rfl, rfl, rfl, rfl⟩ rfl rfl HEq.rfl h)
  (.cons (fun _ _ h => agree_binary (i := 991) (j := 1025) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 1027) ⟨rfl, rfl, rfl, rfl⟩ (by decide) ⟨rfl, rfl, rfl, rfl⟩ rfl rfl HEq.rfl h)
  (.cons (fun _ _ h => agree_binary (i := 1023) (j := 1028) ⟨rfl, rfl, rfl, rfl⟩ (by decide) ⟨rfl, rfl, rfl, rfl⟩ (by decide) ⟨rfl, rfl, rfl, rfl⟩ rfl rfl rfl HEq.rfl h)
  (.cons (fun _ _ h => agree_unary (i := 1029) ⟨rfl, rfl, rfl, rfl⟩ (by decide) ⟨rfl, rfl, rfl, rfl⟩ rfl rfl HEq.rfl h)
  (.cons (fun _ _ h => agree_unary (i := 1030) ⟨rfl, rfl, rfl, rfl⟩ (by decide) ⟨rfl, rfl, rfl, rfl⟩ rfl rfl HEq.rfl h)
  (.cons (fun _ _ h => agree_unary (i := 1031) ⟨rfl, rfl, rfl, rfl⟩ (by decide) ⟨rfl, rfl, rfl, rfl⟩ rfl rfl HEq.rfl h)
  (.cons (fun _ _ h => agree_binary (i := 1026) (j := 1032) ⟨rfl, rfl, rfl, rfl⟩ (by decide) ⟨rfl, rfl, rfl, rfl⟩ (by decide) ⟨rfl, rfl, rfl, rfl⟩ rfl rfl rfl HEq.rfl h)
  (.cons (fun _ _ h => agree_unary (i := 993) ⟨rfl, rfl, rfl, rfl⟩ (by decide) ⟨rfl, rfl, rfl, rfl⟩ rfl rfl HEq.rfl h)
  (.cons (fun _ _ h => agree_unary (i := 1034) ⟨rfl, rfl, rfl, rfl⟩ (by decide) ⟨rfl, rfl, rfl, rfl⟩ rfl rfl HEq.rfl h)
  (.cons (fun _ _ h => agree_binary (i := 1033) (j := 1035) ⟨rfl, rfl, rfl, rfl⟩ (by decide) ⟨rfl, rfl, rfl, rfl⟩ (by decide) ⟨rfl, rfl, rfl, rfl⟩ rfl rfl rfl HEq.rfl h)
  (.cons (fun _ _ h => agree_unary (i := 995) ⟨rfl, rfl, rfl, rfl⟩ (by decide) ⟨rfl, rfl, rfl, rfl⟩ rfl rfl HEq.rfl h)
  (.cons (fun _ _ h => agree_unary (i := 1037) ⟨rfl, rfl, rfl, rfl⟩ (by decide) ⟨rfl, rfl, rfl, rfl⟩ rfl rfl HEq.rfl h)
  (.cons (fun _ _ h => agree_binary (i := 1036) (j := 1038) ⟨rfl, rfl, rfl, rfl⟩ (by decide) ⟨rfl, rfl, rfl, rfl⟩ (by decide) ⟨rfl, rfl, rfl, rfl⟩ rfl rfl rfl HEq.rfl h)
  (.nil _))))))))))))))))

theorem sim_main_part11_ops5 : Sim 1040 (Cert.KernelIdeal.Gen.main_part11_ops5 (F := Ideal)) (Cert.ReferenceIdeal.Hand.main_part11_ops5 (F := Ideal)) :=
  .cons (fun _ _ h => agree_nullary ⟨rfl, rfl, rfl, rfl⟩ HEq.rfl h)
  (.cons (fun _ _ h => agree_unary (i := 1040) ⟨rfl, rfl, rfl, rfl⟩ (by decide) ⟨rfl, rfl, rfl, rfl⟩ rfl rfl HEq.rfl h)
  (.cons (fun _ _ h => agree_binary (i := 1039) (j := 1041) ⟨rfl, rfl, rfl, rfl⟩ (by decide) ⟨rfl, rfl, rfl, rfl⟩ (by decide) ⟨rfl, rfl, rfl, rfl⟩ rfl rfl rfl HEq.rfl h)
  (.nil _)))

theorem sim_main_part11_ops6 : Sim 1043 (Cert.KernelIdeal.Gen.main_part11_ops6 (F := Ideal)) (Cert.ReferenceIdeal.Hand.main_part11_ops6 (F := Ideal)) :=
  .cons (fun _ _ h => agree_unary (i := 11) ⟨rfl, rfl, rfl, rfl⟩ (by decide) ⟨rfl, rfl, rfl, rfl⟩ rfl rfl HEq.rfl h)
  (.cons (fun _ _ h => agree_reshape (i := 1043) ⟨rfl, rfl, rfl, rfl⟩ (by decide) ⟨rfl, rfl, rfl, rfl⟩ rfl rfl h)
  (.cons (fun _ _ h => agree_binary (i := 1042) (j := 1044) ⟨rfl, rfl, rfl, rfl⟩ (by decide) ⟨rfl, rfl, rfl, rfl⟩ (by decide) ⟨rfl, rfl, rfl, rfl⟩ rfl rfl rfl HEq.rfl h)
  (.cons (fun _ _ h => agree_unary (i := 12) ⟨rfl, rfl, rfl, rfl⟩ (by decide) ⟨rfl, rfl, rfl, rfl⟩ rfl rfl HEq.rfl h)
  (.cons (fun _ _ h => agree_reshape (i := 1046) ⟨rfl, rfl, rfl, rfl⟩ (by decide) ⟨rfl, rfl, rfl, rfl⟩ rfl rfl h)
  (.cons (fun _ _ h => agree_unary (i := 1047) ⟨rfl, rfl, rfl, rfl⟩ (by decide) ⟨rfl, rfl, rfl, rfl⟩ rfl rfl HEq.rfl h)
  (.cons (fun _ _ h => agree_unary (i := 1048) ⟨rfl, rfl, rfl, rfl⟩ (by decide) ⟨rfl, rfl, rfl, rfl⟩ rfl rfl HEq.rfl h)
  (.cons (fun _ _ h => agree_binary (i := 1045) (j := 1049) ⟨rfl, rfl, rfl, rfl⟩ (by decide) ⟨rfl, rfl, rfl, rfl⟩ (by decide) ⟨rfl, rfl, rfl, rfl⟩ rfl rfl rfl HEq.rfl h)
  (.nil _))))))))

theorem sim_main_part12_ops0 : Sim 1051 (Cert.KernelIdeal.Gen.main_part12_ops0 (F := Ideal)) (Cert.ReferenceIdeal.Hand.main_part12_ops0 (F := Ideal)) :=
  .cons (fun _ _ h => agree_unary (i := 14) ⟨rfl, rfl, rfl, rfl⟩ (by decide) ⟨rfl, rfl, rfl, rfl⟩ rfl rfl HEq.rfl h)
  (.cons (fun _ _ h => agree_reshape (i := 1051) ⟨rfl, rfl, rfl, rfl⟩ (by decide) ⟨rfl, rfl, rfl, rfl⟩ rfl rfl h)
  (.cons (fun _ _ h => agree_unary (i := 15) ⟨rfl, rfl, rfl, rfl⟩ (by decide) ⟨rfl, rfl, rfl, rfl⟩ rfl rfl HEq.rfl h)
  (.cons (fun _ _ h => agree_reshape (i := 1053) ⟨rfl, rfl, rfl, rfl⟩ (by decide) ⟨rfl, rfl, rfl, rfl⟩ rfl rfl h)
  (.cons (fun _ _ h => agree_nullary ⟨rfl, rfl, rfl, rfl⟩ HEq.rfl h)
  (.cons (fun _ _ h => agree_binary (i := 1050) (j := 1055) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 1057) ⟨rfl, rfl, rfl, rfl⟩ (by decide) ⟨rfl, rfl, rfl, rfl⟩ rfl rfl HEq.rfl h)
  (.cons (fun _ _ h => agree_binary (i := 1056) (j := 1058) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.nil _))))))))))

theorem sim_main_part12_ops1 : Sim 1061 (Cert.KernelIdeal.Gen.main_part12_ops1 (F := Ideal)) (Cert.ReferenceIdeal.Hand.main_part12_ops1 (F := Ideal)) :=
  .cons (fun _ _ h => agree_nullary ⟨rfl, rfl, rfl, rfl⟩ HEq.rfl h)
  (.cons (fun _ _ h => agree_binary (i := 1050) (j := 1061) ⟨rfl, rfl, rfl, rfl⟩ (by decide) ⟨rfl, rfl, rfl, rfl⟩ (by decide) ⟨rfl, rfl, rfl, rfl⟩ rfl rfl rfl HEq.rfl h)
  (.cons (fun _ _ h => agree_unary (i := 1062) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_unary (i := 1064) ⟨rfl, rfl, rfl, rfl⟩ (by decide) ⟨rfl, rfl, rfl, rfl⟩ rfl rfl HEq.rfl h)
  (.cons (fun _ _ h => agree_binary (i := 1063) (j := 1065) ⟨rfl, rfl, rfl, rfl⟩ (by decide) ⟨rfl, rfl, rfl, rfl⟩ (by decide) ⟨rfl, rfl, rfl, rfl⟩ rfl rfl rfl HEq.rfl h)
  (.cons (fun _ _ h => agree_unary (i := 1066) ⟨rfl, rfl, rfl, rfl⟩ (by decide) ⟨rfl, rfl, rfl, rfl⟩ rfl rfl HEq.rfl h)
  (.cons (fun _ _ h => agree_binary (i := 1050) (j := 1067) ⟨rfl, rfl, rfl, rfl⟩ (by decide) ⟨rfl, rfl, rfl, rfl⟩ (by decide) ⟨rfl, rfl, rfl, rfl⟩ rfl rfl rfl HEq.rfl h)
  (.cons (fun _ _ h => agree_binary (i := 1068) (j := 1068) ⟨rfl, rfl, rfl, rfl⟩ (by decide) ⟨rfl, rfl, rfl, rfl⟩ (by decide) ⟨rfl, rfl, rfl, rfl⟩ rfl rfl rfl HEq.rfl h)
  (.cons (fun _ _ h => agree_unary (i := 1060) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_binary (i := 1071) (j := 1070) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_binary (i := 1069) (j := 1073) ⟨rfl, rfl, rfl, rfl⟩ (by decide) ⟨rfl, rfl, rfl, rfl⟩ (by decide) ⟨rfl, rfl, rfl, rfl⟩ rfl rfl rfl HEq.rfl h)
  (.cons (fun _ _ h => agree_unary (i := 1072) ⟨rfl, rfl, rfl, rfl⟩ (by decide) ⟨rfl, rfl, rfl, rfl⟩ rfl rfl HEq.rfl h)
  (.cons (fun _ _ h => agree_binary (i := 1074) (j := 1075) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_binary (i := 1072) (j := 1077) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 1079) ⟨rfl, rfl, rfl, rfl⟩ (by decide) ⟨rfl, rfl, rfl, rfl⟩ rfl rfl HEq.rfl h)
  (.cons (fun _ _ h => agree_unary (i := 1080) ⟨rfl, rfl, rfl, rfl⟩ (by decide) ⟨rfl, rfl, rfl, rfl⟩ rfl rfl HEq.rfl h)
  (.cons (fun _ _ h => agree_ternary (l := 1078) (i := 1076) (j := 1081) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.nil _))))))))))))))))))))))

theorem sim_main_part12_ops2 : Sim 1083 (Cert.KernelIdeal.Gen.main_part12_ops2 (F := Ideal)) (Cert.ReferenceIdeal.Hand.main_part12_ops2 (F := Ideal)) :=
  .cons (fun _ _ h => agree_unary (i := 1059) ⟨rfl, rfl, rfl, rfl⟩ (by decide) ⟨rfl, rfl, rfl, rfl⟩ rfl rfl HEq.rfl h)
  (.cons (fun _ _ h => agree_unary (i := 1083) ⟨rfl, rfl, rfl, rfl⟩ (by decide) ⟨rfl, rfl, rfl, rfl⟩ rfl rfl HEq.rfl h)
  (.cons (fun _ _ h => agree_binary (i := 1050) (j := 1084) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 1086) ⟨rfl, rfl, rfl, rfl⟩ (by decide) ⟨rfl, rfl, rfl, rfl⟩ rfl rfl HEq.rfl h)
  (.cons (fun _ _ h => agree_binary (i := 1082) (j := 1087) ⟨rfl, rfl, rfl, rfl⟩ (by decide) ⟨rfl, rfl, rfl, rfl⟩ (by decide) ⟨rfl, rfl, rfl, rfl⟩ rfl rfl rfl HEq.rfl h)
  (.cons (fun _ _ h => agree_unary (i := 1088) ⟨rfl, rfl, rfl, rfl⟩ (by decide) ⟨rfl, rfl, rfl, rfl⟩ rfl rfl HEq.rfl h)
  (.cons (fun _ _ h => agree_unary (i := 1089) ⟨rfl, rfl, rfl, rfl⟩ (by decide) ⟨rfl, rfl, rfl, rfl⟩ rfl rfl HEq.rfl h)
  (.cons (fun _ _ h => agree_unary (i := 1090) ⟨rfl, rfl, rfl, rfl⟩ (by decide) ⟨rfl, rfl, rfl, rfl⟩ rfl rfl HEq.rfl h)
  (.cons (fun _ _ h => agree_binary (i := 1085) (j := 1091) ⟨rfl, rfl, rfl, rfl⟩ (by decide) ⟨rfl, rfl, rfl, rfl⟩ (by decide) ⟨rfl, rfl, rfl, rfl⟩ rfl rfl rfl HEq.rfl h)
  (.cons (fun _ _ h => agree_unary (i := 1052) ⟨rfl, rfl, rfl, rfl⟩ (by decide) ⟨rfl, rfl, rfl, rfl⟩ rfl rfl HEq.rfl h)
  (.cons (fun _ _ h => agree_unary (i := 1093) ⟨rfl, rfl, rfl, rfl⟩ (by decide) ⟨rfl, rfl, rfl, rfl⟩ rfl rfl HEq.rfl h)
  (.cons (fun _ _ h => agree_binary (i := 1092) (j := 1094) ⟨rfl, rfl, rfl, rfl⟩ (by decide) ⟨rfl, rfl, rfl, rfl⟩ (by decide) ⟨rfl, rfl, rfl, rfl⟩ rfl rfl rfl HEq.rfl h)
  (.cons (fun _ _ h => agree_unary (i := 1054) ⟨rfl, rfl, rfl, rfl⟩ (by decide) ⟨rfl, rfl, rfl, rfl⟩ rfl rfl HEq.rfl h)
  (.cons (fun _ _ h => agree_unary (i := 1096) ⟨rfl, rfl, rfl, rfl⟩ (by decide) ⟨rfl, rfl, rfl, rfl⟩ rfl rfl HEq.rfl h)
  (.cons (fun _ _ h => agree_binary (i := 1095) (j := 1097) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 1099) ⟨rfl, rfl, rfl, rfl⟩ (by decide) ⟨rfl, rfl, rfl, rfl⟩ rfl rfl HEq.rfl h)
  (.cons (fun _ _ h => agree_unary (i := 3) ⟨rfl, rfl, rfl, rfl⟩ (by decide) ⟨rfl, rfl, rfl, rfl⟩ rfl rfl HEq.rfl h)
  (.cons (fun _ _ h => agree_ternary (l := 1100) (i := 1101) (j := 1098) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.cons (fun _ _ h => agree_nullary ⟨rfl, rfl, rfl, rfl⟩ HEq.rfl h)
  (.cons (fun _ _ h => agree_unary (i := 1103) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_unary (i := 1105) ⟨rfl, rfl, rfl, rfl⟩ (by decide) ⟨rfl, rfl, rfl, rfl⟩ rfl rfl HEq.rfl h)
  (.cons (fun _ _ h => agree_unary (i := 3) ⟨rfl, rfl, rfl, rfl⟩ (by decide) ⟨rfl, rfl, rfl, rfl⟩ rfl rfl HEq.rfl h)
  (.cons (fun _ _ h => agree_ternary (l := 1106) (i := 1107) (j := 1104) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.cons (fun _ _ h => agree_nullary ⟨rfl, rfl, rfl, rfl⟩ HEq.rfl h)
  (.nil _)))))))))))))))))))))))))))

theorem sim_main_part12_ops3 : Sim 1110 (Cert.KernelIdeal.Gen.main_part12_ops3 (F := Ideal)) (Cert.ReferenceIdeal.Hand.main_part12_ops3 (F := Ideal)) :=
  .cons (fun _ _ h => agree_unary (i := 1109) ⟨rfl, rfl, rfl, rfl⟩ (by decide) ⟨rfl, rfl, rfl, rfl⟩ rfl rfl HEq.rfl h)
  (.cons (fun _ _ h => agree_unary (i := 1110) ⟨rfl, rfl, rfl, rfl⟩ (by decide) ⟨rfl, rfl, rfl, rfl⟩ rfl rfl HEq.rfl h)
  (.cons (fun _ _ h => agree_binary (i := 1111) (j := 1108) ⟨rfl, rfl, rfl, rfl⟩ (by decide) ⟨rfl, rfl, rfl, rfl⟩ (by decide) ⟨rfl, rfl, rfl, rfl⟩ rfl rfl rfl HEq.rfl h)
  (.nil _)))

theorem sim_main_part12_ops4 : Sim 1113 (Cert.KernelIdeal.Gen.main_part12_ops4 (F := Ideal)) (Cert.ReferenceIdeal.Hand.main_part12_ops4 (F := Ideal)) :=
  .cons (fun _ _ h => agree_unary (i := 1112) ⟨rfl, rfl, rfl, rfl⟩ (by decide) ⟨rfl, rfl, rfl, rfl⟩ rfl rfl HEq.rfl h)
  (.cons (fun _ _ h => agree_binary (i := 1102) (j := 1113) ⟨rfl, rfl, rfl, rfl⟩ (by decide) ⟨rfl, rfl, rfl, rfl⟩ (by decide) ⟨rfl, rfl, rfl, rfl⟩ rfl rfl rfl HEq.rfl h)
  (.cons (fun _ _ h => agree_nullary ⟨rfl, rfl, rfl, rfl⟩ HEq.rfl h)
  (.cons (fun _ _ h => agree_unary (i := 1115) ⟨rfl, rfl, rfl, rfl⟩ (by decide) ⟨rfl, rfl, rfl, rfl⟩ rfl rfl HEq.rfl h)
  (.cons (fun _ _ h => agree_unary (i := 4) ⟨rfl, rfl, rfl, rfl⟩ (by decide) ⟨rfl, rfl, rfl, rfl⟩ rfl rfl HEq.rfl h)
  (.cons (fun _ _ h => agree_ternary (l := 1116) (i := 1117) (j := 1114) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.cons (fun _ _ h => agree_nullary ⟨rfl, rfl, rfl, rfl⟩ HEq.rfl h)
  (.cons (fun _ _ h => agree_unary (i := 1119) ⟨rfl, rfl, rfl, rfl⟩ (by decide) ⟨rfl, rfl, rfl, rfl⟩ rfl rfl HEq.rfl h)
  (.cons (fun _ _ h => agree_nullary ⟨rfl, rfl, rfl, rfl⟩ HEq.rfl h)
  (.cons (fun _ _ h => agree_unary (i := 1121) ⟨rfl, rfl, rfl, rfl⟩ (by decide) ⟨rfl, rfl, rfl, rfl⟩ rfl rfl HEq.rfl h)
  (.cons (fun _ _ h => agree_unary (i := 4) ⟨rfl, rfl, rfl, rfl⟩ (by decide) ⟨rfl, rfl, rfl, rfl⟩ rfl rfl HEq.rfl h)
  (.cons (fun _ _ h => agree_ternary (l := 1122) (i := 1123) (j := 1120) ⟨rfl, rfl, rfl, rfl⟩ (by decide) ⟨rfl, rfl, rfl, rfl⟩ (by decide) ⟨rfl, rfl, rfl, rfl⟩ (by decide) ⟨rfl, rfl, rfl, rfl⟩ rfl rfl rfl rfl HEq.rfl h)
  (.cons (fun _ _ h => agree_nullary ⟨rfl, rfl, rfl, rfl⟩ HEq.rfl h)
  (.nil _)))))))))))))

theorem sim_main_part12_ops5 : Sim 1126 (Cert.KernelIdeal.Gen.main_part12_ops5 (F := Ideal)) (Cert.ReferenceIdeal.Hand.main_part12_ops5 (F := Ideal)) :=
  .cons (fun _ _ h => agree_unary (i := 1125) ⟨rfl, rfl, rfl, rfl⟩ (by decide) ⟨rfl, rfl, rfl, rfl⟩ rfl rfl HEq.rfl h)
  (.cons (fun _ _ h => agree_unary (i := 1126) ⟨rfl, rfl, rfl, rfl⟩ (by decide) ⟨rfl, rfl, rfl, rfl⟩ rfl rfl HEq.rfl h)
  (.cons (fun _ _ h => agree_binary (i := 1127) (j := 1124) ⟨rfl, rfl, rfl, rfl⟩ (by decide) ⟨rfl, rfl, rfl, rfl⟩ (by decide) ⟨rfl, rfl, rfl, rfl⟩ rfl rfl rfl HEq.rfl h)
  (.nil _)))

theorem sim_lastShared : Sim 1129 (Cert.KernelIdeal.Hand.lastShared (F := Ideal)) (Cert.ReferenceIdeal.Hand.lastShared (F := Ideal)) :=
  .cons (fun _ _ h => agree_unary (i := 1128) ⟨rfl, rfl, rfl, rfl⟩ (by decide) ⟨rfl, rfl, rfl, rfl⟩ rfl rfl HEq.rfl h)
  (.cons (fun _ _ h => agree_binary (i := 1118) (j := 1129) ⟨rfl, rfl, rfl, rfl⟩ (by decide) ⟨rfl, rfl, rfl, rfl⟩ (by decide) ⟨rfl, rfl, rfl, rfl⟩ rfl rfl rfl HEq.rfl h)
  (.nil _))

end Cert.Bridge

end
-- ==== Proof.Bridge.lean ====
/-
  The two programs compute the same pooled features.

  The kernel program's 1113 host operations before its bias row, and the reference program's first 1113, are the
  same operations window by window (parts A to F); so, chained, they take launch memories that agree on the
  eighteen argument arrays to memories that agree on every buffer those operations write — among them the pooled
  feature array — and on the arguments themselves, among them the weights and the bias.
-/
import proofs.«141498_g68332929679506_cont_9to1c4b_488_2_alg».proof.Proof.BridgeA
import proofs.«141498_g68332929679506_cont_9to1c4b_488_2_alg».proof.Proof.BridgeB
import proofs.«141498_g68332929679506_cont_9to1c4b_488_2_alg».proof.Proof.BridgeC
import proofs.«141498_g68332929679506_cont_9to1c4b_488_2_alg».proof.Proof.BridgeD
import proofs.«141498_g68332929679506_cont_9to1c4b_488_2_alg».proof.Proof.BridgeE
import proofs.«141498_g68332929679506_cont_9to1c4b_488_2_alg».proof.Proof.BridgeF
import proofs.«141498_g68332929679506_cont_9to1c4b_488_2_alg».proof.Proof.KernelTail
import proofs.«141498_g68332929679506_cont_9to1c4b_488_2_alg».proof.Proof.RefProg
import proofs.«141498_g68332929679506_cont_9to1c4b_488_2_alg».proof.Proof.LibHostSim
import Idealize.ShloMosaic.PureOps.Ideal

set_option maxRecDepth 8192

noncomputable section

namespace Cert.Bridge

open Idealize.ShloMosaic Idealize.ShloMosaic.TcCoe Idealize.ShloMosaic.StableHlo Idealize.ShloMosaic.StableHlo.HostSim Idealize.SL.Sem

/-- The 1113 operations on either side, paired. -/
theorem shared_sim : Sim 18 (Cert.KernelIdeal.Hand.sharedOps (F := Ideal)) (Cert.ReferenceIdeal.Hand.sharedOps (F := Ideal)) := by
  simp only [Cert.KernelIdeal.Hand.sharedOps, Cert.ReferenceIdeal.Hand.sharedOps, Cert.KernelIdeal.Hand.sharedPieces, Cert.ReferenceIdeal.Hand.sharedPieces, List.flatten_cons, List.flatten_nil]
  exact (sim_main_part0_ops0.append rfl (sim_main_part0_ops1.append rfl (sim_main_part0_ops2.append rfl (sim_main_part1_ops0.append rfl (sim_main_part1_ops1.append rfl (sim_main_part1_ops2.append rfl (sim_main_part1_ops3.append rfl (sim_main_part1_ops4.append rfl (sim_main_part1_ops5.append rfl (sim_main_part1_ops6.append rfl (sim_main_part1_ops7.append rfl (sim_main_part1_ops8.append rfl (sim_main_part2_ops0.append rfl (sim_main_part2_ops1.append rfl (sim_main_part2_ops2.append rfl (sim_main_part2_ops3.append rfl (sim_main_part2_ops4.append rfl (sim_main_part3_ops0.append rfl (sim_main_part3_ops1.append rfl (sim_main_part3_ops2.append rfl (sim_main_part3_ops3.append rfl (sim_main_part3_ops4.append rfl (sim_main_part3_ops5.append rfl (sim_main_part3_ops6.append rfl (sim_main_part4_ops0.append rfl (sim_main_part4_ops1.append rfl (sim_main_part4_ops2.append rfl (sim_main_part4_ops3.append rfl (sim_main_part4_ops4.append rfl (sim_main_part4_ops5.append rfl (sim_main_part4_ops6.append rfl (sim_main_part5_ops0.append rfl (sim_main_part5_ops1.append rfl (sim_main_part5_ops2.append rfl (sim_main_part5_ops3.append rfl (sim_main_part5_ops4.append rfl (sim_main_part5_ops5.append rfl (sim_main_part5_ops6.append rfl (sim_main_part6_ops0.append rfl (sim_main_part6_ops1.append rfl (sim_main_part6_ops2.append rfl (sim_main_part6_ops3.append rfl (sim_main_part6_ops4.append rfl (sim_main_part6_ops5.append rfl (sim_main_part6_ops6.append rfl (sim_main_part7_ops0.append rfl (sim_main_part7_ops1.append rfl (sim_main_part7_ops2.append rfl (sim_main_part7_ops3.append rfl (sim_main_part7_ops4.append rfl (sim_main_part8_ops0.append rfl (sim_main_part8_ops1.append rfl (sim_main_part8_ops2.append rfl (sim_main_part8_ops3.append rfl (sim_main_part8_ops4.append rfl (sim_main_part8_ops5.append rfl (sim_main_part8_ops6.append rfl (sim_main_part8_ops7.append rfl (sim_main_part8_ops8.append rfl (sim_main_part9_ops0.append rfl (sim_main_part9_ops1.append rfl (sim_main_part9_ops2.append rfl (sim_main_part9_ops3.append rfl (sim_main_part9_ops4.append rfl (sim_main_part10_ops0.append rfl (sim_main_part10_ops1.append rfl (sim_main_part10_ops2.append rfl (sim_main_part10_ops3.append rfl (sim_main_part10_ops4.append rfl (sim_main_part10_ops5.append rfl (sim_main_part10_ops6.append rfl (sim_main_part11_ops0.append rfl (sim_main_part11_ops1.append rfl (sim_main_part11_ops2.append rfl (sim_main_part11_ops3.append rfl (sim_main_part11_ops4.append rfl (sim_main_part11_ops5.append rfl (sim_main_part11_ops6.append rfl (sim_main_part12_ops0.append rfl (sim_main_part12_ops1.append rfl (sim_main_part12_ops2.append rfl (sim_main_part12_ops3.append rfl (sim_main_part12_ops4.append rfl (sim_main_part12_ops5.append rfl (sim_lastShared.append rfl (.nil _))))))))))))))))))))))))))))))))))))))))))))))))))))))))))))))))))))))))))))))))))))))

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Launch memories that agree on the eighteen argument arrays agree on every HBM buffer of index below 18. -/
theorem agree_launch
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Agree 18 (fun b => m (c, b) : Valuation Cert.KernelIdeal.τ Cert.KernelIdeal.sig (Elt Ideal)) (StableHlo.launchContents m' c) := by
  intro x₁ x₂ i s hi
  obtain ⟨s1, s2, s3, s4⟩ := s
  interval_cases i
  · obtain rfl := ref_eq s1 (y := Cert.KernelIdeal.main_arg0) rfl s3
    obtain rfl := ref_eq s2 (y := Cert.ReferenceIdeal.main_arg0) rfl s4
    exact heq_of_eq h0.symm
  · obtain rfl := ref_eq s1 (y := Cert.KernelIdeal.main_arg1) rfl s3
    obtain rfl := ref_eq s2 (y := Cert.ReferenceIdeal.main_arg1) rfl s4
    exact heq_of_eq h1.symm
  · obtain rfl := ref_eq s1 (y := Cert.KernelIdeal.main_arg2) rfl s3
    obtain rfl := ref_eq s2 (y := Cert.ReferenceIdeal.main_arg2) rfl s4
    exact heq_of_eq h2.symm
  · obtain rfl := ref_eq s1 (y := Cert.KernelIdeal.main_arg3) rfl s3
    obtain rfl := ref_eq s2 (y := Cert.ReferenceIdeal.main_arg3) rfl s4
    exact heq_of_eq h3.symm
  · obtain rfl := ref_eq s1 (y := Cert.KernelIdeal.main_arg4) rfl s3
    obtain rfl := ref_eq s2 (y := Cert.ReferenceIdeal.main_arg4) rfl s4
    exact heq_of_eq h4.symm
  · obtain rfl := ref_eq s1 (y := Cert.KernelIdeal.main_arg5) rfl s3
    obtain rfl := ref_eq s2 (y := Cert.ReferenceIdeal.main_arg5) rfl s4
    exact heq_of_eq h5.symm
  · obtain rfl := ref_eq s1 (y := Cert.KernelIdeal.main_arg6) rfl s3
    obtain rfl := ref_eq s2 (y := Cert.ReferenceIdeal.main_arg6) rfl s4
    exact heq_of_eq h6.symm
  · obtain rfl := ref_eq s1 (y := Cert.KernelIdeal.main_arg7) rfl s3
    obtain rfl := ref_eq s2 (y := Cert.ReferenceIdeal.main_arg7) rfl s4
    exact heq_of_eq h7.symm
  · obtain rfl := ref_eq s1 (y := Cert.KernelIdeal.main_arg8) rfl s3
    obtain rfl := ref_eq s2 (y := Cert.ReferenceIdeal.main_arg8) rfl s4
    exact heq_of_eq h8.symm
  · obtain rfl := ref_eq s1 (y := Cert.KernelIdeal.main_arg9) rfl s3
    obtain rfl := ref_eq s2 (y := Cert.ReferenceIdeal.main_arg9) rfl s4
    exact heq_of_eq h9.symm
  · obtain rfl := ref_eq s1 (y := Cert.KernelIdeal.main_arg10) rfl s3
    obtain rfl := ref_eq s2 (y := Cert.ReferenceIdeal.main_arg10) rfl s4
    exact heq_of_eq h10.symm
  · obtain rfl := ref_eq s1 (y := Cert.KernelIdeal.main_arg11) rfl s3
    obtain rfl := ref_eq s2 (y := Cert.ReferenceIdeal.main_arg11) rfl s4
    exact heq_of_eq h11.symm
  · obtain rfl := ref_eq s1 (y := Cert.KernelIdeal.main_arg12) rfl s3
    obtain rfl := ref_eq s2 (y := Cert.ReferenceIdeal.main_arg12) rfl s4
    exact heq_of_eq h12.symm
  · obtain rfl := ref_eq s1 (y := Cert.KernelIdeal.main_arg13) rfl s3
    obtain rfl := ref_eq s2 (y := Cert.ReferenceIdeal.main_arg13) rfl s4
    exact heq_of_eq h13.symm
  · obtain rfl := ref_eq s1 (y := Cert.KernelIdeal.main_arg14) rfl s3
    obtain rfl := ref_eq s2 (y := Cert.ReferenceIdeal.main_arg14) rfl s4
    exact heq_of_eq h14.symm
  · obtain rfl := ref_eq s1 (y := Cert.KernelIdeal.main_arg15) rfl s3
    obtain rfl := ref_eq s2 (y := Cert.ReferenceIdeal.main_arg15) rfl s4
    exact heq_of_eq h15.symm
  · obtain rfl := ref_eq s1 (y := Cert.KernelIdeal.main_arg16) rfl s3
    obtain rfl := ref_eq s2 (y := Cert.ReferenceIdeal.main_arg16) rfl s4
    exact heq_of_eq h16.symm
  · obtain rfl := ref_eq s1 (y := Cert.KernelIdeal.main_arg17) rfl s3
    obtain rfl := ref_eq s2 (y := Cert.ReferenceIdeal.main_arg17) rfl s4
    exact heq_of_eq h17.symm

/-- After the 1113 operations the two memories hold the same pooled features, the same weights and the same bias. -/
theorem pooled_agree
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.KernelIdeal.Hand.W m c Cert.KernelIdeal.main_v666 = (StableHlo.after (Cert.ReferenceIdeal.Hand.sharedOps (F := Ideal)) (StableHlo.launchContents m' c)) Cert.ReferenceIdeal.main_v666
    ∧ Cert.KernelIdeal.Hand.W m c Cert.KernelIdeal.main_arg16 = (StableHlo.after (Cert.ReferenceIdeal.Hand.sharedOps (F := Ideal)) (StableHlo.launchContents m' c)) Cert.ReferenceIdeal.main_arg16
    ∧ Cert.KernelIdeal.Hand.W m c Cert.KernelIdeal.main_arg17 = (StableHlo.after (Cert.ReferenceIdeal.Hand.sharedOps (F := Ideal)) (StableHlo.launchContents m' c)) Cert.ReferenceIdeal.main_arg17 := by
  have hA := shared_sim.after _ _ (agree_launch m m' c h0 h1 h2 h3 h4 h5 h6 h7 h8 h9 h10 h11 h12 h13 h14 h15 h16 h17)
  exact ⟨eq_of_heq (hA Cert.KernelIdeal.main_v666 Cert.ReferenceIdeal.main_v666 1130 ⟨rfl, rfl, rfl, rfl⟩ (by decide)),
    eq_of_heq (hA Cert.KernelIdeal.main_arg16 Cert.ReferenceIdeal.main_arg16 16 ⟨rfl, rfl, rfl, rfl⟩ (by decide)),
    eq_of_heq (hA Cert.KernelIdeal.main_arg17 Cert.ReferenceIdeal.main_arg17 17 ⟨rfl, rfl, rfl, rfl⟩ (by decide))⟩

end Cert.Bridge

end
-- ==== Proof.HeadKernel.lean ====
/-
  The prediction head's kernel at the extended reals: what its output array holds after the run.

  The kernel has one grid point and four windows, and each window's block is its whole array: the block index is 0 on
  every axis, so an entry of a block sits in its array at 0 · size + 1 · (its coordinate inside the block), that is, at
  the same coordinates. Over the whole output block the body stores the matrix product of the feature block (64 by 300)
  by the weight block (300 by 10), accumulated into the zero array, plus the bias row (1 by 10) broadcast over the 64
  rows. Read at entry (a, b) that is  ∑ c : Fin 300, g[a,c] · w[c,b] + brow[0,b]  (`pay_apply`): the two shape casts are
  to the same shape, hence identities; the product into the zero accumulator is the sum over the one contracted axis;
  the broadcast reads the one row.

  So what the one point writes back is its block of the head function (HeadSpec.lean) of the three arrays as the region
  finds them (`flushed_eq`); that block is the whole 64 by 10 array, so the one point's block covers every index
  (`cover`), and the array ends holding the head function (`final`). `run` states the run with it.
-/
import proofs.«141498_g68332929679506_cont_9to1c4b_488_2_alg».proof.Proof.KernelIdealValueP
import proofs.«141498_g68332929679506_cont_9to1c4b_488_2_alg».proof.Proof.HeadSpec
import proofs.«141498_g68332929679506_cont_9to1c4b_488_2_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.HeadValue

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

/-! ## The payload at an entry -/

/-- The printed dimension numbers are the plain ones: rows against columns, no batch axis. -/
theorem dims_plain : dot_S64x300_S300x10_S64x10_1_0_0_1_n_n = DotDims.plain 64 300 10 := rfl

/-- **The body's stored value at entry `(a, b)`**: the sum over the 300 contracted positions `c` of
    `x0[a,c] · x1[c,b]`, plus the bias row's entry `x2[0,b]`. -/
theorem pay_apply (x0 : FVec Ideal S64x300 .f32) (x1 : FVec Ideal S300x10 .f32) (x2 : FVec Ideal S1x10 .f32)
    (a : Fin 64) (b : Fin 10) :
    k0_pay1 x0 x1 x2 (ix2 a b) = (∑ c : Fin 300, x0 (ix2 a c) * x1 (ix2 c b)) + x2 (ix2 (0 : Fin 1) b) := by
  unfold k0_pay1
  rw [addf_apply, shapeCast_self, shapeCast_self, broadcastTo_1b_ab_apply, dims_plain]
  simp only [matmul]
  rw [PlainMatmul.matmul_zero_apply]

/-! ## The blocks -/

variable (m : (ℓ : Loc nD τ sig) → Buf (Elt Ideal) ℓ) (ρ : Dev nD → PrngReg)

/-- The offsets of every load and store of the body: zero on both axes, however the zeros are spelt. -/
theorem hz : (![0, 0] : Fin 2 → Nat) = fun _ => 0 := funext fun a => by fin_cases a <;> rfl

/-- The feature window's block is the whole array: entry `(a, k)` of the block is entry `(a, k)` of the array
    (block index 0 on both axes). -/
theorem iblk0_apply (c : Dev nD) (t : Fin cfg0.N) (a : Fin 64) (k : Fin 300) :
    (iblk m c 0 t : FVec Ideal S64x300 .f32) (ix2 a k) = (V m c main_v666 : S64x300.Idx → EReal) (ix2 a k) := by
  unfold iblk
  rw [View.read_apply]
  show V m c main_v666 (((cfg0.win 0).blk t).view.emb (ix2 a k)) = V m c main_v666 (ix2 a k)
  refine congrArg (V m c main_v666) (funext fun ax => Fin.ext ?_)
  match ax with
  | ⟨0, _⟩ => show win0_0.index t (0 : Fin 2) * 64 + 1 * a.val = a.val; show 0 * 64 + 1 * a.val = a.val; omega
  | ⟨1, _⟩ => show win0_0.index t (1 : Fin 2) * 300 + 1 * k.val = k.val; show 0 * 300 + 1 * k.val = k.val; omega

/-- The weight window's block is the whole array. -/
theorem iblk1_apply (c : Dev nD) (t : Fin cfg0.N) (k : Fin 300) (b : Fin 10) :
    (iblk m c 1 t : FVec Ideal S300x10 .f32) (ix2 k b) = (V m c main_arg16 : S300x10.Idx → EReal) (ix2 k b) := by
  unfold iblk
  rw [View.read_apply]
  show V m c main_arg16 (((cfg0.win 1).blk t).view.emb (ix2 k b)) = V m c main_arg16 (ix2 k b)
  refine congrArg (V m c main_arg16) (funext fun ax => Fin.ext ?_)
  match ax with
  | ⟨0, _⟩ => show win0_1.index t (0 : Fin 2) * 300 + 1 * k.val = k.val; show 0 * 300 + 1 * k.val = k.val; omega
  | ⟨1, _⟩ => show win0_1.index t (1 : Fin 2) * 10 + 1 * b.val = b.val; show 0 * 10 + 1 * b.val = b.val; omega

/-- The bias row's window's block is the whole array. -/
theorem iblk2_apply (c : Dev nD) (t : Fin cfg0.N) (z : Fin 1) (b : Fin 10) :
    (iblk m c 2 t : FVec Ideal S1x10 .f32) (ix2 z b) = (V m c main_v667 : S1x10.Idx → EReal) (ix2 z b) := by
  unfold iblk
  rw [View.read_apply]
  show V m c main_v667 (((cfg0.win 2).blk t).view.emb (ix2 z b)) = V m c main_v667 (ix2 z b)
  refine congrArg (V m c main_v667) (funext fun ax => Fin.ext ?_)
  match ax with
  | ⟨0, _⟩ => show win0_2.index t (0 : Fin 2) * 1 + 1 * z.val = z.val; show 0 * 1 + 1 * z.val = z.val; omega
  | ⟨1, _⟩ => show win0_2.index t (1 : Fin 2) * 10 + 1 * b.val = b.val; show 0 * 10 + 1 * b.val = b.val; omega

/-! ## What the point writes back, and the array after the run -/

/-- WHAT POINT `t` WRITES BACK is block `t` of the head function of the three arrays as the region finds them: the one
    store through the whole staging buffer leaves the payload, each load through it reads its block, and entry
    `(a, b)` of the payload over the three blocks is entry `(a, b)` of the head over the three arrays. -/
theorem flushed_eq (c : Dev nD) (t : Fin cfg0.N) :
    (dats m 0 c).flushed 3 t = ((cfg0.win 3).blk t).view.read (Elt Ideal)
      (Cert.Head.head (V m c main_v666) (V m c main_arg16) (V m c main_v667)) := by
  rw [ValueP.flushed3]
  unfold out0_3
  rw [View.canon_unit_zero hz]
  simp only [View.ld_unit_zero (S := S64x300) hz, View.ld_unit_zero (S := S300x10) hz, View.ld_unit_zero (S := S1x10) hz]
  funext j
  have hj0 : (j 0).val < 64 := (j 0).isLt
  have hj1 : (j 1).val < 10 := (j 1).isLt
  have e1 : (cfg0.win 3).xinj (grid0.coords t) j = ix2 (⟨(j 0).val, hj0⟩ : Fin 64) (⟨(j 1).val, hj1⟩ : Fin 10) :=
    funext fun ax => by
      match ax with
      | ⟨0, _⟩ => rfl
      | ⟨1, _⟩ => rfl
  have e2 : ((cfg0.win 3).blk t).view.emb j = ix2 (⟨(j 0).val, hj0⟩ : Fin 64) (⟨(j 1).val, hj1⟩ : Fin 10) :=
    funext fun ax => Fin.ext (by
      match ax with
      | ⟨0, _⟩ => show win0_3.index t (0 : Fin 2) * 64 + 1 * (j 0).val = (j 0).val; show 0 * 64 + 1 * (j 0).val = (j 0).val; omega
      | ⟨1, _⟩ => show win0_3.index t (1 : Fin 2) * 10 + 1 * (j 1).val = (j 1).val; show 0 * 10 + 1 * (j 1).val = (j 1).val; omega)
  show k0_pay1 (iblk m c 0 t) (iblk m c 1 t) (iblk m c 2 t) ((cfg0.win 3).xinj (grid0.coords t) j)
    = Cert.Head.head (V m c main_v666) (V m c main_arg16) (V m c main_v667) (((cfg0.win 3).blk t).view.emb j)
  rw [e1, e2, Cert.Head.head_apply]
  refine (pay_apply _ _ _ _ _).trans ?_
  refine congrArg₂ (· + ·) (Finset.sum_congr rfl fun k _ => congrArg₂ (· * ·) (iblk0_apply m c t _ k) (iblk1_apply m c t k _)) (iblk2_apply m c t 0 _)

/-- An index of the output array is in point `t`'s block iff each coordinate is in the block's range on its axis. -/
theorem mem_blk (t : Fin cfg0.N) (i : S64x10.Idx) :
    i ∈ ((cfg0.win 3).blk t).view.set ↔ ∀ a : Fin 2, win0_3.index t a * S64x10.size a ≤ (i a).val
      ∧ (i a).val < win0_3.index t a * S64x10.size a + S64x10.size a := by
  show i ∈ ((View.whole main_v668).slice (win0_3.rect t)).set ↔ _
  rw [View.set_slice_whole, Rect.mem_set_unit]
  exact Iff.rfl

/-- The one point's block, at block index 0 with the array's own sizes, holds every index of the array. -/
theorem cover (i : S64x10.Idx) :
    ∃ t : Fin cfg0.N, (cfg0.win 3).flush t = true ∧ i ∈ ((cfg0.win 3).blk t).view.set := by
  refine ⟨t0_0, flush0_3 t0_0, ?_⟩
  rw [mem_blk]
  intro a
  have h0 : (i 0).val < 64 := (i 0).isLt
  have h1 : (i 1).val < 10 := (i 1).isLt
  match a with
  | ⟨0, _⟩ => show 0 * 64 ≤ (i 0).val ∧ (i 0).val < 0 * 64 + 64; omega
  | ⟨1, _⟩ => show 0 * 10 ≤ (i 1).val ∧ (i 1).val < 0 * 10 + 10; omega

/-- THE ARRAY after the run: the head function of the three arrays as the region finds them. -/
theorem final (c : Dev nD) :
    (dats m 0 c).arrAt 3 cfg0.N = Cert.Head.head (V m c main_v666) (V m c main_arg16) (V m c main_v667) :=
  (dats m 0 c).arrAt_eq_of_cover 3 (Cert.Head.head (V m c main_v666) (V m c main_arg16) (V m c main_v667))
    (fun t _ => flushed_eq m c t) cover

/-- The run, read: the output array at the head function, the arguments unchanged. -/
theorem run : θ_run (defs (F := Ideal)) (onTc (τ := τ) (main (F := Ideal))) ⟨m, fun _ => 0, ρ⟩ fun r => ∀ c : Dev nD,
      r.2.mem ((c : Thread nD τ).loc main_v668)
          = Cert.Head.head (V m c main_v666) (V m c main_arg16) (V m c main_v667)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨(h c).1.trans (final m c), (h c).2⟩) (ValueP.run_blocks m ρ)

end Cert.KernelIdeal.HeadValue

end
-- ==== Proof.lean ====
/-
  The claim: a seven-layer message-passing network over a batch of graphs, with a pooled prediction head.

  Both programs first compute, by the same 1113 host operations, the pooled feature array (64 graphs by 300
  features) from the eighteen argument arrays. The reference then takes the product with the weights (300 by 10)
  and adds the bias; the kernel program places the bias as a row and runs one kernel call, whose body stores the
  matrix unit's product of the pooled features with the weights, accumulated into zero, plus the bias row repeated
  down the rows. At the extended reals both are, at entry (a, b), the sum over the features c of g[a,c] · w[c,b]
  plus bias[b]: a matrix product into the zero accumulator and the host's product are the same sum, and no law is
  used that would need the inputs finite.
  The three frames: the two kernel programs' by their frame certificates, the reference's by its run as a straight
  line of operations, none of which writes an argument array.
  The idealization rewrote nothing, so nothing is owed for it.
-/
import proofs.«141498_g68332929679506_cont_9to1c4b_488_2_alg».proof.Defs
import proofs.«141498_g68332929679506_cont_9to1c4b_488_2_alg».proof.Proof.Gen.Kernel
import proofs.«141498_g68332929679506_cont_9to1c4b_488_2_alg».proof.Proof.Gen.KernelIdeal
import proofs.«141498_g68332929679506_cont_9to1c4b_488_2_alg».proof.Proof.Gen.ReferenceIdeal
import proofs.«141498_g68332929679506_cont_9to1c4b_488_2_alg».proof.Proof.Gen.Pre_finite_inputs
import proofs.«141498_g68332929679506_cont_9to1c4b_488_2_alg».proof.Proof.KernelFrameP
import proofs.«141498_g68332929679506_cont_9to1c4b_488_2_alg».proof.Proof.KernelIdealFrameP
import proofs.«141498_g68332929679506_cont_9to1c4b_488_2_alg».proof.Proof.KernelIdealValueP
import proofs.«141498_g68332929679506_cont_9to1c4b_488_2_alg».proof.Proof.KernelTail
import proofs.«141498_g68332929679506_cont_9to1c4b_488_2_alg».proof.Proof.RefProg
import proofs.«141498_g68332929679506_cont_9to1c4b_488_2_alg».proof.Proof.RefValue
import proofs.«141498_g68332929679506_cont_9to1c4b_488_2_alg».proof.Proof.Bridge
import proofs.«141498_g68332929679506_cont_9to1c4b_488_2_alg».proof.Proof.HeadKernel
import Idealize.ShloMosaic.Adequacy
import Idealize.ShloMosaic.Init

set_option maxRecDepth 8192

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

/-- The reference runs as a straight line of host operations; an argument array is written by none of them. -/
theorem frame_ri : Cert.frame_ReferenceIdeal := fun m ρ _ =>
  (θ_run Cert.ReferenceIdeal.defs _ _).mono (fun r h c =>
      ⟨(h c Cert.ReferenceIdeal.main_arg0).trans (Cert.ReferenceIdeal.Hand.kept (F := Ideal) m c Cert.ReferenceIdeal.main_arg0 rfl (by decide)),
       (h c Cert.ReferenceIdeal.main_arg1).trans (Cert.ReferenceIdeal.Hand.kept (F := Ideal) m c Cert.ReferenceIdeal.main_arg1 rfl (by decide)),
       (h c Cert.ReferenceIdeal.main_arg2).trans (Cert.ReferenceIdeal.Hand.kept (F := Ideal) m c Cert.ReferenceIdeal.main_arg2 rfl (by decide)),
       (h c Cert.ReferenceIdeal.main_arg3).trans (Cert.ReferenceIdeal.Hand.kept (F := Ideal) m c Cert.ReferenceIdeal.main_arg3 rfl (by decide)),
       (h c Cert.ReferenceIdeal.main_arg4).trans (Cert.ReferenceIdeal.Hand.kept (F := Ideal) m c Cert.ReferenceIdeal.main_arg4 rfl (by decide)),
       (h c Cert.ReferenceIdeal.main_arg5).trans (Cert.ReferenceIdeal.Hand.kept (F := Ideal) m c Cert.ReferenceIdeal.main_arg5 rfl (by decide)),
       (h c Cert.ReferenceIdeal.main_arg6).trans (Cert.ReferenceIdeal.Hand.kept (F := Ideal) m c Cert.ReferenceIdeal.main_arg6 rfl (by decide)),
       (h c Cert.ReferenceIdeal.main_arg7).trans (Cert.ReferenceIdeal.Hand.kept (F := Ideal) m c Cert.ReferenceIdeal.main_arg7 rfl (by decide)),
       (h c Cert.ReferenceIdeal.main_arg8).trans (Cert.ReferenceIdeal.Hand.kept (F := Ideal) m c Cert.ReferenceIdeal.main_arg8 rfl (by decide)),
       (h c Cert.ReferenceIdeal.main_arg9).trans (Cert.ReferenceIdeal.Hand.kept (F := Ideal) m c Cert.ReferenceIdeal.main_arg9 rfl (by decide)),
       (h c Cert.ReferenceIdeal.main_arg10).trans (Cert.ReferenceIdeal.Hand.kept (F := Ideal) m c Cert.ReferenceIdeal.main_arg10 rfl (by decide)),
       (h c Cert.ReferenceIdeal.main_arg11).trans (Cert.ReferenceIdeal.Hand.kept (F := Ideal) m c Cert.ReferenceIdeal.main_arg11 rfl (by decide)),
       (h c Cert.ReferenceIdeal.main_arg12).trans (Cert.ReferenceIdeal.Hand.kept (F := Ideal) m c Cert.ReferenceIdeal.main_arg12 rfl (by decide)),
       (h c Cert.ReferenceIdeal.main_arg13).trans (Cert.ReferenceIdeal.Hand.kept (F := Ideal) m c Cert.ReferenceIdeal.main_arg13 rfl (by decide)),
       (h c Cert.ReferenceIdeal.main_arg14).trans (Cert.ReferenceIdeal.Hand.kept (F := Ideal) m c Cert.ReferenceIdeal.main_arg14 rfl (by decide)),
       (h c Cert.ReferenceIdeal.main_arg15).trans (Cert.ReferenceIdeal.Hand.kept (F := Ideal) m c Cert.ReferenceIdeal.main_arg15 rfl (by decide)),
       (h c Cert.ReferenceIdeal.main_arg16).trans (Cert.ReferenceIdeal.Hand.kept (F := Ideal) m c Cert.ReferenceIdeal.main_arg16 rfl (by decide)),
       (h c Cert.ReferenceIdeal.main_arg17).trans (Cert.ReferenceIdeal.Hand.kept (F := Ideal) m c Cert.ReferenceIdeal.main_arg17 rfl (by decide))⟩)
    (Cert.ReferenceIdeal.Hand.run_all (F := Ideal) m ρ)

/-- The idealization rewrote no operation. -/
theorem preserves : Cert.preserves_Kernel_KernelIdeal := trivial

/-- Both results are the head of the same pooled features, weights and bias row. -/
theorem algebraic : Cert.algebraic_KernelIdeal_ReferenceIdeal := by
  intro m ρ m' ρ' _ hagree
  refine ⟨fun c => Cert.Head.head (Cert.ReferenceIdeal.HeadValue.W m' c Cert.ReferenceIdeal.main_v666) (Cert.ReferenceIdeal.HeadValue.W m' c Cert.ReferenceIdeal.main_arg16)
      (broadcastInDim Cert.ReferenceIdeal.S1x10 ![1] Cert.ReferenceIdeal.Gen.bcast_S10_S1x10_1 (Cert.ReferenceIdeal.HeadValue.W m' c Cert.ReferenceIdeal.main_arg17)), ?_, ?_⟩
  · refine (θ_run Cert.KernelIdeal.defs _ _).mono (fun r h c => ⟨(h c).1.trans ?_, (h c).2⟩) (Cert.KernelIdeal.HeadValue.run m ρ)
    obtain ⟨h0, h1, h2, h3, h4, h5, h6, h7, h8, h9, h10, h11, h12, h13, h14, h15, h16, h17⟩ := hagree c
    obtain ⟨e1, e2, e3⟩ := Cert.Bridge.pooled_agree m m' c h0 h1 h2 h3 h4 h5 h6 h7 h8 h9 h10 h11 h12 h13 h14 h15 h16 h17
    rw [Cert.KernelIdeal.Hand.V_pooled, Cert.KernelIdeal.Hand.V_weights, Cert.KernelIdeal.Hand.V_biasRow, e1, e2, e3]
  · exact (θ_run Cert.ReferenceIdeal.defs _ _).mono (fun r h c =>
      ⟨(h c Cert.ReferenceIdeal.main_v670).trans (Cert.ReferenceIdeal.HeadValue.result_head m' c),
       (h c Cert.ReferenceIdeal.main_arg0).trans (Cert.ReferenceIdeal.Hand.kept (F := Ideal) m' c Cert.ReferenceIdeal.main_arg0 rfl (by decide)),
       (h c Cert.ReferenceIdeal.main_arg1).trans (Cert.ReferenceIdeal.Hand.kept (F := Ideal) m' c Cert.ReferenceIdeal.main_arg1 rfl (by decide)),
       (h c Cert.ReferenceIdeal.main_arg2).trans (Cert.ReferenceIdeal.Hand.kept (F := Ideal) m' c Cert.ReferenceIdeal.main_arg2 rfl (by decide)),
       (h c Cert.ReferenceIdeal.main_arg3).trans (Cert.ReferenceIdeal.Hand.kept (F := Ideal) m' c Cert.ReferenceIdeal.main_arg3 rfl (by decide)),
       (h c Cert.ReferenceIdeal.main_arg4).trans (Cert.ReferenceIdeal.Hand.kept (F := Ideal) m' c Cert.ReferenceIdeal.main_arg4 rfl (by decide)),
       (h c Cert.ReferenceIdeal.main_arg5).trans (Cert.ReferenceIdeal.Hand.kept (F := Ideal) m' c Cert.ReferenceIdeal.main_arg5 rfl (by decide)),
       (h c Cert.ReferenceIdeal.main_arg6).trans (Cert.ReferenceIdeal.Hand.kept (F := Ideal) m' c Cert.ReferenceIdeal.main_arg6 rfl (by decide)),
       (h c Cert.ReferenceIdeal.main_arg7).trans (Cert.ReferenceIdeal.Hand.kept (F := Ideal) m' c Cert.ReferenceIdeal.main_arg7 rfl (by decide)),
       (h c Cert.ReferenceIdeal.main_arg8).trans (Cert.ReferenceIdeal.Hand.kept (F := Ideal) m' c Cert.ReferenceIdeal.main_arg8 rfl (by decide)),
       (h c Cert.ReferenceIdeal.main_arg9).trans (Cert.ReferenceIdeal.Hand.kept (F := Ideal) m' c Cert.ReferenceIdeal.main_arg9 rfl (by decide)),
       (h c Cert.ReferenceIdeal.main_arg10).trans (Cert.ReferenceIdeal.Hand.kept (F := Ideal) m' c Cert.ReferenceIdeal.main_arg10 rfl (by decide)),
       (h c Cert.ReferenceIdeal.main_arg11).trans (Cert.ReferenceIdeal.Hand.kept (F := Ideal) m' c Cert.ReferenceIdeal.main_arg11 rfl (by decide)),
       (h c Cert.ReferenceIdeal.main_arg12).trans (Cert.ReferenceIdeal.Hand.kept (F := Ideal) m' c Cert.ReferenceIdeal.main_arg12 rfl (by decide)),
       (h c Cert.ReferenceIdeal.main_arg13).trans (Cert.ReferenceIdeal.Hand.kept (F := Ideal) m' c Cert.ReferenceIdeal.main_arg13 rfl (by decide)),
       (h c Cert.ReferenceIdeal.main_arg14).trans (Cert.ReferenceIdeal.Hand.kept (F := Ideal) m' c Cert.ReferenceIdeal.main_arg14 rfl (by decide)),
       (h c Cert.ReferenceIdeal.main_arg15).trans (Cert.ReferenceIdeal.Hand.kept (F := Ideal) m' c Cert.ReferenceIdeal.main_arg15 rfl (by decide)),
       (h c Cert.ReferenceIdeal.main_arg16).trans (Cert.ReferenceIdeal.Hand.kept (F := Ideal) m' c Cert.ReferenceIdeal.main_arg16 rfl (by decide)),
       (h c Cert.ReferenceIdeal.main_arg17).trans (Cert.ReferenceIdeal.Hand.kept (F := Ideal) m' c Cert.ReferenceIdeal.main_arg17 rfl (by decide))⟩)
      (Cert.ReferenceIdeal.Hand.run_all (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
